-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S8192x512 : Shape := ⟨2, ![8192, 512]⟩
abbrev S2048x2048 : Shape := ⟨2, ![2048, 2048]⟩
abbrev S2048x8192x2 : Shape := ⟨3, ![2048, 8192, 2]⟩
abbrev S512x512 : Shape := ⟨2, ![512, 512]⟩
abbrev S512 : Shape := ⟨1, ![512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x8192x2 : S_.BroadcastsInDim S2048x8192x2 (![] : Fin 0 → Fin S2048x8192x2.rank)
  reducesTo_S2048x8192x2_S_d0_1_2 : S2048x8192x2.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_v48 main_v49 main_v50

def fn_part1 {F : FTy → Type} [FloatOps F] (main_arg4 : FVec F S2048x2048 .f32) (main_arg5 : FVec F S2048x8192x2 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x8192x2 .f32 := Host.absf main_arg5
  let main_cst_8 : FVec F S_ .f32 := constant S_ .f32 0x7F800000#32
  let main_v25 : FVec F S2048x8192x2 .f32 := broadcastInDim S2048x8192x2 ![] bcast_S_S2048x8192x2 main_cst_8
  let main_v26 : IVec S2048x8192x2 1 := cmpf .olt main_v24 main_v25
  let main_c_9 : IVec S_ 1 := constantI S_ 1 1#1
  let main_v27 : IVec S_ 1 := (fun x v => Host.reduce IntOp.andi x v reducesTo_S2048x8192x2_S_d0_1_2 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x512 .f32) (main_arg1 : FVec F S2048x512 .f32) (main_arg2 : FVec F S8192x512 .f32) (main_arg3 : FVec F S2048x2048 .f32) (main_arg4 : FVec F S2048x2048 .f32) (main_arg5 : FVec F S2048x8192x2 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_v13 main_v16
-- ==== Kernel.lean ====
abbrev S2048x512 : Shape := ⟨2, ![2048, 512]⟩
abbrev S8192x512 : Shape := ⟨2, ![8192, 512]⟩
abbrev S2048x2048 : Shape := ⟨2, ![2048, 2048]⟩
abbrev S2048x8192x2 : Shape := ⟨3, ![2048, 8192, 2]⟩
abbrev S512x512 : Shape := ⟨2, ![512, 512]⟩
abbrev S512 : Shape := ⟨1, ![512]⟩
abbrev S2048x8192x1 : Shape := ⟨3, ![2048, 8192, 1]⟩
abbrev S2048x8192 : Shape := ⟨2, ![2048, 8192]⟩
abbrev S1x512 : Shape := ⟨2, ![1, 512]⟩
abbrev S512x1 : Shape := ⟨2, ![512, 1]⟩
abbrev S_ : Shape := ⟨0, ![]⟩

abbrev nBuf : Space → Nat
  | .hbm => 42
  | .vmem => 67
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S8192x512, .f32⟩
  | .hbm, ⟨3, _⟩ => ⟨S2048x2048, .f32⟩
  | .hbm, ⟨4, _⟩ => ⟨S2048x2048, .f32⟩
  | .hbm, ⟨5, _⟩ => ⟨S2048x8192x2, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S2048x8192x1, .f32⟩
  | .hbm, ⟨13, _⟩ => ⟨S2048x8192, .f32⟩
  | .hbm, ⟨14, _⟩ => ⟨S2048x8192x1, .f32⟩
  | .hbm, ⟨15, _⟩ => ⟨S2048x8192, .f32⟩
  | .hbm, ⟨16, _⟩ => ⟨S1x512, .f32⟩
  | .hbm, ⟨17, _⟩ => ⟨S2048x512, .f32⟩
  | .hbm, ⟨18, _⟩ => ⟨S1x512, .f32⟩
  | .hbm, ⟨19, _⟩ => ⟨S2048x512, .f32⟩
  | .hbm, ⟨20, _⟩ => ⟨S1x512, .f32⟩
  | .hbm, ⟨21, _⟩ => ⟨S8192x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S2048x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S1x512, .f32⟩
  | .local _ .vmem, ⟨25, _⟩ => ⟨S512x512, .f32⟩
  | .local _ .vmem, ⟨26, _⟩ => ⟨S512x512, .f32⟩
  | .local _ .vmem, ⟨27, _⟩ => ⟨S2048x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x1, .f32⟩
  | .local _ .vmem, ⟨32, _⟩ => ⟨S512x512, .f32⟩
  | .local _ .vmem, ⟨33, _⟩ => ⟨S512x512, .f32⟩
  | .local _ .vmem, ⟨34, _⟩ => ⟨S2048x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x1, .f32⟩
  | .local _ .vmem, ⟨39, _⟩ => ⟨S512x512, .f32⟩
  | .local _ .vmem, ⟨40, _⟩ => ⟨S512x512, .f32⟩
  | .local _ .vmem, ⟨41, _⟩ => ⟨S8192x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x1, .f32⟩
  | .local _ .vmem, ⟨46, _⟩ => ⟨S512x512, .f32⟩
  | .local _ .vmem, ⟨47, _⟩ => ⟨S512x512, .f32⟩
  | .local _ .vmem, ⟨48, _⟩ => ⟨S8192x512, .f32⟩
  | .local _ .vmem, ⟨49, _⟩ => ⟨S512x512, .f32⟩
  | .local _ .vmem, ⟨50, _⟩ => ⟨S512x512, .f32⟩
  | .local _ .vmem, ⟨51, _⟩ => ⟨S512x512, .f32⟩
  | .local _ .vmem, ⟨52, _⟩ => ⟨S512x1, .f32⟩
  | .local _ .vmem, ⟨53, _⟩ => ⟨S512x512, .f32⟩
  | .local _ .vmem, ⟨54, _⟩ => ⟨S512x512, .f32⟩
  | .local _ .vmem, ⟨55, _⟩ => ⟨S2048x512, .f32⟩
  | .local _ .vmem, ⟨56, _⟩ => ⟨S512x512, .f32⟩
  | .local _ .vmem, ⟨57, _⟩ => ⟨S512x512, .f32⟩
  | .local _ .vmem, ⟨58, _⟩ => ⟨S512x512, .f32⟩
  | .local _ .vmem, ⟨59, _⟩ => ⟨S1x512, .f32⟩
  | .local _ .vmem, ⟨60, _⟩ => ⟨S512x512, .f32⟩
  | .local _ .vmem, ⟨61, _⟩ => ⟨S512x512, .f32⟩
  | .local _ .vmem, ⟨62, _⟩ => ⟨S2048x512, .f32⟩
  | .local _ .vmem, ⟨63, _⟩ => ⟨S512x512, .f32⟩
  | .local _ .vmem, ⟨64, _⟩ => ⟨S512x512, .f32⟩
  | .local _ .vmem, ⟨65, _⟩ => ⟨S512x512, .f32⟩
  | .local _ .vmem, ⟨66, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_scratch0 : Ref sig .tc := ⟨.vmem, 23, rfl⟩
abbrev cc3_scratch1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_scratch0 : Ref sig .tc := ⟨.vmem, 30, rfl⟩
abbrev cc4_scratch1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc5_scratch0 : Ref sig .tc := ⟨.vmem, 37, rfl⟩
abbrev cc5_scratch1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc6_scratch0 : Ref sig .tc := ⟨.vmem, 44, rfl⟩
abbrev cc6_scratch1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg2_1 : Ref sig .tc := ⟨.vmem, 50, rfl⟩
abbrev cc7_scratch0 : Ref sig .tc := ⟨.vmem, 51, rfl⟩
abbrev cc7_scratch1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg2_0 : Ref sig .tc := ⟨.vmem, 56, rfl⟩
abbrev cc8_stg2_1 : Ref sig .tc := ⟨.vmem, 57, rfl⟩
abbrev cc8_scratch0 : Ref sig .tc := ⟨.vmem, 58, rfl⟩
abbrev cc8_scratch1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg2_1 : Ref sig .tc := ⟨.vmem, 64, rfl⟩
abbrev cc9_scratch0 : Ref sig .tc := ⟨.vmem, 65, rfl⟩
abbrev cc9_scratch1 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47
abbrev cc9_sem0_0 : DmaSem sig := 48
abbrev cc9_sem0_1 : DmaSem sig := 49
abbrev cc9_sem1_0 : DmaSem sig := 50
abbrev cc9_sem2_0 : DmaSem sig := 51
abbrev cc9_sem2_1 : DmaSem sig := 52

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 4], ![false, false]⟩

def k3_mult1 (i : grid3.Coords) : BitVec 32 :=
  let arg1 : BitVec 32 := BitVec.ofNat 32 (i 1).val
  let c512_i32 : BitVec 32 := 512#32
  let v4 : BitVec 32 := Scalar.muli arg1 c512_i32
  v4
def k3_off1 (i : grid3.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v6 : Index := Scalar.indexCast v5
  let c0_2 : Index := 0#32
  ![v6.toNat, 0]
def k3_cond2 (i : grid3.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_12 : BitVec 32 := 0#32
  let v24 : BitVec 1 := Scalar.cmpi .ne v23 c0_i32_12
  v24

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S2048x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![4, 4], ![false, false]⟩

def k4_mult1 (i : grid4.Coords) : BitVec 32 :=
  let arg1 : BitVec 32 := BitVec.ofNat 32 (i 1).val
  let c512_i32 : BitVec 32 := 512#32
  let v4 : BitVec 32 := Scalar.muli arg1 c512_i32
  v4
def k4_off1 (i : grid4.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v6 : Index := Scalar.indexCast v5
  let c0_2 : Index := 0#32
  ![v6.toNat, 0]
def k4_cond2 (i : grid4.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_12 : BitVec 32 := 0#32
  let v24 : BitVec 1 := Scalar.cmpi .ne v23 c0_i32_12
  v24

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S2048x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![4, 4], ![false, false]⟩

def k5_mult1 (i : grid5.Coords) : BitVec 32 :=
  let arg1 : BitVec 32 := BitVec.ofNat 32 (i 1).val
  let c512_i32 : BitVec 32 := 512#32
  let v4 : BitVec 32 := Scalar.muli arg1 c512_i32
  v4
def k5_off1 (i : grid5.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v6 : Index := Scalar.indexCast v5
  let c0_2 : Index := 0#32
  ![v6.toNat, 0]
def k5_cond2 (i : grid5.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_12 : BitVec 32 := 0#32
  let v24 : BitVec 1 := Scalar.cmpi .ne v23 c0_i32_12
  v24

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S512x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S2048x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![4, 16], ![false, false]⟩

def k6_mult1 (i : grid6.Coords) : BitVec 32 :=
  let arg1 : BitVec 32 := BitVec.ofNat 32 (i 1).val
  let c512_i32 : BitVec 32 := 512#32
  let v5 : BitVec 32 := Scalar.muli arg1 c512_i32
  v5
def k6_off1 (i : grid6.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  let c0_2 : Index := 0#32
  ![v7.toNat, 0]
def k6_cond2 (i : grid6.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_12 : BitVec 32 := 0#32
  let v25 : BitVec 1 := Scalar.cmpi .ne v24 c0_i32_12
  v25

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S512x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S8192x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 2 → Memref sig .tc .vmem S512x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![4, 16], ![false, false]⟩

def k7_mult1 (i : grid7.Coords) : BitVec 32 :=
  let arg1 : BitVec 32 := BitVec.ofNat 32 (i 1).val
  let c512_i32 : BitVec 32 := 512#32
  let v5 : BitVec 32 := Scalar.muli arg1 c512_i32
  v5
def k7_off1 (i : grid7.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  let c0_2 : Index := 0#32
  ![v7.toNat, 0]
def k7_cond2 (i : grid7.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_12 : BitVec 32 := 0#32
  let v25 : BitVec 1 := Scalar.cmpi .ne v24 c0_i32_12
  v25

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S512x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S8192x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 2 → Memref sig .tc .vmem S512x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![16, 4], ![false, false]⟩

def k8_mult1 (i : grid8.Coords) : BitVec 32 :=
  let arg1 : BitVec 32 := BitVec.ofNat 32 (i 1).val
  let c512_i32 : BitVec 32 := 512#32
  let v5 : BitVec 32 := Scalar.muli arg1 c512_i32
  v5
def k8_off1 (i : grid8.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  let c0_2 : Index := 0#32
  ![v7.toNat, 0]
def k8_cond2 (i : grid8.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_12 : BitVec 32 := 0#32
  let v25 : BitVec 1 := Scalar.cmpi .ne v24 c0_i32_12
  v25

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S512x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S2048x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨2, ![16, 4], ![false, false]⟩

def k9_mult1 (i : grid9.Coords) : BitVec 32 :=
  let arg1 : BitVec 32 := BitVec.ofNat 32 (i 1).val
  let c512_i32 : BitVec 32 := 512#32
  let v5 : BitVec 32 := Scalar.muli arg1 c512_i32
  v5
def k9_off1 (i : grid9.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  let c0_2 : Index := 0#32
  ![v7.toNat, 0]
def k9_cond2 (i : grid9.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_12 : BitVec 32 := 0#32
  let v25 : BitVec 1 := Scalar.cmpi .ne v24 c0_i32_12
  v25

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S512x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S2048x512 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false]

abbrev stage9_2 : Fin 2 → Memref sig .tc .vmem S512x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

class Facts₀ : Prop where
  slices_S2048x8192x2_S2048x8192x1_0_0_0 : S2048x8192x2.Slices ![0, 0, 0] S2048x8192x1
  shapeCasts_S2048x8192x1_S2048x8192 : S2048x8192x1.ShapeCasts S2048x8192
  slices_S2048x8192x2_S2048x8192x1_0_0_1 : S2048x8192x2.Slices ![0, 0, 1] S2048x8192x1
  shapeCasts_S512_S1x512 : S512.ShapeCasts S1x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x512_S512x512 : S512x512.ShapeCasts S512x512
  reduces_S512x512_S512 : S512x512.Reduces [0] S512
  transposes_S1x512_p1_0_S512x1 : S1x512.Transposes [1, 0] S512x1
  broadcasts_S512x1_S512x512 : S512x1.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x512_S512_2 : S512x512.Reduces [1] S512
  shapeCasts_S512_S512x1 : S512.ShapeCasts S512x1
  bcast_S_S2048x512 : S_.BroadcastsInDim S2048x512 (![] : Fin 0 → Fin S2048x512.rank)
  bcast_S_S8192x512 : S_.BroadcastsInDim S8192x512 (![] : Fin 0 → Fin S8192x512.rank)
  dot_S512x512_S512x512_S512x512_1_1_0_0_n_n_wf : DotDims.WF S512x512 S512x512 S512x512 [1] [1] [0] [0] [] []
  dot_S512x512_S512x512_S512x512_0_0_1_1_n_n_wf : DotDims.WF S512x512 S512x512 S512x512 [0] [0] [1] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x512.size a
  hwx0_0 : ∀ i : grid0.Coords, EltTy.bits .f32 = 32 ∨ (Rect.block (s := S2048x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x512.size a
  hwx0_3 : ∀ i : grid0.Coords, EltTy.bits .f32 = 32 ∨ (Rect.block (s := S2048x512) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S2048x512.size a
  hwx1_0 : ∀ i : grid1.Coords, EltTy.bits .f32 = 32 ∨ (Rect.block (s := S2048x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S2048x512.size a
  hwx1_3 : ∀ i : grid1.Coords, EltTy.bits .f32 = 32 ∨ (Rect.block (s := S2048x512) S512x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x512.size a
  hwx2_0 : ∀ i : grid2.Coords, EltTy.bits .f32 = 32 ∨ (Rect.block (s := S8192x512) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S8192x512.size a
  hwx2_3 : ∀ i : grid2.Coords, EltTy.bits .f32 = 32 ∨ (Rect.block (s := S8192x512) S512x512.size (cc2_transform_3 i) (hinb2_3 i)).WholeWords (EltTy.packing .f32)
  hrank3 : 0 < grid3.rank
  k3_mult1_dvd : ∀ i : grid3.Coords, 512 ∣ (k3_mult1 i).toNat
  k3_off1_inb : ∀ i : grid3.Coords, ∀ a, (k3_off1 i) a + S512x512.size a ≤ S2048x512.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S2048x2048.size a
  hwx3_0 : ∀ i : grid3.Coords, EltTy.bits .f32 = 32 ∨ (Rect.block (s := S2048x2048) S512x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S2048x512.size a
  hwx3_1 : ∀ i : grid3.Coords, EltTy.bits .f32 = 32 ∨ (Rect.block (s := S2048x512) S2048x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S2048x512.size a
  hwx3_2 : ∀ i : grid3.Coords, EltTy.bits .f32 = 32 ∨ (Rect.block (s := S2048x512) S512x512.size (cc3_transform_2 i) (hinb3_2 i)).WholeWords (EltTy.packing .f32)
  hrank4 : 0 < grid4.rank
  k4_mult1_dvd : ∀ i : grid4.Coords, 512 ∣ (k4_mult1 i).toNat
  k4_off1_inb : ∀ i : grid4.Coords, ∀ a, (k4_off1 i) a + S512x512.size a ≤ S2048x512.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S2048x2048.size a
  hwx4_0 : ∀ i : grid4.Coords, EltTy.bits .f32 = 32 ∨ (Rect.block (s := S2048x2048) S512x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x512.size a ≤ S2048x512.size a
  hwx4_1 : ∀ i : grid4.Coords, EltTy.bits .f32 = 32 ∨ (Rect.block (s := S2048x512) S2048x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x512.size a ≤ S2048x512.size a
  hwx4_2 : ∀ i : grid4.Coords, EltTy.bits .f32 = 32 ∨ (Rect.block (s := S2048x512) S512x512.size (cc4_transform_2 i) (hinb4_2 i)).WholeWords (EltTy.packing .f32)
  hrank5 : 0 < grid5.rank
  k5_mult1_dvd : ∀ i : grid5.Coords, 512 ∣ (k5_mult1 i).toNat
  k5_off1_inb : ∀ i : grid5.Coords, ∀ a, (k5_off1 i) a + S512x512.size a ≤ S2048x512.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x512.size a ≤ S2048x2048.size a
  hwx5_0 : ∀ i : grid5.Coords, EltTy.bits .f32 = 32 ∨ (Rect.block (s := S2048x2048) S512x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x512.size a ≤ S2048x512.size a
  hwx5_1 : ∀ i : grid5.Coords, EltTy.bits .f32 = 32 ∨ (Rect.block (s := S2048x512) S2048x512.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x512.size a ≤ S2048x512.size a
  hwx5_2 : ∀ i : grid5.Coords, EltTy.bits .f32 = 32 ∨ (Rect.block (s := S2048x512) S512x512.size (cc5_transform_2 i) (hinb5_2 i)).WholeWords (EltTy.packing .f32)
  hrank6 : 0 < grid6.rank
  k6_mult1_dvd : ∀ i : grid6.Coords, 512 ∣ (k6_mult1 i).toNat
  k6_off1_inb : ∀ i : grid6.Coords, ∀ a, (k6_off1 i) a + S512x512.size a ≤ S8192x512.size a
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x512.size a ≤ S2048x8192.size a
  hwx6_0 : ∀ i : grid6.Coords, EltTy.bits .f32 = 32 ∨ (Rect.block (s := S2048x8192) S512x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8192x512.size a ≤ S8192x512.size a
  hwx6_1 : ∀ i : grid6.Coords, EltTy.bits .f32 = 32 ∨ (Rect.block (s := S8192x512) S8192x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x512.size a ≤ S2048x512.size a
  hwx6_2 : ∀ i : grid6.Coords, EltTy.bits .f32 = 32 ∨ (Rect.block (s := S2048x512) S512x512.size (cc6_transform_2 i) (hinb6_2 i)).WholeWords (EltTy.packing .f32)
  hrank7 : 0 < grid7.rank
  k7_mult1_dvd : ∀ i : grid7.Coords, 512 ∣ (k7_mult1 i).toNat
  k7_off1_inb : ∀ i : grid7.Coords, ∀ a, (k7_off1 i) a + S512x512.size a ≤ S8192x512.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x512.size a ≤ S2048x8192.size a
  hwx7_0 : ∀ i : grid7.Coords, EltTy.bits .f32 = 32 ∨ (Rect.block (s := S2048x8192) S512x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S8192x512.size a ≤ S8192x512.size a
  hwx7_1 : ∀ i : grid7.Coords, EltTy.bits .f32 = 32 ∨ (Rect.block (s := S8192x512) S8192x512.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x512.size a ≤ S2048x512.size a
  hwx7_2 : ∀ i : grid7.Coords, EltTy.bits .f32 = 32 ∨ (Rect.block (s := S2048x512) S512x512.size (cc7_transform_2 i) (hinb7_2 i)).WholeWords (EltTy.packing .f32)
  hrank8 : 0 < grid8.rank
  k8_mult1_dvd : ∀ i : grid8.Coords, 512 ∣ (k8_mult1 i).toNat
  k8_off1_inb : ∀ i : grid8.Coords, ∀ a, (k8_off1 i) a + S512x512.size a ≤ S2048x512.size a
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x512.size a ≤ S2048x8192.size a
  hwx8_0 : ∀ i : grid8.Coords, EltTy.bits .f32 = 32 ∨ (Rect.block (s := S2048x8192) S512x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S2048x512.size a ≤ S2048x512.size a
  hwx8_1 : ∀ i : grid8.Coords, EltTy.bits .f32 = 32 ∨ (Rect.block (s := S2048x512) S2048x512.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S512x512.size a ≤ S8192x512.size a
  hwx8_2 : ∀ i : grid8.Coords, EltTy.bits .f32 = 32 ∨ (Rect.block (s := S8192x512) S512x512.size (cc8_transform_2 i) (hinb8_2 i)).WholeWords (EltTy.packing .f32)
  hrank9 : 0 < grid9.rank
  k9_mult1_dvd : ∀ i : grid9.Coords, 512 ∣ (k9_mult1 i).toNat
  k9_off1_inb : ∀ i : grid9.Coords, ∀ a, (k9_off1 i) a + S512x512.size a ≤ S2048x512.size a
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S512x512.size a ≤ S2048x8192.size a
  hwx9_0 : ∀ i : grid9.Coords, EltTy.bits .f32 = 32 ∨ (Rect.block (s := S2048x8192) S512x512.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S2048x512.size a ≤ S2048x512.size a
  hwx9_1 : ∀ i : grid9.Coords, EltTy.bits .f32 = 32 ∨ (Rect.block (s := S2048x512) S2048x512.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S512x512.size a ≤ S8192x512.size a
  hwx9_2 : ∀ i : grid9.Coords, EltTy.bits .f32 = 32 ∨ (Rect.block (s := S8192x512) S512x512.size (cc9_transform_2 i) (hinb9_2 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg3) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S2048x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S512x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_arg3) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S2048x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S512x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_arg4) S512x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S2048x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v13) S512x512.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v1) S512x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v9) S8192x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v14) S512x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v3) S512x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v9) S8192x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v15) S512x512.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v1) S512x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v5) S2048x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v22) S512x512.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v3) S512x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v5) S2048x512.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v23) S512x512.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

class Facts : Prop extends Facts₀ where

variable [Facts]
-- ==== ReferenceIdeal.lean ====
abbrev S2048x512 : Shape := ⟨2, ![2048, 512]⟩
abbrev S8192x512 : Shape := ⟨2, ![8192, 512]⟩
abbrev S2048x2048 : Shape := ⟨2, ![2048, 2048]⟩
abbrev S2048x8192x2 : Shape := ⟨3, ![2048, 8192, 2]⟩
abbrev S512x512 : Shape := ⟨2, ![512, 512]⟩
abbrev S512 : Shape := ⟨1, ![512]⟩
abbrev S1x512 : Shape := ⟨2, ![1, 512]⟩
abbrev S_ : Shape := ⟨0, ![]⟩
abbrev S2048 : Shape := ⟨1, ![2048]⟩
abbrev S2048x1 : Shape := ⟨2, ![2048, 1]⟩
abbrev S2048x8192x1 : Shape := ⟨3, ![2048, 8192, 1]⟩
abbrev S2048x8192 : Shape := ⟨2, ![2048, 8192]⟩
abbrev S8192x2048 : Shape := ⟨2, ![8192, 2048]⟩
abbrev S8192 : Shape := ⟨1, ![8192]⟩
abbrev S8192x1 : Shape := ⟨2, ![8192, 1]⟩

abbrev nBuf : Space → Nat
  | .hbm => 151
  | .vmem => 0
  | .smem => 0
  | _ => 0

abbrev hbmTy0_0 (i : Nat) : BufTy := match i % 128 with
  | 0 => ⟨S2048x512, .f32⟩
  | 1 => ⟨S2048x512, .f32⟩
  | 2 => ⟨S8192x512, .f32⟩
  | 3 => ⟨S2048x2048, .f32⟩
  | 4 => ⟨S2048x2048, .f32⟩
  | 5 => ⟨S2048x8192x2, .f32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S2048x2048, .f32⟩
  | 13 => ⟨S512x512, .f32⟩
  | 14 => ⟨S2048x512, .f32⟩
  | 15 => ⟨S1x512, .f32⟩
  | 16 => ⟨S2048x512, .f32⟩
  | 17 => ⟨S2048x512, .f32⟩
  | 18 => ⟨S_, .f32⟩
  | 19 => ⟨S2048x512, .f32⟩
  | 20 => ⟨S2048x512, .f32⟩
  | 21 => ⟨S2048x512, .f32⟩
  | 22 => ⟨S_, .f32⟩
  | 23 => ⟨S2048, .f32⟩
  | 24 => ⟨S2048x1, .f32⟩
  | 25 => ⟨S_, .f32⟩
  | 26 => ⟨S2048x1, .f32⟩
  | 27 => ⟨S2048x1, .f32⟩
  | 28 => ⟨S2048x512, .f32⟩
  | 29 => ⟨S2048x512, .f32⟩
  | 30 => ⟨S2048x512, .f32⟩
  | 31 => ⟨S512x512, .f32⟩
  | 32 => ⟨S2048x512, .f32⟩
  | 33 => ⟨S1x512, .f32⟩
  | 34 => ⟨S2048x512, .f32⟩
  | 35 => ⟨S2048x512, .f32⟩
  | 36 => ⟨S_, .f32⟩
  | 37 => ⟨S2048x512, .f32⟩
  | 38 => ⟨S2048x512, .f32⟩
  | 39 => ⟨S2048x512, .f32⟩
  | 40 => ⟨S_, .f32⟩
  | 41 => ⟨S2048, .f32⟩
  | 42 => ⟨S2048x1, .f32⟩
  | 43 => ⟨S_, .f32⟩
  | 44 => ⟨S2048x1, .f32⟩
  | 45 => ⟨S2048x1, .f32⟩
  | 46 => ⟨S2048x512, .f32⟩
  | 47 => ⟨S2048x512, .f32⟩
  | 48 => ⟨S512x512, .f32⟩
  | 49 => ⟨S2048x512, .f32⟩
  | 50 => ⟨S1x512, .f32⟩
  | 51 => ⟨S2048x512, .f32⟩
  | 52 => ⟨S2048x512, .f32⟩
  | 53 => ⟨S_, .f32⟩
  | 54 => ⟨S2048x512, .f32⟩
  | 55 => ⟨S2048x512, .f32⟩
  | 56 => ⟨S2048x512, .f32⟩
  | 57 => ⟨S_, .f32⟩
  | 58 => ⟨S2048, .f32⟩
  | 59 => ⟨S2048x1, .f32⟩
  | 60 => ⟨S_, .f32⟩
  | 61 => ⟨S2048x1, .f32⟩
  | 62 => ⟨S2048x1, .f32⟩
  | 63 => ⟨S2048x512, .f32⟩
  | 64 => ⟨S2048x512, .f32⟩
  | 65 => ⟨S2048x8192x1, .f32⟩
  | 66 => ⟨S2048x8192, .f32⟩
  | 67 => ⟨S2048x8192x1, .f32⟩
  | 68 => ⟨S2048x8192, .f32⟩
  | 69 => ⟨S512x512, .f32⟩
  | 70 => ⟨S8192x512, .f32⟩
  | 71 => ⟨S1x512, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S2048x512, .f32⟩
  | 78 => ⟨S_, .f32⟩
  | 79 => ⟨S2048, .f32⟩
  | 80 => ⟨S2048x1, .f32⟩
  | 81 => ⟨S_, .f32⟩
  | 82 => ⟨S2048x1, .f32⟩
  | 83 => ⟨S2048x1, .f32⟩
  | 84 => ⟨S2048x512, .f32⟩
  | 85 => ⟨S2048x512, .f32⟩
  | 86 => ⟨S512x512, .f32⟩
  | 87 => ⟨S8192x512, .f32⟩
  | 88 => ⟨S1x512, .f32⟩
  | 89 => ⟨S8192x512, .f32⟩
  | 90 => ⟨S8192x512, .f32⟩
  | 91 => ⟨S_, .f32⟩
  | 92 => ⟨S8192x512, .f32⟩
  | 93 => ⟨S8192x512, .f32⟩
  | 94 => ⟨S2048x512, .f32⟩
  | 95 => ⟨S_, .f32⟩
  | 96 => ⟨S2048, .f32⟩
  | 97 => ⟨S2048x1, .f32⟩
  | 98 => ⟨S_, .f32⟩
  | 99 => ⟨S2048x1, .f32⟩
  | 100 => ⟨S2048x1, .f32⟩
  | 101 => ⟨S2048x512, .f32⟩
  | 102 => ⟨S2048x512, .f32⟩
  | 103 => ⟨S2048x512, .f32⟩
  | 104 => ⟨S2048x512, .f32⟩
  | 105 => ⟨S2048x512, .f32⟩
  | 106 => ⟨S_, .f32⟩
  | 107 => ⟨S2048x512, .f32⟩
  | 108 => ⟨S2048x512, .f32⟩
  | 109 => ⟨S2048x512, .f32⟩
  | 110 => ⟨S8192x2048, .f32⟩
  | 111 => ⟨S512x512, .f32⟩
  | 112 => ⟨S2048x512, .f32⟩
  | 113 => ⟨S1x512, .f32⟩
  | 114 => ⟨S2048x512, .f32⟩
  | 115 => ⟨S2048x512, .f32⟩
  | 116 => ⟨S_, .f32⟩
  | 117 => ⟨S2048x512, .f32⟩
  | 118 => ⟨S2048x512, .f32⟩
  | 119 => ⟨S8192x512, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S8192x512, .f32⟩
  | 127 => ⟨S8192x512, .f32⟩
  | _ => ⟨S2048x512, .f32⟩

abbrev hbmTy0_1 (i : Nat) : BufTy := match i % 128 with
  | 0 => ⟨S8192x2048, .f32⟩
  | 1 => ⟨S512x512, .f32⟩
  | 2 => ⟨S2048x512, .f32⟩
  | 3 => ⟨S1x512, .f32⟩
  | 4 => ⟨S2048x512, .f32⟩
  | 5 => ⟨S2048x512, .f32⟩
  | 6 => ⟨S_, .f32⟩
  | 7 => ⟨S2048x512, .f32⟩
  | 8 => ⟨S2048x512, .f32⟩
  | 9 => ⟨S8192x512, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S8192x512, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_cst : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_cst : Ref sig .tc := ⟨.hbm, 36, rfl⟩
abbrev main_call1_v0 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_cst : Ref sig .tc := ⟨.hbm, 53, rfl⟩
abbrev main_call2_v0 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call3_cst : Ref sig .tc := ⟨.hbm, 74, rfl⟩
abbrev main_call3_v0 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_v53 : Ref sig .tc := ⟨.hbm, 80, rfl⟩
abbrev main_cst_6 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call4_cst : Ref sig .tc := ⟨.hbm, 91, rfl⟩
abbrev main_call4_v0 : Ref sig .tc := ⟨.hbm, 92, rfl⟩
abbrev main_v63 : Ref sig .tc := ⟨.hbm, 93, rfl⟩
abbrev main_v64 : Ref sig .tc := ⟨.hbm, 94, rfl⟩
abbrev main_cst_7 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_9 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call5_cst : Ref sig .tc := ⟨.hbm, 116, rfl⟩
abbrev main_call5_v0 : Ref sig .tc := ⟨.hbm, 117, rfl⟩
abbrev main_v83 : Ref sig .tc := ⟨.hbm, 118, rfl⟩
abbrev main_v84 : Ref sig .tc := ⟨.hbm, 119, rfl⟩
abbrev main_cst_10 : Ref sig .tc := ⟨.hbm, 120, rfl⟩
abbrev main_v85 : Ref sig .tc := ⟨.hbm, 121, rfl⟩
abbrev main_v86 : Ref sig .tc := ⟨.hbm, 122, rfl⟩
abbrev main_cst_11 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_call6_cst : Ref sig .tc := ⟨.hbm, 134, rfl⟩
abbrev main_call6_v0 : Ref sig .tc := ⟨.hbm, 135, rfl⟩
abbrev main_v97 : Ref sig .tc := ⟨.hbm, 136, rfl⟩
abbrev main_v98 : Ref sig .tc := ⟨.hbm, 137, rfl⟩
abbrev main_cst_12 : Ref sig .tc := ⟨.hbm, 138, rfl⟩
abbrev main_v99 : Ref sig .tc := ⟨.hbm, 139, rfl⟩
abbrev main_v100 : Ref sig .tc := ⟨.hbm, 140, rfl⟩
abbrev main_cst_13 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_14 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩

abbrev nD : Nat := 1
abbrev τ : Topo := Topo.v7x

variable {F : FTy → Type} [FloatOps F]

class Facts₀ : Prop where
  transposes_S2048x2048_S2048x2048_1_0 : S2048x2048.Transposes [1, 0] S2048x2048
  transposes_S512x512_S512x512_1_0 : S512x512.Transposes [1, 0] S512x512
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  slices_S2048x8192x2_S2048x8192x1_0_0_0 : S2048x8192x2.Slices ![0, 0, 0] S2048x8192x1
  shapeCasts_S2048x8192x1_S2048x8192 : S2048x8192x1.ShapeCasts S2048x8192
  slices_S2048x8192x2_S2048x8192x1_0_0_1 : S2048x8192x2.Slices ![0, 0, 1] S2048x8192x1
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  reducesTo_S2048x8192_S2048_d1 : S2048x8192.ReducesTo [1] S2048
  transposes_S2048x8192_S8192x2048_1_0 : S2048x8192.Transposes [1, 0] S8192x2048
  reducesTo_S8192x2048_S8192_d1 : S8192x2048.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  dot_S2048x512_S512x512_S2048x512_1_0_0_1_n_n_wf : DotDims.WF S2048x512 S512x512 S2048x512 [1] [0] [0] [1] [] []
  dot_S2048x2048_S2048x512_S2048x512_1_0_0_1_n_n_wf : DotDims.WF S2048x2048 S2048x512 S2048x512 [1] [0] [0] [1] [] []
  dot_S8192x512_S512x512_S8192x512_1_0_0_1_n_n_wf : DotDims.WF S8192x512 S512x512 S8192x512 [1] [0] [0] [1] [] []
  dot_S2048x8192_S8192x512_S2048x512_1_0_0_1_n_n_wf : DotDims.WF S2048x8192 S8192x512 S2048x512 [1] [0] [0] [1] [] []
  dot_S8192x2048_S2048x512_S8192x512_1_0_0_1_n_n_wf : DotDims.WF S8192x2048 S2048x512 S8192x512 [1] [0] [0] [1] [] []

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S2048x8192_S8192x512_S2048x512_1_0_0_1_n_n : DotDims S2048x8192 S8192x512 S2048x512 where
  lhsContracting := [1]
  rhsContracting := [0]
  lhsNonContracting := [0]
  rhsNonContracting := [1]
  lhsBatch := []
  rhsBatch := []
  wf := dot_S2048x8192_S8192x512_S2048x512_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf

class Facts : Prop extends Facts₀ where

variable [Facts]
-- ==== Proof.K.Lin.lean ====
import proofs.«145590_j23742579212572_2_alg».proof.Proof.Gen.Kernel.Launch
import proofs.«145590_j23742579212572_2_alg».proof.Proof.Gen.Kernel.Skeleton
import proofs.«145590_j23742579212572_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The three linear-plus-relu regions (custom_calls 0, 1, 2)

Each region computes, block row by block row, `max (src · Wᵀ + b) 0`: a point of the grid reads one 512×512 block of
the source, the whole weight and the bias row, and overwrites the 512×512 result block with one store. Nothing is
carried from point to point, so what the result window's buffer holds after the body is a closed function of the
three input blocks at that point. This module states, per region and at arbitrary entry contents `V` of the
TensorCore's buffers: the blocks the windows read, the result block as the canonical contents of the single store,
the pipeline's proof data, and the body obligation at every point of the grid. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 0: custom_call 0, the linear-plus-relu kernel, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source window's staging buffer holds the source block of the point, for any proof data over `V`'s array
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the weight at every point although it is fetched at the first only:
    its block index never moves, so an unfetched point finds the previous point's block, which is its own. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's staging buffer holds the bias row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the whole 512×512 block, the whole 1×512 row -/

abbrev r0_sq : Rect S512x512 := Rect.unit (s := S512x512) ![0, 0] S512x512.size inb_S512x512_S512x512_0_0
abbrev r0_row : Rect S1x512 := Rect.unit (s := S1x512) ![0, 0] S1x512.size inb_S1x512_S1x512_0_0

/-! ## What the body leaves in the result window's buffer -/

/-- The result block after the body, from the three input blocks: the single whole-block store of
    `max (x0 · x1ᵀ + x2) 0` as a one-piece canonical write. -/
def out0_3 (x0 : Vec F S512x512 .f32) (x1 : Vec F S512x512 .f32) (x2 : Vec F S1x512 .f32) : Vec F S512x512 .f32 :=
  View.canon [⟨r0_sq, k0_pay1 (View.ld x0 r0_sq) (View.ld x1 r0_sq) (View.ld x2 r0_row)⟩]

/-- The one store's rectangle is the whole block, so it covers it. -/
theorem cover0_3 (p0 : Vec F S512x512 .f32) (y : S512x512.Idx) :
    ∃ pc ∈ ([⟨r0_sq, p0⟩] : List (View.Piece (Elt F) S512x512 .f32)), y ∈ pc.1.set :=
  View.cover_of_tiled [⟨r0_sq, p0⟩] S512x512.size (by rfl) y

/-! ## The body's triple -/

set_option maxHeartbeats 1000000 in
/-- The body on whole staging memrefs — the three inputs at read contents `x0 x1 x2`, the result's at anything —
    runs to the continuation with the inputs untouched and the result's buffer at `out0_3 x0 x1 x2`. The body reads
    the result buffer once before overwriting it; that value is discarded. -/
theorem sound_kernel0 (c : Dev nD) (E : Set ℕ) (i : grid0.Coords)
    (arg0 : Memref sig .tc .vmem S512x512 .f32) (harg0 : arg0.IsWhole) (arg1 : Memref sig .tc .vmem S512x512 .f32) (harg1 : arg1.IsWhole)
    (arg2 : Memref sig .tc .vmem S1x512 .f32) (harg2 : arg2.IsWhole) (arg3 : Memref sig .tc .vmem S512x512 .f32) (harg3 : arg3.IsWhole)
    (x0 : Vec F S512x512 .f32) (x1 : Vec F S512x512 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__lin_relu_kernel i arg0 harg0 arg1 harg1 arg2 harg2 arg3 harg3) K := by
  simp only [cc0__lin_relu_kernel_eq_skeleton]; unfold cc0__lin_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them; after the body at point `t` each
    input's buffer at its block and the result's at `out0_3` of the three; the invariant of the plain class (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: custom_call 1, the linear-plus-relu kernel, at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The source window's staging buffer holds the source block of the point, for any proof data over `V`'s array
    whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds the weight at every point although it is fetched at the first only:
    its block index never moves, so an unfetched point finds the previous point's block, which is its own. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds the bias row at every point, for the same reason. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole 512×512 block, the whole 1×512 row -/

abbrev r1_sq : Rect S512x512 := Rect.unit (s := S512x512) ![0, 0] S512x512.size inb_S512x512_S512x512_0_0
abbrev r1_row : Rect S1x512 := Rect.unit (s := S1x512) ![0, 0] S1x512.size inb_S1x512_S1x512_0_0

/-! ## What the body leaves in the result window's buffer -/

/-- The result block after the body, from the three input blocks: the single whole-block store of
    `max (x0 · x1ᵀ + x2) 0` as a one-piece canonical write. -/
def out1_3 (x0 : Vec F S512x512 .f32) (x1 : Vec F S512x512 .f32) (x2 : Vec F S1x512 .f32) : Vec F S512x512 .f32 :=
  View.canon [⟨r1_sq, k1_pay1 (View.ld x0 r1_sq) (View.ld x1 r1_sq) (View.ld x2 r1_row)⟩]

/-- The one store's rectangle is the whole block, so it covers it. -/
theorem cover1_3 (p0 : Vec F S512x512 .f32) (y : S512x512.Idx) :
    ∃ pc ∈ ([⟨r1_sq, p0⟩] : List (View.Piece (Elt F) S512x512 .f32)), y ∈ pc.1.set :=
  View.cover_of_tiled [⟨r1_sq, p0⟩] S512x512.size (by rfl) y

/-! ## The body's triple -/

set_option maxHeartbeats 1000000 in
/-- The body on whole staging memrefs — the three inputs at read contents `x0 x1 x2`, the result's at anything —
    runs to the continuation with the inputs untouched and the result's buffer at `out1_3 x0 x1 x2`. The body reads
    the result buffer once before overwriting it; that value is discarded. -/
theorem sound_kernel1 (c : Dev nD) (E : Set ℕ) (i : grid1.Coords)
    (arg0 : Memref sig .tc .vmem S512x512 .f32) (harg0 : arg0.IsWhole) (arg1 : Memref sig .tc .vmem S512x512 .f32) (harg1 : arg1.IsWhole)
    (arg2 : Memref sig .tc .vmem S1x512 .f32) (harg2 : arg2.IsWhole) (arg3 : Memref sig .tc .vmem S512x512 .f32) (harg3 : arg3.IsWhole)
    (x0 : Vec F S512x512 .f32) (x1 : Vec F S512x512 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__lin_relu_kernel i arg0 harg0 arg1 harg1 arg2 harg2 arg3 harg3) K := by
  simp only [cc1__lin_relu_kernel_eq_skeleton]; unfold cc1__lin_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them; after the body at point `t` each
    input's buffer at its block and the result's at `out1_3` of the three; the invariant of the plain class (the
    scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: custom_call 2, the linear-plus-relu kernel, at the entry contents `V` -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The source window's staging buffer holds the source block of the point, for any proof data over `V`'s array
    whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the weight at every point although it is fetched at the first only:
    its block index never moves, so an unfetched point finds the previous point's block, which is its own. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias window's staging buffer holds the bias row at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: the whole 512×512 block, the whole 1×512 row -/

abbrev r2_sq : Rect S512x512 := Rect.unit (s := S512x512) ![0, 0] S512x512.size inb_S512x512_S512x512_0_0
abbrev r2_row : Rect S1x512 := Rect.unit (s := S1x512) ![0, 0] S1x512.size inb_S1x512_S1x512_0_0

/-! ## What the body leaves in the result window's buffer -/

/-- The result block after the body, from the three input blocks: the single whole-block store of
    `max (x0 · x1ᵀ + x2) 0` as a one-piece canonical write. -/
def out2_3 (x0 : Vec F S512x512 .f32) (x1 : Vec F S512x512 .f32) (x2 : Vec F S1x512 .f32) : Vec F S512x512 .f32 :=
  View.canon [⟨r2_sq, k2_pay1 (View.ld x0 r2_sq) (View.ld x1 r2_sq) (View.ld x2 r2_row)⟩]

/-- The one store's rectangle is the whole block, so it covers it. -/
theorem cover2_3 (p0 : Vec F S512x512 .f32) (y : S512x512.Idx) :
    ∃ pc ∈ ([⟨r2_sq, p0⟩] : List (View.Piece (Elt F) S512x512 .f32)), y ∈ pc.1.set :=
  View.cover_of_tiled [⟨r2_sq, p0⟩] S512x512.size (by rfl) y

/-! ## The body's triple -/

set_option maxHeartbeats 1000000 in
/-- The body on whole staging memrefs — the three inputs at read contents `x0 x1 x2`, the result's at anything —
    runs to the continuation with the inputs untouched and the result's buffer at `out2_3 x0 x1 x2`. The body reads
    the result buffer once before overwriting it; that value is discarded. -/
theorem sound_kernel2 (c : Dev nD) (E : Set ℕ) (i : grid2.Coords)
    (arg0 : Memref sig .tc .vmem S512x512 .f32) (harg0 : arg0.IsWhole) (arg1 : Memref sig .tc .vmem S512x512 .f32) (harg1 : arg1.IsWhole)
    (arg2 : Memref sig .tc .vmem S1x512 .f32) (harg2 : arg2.IsWhole) (arg3 : Memref sig .tc .vmem S512x512 .f32) (harg3 : arg3.IsWhole)
    (x0 : Vec F S512x512 .f32) (x1 : Vec F S512x512 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__lin_relu_kernel i arg0 harg0 arg1 harg1 arg2 harg2 arg3 harg3) K := by
  simp only [cc2__lin_relu_kernel_eq_skeleton]; unfold cc2__lin_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region on core `c`: the arrays as the region finds them; after the body at point `t` each
    input's buffer at its block and the result's at `out2_3` of the three; the invariant of the plain class (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.K.R3Runs.lean ====
/- Region 3 (the transposed collect: acc += raw^T-block · fc-block over the inner grid axis k, row sums of the
   raw block along axis 0 beside it, the quotient acc / (rs + ε) written under k = 3): what the three control cases'
   runs share. The branch conditions decided over the 4 × 4 grid (t = 4·i + k), where the result window is idle,
   the staging and scratch memrefs, and the region invariant with both accumulators split out of the scoped rest. -/
import proofs.«145590_j23742579212572_2_alg».proof.Proof.Gen.Kernel.Launch
import proofs.«145590_j23742579212572_2_alg».proof.Proof.Gen.Kernel.Skeleton
import proofs.«145590_j23742579212572_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The raw block (window 0) sits in its current staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole of fc (window 1), fetched once, sits in its staging buffer at every point: its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The body's two branch conditions -/

/-- "k = 0": the accumulators are reset. -/
abbrev cond3_0 (i : grid3.Coords) : Prop := (Scalar.cmpi .ne (Scalar.extui (Scalar.cmpi .eq (BitVec.ofNat 32 (i 1).val) 0#32)) 0#32) = 1#1
/-- It holds exactly at the points t ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- "k = 3": the quotient is written. -/
abbrev cond3_1 (i : grid3.Coords) : Prop := k3_cond2 i = 1#1
/-- It holds exactly at the points t ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- k = 0: nothing is stored into the result block, and it is not written back. -/
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
/-- k = 1, 2: the same. -/
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
/-- k = 3: the result block is stored, the window live. -/
theorem liveAt3_2_C : ∀ t : Fin cfg3.N, ¬cond3_0 (grid3.coords t) → cond3_1 (grid3.coords t) → cfg3.idle 2 (grid3.coords t) = false := by decide +kernel

/-! ## The memrefs the body is called with -/

/-- One staging buffer of the result window, through which its contents are stated. -/
abbrev VO3_2 : View sig .tc .vmem S512x512 .f32 := (Memref.whole cc3_stg2_0 : Memref sig .tc .vmem S512x512 .f32).view
abbrev ms3_0 (t : Fin cfg3.N) : Memref sig .tc .vmem S512x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x512 .f32 := win3_2.stage (cfg3.slots t 2)
abbrev hs3_2 (t : Fin cfg3.N) : (ms3_2 t).IsWhole := hstage3_2 ((cfg3.slots t 2).cast nbuf3_2)
/-- The two accumulators: the partial product and the partial row sums. -/
abbrev scM3_0 : Memref sig .tc .vmem S512x512 .f32 := Memref.whole cc3_scratch0
abbrev scM3_1 : Memref sig .tc .vmem S1x512 .f32 := Memref.whole cc3_scratch1
abbrev VS3_0 : View sig .tc .vmem S512x512 .f32 := scM3_0.view
abbrev VS3_1 : View sig .tc .vmem S1x512 .f32 := scM3_1.view

/-- What is left of the scoped rest once both accumulators are taken out. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The region invariant with both accumulators owned as memrefs at some contents, the remainder unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 (F := F) c) ∗ (∃ r, prngReg c r)) := by
  unfold Pipeline.ΦA; rw [scopedRest3_split]; simp only [scM3_0, scM3_1, owns_whole]; try rfl

end Cert.Kernel.Gen

end
-- ==== Proof.K.R3RunB.lean ====
/- Region 3 at k = 1, 2: neither branch is taken. The partial product and the partial row sums come in at what the
   point before left, the block's contribution is added to each, and they go out; the result buffer is untouched. -/
import proofs.«145590_j23742579212572_2_alg».proof.Proof.K.R3Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 1, 2 on whole memrefs: the pieces each accumulator ends with are what the run finds. -/
noncomputable def kernelRun3_B (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i)
    (x0 : Vec F S512x512 .f32) (x1 : Vec F S2048x512 .f32) (xs0 : Vec F S512x512 .f32) (xs1 : Vec F S1x512 .f32) :
    Σ' (L2 : List (View.Piece (Elt F) S512x512 .f32)) (LS0 : List (View.Piece (Elt F) S512x512 .f32)), { LS1 : List (View.Piece (Elt F) S1x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc3__collect_transposed_kernel i arg2 harg2 arg3 harg3 arg4 harg4 arg5 harg5 arg6 harg6) K } := by
  refine ⟨[], ?_, ?_, fun xi2 E K => ?run⟩
  case run =>
    simp only [cc3__collect_transposed_kernel_eq_skeleton]; unfold cc3__collect_transposed_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R3RunA.lean ====
/- Region 3 at k = 0: the first branch is taken. Both accumulators are reset to zero (whatever they held), then the
   block's contribution is added to each; the result buffer is untouched. -/
import proofs.«145590_j23742579212572_2_alg».proof.Proof.K.R3RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 0 on whole memrefs: the pieces each accumulator ends with are what the run finds. -/
noncomputable def kernelRun3_A (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i)
    (x0 : Vec F S512x512 .f32) (x1 : Vec F S2048x512 .f32) :
    Σ' (L2 : List (View.Piece (Elt F) S512x512 .f32)) (LS0 : List (View.Piece (Elt F) S512x512 .f32)), { LS1 : List (View.Piece (Elt F) S1x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc3__collect_transposed_kernel i arg2 harg2 arg3 harg3 arg4 harg4 arg5 harg5 arg6 harg6) K } := by
  refine ⟨[], ?_, ?_, fun xi2 E K => ?run⟩
  case run =>
    simp only [cc3__collect_transposed_kernel_eq_skeleton]; unfold cc3__collect_transposed_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R3RunC.lean ====
/- Region 3 at k = 3: the last branch is taken. The block's contribution is added to both accumulators, and the
   result block is stored: the finished product divided by (finished row sums + ε), whatever the buffer held. -/
import proofs.«145590_j23742579212572_2_alg».proof.Proof.K.R3RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 3 on whole memrefs: the pieces the result buffer and each accumulator end with are what the run finds. -/
noncomputable def kernelRun3_C (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) :
    Σ' (L2 : List (View.Piece (Elt F) S512x512 .f32)) (LS0 : List (View.Piece (Elt F) S512x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc3__collect_transposed_kernel i arg2 harg2 arg3 harg3 arg4 harg4 arg5 harg5 arg6 harg6) K } := by
  refine ⟨?_, ?_, ?_, fun E K => ?run⟩
  case run =>
    simp only [cc3__collect_transposed_kernel_eq_skeleton]; unfold cc3__collect_transposed_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Gen

end
-- ==== Proof.K.R3.lean ====
/- Region 3, the rest: what each case leaves in the result buffer and in the two accumulators (read back off the
   stores the runs found), the accumulation point by point over the grid, the invariant by position, the proof data,
   and the body obligation. -/
import proofs.«145590_j23742579212572_2_alg».proof.Proof.K.R3RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At k = 0 nothing is stored into the result buffer; this value stands for "untouched" and is never read. -/
def out3_A_2 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i)
    (x0 : Vec F S512x512 .f32) (x1 : Vec F S2048x512 .f32) : Vec F S512x512 .f32 :=
  VO3_2.read (Elt F) (VO3_2.writes (Elt F) VO3_2.junk (kernelRun3_A c i arg2 harg2 arg3 harg3 arg4 harg4 arg5 harg5 arg6 harg6 hc0 hc1 x0 x1).1)

/-- At k = 0 the stores into the partial product cover it. -/
theorem scover3_A_0 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i)
    (x0 : Vec F S512x512 .f32) (x1 : Vec F S2048x512 .f32) (y : S512x512.Idx) :
    ∃ pc ∈ (kernelRun3_A c i arg2 harg2 arg3 harg3 arg4 harg4 arg5 harg5 arg6 harg6 hc0 hc1 x0 x1).2.1, y ∈ pc.1.set :=
  View.cover_of_tiledL (kernelRun3_A c i arg2 harg2 arg3 harg3 arg4 harg4 arg5 harg5 arg6 harg6 hc0 hc1 x0 x1).2.1 S512x512.size (by sl_kernel_rfl) y

/-- The partial product after the body at k = 0. -/
def sout3_A_0 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i)
    (x0 : Vec F S512x512 .f32) (x1 : Vec F S2048x512 .f32) : Vec F S512x512 .f32 :=
  VS3_0.read (Elt F) (VS3_0.writes (Elt F) VS3_0.junk (kernelRun3_A c i arg2 harg2 arg3 harg3 arg4 harg4 arg5 harg5 arg6 harg6 hc0 hc1 x0 x1).2.1)

/-- At k = 0 the stores into the partial row sums cover them. -/
theorem scover3_A_1 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i)
    (x0 : Vec F S512x512 .f32) (x1 : Vec F S2048x512 .f32) (y : S1x512.Idx) :
    ∃ pc ∈ (kernelRun3_A c i arg2 harg2 arg3 harg3 arg4 harg4 arg5 harg5 arg6 harg6 hc0 hc1 x0 x1).2.2.1, y ∈ pc.1.set :=
  View.cover_of_tiledL (kernelRun3_A c i arg2 harg2 arg3 harg3 arg4 harg4 arg5 harg5 arg6 harg6 hc0 hc1 x0 x1).2.2.1 S1x512.size (by sl_kernel_rfl) y

/-- The partial row sums after the body at k = 0. -/
def sout3_A_1 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i)
    (x0 : Vec F S512x512 .f32) (x1 : Vec F S2048x512 .f32) : Vec F S1x512 .f32 :=
  VS3_1.read (Elt F) (VS3_1.writes (Elt F) VS3_1.junk (kernelRun3_A c i arg2 harg2 arg3 harg3 arg4 harg4 arg5 harg5 arg6 harg6 hc0 hc1 x0 x1).2.2.1)

/-- At k = 1, 2 nothing is stored into the result buffer; this value stands for "untouched" and is never read. -/
def out3_B_2 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i)
    (x0 : Vec F S512x512 .f32) (x1 : Vec F S2048x512 .f32) (xs0 : Vec F S512x512 .f32) (xs1 : Vec F S1x512 .f32) : Vec F S512x512 .f32 :=
  VO3_2.read (Elt F) (VO3_2.writes (Elt F) VO3_2.junk (kernelRun3_B c i arg2 harg2 arg3 harg3 arg4 harg4 arg5 harg5 arg6 harg6 hc0 hc1 x0 x1 xs0 xs1).1)

/-- At k = 1, 2 the stores into the partial product cover it. -/
theorem scover3_B_0 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i)
    (x0 : Vec F S512x512 .f32) (x1 : Vec F S2048x512 .f32) (xs0 : Vec F S512x512 .f32) (xs1 : Vec F S1x512 .f32) (y : S512x512.Idx) :
    ∃ pc ∈ (kernelRun3_B c i arg2 harg2 arg3 harg3 arg4 harg4 arg5 harg5 arg6 harg6 hc0 hc1 x0 x1 xs0 xs1).2.1, y ∈ pc.1.set :=
  View.cover_of_tiledL (kernelRun3_B c i arg2 harg2 arg3 harg3 arg4 harg4 arg5 harg5 arg6 harg6 hc0 hc1 x0 x1 xs0 xs1).2.1 S512x512.size (by sl_kernel_rfl) y

/-- The partial product after the body at k = 1, 2. -/
def sout3_B_0 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i)
    (x0 : Vec F S512x512 .f32) (x1 : Vec F S2048x512 .f32) (xs0 : Vec F S512x512 .f32) (xs1 : Vec F S1x512 .f32) : Vec F S512x512 .f32 :=
  VS3_0.read (Elt F) (VS3_0.writes (Elt F) VS3_0.junk (kernelRun3_B c i arg2 harg2 arg3 harg3 arg4 harg4 arg5 harg5 arg6 harg6 hc0 hc1 x0 x1 xs0 xs1).2.1)

/-- At k = 1, 2 the stores into the partial row sums cover them. -/
theorem scover3_B_1 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i)
    (x0 : Vec F S512x512 .f32) (x1 : Vec F S2048x512 .f32) (xs0 : Vec F S512x512 .f32) (xs1 : Vec F S1x512 .f32) (y : S1x512.Idx) :
    ∃ pc ∈ (kernelRun3_B c i arg2 harg2 arg3 harg3 arg4 harg4 arg5 harg5 arg6 harg6 hc0 hc1 x0 x1 xs0 xs1).2.2.1, y ∈ pc.1.set :=
  View.cover_of_tiledL (kernelRun3_B c i arg2 harg2 arg3 harg3 arg4 harg4 arg5 harg5 arg6 harg6 hc0 hc1 x0 x1 xs0 xs1).2.2.1 S1x512.size (by sl_kernel_rfl) y

/-- The partial row sums after the body at k = 1, 2. -/
def sout3_B_1 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i)
    (x0 : Vec F S512x512 .f32) (x1 : Vec F S2048x512 .f32) (xs0 : Vec F S512x512 .f32) (xs1 : Vec F S1x512 .f32) : Vec F S1x512 .f32 :=
  VS3_1.read (Elt F) (VS3_1.writes (Elt F) VS3_1.junk (kernelRun3_B c i arg2 harg2 arg3 harg3 arg4 harg4 arg5 harg5 arg6 harg6 hc0 hc1 x0 x1 xs0 xs1).2.2.1)

/-- At k = 3 the one store into the result buffer covers it. -/
theorem cover3_C_2 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) (y : S512x512.Idx) :
    ∃ pc ∈ (kernelRun3_C c i arg2 harg2 arg3 harg3 arg4 harg4 arg5 harg5 arg6 harg6 hc0 hc1 x0 x1 xs0 xs1).1, y ∈ pc.1.set :=
  View.cover_of_tiledL (kernelRun3_C c i arg2 harg2 arg3 harg3 arg4 harg4 arg5 harg5 arg6 harg6 hc0 hc1 x0 x1 xs0 xs1).1 S512x512.size (by sl_kernel_rfl) y

/-- What the result buffer holds after the body at k = 3: the quotient, read back off its store. -/
def out3_C_2 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) : Vec F S512x512 .f32 :=
  VO3_2.read (Elt F) (VO3_2.writes (Elt F) VO3_2.junk (kernelRun3_C c i arg2 harg2 arg3 harg3 arg4 harg4 arg5 harg5 arg6 harg6 hc0 hc1 x0 x1 xs0 xs1).1)

/-- At k = 3 the stores into the partial product cover it. -/
theorem scover3_C_0 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) (y : S512x512.Idx) :
    ∃ pc ∈ (kernelRun3_C c i arg2 harg2 arg3 harg3 arg4 harg4 arg5 harg5 arg6 harg6 hc0 hc1 x0 x1 xs0 xs1).2.1, y ∈ pc.1.set :=
  View.cover_of_tiledL (kernelRun3_C c i arg2 harg2 arg3 harg3 arg4 harg4 arg5 harg5 arg6 harg6 hc0 hc1 x0 x1 xs0 xs1).2.1 S512x512.size (by sl_kernel_rfl) y

/-- The partial product after the body at k = 3. -/
def sout3_C_0 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) : Vec F S512x512 .f32 :=
  VS3_0.read (Elt F) (VS3_0.writes (Elt F) VS3_0.junk (kernelRun3_C c i arg2 harg2 arg3 harg3 arg4 harg4 arg5 harg5 arg6 harg6 hc0 hc1 x0 x1 xs0 xs1).2.1)

/-- At k = 3 the stores into the partial row sums cover them. -/
theorem scover3_C_1 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) (y : S1x512.Idx) :
    ∃ pc ∈ (kernelRun3_C c i arg2 harg2 arg3 harg3 arg4 harg4 arg5 harg5 arg6 harg6 hc0 hc1 x0 x1 xs0 xs1).2.2.1, y ∈ pc.1.set :=
  View.cover_of_tiledL (kernelRun3_C c i arg2 harg2 arg3 harg3 arg4 harg4 arg5 harg5 arg6 harg6 hc0 hc1 x0 x1 xs0 xs1).2.2.1 S1x512.size (by sl_kernel_rfl) y

/-- The partial row sums after the body at k = 3. -/
def sout3_C_1 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) : Vec F S1x512 .f32 :=
  VS3_1.read (Elt F) (VS3_1.writes (Elt F) VS3_1.junk (kernelRun3_C c i arg2 harg2 arg3 harg3 arg4 harg4 arg5 harg5 arg6 harg6 hc0 hc1 x0 x1 xs0 xs1).2.2.1)

section Region3
variable (V : (c : Dev nD) → (b : Ref sig .tc) → Buf (Elt F) ((c : Thread nD τ).loc b))

/-- One point at k = 0: (result buffer, partial product, partial row sums) after the body there. -/
def step3_A (c : Dev nD) (t : Fin cfg3.N) (h0 : t.val % 4 = 0) (h1 : ¬t.val % 4 = 3) :
    Vec F S512x512 .f32 × Vec F S512x512 .f32 × Vec F S1x512 .f32 :=
  (out3_A_2 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t), sout3_A_1 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t))

/-- One point at k = 1, 2: (result buffer, partial product, partial row sums) after the body there, from what the accumulators held before. -/
def step3_B (c : Dev nD) (t : Fin cfg3.N) (h0 : ¬t.val % 4 = 0) (h1 : ¬t.val % 4 = 3) (xs0 : Vec F S512x512 .f32) (xs1 : Vec F S1x512 .f32) :
    Vec F S512x512 .f32 × Vec F S512x512 .f32 × Vec F S1x512 .f32 :=
  (out3_B_2 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) xs0 xs1, sout3_B_0 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) xs0 xs1, sout3_B_1 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) xs0 xs1)

/-- One point at k = 3: (result buffer, partial product, partial row sums) after the body there, from what the accumulators held before. -/
def step3_C (c : Dev nD) (t : Fin cfg3.N) (h0 : ¬t.val % 4 = 0) (h1 : t.val % 4 = 3) (xs0 : Vec F S512x512 .f32) (xs1 : Vec F S1x512 .f32) :
    Vec F S512x512 .f32 × Vec F S512x512 .f32 × Vec F S1x512 .f32 :=
  (out3_C_2 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) xs0 xs1, sout3_C_0 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) xs0 xs1, sout3_C_1 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) xs0 xs1)

/-! ## What the result buffer and both accumulators hold after each point -/

/-- THE ACCUMULATION, point by point along t = 4·i + k: at k = 0 both accumulators restart from zero plus the block's
    contribution; at k = 1, 2 the contribution is added to what the point before left; at k = 3 likewise, and the
    result buffer takes the quotient. -/
def outsAt3 (c : Dev nD) : (n : ℕ) → n < cfg3.N → Vec F S512x512 .f32 × Vec F S512x512 .f32 × Vec F S1x512 .f32
  | 0, hn => step3_A V c ⟨0, hn⟩ (Nat.zero_mod _) (show ¬(0 % 4 = 3) from by decide)
  | n + 1, hn =>
    if h0 : (n + 1) % 4 = 0 then
      if h1 : (n + 1) % 4 = 3 then
        False.elim (by omega)
      else
        step3_A V c ⟨n + 1, hn⟩ h0 h1
    else
      if h1 : (n + 1) % 4 = 3 then
        step3_C V c ⟨n + 1, hn⟩ h0 h1 (outsAt3 c n (Nat.lt_of_succ_lt hn)).2.1 (outsAt3 c n (Nat.lt_of_succ_lt hn)).2.2
      else
        step3_B V c ⟨n + 1, hn⟩ h0 h1 (outsAt3 c n (Nat.lt_of_succ_lt hn)).2.1 (outsAt3 c n (Nat.lt_of_succ_lt hn)).2.2

/-- `outsAt3` at a point with k = 0. -/
theorem outsAt3_A (c : Dev nD) (t : Fin cfg3.N) (h0 : t.val % 4 = 0) (h1 : ¬t.val % 4 = 3) :
    outsAt3 V c t.val t.isLt = step3_A V c t h0 h1 := by
  obtain ⟨n, hn⟩ := t
  cases n with
  | zero => exact rfl
  | succ n => exact (dif_pos h0).trans ((dif_neg h1).trans rfl)

/-- `outsAt3` at a point with k = 1, 2: over what the point before left. -/
theorem outsAt3_B (c : Dev nD) (t : Fin cfg3.N) (h0 : ¬t.val % 4 = 0) (h1 : ¬t.val % 4 = 3) :
    outsAt3 V c t.val t.isLt = step3_B V c t h0 h1 (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

/-- `outsAt3` at a point with k = 3: over what the point before left. -/
theorem outsAt3_C (c : Dev nD) (t : Fin cfg3.N) (h0 : ¬t.val % 4 = 0) (h1 : t.val % 4 = 3) :
    outsAt3 V c t.val t.isLt = step3_C V c t h0 h1 (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant, by position -/

/-- Before the first point: everything scoped at anything. After point n: the partial product and the partial row
    sums at what that point left, the rest of the scoped buffers unopened, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2)) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2)) ∗ rest3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2)) ∗ rest3 (F := F) c) ∗ (∃ r, prngReg c r)) := by
  cases n with
  | zero => exact absurd rfl hz
  | succ n => rfl

/-! ## The pipeline's proof data -/

/-- The arrays as the region finds them; after the body at point t the two inputs' buffers at their blocks and the
    result buffer at `outsAt3`'s first component; the invariant by position; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- Before the first point the invariant is the launch's. -/
theorem Phi3_zero (c : Dev nD) : (dat3 V c).Φ 0 = Pipeline.ΦA spec3 c := rfl

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at a point with k = 0: the accumulators are handed over at anything (at the first point from the
    launch's invariant, later from what the previous row of the grid left) and come back at this point's contents;
    the result buffer goes back as found. -/
theorem sound_body3_A (c : Dev nD) (t : Fin cfg3.N) (h0 : t.val % 4 = 0) (h1 : ¬t.val % 4 = 3) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
  rw [outsAt3_A V c t h0 h1]
  unfold step3_A sout3_A_0 sout3_A_1; (try dsimp only)
  by_cases hz : t.val = 0
  · rw [PhiS3_castSucc V c t, PhiS3_zero V c _ _ hz, PhiA3_eq]
    iintro ⟨⟨⟨⟨HS0, HS1⟩, Hr⟩, Hg⟩, Ho, ⟨%d0, H0⟩, ⟨%d1, H1⟩, ⟨%d2, H2⟩⟩
    iapply ((kernelRun3_A c (grid3.coords t) _ _ _ _ _ _ _ _ _ _ ((hcond3_0 t).mpr h0) (fun h => h1 ((hcond3_1 t).mp h)) (iblk3 V c 0 t) (iblk3 V c 1 t)).2.2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _)
          · unfold owns; iexists _; isplitr
            swap; · iexact HS1
            ipureintro; exact View.read_writes_of_cover _ _ _ _ _ (scover3_A_1 c _ _ _ _ _ _ _ _ _ _ _ _ _ _ _)
        · iexact Hr
      · iexact Hg
    isplitl [Ho]; · iexact Ho
    isplitl [H0]; · iexact H0
    isplitl [H1]; · iexact H1
    iexists _; iexact H2
  · rw [PhiS3_castSucc V c t, PhiS3_pos V c _ _ hz]
    iintro ⟨⟨⟨⟨HS0, HS1⟩, Hr⟩, Hg⟩, Ho, ⟨%d0, H0⟩, ⟨%d1, H1⟩, ⟨%d2, H2⟩⟩
    iapply ((kernelRun3_A c (grid3.coords t) _ _ _ _ _ _ _ _ _ _ ((hcond3_0 t).mpr h0) (fun h => h1 ((hcond3_1 t).mp h)) (iblk3 V c 0 t) (iblk3 V c 1 t)).2.2.2 _ Set.univ _)
    isplitl [H0]; · iexact H0
    isplitl [H1]; · iexact H1
    isplitl [H2]; · iexact H2
    isplitl [HS0]; · iexists _; iexact HS0
    isplitl [HS1]; · iexists _; iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _)
          · unfold owns; iexists _; isplitr
            swap; · iexact HS1
            ipureintro; exact View.read_writes_of_cover _ _ _ _ _ (scover3_A_1 c _ _ _ _ _ _ _ _ _ _ _ _ _ _ _)
        · iexact Hr
      · iexact Hg
    isplitl [Ho]; · iexact Ho
    isplitl [H0]; · iexact H0
    isplitl [H1]; · iexact H1
    iexists _; iexact H2

set_option maxHeartbeats 4800000 in
/-- The body at a point with k = 1, 2: the accumulators come in at what the point before left and go out at this
    point's contents; the result buffer goes back as found. -/
theorem sound_body3_B (c : Dev nD) (t : Fin cfg3.N) (h0 : ¬t.val % 4 = 0) (h1 : ¬t.val % 4 = 3) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
  rw [outsAt3_B V c t h0 h1]
  unfold step3_B sout3_B_0 sout3_B_1; (try dsimp only)
  have hz : t.val ≠ 0 := fun e => h0 (by rw [e])
  rw [PhiS3_castSucc V c t, PhiS3_pos V c _ _ hz]
  iintro ⟨⟨⟨⟨HS0, HS1⟩, Hr⟩, Hg⟩, Ho, ⟨%d0, H0⟩, ⟨%d1, H1⟩, ⟨%d2, H2⟩⟩
  iapply ((kernelRun3_B c (grid3.coords t) _ _ _ _ _ _ _ _ _ _ (fun h => h0 ((hcond3_0 t).mp h)) (fun h => h1 ((hcond3_1 t).mp h)) (iblk3 V c 0 t) (iblk3 V c 1 t) _ _).2.2.2 _ Set.univ _)
  isplitl [H0]; · iexact H0
  isplitl [H1]; · iexact H1
  isplitl [H2]; · iexact H2
  isplitl [HS0]; · iexact HS0
  isplitl [HS1]; · iexact HS1
  iintro ⟨H0, H1, H2, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover3_B_0 c _ _ _ _ _ _ _ _ _ _ _ _ _ _ _ _ _)
        · unfold owns; iexists _; isplitr
          swap; · iexact HS1
          ipureintro; exact View.read_writes_of_cover _ _ _ _ _ (scover3_B_1 c _ _ _ _ _ _ _ _ _ _ _ _ _ _ _ _ _)
      · iexact Hr
    · iexact Hg
  isplitl [Ho]; · iexact Ho
  isplitl [H0]; · iexact H0
  isplitl [H1]; · iexact H1
  iexists _; iexact H2

set_option maxHeartbeats 4800000 in
/-- The body at a point with k = 3: as before for the accumulators; the result buffer, handed over at anything, comes
    back at the quotient. -/
theorem sound_body3_C (c : Dev nD) (t : Fin cfg3.N) (h0 : ¬t.val % 4 = 0) (h1 : t.val % 4 = 3) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2_C t (fun h => h0 ((hcond3_0 t).mp h)) ((hcond3_1 t).mpr h1)], after3_2]
  rw [outsAt3_C V c t h0 h1]
  unfold step3_C out3_C_2 sout3_C_0 sout3_C_1; (try dsimp only)
  have hz : t.val ≠ 0 := fun e => h0 (by rw [e])
  rw [PhiS3_castSucc V c t, PhiS3_pos V c _ _ hz]
  iintro ⟨⟨⟨⟨HS0, HS1⟩, Hr⟩, Hg⟩, Ho, ⟨%d0, H0⟩, ⟨%d1, H1⟩, ⟨%d2, H2⟩⟩
  iapply ((kernelRun3_C c (grid3.coords t) _ _ _ _ _ _ _ _ _ _ (fun h => h0 ((hcond3_0 t).mp h)) ((hcond3_1 t).mpr h1) (iblk3 V c 0 t) (iblk3 V c 1 t) _ _).2.2.2 Set.univ _)
  isplitl [H0]; · iexact H0
  isplitl [H1]; · iexact H1
  isplitl [H2]; · iexists _; iexact H2
  isplitl [HS0]; · iexact HS0
  isplitl [HS1]; · iexact HS1
  iintro ⟨H0, H1, ⟨%e2, H2⟩, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover3_C_0 c _ _ _ _ _ _ _ _ _ _ _ _ _ _ _ _ _)
        · unfold owns; iexists _; isplitr
          swap; · iexact HS1
          ipureintro; exact View.read_writes_of_cover _ _ _ _ _ (scover3_C_1 c _ _ _ _ _ _ _ _ _ _ _ _ _ _ _ _ _)
      · iexact Hr
    · iexact Hg
  isplitl [Ho]; · iexact Ho
  isplitl [H0]; · iexact H0
  isplitl [H1]; · iexact H1
  unfold owns; iexists _; isplitr
  swap; · iexact H2
  ipureintro; exact View.read_writes_of_cover _ _ _ _ _ (cover3_C_2 c _ _ _ _ _ _ _ _ _ _ _ _ _ _ _ _ _)

/-- The body at any point: the position's residue mod 4 says which of the three cases it is in. -/
theorem sound_body3 (c : Dev nD) (t : Fin cfg3.N) :
    bodyPre3 V c t ⊢ wp frame (wpE (defs₀ (F := F)) Variants.none c none) Set.univ (bodyAt3 t) (fun _ => bodyPost3 V c t) := by
  by_cases h0 : t.val % 4 = 0
  · exact sound_body3_A V c t h0 (by omega)
  · by_cases h1 : t.val % 4 = 3
    · exact sound_body3_C V c t h0 h1
    · exact sound_body3_B V c t h0 h1

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- After any point the invariant gives the launch's back: what the accumulators hold is forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout3 (c : Dev nD) : (dat3 V c).Φ (Fin.last cfg3.N) ⊢ Pipeline.ΦA spec3 c :=
  Phi3_out V c _ (by rw [Fin.val_last]; have : cfg3.N = 16 := N_3; omega)

end Region3

end Cert.Kernel.Gen

end
-- ==== Proof.K.R4Runs.lean ====
/-
  Custom call 4 accumulates a row block of attn @ fc over the inner grid axis k (four steps of 512 source rows) in two
  scratch buffers: a [512,512] accumulator and a [512,1] column of row sums. Both are cleared at k = 0, added to at
  every k, and at k = 3 the output block is the accumulator divided by (row sums + ε). This module fixes what the
  three control cases of that body are stated over: the two branch conditions in closed form over the sixteen grid
  points (t = 4·i + k), where the output window is idle, and the memrefs the body is called with.
-/
import proofs.«145590_j23742579212572_2_alg».proof.Proof.Gen.Kernel.Launch
import proofs.«145590_j23742579212572_2_alg».proof.Proof.Gen.Kernel.Skeleton
import proofs.«145590_j23742579212572_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The attn block: its staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The whole fc array, fetched once: its staging buffer holds it at every point (the index never moves). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The two branch conditions over the grid -/

/-- "k = 0": the accumulators are cleared. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

/-- "k = 3": the output block is written. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- At k = 0 the output window is idle and not written back. -/
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
/-- At k = 1, 2 likewise. -/
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
/-- At k = 3 it is live. -/
theorem liveAt4_2_C : ∀ t : Fin cfg4.N, ¬cond4_0 (grid4.coords t) → cond4_1 (grid4.coords t) → cfg4.idle 2 (grid4.coords t) = false := by decide +kernel

/-! ## The memrefs the body is called with -/

/-- One staging buffer of the output window, through which its contents are stated. -/
abbrev VO4_2 : View sig .tc .vmem S512x512 .f32 := (Memref.whole cc4_stg2_0 : Memref sig .tc .vmem S512x512 .f32).view
abbrev ms4_0 (t : Fin cfg4.N) : Memref sig .tc .vmem S512x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x512 .f32 := win4_2.stage (cfg4.slots t 2)
abbrev hs4_2 (t : Fin cfg4.N) : (ms4_2 t).IsWhole := hstage4_2 ((cfg4.slots t 2).cast nbuf4_2)
/-- The accumulator and the column of row sums: whole scoped buffers of the kernel's own. -/
abbrev scM4_0 : Memref sig .tc .vmem S512x512 .f32 := Memref.whole cc4_scratch0
abbrev scM4_1 : Memref sig .tc .vmem S512x1 .f32 := Memref.whole cc4_scratch1
abbrev VS4_0 : View sig .tc .vmem S512x512 .f32 := scM4_0.view
abbrev VS4_1 : View sig .tc .vmem S512x1 .f32 := scM4_1.view

end Cert.Kernel.Gen

end
-- ==== Proof.K.R4RunB.lean ====
/-
  Custom call 4 at k = 1, 2: neither branch is taken. The accumulator and the row sums come in at what the point before left, are added to, and go out; the output buffer is untouched.
-/
import proofs.«145590_j23742579212572_2_alg».proof.Proof.K.R4Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun4_B (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i)
    (x0 : Vec F S512x512 .f32) (x1 : Vec F S2048x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__collect_direct_kernel i arg2 harg2 arg3 harg3 arg4 harg4 arg5 harg5 arg6 harg6) K } := by
  refine ⟨[], ?_, ?_, fun xi2 E K => ?run⟩
  case run =>
    simp only [cc4__collect_direct_kernel_eq_skeleton]; unfold cc4__collect_direct_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R4RunA.lean ====
/-
  Custom call 4 at k = 0: the accumulator and the row sums are cleared first (whatever they held), then added to; the output buffer is untouched.
-/
import proofs.«145590_j23742579212572_2_alg».proof.Proof.K.R4RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun4_A (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i)
    (x0 : Vec F S512x512 .f32) (x1 : Vec F S2048x512 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__collect_direct_kernel i arg2 harg2 arg3 harg3 arg4 harg4 arg5 harg5 arg6 harg6) K } := by
  refine ⟨[], ?_, ?_, fun xi2 E K => ?run⟩
  case run =>
    simp only [cc4__collect_direct_kernel_eq_skeleton]; unfold cc4__collect_direct_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R4RunC.lean ====
/-
  Custom call 4 at k = 3: the accumulators are added to a last time and the output block is stored: the accumulator divided by (row sums + ε).
-/
import proofs.«145590_j23742579212572_2_alg».proof.Proof.K.R4RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun4_C (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__collect_direct_kernel i arg2 harg2 arg3 harg3 arg4 harg4 arg5 harg5 arg6 harg6) K } := by
  refine ⟨?_, ?_, ?_, fun E K => ?run⟩
  case run =>
    simp only [cc4__collect_direct_kernel_eq_skeleton]; unfold cc4__collect_direct_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Gen

end
-- ==== Proof.K.R4.lean ====
/-
  Custom call 4 as proof data for the pipeline: what the output buffer, the accumulator and the column of row sums hold
  after each of the sixteen grid points (t = 4·i + k), by recursion on the point — at k = 0 from cleared scratch, at
  k = 1, 2, 3 from what the point before left —, the invariant that carries the two scratch buffers at those contents
  between points, and the body obligation: at every point the body runs from the invariant before it to the one after it.
-/
import proofs.«145590_j23742579212572_2_alg».proof.Proof.K.R4RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What this case leaves in the output buffer (nothing is stored: a placeholder nothing consults, the window being idle and not written back here). -/
def out4_A_2 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i)
    (x0 : Vec F S512x512 .f32) (x1 : Vec F S2048x512 .f32) : Vec F S512x512 .f32 :=
  VO4_2.read (Elt F) (VO4_2.writes (Elt F) VO4_2.junk (kernelRun4_A c i arg2 harg2 arg3 harg3 arg4 harg4 arg5 harg5 arg6 harg6 hc0 hc1 x0 x1).1)

/-- The stores into the accumulator cover it. -/
theorem scover4_A_0 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i)
    (x0 : Vec F S512x512 .f32) (x1 : Vec F S2048x512 .f32) (y : S512x512.Idx) :
    ∃ pc ∈ (kernelRun4_A c i arg2 harg2 arg3 harg3 arg4 harg4 arg5 harg5 arg6 harg6 hc0 hc1 x0 x1).2.1, y ∈ pc.1.set :=
  View.cover_of_tiledL (kernelRun4_A c i arg2 harg2 arg3 harg3 arg4 harg4 arg5 harg5 arg6 harg6 hc0 hc1 x0 x1).2.1 S512x512.size (by sl_kernel_rfl) y

/-- What this case leaves in the accumulator. -/
def sout4_A_0 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i)
    (x0 : Vec F S512x512 .f32) (x1 : Vec F S2048x512 .f32) : Vec F S512x512 .f32 :=
  VS4_0.read (Elt F) (VS4_0.writes (Elt F) VS4_0.junk (kernelRun4_A c i arg2 harg2 arg3 harg3 arg4 harg4 arg5 harg5 arg6 harg6 hc0 hc1 x0 x1).2.1)

/-- The stores into the column of row sums cover it. -/
theorem scover4_A_1 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i)
    (x0 : Vec F S512x512 .f32) (x1 : Vec F S2048x512 .f32) (y : S512x1.Idx) :
    ∃ pc ∈ (kernelRun4_A c i arg2 harg2 arg3 harg3 arg4 harg4 arg5 harg5 arg6 harg6 hc0 hc1 x0 x1).2.2.1, y ∈ pc.1.set :=
  View.cover_of_tiledL (kernelRun4_A c i arg2 harg2 arg3 harg3 arg4 harg4 arg5 harg5 arg6 harg6 hc0 hc1 x0 x1).2.2.1 S512x1.size (by sl_kernel_rfl) y

/-- What this case leaves in the column of row sums. -/
def sout4_A_1 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i)
    (x0 : Vec F S512x512 .f32) (x1 : Vec F S2048x512 .f32) : Vec F S512x1 .f32 :=
  VS4_1.read (Elt F) (VS4_1.writes (Elt F) VS4_1.junk (kernelRun4_A c i arg2 harg2 arg3 harg3 arg4 harg4 arg5 harg5 arg6 harg6 hc0 hc1 x0 x1).2.2.1)

/-- What this case leaves in the output buffer (nothing is stored: a placeholder nothing consults, the window being idle and not written back here). -/
def out4_B_2 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i)
    (x0 : Vec F S512x512 .f32) (x1 : Vec F S2048x512 .f32) (xs0 : Vec F S512x512 .f32) (xs1 : Vec F S512x1 .f32) : Vec F S512x512 .f32 :=
  VO4_2.read (Elt F) (VO4_2.writes (Elt F) VO4_2.junk (kernelRun4_B c i arg2 harg2 arg3 harg3 arg4 harg4 arg5 harg5 arg6 harg6 hc0 hc1 x0 x1 xs0 xs1).1)

/-- The stores into the accumulator cover it. -/
theorem scover4_B_0 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i)
    (x0 : Vec F S512x512 .f32) (x1 : Vec F S2048x512 .f32) (xs0 : Vec F S512x512 .f32) (xs1 : Vec F S512x1 .f32) (y : S512x512.Idx) :
    ∃ pc ∈ (kernelRun4_B c i arg2 harg2 arg3 harg3 arg4 harg4 arg5 harg5 arg6 harg6 hc0 hc1 x0 x1 xs0 xs1).2.1, y ∈ pc.1.set :=
  View.cover_of_tiledL (kernelRun4_B c i arg2 harg2 arg3 harg3 arg4 harg4 arg5 harg5 arg6 harg6 hc0 hc1 x0 x1 xs0 xs1).2.1 S512x512.size (by sl_kernel_rfl) y

/-- What this case leaves in the accumulator. -/
def sout4_B_0 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i)
    (x0 : Vec F S512x512 .f32) (x1 : Vec F S2048x512 .f32) (xs0 : Vec F S512x512 .f32) (xs1 : Vec F S512x1 .f32) : Vec F S512x512 .f32 :=
  VS4_0.read (Elt F) (VS4_0.writes (Elt F) VS4_0.junk (kernelRun4_B c i arg2 harg2 arg3 harg3 arg4 harg4 arg5 harg5 arg6 harg6 hc0 hc1 x0 x1 xs0 xs1).2.1)

/-- The stores into the column of row sums cover it. -/
theorem scover4_B_1 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i)
    (x0 : Vec F S512x512 .f32) (x1 : Vec F S2048x512 .f32) (xs0 : Vec F S512x512 .f32) (xs1 : Vec F S512x1 .f32) (y : S512x1.Idx) :
    ∃ pc ∈ (kernelRun4_B c i arg2 harg2 arg3 harg3 arg4 harg4 arg5 harg5 arg6 harg6 hc0 hc1 x0 x1 xs0 xs1).2.2.1, y ∈ pc.1.set :=
  View.cover_of_tiledL (kernelRun4_B c i arg2 harg2 arg3 harg3 arg4 harg4 arg5 harg5 arg6 harg6 hc0 hc1 x0 x1 xs0 xs1).2.2.1 S512x1.size (by sl_kernel_rfl) y

/-- What this case leaves in the column of row sums. -/
def sout4_B_1 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i)
    (x0 : Vec F S512x512 .f32) (x1 : Vec F S2048x512 .f32) (xs0 : Vec F S512x512 .f32) (xs1 : Vec F S512x1 .f32) : Vec F S512x1 .f32 :=
  VS4_1.read (Elt F) (VS4_1.writes (Elt F) VS4_1.junk (kernelRun4_B c i arg2 harg2 arg3 harg3 arg4 harg4 arg5 harg5 arg6 harg6 hc0 hc1 x0 x1 xs0 xs1).2.2.1)

/-- At k = 3 the one store into the output buffer covers it. -/
theorem cover4_C_2 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) (y : S512x512.Idx) :
    ∃ pc ∈ (kernelRun4_C c i arg2 harg2 arg3 harg3 arg4 harg4 arg5 harg5 arg6 harg6 hc0 hc1 x0 x1 xs0 xs1).1, y ∈ pc.1.set :=
  View.cover_of_tiledL (kernelRun4_C c i arg2 harg2 arg3 harg3 arg4 harg4 arg5 harg5 arg6 harg6 hc0 hc1 x0 x1 xs0 xs1).1 S512x512.size (by sl_kernel_rfl) y

/-- What this case leaves in the output buffer: the accumulator over (row sums + ε). -/
def out4_C_2 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) : Vec F S512x512 .f32 :=
  VO4_2.read (Elt F) (VO4_2.writes (Elt F) VO4_2.junk (kernelRun4_C c i arg2 harg2 arg3 harg3 arg4 harg4 arg5 harg5 arg6 harg6 hc0 hc1 x0 x1 xs0 xs1).1)

/-- The stores into the accumulator cover it. -/
theorem scover4_C_0 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) (y : S512x512.Idx) :
    ∃ pc ∈ (kernelRun4_C c i arg2 harg2 arg3 harg3 arg4 harg4 arg5 harg5 arg6 harg6 hc0 hc1 x0 x1 xs0 xs1).2.1, y ∈ pc.1.set :=
  View.cover_of_tiledL (kernelRun4_C c i arg2 harg2 arg3 harg3 arg4 harg4 arg5 harg5 arg6 harg6 hc0 hc1 x0 x1 xs0 xs1).2.1 S512x512.size (by sl_kernel_rfl) y

/-- What this case leaves in the accumulator. -/
def sout4_C_0 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) : Vec F S512x512 .f32 :=
  VS4_0.read (Elt F) (VS4_0.writes (Elt F) VS4_0.junk (kernelRun4_C c i arg2 harg2 arg3 harg3 arg4 harg4 arg5 harg5 arg6 harg6 hc0 hc1 x0 x1 xs0 xs1).2.1)

/-- The stores into the column of row sums cover it. -/
theorem scover4_C_1 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) (y : S512x1.Idx) :
    ∃ pc ∈ (kernelRun4_C c i arg2 harg2 arg3 harg3 arg4 harg4 arg5 harg5 arg6 harg6 hc0 hc1 x0 x1 xs0 xs1).2.2.1, y ∈ pc.1.set :=
  View.cover_of_tiledL (kernelRun4_C c i arg2 harg2 arg3 harg3 arg4 harg4 arg5 harg5 arg6 harg6 hc0 hc1 x0 x1 xs0 xs1).2.2.1 S512x1.size (by sl_kernel_rfl) y

/-- What this case leaves in the column of row sums. -/
def sout4_C_1 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) : Vec F S512x1 .f32 :=
  VS4_1.read (Elt F) (VS4_1.writes (Elt F) VS4_1.junk (kernelRun4_C c i arg2 harg2 arg3 harg3 arg4 harg4 arg5 harg5 arg6 harg6 hc0 hc1 x0 x1 xs0 xs1).2.2.1)

/-! ## The accumulation -/

/-- What the output buffer, the accumulator and the row sums hold after the body at position `n`. -/
def outsAt4 (c : Dev nD) : (n : ℕ) → n < cfg4.N → Vec F S512x512 .f32 × Vec F S512x512 .f32 × Vec F S512x1 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 4 = 0 then
      if h1 : (n + 1) % 4 = 3 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 4 = 3 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.1 (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.1 (outsAt4 c n (Nat.lt_of_succ_lt hn)).2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.1 (outsAt4 c n (Nat.lt_of_succ_lt hn)).2.2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.1 (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.1 (outsAt4 c n (Nat.lt_of_succ_lt hn)).2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.1 (outsAt4 c n (Nat.lt_of_succ_lt hn)).2.2)

theorem outsAt4_A (c : Dev nD) (t : Fin cfg4.N) (h0 : t.val % 4 = 0) (h1 : ¬t.val % 4 = 3) :
    outsAt4 V c t.val t.isLt = (out4_A_2 c (grid4.coords t) (ms4_0 t) (hs4_0 t) (ms4_1 t) (hs4_1 t) (ms4_2 t) (hs4_2 t) scM4_0 (Memref.isWhole_whole _) scM4_1 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) scM4_1 (Memref.isWhole_whole _) ((hcond4_0 t).mpr h0) (fun h => h1 ((hcond4_1 t).mp h)) (iblk4 V c 0 t) (iblk4 V c 1 t), sout4_A_1 c (grid4.coords t) (ms4_0 t) (hs4_0 t) (ms4_1 t) (hs4_1 t) (ms4_2 t) (hs4_2 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : ¬t.val % 4 = 3) :
    outsAt4 V c t.val t.isLt = (out4_B_2 c (grid4.coords t) (ms4_0 t) (hs4_0 t) (ms4_1 t) (hs4_1 t) (ms4_2 t) (hs4_2 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2, sout4_B_1 c (grid4.coords t) (ms4_0 t) (hs4_0 t) (ms4_1 t) (hs4_1 t) (ms4_2 t) (hs4_2 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_2 c (grid4.coords t) (ms4_0 t) (hs4_0 t) (ms4_1 t) (hs4_1 t) (ms4_2 t) (hs4_2 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2, sout4_C_1 c (grid4.coords t) (ms4_0 t) (hs4_0 t) (ms4_1 t) (hs4_1 t) (ms4_2 t) (hs4_2 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant by position -/

/-- The scoped buffers that are neither staged by a window of this call nor one of its two scratch buffers. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- Before the first point every scoped buffer is at anything; after point `n` the two scratch buffers hold what that point left. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2)) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2)) ∗ rest4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2)) ∗ rest4 c) ∗ (∃ r, prngReg c r)) := by
  cases n with
  | zero => exact absurd rfl hz
  | succ n => rfl

/-- The class's invariant with the two scratch buffers named, each at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the closed forms of the two conditions say which case the point is in; the invariant hands the
    body the two scratch buffers at what the point before left (at anything before the first point), and takes them back at
    this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt (show cfg4.N = 16 from N_4)
  by_cases h0 : t.val % 4 = 0
  · by_cases h1 : t.val % 4 = 3
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0 sout4_A_1; (try dsimp only)
      by_cases hz : t.val = 0
      · rw [PhiS4_castSucc V c t, PhiS4_zero V c _ _ hz, PhiA4_eq]
        iintro ⟨⟨⟨⟨HS0, HS1⟩, Hb⟩, Hg⟩, Ho, ⟨%d0, H0⟩, ⟨%d1, H1⟩, ⟨%d2, H2⟩⟩
        iapply ((kernelRun4_A c (grid4.coords t) _ _ _ _ _ _ _ _ _ _ ((hcond4_0 t).mpr h0) (fun h => h1 ((hcond4_1 t).mp h)) (iblk4 V c 0 t) (iblk4 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _)
              · unfold owns; iexists _; isplitr
                swap; · iexact HS1
                ipureintro; exact View.read_writes_of_cover _ _ _ _ _ (scover4_A_1 c _ _ _ _ _ _ _ _ _ _ _ _ _ _ _)
            iexact Hb
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨⟨HS0, HS1⟩, Hb⟩, Hg⟩, Ho, ⟨%d0, H0⟩, ⟨%d1, H1⟩, ⟨%d2, H2⟩⟩
        iapply ((kernelRun4_A c (grid4.coords t) _ _ _ _ _ _ _ _ _ _ ((hcond4_0 t).mpr h0) (fun h => h1 ((hcond4_1 t).mp h)) (iblk4 V c 0 t) (iblk4 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _)
              · unfold owns; iexists _; isplitr
                swap; · iexact HS1
                ipureintro; exact View.read_writes_of_cover _ _ _ _ _ (scover4_A_1 c _ _ _ _ _ _ _ _ _ _ _ _ _ _ _)
            iexact Hb
          iexact Hg
        isplitl [Ho]; · iexact Ho
        isplitl [H0]; · iexact H0
        isplitl [H1]; · iexact H1
        iexists _; iexact H2
  · by_cases h1 : t.val % 4 = 3
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0 sout4_C_1; (try dsimp only)
      by_cases hz : t.val = 0
      · exfalso; omega
      · rw [PhiS4_castSucc V c t, PhiS4_pos V c _ _ hz]
        iintro ⟨⟨⟨⟨HS0, HS1⟩, Hb⟩, Hg⟩, Ho, ⟨%d0, H0⟩, ⟨%d1, H1⟩, ⟨%d2, H2⟩⟩
        iapply ((kernelRun4_C c (grid4.coords t) _ _ _ _ _ _ _ _ _ _ (fun h => h0 ((hcond4_0 t).mp h)) ((hcond4_1 t).mpr h1) (iblk4 V c 0 t) (iblk4 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover4_C_0 c _ _ _ _ _ _ _ _ _ _ _ _ _ _ _ _ _)
              · unfold owns; iexists _; isplitr
                swap; · iexact HS1
                ipureintro; exact View.read_writes_of_cover _ _ _ _ _ (scover4_C_1 c _ _ _ _ _ _ _ _ _ _ _ _ _ _ _ _ _)
            iexact Hb
          iexact Hg
        isplitl [Ho]; · iexact Ho
        isplitl [H0]; · iexact H0
        isplitl [H1]; · iexact H1
        unfold owns; iexists _; isplitr
        swap; · iexact H2
        ipureintro; exact View.read_writes_of_cover _ _ _ _ _ (cover4_C_2 c _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0 sout4_B_1; (try dsimp only)
      by_cases hz : t.val = 0
      · exfalso; omega
      · rw [PhiS4_castSucc V c t, PhiS4_pos V c _ _ hz]
        iintro ⟨⟨⟨⟨HS0, HS1⟩, Hb⟩, Hg⟩, Ho, ⟨%d0, H0⟩, ⟨%d1, H1⟩, ⟨%d2, H2⟩⟩
        iapply ((kernelRun4_B c (grid4.coords t) _ _ _ _ _ _ _ _ _ _ (fun h => h0 ((hcond4_0 t).mp h)) (fun h => h1 ((hcond4_1 t).mp h)) (iblk4 V c 0 t) (iblk4 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover4_B_0 c _ _ _ _ _ _ _ _ _ _ _ _ _ _ _ _ _)
              · unfold owns; iexists _; isplitr
                swap; · iexact HS1
                ipureintro; exact View.read_writes_of_cover _ _ _ _ _ (scover4_B_1 c _ _ _ _ _ _ _ _ _ _ _ _ _ _ _ _ _)
            iexact Hb
          iexact Hg
        isplitl [Ho]; · iexact Ho
        isplitl [H0]; · iexact H0
        isplitl [H1]; · iexact H1
        iexists _; iexact H2

theorem body_obligation4 (c : Dev nD) : BodyObligation (dat4 (F := F) V c) (defs₀ (F := F)) Variants.none () Set.univ := fun t => by
  rw [bigSep_W4, bigSep_W4]
  exact sound_body4 V c t

/-! ## The invariant at the two ends -/

theorem Phi4_zero (c : Dev nD) : (dat4 V c).Φ 0 = Pipeline.ΦA spec4 c := rfl

/-- After any point but the first the invariant gives the class's back: what the scratch buffers hold is forgotten. -/
theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hb⟩, Hg⟩
  isplitl [HS0 HS1 Hb]
  · isplitl [HS0 HS1]
    · isplitl [HS0]
      · iexists _; iexact HS0
      · iexists _; iexact HS1
    iexact Hb
  iexact Hg

theorem hout4 (c : Dev nD) : (dat4 V c).Φ (Fin.last cfg4.N) ⊢ Pipeline.ΦA spec4 c :=
  Phi4_out V c _ (by rw [Fin.val_last]; have : cfg4.N = 16 := N_4; omega)

end Cert.Kernel.Gen

end
-- ==== Proof.K.R5Runs.lean ====
/-
  Custom call 5 accumulates a row block of attn @ fc over the inner grid axis k (4 steps of 512 source rows) in two
  scratch buffers: a [512,512] accumulator and a [512,1] column of row sums. Both are cleared at k = 0, added to at
  every k, and at k = 3 the output block is the accumulator divided by (row sums + ε). This module fixes what the
  three control cases of that body are stated over: the two branch conditions in closed form over the sixteen grid
  points (t = 4·i + k), where the output window is idle, and the memrefs the body is called with.
-/
import proofs.«145590_j23742579212572_2_alg».proof.Proof.Gen.Kernel.Launch
import proofs.«145590_j23742579212572_2_alg».proof.Proof.Gen.Kernel.Skeleton
import proofs.«145590_j23742579212572_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The attn block: its staging buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The whole fc array, fetched once: its staging buffer holds it at every point (the index never moves). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The two branch conditions over the grid -/

/-- "k = 0": the accumulators are cleared. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

/-- "k = 3": the output block is written. -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
/-- At k = 0 the output window is idle and not written back. -/
theorem idleAt5_2_A : ∀ t : Fin cfg5.N, cond5_0 (grid5.coords t) → ¬cond5_1 (grid5.coords t) → cfg5.idle 2 (grid5.coords t) = true := by decide +kernel
theorem noFlush5_2_A : ∀ t : Fin cfg5.N, cond5_0 (grid5.coords t) → ¬cond5_1 (grid5.coords t) → (cfg5.win 2).flush t = false := by decide +kernel
/-- At k = 1 … 2 likewise. -/
theorem idleAt5_2_B : ∀ t : Fin cfg5.N, ¬cond5_0 (grid5.coords t) → ¬cond5_1 (grid5.coords t) → cfg5.idle 2 (grid5.coords t) = true := by decide +kernel
theorem noFlush5_2_B : ∀ t : Fin cfg5.N, ¬cond5_0 (grid5.coords t) → ¬cond5_1 (grid5.coords t) → (cfg5.win 2).flush t = false := by decide +kernel
/-- At k = 3 it is live. -/
theorem liveAt5_2_C : ∀ t : Fin cfg5.N, ¬cond5_0 (grid5.coords t) → cond5_1 (grid5.coords t) → cfg5.idle 2 (grid5.coords t) = false := by decide +kernel

/-! ## The memrefs the body is called with -/

/-- One staging buffer of the output window, through which its contents are stated. -/
abbrev VO5_2 : View sig .tc .vmem S512x512 .f32 := (Memref.whole cc5_stg2_0 : Memref sig .tc .vmem S512x512 .f32).view
abbrev ms5_0 (t : Fin cfg5.N) : Memref sig .tc .vmem S512x512 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x512 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S512x512 .f32 := win5_2.stage (cfg5.slots t 2)
abbrev hs5_2 (t : Fin cfg5.N) : (ms5_2 t).IsWhole := hstage5_2 ((cfg5.slots t 2).cast nbuf5_2)
/-- The accumulator and the column of row sums: whole scoped buffers of the kernel's own. -/
abbrev scM5_0 : Memref sig .tc .vmem S512x512 .f32 := Memref.whole cc5_scratch0
abbrev scM5_1 : Memref sig .tc .vmem S512x1 .f32 := Memref.whole cc5_scratch1
abbrev VS5_0 : View sig .tc .vmem S512x512 .f32 := scM5_0.view
abbrev VS5_1 : View sig .tc .vmem S512x1 .f32 := scM5_1.view

end Cert.Kernel.Gen

end
-- ==== Proof.K.R5RunB.lean ====
/-
  Custom call 5 at k = 1 … 2: neither branch is taken. The accumulator and the row sums come in at what the point before left, are added to, and go out; the output buffer is untouched.
-/
import proofs.«145590_j23742579212572_2_alg».proof.Proof.K.R5Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun5_B (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i)
    (x0 : Vec F S512x512 .f32) (x1 : Vec F S2048x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc5__collect_direct_kernel i arg2 harg2 arg3 harg3 arg4 harg4 arg5 harg5 arg6 harg6) K } := by
  refine ⟨[], ?_, ?_, fun xi2 E K => ?run⟩
  case run =>
    simp only [cc5__collect_direct_kernel_eq_skeleton]; unfold cc5__collect_direct_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R5RunA.lean ====
/-
  Custom call 5 at k = 0: the accumulator and the row sums are cleared first (whatever they held), then added to; the output buffer is untouched.
-/
import proofs.«145590_j23742579212572_2_alg».proof.Proof.K.R5RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun5_A (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i)
    (x0 : Vec F S512x512 .f32) (x1 : Vec F S2048x512 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc5__collect_direct_kernel i arg2 harg2 arg3 harg3 arg4 harg4 arg5 harg5 arg6 harg6) K } := by
  refine ⟨[], ?_, ?_, fun xi2 E K => ?run⟩
  case run =>
    simp only [cc5__collect_direct_kernel_eq_skeleton]; unfold cc5__collect_direct_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R5RunC.lean ====
/-
  Custom call 5 at k = 3: the accumulators are added to a last time and the output block is stored: the accumulator divided by (row sums + ε).
-/
import proofs.«145590_j23742579212572_2_alg».proof.Proof.K.R5RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun5_C (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc5__collect_direct_kernel i arg2 harg2 arg3 harg3 arg4 harg4 arg5 harg5 arg6 harg6) K } := by
  refine ⟨?_, ?_, ?_, fun E K => ?run⟩
  case run =>
    simp only [cc5__collect_direct_kernel_eq_skeleton]; unfold cc5__collect_direct_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Gen

end
-- ==== Proof.K.R5.lean ====
/-
  Custom call 5 as proof data for the pipeline: what the output buffer, the accumulator and the column of row sums hold
  after each of the 16 grid points (t = 4·i + k), by recursion on the point — at k = 0 from cleared scratch, at
  k = 1 … 3 from what the point before left —, the invariant that carries the two scratch buffers at those contents
  between points, and the body obligation: at every point the body runs from the invariant before it to the one after it.
-/
import proofs.«145590_j23742579212572_2_alg».proof.Proof.K.R5RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What this case leaves in the output buffer (nothing is stored: a placeholder nothing consults, the window being idle and not written back here). -/
def out5_A_2 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i)
    (x0 : Vec F S512x512 .f32) (x1 : Vec F S2048x512 .f32) : Vec F S512x512 .f32 :=
  VO5_2.read (Elt F) (VO5_2.writes (Elt F) VO5_2.junk (kernelRun5_A c i arg2 harg2 arg3 harg3 arg4 harg4 arg5 harg5 arg6 harg6 hc0 hc1 x0 x1).1)

/-- The stores into the accumulator cover it. -/
theorem scover5_A_0 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i)
    (x0 : Vec F S512x512 .f32) (x1 : Vec F S2048x512 .f32) (y : S512x512.Idx) :
    ∃ pc ∈ (kernelRun5_A c i arg2 harg2 arg3 harg3 arg4 harg4 arg5 harg5 arg6 harg6 hc0 hc1 x0 x1).2.1, y ∈ pc.1.set :=
  View.cover_of_tiledL (kernelRun5_A c i arg2 harg2 arg3 harg3 arg4 harg4 arg5 harg5 arg6 harg6 hc0 hc1 x0 x1).2.1 S512x512.size (by sl_kernel_rfl) y

/-- What this case leaves in the accumulator. -/
def sout5_A_0 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i)
    (x0 : Vec F S512x512 .f32) (x1 : Vec F S2048x512 .f32) : Vec F S512x512 .f32 :=
  VS5_0.read (Elt F) (VS5_0.writes (Elt F) VS5_0.junk (kernelRun5_A c i arg2 harg2 arg3 harg3 arg4 harg4 arg5 harg5 arg6 harg6 hc0 hc1 x0 x1).2.1)

/-- The stores into the column of row sums cover it. -/
theorem scover5_A_1 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i)
    (x0 : Vec F S512x512 .f32) (x1 : Vec F S2048x512 .f32) (y : S512x1.Idx) :
    ∃ pc ∈ (kernelRun5_A c i arg2 harg2 arg3 harg3 arg4 harg4 arg5 harg5 arg6 harg6 hc0 hc1 x0 x1).2.2.1, y ∈ pc.1.set :=
  View.cover_of_tiledL (kernelRun5_A c i arg2 harg2 arg3 harg3 arg4 harg4 arg5 harg5 arg6 harg6 hc0 hc1 x0 x1).2.2.1 S512x1.size (by sl_kernel_rfl) y

/-- What this case leaves in the column of row sums. -/
def sout5_A_1 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i)
    (x0 : Vec F S512x512 .f32) (x1 : Vec F S2048x512 .f32) : Vec F S512x1 .f32 :=
  VS5_1.read (Elt F) (VS5_1.writes (Elt F) VS5_1.junk (kernelRun5_A c i arg2 harg2 arg3 harg3 arg4 harg4 arg5 harg5 arg6 harg6 hc0 hc1 x0 x1).2.2.1)

/-- What this case leaves in the output buffer (nothing is stored: a placeholder nothing consults, the window being idle and not written back here). -/
def out5_B_2 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i)
    (x0 : Vec F S512x512 .f32) (x1 : Vec F S2048x512 .f32) (xs0 : Vec F S512x512 .f32) (xs1 : Vec F S512x1 .f32) : Vec F S512x512 .f32 :=
  VO5_2.read (Elt F) (VO5_2.writes (Elt F) VO5_2.junk (kernelRun5_B c i arg2 harg2 arg3 harg3 arg4 harg4 arg5 harg5 arg6 harg6 hc0 hc1 x0 x1 xs0 xs1).1)

/-- The stores into the accumulator cover it. -/
theorem scover5_B_0 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i)
    (x0 : Vec F S512x512 .f32) (x1 : Vec F S2048x512 .f32) (xs0 : Vec F S512x512 .f32) (xs1 : Vec F S512x1 .f32) (y : S512x512.Idx) :
    ∃ pc ∈ (kernelRun5_B c i arg2 harg2 arg3 harg3 arg4 harg4 arg5 harg5 arg6 harg6 hc0 hc1 x0 x1 xs0 xs1).2.1, y ∈ pc.1.set :=
  View.cover_of_tiledL (kernelRun5_B c i arg2 harg2 arg3 harg3 arg4 harg4 arg5 harg5 arg6 harg6 hc0 hc1 x0 x1 xs0 xs1).2.1 S512x512.size (by sl_kernel_rfl) y

/-- What this case leaves in the accumulator. -/
def sout5_B_0 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i)
    (x0 : Vec F S512x512 .f32) (x1 : Vec F S2048x512 .f32) (xs0 : Vec F S512x512 .f32) (xs1 : Vec F S512x1 .f32) : Vec F S512x512 .f32 :=
  VS5_0.read (Elt F) (VS5_0.writes (Elt F) VS5_0.junk (kernelRun5_B c i arg2 harg2 arg3 harg3 arg4 harg4 arg5 harg5 arg6 harg6 hc0 hc1 x0 x1 xs0 xs1).2.1)

/-- The stores into the column of row sums cover it. -/
theorem scover5_B_1 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i)
    (x0 : Vec F S512x512 .f32) (x1 : Vec F S2048x512 .f32) (xs0 : Vec F S512x512 .f32) (xs1 : Vec F S512x1 .f32) (y : S512x1.Idx) :
    ∃ pc ∈ (kernelRun5_B c i arg2 harg2 arg3 harg3 arg4 harg4 arg5 harg5 arg6 harg6 hc0 hc1 x0 x1 xs0 xs1).2.2.1, y ∈ pc.1.set :=
  View.cover_of_tiledL (kernelRun5_B c i arg2 harg2 arg3 harg3 arg4 harg4 arg5 harg5 arg6 harg6 hc0 hc1 x0 x1 xs0 xs1).2.2.1 S512x1.size (by sl_kernel_rfl) y

/-- What this case leaves in the column of row sums. -/
def sout5_B_1 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i)
    (x0 : Vec F S512x512 .f32) (x1 : Vec F S2048x512 .f32) (xs0 : Vec F S512x512 .f32) (xs1 : Vec F S512x1 .f32) : Vec F S512x1 .f32 :=
  VS5_1.read (Elt F) (VS5_1.writes (Elt F) VS5_1.junk (kernelRun5_B c i arg2 harg2 arg3 harg3 arg4 harg4 arg5 harg5 arg6 harg6 hc0 hc1 x0 x1 xs0 xs1).2.2.1)

/-- At k = 3 the one store into the output buffer covers it. -/
theorem cover5_C_2 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) (y : S512x512.Idx) :
    ∃ pc ∈ (kernelRun5_C c i arg2 harg2 arg3 harg3 arg4 harg4 arg5 harg5 arg6 harg6 hc0 hc1 x0 x1 xs0 xs1).1, y ∈ pc.1.set :=
  View.cover_of_tiledL (kernelRun5_C c i arg2 harg2 arg3 harg3 arg4 harg4 arg5 harg5 arg6 harg6 hc0 hc1 x0 x1 xs0 xs1).1 S512x512.size (by sl_kernel_rfl) y

/-- What this case leaves in the output buffer: the accumulator over (row sums + ε). -/
def out5_C_2 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) : Vec F S512x512 .f32 :=
  VO5_2.read (Elt F) (VO5_2.writes (Elt F) VO5_2.junk (kernelRun5_C c i arg2 harg2 arg3 harg3 arg4 harg4 arg5 harg5 arg6 harg6 hc0 hc1 x0 x1 xs0 xs1).1)

/-- The stores into the accumulator cover it. -/
theorem scover5_C_0 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) (y : S512x512.Idx) :
    ∃ pc ∈ (kernelRun5_C c i arg2 harg2 arg3 harg3 arg4 harg4 arg5 harg5 arg6 harg6 hc0 hc1 x0 x1 xs0 xs1).2.1, y ∈ pc.1.set :=
  View.cover_of_tiledL (kernelRun5_C c i arg2 harg2 arg3 harg3 arg4 harg4 arg5 harg5 arg6 harg6 hc0 hc1 x0 x1 xs0 xs1).2.1 S512x512.size (by sl_kernel_rfl) y

/-- What this case leaves in the accumulator. -/
def sout5_C_0 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) : Vec F S512x512 .f32 :=
  VS5_0.read (Elt F) (VS5_0.writes (Elt F) VS5_0.junk (kernelRun5_C c i arg2 harg2 arg3 harg3 arg4 harg4 arg5 harg5 arg6 harg6 hc0 hc1 x0 x1 xs0 xs1).2.1)

/-- The stores into the column of row sums cover it. -/
theorem scover5_C_1 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) (y : S512x1.Idx) :
    ∃ pc ∈ (kernelRun5_C c i arg2 harg2 arg3 harg3 arg4 harg4 arg5 harg5 arg6 harg6 hc0 hc1 x0 x1 xs0 xs1).2.2.1, y ∈ pc.1.set :=
  View.cover_of_tiledL (kernelRun5_C c i arg2 harg2 arg3 harg3 arg4 harg4 arg5 harg5 arg6 harg6 hc0 hc1 x0 x1 xs0 xs1).2.2.1 S512x1.size (by sl_kernel_rfl) y

/-- What this case leaves in the column of row sums. -/
def sout5_C_1 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) : Vec F S512x1 .f32 :=
  VS5_1.read (Elt F) (VS5_1.writes (Elt F) VS5_1.junk (kernelRun5_C c i arg2 harg2 arg3 harg3 arg4 harg4 arg5 harg5 arg6 harg6 hc0 hc1 x0 x1 xs0 xs1).2.2.1)

/-! ## The accumulation -/

/-- What the output buffer, the accumulator and the row sums hold after the body at position `n`. -/
def outsAt5 (c : Dev nD) : (n : ℕ) → n < cfg5.N → Vec F S512x512 .f32 × Vec F S512x512 .f32 × Vec F S512x1 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩))
  | n + 1, hn =>
    if h0 : (n + 1) % 4 = 0 then
      if h1 : (n + 1) % 4 = 3 then
        False.elim (by omega)
      else
        (out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩))
    else
      if h1 : (n + 1) % 4 = 3 then
        (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.1 (outsAt5 c n (Nat.lt_of_succ_lt hn)).2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.1 (outsAt5 c n (Nat.lt_of_succ_lt hn)).2.2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.1 (outsAt5 c n (Nat.lt_of_succ_lt hn)).2.2)
      else
        (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2.1 (outsAt5 c n (Nat.lt_of_succ_lt hn)).2.2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2.1 (outsAt5 c n (Nat.lt_of_succ_lt hn)).2.2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2.1 (outsAt5 c n (Nat.lt_of_succ_lt hn)).2.2)

theorem outsAt5_A (c : Dev nD) (t : Fin cfg5.N) (h0 : t.val % 4 = 0) (h1 : ¬t.val % 4 = 3) :
    outsAt5 V c t.val t.isLt = (out5_A_2 c (grid5.coords t) (ms5_0 t) (hs5_0 t) (ms5_1 t) (hs5_1 t) (ms5_2 t) (hs5_2 t) scM5_0 (Memref.isWhole_whole _) scM5_1 (Memref.isWhole_whole _) ((hcond5_0 t).mpr h0) (fun h => h1 ((hcond5_1 t).mp h)) (iblk5 V c 0 t) (iblk5 V c 1 t), sout5_A_0 c (grid5.coords t) (ms5_0 t) (hs5_0 t) (ms5_1 t) (hs5_1 t) (ms5_2 t) (hs5_2 t) scM5_0 (Memref.isWhole_whole _) scM5_1 (Memref.isWhole_whole _) ((hcond5_0 t).mpr h0) (fun h => h1 ((hcond5_1 t).mp h)) (iblk5 V c 0 t) (iblk5 V c 1 t), sout5_A_1 c (grid5.coords t) (ms5_0 t) (hs5_0 t) (ms5_1 t) (hs5_1 t) (ms5_2 t) (hs5_2 t) scM5_0 (Memref.isWhole_whole _) scM5_1 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans ((dif_neg h1).trans rfl)

theorem outsAt5_B (c : Dev nD) (t : Fin cfg5.N) (h0 : ¬t.val % 4 = 0) (h1 : ¬t.val % 4 = 3) :
    outsAt5 V c t.val t.isLt = (out5_B_2 c (grid5.coords t) (ms5_0 t) (hs5_0 t) (ms5_1 t) (hs5_1 t) (ms5_2 t) (hs5_2 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2, sout5_B_0 c (grid5.coords t) (ms5_0 t) (hs5_0 t) (ms5_1 t) (hs5_1 t) (ms5_2 t) (hs5_2 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2, sout5_B_1 c (grid5.coords t) (ms5_0 t) (hs5_0 t) (ms5_1 t) (hs5_1 t) (ms5_2 t) (hs5_2 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 4 = 0) (h1 : t.val % 4 = 3) :
    outsAt5 V c t.val t.isLt = (out5_C_2 c (grid5.coords t) (ms5_0 t) (hs5_0 t) (ms5_1 t) (hs5_1 t) (ms5_2 t) (hs5_2 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2, sout5_C_0 c (grid5.coords t) (ms5_0 t) (hs5_0 t) (ms5_1 t) (hs5_1 t) (ms5_2 t) (hs5_2 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2, sout5_C_1 c (grid5.coords t) (ms5_0 t) (hs5_0 t) (ms5_1 t) (hs5_1 t) (ms5_2 t) (hs5_2 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant by position -/

/-- The scoped buffers that are neither staged by a window of this call nor one of its two scratch buffers. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- Before the first point every scoped buffer is at anything; after point `n` the two scratch buffers hold what that point left. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.1) ∗ owns (c : Thread nD τ) scM5_1 fullShare ((outsAt5 V c n hn).2.2)) ∗ rest5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2.1) ∗ owns (c : Thread nD τ) scM5_1 fullShare ((outsAt5 V c n hn).2.2)) ∗ rest5 c) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.1) ∗ owns (c : Thread nD τ) scM5_1 fullShare ((outsAt5 V c (n - 1) (by omega)).2.2)) ∗ rest5 c) ∗ (∃ r, prngReg c r)) := by
  cases n with
  | zero => exact absurd rfl hz
  | succ n => rfl

/-- The class's invariant with the two scratch buffers named, each at some contents. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

/-! ## The proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point: the closed forms of the two conditions say which case the point is in; the invariant hands the
    body the two scratch buffers at what the point before left (at anything before the first point), and takes them back at
    this point's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 16 := lt_of_lt_of_eq t.isLt (show cfg5.N = 16 from N_5)
  by_cases h0 : t.val % 4 = 0
  · by_cases h1 : t.val % 4 = 3
    · exfalso; omega
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [Dat.leavesExact_idle (dat5 V c) 2 t (idleAt5_2_A t ((hcond5_0 t).mpr h0) (fun h => h1 ((hcond5_1 t).mp h))) (noFlush5_2_A t ((hcond5_0 t).mpr h0) (fun h => h1 ((hcond5_1 t).mp h)))]
      rw [outsAt5_A V c t h0 h1]
      unfold sout5_A_0 sout5_A_1; (try dsimp only)
      by_cases hz : t.val = 0
      · rw [PhiS5_castSucc V c t, PhiS5_zero V c _ _ hz, PhiA5_eq]
        iintro ⟨⟨⟨⟨HS0, HS1⟩, Hb⟩, Hg⟩, Ho, ⟨%d0, H0⟩, ⟨%d1, H1⟩, ⟨%d2, H2⟩⟩
        iapply ((kernelRun5_A c (grid5.coords t) _ _ _ _ _ _ _ _ _ _ ((hcond5_0 t).mpr h0) (fun h => h1 ((hcond5_1 t).mp h)) (iblk5 V c 0 t) (iblk5 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover5_A_0 c _ _ _ _ _ _ _ _ _ _ _ _ _ _ _)
              · unfold owns; iexists _; isplitr
                swap; · iexact HS1
                ipureintro; exact View.read_writes_of_cover _ _ _ _ _ (scover5_A_1 c _ _ _ _ _ _ _ _ _ _ _ _ _ _ _)
            iexact Hb
          iexact Hg
        isplitl [Ho]; · iexact Ho
        isplitl [H0]; · iexact H0
        isplitl [H1]; · iexact H1
        iexists _; iexact H2
      · rw [PhiS5_castSucc V c t, PhiS5_pos V c _ _ hz]
        iintro ⟨⟨⟨⟨HS0, HS1⟩, Hb⟩, Hg⟩, Ho, ⟨%d0, H0⟩, ⟨%d1, H1⟩, ⟨%d2, H2⟩⟩
        iapply ((kernelRun5_A c (grid5.coords t) _ _ _ _ _ _ _ _ _ _ ((hcond5_0 t).mpr h0) (fun h => h1 ((hcond5_1 t).mp h)) (iblk5 V c 0 t) (iblk5 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover5_A_0 c _ _ _ _ _ _ _ _ _ _ _ _ _ _ _)
              · unfold owns; iexists _; isplitr
                swap; · iexact HS1
                ipureintro; exact View.read_writes_of_cover _ _ _ _ _ (scover5_A_1 c _ _ _ _ _ _ _ _ _ _ _ _ _ _ _)
            iexact Hb
          iexact Hg
        isplitl [Ho]; · iexact Ho
        isplitl [H0]; · iexact H0
        isplitl [H1]; · iexact H1
        iexists _; iexact H2
  · by_cases h1 : t.val % 4 = 3
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2_C t (fun h => h0 ((hcond5_0 t).mp h)) ((hcond5_1 t).mpr h1)], after5_2]
      rw [outsAt5_C V c t h0 h1]
      unfold out5_C_2 sout5_C_0 sout5_C_1; (try dsimp only)
      by_cases hz : t.val = 0
      · exfalso; omega
      · rw [PhiS5_castSucc V c t, PhiS5_pos V c _ _ hz]
        iintro ⟨⟨⟨⟨HS0, HS1⟩, Hb⟩, Hg⟩, Ho, ⟨%d0, H0⟩, ⟨%d1, H1⟩, ⟨%d2, H2⟩⟩
        iapply ((kernelRun5_C c (grid5.coords t) _ _ _ _ _ _ _ _ _ _ (fun h => h0 ((hcond5_0 t).mp h)) ((hcond5_1 t).mpr h1) (iblk5 V c 0 t) (iblk5 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover5_C_0 c _ _ _ _ _ _ _ _ _ _ _ _ _ _ _ _ _)
              · unfold owns; iexists _; isplitr
                swap; · iexact HS1
                ipureintro; exact View.read_writes_of_cover _ _ _ _ _ (scover5_C_1 c _ _ _ _ _ _ _ _ _ _ _ _ _ _ _ _ _)
            iexact Hb
          iexact Hg
        isplitl [Ho]; · iexact Ho
        isplitl [H0]; · iexact H0
        isplitl [H1]; · iexact H1
        unfold owns; iexists _; isplitr
        swap; · iexact H2
        ipureintro; exact View.read_writes_of_cover _ _ _ _ _ (cover5_C_2 c _ _ _ _ _ _ _ _ _ _ _ _ _ _ _ _ _)
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [Dat.leavesExact_idle (dat5 V c) 2 t (idleAt5_2_B t (fun h => h0 ((hcond5_0 t).mp h)) (fun h => h1 ((hcond5_1 t).mp h))) (noFlush5_2_B t (fun h => h0 ((hcond5_0 t).mp h)) (fun h => h1 ((hcond5_1 t).mp h)))]
      rw [outsAt5_B V c t h0 h1]
      unfold sout5_B_0 sout5_B_1; (try dsimp only)
      by_cases hz : t.val = 0
      · exfalso; omega
      · rw [PhiS5_castSucc V c t, PhiS5_pos V c _ _ hz]
        iintro ⟨⟨⟨⟨HS0, HS1⟩, Hb⟩, Hg⟩, Ho, ⟨%d0, H0⟩, ⟨%d1, H1⟩, ⟨%d2, H2⟩⟩
        iapply ((kernelRun5_B c (grid5.coords t) _ _ _ _ _ _ _ _ _ _ (fun h => h0 ((hcond5_0 t).mp h)) (fun h => h1 ((hcond5_1 t).mp h)) (iblk5 V c 0 t) (iblk5 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover5_B_0 c _ _ _ _ _ _ _ _ _ _ _ _ _ _ _ _ _)
              · unfold owns; iexists _; isplitr
                swap; · iexact HS1
                ipureintro; exact View.read_writes_of_cover _ _ _ _ _ (scover5_B_1 c _ _ _ _ _ _ _ _ _ _ _ _ _ _ _ _ _)
            iexact Hb
          iexact Hg
        isplitl [Ho]; · iexact Ho
        isplitl [H0]; · iexact H0
        isplitl [H1]; · iexact H1
        iexists _; iexact H2

theorem body_obligation5 (c : Dev nD) : BodyObligation (dat5 (F := F) V c) (defs₀ (F := F)) Variants.none () Set.univ := fun t => by
  rw [bigSep_W5, bigSep_W5]
  exact sound_body5 V c t

/-! ## The invariant at the two ends -/

theorem Phi5_zero (c : Dev nD) : (dat5 V c).Φ 0 = Pipeline.ΦA spec5 c := rfl

/-- After any point but the first the invariant gives the class's back: what the scratch buffers hold is forgotten. -/
theorem Phi5_out (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, Hb⟩, Hg⟩
  isplitl [HS0 HS1 Hb]
  · isplitl [HS0 HS1]
    · isplitl [HS0]
      · iexists _; iexact HS0
      · iexists _; iexact HS1
    iexact Hb
  iexact Hg

theorem hout5 (c : Dev nD) : (dat5 V c).Φ (Fin.last cfg5.N) ⊢ Pipeline.ΦA spec5 c :=
  Phi5_out V c _ (by rw [Fin.val_last]; have : cfg5.N = 16 := N_5; omega)

end Cert.Kernel.Gen

end
-- ==== Proof.K.R6Runs.lean ====
/-
  Custom call 6 accumulates a row block of attn @ fc over the inner grid axis k (16 steps of 512 source rows) in two
  scratch buffers: a [512,512] accumulator and a [512,1] column of row sums. Both are cleared at k = 0, added to at
  every k, and at k = 15 the output block is the accumulator divided by (row sums + ε). This module fixes what the
  three control cases of that body are stated over: the two branch conditions in closed form over the sixteen grid
  points (t = 4·i + k), where the output window is idle, and the memrefs the body is called with.
-/
import proofs.«145590_j23742579212572_2_alg».proof.Proof.Gen.Kernel.Launch
import proofs.«145590_j23742579212572_2_alg».proof.Proof.Gen.Kernel.Skeleton
import proofs.«145590_j23742579212572_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The attn block: its staging buffer holds its block at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The whole fc array, fetched once: its staging buffer holds it at every point (the index never moves). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The two branch conditions over the grid -/

/-- "k = 0": the accumulators are cleared. -/
abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 16 = 0 :=
  (by decide +kernel : ∀ t : Fin grid6.N, cond6_0 (grid6.coords t) ↔ t.val % 16 = 0)

/-- "k = 15": the output block is written. -/
abbrev cond6_1 (i : grid6.Coords) : Prop := k6_cond2 i = 1#1
theorem hcond6_1 : ∀ t : Fin cfg6.N, cond6_1 (grid6.coords t) ↔ t.val % 16 = 15 :=
  (by decide +kernel : ∀ t : Fin grid6.N, cond6_1 (grid6.coords t) ↔ t.val % 16 = 15)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
/-- At k = 0 the output window is idle and not written back. -/
theorem idleAt6_2_A : ∀ t : Fin cfg6.N, cond6_0 (grid6.coords t) → ¬cond6_1 (grid6.coords t) → cfg6.idle 2 (grid6.coords t) = true := by decide +kernel
theorem noFlush6_2_A : ∀ t : Fin cfg6.N, cond6_0 (grid6.coords t) → ¬cond6_1 (grid6.coords t) → (cfg6.win 2).flush t = false := by decide +kernel
/-- At k = 1 … 14 likewise. -/
theorem idleAt6_2_B : ∀ t : Fin cfg6.N, ¬cond6_0 (grid6.coords t) → ¬cond6_1 (grid6.coords t) → cfg6.idle 2 (grid6.coords t) = true := by decide +kernel
theorem noFlush6_2_B : ∀ t : Fin cfg6.N, ¬cond6_0 (grid6.coords t) → ¬cond6_1 (grid6.coords t) → (cfg6.win 2).flush t = false := by decide +kernel
/-- At k = 15 it is live. -/
theorem liveAt6_2_C : ∀ t : Fin cfg6.N, ¬cond6_0 (grid6.coords t) → cond6_1 (grid6.coords t) → cfg6.idle 2 (grid6.coords t) = false := by decide +kernel

/-! ## The memrefs the body is called with -/

/-- One staging buffer of the output window, through which its contents are stated. -/
abbrev VO6_2 : View sig .tc .vmem S512x512 .f32 := (Memref.whole cc6_stg2_0 : Memref sig .tc .vmem S512x512 .f32).view
abbrev ms6_0 (t : Fin cfg6.N) : Memref sig .tc .vmem S512x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S8192x512 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S512x512 .f32 := win6_2.stage (cfg6.slots t 2)
abbrev hs6_2 (t : Fin cfg6.N) : (ms6_2 t).IsWhole := hstage6_2 ((cfg6.slots t 2).cast nbuf6_2)
/-- The accumulator and the column of row sums: whole scoped buffers of the kernel's own. -/
abbrev scM6_0 : Memref sig .tc .vmem S512x512 .f32 := Memref.whole cc6_scratch0
abbrev scM6_1 : Memref sig .tc .vmem S512x1 .f32 := Memref.whole cc6_scratch1
abbrev VS6_0 : View sig .tc .vmem S512x512 .f32 := scM6_0.view
abbrev VS6_1 : View sig .tc .vmem S512x1 .f32 := scM6_1.view

end Cert.Kernel.Gen

end
-- ==== Proof.K.R6RunB.lean ====
/-
  Custom call 6 at k = 1 … 14: neither branch is taken. The accumulator and the row sums come in at what the point before left, are added to, and go out; the output buffer is untouched.
-/
import proofs.«145590_j23742579212572_2_alg».proof.Proof.K.R6Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun6_B (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i)
    (x0 : Vec F S512x512 .f32) (x1 : Vec F S8192x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc6__collect_direct_kernel i arg2 harg2 arg3 harg3 arg4 harg4 arg5 harg5 arg6 harg6) K } := by
  refine ⟨[], ?_, ?_, fun xi2 E K => ?run⟩
  case run =>
    simp only [cc6__collect_direct_kernel_eq_skeleton]; unfold cc6__collect_direct_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R6RunA.lean ====
/-
  Custom call 6 at k = 0: the accumulator and the row sums are cleared first (whatever they held), then added to; the output buffer is untouched.
-/
import proofs.«145590_j23742579212572_2_alg».proof.Proof.K.R6RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun6_A (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i)
    (x0 : Vec F S512x512 .f32) (x1 : Vec F S8192x512 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc6__collect_direct_kernel i arg2 harg2 arg3 harg3 arg4 harg4 arg5 harg5 arg6 harg6) K } := by
  refine ⟨[], ?_, ?_, fun xi2 E K => ?run⟩
  case run =>
    simp only [cc6__collect_direct_kernel_eq_skeleton]; unfold cc6__collect_direct_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R6RunC.lean ====
/-
  Custom call 6 at k = 15: the accumulators are added to a last time and the output block is stored: the accumulator divided by (row sums + ε).
-/
import proofs.«145590_j23742579212572_2_alg».proof.Proof.K.R6RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun6_C (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc6__collect_direct_kernel i arg2 harg2 arg3 harg3 arg4 harg4 arg5 harg5 arg6 harg6) K } := by
  refine ⟨?_, ?_, ?_, fun E K => ?run⟩
  case run =>
    simp only [cc6__collect_direct_kernel_eq_skeleton]; unfold cc6__collect_direct_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Gen

end
-- ==== Proof.K.R6.lean ====
/-
  Custom call 6 as proof data for the pipeline: what the output buffer, the accumulator and the column of row sums hold
  after each of the 64 grid points (t = 16·i + k), by recursion on the point — at k = 0 from cleared scratch, at
  k = 1 … 15 from what the point before left —, the invariant that carries the two scratch buffers at those contents
  between points, and the body obligation: at every point the body runs from the invariant before it to the one after it.
-/
import proofs.«145590_j23742579212572_2_alg».proof.Proof.K.R6RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What this case leaves in the output buffer (nothing is stored: a placeholder nothing consults, the window being idle and not written back here). -/
def out6_A_2 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i)
    (x0 : Vec F S512x512 .f32) (x1 : Vec F S8192x512 .f32) : Vec F S512x512 .f32 :=
  VO6_2.read (Elt F) (VO6_2.writes (Elt F) VO6_2.junk (kernelRun6_A c i arg2 harg2 arg3 harg3 arg4 harg4 arg5 harg5 arg6 harg6 hc0 hc1 x0 x1).1)

/-- The stores into the accumulator cover it. -/
theorem scover6_A_0 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i)
    (x0 : Vec F S512x512 .f32) (x1 : Vec F S8192x512 .f32) (y : S512x512.Idx) :
    ∃ pc ∈ (kernelRun6_A c i arg2 harg2 arg3 harg3 arg4 harg4 arg5 harg5 arg6 harg6 hc0 hc1 x0 x1).2.1, y ∈ pc.1.set :=
  View.cover_of_tiledL (kernelRun6_A c i arg2 harg2 arg3 harg3 arg4 harg4 arg5 harg5 arg6 harg6 hc0 hc1 x0 x1).2.1 S512x512.size (by sl_kernel_rfl) y

/-- What this case leaves in the accumulator. -/
def sout6_A_0 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i)
    (x0 : Vec F S512x512 .f32) (x1 : Vec F S8192x512 .f32) : Vec F S512x512 .f32 :=
  VS6_0.read (Elt F) (VS6_0.writes (Elt F) VS6_0.junk (kernelRun6_A c i arg2 harg2 arg3 harg3 arg4 harg4 arg5 harg5 arg6 harg6 hc0 hc1 x0 x1).2.1)

/-- The stores into the column of row sums cover it. -/
theorem scover6_A_1 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i)
    (x0 : Vec F S512x512 .f32) (x1 : Vec F S8192x512 .f32) (y : S512x1.Idx) :
    ∃ pc ∈ (kernelRun6_A c i arg2 harg2 arg3 harg3 arg4 harg4 arg5 harg5 arg6 harg6 hc0 hc1 x0 x1).2.2.1, y ∈ pc.1.set :=
  View.cover_of_tiledL (kernelRun6_A c i arg2 harg2 arg3 harg3 arg4 harg4 arg5 harg5 arg6 harg6 hc0 hc1 x0 x1).2.2.1 S512x1.size (by sl_kernel_rfl) y

/-- What this case leaves in the column of row sums. -/
def sout6_A_1 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i)
    (x0 : Vec F S512x512 .f32) (x1 : Vec F S8192x512 .f32) : Vec F S512x1 .f32 :=
  VS6_1.read (Elt F) (VS6_1.writes (Elt F) VS6_1.junk (kernelRun6_A c i arg2 harg2 arg3 harg3 arg4 harg4 arg5 harg5 arg6 harg6 hc0 hc1 x0 x1).2.2.1)

/-- What this case leaves in the output buffer (nothing is stored: a placeholder nothing consults, the window being idle and not written back here). -/
def out6_B_2 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i)
    (x0 : Vec F S512x512 .f32) (x1 : Vec F S8192x512 .f32) (xs0 : Vec F S512x512 .f32) (xs1 : Vec F S512x1 .f32) : Vec F S512x512 .f32 :=
  VO6_2.read (Elt F) (VO6_2.writes (Elt F) VO6_2.junk (kernelRun6_B c i arg2 harg2 arg3 harg3 arg4 harg4 arg5 harg5 arg6 harg6 hc0 hc1 x0 x1 xs0 xs1).1)

/-- The stores into the accumulator cover it. -/
theorem scover6_B_0 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i)
    (x0 : Vec F S512x512 .f32) (x1 : Vec F S8192x512 .f32) (xs0 : Vec F S512x512 .f32) (xs1 : Vec F S512x1 .f32) (y : S512x512.Idx) :
    ∃ pc ∈ (kernelRun6_B c i arg2 harg2 arg3 harg3 arg4 harg4 arg5 harg5 arg6 harg6 hc0 hc1 x0 x1 xs0 xs1).2.1, y ∈ pc.1.set :=
  View.cover_of_tiledL (kernelRun6_B c i arg2 harg2 arg3 harg3 arg4 harg4 arg5 harg5 arg6 harg6 hc0 hc1 x0 x1 xs0 xs1).2.1 S512x512.size (by sl_kernel_rfl) y

/-- What this case leaves in the accumulator. -/
def sout6_B_0 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i)
    (x0 : Vec F S512x512 .f32) (x1 : Vec F S8192x512 .f32) (xs0 : Vec F S512x512 .f32) (xs1 : Vec F S512x1 .f32) : Vec F S512x512 .f32 :=
  VS6_0.read (Elt F) (VS6_0.writes (Elt F) VS6_0.junk (kernelRun6_B c i arg2 harg2 arg3 harg3 arg4 harg4 arg5 harg5 arg6 harg6 hc0 hc1 x0 x1 xs0 xs1).2.1)

/-- The stores into the column of row sums cover it. -/
theorem scover6_B_1 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i)
    (x0 : Vec F S512x512 .f32) (x1 : Vec F S8192x512 .f32) (xs0 : Vec F S512x512 .f32) (xs1 : Vec F S512x1 .f32) (y : S512x1.Idx) :
    ∃ pc ∈ (kernelRun6_B c i arg2 harg2 arg3 harg3 arg4 harg4 arg5 harg5 arg6 harg6 hc0 hc1 x0 x1 xs0 xs1).2.2.1, y ∈ pc.1.set :=
  View.cover_of_tiledL (kernelRun6_B c i arg2 harg2 arg3 harg3 arg4 harg4 arg5 harg5 arg6 harg6 hc0 hc1 x0 x1 xs0 xs1).2.2.1 S512x1.size (by sl_kernel_rfl) y

/-- What this case leaves in the column of row sums. -/
def sout6_B_1 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i)
    (x0 : Vec F S512x512 .f32) (x1 : Vec F S8192x512 .f32) (xs0 : Vec F S512x512 .f32) (xs1 : Vec F S512x1 .f32) : Vec F S512x1 .f32 :=
  VS6_1.read (Elt F) (VS6_1.writes (Elt F) VS6_1.junk (kernelRun6_B c i arg2 harg2 arg3 harg3 arg4 harg4 arg5 harg5 arg6 harg6 hc0 hc1 x0 x1 xs0 xs1).2.2.1)

/-- At k = 15 the one store into the output buffer covers it. -/
theorem cover6_C_2 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) (y : S512x512.Idx) :
    ∃ pc ∈ (kernelRun6_C c i arg2 harg2 arg3 harg3 arg4 harg4 arg5 harg5 arg6 harg6 hc0 hc1 x0 x1 xs0 xs1).1, y ∈ pc.1.set :=
  View.cover_of_tiledL (kernelRun6_C c i arg2 harg2 arg3 harg3 arg4 harg4 arg5 harg5 arg6 harg6 hc0 hc1 x0 x1 xs0 xs1).1 S512x512.size (by sl_kernel_rfl) y

/-- What this case leaves in the output buffer: the accumulator over (row sums + ε). -/
def out6_C_2 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) : Vec F S512x512 .f32 :=
  VO6_2.read (Elt F) (VO6_2.writes (Elt F) VO6_2.junk (kernelRun6_C c i arg2 harg2 arg3 harg3 arg4 harg4 arg5 harg5 arg6 harg6 hc0 hc1 x0 x1 xs0 xs1).1)

/-- The stores into the accumulator cover it. -/
theorem scover6_C_0 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) (y : S512x512.Idx) :
    ∃ pc ∈ (kernelRun6_C c i arg2 harg2 arg3 harg3 arg4 harg4 arg5 harg5 arg6 harg6 hc0 hc1 x0 x1 xs0 xs1).2.1, y ∈ pc.1.set :=
  View.cover_of_tiledL (kernelRun6_C c i arg2 harg2 arg3 harg3 arg4 harg4 arg5 harg5 arg6 harg6 hc0 hc1 x0 x1 xs0 xs1).2.1 S512x512.size (by sl_kernel_rfl) y

/-- What this case leaves in the accumulator. -/
def sout6_C_0 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) : Vec F S512x512 .f32 :=
  VS6_0.read (Elt F) (VS6_0.writes (Elt F) VS6_0.junk (kernelRun6_C c i arg2 harg2 arg3 harg3 arg4 harg4 arg5 harg5 arg6 harg6 hc0 hc1 x0 x1 xs0 xs1).2.1)

/-- The stores into the column of row sums cover it. -/
theorem scover6_C_1 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) (y : S512x1.Idx) :
    ∃ pc ∈ (kernelRun6_C c i arg2 harg2 arg3 harg3 arg4 harg4 arg5 harg5 arg6 harg6 hc0 hc1 x0 x1 xs0 xs1).2.2.1, y ∈ pc.1.set :=
  View.cover_of_tiledL (kernelRun6_C c i arg2 harg2 arg3 harg3 arg4 harg4 arg5 harg5 arg6 harg6 hc0 hc1 x0 x1 xs0 xs1).2.2.1 S512x1.size (by sl_kernel_rfl) y

/-- What this case leaves in the column of row sums. -/
def sout6_C_1 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) : Vec F S512x1 .f32 :=
  VS6_1.read (Elt F) (VS6_1.writes (Elt F) VS6_1.junk (kernelRun6_C c i arg2 harg2 arg3 harg3 arg4 harg4 arg5 harg5 arg6 harg6 hc0 hc1 x0 x1 xs0 xs1).2.2.1)

/-! ## The accumulation -/

/-- What the output buffer, the accumulator and the row sums hold after the body at position `n`. -/
def outsAt6 (c : Dev nD) : (n : ℕ) → n < cfg6.N → Vec F S512x512 .f32 × Vec F S512x512 .f32 × Vec F S512x1 .f32
  | 0, hn => (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩))
  | n + 1, hn =>
    if h0 : (n + 1) % 16 = 0 then
      if h1 : (n + 1) % 16 = 15 then
        False.elim (by omega)
      else
        (out6_A_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩), sout6_A_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩))
    else
      if h1 : (n + 1) % 16 = 15 then
        (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2.1 (outsAt6 c n (Nat.lt_of_succ_lt hn)).2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2.1 (outsAt6 c n (Nat.lt_of_succ_lt hn)).2.2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2.1 (outsAt6 c n (Nat.lt_of_succ_lt hn)).2.2)
      else
        (out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2.1 (outsAt6 c n (Nat.lt_of_succ_lt hn)).2.2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2.1 (outsAt6 c n (Nat.lt_of_succ_lt hn)).2.2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2.1 (outsAt6 c n (Nat.lt_of_succ_lt hn)).2.2)

theorem outsAt6_A (c : Dev nD) (t : Fin cfg6.N) (h0 : t.val % 16 = 0) (h1 : ¬t.val % 16 = 15) :
    outsAt6 V c t.val t.isLt = (out6_A_2 c (grid6.coords t) (ms6_0 t) (hs6_0 t) (ms6_1 t) (hs6_1 t) (ms6_2 t) (hs6_2 t) scM6_0 (Memref.isWhole_whole _) scM6_1 (Memref.isWhole_whole _) ((hcond6_0 t).mpr h0) (fun h => h1 ((hcond6_1 t).mp h)) (iblk6 V c 0 t) (iblk6 V c 1 t), sout6_A_0 c (grid6.coords t) (ms6_0 t) (hs6_0 t) (ms6_1 t) (hs6_1 t) (ms6_2 t) (hs6_2 t) scM6_0 (Memref.isWhole_whole _) scM6_1 (Memref.isWhole_whole _) ((hcond6_0 t).mpr h0) (fun h => h1 ((hcond6_1 t).mp h)) (iblk6 V c 0 t) (iblk6 V c 1 t), sout6_A_1 c (grid6.coords t) (ms6_0 t) (hs6_0 t) (ms6_1 t) (hs6_1 t) (ms6_2 t) (hs6_2 t) scM6_0 (Memref.isWhole_whole _) scM6_1 (Memref.isWhole_whole _) ((hcond6_0 t).mpr h0) (fun h => h1 ((hcond6_1 t).mp h)) (iblk6 V c 0 t) (iblk6 V c 1 t)) := by
  obtain ⟨n, hn⟩ := t
  cases n with
  | zero => exact rfl
  | succ n => exact (dif_pos h0).trans ((dif_neg h1).trans rfl)

theorem outsAt6_B (c : Dev nD) (t : Fin cfg6.N) (h0 : ¬t.val % 16 = 0) (h1 : ¬t.val % 16 = 15) :
    outsAt6 V c t.val t.isLt = (out6_B_2 c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2.1 (outsAt6 V c (t.val - 1) (Nat.lt_of_le_of_lt (Nat.sub_le _ _) t.isLt)).2.2, sout6_B_0 c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2.1 (outsAt6 V c (t.val - 1) (Nat.lt_of_le_of_lt (Nat.sub_le _ _) t.isLt)).2.2, sout6_B_1 c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 16 = 0) (h1 : t.val % 16 = 15) :
    outsAt6 V c t.val t.isLt = (out6_C_2 c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2.1 (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2.1 (outsAt6 V c (t.val - 1) (Nat.lt_of_le_of_lt (Nat.sub_le _ _) t.isLt)).2.2, sout6_C_1 c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant by position -/

/-- The scoped buffers that are neither staged by a window of this call nor one of its two scratch buffers. -/
abbrev rest6 (c : Dev nD) : sProp 𝕄 :=
  Pipeline.scopedRestBut (Ix := Unit) (Name := ℕ) (U := UR sig nD τ) (Lvl := ℕ) (Val := Elt F) spec6 c [cc6_scratch0, cc6_scratch1]

/-- Before the first point every scoped buffer is at anything; after point `n` the two scratch buffers hold what that point left. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.1) ∗ owns (c : Thread nD τ) scM6_1 fullShare ((outsAt6 V c n hn).2.2)) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2.1) ∗ owns (c : Thread nD τ) scM6_1 fullShare ((outsAt6 V c n hn).2.2)) ∗ rest6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.1) ∗ owns (c : Thread nD τ) scM6_1 fullShare ((outsAt6 V c (n - 1) (by omega)).2.2)) ∗ rest6 c) ∗ (∃ r, prngReg c r)) := by
  cases n with
  | zero => exact absurd rfl hz
  | succ n => rfl

/-- The class's invariant with the two scratch buffers named, each at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

/-! ## The proof data -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point: the closed forms of the two conditions say which case the point is in; the invariant hands the
    body the two scratch buffers at what the point before left (at anything before the first point), and takes them back at
    this point's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 64 := lt_of_lt_of_eq t.isLt (show cfg6.N = 64 from N_6)
  by_cases h0 : t.val % 16 = 0
  · by_cases h1 : t.val % 16 = 15
    · exfalso; omega
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [Dat.leavesExact_idle (dat6 V c) 2 t (idleAt6_2_A t ((hcond6_0 t).mpr h0) (fun h => h1 ((hcond6_1 t).mp h))) (noFlush6_2_A t ((hcond6_0 t).mpr h0) (fun h => h1 ((hcond6_1 t).mp h)))]
      rw [outsAt6_A V c t h0 h1]
      unfold sout6_A_0 sout6_A_1; (try dsimp only)
      by_cases hz : t.val = 0
      · rw [PhiS6_castSucc V c t, PhiS6_zero V c _ _ hz, PhiA6_eq]
        iintro ⟨⟨⟨⟨HS0, HS1⟩, Hb⟩, Hg⟩, Ho, ⟨%d0, H0⟩, ⟨%d1, H1⟩, ⟨%d2, H2⟩⟩
        iapply ((kernelRun6_A c (grid6.coords t) _ _ _ _ _ _ _ _ _ _ ((hcond6_0 t).mpr h0) (fun h => h1 ((hcond6_1 t).mp h)) (iblk6 V c 0 t) (iblk6 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover6_A_0 c _ _ _ _ _ _ _ _ _ _ _ _ _ _ _)
              · unfold owns; iexists _; isplitr
                swap; · iexact HS1
                ipureintro; exact View.read_writes_of_cover _ _ _ _ _ (scover6_A_1 c _ _ _ _ _ _ _ _ _ _ _ _ _ _ _)
            iexact Hb
          iexact Hg
        isplitl [Ho]; · iexact Ho
        isplitl [H0]; · iexact H0
        isplitl [H1]; · iexact H1
        iexists _; iexact H2
      · rw [PhiS6_castSucc V c t, PhiS6_pos V c _ _ hz]
        iintro ⟨⟨⟨⟨HS0, HS1⟩, Hb⟩, Hg⟩, Ho, ⟨%d0, H0⟩, ⟨%d1, H1⟩, ⟨%d2, H2⟩⟩
        iapply ((kernelRun6_A c (grid6.coords t) _ _ _ _ _ _ _ _ _ _ ((hcond6_0 t).mpr h0) (fun h => h1 ((hcond6_1 t).mp h)) (iblk6 V c 0 t) (iblk6 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover6_A_0 c _ _ _ _ _ _ _ _ _ _ _ _ _ _ _)
              · unfold owns; iexists _; isplitr
                swap; · iexact HS1
                ipureintro; exact View.read_writes_of_cover _ _ _ _ _ (scover6_A_1 c _ _ _ _ _ _ _ _ _ _ _ _ _ _ _)
            iexact Hb
          iexact Hg
        isplitl [Ho]; · iexact Ho
        isplitl [H0]; · iexact H0
        isplitl [H1]; · iexact H1
        iexists _; iexact H2
  · by_cases h1 : t.val % 16 = 15
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2_C t (fun h => h0 ((hcond6_0 t).mp h)) ((hcond6_1 t).mpr h1)], after6_2]
      rw [outsAt6_C V c t h0 h1]
      unfold out6_C_2 sout6_C_0 sout6_C_1; (try dsimp only)
      by_cases hz : t.val = 0
      · exfalso; omega
      · rw [PhiS6_castSucc V c t, PhiS6_pos V c _ _ hz]
        iintro ⟨⟨⟨⟨HS0, HS1⟩, Hb⟩, Hg⟩, Ho, ⟨%d0, H0⟩, ⟨%d1, H1⟩, ⟨%d2, H2⟩⟩
        iapply ((kernelRun6_C c (grid6.coords t) _ _ _ _ _ _ _ _ _ _ (fun h => h0 ((hcond6_0 t).mp h)) ((hcond6_1 t).mpr h1) (iblk6 V c 0 t) (iblk6 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover6_C_0 c _ _ _ _ _ _ _ _ _ _ _ _ _ _ _ _ _)
              · unfold owns; iexists _; isplitr
                swap; · iexact HS1
                ipureintro; exact View.read_writes_of_cover _ _ _ _ _ (scover6_C_1 c _ _ _ _ _ _ _ _ _ _ _ _ _ _ _ _ _)
            iexact Hb
          iexact Hg
        isplitl [Ho]; · iexact Ho
        isplitl [H0]; · iexact H0
        isplitl [H1]; · iexact H1
        unfold owns; iexists _; isplitr
        swap; · iexact H2
        ipureintro; exact View.read_writes_of_cover _ _ _ _ _ (cover6_C_2 c _ _ _ _ _ _ _ _ _ _ _ _ _ _ _ _ _)
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [Dat.leavesExact_idle (dat6 V c) 2 t (idleAt6_2_B t (fun h => h0 ((hcond6_0 t).mp h)) (fun h => h1 ((hcond6_1 t).mp h))) (noFlush6_2_B t (fun h => h0 ((hcond6_0 t).mp h)) (fun h => h1 ((hcond6_1 t).mp h)))]
      rw [outsAt6_B V c t h0 h1]
      unfold sout6_B_0 sout6_B_1; (try dsimp only)
      by_cases hz : t.val = 0
      · exfalso; omega
      · rw [PhiS6_castSucc V c t, PhiS6_pos V c _ _ hz]
        iintro ⟨⟨⟨⟨HS0, HS1⟩, Hb⟩, Hg⟩, Ho, ⟨%d0, H0⟩, ⟨%d1, H1⟩, ⟨%d2, H2⟩⟩
        iapply ((kernelRun6_B c (grid6.coords t) _ _ _ _ _ _ _ _ _ _ (fun h => h0 ((hcond6_0 t).mp h)) (fun h => h1 ((hcond6_1 t).mp h)) (iblk6 V c 0 t) (iblk6 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover6_B_0 c _ _ _ _ _ _ _ _ _ _ _ _ _ _ _ _ _)
              · unfold owns; iexists _; isplitr
                swap; · iexact HS1
                ipureintro; exact View.read_writes_of_cover _ _ _ _ _ (scover6_B_1 c _ _ _ _ _ _ _ _ _ _ _ _ _ _ _ _ _)
            iexact Hb
          iexact Hg
        isplitl [Ho]; · iexact Ho
        isplitl [H0]; · iexact H0
        isplitl [H1]; · iexact H1
        iexists _; iexact H2

theorem body_obligation6 (c : Dev nD) : BodyObligation (dat6 (F := F) V c) (defs₀ (F := F)) Variants.none () Set.univ := fun t => by
  rw [bigSep_W6, bigSep_W6]
  exact sound_body6 V c t

/-! ## The invariant at the two ends -/

theorem Phi6_zero (c : Dev nD) : (dat6 V c).Φ 0 = Pipeline.ΦA spec6 c := rfl

/-- After any point but the first the invariant gives the class's back: what the scratch buffers hold is forgotten. -/
theorem Phi6_out (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hb⟩, Hg⟩
  isplitl [HS0 HS1 Hb]
  · isplitl [HS0 HS1]
    · isplitl [HS0]
      · iexists _; iexact HS0
      · iexists _; iexact HS1
    iexact Hb
  iexact Hg

theorem hout6 (c : Dev nD) : (dat6 V c).Φ (Fin.last cfg6.N) ⊢ Pipeline.ΦA spec6 c :=
  Phi6_out V c _ (by rw [Fin.val_last]; have : cfg6.N = 64 := N_6; omega)

end Cert.Kernel.Gen

end
-- ==== Proof.K.R7Runs.lean ====
/-
  Custom call 7 accumulates a row block of attn @ fc over the inner grid axis k (16 steps of 512 source rows) in two
  scratch buffers: a [512,512] accumulator and a [512,1] column of row sums. Both are cleared at k = 0, added to at
  every k, and at k = 15 the output block is the accumulator divided by (row sums + ε). This module fixes what the
  three control cases of that body are stated over: the two branch conditions in closed form over the sixteen grid
  points (t = 4·i + k), where the output window is idle, and the memrefs the body is called with.
-/
import proofs.«145590_j23742579212572_2_alg».proof.Proof.Gen.Kernel.Launch
import proofs.«145590_j23742579212572_2_alg».proof.Proof.Gen.Kernel.Skeleton
import proofs.«145590_j23742579212572_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The attn block: its staging buffer holds its block at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The whole fc array, fetched once: its staging buffer holds it at every point (the index never moves). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The two branch conditions over the grid -/

/-- "k = 0": the accumulators are cleared. -/
abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 16 = 0 :=
  (by decide +kernel : ∀ t : Fin grid7.N, cond7_0 (grid7.coords t) ↔ t.val % 16 = 0)

/-- "k = 15": the output block is written. -/
abbrev cond7_1 (i : grid7.Coords) : Prop := k7_cond2 i = 1#1
theorem hcond7_1 : ∀ t : Fin cfg7.N, cond7_1 (grid7.coords t) ↔ t.val % 16 = 15 :=
  (by decide +kernel : ∀ t : Fin grid7.N, cond7_1 (grid7.coords t) ↔ t.val % 16 = 15)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
/-- At k = 0 the output window is idle and not written back. -/
theorem idleAt7_2_A : ∀ t : Fin cfg7.N, cond7_0 (grid7.coords t) → ¬cond7_1 (grid7.coords t) → cfg7.idle 2 (grid7.coords t) = true := by decide +kernel
theorem noFlush7_2_A : ∀ t : Fin cfg7.N, cond7_0 (grid7.coords t) → ¬cond7_1 (grid7.coords t) → (cfg7.win 2).flush t = false := by decide +kernel
/-- At k = 1 … 14 likewise. -/
theorem idleAt7_2_B : ∀ t : Fin cfg7.N, ¬cond7_0 (grid7.coords t) → ¬cond7_1 (grid7.coords t) → cfg7.idle 2 (grid7.coords t) = true := by decide +kernel
theorem noFlush7_2_B : ∀ t : Fin cfg7.N, ¬cond7_0 (grid7.coords t) → ¬cond7_1 (grid7.coords t) → (cfg7.win 2).flush t = false := by decide +kernel
/-- At k = 15 it is live. -/
theorem liveAt7_2_C : ∀ t : Fin cfg7.N, ¬cond7_0 (grid7.coords t) → cond7_1 (grid7.coords t) → cfg7.idle 2 (grid7.coords t) = false := by decide +kernel

/-! ## The memrefs the body is called with -/

/-- One staging buffer of the output window, through which its contents are stated. -/
abbrev VO7_2 : View sig .tc .vmem S512x512 .f32 := (Memref.whole cc7_stg2_0 : Memref sig .tc .vmem S512x512 .f32).view
abbrev ms7_0 (t : Fin cfg7.N) : Memref sig .tc .vmem S512x512 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S8192x512 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S512x512 .f32 := win7_2.stage (cfg7.slots t 2)
abbrev hs7_2 (t : Fin cfg7.N) : (ms7_2 t).IsWhole := hstage7_2 ((cfg7.slots t 2).cast nbuf7_2)
/-- The accumulator and the column of row sums: whole scoped buffers of the kernel's own. -/
abbrev scM7_0 : Memref sig .tc .vmem S512x512 .f32 := Memref.whole cc7_scratch0
abbrev scM7_1 : Memref sig .tc .vmem S512x1 .f32 := Memref.whole cc7_scratch1
abbrev VS7_0 : View sig .tc .vmem S512x512 .f32 := scM7_0.view
abbrev VS7_1 : View sig .tc .vmem S512x1 .f32 := scM7_1.view

end Cert.Kernel.Gen

end
-- ==== Proof.K.R7RunB.lean ====
/-
  Custom call 7 at k = 1 … 14: neither branch is taken. The accumulator and the row sums come in at what the point before left, are added to, and go out; the output buffer is untouched.
-/
import proofs.«145590_j23742579212572_2_alg».proof.Proof.K.R7Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun7_B (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i)
    (x0 : Vec F S512x512 .f32) (x1 : Vec F S8192x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc7__collect_direct_kernel i arg2 harg2 arg3 harg3 arg4 harg4 arg5 harg5 arg6 harg6) K } := by
  refine ⟨[], ?_, ?_, fun xi2 E K => ?run⟩
  case run =>
    simp only [cc7__collect_direct_kernel_eq_skeleton]; unfold cc7__collect_direct_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R7RunA.lean ====
/-
  Custom call 7 at k = 0: the accumulator and the row sums are cleared first (whatever they held), then added to; the output buffer is untouched.
-/
import proofs.«145590_j23742579212572_2_alg».proof.Proof.K.R7RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun7_A (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i)
    (x0 : Vec F S512x512 .f32) (x1 : Vec F S8192x512 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc7__collect_direct_kernel i arg2 harg2 arg3 harg3 arg4 harg4 arg5 harg5 arg6 harg6) K } := by
  refine ⟨[], ?_, ?_, fun xi2 E K => ?run⟩
  case run =>
    simp only [cc7__collect_direct_kernel_eq_skeleton]; unfold cc7__collect_direct_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R7RunC.lean ====
/-
  Custom call 7 at k = 15: the accumulators are added to a last time and the output block is stored: the accumulator divided by (row sums + ε).
-/
import proofs.«145590_j23742579212572_2_alg».proof.Proof.K.R7RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun7_C (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc7__collect_direct_kernel i arg2 harg2 arg3 harg3 arg4 harg4 arg5 harg5 arg6 harg6) K } := by
  refine ⟨?_, ?_, ?_, fun E K => ?run⟩
  case run =>
    simp only [cc7__collect_direct_kernel_eq_skeleton]; unfold cc7__collect_direct_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Gen

end
-- ==== Proof.K.R7.lean ====
/-
  Custom call 7 as proof data for the pipeline: what the output buffer, the accumulator and the column of row sums hold
  after each of the 64 grid points (t = 16·i + k), by recursion on the point — at k = 0 from cleared scratch, at
  k = 1 … 15 from what the point before left —, the invariant that carries the two scratch buffers at those contents
  between points, and the body obligation: at every point the body runs from the invariant before it to the one after it.
-/
import proofs.«145590_j23742579212572_2_alg».proof.Proof.K.R7RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What this case leaves in the output buffer (nothing is stored: a placeholder nothing consults, the window being idle and not written back here). -/
def out7_A_2 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i)
    (x0 : Vec F S512x512 .f32) (x1 : Vec F S8192x512 .f32) : Vec F S512x512 .f32 :=
  VO7_2.read (Elt F) (VO7_2.writes (Elt F) VO7_2.junk (kernelRun7_A c i arg2 harg2 arg3 harg3 arg4 harg4 arg5 harg5 arg6 harg6 hc0 hc1 x0 x1).1)

/-- The stores into the accumulator cover it. -/
theorem scover7_A_0 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i)
    (x0 : Vec F S512x512 .f32) (x1 : Vec F S8192x512 .f32) (y : S512x512.Idx) :
    ∃ pc ∈ (kernelRun7_A c i arg2 harg2 arg3 harg3 arg4 harg4 arg5 harg5 arg6 harg6 hc0 hc1 x0 x1).2.1, y ∈ pc.1.set :=
  View.cover_of_tiledL (kernelRun7_A c i arg2 harg2 arg3 harg3 arg4 harg4 arg5 harg5 arg6 harg6 hc0 hc1 x0 x1).2.1 S512x512.size (by sl_kernel_rfl) y

/-- What this case leaves in the accumulator. -/
def sout7_A_0 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i)
    (x0 : Vec F S512x512 .f32) (x1 : Vec F S8192x512 .f32) : Vec F S512x512 .f32 :=
  VS7_0.read (Elt F) (VS7_0.writes (Elt F) VS7_0.junk (kernelRun7_A c i arg2 harg2 arg3 harg3 arg4 harg4 arg5 harg5 arg6 harg6 hc0 hc1 x0 x1).2.1)

/-- The stores into the column of row sums cover it. -/
theorem scover7_A_1 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i)
    (x0 : Vec F S512x512 .f32) (x1 : Vec F S8192x512 .f32) (y : S512x1.Idx) :
    ∃ pc ∈ (kernelRun7_A c i arg2 harg2 arg3 harg3 arg4 harg4 arg5 harg5 arg6 harg6 hc0 hc1 x0 x1).2.2.1, y ∈ pc.1.set :=
  View.cover_of_tiledL (kernelRun7_A c i arg2 harg2 arg3 harg3 arg4 harg4 arg5 harg5 arg6 harg6 hc0 hc1 x0 x1).2.2.1 S512x1.size (by sl_kernel_rfl) y

/-- What this case leaves in the column of row sums. -/
def sout7_A_1 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i)
    (x0 : Vec F S512x512 .f32) (x1 : Vec F S8192x512 .f32) : Vec F S512x1 .f32 :=
  VS7_1.read (Elt F) (VS7_1.writes (Elt F) VS7_1.junk (kernelRun7_A c i arg2 harg2 arg3 harg3 arg4 harg4 arg5 harg5 arg6 harg6 hc0 hc1 x0 x1).2.2.1)

/-- What this case leaves in the output buffer (nothing is stored: a placeholder nothing consults, the window being idle and not written back here). -/
def out7_B_2 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i)
    (x0 : Vec F S512x512 .f32) (x1 : Vec F S8192x512 .f32) (xs0 : Vec F S512x512 .f32) (xs1 : Vec F S512x1 .f32) : Vec F S512x512 .f32 :=
  VO7_2.read (Elt F) (VO7_2.writes (Elt F) VO7_2.junk (kernelRun7_B c i arg2 harg2 arg3 harg3 arg4 harg4 arg5 harg5 arg6 harg6 hc0 hc1 x0 x1 xs0 xs1).1)

/-- The stores into the accumulator cover it. -/
theorem scover7_B_0 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i)
    (x0 : Vec F S512x512 .f32) (x1 : Vec F S8192x512 .f32) (xs0 : Vec F S512x512 .f32) (xs1 : Vec F S512x1 .f32) (y : S512x512.Idx) :
    ∃ pc ∈ (kernelRun7_B c i arg2 harg2 arg3 harg3 arg4 harg4 arg5 harg5 arg6 harg6 hc0 hc1 x0 x1 xs0 xs1).2.1, y ∈ pc.1.set :=
  View.cover_of_tiledL (kernelRun7_B c i arg2 harg2 arg3 harg3 arg4 harg4 arg5 harg5 arg6 harg6 hc0 hc1 x0 x1 xs0 xs1).2.1 S512x512.size (by sl_kernel_rfl) y

/-- What this case leaves in the accumulator. -/
def sout7_B_0 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i)
    (x0 : Vec F S512x512 .f32) (x1 : Vec F S8192x512 .f32) (xs0 : Vec F S512x512 .f32) (xs1 : Vec F S512x1 .f32) : Vec F S512x512 .f32 :=
  VS7_0.read (Elt F) (VS7_0.writes (Elt F) VS7_0.junk (kernelRun7_B c i arg2 harg2 arg3 harg3 arg4 harg4 arg5 harg5 arg6 harg6 hc0 hc1 x0 x1 xs0 xs1).2.1)

/-- The stores into the column of row sums cover it. -/
theorem scover7_B_1 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i)
    (x0 : Vec F S512x512 .f32) (x1 : Vec F S8192x512 .f32) (xs0 : Vec F S512x512 .f32) (xs1 : Vec F S512x1 .f32) (y : S512x1.Idx) :
    ∃ pc ∈ (kernelRun7_B c i arg2 harg2 arg3 harg3 arg4 harg4 arg5 harg5 arg6 harg6 hc0 hc1 x0 x1 xs0 xs1).2.2.1, y ∈ pc.1.set :=
  View.cover_of_tiledL (kernelRun7_B c i arg2 harg2 arg3 harg3 arg4 harg4 arg5 harg5 arg6 harg6 hc0 hc1 x0 x1 xs0 xs1).2.2.1 S512x1.size (by sl_kernel_rfl) y

/-- What this case leaves in the column of row sums. -/
def sout7_B_1 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i)
    (x0 : Vec F S512x512 .f32) (x1 : Vec F S8192x512 .f32) (xs0 : Vec F S512x512 .f32) (xs1 : Vec F S512x1 .f32) : Vec F S512x1 .f32 :=
  VS7_1.read (Elt F) (VS7_1.writes (Elt F) VS7_1.junk (kernelRun7_B c i arg2 harg2 arg3 harg3 arg4 harg4 arg5 harg5 arg6 harg6 hc0 hc1 x0 x1 xs0 xs1).2.2.1)

/-- At k = 15 the one store into the output buffer covers it. -/
theorem cover7_C_2 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) (y : S512x512.Idx) :
    ∃ pc ∈ (kernelRun7_C c i arg2 harg2 arg3 harg3 arg4 harg4 arg5 harg5 arg6 harg6 hc0 hc1 x0 x1 xs0 xs1).1, y ∈ pc.1.set :=
  View.cover_of_tiledL (kernelRun7_C c i arg2 harg2 arg3 harg3 arg4 harg4 arg5 harg5 arg6 harg6 hc0 hc1 x0 x1 xs0 xs1).1 S512x512.size (by sl_kernel_rfl) y

/-- What this case leaves in the output buffer: the accumulator over (row sums + ε). -/
def out7_C_2 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) : Vec F S512x512 .f32 :=
  VO7_2.read (Elt F) (VO7_2.writes (Elt F) VO7_2.junk (kernelRun7_C c i arg2 harg2 arg3 harg3 arg4 harg4 arg5 harg5 arg6 harg6 hc0 hc1 x0 x1 xs0 xs1).1)

/-- The stores into the accumulator cover it. -/
theorem scover7_C_0 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) (y : S512x512.Idx) :
    ∃ pc ∈ (kernelRun7_C c i arg2 harg2 arg3 harg3 arg4 harg4 arg5 harg5 arg6 harg6 hc0 hc1 x0 x1 xs0 xs1).2.1, y ∈ pc.1.set :=
  View.cover_of_tiledL (kernelRun7_C c i arg2 harg2 arg3 harg3 arg4 harg4 arg5 harg5 arg6 harg6 hc0 hc1 x0 x1 xs0 xs1).2.1 S512x512.size (by sl_kernel_rfl) y

/-- What this case leaves in the accumulator. -/
def sout7_C_0 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) : Vec F S512x512 .f32 :=
  VS7_0.read (Elt F) (VS7_0.writes (Elt F) VS7_0.junk (kernelRun7_C c i arg2 harg2 arg3 harg3 arg4 harg4 arg5 harg5 arg6 harg6 hc0 hc1 x0 x1 xs0 xs1).2.1)

/-- The stores into the column of row sums cover it. -/
theorem scover7_C_1 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) (y : S512x1.Idx) :
    ∃ pc ∈ (kernelRun7_C c i arg2 harg2 arg3 harg3 arg4 harg4 arg5 harg5 arg6 harg6 hc0 hc1 x0 x1 xs0 xs1).2.2.1, y ∈ pc.1.set :=
  View.cover_of_tiledL (kernelRun7_C c i arg2 harg2 arg3 harg3 arg4 harg4 arg5 harg5 arg6 harg6 hc0 hc1 x0 x1 xs0 xs1).2.2.1 S512x1.size (by sl_kernel_rfl) y

/-- What this case leaves in the column of row sums. -/
def sout7_C_1 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) : Vec F S512x1 .f32 :=
  VS7_1.read (Elt F) (VS7_1.writes (Elt F) VS7_1.junk (kernelRun7_C c i arg2 harg2 arg3 harg3 arg4 harg4 arg5 harg5 arg6 harg6 hc0 hc1 x0 x1 xs0 xs1).2.2.1)

/-! ## The accumulation -/

/-- What the output buffer, the accumulator and the row sums hold after the body at position `n`. -/
def outsAt7 (c : Dev nD) : (n : ℕ) → n < cfg7.N → Vec F S512x512 .f32 × Vec F S512x512 .f32 × Vec F S512x1 .f32
  | 0, hn => (out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩))
  | n + 1, hn =>
    if h0 : (n + 1) % 16 = 0 then
      if h1 : (n + 1) % 16 = 15 then
        False.elim (by omega)
      else
        (out7_A_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩), sout7_A_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩))
    else
      if h1 : (n + 1) % 16 = 15 then
        (out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.1 (outsAt7 c n (Nat.lt_of_succ_lt hn)).2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.1 (outsAt7 c n (Nat.lt_of_succ_lt hn)).2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.1 (outsAt7 c n (Nat.lt_of_succ_lt hn)).2.2)
      else
        (out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.1 (outsAt7 c n (Nat.lt_of_succ_lt hn)).2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.1 (outsAt7 c n (Nat.lt_of_succ_lt hn)).2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.1 (outsAt7 c n (Nat.lt_of_succ_lt hn)).2.2)

theorem outsAt7_A (c : Dev nD) (t : Fin cfg7.N) (h0 : t.val % 16 = 0) (h1 : ¬t.val % 16 = 15) :
    outsAt7 V c t.val t.isLt = (out7_A_2 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t) (iblk7 V c 1 t), sout7_A_0 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t) (iblk7 V c 1 t), sout7_A_1 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t) (iblk7 V c 1 t)) := by
  obtain ⟨n, hn⟩ := t
  cases n with
  | zero => exact rfl
  | succ n => exact (dif_pos h0).trans ((dif_neg h1).trans rfl)

theorem outsAt7_B (c : Dev nD) (t : Fin cfg7.N) (h0 : ¬t.val % 16 = 0) (h1 : ¬t.val % 16 = 15) :
    outsAt7 V c t.val t.isLt = (out7_B_2 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2, sout7_B_0 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2, sout7_B_1 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 16 = 0) (h1 : t.val % 16 = 15) :
    outsAt7 V c t.val t.isLt = (out7_C_2 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2, sout7_C_0 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2, sout7_C_1 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant by position -/

/-- The scoped buffers that are neither staged by a window of this call nor one of its two scratch buffers. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- Before the first point every scoped buffer is at anything; after point `n` the two scratch buffers hold what that point left. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.1) ∗ owns (c : Thread nD τ) scM7_1 fullShare ((outsAt7 V c n hn).2.2)) ∗ rest7 c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare ((outsAt7 V c n hn).2.1) ∗ owns (c : Thread nD τ) scM7_1 fullShare ((outsAt7 V c n hn).2.2)) ∗ rest7 c) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.1) ∗ owns (c : Thread nD τ) scM7_1 fullShare ((outsAt7 V c (n - 1) (by omega)).2.2)) ∗ rest7 c) ∗ (∃ r, prngReg c r)) := by
  cases n with
  | zero => exact absurd rfl hz
  | succ n => rfl

/-- The class's invariant with the two scratch buffers named, each at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d)) ∗ rest7 c) ∗ (∃ r, prngReg c r)) := by
  unfold Pipeline.ΦA; rw [scopedRest7_split]; simp only [scM7_0, scM7_1, owns_whole]; try rfl

/-! ## The proof data -/

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point: the closed forms of the two conditions say which case the point is in; the invariant hands the
    body the two scratch buffers at what the point before left (at anything before the first point), and takes them back at
    this point's contents. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 64 := lt_of_lt_of_eq t.isLt (show cfg7.N = 64 from N_7)
  by_cases h0 : t.val % 16 = 0
  · by_cases h1 : t.val % 16 = 15
    · exfalso; omega
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [Dat.leavesExact_idle (dat7 V c) 2 t (idleAt7_2_A t ((hcond7_0 t).mpr h0) (fun h => h1 ((hcond7_1 t).mp h))) (noFlush7_2_A t ((hcond7_0 t).mpr h0) (fun h => h1 ((hcond7_1 t).mp h)))]
      rw [outsAt7_A V c t h0 h1]
      unfold sout7_A_0 sout7_A_1; (try dsimp only)
      by_cases hz : t.val = 0
      · rw [PhiS7_castSucc V c t, PhiS7_zero V c _ _ hz, PhiA7_eq]
        iintro ⟨⟨⟨⟨HS0, HS1⟩, Hb⟩, Hg⟩, Ho, ⟨%d0, H0⟩, ⟨%d1, H1⟩, ⟨%d2, H2⟩⟩
        iapply ((kernelRun7_A c (grid7.coords t) _ _ _ _ _ _ _ _ _ _ ((hcond7_0 t).mpr h0) (fun h => h1 ((hcond7_1 t).mp h)) (iblk7 V c 0 t) (iblk7 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover7_A_0 c _ _ _ _ _ _ _ _ _ _ _ _ _ _ _)
              · unfold owns; iexists _; isplitr
                swap; · iexact HS1
                ipureintro; exact View.read_writes_of_cover _ _ _ _ _ (scover7_A_1 c _ _ _ _ _ _ _ _ _ _ _ _ _ _ _)
            iexact Hb
          iexact Hg
        isplitl [Ho]; · iexact Ho
        isplitl [H0]; · iexact H0
        isplitl [H1]; · iexact H1
        iexists _; iexact H2
      · rw [PhiS7_castSucc V c t, PhiS7_pos V c _ _ hz]
        iintro ⟨⟨⟨⟨HS0, HS1⟩, Hb⟩, Hg⟩, Ho, ⟨%d0, H0⟩, ⟨%d1, H1⟩, ⟨%d2, H2⟩⟩
        iapply ((kernelRun7_A c (grid7.coords t) _ _ _ _ _ _ _ _ _ _ ((hcond7_0 t).mpr h0) (fun h => h1 ((hcond7_1 t).mp h)) (iblk7 V c 0 t) (iblk7 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover7_A_0 c _ _ _ _ _ _ _ _ _ _ _ _ _ _ _)
              · unfold owns; iexists _; isplitr
                swap; · iexact HS1
                ipureintro; exact View.read_writes_of_cover _ _ _ _ _ (scover7_A_1 c _ _ _ _ _ _ _ _ _ _ _ _ _ _ _)
            iexact Hb
          iexact Hg
        isplitl [Ho]; · iexact Ho
        isplitl [H0]; · iexact H0
        isplitl [H1]; · iexact H1
        iexists _; iexact H2
  · by_cases h1 : t.val % 16 = 15
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2_C t (fun h => h0 ((hcond7_0 t).mp h)) ((hcond7_1 t).mpr h1)], after7_2]
      rw [outsAt7_C V c t h0 h1]
      unfold out7_C_2 sout7_C_0 sout7_C_1; (try dsimp only)
      by_cases hz : t.val = 0
      · exfalso; omega
      · rw [PhiS7_castSucc V c t, PhiS7_pos V c _ _ hz]
        iintro ⟨⟨⟨⟨HS0, HS1⟩, Hb⟩, Hg⟩, Ho, ⟨%d0, H0⟩, ⟨%d1, H1⟩, ⟨%d2, H2⟩⟩
        iapply ((kernelRun7_C c (grid7.coords t) _ _ _ _ _ _ _ _ _ _ (fun h => h0 ((hcond7_0 t).mp h)) ((hcond7_1 t).mpr h1) (iblk7 V c 0 t) (iblk7 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover7_C_0 c _ _ _ _ _ _ _ _ _ _ _ _ _ _ _ _ _)
              · unfold owns; iexists _; isplitr
                swap; · iexact HS1
                ipureintro; exact View.read_writes_of_cover _ _ _ _ _ (scover7_C_1 c _ _ _ _ _ _ _ _ _ _ _ _ _ _ _ _ _)
            iexact Hb
          iexact Hg
        isplitl [Ho]; · iexact Ho
        isplitl [H0]; · iexact H0
        isplitl [H1]; · iexact H1
        unfold owns; iexists _; isplitr
        swap; · iexact H2
        ipureintro; exact View.read_writes_of_cover _ _ _ _ _ (cover7_C_2 c _ _ _ _ _ _ _ _ _ _ _ _ _ _ _ _ _)
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [Dat.leavesExact_idle (dat7 V c) 2 t (idleAt7_2_B t (fun h => h0 ((hcond7_0 t).mp h)) (fun h => h1 ((hcond7_1 t).mp h))) (noFlush7_2_B t (fun h => h0 ((hcond7_0 t).mp h)) (fun h => h1 ((hcond7_1 t).mp h)))]
      rw [outsAt7_B V c t h0 h1]
      unfold sout7_B_0 sout7_B_1; (try dsimp only)
      by_cases hz : t.val = 0
      · exfalso; omega
      · rw [PhiS7_castSucc V c t, PhiS7_pos V c _ _ hz]
        iintro ⟨⟨⟨⟨HS0, HS1⟩, Hb⟩, Hg⟩, Ho, ⟨%d0, H0⟩, ⟨%d1, H1⟩, ⟨%d2, H2⟩⟩
        iapply ((kernelRun7_B c (grid7.coords t) _ _ _ _ _ _ _ _ _ _ (fun h => h0 ((hcond7_0 t).mp h)) (fun h => h1 ((hcond7_1 t).mp h)) (iblk7 V c 0 t) (iblk7 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover7_B_0 c _ _ _ _ _ _ _ _ _ _ _ _ _ _ _ _ _)
              · unfold owns; iexists _; isplitr
                swap; · iexact HS1
                ipureintro; exact View.read_writes_of_cover _ _ _ _ _ (scover7_B_1 c _ _ _ _ _ _ _ _ _ _ _ _ _ _ _ _ _)
            iexact Hb
          iexact Hg
        isplitl [Ho]; · iexact Ho
        isplitl [H0]; · iexact H0
        isplitl [H1]; · iexact H1
        iexists _; iexact H2

theorem body_obligation7 (c : Dev nD) : BodyObligation (dat7 (F := F) V c) (defs₀ (F := F)) Variants.none () Set.univ := fun t => by
  rw [bigSep_W7, bigSep_W7]
  exact sound_body7 V c t

/-! ## The invariant at the two ends -/

theorem Phi7_zero (c : Dev nD) : (dat7 V c).Φ 0 = Pipeline.ΦA spec7 c := rfl

/-- After any point but the first the invariant gives the class's back: what the scratch buffers hold is forgotten. -/
theorem Phi7_out (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hb⟩, Hg⟩
  isplitl [HS0 HS1 Hb]
  · isplitl [HS0 HS1]
    · isplitl [HS0]
      · iexists _; iexact HS0
      · iexists _; iexact HS1
    iexact Hb
  iexact Hg

theorem hout7 (c : Dev nD) : (dat7 V c).Φ (Fin.last cfg7.N) ⊢ Pipeline.ΦA spec7 c :=
  Phi7_out V c _ (by rw [Fin.val_last]; have : cfg7.N = 64 := N_7; omega)

end Cert.Kernel.Gen

end
-- ==== Proof.K.R8Runs.lean ====
-- scratch/rename_region.js proof/Proof/KI/R3Runs.lean 8 64
/- Region 8 (the transposed collect: acc += raw^T-block · fc-block over the inner grid axis k, row sums of the
   raw block along axis 0 beside it, the quotient acc / (rs + ε) written under k = 3): what the three control cases'
   runs share. The branch conditions decided over the 16 × 4 grid (t = 4·i + k), where the result window is idle,
   the staging and scratch memrefs, and the region invariant with both accumulators split out of the scoped rest. -/
import proofs.«145590_j23742579212572_2_alg».proof.Proof.Gen.Kernel.Launch
import proofs.«145590_j23742579212572_2_alg».proof.Proof.Gen.Kernel.Skeleton
import proofs.«145590_j23742579212572_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The raw block (window 0) sits in its current staging buffer at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The whole of fc (window 1), fetched once, sits in its staging buffer at every point: its block index never moves. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

end Region8

/-! ## The body's two branch conditions -/

/-- "k = 0": the accumulators are reset. -/
abbrev cond8_0 (i : grid8.Coords) : Prop := (Scalar.cmpi .ne (Scalar.extui (Scalar.cmpi .eq (BitVec.ofNat 32 (i 1).val) 0#32)) 0#32) = 1#1
/-- It holds exactly at the points t ≡ 0 (mod 4). -/
theorem hcond8_0 : ∀ t : Fin cfg8.N, cond8_0 (grid8.coords t) ↔ t.val % 4 = 0 :=
  (by decide +kernel : ∀ t : Fin grid8.N, cond8_0 (grid8.coords t) ↔ t.val % 4 = 0)

/-- "k = 3": the quotient is written. -/
abbrev cond8_1 (i : grid8.Coords) : Prop := k8_cond2 i = 1#1
/-- It holds exactly at the points t ≡ 3 (mod 4). -/
theorem hcond8_1 : ∀ t : Fin cfg8.N, cond8_1 (grid8.coords t) ↔ t.val % 4 = 3 :=
  (by decide +kernel : ∀ t : Fin grid8.N, cond8_1 (grid8.coords t) ↔ t.val % 4 = 3)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
/-- k = 0: nothing is stored into the result block, and it is not written back. -/
theorem idleAt8_2_A : ∀ t : Fin cfg8.N, cond8_0 (grid8.coords t) → ¬cond8_1 (grid8.coords t) → cfg8.idle 2 (grid8.coords t) = true := by decide +kernel
theorem noFlush8_2_A : ∀ t : Fin cfg8.N, cond8_0 (grid8.coords t) → ¬cond8_1 (grid8.coords t) → (cfg8.win 2).flush t = false := by decide +kernel
/-- k = 1, 2: the same. -/
theorem idleAt8_2_B : ∀ t : Fin cfg8.N, ¬cond8_0 (grid8.coords t) → ¬cond8_1 (grid8.coords t) → cfg8.idle 2 (grid8.coords t) = true := by decide +kernel
theorem noFlush8_2_B : ∀ t : Fin cfg8.N, ¬cond8_0 (grid8.coords t) → ¬cond8_1 (grid8.coords t) → (cfg8.win 2).flush t = false := by decide +kernel
/-- k = 3: the result block is stored, the window live. -/
theorem liveAt8_2_C : ∀ t : Fin cfg8.N, ¬cond8_0 (grid8.coords t) → cond8_1 (grid8.coords t) → cfg8.idle 2 (grid8.coords t) = false := by decide +kernel

/-! ## The memrefs the body is called with -/

/-- One staging buffer of the result window, through which its contents are stated. -/
abbrev VO8_2 : View sig .tc .vmem S512x512 .f32 := (Memref.whole cc8_stg2_0 : Memref sig .tc .vmem S512x512 .f32).view
abbrev ms8_0 (t : Fin cfg8.N) : Memref sig .tc .vmem S512x512 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2048x512 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S512x512 .f32 := win8_2.stage (cfg8.slots t 2)
abbrev hs8_2 (t : Fin cfg8.N) : (ms8_2 t).IsWhole := hstage8_2 ((cfg8.slots t 2).cast nbuf8_2)
/-- The two accumulators: the partial product and the partial row sums. -/
abbrev scM8_0 : Memref sig .tc .vmem S512x512 .f32 := Memref.whole cc8_scratch0
abbrev scM8_1 : Memref sig .tc .vmem S1x512 .f32 := Memref.whole cc8_scratch1
abbrev VS8_0 : View sig .tc .vmem S512x512 .f32 := scM8_0.view
abbrev VS8_1 : View sig .tc .vmem S1x512 .f32 := scM8_1.view

/-- What is left of the scoped rest once both accumulators are taken out. -/
abbrev rest8 (c : Dev nD) : sProp 𝕄 :=
  Pipeline.scopedRestBut (Ix := Unit) (Name := ℕ) (U := UR sig nD τ) (Lvl := ℕ) (Val := Elt F) spec8 c [cc8_scratch0, cc8_scratch1]

/-- The region invariant with both accumulators owned as memrefs at some contents, the remainder unopened. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 (F := F) c) ∗ (∃ r, prngReg c r)) := by
  unfold Pipeline.ΦA; rw [scopedRest8_split]; simp only [scM8_0, scM8_1, owns_whole]; try rfl

end Cert.Kernel.Gen

end
-- ==== Proof.K.R8RunB.lean ====
-- scratch/rename_region.js proof/Proof/KI/R3RunB.lean 8 64
/- Region 8 at k = 1, 2: neither branch is taken. The partial product and the partial row sums come in at what the
   point before left, the block's contribution is added to each, and they go out; the result buffer is untouched. -/
import proofs.«145590_j23742579212572_2_alg».proof.Proof.K.R8Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 1, 2 on whole memrefs: the pieces each accumulator ends with are what the run finds. -/
noncomputable def kernelRun8_B (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i)
    (x0 : Vec F S512x512 .f32) (x1 : Vec F S2048x512 .f32) (xs0 : Vec F S512x512 .f32) (xs1 : Vec F S1x512 .f32) :
    Σ' (L2 : List (View.Piece (Elt F) S512x512 .f32)) (LS0 : List (View.Piece (Elt F) S512x512 .f32)), { LS1 : List (View.Piece (Elt F) S1x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc8__collect_transposed_kernel i arg2 harg2 arg3 harg3 arg4 harg4 arg5 harg5 arg6 harg6) K } := by
  refine ⟨[], ?_, ?_, fun xi2 E K => ?run⟩
  case run =>
    simp only [cc8__collect_transposed_kernel_eq_skeleton]; unfold cc8__collect_transposed_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R8RunA.lean ====
-- scratch/rename_region.js proof/Proof/KI/R3RunA.lean 8 64
/- Region 8 at k = 0: the first branch is taken. Both accumulators are reset to zero (whatever they held), then the
   block's contribution is added to each; the result buffer is untouched. -/
import proofs.«145590_j23742579212572_2_alg».proof.Proof.K.R8RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 0 on whole memrefs: the pieces each accumulator ends with are what the run finds. -/
noncomputable def kernelRun8_A (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i)
    (x0 : Vec F S512x512 .f32) (x1 : Vec F S2048x512 .f32) :
    Σ' (L2 : List (View.Piece (Elt F) S512x512 .f32)) (LS0 : List (View.Piece (Elt F) S512x512 .f32)), { LS1 : List (View.Piece (Elt F) S1x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc8__collect_transposed_kernel i arg2 harg2 arg3 harg3 arg4 harg4 arg5 harg5 arg6 harg6) K } := by
  refine ⟨[], ?_, ?_, fun xi2 E K => ?run⟩
  case run =>
    simp only [cc8__collect_transposed_kernel_eq_skeleton]; unfold cc8__collect_transposed_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R8RunC.lean ====
-- scratch/rename_region.js proof/Proof/KI/R3RunC.lean 8 64
/- Region 8 at k = 3: the last branch is taken. The block's contribution is added to both accumulators, and the
   result block is stored: the finished product divided by (finished row sums + ε), whatever the buffer held. -/
import proofs.«145590_j23742579212572_2_alg».proof.Proof.K.R8RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 3 on whole memrefs: the pieces the result buffer and each accumulator end with are what the run finds. -/
noncomputable def kernelRun8_C (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) :
    Σ' (L2 : List (View.Piece (Elt F) S512x512 .f32)) (LS0 : List (View.Piece (Elt F) S512x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc8__collect_transposed_kernel i arg2 harg2 arg3 harg3 arg4 harg4 arg5 harg5 arg6 harg6) K } := by
  refine ⟨?_, ?_, ?_, fun E K => ?run⟩
  case run =>
    simp only [cc8__collect_transposed_kernel_eq_skeleton]; unfold cc8__collect_transposed_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Gen

end
-- ==== Proof.K.R8.lean ====
-- scratch/rename_region.js proof/Proof/KI/R3.lean 8 64
/- Region 8, the rest: what each case leaves in the result buffer and in the two accumulators (read back off the
   stores the runs found), the accumulation point by point over the grid, the invariant by position, the proof data,
   and the body obligation. -/
import proofs.«145590_j23742579212572_2_alg».proof.Proof.K.R8RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At k = 0 nothing is stored into the result buffer; this value stands for "untouched" and is never read. -/
def out8_A_2 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i)
    (x0 : Vec F S512x512 .f32) (x1 : Vec F S2048x512 .f32) : Vec F S512x512 .f32 :=
  VO8_2.read (Elt F) (VO8_2.writes (Elt F) VO8_2.junk (kernelRun8_A c i arg2 harg2 arg3 harg3 arg4 harg4 arg5 harg5 arg6 harg6 hc0 hc1 x0 x1).1)

/-- At k = 0 the stores into the partial product cover it. -/
theorem scover8_A_0 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i)
    (x0 : Vec F S512x512 .f32) (x1 : Vec F S2048x512 .f32) (y : S512x512.Idx) :
    ∃ pc ∈ (kernelRun8_A c i arg2 harg2 arg3 harg3 arg4 harg4 arg5 harg5 arg6 harg6 hc0 hc1 x0 x1).2.1, y ∈ pc.1.set :=
  View.cover_of_tiledL (kernelRun8_A c i arg2 harg2 arg3 harg3 arg4 harg4 arg5 harg5 arg6 harg6 hc0 hc1 x0 x1).2.1 S512x512.size (by sl_kernel_rfl) y

/-- The partial product after the body at k = 0. -/
def sout8_A_0 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i)
    (x0 : Vec F S512x512 .f32) (x1 : Vec F S2048x512 .f32) : Vec F S512x512 .f32 :=
  VS8_0.read (Elt F) (VS8_0.writes (Elt F) VS8_0.junk (kernelRun8_A c i arg2 harg2 arg3 harg3 arg4 harg4 arg5 harg5 arg6 harg6 hc0 hc1 x0 x1).2.1)

/-- At k = 0 the stores into the partial row sums cover them. -/
theorem scover8_A_1 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i)
    (x0 : Vec F S512x512 .f32) (x1 : Vec F S2048x512 .f32) (y : S1x512.Idx) :
    ∃ pc ∈ (kernelRun8_A c i arg2 harg2 arg3 harg3 arg4 harg4 arg5 harg5 arg6 harg6 hc0 hc1 x0 x1).2.2.1, y ∈ pc.1.set :=
  View.cover_of_tiledL (kernelRun8_A c i arg2 harg2 arg3 harg3 arg4 harg4 arg5 harg5 arg6 harg6 hc0 hc1 x0 x1).2.2.1 S1x512.size (by sl_kernel_rfl) y

/-- The partial row sums after the body at k = 0. -/
def sout8_A_1 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i)
    (x0 : Vec F S512x512 .f32) (x1 : Vec F S2048x512 .f32) : Vec F S1x512 .f32 :=
  VS8_1.read (Elt F) (VS8_1.writes (Elt F) VS8_1.junk (kernelRun8_A c i arg2 harg2 arg3 harg3 arg4 harg4 arg5 harg5 arg6 harg6 hc0 hc1 x0 x1).2.2.1)

/-- At k = 1, 2 nothing is stored into the result buffer; this value stands for "untouched" and is never read. -/
def out8_B_2 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i)
    (x0 : Vec F S512x512 .f32) (x1 : Vec F S2048x512 .f32) (xs0 : Vec F S512x512 .f32) (xs1 : Vec F S1x512 .f32) : Vec F S512x512 .f32 :=
  VO8_2.read (Elt F) (VO8_2.writes (Elt F) VO8_2.junk (kernelRun8_B c i arg2 harg2 arg3 harg3 arg4 harg4 arg5 harg5 arg6 harg6 hc0 hc1 x0 x1 xs0 xs1).1)

/-- At k = 1, 2 the stores into the partial product cover it. -/
theorem scover8_B_0 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i)
    (x0 : Vec F S512x512 .f32) (x1 : Vec F S2048x512 .f32) (xs0 : Vec F S512x512 .f32) (xs1 : Vec F S1x512 .f32) (y : S512x512.Idx) :
    ∃ pc ∈ (kernelRun8_B c i arg2 harg2 arg3 harg3 arg4 harg4 arg5 harg5 arg6 harg6 hc0 hc1 x0 x1 xs0 xs1).2.1, y ∈ pc.1.set :=
  View.cover_of_tiledL (kernelRun8_B c i arg2 harg2 arg3 harg3 arg4 harg4 arg5 harg5 arg6 harg6 hc0 hc1 x0 x1 xs0 xs1).2.1 S512x512.size (by sl_kernel_rfl) y

/-- The partial product after the body at k = 1, 2. -/
def sout8_B_0 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i)
    (x0 : Vec F S512x512 .f32) (x1 : Vec F S2048x512 .f32) (xs0 : Vec F S512x512 .f32) (xs1 : Vec F S1x512 .f32) : Vec F S512x512 .f32 :=
  VS8_0.read (Elt F) (VS8_0.writes (Elt F) VS8_0.junk (kernelRun8_B c i arg2 harg2 arg3 harg3 arg4 harg4 arg5 harg5 arg6 harg6 hc0 hc1 x0 x1 xs0 xs1).2.1)

/-- At k = 1, 2 the stores into the partial row sums cover them. -/
theorem scover8_B_1 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i)
    (x0 : Vec F S512x512 .f32) (x1 : Vec F S2048x512 .f32) (xs0 : Vec F S512x512 .f32) (xs1 : Vec F S1x512 .f32) (y : S1x512.Idx) :
    ∃ pc ∈ (kernelRun8_B c i arg2 harg2 arg3 harg3 arg4 harg4 arg5 harg5 arg6 harg6 hc0 hc1 x0 x1 xs0 xs1).2.2.1, y ∈ pc.1.set :=
  View.cover_of_tiledL (kernelRun8_B c i arg2 harg2 arg3 harg3 arg4 harg4 arg5 harg5 arg6 harg6 hc0 hc1 x0 x1 xs0 xs1).2.2.1 S1x512.size (by sl_kernel_rfl) y

/-- The partial row sums after the body at k = 1, 2. -/
def sout8_B_1 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i)
    (x0 : Vec F S512x512 .f32) (x1 : Vec F S2048x512 .f32) (xs0 : Vec F S512x512 .f32) (xs1 : Vec F S1x512 .f32) : Vec F S1x512 .f32 :=
  VS8_1.read (Elt F) (VS8_1.writes (Elt F) VS8_1.junk (kernelRun8_B c i arg2 harg2 arg3 harg3 arg4 harg4 arg5 harg5 arg6 harg6 hc0 hc1 x0 x1 xs0 xs1).2.2.1)

/-- At k = 3 the one store into the result buffer covers it. -/
theorem cover8_C_2 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) (y : S512x512.Idx) :
    ∃ pc ∈ (kernelRun8_C c i arg2 harg2 arg3 harg3 arg4 harg4 arg5 harg5 arg6 harg6 hc0 hc1 x0 x1 xs0 xs1).1, y ∈ pc.1.set :=
  View.cover_of_tiledL (kernelRun8_C c i arg2 harg2 arg3 harg3 arg4 harg4 arg5 harg5 arg6 harg6 hc0 hc1 x0 x1 xs0 xs1).1 S512x512.size (by sl_kernel_rfl) y

/-- What the result buffer holds after the body at k = 3: the quotient, read back off its store. -/
def out8_C_2 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) : Vec F S512x512 .f32 :=
  VO8_2.read (Elt F) (VO8_2.writes (Elt F) VO8_2.junk (kernelRun8_C c i arg2 harg2 arg3 harg3 arg4 harg4 arg5 harg5 arg6 harg6 hc0 hc1 x0 x1 xs0 xs1).1)

/-- At k = 3 the stores into the partial product cover it. -/
theorem scover8_C_0 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) (y : S512x512.Idx) :
    ∃ pc ∈ (kernelRun8_C c i arg2 harg2 arg3 harg3 arg4 harg4 arg5 harg5 arg6 harg6 hc0 hc1 x0 x1 xs0 xs1).2.1, y ∈ pc.1.set :=
  View.cover_of_tiledL (kernelRun8_C c i arg2 harg2 arg3 harg3 arg4 harg4 arg5 harg5 arg6 harg6 hc0 hc1 x0 x1 xs0 xs1).2.1 S512x512.size (by sl_kernel_rfl) y

/-- The partial product after the body at k = 3. -/
def sout8_C_0 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) : Vec F S512x512 .f32 :=
  VS8_0.read (Elt F) (VS8_0.writes (Elt F) VS8_0.junk (kernelRun8_C c i arg2 harg2 arg3 harg3 arg4 harg4 arg5 harg5 arg6 harg6 hc0 hc1 x0 x1 xs0 xs1).2.1)

/-- At k = 3 the stores into the partial row sums cover them. -/
theorem scover8_C_1 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) (y : S1x512.Idx) :
    ∃ pc ∈ (kernelRun8_C c i arg2 harg2 arg3 harg3 arg4 harg4 arg5 harg5 arg6 harg6 hc0 hc1 x0 x1 xs0 xs1).2.2.1, y ∈ pc.1.set :=
  View.cover_of_tiledL (kernelRun8_C c i arg2 harg2 arg3 harg3 arg4 harg4 arg5 harg5 arg6 harg6 hc0 hc1 x0 x1 xs0 xs1).2.2.1 S1x512.size (by sl_kernel_rfl) y

/-- The partial row sums after the body at k = 3. -/
def sout8_C_1 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) : Vec F S1x512 .f32 :=
  VS8_1.read (Elt F) (VS8_1.writes (Elt F) VS8_1.junk (kernelRun8_C c i arg2 harg2 arg3 harg3 arg4 harg4 arg5 harg5 arg6 harg6 hc0 hc1 x0 x1 xs0 xs1).2.2.1)

section Region8
variable (V : (c : Dev nD) → (b : Ref sig .tc) → Buf (Elt F) ((c : Thread nD τ).loc b))

/-- One point at k = 0: (result buffer, partial product, partial row sums) after the body there. -/
def step8_A (c : Dev nD) (t : Fin cfg8.N) (h0 : t.val % 4 = 0) (h1 : ¬t.val % 4 = 3) :
    Vec F S512x512 .f32 × Vec F S512x512 .f32 × Vec F S1x512 .f32 :=
  (out8_A_2 c (grid8.coords t) (ms8_0 t) (hs8_0 t) (ms8_1 t) (hs8_1 t) (ms8_2 t) (hs8_2 t) scM8_0 (Memref.isWhole_whole _) scM8_1 (Memref.isWhole_whole _) ((hcond8_0 t).mpr h0) (fun h => h1 ((hcond8_1 t).mp h)) (iblk8 V c 0 t) (iblk8 V c 1 t), sout8_A_0 c (grid8.coords t) (ms8_0 t) (hs8_0 t) (ms8_1 t) (hs8_1 t) (ms8_2 t) (hs8_2 t) scM8_0 (Memref.isWhole_whole _) scM8_1 (Memref.isWhole_whole _) ((hcond8_0 t).mpr h0) (fun h => h1 ((hcond8_1 t).mp h)) (iblk8 V c 0 t) (iblk8 V c 1 t), sout8_A_1 c (grid8.coords t) (ms8_0 t) (hs8_0 t) (ms8_1 t) (hs8_1 t) (ms8_2 t) (hs8_2 t) scM8_0 (Memref.isWhole_whole _) scM8_1 (Memref.isWhole_whole _) ((hcond8_0 t).mpr h0) (fun h => h1 ((hcond8_1 t).mp h)) (iblk8 V c 0 t) (iblk8 V c 1 t))

/-- One point at k = 1, 2: (result buffer, partial product, partial row sums) after the body there, from what the accumulators held before. -/
def step8_B (c : Dev nD) (t : Fin cfg8.N) (h0 : ¬t.val % 4 = 0) (h1 : ¬t.val % 4 = 3) (xs0 : Vec F S512x512 .f32) (xs1 : Vec F S1x512 .f32) :
    Vec F S512x512 .f32 × Vec F S512x512 .f32 × Vec F S1x512 .f32 :=
  (out8_B_2 c (grid8.coords t) (ms8_0 t) (hs8_0 t) (ms8_1 t) (hs8_1 t) (ms8_2 t) (hs8_2 t) scM8_0 (Memref.isWhole_whole _) scM8_1 (Memref.isWhole_whole _) (fun h => h0 ((hcond8_0 t).mp h)) (fun h => h1 ((hcond8_1 t).mp h)) (iblk8 V c 0 t) (iblk8 V c 1 t) xs0 xs1, sout8_B_0 c (grid8.coords t) (ms8_0 t) (hs8_0 t) (ms8_1 t) (hs8_1 t) (ms8_2 t) (hs8_2 t) scM8_0 (Memref.isWhole_whole _) scM8_1 (Memref.isWhole_whole _) (fun h => h0 ((hcond8_0 t).mp h)) (fun h => h1 ((hcond8_1 t).mp h)) (iblk8 V c 0 t) (iblk8 V c 1 t) xs0 xs1, sout8_B_1 c (grid8.coords t) (ms8_0 t) (hs8_0 t) (ms8_1 t) (hs8_1 t) (ms8_2 t) (hs8_2 t) scM8_0 (Memref.isWhole_whole _) scM8_1 (Memref.isWhole_whole _) (fun h => h0 ((hcond8_0 t).mp h)) (fun h => h1 ((hcond8_1 t).mp h)) (iblk8 V c 0 t) (iblk8 V c 1 t) xs0 xs1)

/-- One point at k = 3: (result buffer, partial product, partial row sums) after the body there, from what the accumulators held before. -/
def step8_C (c : Dev nD) (t : Fin cfg8.N) (h0 : ¬t.val % 4 = 0) (h1 : t.val % 4 = 3) (xs0 : Vec F S512x512 .f32) (xs1 : Vec F S1x512 .f32) :
    Vec F S512x512 .f32 × Vec F S512x512 .f32 × Vec F S1x512 .f32 :=
  (out8_C_2 c (grid8.coords t) (ms8_0 t) (hs8_0 t) (ms8_1 t) (hs8_1 t) (ms8_2 t) (hs8_2 t) scM8_0 (Memref.isWhole_whole _) scM8_1 (Memref.isWhole_whole _) (fun h => h0 ((hcond8_0 t).mp h)) ((hcond8_1 t).mpr h1) (iblk8 V c 0 t) (iblk8 V c 1 t) xs0 xs1, sout8_C_0 c (grid8.coords t) (ms8_0 t) (hs8_0 t) (ms8_1 t) (hs8_1 t) (ms8_2 t) (hs8_2 t) scM8_0 (Memref.isWhole_whole _) scM8_1 (Memref.isWhole_whole _) (fun h => h0 ((hcond8_0 t).mp h)) ((hcond8_1 t).mpr h1) (iblk8 V c 0 t) (iblk8 V c 1 t) xs0 xs1, sout8_C_1 c (grid8.coords t) (ms8_0 t) (hs8_0 t) (ms8_1 t) (hs8_1 t) (ms8_2 t) (hs8_2 t) scM8_0 (Memref.isWhole_whole _) scM8_1 (Memref.isWhole_whole _) (fun h => h0 ((hcond8_0 t).mp h)) ((hcond8_1 t).mpr h1) (iblk8 V c 0 t) (iblk8 V c 1 t) xs0 xs1)

/-! ## What the result buffer and both accumulators hold after each point -/

/-- THE ACCUMULATION, point by point along t = 4·i + k: at k = 0 both accumulators restart from zero plus the block's
    contribution; at k = 1, 2 the contribution is added to what the point before left; at k = 3 likewise, and the
    result buffer takes the quotient. -/
def outsAt8 (c : Dev nD) : (n : ℕ) → n < cfg8.N → Vec F S512x512 .f32 × Vec F S512x512 .f32 × Vec F S1x512 .f32
  | 0, hn => step8_A V c ⟨0, hn⟩ (Nat.zero_mod _) (show ¬(0 % 4 = 3) from by decide)
  | n + 1, hn =>
    if h0 : (n + 1) % 4 = 0 then
      if h1 : (n + 1) % 4 = 3 then
        False.elim (by omega)
      else
        step8_A V c ⟨n + 1, hn⟩ h0 h1
    else
      if h1 : (n + 1) % 4 = 3 then
        step8_C V c ⟨n + 1, hn⟩ h0 h1 (outsAt8 c n (Nat.lt_of_succ_lt hn)).2.1 (outsAt8 c n (Nat.lt_of_succ_lt hn)).2.2
      else
        step8_B V c ⟨n + 1, hn⟩ h0 h1 (outsAt8 c n (Nat.lt_of_succ_lt hn)).2.1 (outsAt8 c n (Nat.lt_of_succ_lt hn)).2.2

/-- `outsAt8` at a point with k = 0. -/
theorem outsAt8_A (c : Dev nD) (t : Fin cfg8.N) (h0 : t.val % 4 = 0) (h1 : ¬t.val % 4 = 3) :
    outsAt8 V c t.val t.isLt = step8_A V c t h0 h1 := by
  obtain ⟨n, hn⟩ := t
  cases n with
  | zero => exact rfl
  | succ n => exact (dif_pos h0).trans ((dif_neg h1).trans rfl)

/-- `outsAt8` at a point with k = 1, 2: over what the point before left. -/
theorem outsAt8_B (c : Dev nD) (t : Fin cfg8.N) (h0 : ¬t.val % 4 = 0) (h1 : ¬t.val % 4 = 3) :
    outsAt8 V c t.val t.isLt = step8_B V c t h0 h1 (outsAt8 V c (t.val - 1) (Nat.lt_of_le_of_lt (Nat.sub_le _ _) t.isLt)).2.1 (outsAt8 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

/-- `outsAt8` at a point with k = 3: over what the point before left. -/
theorem outsAt8_C (c : Dev nD) (t : Fin cfg8.N) (h0 : ¬t.val % 4 = 0) (h1 : t.val % 4 = 3) :
    outsAt8 V c t.val t.isLt = step8_C V c t h0 h1 (outsAt8 V c (t.val - 1) (Nat.lt_of_le_of_lt (Nat.sub_le _ _) t.isLt)).2.1 (outsAt8 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant, by position -/

/-- Before the first point: everything scoped at anything. After point n: the partial product and the partial row
    sums at what that point left, the rest of the scoped buffers unopened, the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.1) ∗ owns (c : Thread nD τ) scM8_1 fullShare ((outsAt8 V c n hn).2.2)) ∗ rest8 (F := F) c) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare ((outsAt8 V c n hn).2.1) ∗ owns (c : Thread nD τ) scM8_1 fullShare ((outsAt8 V c n hn).2.2)) ∗ rest8 (F := F) c) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.1) ∗ owns (c : Thread nD τ) scM8_1 fullShare ((outsAt8 V c (n - 1) (by omega)).2.2)) ∗ rest8 (F := F) c) ∗ (∃ r, prngReg c r)) := by
  cases n with
  | zero => exact absurd rfl hz
  | succ n => rfl

/-! ## The pipeline's proof data -/

/-- The arrays as the region finds them; after the body at point t the two inputs' buffers at their blocks and the
    result buffer at `outsAt8`'s first component; the invariant by position; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- Before the first point the invariant is the launch's. -/
theorem Phi8_zero (c : Dev nD) : (dat8 V c).Φ 0 = Pipeline.ΦA spec8 c := rfl

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at a point with k = 0: the accumulators are handed over at anything (at the first point from the
    launch's invariant, later from what the previous row of the grid left) and come back at this point's contents;
    the result buffer goes back as found. -/
theorem sound_body8_A (c : Dev nD) (t : Fin cfg8.N) (h0 : t.val % 4 = 0) (h1 : ¬t.val % 4 = 3) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 64 := lt_of_lt_of_eq t.isLt (show cfg8.N = 64 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [Dat.leavesExact_idle (dat8 V c) 2 t (idleAt8_2_A t ((hcond8_0 t).mpr h0) (fun h => h1 ((hcond8_1 t).mp h))) (noFlush8_2_A t ((hcond8_0 t).mpr h0) (fun h => h1 ((hcond8_1 t).mp h)))]
  rw [outsAt8_A V c t h0 h1]
  unfold step8_A sout8_A_0 sout8_A_1; (try dsimp only)
  by_cases hz : t.val = 0
  · rw [PhiS8_castSucc V c t, PhiS8_zero V c _ _ hz, PhiA8_eq]
    iintro ⟨⟨⟨⟨HS0, HS1⟩, Hr⟩, Hg⟩, Ho, ⟨%d0, H0⟩, ⟨%d1, H1⟩, ⟨%d2, H2⟩⟩
    iapply ((kernelRun8_A c (grid8.coords t) _ _ _ _ _ _ _ _ _ _ ((hcond8_0 t).mpr h0) (fun h => h1 ((hcond8_1 t).mp h)) (iblk8 V c 0 t) (iblk8 V c 1 t)).2.2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover8_A_0 c _ _ _ _ _ _ _ _ _ _ _ _ _ _ _)
          · unfold owns; iexists _; isplitr
            swap; · iexact HS1
            ipureintro; exact View.read_writes_of_cover _ _ _ _ _ (scover8_A_1 c _ _ _ _ _ _ _ _ _ _ _ _ _ _ _)
        · iexact Hr
      · iexact Hg
    isplitl [Ho]; · iexact Ho
    isplitl [H0]; · iexact H0
    isplitl [H1]; · iexact H1
    iexists _; iexact H2
  · rw [PhiS8_castSucc V c t, PhiS8_pos V c _ _ hz]
    iintro ⟨⟨⟨⟨HS0, HS1⟩, Hr⟩, Hg⟩, Ho, ⟨%d0, H0⟩, ⟨%d1, H1⟩, ⟨%d2, H2⟩⟩
    iapply ((kernelRun8_A c (grid8.coords t) _ _ _ _ _ _ _ _ _ _ ((hcond8_0 t).mpr h0) (fun h => h1 ((hcond8_1 t).mp h)) (iblk8 V c 0 t) (iblk8 V c 1 t)).2.2.2 _ Set.univ _)
    isplitl [H0]; · iexact H0
    isplitl [H1]; · iexact H1
    isplitl [H2]; · iexact H2
    isplitl [HS0]; · iexists _; iexact HS0
    isplitl [HS1]; · iexists _; iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover8_A_0 c _ _ _ _ _ _ _ _ _ _ _ _ _ _ _)
          · unfold owns; iexists _; isplitr
            swap; · iexact HS1
            ipureintro; exact View.read_writes_of_cover _ _ _ _ _ (scover8_A_1 c _ _ _ _ _ _ _ _ _ _ _ _ _ _ _)
        · iexact Hr
      · iexact Hg
    isplitl [Ho]; · iexact Ho
    isplitl [H0]; · iexact H0
    isplitl [H1]; · iexact H1
    iexists _; iexact H2

set_option maxHeartbeats 4800000 in
/-- The body at a point with k = 1, 2: the accumulators come in at what the point before left and go out at this
    point's contents; the result buffer goes back as found. -/
theorem sound_body8_B (c : Dev nD) (t : Fin cfg8.N) (h0 : ¬t.val % 4 = 0) (h1 : ¬t.val % 4 = 3) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 64 := lt_of_lt_of_eq t.isLt (show cfg8.N = 64 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [Dat.leavesExact_idle (dat8 V c) 2 t (idleAt8_2_B t (fun h => h0 ((hcond8_0 t).mp h)) (fun h => h1 ((hcond8_1 t).mp h))) (noFlush8_2_B t (fun h => h0 ((hcond8_0 t).mp h)) (fun h => h1 ((hcond8_1 t).mp h)))]
  rw [outsAt8_B V c t h0 h1]
  unfold step8_B sout8_B_0 sout8_B_1; (try dsimp only)
  have hz : t.val ≠ 0 := fun e => h0 (by rw [e])
  rw [PhiS8_castSucc V c t, PhiS8_pos V c _ _ hz]
  iintro ⟨⟨⟨⟨HS0, HS1⟩, Hr⟩, Hg⟩, Ho, ⟨%d0, H0⟩, ⟨%d1, H1⟩, ⟨%d2, H2⟩⟩
  iapply ((kernelRun8_B c (grid8.coords t) _ _ _ _ _ _ _ _ _ _ (fun h => h0 ((hcond8_0 t).mp h)) (fun h => h1 ((hcond8_1 t).mp h)) (iblk8 V c 0 t) (iblk8 V c 1 t) _ _).2.2.2 _ Set.univ _)
  isplitl [H0]; · iexact H0
  isplitl [H1]; · iexact H1
  isplitl [H2]; · iexact H2
  isplitl [HS0]; · iexact HS0
  isplitl [HS1]; · iexact HS1
  iintro ⟨H0, H1, H2, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover8_B_0 c _ _ _ _ _ _ _ _ _ _ _ _ _ _ _ _ _)
        · unfold owns; iexists _; isplitr
          swap; · iexact HS1
          ipureintro; exact View.read_writes_of_cover _ _ _ _ _ (scover8_B_1 c _ _ _ _ _ _ _ _ _ _ _ _ _ _ _ _ _)
      · iexact Hr
    · iexact Hg
  isplitl [Ho]; · iexact Ho
  isplitl [H0]; · iexact H0
  isplitl [H1]; · iexact H1
  iexists _; iexact H2

set_option maxHeartbeats 4800000 in
/-- The body at a point with k = 3: as before for the accumulators; the result buffer, handed over at anything, comes
    back at the quotient. -/
theorem sound_body8_C (c : Dev nD) (t : Fin cfg8.N) (h0 : ¬t.val % 4 = 0) (h1 : t.val % 4 = 3) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 64 := lt_of_lt_of_eq t.isLt (show cfg8.N = 64 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2_C t (fun h => h0 ((hcond8_0 t).mp h)) ((hcond8_1 t).mpr h1)], after8_2]
  rw [outsAt8_C V c t h0 h1]
  unfold step8_C out8_C_2 sout8_C_0 sout8_C_1; (try dsimp only)
  have hz : t.val ≠ 0 := fun e => h0 (by rw [e])
  rw [PhiS8_castSucc V c t, PhiS8_pos V c _ _ hz]
  iintro ⟨⟨⟨⟨HS0, HS1⟩, Hr⟩, Hg⟩, Ho, ⟨%d0, H0⟩, ⟨%d1, H1⟩, ⟨%d2, H2⟩⟩
  iapply ((kernelRun8_C c (grid8.coords t) _ _ _ _ _ _ _ _ _ _ (fun h => h0 ((hcond8_0 t).mp h)) ((hcond8_1 t).mpr h1) (iblk8 V c 0 t) (iblk8 V c 1 t) _ _).2.2.2 Set.univ _)
  isplitl [H0]; · iexact H0
  isplitl [H1]; · iexact H1
  isplitl [H2]; · iexists _; iexact H2
  isplitl [HS0]; · iexact HS0
  isplitl [HS1]; · iexact HS1
  iintro ⟨H0, H1, ⟨%e2, H2⟩, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover8_C_0 c _ _ _ _ _ _ _ _ _ _ _ _ _ _ _ _ _)
        · unfold owns; iexists _; isplitr
          swap; · iexact HS1
          ipureintro; exact View.read_writes_of_cover _ _ _ _ _ (scover8_C_1 c _ _ _ _ _ _ _ _ _ _ _ _ _ _ _ _ _)
      · iexact Hr
    · iexact Hg
  isplitl [Ho]; · iexact Ho
  isplitl [H0]; · iexact H0
  isplitl [H1]; · iexact H1
  unfold owns; iexists _; isplitr
  swap; · iexact H2
  ipureintro; exact View.read_writes_of_cover _ _ _ _ _ (cover8_C_2 c _ _ _ _ _ _ _ _ _ _ _ _ _ _ _ _ _)

/-- The body at any point: the position's residue mod 4 says which of the three cases it is in. -/
theorem sound_body8 (c : Dev nD) (t : Fin cfg8.N) :
    bodyPre8 V c t ⊢ wp frame (wpE (defs₀ (F := F)) Variants.none c none) Set.univ (bodyAt8 t) (fun _ => bodyPost8 V c t) := by
  by_cases h0 : t.val % 4 = 0
  · exact sound_body8_A V c t h0 (by omega)
  · by_cases h1 : t.val % 4 = 3
    · exact sound_body8_C V c t h0 h1
    · exact sound_body8_B V c t h0 h1

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- After any point the invariant gives the launch's back: what the accumulators hold is forgotten. -/
theorem Phi8_out (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout8 (c : Dev nD) : (dat8 V c).Φ (Fin.last cfg8.N) ⊢ Pipeline.ΦA spec8 c :=
  Phi8_out V c _ (by rw [Fin.val_last]; have : cfg8.N = 64 := N_8; omega)

end Region8

end Cert.Kernel.Gen

end
-- ==== Proof.K.R9Runs.lean ====
-- scratch/rename_region.js proof/Proof/KI/R3Runs.lean 9 64
/- Region 9 (the transposed collect: acc += raw^T-block · fc-block over the inner grid axis k, row sums of the
   raw block along axis 0 beside it, the quotient acc / (rs + ε) written under k = 3): what the three control cases'
   runs share. The branch conditions decided over the 16 × 4 grid (t = 4·i + k), where the result window is idle,
   the staging and scratch memrefs, and the region invariant with both accumulators split out of the scoped rest. -/
import proofs.«145590_j23742579212572_2_alg».proof.Proof.Gen.Kernel.Launch
import proofs.«145590_j23742579212572_2_alg».proof.Proof.Gen.Kernel.Skeleton
import proofs.«145590_j23742579212572_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9
variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The raw block (window 0) sits in its current staging buffer at every point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The whole of fc (window 1), fetched once, sits in its staging buffer at every point: its block index never moves. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

end Region9

/-! ## The body's two branch conditions -/

/-- "k = 0": the accumulators are reset. -/
abbrev cond9_0 (i : grid9.Coords) : Prop := (Scalar.cmpi .ne (Scalar.extui (Scalar.cmpi .eq (BitVec.ofNat 32 (i 1).val) 0#32)) 0#32) = 1#1
/-- It holds exactly at the points t ≡ 0 (mod 4). -/
theorem hcond9_0 : ∀ t : Fin cfg9.N, cond9_0 (grid9.coords t) ↔ t.val % 4 = 0 :=
  (by decide +kernel : ∀ t : Fin grid9.N, cond9_0 (grid9.coords t) ↔ t.val % 4 = 0)

/-- "k = 3": the quotient is written. -/
abbrev cond9_1 (i : grid9.Coords) : Prop := k9_cond2 i = 1#1
/-- It holds exactly at the points t ≡ 3 (mod 4). -/
theorem hcond9_1 : ∀ t : Fin cfg9.N, cond9_1 (grid9.coords t) ↔ t.val % 4 = 3 :=
  (by decide +kernel : ∀ t : Fin grid9.N, cond9_1 (grid9.coords t) ↔ t.val % 4 = 3)

/-! ## Where the windows are idle -/

theorem liveAt9_0 : ∀ t : Fin cfg9.N, cfg9.idle 0 (grid9.coords t) = false := by decide +kernel
theorem liveAt9_1 : ∀ t : Fin cfg9.N, cfg9.idle 1 (grid9.coords t) = false := by decide +kernel
/-- k = 0: nothing is stored into the result block, and it is not written back. -/
theorem idleAt9_2_A : ∀ t : Fin cfg9.N, cond9_0 (grid9.coords t) → ¬cond9_1 (grid9.coords t) → cfg9.idle 2 (grid9.coords t) = true := by decide +kernel
theorem noFlush9_2_A : ∀ t : Fin cfg9.N, cond9_0 (grid9.coords t) → ¬cond9_1 (grid9.coords t) → (cfg9.win 2).flush t = false := by decide +kernel
/-- k = 1, 2: the same. -/
theorem idleAt9_2_B : ∀ t : Fin cfg9.N, ¬cond9_0 (grid9.coords t) → ¬cond9_1 (grid9.coords t) → cfg9.idle 2 (grid9.coords t) = true := by decide +kernel
theorem noFlush9_2_B : ∀ t : Fin cfg9.N, ¬cond9_0 (grid9.coords t) → ¬cond9_1 (grid9.coords t) → (cfg9.win 2).flush t = false := by decide +kernel
/-- k = 3: the result block is stored, the window live. -/
theorem liveAt9_2_C : ∀ t : Fin cfg9.N, ¬cond9_0 (grid9.coords t) → cond9_1 (grid9.coords t) → cfg9.idle 2 (grid9.coords t) = false := by decide +kernel

/-! ## The memrefs the body is called with -/

/-- One staging buffer of the result window, through which its contents are stated. -/
abbrev VO9_2 : View sig .tc .vmem S512x512 .f32 := (Memref.whole cc9_stg2_0 : Memref sig .tc .vmem S512x512 .f32).view
abbrev ms9_0 (t : Fin cfg9.N) : Memref sig .tc .vmem S512x512 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2048x512 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S512x512 .f32 := win9_2.stage (cfg9.slots t 2)
abbrev hs9_2 (t : Fin cfg9.N) : (ms9_2 t).IsWhole := hstage9_2 ((cfg9.slots t 2).cast nbuf9_2)
/-- The two accumulators: the partial product and the partial row sums. -/
abbrev scM9_0 : Memref sig .tc .vmem S512x512 .f32 := Memref.whole cc9_scratch0
abbrev scM9_1 : Memref sig .tc .vmem S1x512 .f32 := Memref.whole cc9_scratch1
abbrev VS9_0 : View sig .tc .vmem S512x512 .f32 := scM9_0.view
abbrev VS9_1 : View sig .tc .vmem S1x512 .f32 := scM9_1.view

/-- What is left of the scoped rest once both accumulators are taken out. -/
abbrev rest9 (c : Dev nD) : sProp 𝕄 :=
  Pipeline.scopedRestBut (Ix := Unit) (Name := ℕ) (U := UR sig nD τ) (Lvl := ℕ) (Val := Elt F) spec9 c [cc9_scratch0, cc9_scratch1]

/-- The region invariant with both accumulators owned as memrefs at some contents, the remainder unopened. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d)) ∗ rest9 (F := F) c) ∗ (∃ r, prngReg c r)) := by
  unfold Pipeline.ΦA; rw [scopedRest9_split]; simp only [scM9_0, scM9_1, owns_whole]; try rfl

end Cert.Kernel.Gen

end
-- ==== Proof.K.R9RunB.lean ====
-- scratch/rename_region.js proof/Proof/KI/R3RunB.lean 9 64
/- Region 9 at k = 1, 2: neither branch is taken. The partial product and the partial row sums come in at what the
   point before left, the block's contribution is added to each, and they go out; the result buffer is untouched. -/
import proofs.«145590_j23742579212572_2_alg».proof.Proof.K.R9Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 1, 2 on whole memrefs: the pieces each accumulator ends with are what the run finds. -/
noncomputable def kernelRun9_B (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i)
    (x0 : Vec F S512x512 .f32) (x1 : Vec F S2048x512 .f32) (xs0 : Vec F S512x512 .f32) (xs1 : Vec F S1x512 .f32) :
    Σ' (L2 : List (View.Piece (Elt F) S512x512 .f32)) (LS0 : List (View.Piece (Elt F) S512x512 .f32)), { LS1 : List (View.Piece (Elt F) S1x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc9__collect_transposed_kernel i arg2 harg2 arg3 harg3 arg4 harg4 arg5 harg5 arg6 harg6) K } := by
  refine ⟨[], ?_, ?_, fun xi2 E K => ?run⟩
  case run =>
    simp only [cc9__collect_transposed_kernel_eq_skeleton]; unfold cc9__collect_transposed_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R9RunA.lean ====
-- scratch/rename_region.js proof/Proof/KI/R3RunA.lean 9 64
/- Region 9 at k = 0: the first branch is taken. Both accumulators are reset to zero (whatever they held), then the
   block's contribution is added to each; the result buffer is untouched. -/
import proofs.«145590_j23742579212572_2_alg».proof.Proof.K.R9RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 0 on whole memrefs: the pieces each accumulator ends with are what the run finds. -/
noncomputable def kernelRun9_A (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i)
    (x0 : Vec F S512x512 .f32) (x1 : Vec F S2048x512 .f32) :
    Σ' (L2 : List (View.Piece (Elt F) S512x512 .f32)) (LS0 : List (View.Piece (Elt F) S512x512 .f32)), { LS1 : List (View.Piece (Elt F) S1x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc9__collect_transposed_kernel i arg2 harg2 arg3 harg3 arg4 harg4 arg5 harg5 arg6 harg6) K } := by
  refine ⟨[], ?_, ?_, fun xi2 E K => ?run⟩
  case run =>
    simp only [cc9__collect_transposed_kernel_eq_skeleton]; unfold cc9__collect_transposed_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Gen

end
-- ==== Proof.K.R9RunC.lean ====
-- scratch/rename_region.js proof/Proof/KI/R3RunC.lean 9 64
/- Region 9 at k = 3: the last branch is taken. The block's contribution is added to both accumulators, and the
   result block is stored: the finished product divided by (finished row sums + ε), whatever the buffer held. -/
import proofs.«145590_j23742579212572_2_alg».proof.Proof.K.R9RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 3 on whole memrefs: the pieces the result buffer and each accumulator end with are what the run finds. -/
noncomputable def kernelRun9_C (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) :
    Σ' (L2 : List (View.Piece (Elt F) S512x512 .f32)) (LS0 : List (View.Piece (Elt F) S512x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc9__collect_transposed_kernel i arg2 harg2 arg3 harg3 arg4 harg4 arg5 harg5 arg6 harg6) K } := by
  refine ⟨?_, ?_, ?_, fun E K => ?run⟩
  case run =>
    simp only [cc9__collect_transposed_kernel_eq_skeleton]; unfold cc9__collect_transposed_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Gen

end
-- ==== Proof.K.R9.lean ====
-- scratch/rename_region.js proof/Proof/KI/R3.lean 9 64
/- Region 9, the rest: what each case leaves in the result buffer and in the two accumulators (read back off the
   stores the runs found), the accumulation point by point over the grid, the invariant by position, the proof data,
   and the body obligation. -/
import proofs.«145590_j23742579212572_2_alg».proof.Proof.K.R9RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At k = 0 nothing is stored into the result buffer; this value stands for "untouched" and is never read. -/
def out9_A_2 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i)
    (x0 : Vec F S512x512 .f32) (x1 : Vec F S2048x512 .f32) : Vec F S512x512 .f32 :=
  VO9_2.read (Elt F) (VO9_2.writes (Elt F) VO9_2.junk (kernelRun9_A c i arg2 harg2 arg3 harg3 arg4 harg4 arg5 harg5 arg6 harg6 hc0 hc1 x0 x1).1)

/-- At k = 0 the stores into the partial product cover it. -/
theorem scover9_A_0 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i)
    (x0 : Vec F S512x512 .f32) (x1 : Vec F S2048x512 .f32) (y : S512x512.Idx) :
    ∃ pc ∈ (kernelRun9_A c i arg2 harg2 arg3 harg3 arg4 harg4 arg5 harg5 arg6 harg6 hc0 hc1 x0 x1).2.1, y ∈ pc.1.set :=
  View.cover_of_tiledL (kernelRun9_A c i arg2 harg2 arg3 harg3 arg4 harg4 arg5 harg5 arg6 harg6 hc0 hc1 x0 x1).2.1 S512x512.size (by sl_kernel_rfl) y

/-- The partial product after the body at k = 0. -/
def sout9_A_0 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i)
    (x0 : Vec F S512x512 .f32) (x1 : Vec F S2048x512 .f32) : Vec F S512x512 .f32 :=
  VS9_0.read (Elt F) (VS9_0.writes (Elt F) VS9_0.junk (kernelRun9_A c i arg2 harg2 arg3 harg3 arg4 harg4 arg5 harg5 arg6 harg6 hc0 hc1 x0 x1).2.1)

/-- At k = 0 the stores into the partial row sums cover them. -/
theorem scover9_A_1 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i)
    (x0 : Vec F S512x512 .f32) (x1 : Vec F S2048x512 .f32) (y : S1x512.Idx) :
    ∃ pc ∈ (kernelRun9_A c i arg2 harg2 arg3 harg3 arg4 harg4 arg5 harg5 arg6 harg6 hc0 hc1 x0 x1).2.2.1, y ∈ pc.1.set :=
  View.cover_of_tiledL (kernelRun9_A c i arg2 harg2 arg3 harg3 arg4 harg4 arg5 harg5 arg6 harg6 hc0 hc1 x0 x1).2.2.1 S1x512.size (by sl_kernel_rfl) y

/-- The partial row sums after the body at k = 0. -/
def sout9_A_1 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i)
    (x0 : Vec F S512x512 .f32) (x1 : Vec F S2048x512 .f32) : Vec F S1x512 .f32 :=
  VS9_1.read (Elt F) (VS9_1.writes (Elt F) VS9_1.junk (kernelRun9_A c i arg2 harg2 arg3 harg3 arg4 harg4 arg5 harg5 arg6 harg6 hc0 hc1 x0 x1).2.2.1)

/-- At k = 1, 2 nothing is stored into the result buffer; this value stands for "untouched" and is never read. -/
def out9_B_2 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i)
    (x0 : Vec F S512x512 .f32) (x1 : Vec F S2048x512 .f32) (xs0 : Vec F S512x512 .f32) (xs1 : Vec F S1x512 .f32) : Vec F S512x512 .f32 :=
  VO9_2.read (Elt F) (VO9_2.writes (Elt F) VO9_2.junk (kernelRun9_B c i arg2 harg2 arg3 harg3 arg4 harg4 arg5 harg5 arg6 harg6 hc0 hc1 x0 x1 xs0 xs1).1)

/-- At k = 1, 2 the stores into the partial product cover it. -/
theorem scover9_B_0 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i)
    (x0 : Vec F S512x512 .f32) (x1 : Vec F S2048x512 .f32) (xs0 : Vec F S512x512 .f32) (xs1 : Vec F S1x512 .f32) (y : S512x512.Idx) :
    ∃ pc ∈ (kernelRun9_B c i arg2 harg2 arg3 harg3 arg4 harg4 arg5 harg5 arg6 harg6 hc0 hc1 x0 x1 xs0 xs1).2.1, y ∈ pc.1.set :=
  View.cover_of_tiledL (kernelRun9_B c i arg2 harg2 arg3 harg3 arg4 harg4 arg5 harg5 arg6 harg6 hc0 hc1 x0 x1 xs0 xs1).2.1 S512x512.size (by sl_kernel_rfl) y

/-- The partial product after the body at k = 1, 2. -/
def sout9_B_0 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i)
    (x0 : Vec F S512x512 .f32) (x1 : Vec F S2048x512 .f32) (xs0 : Vec F S512x512 .f32) (xs1 : Vec F S1x512 .f32) : Vec F S512x512 .f32 :=
  VS9_0.read (Elt F) (VS9_0.writes (Elt F) VS9_0.junk (kernelRun9_B c i arg2 harg2 arg3 harg3 arg4 harg4 arg5 harg5 arg6 harg6 hc0 hc1 x0 x1 xs0 xs1).2.1)

/-- At k = 1, 2 the stores into the partial row sums cover them. -/
theorem scover9_B_1 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i)
    (x0 : Vec F S512x512 .f32) (x1 : Vec F S2048x512 .f32) (xs0 : Vec F S512x512 .f32) (xs1 : Vec F S1x512 .f32) (y : S1x512.Idx) :
    ∃ pc ∈ (kernelRun9_B c i arg2 harg2 arg3 harg3 arg4 harg4 arg5 harg5 arg6 harg6 hc0 hc1 x0 x1 xs0 xs1).2.2.1, y ∈ pc.1.set :=
  View.cover_of_tiledL (kernelRun9_B c i arg2 harg2 arg3 harg3 arg4 harg4 arg5 harg5 arg6 harg6 hc0 hc1 x0 x1 xs0 xs1).2.2.1 S1x512.size (by sl_kernel_rfl) y

/-- The partial row sums after the body at k = 1, 2. -/
def sout9_B_1 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i)
    (x0 : Vec F S512x512 .f32) (x1 : Vec F S2048x512 .f32) (xs0 : Vec F S512x512 .f32) (xs1 : Vec F S1x512 .f32) : Vec F S1x512 .f32 :=
  VS9_1.read (Elt F) (VS9_1.writes (Elt F) VS9_1.junk (kernelRun9_B c i arg2 harg2 arg3 harg3 arg4 harg4 arg5 harg5 arg6 harg6 hc0 hc1 x0 x1 xs0 xs1).2.2.1)

/-- At k = 3 the one store into the result buffer covers it. -/
theorem cover9_C_2 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) (y : S512x512.Idx) :
    ∃ pc ∈ (kernelRun9_C c i arg2 harg2 arg3 harg3 arg4 harg4 arg5 harg5 arg6 harg6 hc0 hc1 x0 x1 xs0 xs1).1, y ∈ pc.1.set :=
  View.cover_of_tiledL (kernelRun9_C c i arg2 harg2 arg3 harg3 arg4 harg4 arg5 harg5 arg6 harg6 hc0 hc1 x0 x1 xs0 xs1).1 S512x512.size (by sl_kernel_rfl) y

/-- What the result buffer holds after the body at k = 3: the quotient, read back off its store. -/
def out9_C_2 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) : Vec F S512x512 .f32 :=
  VO9_2.read (Elt F) (VO9_2.writes (Elt F) VO9_2.junk (kernelRun9_C c i arg2 harg2 arg3 harg3 arg4 harg4 arg5 harg5 arg6 harg6 hc0 hc1 x0 x1 xs0 xs1).1)

/-- At k = 3 the stores into the partial product cover it. -/
theorem scover9_C_0 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) (y : S512x512.Idx) :
    ∃ pc ∈ (kernelRun9_C c i arg2 harg2 arg3 harg3 arg4 harg4 arg5 harg5 arg6 harg6 hc0 hc1 x0 x1 xs0 xs1).2.1, y ∈ pc.1.set :=
  View.cover_of_tiledL (kernelRun9_C c i arg2 harg2 arg3 harg3 arg4 harg4 arg5 harg5 arg6 harg6 hc0 hc1 x0 x1 xs0 xs1).2.1 S512x512.size (by sl_kernel_rfl) y

/-- The partial product after the body at k = 3. -/
def sout9_C_0 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) : Vec F S512x512 .f32 :=
  VS9_0.read (Elt F) (VS9_0.writes (Elt F) VS9_0.junk (kernelRun9_C c i arg2 harg2 arg3 harg3 arg4 harg4 arg5 harg5 arg6 harg6 hc0 hc1 x0 x1 xs0 xs1).2.1)

/-- At k = 3 the stores into the partial row sums cover them. -/
theorem scover9_C_1 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) (y : S1x512.Idx) :
    ∃ pc ∈ (kernelRun9_C c i arg2 harg2 arg3 harg3 arg4 harg4 arg5 harg5 arg6 harg6 hc0 hc1 x0 x1 xs0 xs1).2.2.1, y ∈ pc.1.set :=
  View.cover_of_tiledL (kernelRun9_C c i arg2 harg2 arg3 harg3 arg4 harg4 arg5 harg5 arg6 harg6 hc0 hc1 x0 x1 xs0 xs1).2.2.1 S1x512.size (by sl_kernel_rfl) y

/-- The partial row sums after the body at k = 3. -/
def sout9_C_1 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) : Vec F S1x512 .f32 :=
  VS9_1.read (Elt F) (VS9_1.writes (Elt F) VS9_1.junk (kernelRun9_C c i arg2 harg2 arg3 harg3 arg4 harg4 arg5 harg5 arg6 harg6 hc0 hc1 x0 x1 xs0 xs1).2.2.1)

section Region9
variable (V : (c : Dev nD) → (b : Ref sig .tc) → Buf (Elt F) ((c : Thread nD τ).loc b))

/-- One point at k = 0: (result buffer, partial product, partial row sums) after the body there. -/
def step9_A (c : Dev nD) (t : Fin cfg9.N) (h0 : t.val % 4 = 0) (h1 : ¬t.val % 4 = 3) :
    Vec F S512x512 .f32 × Vec F S512x512 .f32 × Vec F S1x512 .f32 :=
  (out9_A_2 c (grid9.coords t) (ms9_0 t) (hs9_0 t) (ms9_1 t) (hs9_1 t) (ms9_2 t) (hs9_2 t) scM9_0 (Memref.isWhole_whole _) scM9_1 (Memref.isWhole_whole _) ((hcond9_0 t).mpr h0) (fun h => h1 ((hcond9_1 t).mp h)) (iblk9 V c 0 t) (iblk9 V c 1 t), sout9_A_0 c (grid9.coords t) (ms9_0 t) (hs9_0 t) (ms9_1 t) (hs9_1 t) (ms9_2 t) (hs9_2 t) scM9_0 (Memref.isWhole_whole _) scM9_1 (Memref.isWhole_whole _) ((hcond9_0 t).mpr h0) (fun h => h1 ((hcond9_1 t).mp h)) (iblk9 V c 0 t) (iblk9 V c 1 t), sout9_A_1 c (grid9.coords t) (ms9_0 t) (hs9_0 t) (ms9_1 t) (hs9_1 t) (ms9_2 t) (hs9_2 t) scM9_0 (Memref.isWhole_whole _) scM9_1 (Memref.isWhole_whole _) ((hcond9_0 t).mpr h0) (fun h => h1 ((hcond9_1 t).mp h)) (iblk9 V c 0 t) (iblk9 V c 1 t))

/-- One point at k = 1, 2: (result buffer, partial product, partial row sums) after the body there, from what the accumulators held before. -/
def step9_B (c : Dev nD) (t : Fin cfg9.N) (h0 : ¬t.val % 4 = 0) (h1 : ¬t.val % 4 = 3) (xs0 : Vec F S512x512 .f32) (xs1 : Vec F S1x512 .f32) :
    Vec F S512x512 .f32 × Vec F S512x512 .f32 × Vec F S1x512 .f32 :=
  (out9_B_2 c (grid9.coords t) (ms9_0 t) (hs9_0 t) (ms9_1 t) (hs9_1 t) (ms9_2 t) (hs9_2 t) scM9_0 (Memref.isWhole_whole _) scM9_1 (Memref.isWhole_whole _) (fun h => h0 ((hcond9_0 t).mp h)) (fun h => h1 ((hcond9_1 t).mp h)) (iblk9 V c 0 t) (iblk9 V c 1 t) xs0 xs1, sout9_B_0 c (grid9.coords t) (ms9_0 t) (hs9_0 t) (ms9_1 t) (hs9_1 t) (ms9_2 t) (hs9_2 t) scM9_0 (Memref.isWhole_whole _) scM9_1 (Memref.isWhole_whole _) (fun h => h0 ((hcond9_0 t).mp h)) (fun h => h1 ((hcond9_1 t).mp h)) (iblk9 V c 0 t) (iblk9 V c 1 t) xs0 xs1, sout9_B_1 c (grid9.coords t) (ms9_0 t) (hs9_0 t) (ms9_1 t) (hs9_1 t) (ms9_2 t) (hs9_2 t) scM9_0 (Memref.isWhole_whole _) scM9_1 (Memref.isWhole_whole _) (fun h => h0 ((hcond9_0 t).mp h)) (fun h => h1 ((hcond9_1 t).mp h)) (iblk9 V c 0 t) (iblk9 V c 1 t) xs0 xs1)

/-- One point at k = 3: (result buffer, partial product, partial row sums) after the body there, from what the accumulators held before. -/
def step9_C (c : Dev nD) (t : Fin cfg9.N) (h0 : ¬t.val % 4 = 0) (h1 : t.val % 4 = 3) (xs0 : Vec F S512x512 .f32) (xs1 : Vec F S1x512 .f32) :
    Vec F S512x512 .f32 × Vec F S512x512 .f32 × Vec F S1x512 .f32 :=
  (out9_C_2 c (grid9.coords t) (ms9_0 t) (hs9_0 t) (ms9_1 t) (hs9_1 t) (ms9_2 t) (hs9_2 t) scM9_0 (Memref.isWhole_whole _) scM9_1 (Memref.isWhole_whole _) (fun h => h0 ((hcond9_0 t).mp h)) ((hcond9_1 t).mpr h1) (iblk9 V c 0 t) (iblk9 V c 1 t) xs0 xs1, sout9_C_0 c (grid9.coords t) (ms9_0 t) (hs9_0 t) (ms9_1 t) (hs9_1 t) (ms9_2 t) (hs9_2 t) scM9_0 (Memref.isWhole_whole _) scM9_1 (Memref.isWhole_whole _) (fun h => h0 ((hcond9_0 t).mp h)) ((hcond9_1 t).mpr h1) (iblk9 V c 0 t) (iblk9 V c 1 t) xs0 xs1, sout9_C_1 c (grid9.coords t) (ms9_0 t) (hs9_0 t) (ms9_1 t) (hs9_1 t) (ms9_2 t) (hs9_2 t) scM9_0 (Memref.isWhole_whole _) scM9_1 (Memref.isWhole_whole _) (fun h => h0 ((hcond9_0 t).mp h)) ((hcond9_1 t).mpr h1) (iblk9 V c 0 t) (iblk9 V c 1 t) xs0 xs1)

/-! ## What the result buffer and both accumulators hold after each point -/

/-- THE ACCUMULATION, point by point along t = 4·i + k: at k = 0 both accumulators restart from zero plus the block's
    contribution; at k = 1, 2 the contribution is added to what the point before left; at k = 3 likewise, and the
    result buffer takes the quotient. -/
def outsAt9 (c : Dev nD) : (n : ℕ) → n < cfg9.N → Vec F S512x512 .f32 × Vec F S512x512 .f32 × Vec F S1x512 .f32
  | 0, hn => step9_A V c ⟨0, hn⟩ (Nat.zero_mod _) (show ¬(0 % 4 = 3) from by decide)
  | n + 1, hn =>
    if h0 : (n + 1) % 4 = 0 then
      if h1 : (n + 1) % 4 = 3 then
        False.elim (by omega)
      else
        step9_A V c ⟨n + 1, hn⟩ h0 h1
    else
      if h1 : (n + 1) % 4 = 3 then
        step9_C V c ⟨n + 1, hn⟩ h0 h1 (outsAt9 c n (Nat.lt_of_succ_lt hn)).2.1 (outsAt9 c n (Nat.lt_of_succ_lt hn)).2.2
      else
        step9_B V c ⟨n + 1, hn⟩ h0 h1 (outsAt9 c n (Nat.lt_of_succ_lt hn)).2.1 (outsAt9 c n (Nat.lt_of_succ_lt hn)).2.2

/-- `outsAt9` at a point with k = 0. -/
theorem outsAt9_A (c : Dev nD) (t : Fin cfg9.N) (h0 : t.val % 4 = 0) (h1 : ¬t.val % 4 = 3) :
    outsAt9 V c t.val t.isLt = step9_A V c t h0 h1 := by
  obtain ⟨n, hn⟩ := t
  cases n with
  | zero => exact rfl
  | succ n => exact (dif_pos h0).trans ((dif_neg h1).trans rfl)

/-- `outsAt9` at a point with k = 1, 2: over what the point before left. -/
theorem outsAt9_B (c : Dev nD) (t : Fin cfg9.N) (h0 : ¬t.val % 4 = 0) (h1 : ¬t.val % 4 = 3) :
    outsAt9 V c t.val t.isLt = step9_B V c t h0 h1 (outsAt9 V c (t.val - 1) (Nat.lt_of_le_of_lt (Nat.sub_le _ _) t.isLt)).2.1 (outsAt9 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

/-- `outsAt9` at a point with k = 3: over what the point before left. -/
theorem outsAt9_C (c : Dev nD) (t : Fin cfg9.N) (h0 : ¬t.val % 4 = 0) (h1 : t.val % 4 = 3) :
    outsAt9 V c t.val t.isLt = step9_C V c t h0 h1 (outsAt9 V c (t.val - 1) (Nat.lt_of_le_of_lt (Nat.sub_le _ _) t.isLt)).2.1 (outsAt9 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant, by position -/

/-- Before the first point: everything scoped at anything. After point n: the partial product and the partial row
    sums at what that point left, the rest of the scoped buffers unopened, the generator register at some state. -/
def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2.1) ∗ owns (c : Thread nD τ) scM9_1 fullShare ((outsAt9 V c n hn).2.2)) ∗ rest9 (F := F) c) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare ((outsAt9 V c n hn).2.1) ∗ owns (c : Thread nD τ) scM9_1 fullShare ((outsAt9 V c n hn).2.2)) ∗ rest9 (F := F) c) ∗ (∃ r, prngReg c r)) := rfl

theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2.1) ∗ owns (c : Thread nD τ) scM9_1 fullShare ((outsAt9 V c (n - 1) (by omega)).2.2)) ∗ rest9 (F := F) c) ∗ (∃ r, prngReg c r)) := by
  cases n with
  | zero => exact absurd rfl hz
  | succ n => rfl

/-! ## The pipeline's proof data -/

/-- The arrays as the region finds them; after the body at point t the two inputs' buffers at their blocks and the
    result buffer at `outsAt9`'s first component; the invariant by position; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- Before the first point the invariant is the launch's. -/
theorem Phi9_zero (c : Dev nD) : (dat9 V c).Φ 0 = Pipeline.ΦA spec9 c := rfl

/-! ## The body obligation, at a generic point -/

/-- What the body is called with at point t, the windows one by one, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t)

set_option maxHeartbeats 4800000 in
/-- The body at a point with k = 0: the accumulators are handed over at anything (at the first point from the
    launch's invariant, later from what the previous row of the grid left) and come back at this point's contents;
    the result buffer goes back as found. -/
theorem sound_body9_A (c : Dev nD) (t : Fin cfg9.N) (h0 : t.val % 4 = 0) (h1 : ¬t.val % 4 = 3) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  have hN : t.val < 64 := lt_of_lt_of_eq t.isLt (show cfg9.N = 64 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [Dat.leavesExact_idle (dat9 V c) 2 t (idleAt9_2_A t ((hcond9_0 t).mpr h0) (fun h => h1 ((hcond9_1 t).mp h))) (noFlush9_2_A t ((hcond9_0 t).mpr h0) (fun h => h1 ((hcond9_1 t).mp h)))]
  rw [outsAt9_A V c t h0 h1]
  unfold step9_A sout9_A_0 sout9_A_1; (try dsimp only)
  by_cases hz : t.val = 0
  · rw [PhiS9_castSucc V c t, PhiS9_zero V c _ _ hz, PhiA9_eq]
    iintro ⟨⟨⟨⟨HS0, HS1⟩, Hr⟩, Hg⟩, Ho, ⟨%d0, H0⟩, ⟨%d1, H1⟩, ⟨%d2, H2⟩⟩
    iapply ((kernelRun9_A c (grid9.coords t) _ _ _ _ _ _ _ _ _ _ ((hcond9_0 t).mpr h0) (fun h => h1 ((hcond9_1 t).mp h)) (iblk9 V c 0 t) (iblk9 V c 1 t)).2.2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover9_A_0 c _ _ _ _ _ _ _ _ _ _ _ _ _ _ _)
          · unfold owns; iexists _; isplitr
            swap; · iexact HS1
            ipureintro; exact View.read_writes_of_cover _ _ _ _ _ (scover9_A_1 c _ _ _ _ _ _ _ _ _ _ _ _ _ _ _)
        · iexact Hr
      · iexact Hg
    isplitl [Ho]; · iexact Ho
    isplitl [H0]; · iexact H0
    isplitl [H1]; · iexact H1
    iexists _; iexact H2
  · rw [PhiS9_castSucc V c t, PhiS9_pos V c _ _ hz]
    iintro ⟨⟨⟨⟨HS0, HS1⟩, Hr⟩, Hg⟩, Ho, ⟨%d0, H0⟩, ⟨%d1, H1⟩, ⟨%d2, H2⟩⟩
    iapply ((kernelRun9_A c (grid9.coords t) _ _ _ _ _ _ _ _ _ _ ((hcond9_0 t).mpr h0) (fun h => h1 ((hcond9_1 t).mp h)) (iblk9 V c 0 t) (iblk9 V c 1 t)).2.2.2 _ Set.univ _)
    isplitl [H0]; · iexact H0
    isplitl [H1]; · iexact H1
    isplitl [H2]; · iexact H2
    isplitl [HS0]; · iexists _; iexact HS0
    isplitl [HS1]; · iexists _; iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover9_A_0 c _ _ _ _ _ _ _ _ _ _ _ _ _ _ _)
          · unfold owns; iexists _; isplitr
            swap; · iexact HS1
            ipureintro; exact View.read_writes_of_cover _ _ _ _ _ (scover9_A_1 c _ _ _ _ _ _ _ _ _ _ _ _ _ _ _)
        · iexact Hr
      · iexact Hg
    isplitl [Ho]; · iexact Ho
    isplitl [H0]; · iexact H0
    isplitl [H1]; · iexact H1
    iexists _; iexact H2

set_option maxHeartbeats 4800000 in
/-- The body at a point with k = 1, 2: the accumulators come in at what the point before left and go out at this
    point's contents; the result buffer goes back as found. -/
theorem sound_body9_B (c : Dev nD) (t : Fin cfg9.N) (h0 : ¬t.val % 4 = 0) (h1 : ¬t.val % 4 = 3) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  have hN : t.val < 64 := lt_of_lt_of_eq t.isLt (show cfg9.N = 64 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [Dat.leavesExact_idle (dat9 V c) 2 t (idleAt9_2_B t (fun h => h0 ((hcond9_0 t).mp h)) (fun h => h1 ((hcond9_1 t).mp h))) (noFlush9_2_B t (fun h => h0 ((hcond9_0 t).mp h)) (fun h => h1 ((hcond9_1 t).mp h)))]
  rw [outsAt9_B V c t h0 h1]
  unfold step9_B sout9_B_0 sout9_B_1; (try dsimp only)
  have hz : t.val ≠ 0 := fun e => h0 (by rw [e])
  rw [PhiS9_castSucc V c t, PhiS9_pos V c _ _ hz]
  iintro ⟨⟨⟨⟨HS0, HS1⟩, Hr⟩, Hg⟩, Ho, ⟨%d0, H0⟩, ⟨%d1, H1⟩, ⟨%d2, H2⟩⟩
  iapply ((kernelRun9_B c (grid9.coords t) _ _ _ _ _ _ _ _ _ _ (fun h => h0 ((hcond9_0 t).mp h)) (fun h => h1 ((hcond9_1 t).mp h)) (iblk9 V c 0 t) (iblk9 V c 1 t) _ _).2.2.2 _ Set.univ _)
  isplitl [H0]; · iexact H0
  isplitl [H1]; · iexact H1
  isplitl [H2]; · iexact H2
  isplitl [HS0]; · iexact HS0
  isplitl [HS1]; · iexact HS1
  iintro ⟨H0, H1, H2, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover9_B_0 c _ _ _ _ _ _ _ _ _ _ _ _ _ _ _ _ _)
        · unfold owns; iexists _; isplitr
          swap; · iexact HS1
          ipureintro; exact View.read_writes_of_cover _ _ _ _ _ (scover9_B_1 c _ _ _ _ _ _ _ _ _ _ _ _ _ _ _ _ _)
      · iexact Hr
    · iexact Hg
  isplitl [Ho]; · iexact Ho
  isplitl [H0]; · iexact H0
  isplitl [H1]; · iexact H1
  iexists _; iexact H2

set_option maxHeartbeats 4800000 in
/-- The body at a point with k = 3: as before for the accumulators; the result buffer, handed over at anything, comes
    back at the quotient. -/
theorem sound_body9_C (c : Dev nD) (t : Fin cfg9.N) (h0 : ¬t.val % 4 = 0) (h1 : t.val % 4 = 3) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  have hN : t.val < 64 := lt_of_lt_of_eq t.isLt (show cfg9.N = 64 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2_C t (fun h => h0 ((hcond9_0 t).mp h)) ((hcond9_1 t).mpr h1)], after9_2]
  rw [outsAt9_C V c t h0 h1]
  unfold step9_C out9_C_2 sout9_C_0 sout9_C_1; (try dsimp only)
  have hz : t.val ≠ 0 := fun e => h0 (by rw [e])
  rw [PhiS9_castSucc V c t, PhiS9_pos V c _ _ hz]
  iintro ⟨⟨⟨⟨HS0, HS1⟩, Hr⟩, Hg⟩, Ho, ⟨%d0, H0⟩, ⟨%d1, H1⟩, ⟨%d2, H2⟩⟩
  iapply ((kernelRun9_C c (grid9.coords t) _ _ _ _ _ _ _ _ _ _ (fun h => h0 ((hcond9_0 t).mp h)) ((hcond9_1 t).mpr h1) (iblk9 V c 0 t) (iblk9 V c 1 t) _ _).2.2.2 Set.univ _)
  isplitl [H0]; · iexact H0
  isplitl [H1]; · iexact H1
  isplitl [H2]; · iexists _; iexact H2
  isplitl [HS0]; · iexact HS0
  isplitl [HS1]; · iexact HS1
  iintro ⟨H0, H1, ⟨%e2, H2⟩, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover9_C_0 c _ _ _ _ _ _ _ _ _ _ _ _ _ _ _ _ _)
        · unfold owns; iexists _; isplitr
          swap; · iexact HS1
          ipureintro; exact View.read_writes_of_cover _ _ _ _ _ (scover9_C_1 c _ _ _ _ _ _ _ _ _ _ _ _ _ _ _ _ _)
      · iexact Hr
    · iexact Hg
  isplitl [Ho]; · iexact Ho
  isplitl [H0]; · iexact H0
  isplitl [H1]; · iexact H1
  unfold owns; iexists _; isplitr
  swap; · iexact H2
  ipureintro; exact View.read_writes_of_cover _ _ _ _ _ (cover9_C_2 c _ _ _ _ _ _ _ _ _ _ _ _ _ _ _ _ _)

/-- The body at any point: the position's residue mod 4 says which of the three cases it is in. -/
theorem sound_body9 (c : Dev nD) (t : Fin cfg9.N) :
    bodyPre9 V c t ⊢ wp frame (wpE (defs₀ (F := F)) Variants.none c none) Set.univ (bodyAt9 t) (fun _ => bodyPost9 V c t) := by
  by_cases h0 : t.val % 4 = 0
  · exact sound_body9_A V c t h0 (by omega)
  · by_cases h1 : t.val % 4 = 3
    · exact sound_body9_C V c t h0 h1
    · exact sound_body9_B V c t h0 h1

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- After any point the invariant gives the launch's back: what the accumulators hold is forgotten. -/
theorem Phi9_out (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout9 (c : Dev nD) : (dat9 V c).Φ (Fin.last cfg9.N) ⊢ Pipeline.ΦA spec9 c :=
  Phi9_out V c _ (by rw [Fin.val_last]; have : cfg9.N = 64 := N_9; omega)

end Region9

end Cert.Kernel.Gen

end
-- ==== Proof.K.Run.lean ====
import proofs.«145590_j23742579212572_2_alg».proof.Proof.Gen.Kernel.Launch
import proofs.«145590_j23742579212572_2_alg».proof.Proof.Gen.Kernel.Skeleton
import proofs.«145590_j23742579212572_2_alg».proof.Proof.Gen.Kernel.Points
import proofs.«145590_j23742579212572_2_alg».proof.Proof.Gen.Kernel.Regions
import proofs.«145590_j23742579212572_2_alg».proof.Proof.K.Lin
import proofs.«145590_j23742579212572_2_alg».proof.Proof.K.R3
import proofs.«145590_j23742579212572_2_alg».proof.Proof.K.R4
import proofs.«145590_j23742579212572_2_alg».proof.Proof.K.R5
import proofs.«145590_j23742579212572_2_alg».proof.Proof.K.R6
import proofs.«145590_j23742579212572_2_alg».proof.Proof.K.R7
import proofs.«145590_j23742579212572_2_alg».proof.Proof.K.R8
import proofs.«145590_j23742579212572_2_alg».proof.Proof.K.R9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: sixteen items from the launch to the return

@main is six stretches of host operations and ten kernel regions. This module names what every unscoped buffer of a
core holds at each of the seventeen boundaries between items (`W0` at launch … `W16` at the return): a host stretch
takes the contents to what its operations compute from them; a region leaves each of its arrays at what its pipeline's
write-backs fold to and every other buffer as it was. From that: every region's proof data at its entry contents, each
region as a segment between two boundaries, @main as the list of the sixteen segments, and the run — every weakly fair
execution from any memory with zero counters terminates without fault and ends with every unscoped buffer at `W16`;
in particular the twelve argument arrays, which nothing writes, end as launched. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => m (c, b)

/-- After the host stretch `hostOps0` (item 0). -/
abbrev W1 : Dev nD → Valuation τ sig (Elt F) := fun c => StableHlo.after hostOps0 (W0 m c)
/-- The stretch leaves every buffer it does not write as it was. -/
theorem W1_keep (c : Dev nD) (r : Ref sig .tc) (h : r ∉ hostOps0_W) :
    W1 m c (Proc.devRef .tc r) = W0 m c (Proc.devRef .tc r) :=
  StableHlo.after_of_writes_sub hostOps0 _ hostOps0_writes h

/-- Boundary 1 read at the TensorCore's references (what a region's proof data take). -/
abbrev Vt1 : (c : Dev nD) → (b : Ref sig .tc) → Buf (Elt F) ((c : Thread nD τ).loc b) := fun c b => W1 m c b
/-- At region 0's exit (item 1): its arrays at what the pipeline leaves (the inputs as entered, the result's
    write-backs folded), every other buffer as entered. -/
def W2 (c : Dev nD) : Valuation τ sig (Elt F) :=
  Pipeline.withArrays spec0 c (W1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- Boundary 2 read at the TensorCore's references (what a region's proof data take). -/
abbrev Vt2 : (c : Dev nD) → (b : Ref sig .tc) → Buf (Elt F) ((c : Thread nD τ).loc b) := fun c b => W2 m c b
/-- At region 0's exit each of its arrays holds what the pipeline leaves and every other buffer what it held at entry. -/
theorem hF0 (c : Dev nD) (w : Fin cfg0.W) : (dat0 (Vt1 m) c).arrAt w cfg0.N = Vt2 m c (Pipeline.arrRef spec0 w) :=
  (W2_arr m c w).symm
theorem hrest0 (c : Dev nD) : ∀ b, b ∉ Finset.univ.image (Pipeline.arrRef spec0) → Vt2 m c b = Vt1 m c b :=
  fun b hb => W2_of_ne m c b fun w e => hb (Finset.mem_image.mpr ⟨w, Finset.mem_univ _, e⟩)
/-- Every window of region 0 other than the result's is an input. -/
theorem inputs0 : ∀ w : Fin cfg0.W, Pipeline.arrRef spec0 w ≠ main_v5 → (cfg0.win w).isOut = false := by decide
/-- Region 0 changes `main_v5` only: an input's array is folded over no write-back, any other buffer is not its. -/
theorem W2_keep (c : Dev nD) (b : Ref sig .tc) (hb : b ≠ main_v5) :
    W2 m c (Proc.devRef .tc b) = W1 m c (Proc.devRef .tc b) := by
  by_cases h : ∀ w, Pipeline.arrRef spec0 w ≠ b
  · exact W2_of_ne m c b h
  · obtain ⟨w, rfl⟩ : ∃ w, Pipeline.arrRef spec0 w = b := by
      by_contra hne; exact h fun w e => hne ⟨w, e⟩
    exact (W2_arr m c w).trans (((dat0 (Vt1 m) c).arrAt_in w (inputs0 w hb) _).trans (A_eq0 (Vt1 m) c w))

/-- After the host stretch `hostOps1` (item 2). -/
abbrev W3 : Dev nD → Valuation τ sig (Elt F) := fun c => StableHlo.after hostOps1 (W2 m c)
/-- The stretch leaves every buffer it does not write as it was. -/
theorem W3_keep (c : Dev nD) (r : Ref sig .tc) (h : r ∉ hostOps1_W) :
    W3 m c (Proc.devRef .tc r) = W2 m c (Proc.devRef .tc r) :=
  StableHlo.after_of_writes_sub hostOps1 _ hostOps1_writes h

/-- Boundary 3 read at the TensorCore's references (what a region's proof data take). -/
abbrev Vt3 : (c : Dev nD) → (b : Ref sig .tc) → Buf (Elt F) ((c : Thread nD τ).loc b) := fun c b => W3 m c b
/-- At region 1's exit (item 3): its arrays at what the pipeline leaves (the inputs as entered, the result's
    write-backs folded), every other buffer as entered. -/
def W4 (c : Dev nD) : Valuation τ sig (Elt F) :=
  Pipeline.withArrays spec1 c (W3 m c) fun w => (dat1 (Vt3 m) c).arrAt w cfg1.N
theorem W4_arr (c : Dev nD) (w : Fin cfg1.W) :
    W4 m c (Proc.devRef .tc (Pipeline.arrRef spec1 w)) = (dat1 (Vt3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- Boundary 4 read at the TensorCore's references (what a region's proof data take). -/
abbrev Vt4 : (c : Dev nD) → (b : Ref sig .tc) → Buf (Elt F) ((c : Thread nD τ).loc b) := fun c b => W4 m c b
/-- At region 1's exit each of its arrays holds what the pipeline leaves and every other buffer what it held at entry. -/
theorem hF1 (c : Dev nD) (w : Fin cfg1.W) : (dat1 (Vt3 m) c).arrAt w cfg1.N = Vt4 m c (Pipeline.arrRef spec1 w) :=
  (W4_arr m c w).symm
theorem hrest1 (c : Dev nD) : ∀ b, b ∉ Finset.univ.image (Pipeline.arrRef spec1) → Vt4 m c b = Vt3 m c b :=
  fun b hb => W4_of_ne m c b fun w e => hb (Finset.mem_image.mpr ⟨w, Finset.mem_univ _, e⟩)
/-- Every window of region 1 other than the result's is an input. -/
theorem inputs1 : ∀ w : Fin cfg1.W, Pipeline.arrRef spec1 w ≠ main_v7 → (cfg1.win w).isOut = false := by decide
/-- Region 1 changes `main_v7` only: an input's array is folded over no write-back, any other buffer is not its. -/
theorem W4_keep (c : Dev nD) (b : Ref sig .tc) (hb : b ≠ main_v7) :
    W4 m c (Proc.devRef .tc b) = W3 m c (Proc.devRef .tc b) := by
  by_cases h : ∀ w, Pipeline.arrRef spec1 w ≠ b
  · exact W4_of_ne m c b h
  · obtain ⟨w, rfl⟩ : ∃ w, Pipeline.arrRef spec1 w = b := by
      by_contra hne; exact h fun w e => hne ⟨w, e⟩
    exact (W4_arr m c w).trans (((dat1 (Vt3 m) c).arrAt_in w (inputs1 w hb) _).trans (A_eq1 (Vt3 m) c w))

/-- After the host stretch `hostOps2` (item 4). -/
abbrev W5 : Dev nD → Valuation τ sig (Elt F) := fun c => StableHlo.after hostOps2 (W4 m c)
/-- The stretch leaves every buffer it does not write as it was. -/
theorem W5_keep (c : Dev nD) (r : Ref sig .tc) (h : r ∉ hostOps2_W) :
    W5 m c (Proc.devRef .tc r) = W4 m c (Proc.devRef .tc r) :=
  StableHlo.after_of_writes_sub hostOps2 _ hostOps2_writes h

/-- Boundary 5 read at the TensorCore's references (what a region's proof data take). -/
abbrev Vt5 : (c : Dev nD) → (b : Ref sig .tc) → Buf (Elt F) ((c : Thread nD τ).loc b) := fun c b => W5 m c b
/-- At region 2's exit (item 5): its arrays at what the pipeline leaves (the inputs as entered, the result's
    write-backs folded), every other buffer as entered. -/
def W6 (c : Dev nD) : Valuation τ sig (Elt F) :=
  Pipeline.withArrays spec2 c (W5 m c) fun w => (dat2 (Vt5 m) c).arrAt w cfg2.N
theorem W6_arr (c : Dev nD) (w : Fin cfg2.W) :
    W6 m c (Proc.devRef .tc (Pipeline.arrRef spec2 w)) = (dat2 (Vt5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- Boundary 6 read at the TensorCore's references (what a region's proof data take). -/
abbrev Vt6 : (c : Dev nD) → (b : Ref sig .tc) → Buf (Elt F) ((c : Thread nD τ).loc b) := fun c b => W6 m c b
/-- At region 2's exit each of its arrays holds what the pipeline leaves and every other buffer what it held at entry. -/
theorem hF2 (c : Dev nD) (w : Fin cfg2.W) : (dat2 (Vt5 m) c).arrAt w cfg2.N = Vt6 m c (Pipeline.arrRef spec2 w) :=
  (W6_arr m c w).symm
theorem hrest2 (c : Dev nD) : ∀ b, b ∉ Finset.univ.image (Pipeline.arrRef spec2) → Vt6 m c b = Vt5 m c b :=
  fun b hb => W6_of_ne m c b fun w e => hb (Finset.mem_image.mpr ⟨w, Finset.mem_univ _, e⟩)
/-- Every window of region 2 other than the result's is an input. -/
theorem inputs2 : ∀ w : Fin cfg2.W, Pipeline.arrRef spec2 w ≠ main_v9 → (cfg2.win w).isOut = false := by decide
/-- Region 2 changes `main_v9` only: an input's array is folded over no write-back, any other buffer is not its. -/
theorem W6_keep (c : Dev nD) (b : Ref sig .tc) (hb : b ≠ main_v9) :
    W6 m c (Proc.devRef .tc b) = W5 m c (Proc.devRef .tc b) := by
  by_cases h : ∀ w, Pipeline.arrRef spec2 w ≠ b
  · exact W6_of_ne m c b h
  · obtain ⟨w, rfl⟩ : ∃ w, Pipeline.arrRef spec2 w = b := by
      by_contra hne; exact h fun w e => hne ⟨w, e⟩
    exact (W6_arr m c w).trans (((dat2 (Vt5 m) c).arrAt_in w (inputs2 w hb) _).trans (A_eq2 (Vt5 m) c w))
/-- At region 3's exit (item 6): its arrays at what the pipeline leaves (the inputs as entered, the result's
    write-backs folded), every other buffer as entered. -/
def W7 (c : Dev nD) : Valuation τ sig (Elt F) :=
  Pipeline.withArrays spec3 c (W6 m c) fun w => (dat3 (Vt6 m) c).arrAt w cfg3.N
theorem W7_arr (c : Dev nD) (w : Fin cfg3.W) :
    W7 m c (Proc.devRef .tc (Pipeline.arrRef spec3 w)) = (dat3 (Vt6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- Boundary 7 read at the TensorCore's references (what a region's proof data take). -/
abbrev Vt7 : (c : Dev nD) → (b : Ref sig .tc) → Buf (Elt F) ((c : Thread nD τ).loc b) := fun c b => W7 m c b
/-- At region 3's exit each of its arrays holds what the pipeline leaves and every other buffer what it held at entry. -/
theorem hF3 (c : Dev nD) (w : Fin cfg3.W) : (dat3 (Vt6 m) c).arrAt w cfg3.N = Vt7 m c (Pipeline.arrRef spec3 w) :=
  (W7_arr m c w).symm
theorem hrest3 (c : Dev nD) : ∀ b, b ∉ Finset.univ.image (Pipeline.arrRef spec3) → Vt7 m c b = Vt6 m c b :=
  fun b hb => W7_of_ne m c b fun w e => hb (Finset.mem_image.mpr ⟨w, Finset.mem_univ _, e⟩)
/-- Every window of region 3 other than the result's is an input. -/
theorem inputs3 : ∀ w : Fin cfg3.W, Pipeline.arrRef spec3 w ≠ main_v10 → (cfg3.win w).isOut = false := by decide
/-- Region 3 changes `main_v10` only: an input's array is folded over no write-back, any other buffer is not its. -/
theorem W7_keep (c : Dev nD) (b : Ref sig .tc) (hb : b ≠ main_v10) :
    W7 m c (Proc.devRef .tc b) = W6 m c (Proc.devRef .tc b) := by
  by_cases h : ∀ w, Pipeline.arrRef spec3 w ≠ b
  · exact W7_of_ne m c b h
  · obtain ⟨w, rfl⟩ : ∃ w, Pipeline.arrRef spec3 w = b := by
      by_contra hne; exact h fun w e => hne ⟨w, e⟩
    exact (W7_arr m c w).trans (((dat3 (Vt6 m) c).arrAt_in w (inputs3 w hb) _).trans (A_eq3 (Vt6 m) c w))

/-- After the host stretch `hostOps4` (item 7). -/
abbrev W8 : Dev nD → Valuation τ sig (Elt F) := fun c => StableHlo.after hostOps4 (W7 m c)
/-- The stretch leaves every buffer it does not write as it was. -/
theorem W8_keep (c : Dev nD) (r : Ref sig .tc) (h : r ∉ hostOps4_W) :
    W8 m c (Proc.devRef .tc r) = W7 m c (Proc.devRef .tc r) :=
  StableHlo.after_of_writes_sub hostOps4 _ hostOps4_writes h

/-- Boundary 8 read at the TensorCore's references (what a region's proof data take). -/
abbrev Vt8 : (c : Dev nD) → (b : Ref sig .tc) → Buf (Elt F) ((c : Thread nD τ).loc b) := fun c b => W8 m c b
/-- At region 4's exit (item 8): its arrays at what the pipeline leaves (the inputs as entered, the result's
    write-backs folded), every other buffer as entered. -/
def W9 (c : Dev nD) : Valuation τ sig (Elt F) :=
  Pipeline.withArrays spec4 c (W8 m c) fun w => (dat4 (Vt8 m) c).arrAt w cfg4.N
theorem W9_arr (c : Dev nD) (w : Fin cfg4.W) :
    W9 m c (Proc.devRef .tc (Pipeline.arrRef spec4 w)) = (dat4 (Vt8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
/-- Boundary 9 read at the TensorCore's references (what a region's proof data take). -/
abbrev Vt9 : (c : Dev nD) → (b : Ref sig .tc) → Buf (Elt F) ((c : Thread nD τ).loc b) := fun c b => W9 m c b
/-- At region 4's exit each of its arrays holds what the pipeline leaves and every other buffer what it held at entry. -/
theorem hF4 (c : Dev nD) (w : Fin cfg4.W) : (dat4 (Vt8 m) c).arrAt w cfg4.N = Vt9 m c (Pipeline.arrRef spec4 w) :=
  (W9_arr m c w).symm
theorem hrest4 (c : Dev nD) : ∀ b, b ∉ Finset.univ.image (Pipeline.arrRef spec4) → Vt9 m c b = Vt8 m c b :=
  fun b hb => W9_of_ne m c b fun w e => hb (Finset.mem_image.mpr ⟨w, Finset.mem_univ _, e⟩)
/-- Every window of region 4 other than the result's is an input. -/
theorem inputs4 : ∀ w : Fin cfg4.W, Pipeline.arrRef spec4 w ≠ main_v12 → (cfg4.win w).isOut = false := by decide
/-- Region 4 changes `main_v12` only: an input's array is folded over no write-back, any other buffer is not its. -/
theorem W9_keep (c : Dev nD) (b : Ref sig .tc) (hb : b ≠ main_v12) :
    W9 m c (Proc.devRef .tc b) = W8 m c (Proc.devRef .tc b) := by
  by_cases h : ∀ w, Pipeline.arrRef spec4 w ≠ b
  · exact W9_of_ne m c b h
  · obtain ⟨w, rfl⟩ : ∃ w, Pipeline.arrRef spec4 w = b := by
      by_contra hne; exact h fun w e => hne ⟨w, e⟩
    exact (W9_arr m c w).trans (((dat4 (Vt8 m) c).arrAt_in w (inputs4 w hb) _).trans (A_eq4 (Vt8 m) c w))
/-- At region 5's exit (item 9): its arrays at what the pipeline leaves (the inputs as entered, the result's
    write-backs folded), every other buffer as entered. -/
def W10 (c : Dev nD) : Valuation τ sig (Elt F) :=
  Pipeline.withArrays spec5 c (W9 m c) fun w => (dat5 (Vt9 m) c).arrAt w cfg5.N
theorem W10_arr (c : Dev nD) (w : Fin cfg5.W) :
    W10 m c (Proc.devRef .tc (Pipeline.arrRef spec5 w)) = (dat5 (Vt9 m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
/-- Boundary 10 read at the TensorCore's references (what a region's proof data take). -/
abbrev Vt10 : (c : Dev nD) → (b : Ref sig .tc) → Buf (Elt F) ((c : Thread nD τ).loc b) := fun c b => W10 m c b
/-- At region 5's exit each of its arrays holds what the pipeline leaves and every other buffer what it held at entry. -/
theorem hF5 (c : Dev nD) (w : Fin cfg5.W) : (dat5 (Vt9 m) c).arrAt w cfg5.N = Vt10 m c (Pipeline.arrRef spec5 w) :=
  (W10_arr m c w).symm
theorem hrest5 (c : Dev nD) : ∀ b, b ∉ Finset.univ.image (Pipeline.arrRef spec5) → Vt10 m c b = Vt9 m c b :=
  fun b hb => W10_of_ne m c b fun w e => hb (Finset.mem_image.mpr ⟨w, Finset.mem_univ _, e⟩)
/-- Every window of region 5 other than the result's is an input. -/
theorem inputs5 : ∀ w : Fin cfg5.W, Pipeline.arrRef spec5 w ≠ main_v13 → (cfg5.win w).isOut = false := by decide
/-- Region 5 changes `main_v13` only: an input's array is folded over no write-back, any other buffer is not its. -/
theorem W10_keep (c : Dev nD) (b : Ref sig .tc) (hb : b ≠ main_v13) :
    W10 m c (Proc.devRef .tc b) = W9 m c (Proc.devRef .tc b) := by
  by_cases h : ∀ w, Pipeline.arrRef spec5 w ≠ b
  · exact W10_of_ne m c b h
  · obtain ⟨w, rfl⟩ : ∃ w, Pipeline.arrRef spec5 w = b := by
      by_contra hne; exact h fun w e => hne ⟨w, e⟩
    exact (W10_arr m c w).trans (((dat5 (Vt9 m) c).arrAt_in w (inputs5 w hb) _).trans (A_eq5 (Vt9 m) c w))
/-- At region 6's exit (item 10): its arrays at what the pipeline leaves (the inputs as entered, the result's
    write-backs folded), every other buffer as entered. -/
def W11 (c : Dev nD) : Valuation τ sig (Elt F) :=
  Pipeline.withArrays spec6 c (W10 m c) fun w => (dat6 (Vt10 m) c).arrAt w cfg6.N
theorem W11_arr (c : Dev nD) (w : Fin cfg6.W) :
    W11 m c (Proc.devRef .tc (Pipeline.arrRef spec6 w)) = (dat6 (Vt10 m) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m c (Proc.devRef .tc b) = W10 m c (Proc.devRef .tc b) := by
  unfold W11; exact Pipeline.withArrays_of_ne spec6 c _ _ b hb
/-- Boundary 11 read at the TensorCore's references (what a region's proof data take). -/
abbrev Vt11 : (c : Dev nD) → (b : Ref sig .tc) → Buf (Elt F) ((c : Thread nD τ).loc b) := fun c b => W11 m c b
/-- At region 6's exit each of its arrays holds what the pipeline leaves and every other buffer what it held at entry. -/
theorem hF6 (c : Dev nD) (w : Fin cfg6.W) : (dat6 (Vt10 m) c).arrAt w cfg6.N = Vt11 m c (Pipeline.arrRef spec6 w) :=
  (W11_arr m c w).symm
theorem hrest6 (c : Dev nD) : ∀ b, b ∉ Finset.univ.image (Pipeline.arrRef spec6) → Vt11 m c b = Vt10 m c b :=
  fun b hb => W11_of_ne m c b fun w e => hb (Finset.mem_image.mpr ⟨w, Finset.mem_univ _, e⟩)
/-- Every window of region 6 other than the result's is an input. -/
theorem inputs6 : ∀ w : Fin cfg6.W, Pipeline.arrRef spec6 w ≠ main_v14 → (cfg6.win w).isOut = false := by decide
/-- Region 6 changes `main_v14` only: an input's array is folded over no write-back, any other buffer is not its. -/
theorem W11_keep (c : Dev nD) (b : Ref sig .tc) (hb : b ≠ main_v14) :
    W11 m c (Proc.devRef .tc b) = W10 m c (Proc.devRef .tc b) := by
  by_cases h : ∀ w, Pipeline.arrRef spec6 w ≠ b
  · exact W11_of_ne m c b h
  · obtain ⟨w, rfl⟩ : ∃ w, Pipeline.arrRef spec6 w = b := by
      by_contra hne; exact h fun w e => hne ⟨w, e⟩
    exact (W11_arr m c w).trans (((dat6 (Vt10 m) c).arrAt_in w (inputs6 w hb) _).trans (A_eq6 (Vt10 m) c w))
/-- At region 7's exit (item 11): its arrays at what the pipeline leaves (the inputs as entered, the result's
    write-backs folded), every other buffer as entered. -/
def W12 (c : Dev nD) : Valuation τ sig (Elt F) :=
  Pipeline.withArrays spec7 c (W11 m c) fun w => (dat7 (Vt11 m) c).arrAt w cfg7.N
theorem W12_arr (c : Dev nD) (w : Fin cfg7.W) :
    W12 m c (Proc.devRef .tc (Pipeline.arrRef spec7 w)) = (dat7 (Vt11 m) c).arrAt w cfg7.N := by
  unfold W12; exact Pipeline.withArrays_arr spec7 launch7.win.arr_inj c _ _ w
theorem W12_of_ne (c : Dev nD) (b : Ref sig .tc) (hb : ∀ w, Pipeline.arrRef spec7 w ≠ b) :
    W12 m c (Proc.devRef .tc b) = W11 m c (Proc.devRef .tc b) := by
  unfold W12; exact Pipeline.withArrays_of_ne spec7 c _ _ b hb
/-- Boundary 12 read at the TensorCore's references (what a region's proof data take). -/
abbrev Vt12 : (c : Dev nD) → (b : Ref sig .tc) → Buf (Elt F) ((c : Thread nD τ).loc b) := fun c b => W12 m c b
/-- At region 7's exit each of its arrays holds what the pipeline leaves and every other buffer what it held at entry. -/
theorem hF7 (c : Dev nD) (w : Fin cfg7.W) : (dat7 (Vt11 m) c).arrAt w cfg7.N = Vt12 m c (Pipeline.arrRef spec7 w) :=
  (W12_arr m c w).symm
theorem hrest7 (c : Dev nD) : ∀ b, b ∉ Finset.univ.image (Pipeline.arrRef spec7) → Vt12 m c b = Vt11 m c b :=
  fun b hb => W12_of_ne m c b fun w e => hb (Finset.mem_image.mpr ⟨w, Finset.mem_univ _, e⟩)
/-- Every window of region 7 other than the result's is an input. -/
theorem inputs7 : ∀ w : Fin cfg7.W, Pipeline.arrRef spec7 w ≠ main_v15 → (cfg7.win w).isOut = false := by decide
/-- Region 7 changes `main_v15` only: an input's array is folded over no write-back, any other buffer is not its. -/
theorem W12_keep (c : Dev nD) (b : Ref sig .tc) (hb : b ≠ main_v15) :
    W12 m c (Proc.devRef .tc b) = W11 m c (Proc.devRef .tc b) := by
  by_cases h : ∀ w, Pipeline.arrRef spec7 w ≠ b
  · exact W12_of_ne m c b h
  · obtain ⟨w, rfl⟩ : ∃ w, Pipeline.arrRef spec7 w = b := by
      by_contra hne; exact h fun w e => hne ⟨w, e⟩
    exact (W12_arr m c w).trans (((dat7 (Vt11 m) c).arrAt_in w (inputs7 w hb) _).trans (A_eq7 (Vt11 m) c w))

/-- After the host stretch `hostOps8` (item 12). -/
abbrev W13 : Dev nD → Valuation τ sig (Elt F) := fun c => StableHlo.after hostOps8 (W12 m c)
/-- The stretch leaves every buffer it does not write as it was. -/
theorem W13_keep (c : Dev nD) (r : Ref sig .tc) (h : r ∉ hostOps8_W) :
    W13 m c (Proc.devRef .tc r) = W12 m c (Proc.devRef .tc r) :=
  StableHlo.after_of_writes_sub hostOps8 _ hostOps8_writes h

/-- Boundary 13 read at the TensorCore's references (what a region's proof data take). -/
abbrev Vt13 : (c : Dev nD) → (b : Ref sig .tc) → Buf (Elt F) ((c : Thread nD τ).loc b) := fun c b => W13 m c b
/-- At region 8's exit (item 13): its arrays at what the pipeline leaves (the inputs as entered, the result's
    write-backs folded), every other buffer as entered. -/
def W14 (c : Dev nD) : Valuation τ sig (Elt F) :=
  Pipeline.withArrays spec8 c (W13 m c) fun w => (dat8 (Vt13 m) c).arrAt w cfg8.N
theorem W14_arr (c : Dev nD) (w : Fin cfg8.W) :
    W14 m c (Proc.devRef .tc (Pipeline.arrRef spec8 w)) = (dat8 (Vt13 m) c).arrAt w cfg8.N := by
  unfold W14; exact Pipeline.withArrays_arr spec8 launch8.win.arr_inj c _ _ w
theorem W14_of_ne (c : Dev nD) (b : Ref sig .tc) (hb : ∀ w, Pipeline.arrRef spec8 w ≠ b) :
    W14 m c (Proc.devRef .tc b) = W13 m c (Proc.devRef .tc b) := by
  unfold W14; exact Pipeline.withArrays_of_ne spec8 c _ _ b hb
/-- Boundary 14 read at the TensorCore's references (what a region's proof data take). -/
abbrev Vt14 : (c : Dev nD) → (b : Ref sig .tc) → Buf (Elt F) ((c : Thread nD τ).loc b) := fun c b => W14 m c b
/-- At region 8's exit each of its arrays holds what the pipeline leaves and every other buffer what it held at entry. -/
theorem hF8 (c : Dev nD) (w : Fin cfg8.W) : (dat8 (Vt13 m) c).arrAt w cfg8.N = Vt14 m c (Pipeline.arrRef spec8 w) :=
  (W14_arr m c w).symm
theorem hrest8 (c : Dev nD) : ∀ b, b ∉ Finset.univ.image (Pipeline.arrRef spec8) → Vt14 m c b = Vt13 m c b :=
  fun b hb => W14_of_ne m c b fun w e => hb (Finset.mem_image.mpr ⟨w, Finset.mem_univ _, e⟩)
/-- Every window of region 8 other than the result's is an input. -/
theorem inputs8 : ∀ w : Fin cfg8.W, Pipeline.arrRef spec8 w ≠ main_v22 → (cfg8.win w).isOut = false := by decide
/-- Region 8 changes `main_v22` only: an input's array is folded over no write-back, any other buffer is not its. -/
theorem W14_keep (c : Dev nD) (b : Ref sig .tc) (hb : b ≠ main_v22) :
    W14 m c (Proc.devRef .tc b) = W13 m c (Proc.devRef .tc b) := by
  by_cases h : ∀ w, Pipeline.arrRef spec8 w ≠ b
  · exact W14_of_ne m c b h
  · obtain ⟨w, rfl⟩ : ∃ w, Pipeline.arrRef spec8 w = b := by
      by_contra hne; exact h fun w e => hne ⟨w, e⟩
    exact (W14_arr m c w).trans (((dat8 (Vt13 m) c).arrAt_in w (inputs8 w hb) _).trans (A_eq8 (Vt13 m) c w))
/-- At region 9's exit (item 14): its arrays at what the pipeline leaves (the inputs as entered, the result's
    write-backs folded), every other buffer as entered. -/
def W15 (c : Dev nD) : Valuation τ sig (Elt F) :=
  Pipeline.withArrays spec9 c (W14 m c) fun w => (dat9 (Vt14 m) c).arrAt w cfg9.N
theorem W15_arr (c : Dev nD) (w : Fin cfg9.W) :
    W15 m c (Proc.devRef .tc (Pipeline.arrRef spec9 w)) = (dat9 (Vt14 m) c).arrAt w cfg9.N := by
  unfold W15; exact Pipeline.withArrays_arr spec9 launch9.win.arr_inj c _ _ w
theorem W15_of_ne (c : Dev nD) (b : Ref sig .tc) (hb : ∀ w, Pipeline.arrRef spec9 w ≠ b) :
    W15 m c (Proc.devRef .tc b) = W14 m c (Proc.devRef .tc b) := by
  unfold W15; exact Pipeline.withArrays_of_ne spec9 c _ _ b hb
/-- Boundary 15 read at the TensorCore's references (what a region's proof data take). -/
abbrev Vt15 : (c : Dev nD) → (b : Ref sig .tc) → Buf (Elt F) ((c : Thread nD τ).loc b) := fun c b => W15 m c b
/-- At region 9's exit each of its arrays holds what the pipeline leaves and every other buffer what it held at entry. -/
theorem hF9 (c : Dev nD) (w : Fin cfg9.W) : (dat9 (Vt14 m) c).arrAt w cfg9.N = Vt15 m c (Pipeline.arrRef spec9 w) :=
  (W15_arr m c w).symm
theorem hrest9 (c : Dev nD) : ∀ b, b ∉ Finset.univ.image (Pipeline.arrRef spec9) → Vt15 m c b = Vt14 m c b :=
  fun b hb => W15_of_ne m c b fun w e => hb (Finset.mem_image.mpr ⟨w, Finset.mem_univ _, e⟩)
/-- Every window of region 9 other than the result's is an input. -/
theorem inputs9 : ∀ w : Fin cfg9.W, Pipeline.arrRef spec9 w ≠ main_v23 → (cfg9.win w).isOut = false := by decide
/-- Region 9 changes `main_v23` only: an input's array is folded over no write-back, any other buffer is not its. -/
theorem W15_keep (c : Dev nD) (b : Ref sig .tc) (hb : b ≠ main_v23) :
    W15 m c (Proc.devRef .tc b) = W14 m c (Proc.devRef .tc b) := by
  by_cases h : ∀ w, Pipeline.arrRef spec9 w ≠ b
  · exact W15_of_ne m c b h
  · obtain ⟨w, rfl⟩ : ∃ w, Pipeline.arrRef spec9 w = b := by
      by_contra hne; exact h fun w e => hne ⟨w, e⟩
    exact (W15_arr m c w).trans (((dat9 (Vt14 m) c).arrAt_in w (inputs9 w hb) _).trans (A_eq9 (Vt14 m) c w))

/-- After the host stretch `hostOps10` (item 15). -/
abbrev W16 : Dev nD → Valuation τ sig (Elt F) := fun c => StableHlo.after hostOps10 (W15 m c)
/-- The stretch leaves every buffer it does not write as it was. -/
theorem W16_keep (c : Dev nD) (r : Ref sig .tc) (h : r ∉ hostOps10_W) :
    W16 m c (Proc.devRef .tc r) = W15 m c (Proc.devRef .tc r) :=
  StableHlo.after_of_writes_sub hostOps10 _ hostOps10_writes h

/-! ### The arguments end as launched: no host operation writes one and no region has one as its result -/

theorem W16_main_arg0 (c : Dev nD) : W16 m c (Proc.devRef .tc main_arg0) = m ((c : Thread nD τ).loc main_arg0) :=
  (W16_keep m c main_arg0 (by decide)).trans <| (W15_keep m c main_arg0 (by decide)).trans <| (W14_keep m c main_arg0 (by decide)).trans <| (W13_keep m c main_arg0 (by decide)).trans <| (W12_keep m c main_arg0 (by decide)).trans <| (W11_keep m c main_arg0 (by decide)).trans <| (W10_keep m c main_arg0 (by decide)).trans <| (W9_keep m c main_arg0 (by decide)).trans <| (W8_keep m c main_arg0 (by decide)).trans <| (W7_keep m c main_arg0 (by decide)).trans <| (W6_keep m c main_arg0 (by decide)).trans <| (W5_keep m c main_arg0 (by decide)).trans <| (W4_keep m c main_arg0 (by decide)).trans <| (W3_keep m c main_arg0 (by decide)).trans <| (W2_keep m c main_arg0 (by decide)).trans <| (W1_keep m c main_arg0 (by decide)).trans <| rfl

theorem W16_main_arg1 (c : Dev nD) : W16 m c (Proc.devRef .tc main_arg1) = m ((c : Thread nD τ).loc main_arg1) :=
  (W16_keep m c main_arg1 (by decide)).trans <| (W15_keep m c main_arg1 (by decide)).trans <| (W14_keep m c main_arg1 (by decide)).trans <| (W13_keep m c main_arg1 (by decide)).trans <| (W12_keep m c main_arg1 (by decide)).trans <| (W11_keep m c main_arg1 (by decide)).trans <| (W10_keep m c main_arg1 (by decide)).trans <| (W9_keep m c main_arg1 (by decide)).trans <| (W8_keep m c main_arg1 (by decide)).trans <| (W7_keep m c main_arg1 (by decide)).trans <| (W6_keep m c main_arg1 (by decide)).trans <| (W5_keep m c main_arg1 (by decide)).trans <| (W4_keep m c main_arg1 (by decide)).trans <| (W3_keep m c main_arg1 (by decide)).trans <| (W2_keep m c main_arg1 (by decide)).trans <| (W1_keep m c main_arg1 (by decide)).trans <| rfl

theorem W16_main_arg2 (c : Dev nD) : W16 m c (Proc.devRef .tc main_arg2) = m ((c : Thread nD τ).loc main_arg2) :=
  (W16_keep m c main_arg2 (by decide)).trans <| (W15_keep m c main_arg2 (by decide)).trans <| (W14_keep m c main_arg2 (by decide)).trans <| (W13_keep m c main_arg2 (by decide)).trans <| (W12_keep m c main_arg2 (by decide)).trans <| (W11_keep m c main_arg2 (by decide)).trans <| (W10_keep m c main_arg2 (by decide)).trans <| (W9_keep m c main_arg2 (by decide)).trans <| (W8_keep m c main_arg2 (by decide)).trans <| (W7_keep m c main_arg2 (by decide)).trans <| (W6_keep m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide)).trans <| rfl

theorem W16_main_arg3 (c : Dev nD) : W16 m c (Proc.devRef .tc main_arg3) = m ((c : Thread nD τ).loc main_arg3) :=
  (W16_keep m c main_arg3 (by decide)).trans <| (W15_keep m c main_arg3 (by decide)).trans <| (W14_keep m c main_arg3 (by decide)).trans <| (W13_keep m c main_arg3 (by decide)).trans <| (W12_keep m c main_arg3 (by decide)).trans <| (W11_keep m c main_arg3 (by decide)).trans <| (W10_keep m c main_arg3 (by decide)).trans <| (W9_keep m c main_arg3 (by decide)).trans <| (W8_keep m c main_arg3 (by decide)).trans <| (W7_keep m c main_arg3 (by decide)).trans <| (W6_keep m c main_arg3 (by decide)).trans <| (W5_keep m c main_arg3 (by decide)).trans <| (W4_keep m c main_arg3 (by decide)).trans <| (W3_keep m c main_arg3 (by decide)).trans <| (W2_keep m c main_arg3 (by decide)).trans <| (W1_keep m c main_arg3 (by decide)).trans <| rfl

theorem W16_main_arg4 (c : Dev nD) : W16 m c (Proc.devRef .tc main_arg4) = m ((c : Thread nD τ).loc main_arg4) :=
  (W16_keep m c main_arg4 (by decide)).trans <| (W15_keep m c main_arg4 (by decide)).trans <| (W14_keep m c main_arg4 (by decide)).trans <| (W13_keep m c main_arg4 (by decide)).trans <| (W12_keep m c main_arg4 (by decide)).trans <| (W11_keep m c main_arg4 (by decide)).trans <| (W10_keep m c main_arg4 (by decide)).trans <| (W9_keep m c main_arg4 (by decide)).trans <| (W8_keep m c main_arg4 (by decide)).trans <| (W7_keep m c main_arg4 (by decide)).trans <| (W6_keep m c main_arg4 (by decide)).trans <| (W5_keep m c main_arg4 (by decide)).trans <| (W4_keep m c main_arg4 (by decide)).trans <| (W3_keep m c main_arg4 (by decide)).trans <| (W2_keep m c main_arg4 (by decide)).trans <| (W1_keep m c main_arg4 (by decide)).trans <| rfl

theorem W16_main_arg5 (c : Dev nD) : W16 m c (Proc.devRef .tc main_arg5) = m ((c : Thread nD τ).loc main_arg5) :=
  (W16_keep m c main_arg5 (by decide)).trans <| (W15_keep m c main_arg5 (by decide)).trans <| (W14_keep m c main_arg5 (by decide)).trans <| (W13_keep m c main_arg5 (by decide)).trans <| (W12_keep m c main_arg5 (by decide)).trans <| (W11_keep m c main_arg5 (by decide)).trans <| (W10_keep m c main_arg5 (by decide)).trans <| (W9_keep m c main_arg5 (by decide)).trans <| (W8_keep m c main_arg5 (by decide)).trans <| (W7_keep m c main_arg5 (by decide)).trans <| (W6_keep m c main_arg5 (by decide)).trans <| (W5_keep m c main_arg5 (by decide)).trans <| (W4_keep m c main_arg5 (by decide)).trans <| (W3_keep m c main_arg5 (by decide)).trans <| (W2_keep m c main_arg5 (by decide)).trans <| (W1_keep m c main_arg5 (by decide)).trans <| rfl

theorem W16_main_arg6 (c : Dev nD) : W16 m c (Proc.devRef .tc main_arg6) = m ((c : Thread nD τ).loc main_arg6) :=
  (W16_keep m c main_arg6 (by decide)).trans <| (W15_keep m c main_arg6 (by decide)).trans <| (W14_keep m c main_arg6 (by decide)).trans <| (W13_keep m c main_arg6 (by decide)).trans <| (W12_keep m c main_arg6 (by decide)).trans <| (W11_keep m c main_arg6 (by decide)).trans <| (W10_keep m c main_arg6 (by decide)).trans <| (W9_keep m c main_arg6 (by decide)).trans <| (W8_keep m c main_arg6 (by decide)).trans <| (W7_keep m c main_arg6 (by decide)).trans <| (W6_keep m c main_arg6 (by decide)).trans <| (W5_keep m c main_arg6 (by decide)).trans <| (W4_keep m c main_arg6 (by decide)).trans <| (W3_keep m c main_arg6 (by decide)).trans <| (W2_keep m c main_arg6 (by decide)).trans <| (W1_keep m c main_arg6 (by decide)).trans <| rfl

theorem W16_main_arg7 (c : Dev nD) : W16 m c (Proc.devRef .tc main_arg7) = m ((c : Thread nD τ).loc main_arg7) :=
  (W16_keep m c main_arg7 (by decide)).trans <| (W15_keep m c main_arg7 (by decide)).trans <| (W14_keep m c main_arg7 (by decide)).trans <| (W13_keep m c main_arg7 (by decide)).trans <| (W12_keep m c main_arg7 (by decide)).trans <| (W11_keep m c main_arg7 (by decide)).trans <| (W10_keep m c main_arg7 (by decide)).trans <| (W9_keep m c main_arg7 (by decide)).trans <| (W8_keep m c main_arg7 (by decide)).trans <| (W7_keep m c main_arg7 (by decide)).trans <| (W6_keep m c main_arg7 (by decide)).trans <| (W5_keep m c main_arg7 (by decide)).trans <| (W4_keep m c main_arg7 (by decide)).trans <| (W3_keep m c main_arg7 (by decide)).trans <| (W2_keep m c main_arg7 (by decide)).trans <| (W1_keep m c main_arg7 (by decide)).trans <| rfl

theorem W16_main_arg8 (c : Dev nD) : W16 m c (Proc.devRef .tc main_arg8) = m ((c : Thread nD τ).loc main_arg8) :=
  (W16_keep m c main_arg8 (by decide)).trans <| (W15_keep m c main_arg8 (by decide)).trans <| (W14_keep m c main_arg8 (by decide)).trans <| (W13_keep m c main_arg8 (by decide)).trans <| (W12_keep m c main_arg8 (by decide)).trans <| (W11_keep m c main_arg8 (by decide)).trans <| (W10_keep m c main_arg8 (by decide)).trans <| (W9_keep m c main_arg8 (by decide)).trans <| (W8_keep m c main_arg8 (by decide)).trans <| (W7_keep m c main_arg8 (by decide)).trans <| (W6_keep m c main_arg8 (by decide)).trans <| (W5_keep m c main_arg8 (by decide)).trans <| (W4_keep m c main_arg8 (by decide)).trans <| (W3_keep m c main_arg8 (by decide)).trans <| (W2_keep m c main_arg8 (by decide)).trans <| (W1_keep m c main_arg8 (by decide)).trans <| rfl

theorem W16_main_arg9 (c : Dev nD) : W16 m c (Proc.devRef .tc main_arg9) = m ((c : Thread nD τ).loc main_arg9) :=
  (W16_keep m c main_arg9 (by decide)).trans <| (W15_keep m c main_arg9 (by decide)).trans <| (W14_keep m c main_arg9 (by decide)).trans <| (W13_keep m c main_arg9 (by decide)).trans <| (W12_keep m c main_arg9 (by decide)).trans <| (W11_keep m c main_arg9 (by decide)).trans <| (W10_keep m c main_arg9 (by decide)).trans <| (W9_keep m c main_arg9 (by decide)).trans <| (W8_keep m c main_arg9 (by decide)).trans <| (W7_keep m c main_arg9 (by decide)).trans <| (W6_keep m c main_arg9 (by decide)).trans <| (W5_keep m c main_arg9 (by decide)).trans <| (W4_keep m c main_arg9 (by decide)).trans <| (W3_keep m c main_arg9 (by decide)).trans <| (W2_keep m c main_arg9 (by decide)).trans <| (W1_keep m c main_arg9 (by decide)).trans <| rfl

theorem W16_main_arg10 (c : Dev nD) : W16 m c (Proc.devRef .tc main_arg10) = m ((c : Thread nD τ).loc main_arg10) :=
  (W16_keep m c main_arg10 (by decide)).trans <| (W15_keep m c main_arg10 (by decide)).trans <| (W14_keep m c main_arg10 (by decide)).trans <| (W13_keep m c main_arg10 (by decide)).trans <| (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)).trans <| rfl

theorem W16_main_arg11 (c : Dev nD) : W16 m c (Proc.devRef .tc main_arg11) = m ((c : Thread nD τ).loc main_arg11) :=
  (W16_keep m c main_arg11 (by decide)).trans <| (W15_keep m c main_arg11 (by decide)).trans <| (W14_keep m c main_arg11 (by decide)).trans <| (W13_keep m c main_arg11 (by decide)).trans <| (W12_keep m c main_arg11 (by decide)).trans <| (W11_keep m c main_arg11 (by decide)).trans <| (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)).trans <| rfl

/-! ## The proof data family and the thread state -/

/-- Every pipeline's proof data, each at its region's entry contents — a literal `match`, so that the pinned
    configuration at a numeral reduces to the printed one. -/
def pdats : (p : Fin 10) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt3 m) c
  | ⟨2, _⟩ => fun c => dat2 (Vt5 m) c
  | ⟨3, _⟩ => fun c => dat3 (Vt6 m) c
  | ⟨4, _⟩ => fun c => dat4 (Vt8 m) c
  | ⟨5, _⟩ => fun c => dat5 (Vt9 m) c
  | ⟨6, _⟩ => fun c => dat6 (Vt10 m) c
  | ⟨7, _⟩ => fun c => dat7 (Vt11 m) c
  | ⟨8, _⟩ => fun c => dat8 (Vt13 m) c
  | ⟨9, _⟩ => fun c => dat9 (Vt14 m) c
/-- No alternative bodies. -/
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every segment: the core's generator register at some state and its debts,
    at nothing. -/
abbrev ride (c : Dev nD) : sProp 𝕄 := iprop((∃ r, prngReg c r) ∗ ∃ W, owes (c : Thread nD τ) (0 : CellTallies nD τ sig Unit) W)
/-- A host stretch as a segment over the unscoped references from the contents `W`, `ride` riding along: its exit
    state is those references at what the operations compute from `W` — the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev lastState (c : Dev nD) : sProp 𝕄 := iprop(StableHlo.held (c : Thread nD τ) (Pipeline.ucRefs τ sig) (W16 m c) ∗ ∃ r, prngReg c r)

/-! ## The regions as segments -/

-- a library lemma stated over the pinned configuration unifies with the printed one only when unification may unfold
-- plain definitions in a metavariable's type
set_option backward.isDefEq.respectTransparency.types false in
/-- Region 0 (custom_call 0) over the thread state: entered from every unscoped buffer at `W1`, left at `W2`. Its arrays
    are split out of the unscoped buffers and put back at the exit contents; the generator register goes into the
    region's invariant and comes back; nothing is owed; the kernel has no semaphore of its own. -/
def reg0 : Pipeline.RegionSeg (pcfgs (F := F)) adm (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ noPairs noLevel 0 fun _ _ => rfl
  pre c := iprop(StableHlo.held (c : Thread nD τ) (Pipeline.ucRefs τ sig) (W1 m c) ∗ ride c)
  post c := iprop(StableHlo.held (c : Thread nD τ) (Pipeline.ucRefs τ sig) (W2 m c) ∗ ride c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 (custom_call 1) over the thread state: entered from every unscoped buffer at `W3`, left at `W4`. Its arrays
    are split out of the unscoped buffers and put back at the exit contents; the generator register goes into the
    region's invariant and comes back; nothing is owed; the kernel has no semaphore of its own. -/
def reg1 : Pipeline.RegionSeg (pcfgs (F := F)) adm (pdats m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (Vt3 m) c).loose
  hwaits := Pipeline.hwaits_of_owed_zero _ _ _ _ noPairs noLevel 1 fun _ _ => rfl
  pre c := iprop(StableHlo.held (c : Thread nD τ) (Pipeline.ucRefs τ sig) (W3 m c) ∗ ride c)
  post c := iprop(StableHlo.held (c : Thread nD τ) (Pipeline.ucRefs τ sig) (W4 m c) ∗ ride c)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt3 m c) (Vt4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 (custom_call 2) over the thread state: entered from every unscoped buffer at `W5`, left at `W6`. Its arrays
    are split out of the unscoped buffers and put back at the exit contents; the generator register goes into the
    region's invariant and comes back; nothing is owed; the kernel has no semaphore of its own. -/
def reg2 : Pipeline.RegionSeg (pcfgs (F := F)) adm (pdats m) () defs₀ noVariants noPairs noLevel 2 where
  win := launch2.win.to₀
  block_pos := launch2.block_pos
  stage_whole := launch2.stage_whole
  K := PEmpty
  osem k := k.elim
  ho := Pipeline.OwnSemFacts.none _
  hbody c := (body_obligation2 (Vt5 m) c).loose
  hwaits := Pipeline.hwaits_of_owed_zero _ _ _ _ noPairs noLevel 2 fun _ _ => rfl
  pre c := iprop(StableHlo.held (c : Thread nD τ) (Pipeline.ucRefs τ sig) (W5 m c) ∗ ride c)
  post c := iprop(StableHlo.held (c : Thread nD τ) (Pipeline.ucRefs τ sig) (W6 m c) ∗ ride c)
  X c := iprop(∃ r, prngReg c r)
  Y c := iprop(∃ r, prngReg c r)
  Z c := Pipeline.unscopedRest (Ix := Unit) (Name := ℕ) (U := UR sig nD τ) (Lvl := ℕ) spec2 c (Vt5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt5 m c) (Vt6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 (custom_call 3) over the thread state: entered from every unscoped buffer at `W6`, left at `W7`. Its arrays
    are split out of the unscoped buffers and put back at the exit contents; the generator register goes into the
    region's invariant and comes back; nothing is owed; the kernel has no semaphore of its own. -/
def reg3 : Pipeline.RegionSeg (pcfgs (F := F)) adm (pdats m) () defs₀ noVariants noPairs noLevel 3 where
  win := launch3.win.to₀
  block_pos := launch3.block_pos
  stage_whole := launch3.stage_whole
  K := PEmpty
  osem k := k.elim
  ho := Pipeline.OwnSemFacts.none _
  hbody c := (body_obligation3 (Vt6 m) c).loose
  hwaits := Pipeline.hwaits_of_owed_zero _ _ _ _ noPairs noLevel 3 fun _ _ => rfl
  pre c := iprop(StableHlo.held (c : Thread nD τ) (Pipeline.ucRefs τ sig) (W6 m c) ∗ ride c)
  post c := iprop(StableHlo.held (c : Thread nD τ) (Pipeline.ucRefs τ sig) (W7 m c) ∗ ride c)
  X c := iprop(∃ r, prngReg c r)
  Y c := iprop(∃ r, prngReg c r)
  Z c := Pipeline.unscopedRest (Ix := Unit) (Name := ℕ) (U := UR sig nD τ) (Lvl := ℕ) spec3 c (Vt6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vt6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3_zero (Vt6 m) c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from hout3 (Vt6 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vt6 m c) (Vt7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 (custom_call 4) over the thread state: entered from every unscoped buffer at `W8`, left at `W9`. Its arrays
    are split out of the unscoped buffers and put back at the exit contents; the generator register goes into the
    region's invariant and comes back; nothing is owed; the kernel has no semaphore of its own. -/
def reg4 : Pipeline.RegionSeg (pcfgs (F := F)) adm (pdats m) () defs₀ noVariants noPairs noLevel 4 where
  win := launch4.win.to₀
  block_pos := launch4.block_pos
  stage_whole := launch4.stage_whole
  K := PEmpty
  osem k := k.elim
  ho := Pipeline.OwnSemFacts.none _
  hbody c := (body_obligation4 (Vt8 m) c).loose
  hwaits := Pipeline.hwaits_of_owed_zero _ _ _ _ noPairs noLevel 4 fun _ _ => rfl
  pre c := iprop(StableHlo.held (c : Thread nD τ) (Pipeline.ucRefs τ sig) (W8 m c) ∗ ride c)
  post c := iprop(StableHlo.held (c : Thread nD τ) (Pipeline.ucRefs τ sig) (W9 m c) ∗ ride c)
  X c := iprop(∃ r, prngReg c r)
  Y c := iprop(∃ r, prngReg c r)
  Z c := Pipeline.unscopedRest (Ix := Unit) (Name := ℕ) (U := UR sig nD τ) (Lvl := ℕ) spec4 c (Vt8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vt8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from Phi4_zero (Vt8 m) c]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from hout4 (Vt8 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vt8 m c) (Vt9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 5 (custom_call 5) over the thread state: entered from every unscoped buffer at `W9`, left at `W10`. Its arrays
    are split out of the unscoped buffers and put back at the exit contents; the generator register goes into the
    region's invariant and comes back; nothing is owed; the kernel has no semaphore of its own. -/
def reg5 : Pipeline.RegionSeg (pcfgs (F := F)) adm (pdats m) () defs₀ noVariants noPairs noLevel 5 where
  win := launch5.win.to₀
  block_pos := launch5.block_pos
  stage_whole := launch5.stage_whole
  K := PEmpty
  osem k := k.elim
  ho := Pipeline.OwnSemFacts.none _
  hbody c := (body_obligation5 (Vt9 m) c).loose
  hwaits := Pipeline.hwaits_of_owed_zero _ _ _ _ noPairs noLevel 5 fun _ _ => rfl
  pre c := iprop(StableHlo.held (c : Thread nD τ) (Pipeline.ucRefs τ sig) (W9 m c) ∗ ride c)
  post c := iprop(StableHlo.held (c : Thread nD τ) (Pipeline.ucRefs τ sig) (W10 m c) ∗ ride c)
  X c := iprop(∃ r, prngReg c r)
  Y c := iprop(∃ r, prngReg c r)
  Z c := Pipeline.unscopedRest (Ix := Unit) (Name := ℕ) (U := UR sig nD τ) (Lvl := ℕ) spec5 c (Vt9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vt9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from Phi5_zero (Vt9 m) c]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from hout5 (Vt9 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vt9 m c) (Vt10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 6 (custom_call 6) over the thread state: entered from every unscoped buffer at `W10`, left at `W11`. Its arrays
    are split out of the unscoped buffers and put back at the exit contents; the generator register goes into the
    region's invariant and comes back; nothing is owed; the kernel has no semaphore of its own. -/
def reg6 : Pipeline.RegionSeg (pcfgs (F := F)) adm (pdats m) () defs₀ noVariants noPairs noLevel 6 where
  win := launch6.win.to₀
  block_pos := launch6.block_pos
  stage_whole := launch6.stage_whole
  K := PEmpty
  osem k := k.elim
  ho := Pipeline.OwnSemFacts.none _
  hbody c := (body_obligation6 (Vt10 m) c).loose
  hwaits := Pipeline.hwaits_of_owed_zero _ _ _ _ noPairs noLevel 6 fun _ _ => rfl
  pre c := iprop(StableHlo.held (c : Thread nD τ) (Pipeline.ucRefs τ sig) (W10 m c) ∗ ride c)
  post c := iprop(StableHlo.held (c : Thread nD τ) (Pipeline.ucRefs τ sig) (W11 m c) ∗ ride c)
  X c := iprop(∃ r, prngReg c r)
  Y c := iprop(∃ r, prngReg c r)
  Z c := Pipeline.unscopedRest (Ix := Unit) (Name := ℕ) (U := UR sig nD τ) (Lvl := ℕ) spec6 c (Vt10 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vt10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from Phi6_zero (Vt10 m) c]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from hout6 (Vt10 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vt10 m c) (Vt11 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 7 (custom_call 7) over the thread state: entered from every unscoped buffer at `W11`, left at `W12`. Its arrays
    are split out of the unscoped buffers and put back at the exit contents; the generator register goes into the
    region's invariant and comes back; nothing is owed; the kernel has no semaphore of its own. -/
def reg7 : Pipeline.RegionSeg (pcfgs (F := F)) adm (pdats m) () defs₀ noVariants noPairs noLevel 7 where
  win := launch7.win.to₀
  block_pos := launch7.block_pos
  stage_whole := launch7.stage_whole
  K := PEmpty
  osem k := k.elim
  ho := Pipeline.OwnSemFacts.none _
  hbody c := (body_obligation7 (Vt11 m) c).loose
  hwaits := Pipeline.hwaits_of_owed_zero _ _ _ _ noPairs noLevel 7 fun _ _ => rfl
  pre c := iprop(StableHlo.held (c : Thread nD τ) (Pipeline.ucRefs τ sig) (W11 m c) ∗ ride c)
  post c := iprop(StableHlo.held (c : Thread nD τ) (Pipeline.ucRefs τ sig) (W12 m c) ∗ ride c)
  X c := iprop(∃ r, prngReg c r)
  Y c := iprop(∃ r, prngReg c r)
  Z c := Pipeline.unscopedRest (Ix := Unit) (Name := ℕ) (U := UR sig nD τ) (Lvl := ℕ) spec7 c (Vt11 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vt11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from Phi7_zero (Vt11 m) c]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from hout7 (Vt11 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vt11 m c) (Vt12 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 8 (custom_call 8) over the thread state: entered from every unscoped buffer at `W13`, left at `W14`. Its arrays
    are split out of the unscoped buffers and put back at the exit contents; the generator register goes into the
    region's invariant and comes back; nothing is owed; the kernel has no semaphore of its own. -/
def reg8 : Pipeline.RegionSeg (pcfgs (F := F)) adm (pdats m) () defs₀ noVariants noPairs noLevel 8 where
  win := launch8.win.to₀
  block_pos := launch8.block_pos
  stage_whole := launch8.stage_whole
  K := PEmpty
  osem k := k.elim
  ho := Pipeline.OwnSemFacts.none _
  hbody c := (body_obligation8 (Vt13 m) c).loose
  hwaits := Pipeline.hwaits_of_owed_zero _ _ _ _ noPairs noLevel 8 fun _ _ => rfl
  pre c := iprop(StableHlo.held (c : Thread nD τ) (Pipeline.ucRefs τ sig) (W13 m c) ∗ ride c)
  post c := iprop(StableHlo.held (c : Thread nD τ) (Pipeline.ucRefs τ sig) (W14 m c) ∗ ride c)
  X c := iprop(∃ r, prngReg c r)
  Y c := iprop(∃ r, prngReg c r)
  Z c := Pipeline.unscopedRest (Ix := Unit) (Name := ℕ) (U := UR sig nD τ) (Lvl := ℕ) spec8 c (Vt13 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vt13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from Phi8_zero (Vt13 m) c]; unfold Pipeline.ΦA
    iintro ⟨Hp, -, Hr⟩
    isplitl [Hr]; · iexact Hr
    iexact Hp
  hout c := by
    rw [Pipeline.ownSems0_none]
    refine (show (pdats m 8 c).Φ (Fin.last _) ⊢ Pipeline.ΦA spec8 c from hout8 (Vt13 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vt13 m c) (Vt14 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 9 (custom_call 9) over the thread state: entered from every unscoped buffer at `W14`, left at `W15`. Its arrays
    are split out of the unscoped buffers and put back at the exit contents; the generator register goes into the
    region's invariant and comes back; nothing is owed; the kernel has no semaphore of its own. -/
def reg9 : Pipeline.RegionSeg (pcfgs (F := F)) adm (pdats m) () defs₀ noVariants noPairs noLevel 9 where
  win := launch9.win.to₀
  block_pos := launch9.block_pos
  stage_whole := launch9.stage_whole
  K := PEmpty
  osem k := k.elim
  ho := Pipeline.OwnSemFacts.none _
  hbody c := (body_obligation9 (Vt14 m) c).loose
  hwaits := Pipeline.hwaits_of_owed_zero _ _ _ _ noPairs noLevel 9 fun _ _ => rfl
  pre c := iprop(StableHlo.held (c : Thread nD τ) (Pipeline.ucRefs τ sig) (W14 m c) ∗ ride c)
  post c := iprop(StableHlo.held (c : Thread nD τ) (Pipeline.ucRefs τ sig) (W15 m c) ∗ ride c)
  X c := iprop(∃ r, prngReg c r)
  Y c := iprop(∃ r, prngReg c r)
  Z c := Pipeline.unscopedRest (Ix := Unit) (Name := ℕ) (U := UR sig nD τ) (Lvl := ℕ) spec9 c (Vt14 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vt14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from Phi9_zero (Vt14 m) c]; unfold Pipeline.ΦA
    iintro ⟨Hp, -, Hr⟩
    isplitl [Hr]; · iexact Hr
    iexact Hp
  hout c := by
    rw [Pipeline.ownSems0_none]
    refine (show (pdats m 9 c).Φ (Fin.last _) ⊢ Pipeline.ΦA spec9 c from hout9 (Vt14 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vt14 m c) (Vt15 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 16 segments in order: a host segment per stretch from its boundary's contents, a region per pallas_call. -/
abbrev runSegs : List (Pipeline.Seg (pcfgs (F := F)) adm (pdats m) () defs₀ noVariants noPairs noLevel) :=
  [
    .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m),
    .host (hseg hostOps4 hostOps4_sub hostOps4_fresh (W7 m)),
    .region (reg4 m),
    .region (reg5 m),
    .region (reg6 m),
    .region (reg7 m),
    .host (hseg hostOps8 hostOps8_sub hostOps8_fresh (W12 m)),
    .region (reg8 m),
    .region (reg9 m),
    .host (hseg hostOps10 hostOps10_sub hostOps10_fresh (W15 m)) ]
/-- @main IS the run of the segments: the chain of its items, then the segments' run against that chain by
    definitional unfolding. -/
theorem main_run (c : Dev nD) : main (F := F) c = Pipeline.Seg.run (runSegs m) := (main_chain c).trans (by chain_rfl)

-- the launch theorem's implicit arguments are found by unifying its conclusion with this statement, which takes
-- unfolding plain definitions in a metavariable's type
set_option backward.isDefEq.respectTransparency.types false in
/-- THE RUN: at the compiled mesh, from any memory with zero counters, every weakly fair execution of @main on the
    TensorCores terminates, nothing faulting, and every final state has every unscoped buffer of every core at the
    last boundary's contents `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m c b) :=
  Pipeline.θ_run_regions_kit (pcfgs (F := F)) adm (pdats m) () cellOf_inj emb₁ defs₀ noVariants noPairs noLevel m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ ride c)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W16 m c) ∗ ride c)
          ⊢ iprop(lastState m c ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

/-- THE FRAME: every execution terminates without fault and every argument array ends as launched — read off the run:
    an argument is an unscoped buffer, and the last boundary's contents at it are the launch's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (W16_main_arg0 m c),
    (h c _ (mem_uc main_arg1 (by decide))).trans (W16_main_arg1 m c),
    (h c _ (mem_uc main_arg2 (by decide))).trans (W16_main_arg2 m c),
    (h c _ (mem_uc main_arg3 (by decide))).trans (W16_main_arg3 m c),
    (h c _ (mem_uc main_arg4 (by decide))).trans (W16_main_arg4 m c),
    (h c _ (mem_uc main_arg5 (by decide))).trans (W16_main_arg5 m c),
    (h c _ (mem_uc main_arg6 (by decide))).trans (W16_main_arg6 m c),
    (h c _ (mem_uc main_arg7 (by decide))).trans (W16_main_arg7 m c),
    (h c _ (mem_uc main_arg8 (by decide))).trans (W16_main_arg8 m c),
    (h c _ (mem_uc main_arg9 (by decide))).trans (W16_main_arg9 m c),
    (h c _ (mem_uc main_arg10 (by decide))).trans (W16_main_arg10 m c),
    (h c _ (mem_uc main_arg11 (by decide))).trans (W16_main_arg11 m c)⟩) (run_all m ρ)

end Cert.Kernel.Gen

end
-- ==== Proof.KI.Lin.lean ====
import proofs.«145590_j23742579212572_2_alg».proof.Proof.Gen.KernelIdeal.Launch
import proofs.«145590_j23742579212572_2_alg».proof.Proof.Gen.KernelIdeal.Skeleton
import proofs.«145590_j23742579212572_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The three linear-plus-relu regions (custom_calls 0, 1, 2)

Each region computes, block row by block row, `max (src · Wᵀ + b) 0`: a point of the grid reads one 512×512 block of
the source, the whole weight and the bias row, and overwrites the 512×512 result block with one store. Nothing is
carried from point to point, so what the result window's buffer holds after the body is a closed function of the
three input blocks at that point. This module states, per region and at arbitrary entry contents `V` of the
TensorCore's buffers: the blocks the windows read, the result block as the canonical contents of the single store,
the pipeline's proof data, and the body obligation at every point of the grid. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 0: custom_call 0, the linear-plus-relu kernel, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source window's staging buffer holds the source block of the point, for any proof data over `V`'s array
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the weight at every point although it is fetched at the first only:
    its block index never moves, so an unfetched point finds the previous point's block, which is its own. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's staging buffer holds the bias row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the whole 512×512 block, the whole 1×512 row -/

abbrev r0_sq : Rect S512x512 := Rect.unit (s := S512x512) ![0, 0] S512x512.size inb_S512x512_S512x512_0_0
abbrev r0_row : Rect S1x512 := Rect.unit (s := S1x512) ![0, 0] S1x512.size inb_S1x512_S1x512_0_0

/-! ## What the body leaves in the result window's buffer -/

/-- The result block after the body, from the three input blocks: the single whole-block store of
    `max (x0 · x1ᵀ + x2) 0` as a one-piece canonical write. -/
def out0_3 (x0 : Vec F S512x512 .f32) (x1 : Vec F S512x512 .f32) (x2 : Vec F S1x512 .f32) : Vec F S512x512 .f32 :=
  View.canon [⟨r0_sq, k0_pay1 (View.ld x0 r0_sq) (View.ld x1 r0_sq) (View.ld x2 r0_row)⟩]

/-- The one store's rectangle is the whole block, so it covers it. -/
theorem cover0_3 (p0 : Vec F S512x512 .f32) (y : S512x512.Idx) :
    ∃ pc ∈ ([⟨r0_sq, p0⟩] : List (View.Piece (Elt F) S512x512 .f32)), y ∈ pc.1.set :=
  View.cover_of_tiled [⟨r0_sq, p0⟩] S512x512.size (by rfl) y

/-! ## The body's triple -/

set_option maxHeartbeats 1000000 in
/-- The body on whole staging memrefs — the three inputs at read contents `x0 x1 x2`, the result's at anything —
    runs to the continuation with the inputs untouched and the result's buffer at `out0_3 x0 x1 x2`. The body reads
    the result buffer once before overwriting it; that value is discarded. -/
theorem sound_kernel0 (c : Dev nD) (E : Set ℕ) (i : grid0.Coords)
    (arg0 : Memref sig .tc .vmem S512x512 .f32) (harg0 : arg0.IsWhole) (arg1 : Memref sig .tc .vmem S512x512 .f32) (harg1 : arg1.IsWhole)
    (arg2 : Memref sig .tc .vmem S1x512 .f32) (harg2 : arg2.IsWhole) (arg3 : Memref sig .tc .vmem S512x512 .f32) (harg3 : arg3.IsWhole)
    (x0 : Vec F S512x512 .f32) (x1 : Vec F S512x512 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__lin_relu_kernel i arg0 harg0 arg1 harg1 arg2 harg2 arg3 harg3) K := by
  simp only [cc0__lin_relu_kernel_eq_skeleton]; unfold cc0__lin_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them; after the body at point `t` each
    input's buffer at its block and the result's at `out0_3` of the three; the invariant of the plain class (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: custom_call 1, the linear-plus-relu kernel, at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The source window's staging buffer holds the source block of the point, for any proof data over `V`'s array
    whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds the weight at every point although it is fetched at the first only:
    its block index never moves, so an unfetched point finds the previous point's block, which is its own. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds the bias row at every point, for the same reason. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole 512×512 block, the whole 1×512 row -/

abbrev r1_sq : Rect S512x512 := Rect.unit (s := S512x512) ![0, 0] S512x512.size inb_S512x512_S512x512_0_0
abbrev r1_row : Rect S1x512 := Rect.unit (s := S1x512) ![0, 0] S1x512.size inb_S1x512_S1x512_0_0

/-! ## What the body leaves in the result window's buffer -/

/-- The result block after the body, from the three input blocks: the single whole-block store of
    `max (x0 · x1ᵀ + x2) 0` as a one-piece canonical write. -/
def out1_3 (x0 : Vec F S512x512 .f32) (x1 : Vec F S512x512 .f32) (x2 : Vec F S1x512 .f32) : Vec F S512x512 .f32 :=
  View.canon [⟨r1_sq, k1_pay1 (View.ld x0 r1_sq) (View.ld x1 r1_sq) (View.ld x2 r1_row)⟩]

/-- The one store's rectangle is the whole block, so it covers it. -/
theorem cover1_3 (p0 : Vec F S512x512 .f32) (y : S512x512.Idx) :
    ∃ pc ∈ ([⟨r1_sq, p0⟩] : List (View.Piece (Elt F) S512x512 .f32)), y ∈ pc.1.set :=
  View.cover_of_tiled [⟨r1_sq, p0⟩] S512x512.size (by rfl) y

/-! ## The body's triple -/

set_option maxHeartbeats 1000000 in
/-- The body on whole staging memrefs — the three inputs at read contents `x0 x1 x2`, the result's at anything —
    runs to the continuation with the inputs untouched and the result's buffer at `out1_3 x0 x1 x2`. The body reads
    the result buffer once before overwriting it; that value is discarded. -/
theorem sound_kernel1 (c : Dev nD) (E : Set ℕ) (i : grid1.Coords)
    (arg0 : Memref sig .tc .vmem S512x512 .f32) (harg0 : arg0.IsWhole) (arg1 : Memref sig .tc .vmem S512x512 .f32) (harg1 : arg1.IsWhole)
    (arg2 : Memref sig .tc .vmem S1x512 .f32) (harg2 : arg2.IsWhole) (arg3 : Memref sig .tc .vmem S512x512 .f32) (harg3 : arg3.IsWhole)
    (x0 : Vec F S512x512 .f32) (x1 : Vec F S512x512 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__lin_relu_kernel i arg0 harg0 arg1 harg1 arg2 harg2 arg3 harg3) K := by
  simp only [cc1__lin_relu_kernel_eq_skeleton]; unfold cc1__lin_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them; after the body at point `t` each
    input's buffer at its block and the result's at `out1_3` of the three; the invariant of the plain class (the
    scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: custom_call 2, the linear-plus-relu kernel, at the entry contents `V` -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The source window's staging buffer holds the source block of the point, for any proof data over `V`'s array
    whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the weight at every point although it is fetched at the first only:
    its block index never moves, so an unfetched point finds the previous point's block, which is its own. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias window's staging buffer holds the bias row at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: the whole 512×512 block, the whole 1×512 row -/

abbrev r2_sq : Rect S512x512 := Rect.unit (s := S512x512) ![0, 0] S512x512.size inb_S512x512_S512x512_0_0
abbrev r2_row : Rect S1x512 := Rect.unit (s := S1x512) ![0, 0] S1x512.size inb_S1x512_S1x512_0_0

/-! ## What the body leaves in the result window's buffer -/

/-- The result block after the body, from the three input blocks: the single whole-block store of
    `max (x0 · x1ᵀ + x2) 0` as a one-piece canonical write. -/
def out2_3 (x0 : Vec F S512x512 .f32) (x1 : Vec F S512x512 .f32) (x2 : Vec F S1x512 .f32) : Vec F S512x512 .f32 :=
  View.canon [⟨r2_sq, k2_pay1 (View.ld x0 r2_sq) (View.ld x1 r2_sq) (View.ld x2 r2_row)⟩]

/-- The one store's rectangle is the whole block, so it covers it. -/
theorem cover2_3 (p0 : Vec F S512x512 .f32) (y : S512x512.Idx) :
    ∃ pc ∈ ([⟨r2_sq, p0⟩] : List (View.Piece (Elt F) S512x512 .f32)), y ∈ pc.1.set :=
  View.cover_of_tiled [⟨r2_sq, p0⟩] S512x512.size (by rfl) y

/-! ## The body's triple -/

set_option maxHeartbeats 1000000 in
/-- The body on whole staging memrefs — the three inputs at read contents `x0 x1 x2`, the result's at anything —
    runs to the continuation with the inputs untouched and the result's buffer at `out2_3 x0 x1 x2`. The body reads
    the result buffer once before overwriting it; that value is discarded. -/
theorem sound_kernel2 (c : Dev nD) (E : Set ℕ) (i : grid2.Coords)
    (arg0 : Memref sig .tc .vmem S512x512 .f32) (harg0 : arg0.IsWhole) (arg1 : Memref sig .tc .vmem S512x512 .f32) (harg1 : arg1.IsWhole)
    (arg2 : Memref sig .tc .vmem S1x512 .f32) (harg2 : arg2.IsWhole) (arg3 : Memref sig .tc .vmem S512x512 .f32) (harg3 : arg3.IsWhole)
    (x0 : Vec F S512x512 .f32) (x1 : Vec F S512x512 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__lin_relu_kernel i arg0 harg0 arg1 harg1 arg2 harg2 arg3 harg3) K := by
  simp only [cc2__lin_relu_kernel_eq_skeleton]; unfold cc2__lin_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region on core `c`: the arrays as the region finds them; after the body at point `t` each
    input's buffer at its block and the result's at `out2_3` of the three; the invariant of the plain class (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.R3Runs.lean ====
/- Region 3 (the transposed collect: acc += raw^T-block · fc-block over the inner grid axis k, row sums of the
   raw block along axis 0 beside it, the quotient acc / (rs + ε) written under k = 3): what the three control cases'
   runs share. The branch conditions decided over the 4 × 4 grid (t = 4·i + k), where the result window is idle,
   the staging and scratch memrefs, and the region invariant with both accumulators split out of the scoped rest. -/
import proofs.«145590_j23742579212572_2_alg».proof.Proof.Gen.KernelIdeal.Launch
import proofs.«145590_j23742579212572_2_alg».proof.Proof.Gen.KernelIdeal.Skeleton
import proofs.«145590_j23742579212572_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The raw block (window 0) sits in its current staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole of fc (window 1), fetched once, sits in its staging buffer at every point: its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The body's two branch conditions -/

/-- "k = 0": the accumulators are reset. -/
abbrev cond3_0 (i : grid3.Coords) : Prop := (Scalar.cmpi .ne (Scalar.extui (Scalar.cmpi .eq (BitVec.ofNat 32 (i 1).val) 0#32)) 0#32) = 1#1
/-- It holds exactly at the points t ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- "k = 3": the quotient is written. -/
abbrev cond3_1 (i : grid3.Coords) : Prop := k3_cond2 i = 1#1
/-- It holds exactly at the points t ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- k = 0: nothing is stored into the result block, and it is not written back. -/
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
/-- k = 1, 2: the same. -/
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
/-- k = 3: the result block is stored, the window live. -/
theorem liveAt3_2_C : ∀ t : Fin cfg3.N, ¬cond3_0 (grid3.coords t) → cond3_1 (grid3.coords t) → cfg3.idle 2 (grid3.coords t) = false := by decide +kernel

/-! ## The memrefs the body is called with -/

/-- One staging buffer of the result window, through which its contents are stated. -/
abbrev VO3_2 : View sig .tc .vmem S512x512 .f32 := (Memref.whole cc3_stg2_0 : Memref sig .tc .vmem S512x512 .f32).view
abbrev ms3_0 (t : Fin cfg3.N) : Memref sig .tc .vmem S512x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x512 .f32 := win3_2.stage (cfg3.slots t 2)
abbrev hs3_2 (t : Fin cfg3.N) : (ms3_2 t).IsWhole := hstage3_2 ((cfg3.slots t 2).cast nbuf3_2)
/-- The two accumulators: the partial product and the partial row sums. -/
abbrev scM3_0 : Memref sig .tc .vmem S512x512 .f32 := Memref.whole cc3_scratch0
abbrev scM3_1 : Memref sig .tc .vmem S1x512 .f32 := Memref.whole cc3_scratch1
abbrev VS3_0 : View sig .tc .vmem S512x512 .f32 := scM3_0.view
abbrev VS3_1 : View sig .tc .vmem S1x512 .f32 := scM3_1.view

/-- What is left of the scoped rest once both accumulators are taken out. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The region invariant with both accumulators owned as memrefs at some contents, the remainder unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 (F := F) c) ∗ (∃ r, prngReg c r)) := by
  unfold Pipeline.ΦA; rw [scopedRest3_split]; simp only [scM3_0, scM3_1, owns_whole]; try rfl

end Cert.KernelIdeal.Gen

end
-- ==== Proof.KI.R3RunB.lean ====
/- Region 3 at k = 1, 2: neither branch is taken. The partial product and the partial row sums come in at what the
   point before left, the block's contribution is added to each, and they go out; the result buffer is untouched. -/
import proofs.«145590_j23742579212572_2_alg».proof.Proof.KI.R3Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 1, 2 on whole memrefs: the pieces each accumulator ends with are what the run finds. -/
noncomputable def kernelRun3_B (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i)
    (x0 : Vec F S512x512 .f32) (x1 : Vec F S2048x512 .f32) (xs0 : Vec F S512x512 .f32) (xs1 : Vec F S1x512 .f32) :
    Σ' (L2 : List (View.Piece (Elt F) S512x512 .f32)) (LS0 : List (View.Piece (Elt F) S512x512 .f32)), { LS1 : List (View.Piece (Elt F) S1x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc3__collect_transposed_kernel i arg2 harg2 arg3 harg3 arg4 harg4 arg5 harg5 arg6 harg6) K } := by
  refine ⟨[], ?_, ?_, fun xi2 E K => ?run⟩
  case run =>
    simp only [cc3__collect_transposed_kernel_eq_skeleton]; unfold cc3__collect_transposed_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R3RunA.lean ====
/- Region 3 at k = 0: the first branch is taken. Both accumulators are reset to zero (whatever they held), then the
   block's contribution is added to each; the result buffer is untouched. -/
import proofs.«145590_j23742579212572_2_alg».proof.Proof.KI.R3RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 0 on whole memrefs: the pieces each accumulator ends with are what the run finds. -/
noncomputable def kernelRun3_A (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i)
    (x0 : Vec F S512x512 .f32) (x1 : Vec F S2048x512 .f32) :
    Σ' (L2 : List (View.Piece (Elt F) S512x512 .f32)) (LS0 : List (View.Piece (Elt F) S512x512 .f32)), { LS1 : List (View.Piece (Elt F) S1x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc3__collect_transposed_kernel i arg2 harg2 arg3 harg3 arg4 harg4 arg5 harg5 arg6 harg6) K } := by
  refine ⟨[], ?_, ?_, fun xi2 E K => ?run⟩
  case run =>
    simp only [cc3__collect_transposed_kernel_eq_skeleton]; unfold cc3__collect_transposed_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R3RunC.lean ====
/- Region 3 at k = 3: the last branch is taken. The block's contribution is added to both accumulators, and the
   result block is stored: the finished product divided by (finished row sums + ε), whatever the buffer held. -/
import proofs.«145590_j23742579212572_2_alg».proof.Proof.KI.R3RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 3 on whole memrefs: the pieces the result buffer and each accumulator end with are what the run finds. -/
noncomputable def kernelRun3_C (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) :
    Σ' (L2 : List (View.Piece (Elt F) S512x512 .f32)) (LS0 : List (View.Piece (Elt F) S512x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc3__collect_transposed_kernel i arg2 harg2 arg3 harg3 arg4 harg4 arg5 harg5 arg6 harg6) K } := by
  refine ⟨?_, ?_, ?_, fun E K => ?run⟩
  case run =>
    simp only [cc3__collect_transposed_kernel_eq_skeleton]; unfold cc3__collect_transposed_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Gen

end
-- ==== Proof.KI.R3.lean ====
/- Region 3, the rest: what each case leaves in the result buffer and in the two accumulators (read back off the
   stores the runs found), the accumulation point by point over the grid, the invariant by position, the proof data,
   and the body obligation. -/
import proofs.«145590_j23742579212572_2_alg».proof.Proof.KI.R3RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At k = 0 nothing is stored into the result buffer; this value stands for "untouched" and is never read. -/
def out3_A_2 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i)
    (x0 : Vec F S512x512 .f32) (x1 : Vec F S2048x512 .f32) : Vec F S512x512 .f32 :=
  VO3_2.read (Elt F) (VO3_2.writes (Elt F) VO3_2.junk (kernelRun3_A c i arg2 harg2 arg3 harg3 arg4 harg4 arg5 harg5 arg6 harg6 hc0 hc1 x0 x1).1)

/-- At k = 0 the stores into the partial product cover it. -/
theorem scover3_A_0 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i)
    (x0 : Vec F S512x512 .f32) (x1 : Vec F S2048x512 .f32) (y : S512x512.Idx) :
    ∃ pc ∈ (kernelRun3_A c i arg2 harg2 arg3 harg3 arg4 harg4 arg5 harg5 arg6 harg6 hc0 hc1 x0 x1).2.1, y ∈ pc.1.set :=
  View.cover_of_tiledL (kernelRun3_A c i arg2 harg2 arg3 harg3 arg4 harg4 arg5 harg5 arg6 harg6 hc0 hc1 x0 x1).2.1 S512x512.size (by sl_kernel_rfl) y

/-- The partial product after the body at k = 0. -/
def sout3_A_0 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i)
    (x0 : Vec F S512x512 .f32) (x1 : Vec F S2048x512 .f32) : Vec F S512x512 .f32 :=
  VS3_0.read (Elt F) (VS3_0.writes (Elt F) VS3_0.junk (kernelRun3_A c i arg2 harg2 arg3 harg3 arg4 harg4 arg5 harg5 arg6 harg6 hc0 hc1 x0 x1).2.1)

/-- At k = 0 the stores into the partial row sums cover them. -/
theorem scover3_A_1 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i)
    (x0 : Vec F S512x512 .f32) (x1 : Vec F S2048x512 .f32) (y : S1x512.Idx) :
    ∃ pc ∈ (kernelRun3_A c i arg2 harg2 arg3 harg3 arg4 harg4 arg5 harg5 arg6 harg6 hc0 hc1 x0 x1).2.2.1, y ∈ pc.1.set :=
  View.cover_of_tiledL (kernelRun3_A c i arg2 harg2 arg3 harg3 arg4 harg4 arg5 harg5 arg6 harg6 hc0 hc1 x0 x1).2.2.1 S1x512.size (by sl_kernel_rfl) y

/-- The partial row sums after the body at k = 0. -/
def sout3_A_1 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i)
    (x0 : Vec F S512x512 .f32) (x1 : Vec F S2048x512 .f32) : Vec F S1x512 .f32 :=
  VS3_1.read (Elt F) (VS3_1.writes (Elt F) VS3_1.junk (kernelRun3_A c i arg2 harg2 arg3 harg3 arg4 harg4 arg5 harg5 arg6 harg6 hc0 hc1 x0 x1).2.2.1)

/-- At k = 1, 2 nothing is stored into the result buffer; this value stands for "untouched" and is never read. -/
def out3_B_2 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i)
    (x0 : Vec F S512x512 .f32) (x1 : Vec F S2048x512 .f32) (xs0 : Vec F S512x512 .f32) (xs1 : Vec F S1x512 .f32) : Vec F S512x512 .f32 :=
  VO3_2.read (Elt F) (VO3_2.writes (Elt F) VO3_2.junk (kernelRun3_B c i arg2 harg2 arg3 harg3 arg4 harg4 arg5 harg5 arg6 harg6 hc0 hc1 x0 x1 xs0 xs1).1)

/-- At k = 1, 2 the stores into the partial product cover it. -/
theorem scover3_B_0 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i)
    (x0 : Vec F S512x512 .f32) (x1 : Vec F S2048x512 .f32) (xs0 : Vec F S512x512 .f32) (xs1 : Vec F S1x512 .f32) (y : S512x512.Idx) :
    ∃ pc ∈ (kernelRun3_B c i arg2 harg2 arg3 harg3 arg4 harg4 arg5 harg5 arg6 harg6 hc0 hc1 x0 x1 xs0 xs1).2.1, y ∈ pc.1.set :=
  View.cover_of_tiledL (kernelRun3_B c i arg2 harg2 arg3 harg3 arg4 harg4 arg5 harg5 arg6 harg6 hc0 hc1 x0 x1 xs0 xs1).2.1 S512x512.size (by sl_kernel_rfl) y

/-- The partial product after the body at k = 1, 2. -/
def sout3_B_0 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i)
    (x0 : Vec F S512x512 .f32) (x1 : Vec F S2048x512 .f32) (xs0 : Vec F S512x512 .f32) (xs1 : Vec F S1x512 .f32) : Vec F S512x512 .f32 :=
  VS3_0.read (Elt F) (VS3_0.writes (Elt F) VS3_0.junk (kernelRun3_B c i arg2 harg2 arg3 harg3 arg4 harg4 arg5 harg5 arg6 harg6 hc0 hc1 x0 x1 xs0 xs1).2.1)

/-- At k = 1, 2 the stores into the partial row sums cover them. -/
theorem scover3_B_1 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i)
    (x0 : Vec F S512x512 .f32) (x1 : Vec F S2048x512 .f32) (xs0 : Vec F S512x512 .f32) (xs1 : Vec F S1x512 .f32) (y : S1x512.Idx) :
    ∃ pc ∈ (kernelRun3_B c i arg2 harg2 arg3 harg3 arg4 harg4 arg5 harg5 arg6 harg6 hc0 hc1 x0 x1 xs0 xs1).2.2.1, y ∈ pc.1.set :=
  View.cover_of_tiledL (kernelRun3_B c i arg2 harg2 arg3 harg3 arg4 harg4 arg5 harg5 arg6 harg6 hc0 hc1 x0 x1 xs0 xs1).2.2.1 S1x512.size (by sl_kernel_rfl) y

/-- The partial row sums after the body at k = 1, 2. -/
def sout3_B_1 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i)
    (x0 : Vec F S512x512 .f32) (x1 : Vec F S2048x512 .f32) (xs0 : Vec F S512x512 .f32) (xs1 : Vec F S1x512 .f32) : Vec F S1x512 .f32 :=
  VS3_1.read (Elt F) (VS3_1.writes (Elt F) VS3_1.junk (kernelRun3_B c i arg2 harg2 arg3 harg3 arg4 harg4 arg5 harg5 arg6 harg6 hc0 hc1 x0 x1 xs0 xs1).2.2.1)

/-- At k = 3 the one store into the result buffer covers it. -/
theorem cover3_C_2 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) (y : S512x512.Idx) :
    ∃ pc ∈ (kernelRun3_C c i arg2 harg2 arg3 harg3 arg4 harg4 arg5 harg5 arg6 harg6 hc0 hc1 x0 x1 xs0 xs1).1, y ∈ pc.1.set :=
  View.cover_of_tiledL (kernelRun3_C c i arg2 harg2 arg3 harg3 arg4 harg4 arg5 harg5 arg6 harg6 hc0 hc1 x0 x1 xs0 xs1).1 S512x512.size (by sl_kernel_rfl) y

/-- What the result buffer holds after the body at k = 3: the quotient, read back off its store. -/
def out3_C_2 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) : Vec F S512x512 .f32 :=
  VO3_2.read (Elt F) (VO3_2.writes (Elt F) VO3_2.junk (kernelRun3_C c i arg2 harg2 arg3 harg3 arg4 harg4 arg5 harg5 arg6 harg6 hc0 hc1 x0 x1 xs0 xs1).1)

/-- At k = 3 the stores into the partial product cover it. -/
theorem scover3_C_0 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) (y : S512x512.Idx) :
    ∃ pc ∈ (kernelRun3_C c i arg2 harg2 arg3 harg3 arg4 harg4 arg5 harg5 arg6 harg6 hc0 hc1 x0 x1 xs0 xs1).2.1, y ∈ pc.1.set :=
  View.cover_of_tiledL (kernelRun3_C c i arg2 harg2 arg3 harg3 arg4 harg4 arg5 harg5 arg6 harg6 hc0 hc1 x0 x1 xs0 xs1).2.1 S512x512.size (by sl_kernel_rfl) y

/-- The partial product after the body at k = 3. -/
def sout3_C_0 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) : Vec F S512x512 .f32 :=
  VS3_0.read (Elt F) (VS3_0.writes (Elt F) VS3_0.junk (kernelRun3_C c i arg2 harg2 arg3 harg3 arg4 harg4 arg5 harg5 arg6 harg6 hc0 hc1 x0 x1 xs0 xs1).2.1)

/-- At k = 3 the stores into the partial row sums cover them. -/
theorem scover3_C_1 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) (y : S1x512.Idx) :
    ∃ pc ∈ (kernelRun3_C c i arg2 harg2 arg3 harg3 arg4 harg4 arg5 harg5 arg6 harg6 hc0 hc1 x0 x1 xs0 xs1).2.2.1, y ∈ pc.1.set :=
  View.cover_of_tiledL (kernelRun3_C c i arg2 harg2 arg3 harg3 arg4 harg4 arg5 harg5 arg6 harg6 hc0 hc1 x0 x1 xs0 xs1).2.2.1 S1x512.size (by sl_kernel_rfl) y

/-- The partial row sums after the body at k = 3. -/
def sout3_C_1 (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i)
    (x0 : Vec F S512x512 .f32) (x1 : Vec F S2048x512 .f32) (xs0 : Vec F S512x512 .f32) (xs1 : Vec F S1x512 .f32) : Vec F S1x512 .f32 :=
  VS3_1.read (Elt F) (VS3_1.writes (Elt F) VS3_1.junk (kernelRun3_C c i arg2 harg2 arg3 harg3 arg4 harg4 arg5 harg5 arg6 harg6 hc0 hc1 x0 x1 xs0 xs1).2.2.1)

section Region3
variable (V : (c : Dev nD) → (b : Ref sig .tc) → Buf (Elt F) ((c : Thread nD τ).loc b))

/-- One point at k = 0: (result buffer, partial product, partial row sums) after the body there. -/
def step3_A (c : Dev nD) (t : Fin cfg3.N) (h0 : t.val % 4 = 0) (h1 : ¬t.val % 4 = 3) :
    Vec F S512x512 .f32 × Vec F S512x512 .f32 × Vec F S1x512 .f32 :=
  (out3_A_2 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t), sout3_A_1 c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t))

/-- One point at k = 1, 2: (result buffer, partial product, partial row sums) after the body there, from what the accumulators held before. -/
def step3_B (c : Dev nD) (t : Fin cfg3.N) (h0 : ¬t.val % 4 = 0) (h1 : ¬t.val % 4 = 3) (xs0 : Vec F S512x512 .f32) (xs1 : Vec F S1x512 .f32) :
    Vec F S512x512 .f32 × Vec F S512x512 .f32 × Vec F S1x512 .f32 :=
  (out3_B_2 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) xs0 xs1, sout3_B_0 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) xs0 xs1, sout3_B_1 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) xs0 xs1)

/-- One point at k = 3: (result buffer, partial product, partial row sums) after the body there, from what the accumulators held before. -/
def step3_C (c : Dev nD) (t : Fin cfg3.N) (h0 : ¬t.val % 4 = 0) (h1 : t.val % 4 = 3) (xs0 : Vec F S512x512 .f32) (xs1 : Vec F S1x512 .f32) :
    Vec F S512x512 .f32 × Vec F S512x512 .f32 × Vec F S1x512 .f32 :=
  (out3_C_2 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) xs0 xs1, sout3_C_0 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) xs0 xs1, sout3_C_1 c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) xs0 xs1)

/-! ## What the result buffer and both accumulators hold after each point -/

/-- THE ACCUMULATION, point by point along t = 4·i + k: at k = 0 both accumulators restart from zero plus the block's
    contribution; at k = 1, 2 the contribution is added to what the point before left; at k = 3 likewise, and the
    result buffer takes the quotient. -/
def outsAt3 (c : Dev nD) : (n : ℕ) → n < cfg3.N → Vec F S512x512 .f32 × Vec F S512x512 .f32 × Vec F S1x512 .f32
  | 0, hn => step3_A V c ⟨0, hn⟩ (Nat.zero_mod _) (show ¬(0 % 4 = 3) from by decide)
  | n + 1, hn =>
    if h0 : (n + 1) % 4 = 0 then
      if h1 : (n + 1) % 4 = 3 then
        False.elim (by omega)
      else
        step3_A V c ⟨n + 1, hn⟩ h0 h1
    else
      if h1 : (n + 1) % 4 = 3 then
        step3_C V c ⟨n + 1, hn⟩ h0 h1 (outsAt3 c n (Nat.lt_of_succ_lt hn)).2.1 (outsAt3 c n (Nat.lt_of_succ_lt hn)).2.2
      else
        step3_B V c ⟨n + 1, hn⟩ h0 h1 (outsAt3 c n (Nat.lt_of_succ_lt hn)).2.1 (outsAt3 c n (Nat.lt_of_succ_lt hn)).2.2

/-- `outsAt3` at a point with k = 0. -/
theorem outsAt3_A (c : Dev nD) (t : Fin cfg3.N) (h0 : t.val % 4 = 0) (h1 : ¬t.val % 4 = 3) :
    outsAt3 V c t.val t.isLt = step3_A V c t h0 h1 := by
  obtain ⟨n, hn⟩ := t
  cases n with
  | zero => exact rfl
  | succ n => exact (dif_pos h0).trans ((dif_neg h1).trans rfl)

/-- `outsAt3` at a point with k = 1, 2: over what the point before left. -/
theorem outsAt3_B (c : Dev nD) (t : Fin cfg3.N) (h0 : ¬t.val % 4 = 0) (h1 : ¬t.val % 4 = 3) :
    outsAt3 V c t.val t.isLt = step3_B V c t h0 h1 (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

/-- `outsAt3` at a point with k = 3: over what the point before left. -/
theorem outsAt3_C (c : Dev nD) (t : Fin cfg3.N) (h0 : ¬t.val % 4 = 0) (h1 : t.val % 4 = 3) :
    outsAt3 V c t.val t.isLt = step3_C V c t h0 h1 (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant, by position -/

/-- Before the first point: everything scoped at anything. After point n: the partial product and the partial row
    sums at what that point left, the rest of the scoped buffers unopened, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2)) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2)) ∗ rest3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2)) ∗ rest3 (F := F) c) ∗ (∃ r, prngReg c r)) := by
  cases n with
  | zero => exact absurd rfl hz
  | succ n => rfl

/-! ## The pipeline's proof data -/

/-- The arrays as the region finds them; after the body at point t the two inputs' buffers at their blocks and the
    result buffer at `outsAt3`'s first component; the invariant by position; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- Before the first point the invariant is the launch's. -/
theorem Phi3_zero (c : Dev nD) : (dat3 V c).Φ 0 = Pipeline.ΦA spec3 c := rfl

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at a point with k = 0: the accumulators are handed over at anything (at the first point from the
    launch's invariant, later from what the previous row of the grid left) and come back at this point's contents;
    the result buffer goes back as found. -/
theorem sound_body3_A (c : Dev nD) (t : Fin cfg3.N) (h0 : t.val % 4 = 0) (h1 : ¬t.val % 4 = 3) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
  rw [outsAt3_A V c t h0 h1]
  unfold step3_A sout3_A_0 sout3_A_1; (try dsimp only)
  by_cases hz : t.val = 0
  · rw [PhiS3_castSucc V c t, PhiS3_zero V c _ _ hz, PhiA3_eq]
    iintro ⟨⟨⟨⟨HS0, HS1⟩, Hr⟩, Hg⟩, Ho, ⟨%d0, H0⟩, ⟨%d1, H1⟩, ⟨%d2, H2⟩⟩
    iapply ((kernelRun3_A c (grid3.coords t) _ _ _ _ _ _ _ _ _ _ ((hcond3_0 t).mpr h0) (fun h => h1 ((hcond3_1 t).mp h)) (iblk3 V c 0 t) (iblk3 V c 1 t)).2.2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _)
          · unfold owns; iexists _; isplitr
            swap; · iexact HS1
            ipureintro; exact View.read_writes_of_cover _ _ _ _ _ (scover3_A_1 c _ _ _ _ _ _ _ _ _ _ _ _ _ _ _)
        · iexact Hr
      · iexact Hg
    isplitl [Ho]; · iexact Ho
    isplitl [H0]; · iexact H0
    isplitl [H1]; · iexact H1
    iexists _; iexact H2
  · rw [PhiS3_castSucc V c t, PhiS3_pos V c _ _ hz]
    iintro ⟨⟨⟨⟨HS0, HS1⟩, Hr⟩, Hg⟩, Ho, ⟨%d0, H0⟩, ⟨%d1, H1⟩, ⟨%d2, H2⟩⟩
    iapply ((kernelRun3_A c (grid3.coords t) _ _ _ _ _ _ _ _ _ _ ((hcond3_0 t).mpr h0) (fun h => h1 ((hcond3_1 t).mp h)) (iblk3 V c 0 t) (iblk3 V c 1 t)).2.2.2 _ Set.univ _)
    isplitl [H0]; · iexact H0
    isplitl [H1]; · iexact H1
    isplitl [H2]; · iexact H2
    isplitl [HS0]; · iexists _; iexact HS0
    isplitl [HS1]; · iexists _; iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _)
          · unfold owns; iexists _; isplitr
            swap; · iexact HS1
            ipureintro; exact View.read_writes_of_cover _ _ _ _ _ (scover3_A_1 c _ _ _ _ _ _ _ _ _ _ _ _ _ _ _)
        · iexact Hr
      · iexact Hg
    isplitl [Ho]; · iexact Ho
    isplitl [H0]; · iexact H0
    isplitl [H1]; · iexact H1
    iexists _; iexact H2

set_option maxHeartbeats 4800000 in
/-- The body at a point with k = 1, 2: the accumulators come in at what the point before left and go out at this
    point's contents; the result buffer goes back as found. -/
theorem sound_body3_B (c : Dev nD) (t : Fin cfg3.N) (h0 : ¬t.val % 4 = 0) (h1 : ¬t.val % 4 = 3) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
  rw [outsAt3_B V c t h0 h1]
  unfold step3_B sout3_B_0 sout3_B_1; (try dsimp only)
  have hz : t.val ≠ 0 := fun e => h0 (by rw [e])
  rw [PhiS3_castSucc V c t, PhiS3_pos V c _ _ hz]
  iintro ⟨⟨⟨⟨HS0, HS1⟩, Hr⟩, Hg⟩, Ho, ⟨%d0, H0⟩, ⟨%d1, H1⟩, ⟨%d2, H2⟩⟩
  iapply ((kernelRun3_B c (grid3.coords t) _ _ _ _ _ _ _ _ _ _ (fun h => h0 ((hcond3_0 t).mp h)) (fun h => h1 ((hcond3_1 t).mp h)) (iblk3 V c 0 t) (iblk3 V c 1 t) _ _).2.2.2 _ Set.univ _)
  isplitl [H0]; · iexact H0
  isplitl [H1]; · iexact H1
  isplitl [H2]; · iexact H2
  isplitl [HS0]; · iexact HS0
  isplitl [HS1]; · iexact HS1
  iintro ⟨H0, H1, H2, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover3_B_0 c _ _ _ _ _ _ _ _ _ _ _ _ _ _ _ _ _)
        · unfold owns; iexists _; isplitr
          swap; · iexact HS1
          ipureintro; exact View.read_writes_of_cover _ _ _ _ _ (scover3_B_1 c _ _ _ _ _ _ _ _ _ _ _ _ _ _ _ _ _)
      · iexact Hr
    · iexact Hg
  isplitl [Ho]; · iexact Ho
  isplitl [H0]; · iexact H0
  isplitl [H1]; · iexact H1
  iexists _; iexact H2

set_option maxHeartbeats 4800000 in
/-- The body at a point with k = 3: as before for the accumulators; the result buffer, handed over at anything, comes
    back at the quotient. -/
theorem sound_body3_C (c : Dev nD) (t : Fin cfg3.N) (h0 : ¬t.val % 4 = 0) (h1 : t.val % 4 = 3) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2_C t (fun h => h0 ((hcond3_0 t).mp h)) ((hcond3_1 t).mpr h1)], after3_2]
  rw [outsAt3_C V c t h0 h1]
  unfold step3_C out3_C_2 sout3_C_0 sout3_C_1; (try dsimp only)
  have hz : t.val ≠ 0 := fun e => h0 (by rw [e])
  rw [PhiS3_castSucc V c t, PhiS3_pos V c _ _ hz]
  iintro ⟨⟨⟨⟨HS0, HS1⟩, Hr⟩, Hg⟩, Ho, ⟨%d0, H0⟩, ⟨%d1, H1⟩, ⟨%d2, H2⟩⟩
  iapply ((kernelRun3_C c (grid3.coords t) _ _ _ _ _ _ _ _ _ _ (fun h => h0 ((hcond3_0 t).mp h)) ((hcond3_1 t).mpr h1) (iblk3 V c 0 t) (iblk3 V c 1 t) _ _).2.2.2 Set.univ _)
  isplitl [H0]; · iexact H0
  isplitl [H1]; · iexact H1
  isplitl [H2]; · iexists _; iexact H2
  isplitl [HS0]; · iexact HS0
  isplitl [HS1]; · iexact HS1
  iintro ⟨H0, H1, ⟨%e2, H2⟩, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover3_C_0 c _ _ _ _ _ _ _ _ _ _ _ _ _ _ _ _ _)
        · unfold owns; iexists _; isplitr
          swap; · iexact HS1
          ipureintro; exact View.read_writes_of_cover _ _ _ _ _ (scover3_C_1 c _ _ _ _ _ _ _ _ _ _ _ _ _ _ _ _ _)
      · iexact Hr
    · iexact Hg
  isplitl [Ho]; · iexact Ho
  isplitl [H0]; · iexact H0
  isplitl [H1]; · iexact H1
  unfold owns; iexists _; isplitr
  swap; · iexact H2
  ipureintro; exact View.read_writes_of_cover _ _ _ _ _ (cover3_C_2 c _ _ _ _ _ _ _ _ _ _ _ _ _ _ _ _ _)

/-- The body at any point: the position's residue mod 4 says which of the three cases it is in. -/
theorem sound_body3 (c : Dev nD) (t : Fin cfg3.N) :
    bodyPre3 V c t ⊢ wp frame (wpE (defs₀ (F := F)) Variants.none c none) Set.univ (bodyAt3 t) (fun _ => bodyPost3 V c t) := by
  by_cases h0 : t.val % 4 = 0
  · exact sound_body3_A V c t h0 (by omega)
  · by_cases h1 : t.val % 4 = 3
    · exact sound_body3_C V c t h0 h1
    · exact sound_body3_B V c t h0 h1

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- After any point the invariant gives the launch's back: what the accumulators hold is forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout3 (c : Dev nD) : (dat3 V c).Φ (Fin.last cfg3.N) ⊢ Pipeline.ΦA spec3 c :=
  Phi3_out V c _ (by rw [Fin.val_last]; have : cfg3.N = 16 := N_3; omega)

end Region3

end Cert.KernelIdeal.Gen

end
-- ==== Proof.KI.R4Runs.lean ====
/-
  Custom call 4 accumulates a row block of attn @ fc over the inner grid axis k (four steps of 512 source rows) in two
  scratch buffers: a [512,512] accumulator and a [512,1] column of row sums. Both are cleared at k = 0, added to at
  every k, and at k = 3 the output block is the accumulator divided by (row sums + ε). This module fixes what the
  three control cases of that body are stated over: the two branch conditions in closed form over the sixteen grid
  points (t = 4·i + k), where the output window is idle, and the memrefs the body is called with.
-/
import proofs.«145590_j23742579212572_2_alg».proof.Proof.Gen.KernelIdeal.Launch
import proofs.«145590_j23742579212572_2_alg».proof.Proof.Gen.KernelIdeal.Skeleton
import proofs.«145590_j23742579212572_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The attn block: its staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The whole fc array, fetched once: its staging buffer holds it at every point (the index never moves). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The two branch conditions over the grid -/

/-- "k = 0": the accumulators are cleared. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

/-- "k = 3": the output block is written. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- At k = 0 the output window is idle and not written back. -/
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
/-- At k = 1, 2 likewise. -/
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
/-- At k = 3 it is live. -/
theorem liveAt4_2_C : ∀ t : Fin cfg4.N, ¬cond4_0 (grid4.coords t) → cond4_1 (grid4.coords t) → cfg4.idle 2 (grid4.coords t) = false := by decide +kernel

/-! ## The memrefs the body is called with -/

/-- One staging buffer of the output window, through which its contents are stated. -/
abbrev VO4_2 : View sig .tc .vmem S512x512 .f32 := (Memref.whole cc4_stg2_0 : Memref sig .tc .vmem S512x512 .f32).view
abbrev ms4_0 (t : Fin cfg4.N) : Memref sig .tc .vmem S512x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x512 .f32 := win4_2.stage (cfg4.slots t 2)
abbrev hs4_2 (t : Fin cfg4.N) : (ms4_2 t).IsWhole := hstage4_2 ((cfg4.slots t 2).cast nbuf4_2)
/-- The accumulator and the column of row sums: whole scoped buffers of the kernel's own. -/
abbrev scM4_0 : Memref sig .tc .vmem S512x512 .f32 := Memref.whole cc4_scratch0
abbrev scM4_1 : Memref sig .tc .vmem S512x1 .f32 := Memref.whole cc4_scratch1
abbrev VS4_0 : View sig .tc .vmem S512x512 .f32 := scM4_0.view
abbrev VS4_1 : View sig .tc .vmem S512x1 .f32 := scM4_1.view

end Cert.KernelIdeal.Gen

end
-- ==== Proof.KI.R4RunB.lean ====
/-
  Custom call 4 at k = 1, 2: neither branch is taken. The accumulator and the row sums come in at what the point before left, are added to, and go out; the output buffer is untouched.
-/
import proofs.«145590_j23742579212572_2_alg».proof.Proof.KI.R4Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun4_B (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i)
    (x0 : Vec F S512x512 .f32) (x1 : Vec F S2048x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__collect_direct_kernel i arg2 harg2 arg3 harg3 arg4 harg4 arg5 harg5 arg6 harg6) K } := by
  refine ⟨[], ?_, ?_, fun xi2 E K => ?run⟩
  case run =>
    simp only [cc4__collect_direct_kernel_eq_skeleton]; unfold cc4__collect_direct_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R4RunA.lean ====
/-
  Custom call 4 at k = 0: the accumulator and the row sums are cleared first (whatever they held), then added to; the output buffer is untouched.
-/
import proofs.«145590_j23742579212572_2_alg».proof.Proof.KI.R4RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun4_A (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i)
    (x0 : Vec F S512x512 .f32) (x1 : Vec F S2048x512 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__collect_direct_kernel i arg2 harg2 arg3 harg3 arg4 harg4 arg5 harg5 arg6 harg6) K } := by
  refine ⟨[], ?_, ?_, fun xi2 E K => ?run⟩
  case run =>
    simp only [cc4__collect_direct_kernel_eq_skeleton]; unfold cc4__collect_direct_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R4RunC.lean ====
/-
  Custom call 4 at k = 3: the accumulators are added to a last time and the output block is stored: the accumulator divided by (row sums + ε).
-/
import proofs.«145590_j23742579212572_2_alg».proof.Proof.KI.R4RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun4_C (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__collect_direct_kernel i arg2 harg2 arg3 harg3 arg4 harg4 arg5 harg5 arg6 harg6) K } := by
  refine ⟨?_, ?_, ?_, fun E K => ?run⟩
  case run =>
    simp only [cc4__collect_direct_kernel_eq_skeleton]; unfold cc4__collect_direct_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Gen

end
-- ==== Proof.KI.R4.lean ====
/-
  Custom call 4 as proof data for the pipeline: what the output buffer, the accumulator and the column of row sums hold
  after each of the sixteen grid points (t = 4·i + k), by recursion on the point — at k = 0 from cleared scratch, at
  k = 1, 2, 3 from what the point before left —, the invariant that carries the two scratch buffers at those contents
  between points, and the body obligation: at every point the body runs from the invariant before it to the one after it.
-/
import proofs.«145590_j23742579212572_2_alg».proof.Proof.KI.R4RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What this case leaves in the output buffer (nothing is stored: a placeholder nothing consults, the window being idle and not written back here). -/
def out4_A_2 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i)
    (x0 : Vec F S512x512 .f32) (x1 : Vec F S2048x512 .f32) : Vec F S512x512 .f32 :=
  VO4_2.read (Elt F) (VO4_2.writes (Elt F) VO4_2.junk (kernelRun4_A c i arg2 harg2 arg3 harg3 arg4 harg4 arg5 harg5 arg6 harg6 hc0 hc1 x0 x1).1)

/-- The stores into the accumulator cover it. -/
theorem scover4_A_0 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i)
    (x0 : Vec F S512x512 .f32) (x1 : Vec F S2048x512 .f32) (y : S512x512.Idx) :
    ∃ pc ∈ (kernelRun4_A c i arg2 harg2 arg3 harg3 arg4 harg4 arg5 harg5 arg6 harg6 hc0 hc1 x0 x1).2.1, y ∈ pc.1.set :=
  View.cover_of_tiledL (kernelRun4_A c i arg2 harg2 arg3 harg3 arg4 harg4 arg5 harg5 arg6 harg6 hc0 hc1 x0 x1).2.1 S512x512.size (by sl_kernel_rfl) y

/-- What this case leaves in the accumulator. -/
def sout4_A_0 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i)
    (x0 : Vec F S512x512 .f32) (x1 : Vec F S2048x512 .f32) : Vec F S512x512 .f32 :=
  VS4_0.read (Elt F) (VS4_0.writes (Elt F) VS4_0.junk (kernelRun4_A c i arg2 harg2 arg3 harg3 arg4 harg4 arg5 harg5 arg6 harg6 hc0 hc1 x0 x1).2.1)

/-- The stores into the column of row sums cover it. -/
theorem scover4_A_1 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i)
    (x0 : Vec F S512x512 .f32) (x1 : Vec F S2048x512 .f32) (y : S512x1.Idx) :
    ∃ pc ∈ (kernelRun4_A c i arg2 harg2 arg3 harg3 arg4 harg4 arg5 harg5 arg6 harg6 hc0 hc1 x0 x1).2.2.1, y ∈ pc.1.set :=
  View.cover_of_tiledL (kernelRun4_A c i arg2 harg2 arg3 harg3 arg4 harg4 arg5 harg5 arg6 harg6 hc0 hc1 x0 x1).2.2.1 S512x1.size (by sl_kernel_rfl) y

/-- What this case leaves in the column of row sums. -/
def sout4_A_1 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i)
    (x0 : Vec F S512x512 .f32) (x1 : Vec F S2048x512 .f32) : Vec F S512x1 .f32 :=
  VS4_1.read (Elt F) (VS4_1.writes (Elt F) VS4_1.junk (kernelRun4_A c i arg2 harg2 arg3 harg3 arg4 harg4 arg5 harg5 arg6 harg6 hc0 hc1 x0 x1).2.2.1)

/-- What this case leaves in the output buffer (nothing is stored: a placeholder nothing consults, the window being idle and not written back here). -/
def out4_B_2 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i)
    (x0 : Vec F S512x512 .f32) (x1 : Vec F S2048x512 .f32) (xs0 : Vec F S512x512 .f32) (xs1 : Vec F S512x1 .f32) : Vec F S512x512 .f32 :=
  VO4_2.read (Elt F) (VO4_2.writes (Elt F) VO4_2.junk (kernelRun4_B c i arg2 harg2 arg3 harg3 arg4 harg4 arg5 harg5 arg6 harg6 hc0 hc1 x0 x1 xs0 xs1).1)

/-- The stores into the accumulator cover it. -/
theorem scover4_B_0 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i)
    (x0 : Vec F S512x512 .f32) (x1 : Vec F S2048x512 .f32) (xs0 : Vec F S512x512 .f32) (xs1 : Vec F S512x1 .f32) (y : S512x512.Idx) :
    ∃ pc ∈ (kernelRun4_B c i arg2 harg2 arg3 harg3 arg4 harg4 arg5 harg5 arg6 harg6 hc0 hc1 x0 x1 xs0 xs1).2.1, y ∈ pc.1.set :=
  View.cover_of_tiledL (kernelRun4_B c i arg2 harg2 arg3 harg3 arg4 harg4 arg5 harg5 arg6 harg6 hc0 hc1 x0 x1 xs0 xs1).2.1 S512x512.size (by sl_kernel_rfl) y

/-- What this case leaves in the accumulator. -/
def sout4_B_0 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i)
    (x0 : Vec F S512x512 .f32) (x1 : Vec F S2048x512 .f32) (xs0 : Vec F S512x512 .f32) (xs1 : Vec F S512x1 .f32) : Vec F S512x512 .f32 :=
  VS4_0.read (Elt F) (VS4_0.writes (Elt F) VS4_0.junk (kernelRun4_B c i arg2 harg2 arg3 harg3 arg4 harg4 arg5 harg5 arg6 harg6 hc0 hc1 x0 x1 xs0 xs1).2.1)

/-- The stores into the column of row sums cover it. -/
theorem scover4_B_1 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i)
    (x0 : Vec F S512x512 .f32) (x1 : Vec F S2048x512 .f32) (xs0 : Vec F S512x512 .f32) (xs1 : Vec F S512x1 .f32) (y : S512x1.Idx) :
    ∃ pc ∈ (kernelRun4_B c i arg2 harg2 arg3 harg3 arg4 harg4 arg5 harg5 arg6 harg6 hc0 hc1 x0 x1 xs0 xs1).2.2.1, y ∈ pc.1.set :=
  View.cover_of_tiledL (kernelRun4_B c i arg2 harg2 arg3 harg3 arg4 harg4 arg5 harg5 arg6 harg6 hc0 hc1 x0 x1 xs0 xs1).2.2.1 S512x1.size (by sl_kernel_rfl) y

/-- What this case leaves in the column of row sums. -/
def sout4_B_1 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i)
    (x0 : Vec F S512x512 .f32) (x1 : Vec F S2048x512 .f32) (xs0 : Vec F S512x512 .f32) (xs1 : Vec F S512x1 .f32) : Vec F S512x1 .f32 :=
  VS4_1.read (Elt F) (VS4_1.writes (Elt F) VS4_1.junk (kernelRun4_B c i arg2 harg2 arg3 harg3 arg4 harg4 arg5 harg5 arg6 harg6 hc0 hc1 x0 x1 xs0 xs1).2.2.1)

/-- At k = 3 the one store into the output buffer covers it. -/
theorem cover4_C_2 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) (y : S512x512.Idx) :
    ∃ pc ∈ (kernelRun4_C c i arg2 harg2 arg3 harg3 arg4 harg4 arg5 harg5 arg6 harg6 hc0 hc1 x0 x1 xs0 xs1).1, y ∈ pc.1.set :=
  View.cover_of_tiledL (kernelRun4_C c i arg2 harg2 arg3 harg3 arg4 harg4 arg5 harg5 arg6 harg6 hc0 hc1 x0 x1 xs0 xs1).1 S512x512.size (by sl_kernel_rfl) y

/-- What this case leaves in the output buffer: the accumulator over (row sums + ε). -/
def out4_C_2 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) : Vec F S512x512 .f32 :=
  VO4_2.read (Elt F) (VO4_2.writes (Elt F) VO4_2.junk (kernelRun4_C c i arg2 harg2 arg3 harg3 arg4 harg4 arg5 harg5 arg6 harg6 hc0 hc1 x0 x1 xs0 xs1).1)

/-- The stores into the accumulator cover it. -/
theorem scover4_C_0 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) (y : S512x512.Idx) :
    ∃ pc ∈ (kernelRun4_C c i arg2 harg2 arg3 harg3 arg4 harg4 arg5 harg5 arg6 harg6 hc0 hc1 x0 x1 xs0 xs1).2.1, y ∈ pc.1.set :=
  View.cover_of_tiledL (kernelRun4_C c i arg2 harg2 arg3 harg3 arg4 harg4 arg5 harg5 arg6 harg6 hc0 hc1 x0 x1 xs0 xs1).2.1 S512x512.size (by sl_kernel_rfl) y

/-- What this case leaves in the accumulator. -/
def sout4_C_0 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) : Vec F S512x512 .f32 :=
  VS4_0.read (Elt F) (VS4_0.writes (Elt F) VS4_0.junk (kernelRun4_C c i arg2 harg2 arg3 harg3 arg4 harg4 arg5 harg5 arg6 harg6 hc0 hc1 x0 x1 xs0 xs1).2.1)

/-- The stores into the column of row sums cover it. -/
theorem scover4_C_1 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) (y : S512x1.Idx) :
    ∃ pc ∈ (kernelRun4_C c i arg2 harg2 arg3 harg3 arg4 harg4 arg5 harg5 arg6 harg6 hc0 hc1 x0 x1 xs0 xs1).2.2.1, y ∈ pc.1.set :=
  View.cover_of_tiledL (kernelRun4_C c i arg2 harg2 arg3 harg3 arg4 harg4 arg5 harg5 arg6 harg6 hc0 hc1 x0 x1 xs0 xs1).2.2.1 S512x1.size (by sl_kernel_rfl) y

/-- What this case leaves in the column of row sums. -/
def sout4_C_1 (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i)
    (x0 : Vec F S512x512 .f32) (x1 : Vec F S2048x512 .f32) (xs0 : Vec F S512x512 .f32) (xs1 : Vec F S512x1 .f32) : Vec F S512x1 .f32 :=
  VS4_1.read (Elt F) (VS4_1.writes (Elt F) VS4_1.junk (kernelRun4_C c i arg2 harg2 arg3 harg3 arg4 harg4 arg5 harg5 arg6 harg6 hc0 hc1 x0 x1 xs0 xs1).2.2.1)

/-! ## The accumulation -/

/-- What the output buffer, the accumulator and the row sums hold after the body at position `n`. -/
def outsAt4 (c : Dev nD) : (n : ℕ) → n < cfg4.N → Vec F S512x512 .f32 × Vec F S512x512 .f32 × Vec F S512x1 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 4 = 0 then
      if h1 : (n + 1) % 4 = 3 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 4 = 3 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.1 (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.1 (outsAt4 c n (Nat.lt_of_succ_lt hn)).2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.1 (outsAt4 c n (Nat.lt_of_succ_lt hn)).2.2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.1 (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.1 (outsAt4 c n (Nat.lt_of_succ_lt hn)).2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.1 (outsAt4 c n (Nat.lt_of_succ_lt hn)).2.2)

theorem outsAt4_A (c : Dev nD) (t : Fin cfg4.N) (h0 : t.val % 4 = 0) (h1 : ¬t.val % 4 = 3) :
    outsAt4 V c t.val t.isLt = (out4_A_2 c (grid4.coords t) (ms4_0 t) (hs4_0 t) (ms4_1 t) (hs4_1 t) (ms4_2 t) (hs4_2 t) scM4_0 (Memref.isWhole_whole _) scM4_1 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) scM4_1 (Memref.isWhole_whole _) ((hcond4_0 t).mpr h0) (fun h => h1 ((hcond4_1 t).mp h)) (iblk4 V c 0 t) (iblk4 V c 1 t), sout4_A_1 c (grid4.coords t) (ms4_0 t) (hs4_0 t) (ms4_1 t) (hs4_1 t) (ms4_2 t) (hs4_2 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : ¬t.val % 4 = 3) :
    outsAt4 V c t.val t.isLt = (out4_B_2 c (grid4.coords t) (ms4_0 t) (hs4_0 t) (ms4_1 t) (hs4_1 t) (ms4_2 t) (hs4_2 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2, sout4_B_1 c (grid4.coords t) (ms4_0 t) (hs4_0 t) (ms4_1 t) (hs4_1 t) (ms4_2 t) (hs4_2 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_2 c (grid4.coords t) (ms4_0 t) (hs4_0 t) (ms4_1 t) (hs4_1 t) (ms4_2 t) (hs4_2 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2, sout4_C_1 c (grid4.coords t) (ms4_0 t) (hs4_0 t) (ms4_1 t) (hs4_1 t) (ms4_2 t) (hs4_2 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant by position -/

/-- The scoped buffers that are neither staged by a window of this call nor one of its two scratch buffers. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- Before the first point every scoped buffer is at anything; after point `n` the two scratch buffers hold what that point left. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2)) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2)) ∗ rest4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2)) ∗ rest4 c) ∗ (∃ r, prngReg c r)) := by
  cases n with
  | zero => exact absurd rfl hz
  | succ n => rfl

/-- The class's invariant with the two scratch buffers named, each at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the closed forms of the two conditions say which case the point is in; the invariant hands the
    body the two scratch buffers at what the point before left (at anything before the first point), and takes them back at
    this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt (show cfg4.N = 16 from N_4)
  by_cases h0 : t.val % 4 = 0
  · by_cases h1 : t.val % 4 = 3
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0 sout4_A_1; (try dsimp only)
      by_cases hz : t.val = 0
      · rw [PhiS4_castSucc V c t, PhiS4_zero V c _ _ hz, PhiA4_eq]
        iintro ⟨⟨⟨⟨HS0, HS1⟩, Hb⟩, Hg⟩, Ho, ⟨%d0, H0⟩, ⟨%d1, H1⟩, ⟨%d2, H2⟩⟩
        iapply ((kernelRun4_A c (grid4.coords t) _ _ _ _ _ _ _ _ _ _ ((hcond4_0 t).mpr h0) (fun h => h1 ((hcond4_1 t).mp h)) (iblk4 V c 0 t) (iblk4 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _)
              · unfold owns; iexists _; isplitr
                swap; · iexact HS1
                ipureintro; exact View.read_writes_of_cover _ _ _ _ _ (scover4_A_1 c _ _ _ _ _ _ _ _ _ _ _ _ _ _ _)
            iexact Hb
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨⟨HS0, HS1⟩, Hb⟩, Hg⟩, Ho, ⟨%d0, H0⟩, ⟨%d1, H1⟩, ⟨%d2, H2⟩⟩
        iapply ((kernelRun4_A c (grid4.coords t) _ _ _ _ _ _ _ _ _ _ ((hcond4_0 t).mpr h0) (fun h => h1 ((hcond4_1 t).mp h)) (iblk4 V c 0 t) (iblk4 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _)
              · unfold owns; iexists _; isplitr
                swap; · iexact HS1
                ipureintro; exact View.read_writes_of_cover _ _ _ _ _ (scover4_A_1 c _ _ _ _ _ _ _ _ _ _ _ _ _ _ _)
            iexact Hb
          iexact Hg
        isplitl [Ho]; · iexact Ho
        isplitl [H0]; · iexact H0
        isplitl [H1]; · iexact H1
        iexists _; iexact H2
  · by_cases h1 : t.val % 4 = 3
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0 sout4_C_1; (try dsimp only)
      by_cases hz : t.val = 0
      · exfalso; omega
      · rw [PhiS4_castSucc V c t, PhiS4_pos V c _ _ hz]
        iintro ⟨⟨⟨⟨HS0, HS1⟩, Hb⟩, Hg⟩, Ho, ⟨%d0, H0⟩, ⟨%d1, H1⟩, ⟨%d2, H2⟩⟩
        iapply ((kernelRun4_C c (grid4.coords t) _ _ _ _ _ _ _ _ _ _ (fun h => h0 ((hcond4_0 t).mp h)) ((hcond4_1 t).mpr h1) (iblk4 V c 0 t) (iblk4 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover4_C_0 c _ _ _ _ _ _ _ _ _ _ _ _ _ _ _ _ _)
              · unfold owns; iexists _; isplitr
                swap; · iexact HS1
                ipureintro; exact View.read_writes_of_cover _ _ _ _ _ (scover4_C_1 c _ _ _ _ _ _ _ _ _ _ _ _ _ _ _ _ _)
            iexact Hb
          iexact Hg
        isplitl [Ho]; · iexact Ho
        isplitl [H0]; · iexact H0
        isplitl [H1]; · iexact H1
        unfold owns; iexists _; isplitr
        swap; · iexact H2
        ipureintro; exact View.read_writes_of_cover _ _ _ _ _ (cover4_C_2 c _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0 sout4_B_1; (try dsimp only)
      by_cases hz : t.val = 0
      · exfalso; omega
      · rw [PhiS4_castSucc V c t, PhiS4_pos V c _ _ hz]
        iintro ⟨⟨⟨⟨HS0, HS1⟩, Hb⟩, Hg⟩, Ho, ⟨%d0, H0⟩, ⟨%d1, H1⟩, ⟨%d2, H2⟩⟩
        iapply ((kernelRun4_B c (grid4.coords t) _ _ _ _ _ _ _ _ _ _ (fun h => h0 ((hcond4_0 t).mp h)) (fun h => h1 ((hcond4_1 t).mp h)) (iblk4 V c 0 t) (iblk4 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover4_B_0 c _ _ _ _ _ _ _ _ _ _ _ _ _ _ _ _ _)
              · unfold owns; iexists _; isplitr
                swap; · iexact HS1
                ipureintro; exact View.read_writes_of_cover _ _ _ _ _ (scover4_B_1 c _ _ _ _ _ _ _ _ _ _ _ _ _ _ _ _ _)
            iexact Hb
          iexact Hg
        isplitl [Ho]; · iexact Ho
        isplitl [H0]; · iexact H0
        isplitl [H1]; · iexact H1
        iexists _; iexact H2

theorem body_obligation4 (c : Dev nD) : BodyObligation (dat4 (F := F) V c) (defs₀ (F := F)) Variants.none () Set.univ := fun t => by
  rw [bigSep_W4, bigSep_W4]
  exact sound_body4 V c t

/-! ## The invariant at the two ends -/

theorem Phi4_zero (c : Dev nD) : (dat4 V c).Φ 0 = Pipeline.ΦA spec4 c := rfl

/-- After any point but the first the invariant gives the class's back: what the scratch buffers hold is forgotten. -/
theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hb⟩, Hg⟩
  isplitl [HS0 HS1 Hb]
  · isplitl [HS0 HS1]
    · isplitl [HS0]
      · iexists _; iexact HS0
      · iexists _; iexact HS1
    iexact Hb
  iexact Hg

theorem hout4 (c : Dev nD) : (dat4 V c).Φ (Fin.last cfg4.N) ⊢ Pipeline.ΦA spec4 c :=
  Phi4_out V c _ (by rw [Fin.val_last]; have : cfg4.N = 16 := N_4; omega)

end Cert.KernelIdeal.Gen

end
-- ==== Proof.KI.R5Runs.lean ====
/-
  Custom call 5 accumulates a row block of attn @ fc over the inner grid axis k (4 steps of 512 source rows) in two
  scratch buffers: a [512,512] accumulator and a [512,1] column of row sums. Both are cleared at k = 0, added to at
  every k, and at k = 3 the output block is the accumulator divided by (row sums + ε). This module fixes what the
  three control cases of that body are stated over: the two branch conditions in closed form over the sixteen grid
  points (t = 4·i + k), where the output window is idle, and the memrefs the body is called with.
-/
import proofs.«145590_j23742579212572_2_alg».proof.Proof.Gen.KernelIdeal.Launch
import proofs.«145590_j23742579212572_2_alg».proof.Proof.Gen.KernelIdeal.Skeleton
import proofs.«145590_j23742579212572_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The attn block: its staging buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The whole fc array, fetched once: its staging buffer holds it at every point (the index never moves). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The two branch conditions over the grid -/

/-- "k = 0": the accumulators are cleared. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

/-- "k = 3": the output block is written. -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
/-- At k = 0 the output window is idle and not written back. -/
theorem idleAt5_2_A : ∀ t : Fin cfg5.N, cond5_0 (grid5.coords t) → ¬cond5_1 (grid5.coords t) → cfg5.idle 2 (grid5.coords t) = true := by decide +kernel
theorem noFlush5_2_A : ∀ t : Fin cfg5.N, cond5_0 (grid5.coords t) → ¬cond5_1 (grid5.coords t) → (cfg5.win 2).flush t = false := by decide +kernel
/-- At k = 1 … 2 likewise. -/
theorem idleAt5_2_B : ∀ t : Fin cfg5.N, ¬cond5_0 (grid5.coords t) → ¬cond5_1 (grid5.coords t) → cfg5.idle 2 (grid5.coords t) = true := by decide +kernel
theorem noFlush5_2_B : ∀ t : Fin cfg5.N, ¬cond5_0 (grid5.coords t) → ¬cond5_1 (grid5.coords t) → (cfg5.win 2).flush t = false := by decide +kernel
/-- At k = 3 it is live. -/
theorem liveAt5_2_C : ∀ t : Fin cfg5.N, ¬cond5_0 (grid5.coords t) → cond5_1 (grid5.coords t) → cfg5.idle 2 (grid5.coords t) = false := by decide +kernel

/-! ## The memrefs the body is called with -/

/-- One staging buffer of the output window, through which its contents are stated. -/
abbrev VO5_2 : View sig .tc .vmem S512x512 .f32 := (Memref.whole cc5_stg2_0 : Memref sig .tc .vmem S512x512 .f32).view
abbrev ms5_0 (t : Fin cfg5.N) : Memref sig .tc .vmem S512x512 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x512 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S512x512 .f32 := win5_2.stage (cfg5.slots t 2)
abbrev hs5_2 (t : Fin cfg5.N) : (ms5_2 t).IsWhole := hstage5_2 ((cfg5.slots t 2).cast nbuf5_2)
/-- The accumulator and the column of row sums: whole scoped buffers of the kernel's own. -/
abbrev scM5_0 : Memref sig .tc .vmem S512x512 .f32 := Memref.whole cc5_scratch0
abbrev scM5_1 : Memref sig .tc .vmem S512x1 .f32 := Memref.whole cc5_scratch1
abbrev VS5_0 : View sig .tc .vmem S512x512 .f32 := scM5_0.view
abbrev VS5_1 : View sig .tc .vmem S512x1 .f32 := scM5_1.view

end Cert.KernelIdeal.Gen

end
-- ==== Proof.KI.R5RunB.lean ====
/-
  Custom call 5 at k = 1 … 2: neither branch is taken. The accumulator and the row sums come in at what the point before left, are added to, and go out; the output buffer is untouched.
-/
import proofs.«145590_j23742579212572_2_alg».proof.Proof.KI.R5Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun5_B (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i)
    (x0 : Vec F S512x512 .f32) (x1 : Vec F S2048x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc5__collect_direct_kernel i arg2 harg2 arg3 harg3 arg4 harg4 arg5 harg5 arg6 harg6) K } := by
  refine ⟨[], ?_, ?_, fun xi2 E K => ?run⟩
  case run =>
    simp only [cc5__collect_direct_kernel_eq_skeleton]; unfold cc5__collect_direct_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R5RunA.lean ====
/-
  Custom call 5 at k = 0: the accumulator and the row sums are cleared first (whatever they held), then added to; the output buffer is untouched.
-/
import proofs.«145590_j23742579212572_2_alg».proof.Proof.KI.R5RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun5_A (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i)
    (x0 : Vec F S512x512 .f32) (x1 : Vec F S2048x512 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc5__collect_direct_kernel i arg2 harg2 arg3 harg3 arg4 harg4 arg5 harg5 arg6 harg6) K } := by
  refine ⟨[], ?_, ?_, fun xi2 E K => ?run⟩
  case run =>
    simp only [cc5__collect_direct_kernel_eq_skeleton]; unfold cc5__collect_direct_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R5RunC.lean ====
/-
  Custom call 5 at k = 3: the accumulators are added to a last time and the output block is stored: the accumulator divided by (row sums + ε).
-/
import proofs.«145590_j23742579212572_2_alg».proof.Proof.KI.R5RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun5_C (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc5__collect_direct_kernel i arg2 harg2 arg3 harg3 arg4 harg4 arg5 harg5 arg6 harg6) K } := by
  refine ⟨?_, ?_, ?_, fun E K => ?run⟩
  case run =>
    simp only [cc5__collect_direct_kernel_eq_skeleton]; unfold cc5__collect_direct_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Gen

end
-- ==== Proof.KI.R5.lean ====
/-
  Custom call 5 as proof data for the pipeline: what the output buffer, the accumulator and the column of row sums hold
  after each of the 16 grid points (t = 4·i + k), by recursion on the point — at k = 0 from cleared scratch, at
  k = 1 … 3 from what the point before left —, the invariant that carries the two scratch buffers at those contents
  between points, and the body obligation: at every point the body runs from the invariant before it to the one after it.
-/
import proofs.«145590_j23742579212572_2_alg».proof.Proof.KI.R5RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What this case leaves in the output buffer (nothing is stored: a placeholder nothing consults, the window being idle and not written back here). -/
def out5_A_2 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i)
    (x0 : Vec F S512x512 .f32) (x1 : Vec F S2048x512 .f32) : Vec F S512x512 .f32 :=
  VO5_2.read (Elt F) (VO5_2.writes (Elt F) VO5_2.junk (kernelRun5_A c i arg2 harg2 arg3 harg3 arg4 harg4 arg5 harg5 arg6 harg6 hc0 hc1 x0 x1).1)

/-- The stores into the accumulator cover it. -/
theorem scover5_A_0 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i)
    (x0 : Vec F S512x512 .f32) (x1 : Vec F S2048x512 .f32) (y : S512x512.Idx) :
    ∃ pc ∈ (kernelRun5_A c i arg2 harg2 arg3 harg3 arg4 harg4 arg5 harg5 arg6 harg6 hc0 hc1 x0 x1).2.1, y ∈ pc.1.set :=
  View.cover_of_tiledL (kernelRun5_A c i arg2 harg2 arg3 harg3 arg4 harg4 arg5 harg5 arg6 harg6 hc0 hc1 x0 x1).2.1 S512x512.size (by sl_kernel_rfl) y

/-- What this case leaves in the accumulator. -/
def sout5_A_0 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i)
    (x0 : Vec F S512x512 .f32) (x1 : Vec F S2048x512 .f32) : Vec F S512x512 .f32 :=
  VS5_0.read (Elt F) (VS5_0.writes (Elt F) VS5_0.junk (kernelRun5_A c i arg2 harg2 arg3 harg3 arg4 harg4 arg5 harg5 arg6 harg6 hc0 hc1 x0 x1).2.1)

/-- The stores into the column of row sums cover it. -/
theorem scover5_A_1 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i)
    (x0 : Vec F S512x512 .f32) (x1 : Vec F S2048x512 .f32) (y : S512x1.Idx) :
    ∃ pc ∈ (kernelRun5_A c i arg2 harg2 arg3 harg3 arg4 harg4 arg5 harg5 arg6 harg6 hc0 hc1 x0 x1).2.2.1, y ∈ pc.1.set :=
  View.cover_of_tiledL (kernelRun5_A c i arg2 harg2 arg3 harg3 arg4 harg4 arg5 harg5 arg6 harg6 hc0 hc1 x0 x1).2.2.1 S512x1.size (by sl_kernel_rfl) y

/-- What this case leaves in the column of row sums. -/
def sout5_A_1 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i)
    (x0 : Vec F S512x512 .f32) (x1 : Vec F S2048x512 .f32) : Vec F S512x1 .f32 :=
  VS5_1.read (Elt F) (VS5_1.writes (Elt F) VS5_1.junk (kernelRun5_A c i arg2 harg2 arg3 harg3 arg4 harg4 arg5 harg5 arg6 harg6 hc0 hc1 x0 x1).2.2.1)

/-- What this case leaves in the output buffer (nothing is stored: a placeholder nothing consults, the window being idle and not written back here). -/
def out5_B_2 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i)
    (x0 : Vec F S512x512 .f32) (x1 : Vec F S2048x512 .f32) (xs0 : Vec F S512x512 .f32) (xs1 : Vec F S512x1 .f32) : Vec F S512x512 .f32 :=
  VO5_2.read (Elt F) (VO5_2.writes (Elt F) VO5_2.junk (kernelRun5_B c i arg2 harg2 arg3 harg3 arg4 harg4 arg5 harg5 arg6 harg6 hc0 hc1 x0 x1 xs0 xs1).1)

/-- The stores into the accumulator cover it. -/
theorem scover5_B_0 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i)
    (x0 : Vec F S512x512 .f32) (x1 : Vec F S2048x512 .f32) (xs0 : Vec F S512x512 .f32) (xs1 : Vec F S512x1 .f32) (y : S512x512.Idx) :
    ∃ pc ∈ (kernelRun5_B c i arg2 harg2 arg3 harg3 arg4 harg4 arg5 harg5 arg6 harg6 hc0 hc1 x0 x1 xs0 xs1).2.1, y ∈ pc.1.set :=
  View.cover_of_tiledL (kernelRun5_B c i arg2 harg2 arg3 harg3 arg4 harg4 arg5 harg5 arg6 harg6 hc0 hc1 x0 x1 xs0 xs1).2.1 S512x512.size (by sl_kernel_rfl) y

/-- What this case leaves in the accumulator. -/
def sout5_B_0 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i)
    (x0 : Vec F S512x512 .f32) (x1 : Vec F S2048x512 .f32) (xs0 : Vec F S512x512 .f32) (xs1 : Vec F S512x1 .f32) : Vec F S512x512 .f32 :=
  VS5_0.read (Elt F) (VS5_0.writes (Elt F) VS5_0.junk (kernelRun5_B c i arg2 harg2 arg3 harg3 arg4 harg4 arg5 harg5 arg6 harg6 hc0 hc1 x0 x1 xs0 xs1).2.1)

/-- The stores into the column of row sums cover it. -/
theorem scover5_B_1 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i)
    (x0 : Vec F S512x512 .f32) (x1 : Vec F S2048x512 .f32) (xs0 : Vec F S512x512 .f32) (xs1 : Vec F S512x1 .f32) (y : S512x1.Idx) :
    ∃ pc ∈ (kernelRun5_B c i arg2 harg2 arg3 harg3 arg4 harg4 arg5 harg5 arg6 harg6 hc0 hc1 x0 x1 xs0 xs1).2.2.1, y ∈ pc.1.set :=
  View.cover_of_tiledL (kernelRun5_B c i arg2 harg2 arg3 harg3 arg4 harg4 arg5 harg5 arg6 harg6 hc0 hc1 x0 x1 xs0 xs1).2.2.1 S512x1.size (by sl_kernel_rfl) y

/-- What this case leaves in the column of row sums. -/
def sout5_B_1 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i)
    (x0 : Vec F S512x512 .f32) (x1 : Vec F S2048x512 .f32) (xs0 : Vec F S512x512 .f32) (xs1 : Vec F S512x1 .f32) : Vec F S512x1 .f32 :=
  VS5_1.read (Elt F) (VS5_1.writes (Elt F) VS5_1.junk (kernelRun5_B c i arg2 harg2 arg3 harg3 arg4 harg4 arg5 harg5 arg6 harg6 hc0 hc1 x0 x1 xs0 xs1).2.2.1)

/-- At k = 3 the one store into the output buffer covers it. -/
theorem cover5_C_2 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) (y : S512x512.Idx) :
    ∃ pc ∈ (kernelRun5_C c i arg2 harg2 arg3 harg3 arg4 harg4 arg5 harg5 arg6 harg6 hc0 hc1 x0 x1 xs0 xs1).1, y ∈ pc.1.set :=
  View.cover_of_tiledL (kernelRun5_C c i arg2 harg2 arg3 harg3 arg4 harg4 arg5 harg5 arg6 harg6 hc0 hc1 x0 x1 xs0 xs1).1 S512x512.size (by sl_kernel_rfl) y

/-- What this case leaves in the output buffer: the accumulator over (row sums + ε). -/
def out5_C_2 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) : Vec F S512x512 .f32 :=
  VO5_2.read (Elt F) (VO5_2.writes (Elt F) VO5_2.junk (kernelRun5_C c i arg2 harg2 arg3 harg3 arg4 harg4 arg5 harg5 arg6 harg6 hc0 hc1 x0 x1 xs0 xs1).1)

/-- The stores into the accumulator cover it. -/
theorem scover5_C_0 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) (y : S512x512.Idx) :
    ∃ pc ∈ (kernelRun5_C c i arg2 harg2 arg3 harg3 arg4 harg4 arg5 harg5 arg6 harg6 hc0 hc1 x0 x1 xs0 xs1).2.1, y ∈ pc.1.set :=
  View.cover_of_tiledL (kernelRun5_C c i arg2 harg2 arg3 harg3 arg4 harg4 arg5 harg5 arg6 harg6 hc0 hc1 x0 x1 xs0 xs1).2.1 S512x512.size (by sl_kernel_rfl) y

/-- What this case leaves in the accumulator. -/
def sout5_C_0 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) : Vec F S512x512 .f32 :=
  VS5_0.read (Elt F) (VS5_0.writes (Elt F) VS5_0.junk (kernelRun5_C c i arg2 harg2 arg3 harg3 arg4 harg4 arg5 harg5 arg6 harg6 hc0 hc1 x0 x1 xs0 xs1).2.1)

/-- The stores into the column of row sums cover it. -/
theorem scover5_C_1 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) (y : S512x1.Idx) :
    ∃ pc ∈ (kernelRun5_C c i arg2 harg2 arg3 harg3 arg4 harg4 arg5 harg5 arg6 harg6 hc0 hc1 x0 x1 xs0 xs1).2.2.1, y ∈ pc.1.set :=
  View.cover_of_tiledL (kernelRun5_C c i arg2 harg2 arg3 harg3 arg4 harg4 arg5 harg5 arg6 harg6 hc0 hc1 x0 x1 xs0 xs1).2.2.1 S512x1.size (by sl_kernel_rfl) y

/-- What this case leaves in the column of row sums. -/
def sout5_C_1 (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i)
    (x0 : Vec F S512x512 .f32) (x1 : Vec F S2048x512 .f32) (xs0 : Vec F S512x512 .f32) (xs1 : Vec F S512x1 .f32) : Vec F S512x1 .f32 :=
  VS5_1.read (Elt F) (VS5_1.writes (Elt F) VS5_1.junk (kernelRun5_C c i arg2 harg2 arg3 harg3 arg4 harg4 arg5 harg5 arg6 harg6 hc0 hc1 x0 x1 xs0 xs1).2.2.1)

/-! ## The accumulation -/

/-- What the output buffer, the accumulator and the row sums hold after the body at position `n`. -/
def outsAt5 (c : Dev nD) : (n : ℕ) → n < cfg5.N → Vec F S512x512 .f32 × Vec F S512x512 .f32 × Vec F S512x1 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩))
  | n + 1, hn =>
    if h0 : (n + 1) % 4 = 0 then
      if h1 : (n + 1) % 4 = 3 then
        False.elim (by omega)
      else
        (out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩))
    else
      if h1 : (n + 1) % 4 = 3 then
        (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.1 (outsAt5 c n (Nat.lt_of_succ_lt hn)).2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.1 (outsAt5 c n (Nat.lt_of_succ_lt hn)).2.2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2.1 (outsAt5 c n (Nat.lt_of_succ_lt hn)).2.2)
      else
        (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2.1 (outsAt5 c n (Nat.lt_of_succ_lt hn)).2.2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2.1 (outsAt5 c n (Nat.lt_of_succ_lt hn)).2.2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2.1 (outsAt5 c n (Nat.lt_of_succ_lt hn)).2.2)

theorem outsAt5_A (c : Dev nD) (t : Fin cfg5.N) (h0 : t.val % 4 = 0) (h1 : ¬t.val % 4 = 3) :
    outsAt5 V c t.val t.isLt = (out5_A_2 c (grid5.coords t) (ms5_0 t) (hs5_0 t) (ms5_1 t) (hs5_1 t) (ms5_2 t) (hs5_2 t) scM5_0 (Memref.isWhole_whole _) scM5_1 (Memref.isWhole_whole _) ((hcond5_0 t).mpr h0) (fun h => h1 ((hcond5_1 t).mp h)) (iblk5 V c 0 t) (iblk5 V c 1 t), sout5_A_0 c (grid5.coords t) (ms5_0 t) (hs5_0 t) (ms5_1 t) (hs5_1 t) (ms5_2 t) (hs5_2 t) scM5_0 (Memref.isWhole_whole _) scM5_1 (Memref.isWhole_whole _) ((hcond5_0 t).mpr h0) (fun h => h1 ((hcond5_1 t).mp h)) (iblk5 V c 0 t) (iblk5 V c 1 t), sout5_A_1 c (grid5.coords t) (ms5_0 t) (hs5_0 t) (ms5_1 t) (hs5_1 t) (ms5_2 t) (hs5_2 t) scM5_0 (Memref.isWhole_whole _) scM5_1 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans ((dif_neg h1).trans rfl)

theorem outsAt5_B (c : Dev nD) (t : Fin cfg5.N) (h0 : ¬t.val % 4 = 0) (h1 : ¬t.val % 4 = 3) :
    outsAt5 V c t.val t.isLt = (out5_B_2 c (grid5.coords t) (ms5_0 t) (hs5_0 t) (ms5_1 t) (hs5_1 t) (ms5_2 t) (hs5_2 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2, sout5_B_0 c (grid5.coords t) (ms5_0 t) (hs5_0 t) (ms5_1 t) (hs5_1 t) (ms5_2 t) (hs5_2 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2, sout5_B_1 c (grid5.coords t) (ms5_0 t) (hs5_0 t) (ms5_1 t) (hs5_1 t) (ms5_2 t) (hs5_2 t) scM5_0 (Memref.isWhole_whole _) scM5_1 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 4 = 0) (h1 : t.val % 4 = 3) :
    outsAt5 V c t.val t.isLt = (out5_C_2 c (grid5.coords t) (ms5_0 t) (hs5_0 t) (ms5_1 t) (hs5_1 t) (ms5_2 t) (hs5_2 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2, sout5_C_0 c (grid5.coords t) (ms5_0 t) (hs5_0 t) (ms5_1 t) (hs5_1 t) (ms5_2 t) (hs5_2 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2, sout5_C_1 c (grid5.coords t) (ms5_0 t) (hs5_0 t) (ms5_1 t) (hs5_1 t) (ms5_2 t) (hs5_2 t) scM5_0 (Memref.isWhole_whole _) scM5_1 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant by position -/

/-- The scoped buffers that are neither staged by a window of this call nor one of its two scratch buffers. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- Before the first point every scoped buffer is at anything; after point `n` the two scratch buffers hold what that point left. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.1) ∗ owns (c : Thread nD τ) scM5_1 fullShare ((outsAt5 V c n hn).2.2)) ∗ rest5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2.1) ∗ owns (c : Thread nD τ) scM5_1 fullShare ((outsAt5 V c n hn).2.2)) ∗ rest5 c) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.1) ∗ owns (c : Thread nD τ) scM5_1 fullShare ((outsAt5 V c (n - 1) (by omega)).2.2)) ∗ rest5 c) ∗ (∃ r, prngReg c r)) := by
  cases n with
  | zero => exact absurd rfl hz
  | succ n => rfl

/-- The class's invariant with the two scratch buffers named, each at some contents. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

/-! ## The proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point: the closed forms of the two conditions say which case the point is in; the invariant hands the
    body the two scratch buffers at what the point before left (at anything before the first point), and takes them back at
    this point's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 16 := lt_of_lt_of_eq t.isLt (show cfg5.N = 16 from N_5)
  by_cases h0 : t.val % 4 = 0
  · by_cases h1 : t.val % 4 = 3
    · exfalso; omega
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [Dat.leavesExact_idle (dat5 V c) 2 t (idleAt5_2_A t ((hcond5_0 t).mpr h0) (fun h => h1 ((hcond5_1 t).mp h))) (noFlush5_2_A t ((hcond5_0 t).mpr h0) (fun h => h1 ((hcond5_1 t).mp h)))]
      rw [outsAt5_A V c t h0 h1]
      unfold sout5_A_0 sout5_A_1; (try dsimp only)
      by_cases hz : t.val = 0
      · rw [PhiS5_castSucc V c t, PhiS5_zero V c _ _ hz, PhiA5_eq]
        iintro ⟨⟨⟨⟨HS0, HS1⟩, Hb⟩, Hg⟩, Ho, ⟨%d0, H0⟩, ⟨%d1, H1⟩, ⟨%d2, H2⟩⟩
        iapply ((kernelRun5_A c (grid5.coords t) _ _ _ _ _ _ _ _ _ _ ((hcond5_0 t).mpr h0) (fun h => h1 ((hcond5_1 t).mp h)) (iblk5 V c 0 t) (iblk5 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover5_A_0 c _ _ _ _ _ _ _ _ _ _ _ _ _ _ _)
              · unfold owns; iexists _; isplitr
                swap; · iexact HS1
                ipureintro; exact View.read_writes_of_cover _ _ _ _ _ (scover5_A_1 c _ _ _ _ _ _ _ _ _ _ _ _ _ _ _)
            iexact Hb
          iexact Hg
        isplitl [Ho]; · iexact Ho
        isplitl [H0]; · iexact H0
        isplitl [H1]; · iexact H1
        iexists _; iexact H2
      · rw [PhiS5_castSucc V c t, PhiS5_pos V c _ _ hz]
        iintro ⟨⟨⟨⟨HS0, HS1⟩, Hb⟩, Hg⟩, Ho, ⟨%d0, H0⟩, ⟨%d1, H1⟩, ⟨%d2, H2⟩⟩
        iapply ((kernelRun5_A c (grid5.coords t) _ _ _ _ _ _ _ _ _ _ ((hcond5_0 t).mpr h0) (fun h => h1 ((hcond5_1 t).mp h)) (iblk5 V c 0 t) (iblk5 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover5_A_0 c _ _ _ _ _ _ _ _ _ _ _ _ _ _ _)
              · unfold owns; iexists _; isplitr
                swap; · iexact HS1
                ipureintro; exact View.read_writes_of_cover _ _ _ _ _ (scover5_A_1 c _ _ _ _ _ _ _ _ _ _ _ _ _ _ _)
            iexact Hb
          iexact Hg
        isplitl [Ho]; · iexact Ho
        isplitl [H0]; · iexact H0
        isplitl [H1]; · iexact H1
        iexists _; iexact H2
  · by_cases h1 : t.val % 4 = 3
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2_C t (fun h => h0 ((hcond5_0 t).mp h)) ((hcond5_1 t).mpr h1)], after5_2]
      rw [outsAt5_C V c t h0 h1]
      unfold out5_C_2 sout5_C_0 sout5_C_1; (try dsimp only)
      by_cases hz : t.val = 0
      · exfalso; omega
      · rw [PhiS5_castSucc V c t, PhiS5_pos V c _ _ hz]
        iintro ⟨⟨⟨⟨HS0, HS1⟩, Hb⟩, Hg⟩, Ho, ⟨%d0, H0⟩, ⟨%d1, H1⟩, ⟨%d2, H2⟩⟩
        iapply ((kernelRun5_C c (grid5.coords t) _ _ _ _ _ _ _ _ _ _ (fun h => h0 ((hcond5_0 t).mp h)) ((hcond5_1 t).mpr h1) (iblk5 V c 0 t) (iblk5 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover5_C_0 c _ _ _ _ _ _ _ _ _ _ _ _ _ _ _ _ _)
              · unfold owns; iexists _; isplitr
                swap; · iexact HS1
                ipureintro; exact View.read_writes_of_cover _ _ _ _ _ (scover5_C_1 c _ _ _ _ _ _ _ _ _ _ _ _ _ _ _ _ _)
            iexact Hb
          iexact Hg
        isplitl [Ho]; · iexact Ho
        isplitl [H0]; · iexact H0
        isplitl [H1]; · iexact H1
        unfold owns; iexists _; isplitr
        swap; · iexact H2
        ipureintro; exact View.read_writes_of_cover _ _ _ _ _ (cover5_C_2 c _ _ _ _ _ _ _ _ _ _ _ _ _ _ _ _ _)
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [Dat.leavesExact_idle (dat5 V c) 2 t (idleAt5_2_B t (fun h => h0 ((hcond5_0 t).mp h)) (fun h => h1 ((hcond5_1 t).mp h))) (noFlush5_2_B t (fun h => h0 ((hcond5_0 t).mp h)) (fun h => h1 ((hcond5_1 t).mp h)))]
      rw [outsAt5_B V c t h0 h1]
      unfold sout5_B_0 sout5_B_1; (try dsimp only)
      by_cases hz : t.val = 0
      · exfalso; omega
      · rw [PhiS5_castSucc V c t, PhiS5_pos V c _ _ hz]
        iintro ⟨⟨⟨⟨HS0, HS1⟩, Hb⟩, Hg⟩, Ho, ⟨%d0, H0⟩, ⟨%d1, H1⟩, ⟨%d2, H2⟩⟩
        iapply ((kernelRun5_B c (grid5.coords t) _ _ _ _ _ _ _ _ _ _ (fun h => h0 ((hcond5_0 t).mp h)) (fun h => h1 ((hcond5_1 t).mp h)) (iblk5 V c 0 t) (iblk5 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover5_B_0 c _ _ _ _ _ _ _ _ _ _ _ _ _ _ _ _ _)
              · unfold owns; iexists _; isplitr
                swap; · iexact HS1
                ipureintro; exact View.read_writes_of_cover _ _ _ _ _ (scover5_B_1 c _ _ _ _ _ _ _ _ _ _ _ _ _ _ _ _ _)
            iexact Hb
          iexact Hg
        isplitl [Ho]; · iexact Ho
        isplitl [H0]; · iexact H0
        isplitl [H1]; · iexact H1
        iexists _; iexact H2

theorem body_obligation5 (c : Dev nD) : BodyObligation (dat5 (F := F) V c) (defs₀ (F := F)) Variants.none () Set.univ := fun t => by
  rw [bigSep_W5, bigSep_W5]
  exact sound_body5 V c t

/-! ## The invariant at the two ends -/

theorem Phi5_zero (c : Dev nD) : (dat5 V c).Φ 0 = Pipeline.ΦA spec5 c := rfl

/-- After any point but the first the invariant gives the class's back: what the scratch buffers hold is forgotten. -/
theorem Phi5_out (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, Hb⟩, Hg⟩
  isplitl [HS0 HS1 Hb]
  · isplitl [HS0 HS1]
    · isplitl [HS0]
      · iexists _; iexact HS0
      · iexists _; iexact HS1
    iexact Hb
  iexact Hg

theorem hout5 (c : Dev nD) : (dat5 V c).Φ (Fin.last cfg5.N) ⊢ Pipeline.ΦA spec5 c :=
  Phi5_out V c _ (by rw [Fin.val_last]; have : cfg5.N = 16 := N_5; omega)

end Cert.KernelIdeal.Gen

end
-- ==== Proof.KI.R6Runs.lean ====
/-
  Custom call 6 accumulates a row block of attn @ fc over the inner grid axis k (16 steps of 512 source rows) in two
  scratch buffers: a [512,512] accumulator and a [512,1] column of row sums. Both are cleared at k = 0, added to at
  every k, and at k = 15 the output block is the accumulator divided by (row sums + ε). This module fixes what the
  three control cases of that body are stated over: the two branch conditions in closed form over the sixteen grid
  points (t = 4·i + k), where the output window is idle, and the memrefs the body is called with.
-/
import proofs.«145590_j23742579212572_2_alg».proof.Proof.Gen.KernelIdeal.Launch
import proofs.«145590_j23742579212572_2_alg».proof.Proof.Gen.KernelIdeal.Skeleton
import proofs.«145590_j23742579212572_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The attn block: its staging buffer holds its block at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The whole fc array, fetched once: its staging buffer holds it at every point (the index never moves). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The two branch conditions over the grid -/

/-- "k = 0": the accumulators are cleared. -/
abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 16 = 0 :=
  (by decide +kernel : ∀ t : Fin grid6.N, cond6_0 (grid6.coords t) ↔ t.val % 16 = 0)

/-- "k = 15": the output block is written. -/
abbrev cond6_1 (i : grid6.Coords) : Prop := k6_cond2 i = 1#1
theorem hcond6_1 : ∀ t : Fin cfg6.N, cond6_1 (grid6.coords t) ↔ t.val % 16 = 15 :=
  (by decide +kernel : ∀ t : Fin grid6.N, cond6_1 (grid6.coords t) ↔ t.val % 16 = 15)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
/-- At k = 0 the output window is idle and not written back. -/
theorem idleAt6_2_A : ∀ t : Fin cfg6.N, cond6_0 (grid6.coords t) → ¬cond6_1 (grid6.coords t) → cfg6.idle 2 (grid6.coords t) = true := by decide +kernel
theorem noFlush6_2_A : ∀ t : Fin cfg6.N, cond6_0 (grid6.coords t) → ¬cond6_1 (grid6.coords t) → (cfg6.win 2).flush t = false := by decide +kernel
/-- At k = 1 … 14 likewise. -/
theorem idleAt6_2_B : ∀ t : Fin cfg6.N, ¬cond6_0 (grid6.coords t) → ¬cond6_1 (grid6.coords t) → cfg6.idle 2 (grid6.coords t) = true := by decide +kernel
theorem noFlush6_2_B : ∀ t : Fin cfg6.N, ¬cond6_0 (grid6.coords t) → ¬cond6_1 (grid6.coords t) → (cfg6.win 2).flush t = false := by decide +kernel
/-- At k = 15 it is live. -/
theorem liveAt6_2_C : ∀ t : Fin cfg6.N, ¬cond6_0 (grid6.coords t) → cond6_1 (grid6.coords t) → cfg6.idle 2 (grid6.coords t) = false := by decide +kernel

/-! ## The memrefs the body is called with -/

/-- One staging buffer of the output window, through which its contents are stated. -/
abbrev VO6_2 : View sig .tc .vmem S512x512 .f32 := (Memref.whole cc6_stg2_0 : Memref sig .tc .vmem S512x512 .f32).view
abbrev ms6_0 (t : Fin cfg6.N) : Memref sig .tc .vmem S512x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S8192x512 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S512x512 .f32 := win6_2.stage (cfg6.slots t 2)
abbrev hs6_2 (t : Fin cfg6.N) : (ms6_2 t).IsWhole := hstage6_2 ((cfg6.slots t 2).cast nbuf6_2)
/-- The accumulator and the column of row sums: whole scoped buffers of the kernel's own. -/
abbrev scM6_0 : Memref sig .tc .vmem S512x512 .f32 := Memref.whole cc6_scratch0
abbrev scM6_1 : Memref sig .tc .vmem S512x1 .f32 := Memref.whole cc6_scratch1
abbrev VS6_0 : View sig .tc .vmem S512x512 .f32 := scM6_0.view
abbrev VS6_1 : View sig .tc .vmem S512x1 .f32 := scM6_1.view

end Cert.KernelIdeal.Gen

end
-- ==== Proof.KI.R6RunB.lean ====
/-
  Custom call 6 at k = 1 … 14: neither branch is taken. The accumulator and the row sums come in at what the point before left, are added to, and go out; the output buffer is untouched.
-/
import proofs.«145590_j23742579212572_2_alg».proof.Proof.KI.R6Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun6_B (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i)
    (x0 : Vec F S512x512 .f32) (x1 : Vec F S8192x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc6__collect_direct_kernel i arg2 harg2 arg3 harg3 arg4 harg4 arg5 harg5 arg6 harg6) K } := by
  refine ⟨[], ?_, ?_, fun xi2 E K => ?run⟩
  case run =>
    simp only [cc6__collect_direct_kernel_eq_skeleton]; unfold cc6__collect_direct_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R6RunA.lean ====
/-
  Custom call 6 at k = 0: the accumulator and the row sums are cleared first (whatever they held), then added to; the output buffer is untouched.
-/
import proofs.«145590_j23742579212572_2_alg».proof.Proof.KI.R6RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun6_A (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i)
    (x0 : Vec F S512x512 .f32) (x1 : Vec F S8192x512 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc6__collect_direct_kernel i arg2 harg2 arg3 harg3 arg4 harg4 arg5 harg5 arg6 harg6) K } := by
  refine ⟨[], ?_, ?_, fun xi2 E K => ?run⟩
  case run =>
    simp only [cc6__collect_direct_kernel_eq_skeleton]; unfold cc6__collect_direct_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R6RunC.lean ====
/-
  Custom call 6 at k = 15: the accumulators are added to a last time and the output block is stored: the accumulator divided by (row sums + ε).
-/
import proofs.«145590_j23742579212572_2_alg».proof.Proof.KI.R6RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun6_C (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc6__collect_direct_kernel i arg2 harg2 arg3 harg3 arg4 harg4 arg5 harg5 arg6 harg6) K } := by
  refine ⟨?_, ?_, ?_, fun E K => ?run⟩
  case run =>
    simp only [cc6__collect_direct_kernel_eq_skeleton]; unfold cc6__collect_direct_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Gen

end
-- ==== Proof.KI.R6.lean ====
/-
  Custom call 6 as proof data for the pipeline: what the output buffer, the accumulator and the column of row sums hold
  after each of the 64 grid points (t = 16·i + k), by recursion on the point — at k = 0 from cleared scratch, at
  k = 1 … 15 from what the point before left —, the invariant that carries the two scratch buffers at those contents
  between points, and the body obligation: at every point the body runs from the invariant before it to the one after it.
-/
import proofs.«145590_j23742579212572_2_alg».proof.Proof.KI.R6RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What this case leaves in the output buffer (nothing is stored: a placeholder nothing consults, the window being idle and not written back here). -/
def out6_A_2 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i)
    (x0 : Vec F S512x512 .f32) (x1 : Vec F S8192x512 .f32) : Vec F S512x512 .f32 :=
  VO6_2.read (Elt F) (VO6_2.writes (Elt F) VO6_2.junk (kernelRun6_A c i arg2 harg2 arg3 harg3 arg4 harg4 arg5 harg5 arg6 harg6 hc0 hc1 x0 x1).1)

/-- The stores into the accumulator cover it. -/
theorem scover6_A_0 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i)
    (x0 : Vec F S512x512 .f32) (x1 : Vec F S8192x512 .f32) (y : S512x512.Idx) :
    ∃ pc ∈ (kernelRun6_A c i arg2 harg2 arg3 harg3 arg4 harg4 arg5 harg5 arg6 harg6 hc0 hc1 x0 x1).2.1, y ∈ pc.1.set :=
  View.cover_of_tiledL (kernelRun6_A c i arg2 harg2 arg3 harg3 arg4 harg4 arg5 harg5 arg6 harg6 hc0 hc1 x0 x1).2.1 S512x512.size (by sl_kernel_rfl) y

/-- What this case leaves in the accumulator. -/
def sout6_A_0 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i)
    (x0 : Vec F S512x512 .f32) (x1 : Vec F S8192x512 .f32) : Vec F S512x512 .f32 :=
  VS6_0.read (Elt F) (VS6_0.writes (Elt F) VS6_0.junk (kernelRun6_A c i arg2 harg2 arg3 harg3 arg4 harg4 arg5 harg5 arg6 harg6 hc0 hc1 x0 x1).2.1)

/-- The stores into the column of row sums cover it. -/
theorem scover6_A_1 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i)
    (x0 : Vec F S512x512 .f32) (x1 : Vec F S8192x512 .f32) (y : S512x1.Idx) :
    ∃ pc ∈ (kernelRun6_A c i arg2 harg2 arg3 harg3 arg4 harg4 arg5 harg5 arg6 harg6 hc0 hc1 x0 x1).2.2.1, y ∈ pc.1.set :=
  View.cover_of_tiledL (kernelRun6_A c i arg2 harg2 arg3 harg3 arg4 harg4 arg5 harg5 arg6 harg6 hc0 hc1 x0 x1).2.2.1 S512x1.size (by sl_kernel_rfl) y

/-- What this case leaves in the column of row sums. -/
def sout6_A_1 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i)
    (x0 : Vec F S512x512 .f32) (x1 : Vec F S8192x512 .f32) : Vec F S512x1 .f32 :=
  VS6_1.read (Elt F) (VS6_1.writes (Elt F) VS6_1.junk (kernelRun6_A c i arg2 harg2 arg3 harg3 arg4 harg4 arg5 harg5 arg6 harg6 hc0 hc1 x0 x1).2.2.1)

/-- What this case leaves in the output buffer (nothing is stored: a placeholder nothing consults, the window being idle and not written back here). -/
def out6_B_2 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i)
    (x0 : Vec F S512x512 .f32) (x1 : Vec F S8192x512 .f32) (xs0 : Vec F S512x512 .f32) (xs1 : Vec F S512x1 .f32) : Vec F S512x512 .f32 :=
  VO6_2.read (Elt F) (VO6_2.writes (Elt F) VO6_2.junk (kernelRun6_B c i arg2 harg2 arg3 harg3 arg4 harg4 arg5 harg5 arg6 harg6 hc0 hc1 x0 x1 xs0 xs1).1)

/-- The stores into the accumulator cover it. -/
theorem scover6_B_0 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i)
    (x0 : Vec F S512x512 .f32) (x1 : Vec F S8192x512 .f32) (xs0 : Vec F S512x512 .f32) (xs1 : Vec F S512x1 .f32) (y : S512x512.Idx) :
    ∃ pc ∈ (kernelRun6_B c i arg2 harg2 arg3 harg3 arg4 harg4 arg5 harg5 arg6 harg6 hc0 hc1 x0 x1 xs0 xs1).2.1, y ∈ pc.1.set :=
  View.cover_of_tiledL (kernelRun6_B c i arg2 harg2 arg3 harg3 arg4 harg4 arg5 harg5 arg6 harg6 hc0 hc1 x0 x1 xs0 xs1).2.1 S512x512.size (by sl_kernel_rfl) y

/-- What this case leaves in the accumulator. -/
def sout6_B_0 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i)
    (x0 : Vec F S512x512 .f32) (x1 : Vec F S8192x512 .f32) (xs0 : Vec F S512x512 .f32) (xs1 : Vec F S512x1 .f32) : Vec F S512x512 .f32 :=
  VS6_0.read (Elt F) (VS6_0.writes (Elt F) VS6_0.junk (kernelRun6_B c i arg2 harg2 arg3 harg3 arg4 harg4 arg5 harg5 arg6 harg6 hc0 hc1 x0 x1 xs0 xs1).2.1)

/-- The stores into the column of row sums cover it. -/
theorem scover6_B_1 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i)
    (x0 : Vec F S512x512 .f32) (x1 : Vec F S8192x512 .f32) (xs0 : Vec F S512x512 .f32) (xs1 : Vec F S512x1 .f32) (y : S512x1.Idx) :
    ∃ pc ∈ (kernelRun6_B c i arg2 harg2 arg3 harg3 arg4 harg4 arg5 harg5 arg6 harg6 hc0 hc1 x0 x1 xs0 xs1).2.2.1, y ∈ pc.1.set :=
  View.cover_of_tiledL (kernelRun6_B c i arg2 harg2 arg3 harg3 arg4 harg4 arg5 harg5 arg6 harg6 hc0 hc1 x0 x1 xs0 xs1).2.2.1 S512x1.size (by sl_kernel_rfl) y

/-- What this case leaves in the column of row sums. -/
def sout6_B_1 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i)
    (x0 : Vec F S512x512 .f32) (x1 : Vec F S8192x512 .f32) (xs0 : Vec F S512x512 .f32) (xs1 : Vec F S512x1 .f32) : Vec F S512x1 .f32 :=
  VS6_1.read (Elt F) (VS6_1.writes (Elt F) VS6_1.junk (kernelRun6_B c i arg2 harg2 arg3 harg3 arg4 harg4 arg5 harg5 arg6 harg6 hc0 hc1 x0 x1 xs0 xs1).2.2.1)

/-- At k = 15 the one store into the output buffer covers it. -/
theorem cover6_C_2 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) (y : S512x512.Idx) :
    ∃ pc ∈ (kernelRun6_C c i arg2 harg2 arg3 harg3 arg4 harg4 arg5 harg5 arg6 harg6 hc0 hc1 x0 x1 xs0 xs1).1, y ∈ pc.1.set :=
  View.cover_of_tiledL (kernelRun6_C c i arg2 harg2 arg3 harg3 arg4 harg4 arg5 harg5 arg6 harg6 hc0 hc1 x0 x1 xs0 xs1).1 S512x512.size (by sl_kernel_rfl) y

/-- What this case leaves in the output buffer: the accumulator over (row sums + ε). -/
def out6_C_2 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) : Vec F S512x512 .f32 :=
  VO6_2.read (Elt F) (VO6_2.writes (Elt F) VO6_2.junk (kernelRun6_C c i arg2 harg2 arg3 harg3 arg4 harg4 arg5 harg5 arg6 harg6 hc0 hc1 x0 x1 xs0 xs1).1)

/-- The stores into the accumulator cover it. -/
theorem scover6_C_0 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) (y : S512x512.Idx) :
    ∃ pc ∈ (kernelRun6_C c i arg2 harg2 arg3 harg3 arg4 harg4 arg5 harg5 arg6 harg6 hc0 hc1 x0 x1 xs0 xs1).2.1, y ∈ pc.1.set :=
  View.cover_of_tiledL (kernelRun6_C c i arg2 harg2 arg3 harg3 arg4 harg4 arg5 harg5 arg6 harg6 hc0 hc1 x0 x1 xs0 xs1).2.1 S512x512.size (by sl_kernel_rfl) y

/-- What this case leaves in the accumulator. -/
def sout6_C_0 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) : Vec F S512x512 .f32 :=
  VS6_0.read (Elt F) (VS6_0.writes (Elt F) VS6_0.junk (kernelRun6_C c i arg2 harg2 arg3 harg3 arg4 harg4 arg5 harg5 arg6 harg6 hc0 hc1 x0 x1 xs0 xs1).2.1)

/-- The stores into the column of row sums cover it. -/
theorem scover6_C_1 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) (y : S512x1.Idx) :
    ∃ pc ∈ (kernelRun6_C c i arg2 harg2 arg3 harg3 arg4 harg4 arg5 harg5 arg6 harg6 hc0 hc1 x0 x1 xs0 xs1).2.2.1, y ∈ pc.1.set :=
  View.cover_of_tiledL (kernelRun6_C c i arg2 harg2 arg3 harg3 arg4 harg4 arg5 harg5 arg6 harg6 hc0 hc1 x0 x1 xs0 xs1).2.2.1 S512x1.size (by sl_kernel_rfl) y

/-- What this case leaves in the column of row sums. -/
def sout6_C_1 (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i)
    (x0 : Vec F S512x512 .f32) (x1 : Vec F S8192x512 .f32) (xs0 : Vec F S512x512 .f32) (xs1 : Vec F S512x1 .f32) : Vec F S512x1 .f32 :=
  VS6_1.read (Elt F) (VS6_1.writes (Elt F) VS6_1.junk (kernelRun6_C c i arg2 harg2 arg3 harg3 arg4 harg4 arg5 harg5 arg6 harg6 hc0 hc1 x0 x1 xs0 xs1).2.2.1)

/-! ## The accumulation -/

/-- What the output buffer, the accumulator and the row sums hold after the body at position `n`. -/
def outsAt6 (c : Dev nD) : (n : ℕ) → n < cfg6.N → Vec F S512x512 .f32 × Vec F S512x512 .f32 × Vec F S512x1 .f32
  | 0, hn => (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩))
  | n + 1, hn =>
    if h0 : (n + 1) % 16 = 0 then
      if h1 : (n + 1) % 16 = 15 then
        False.elim (by omega)
      else
        (out6_A_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩), sout6_A_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩))
    else
      if h1 : (n + 1) % 16 = 15 then
        (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2.1 (outsAt6 c n (Nat.lt_of_succ_lt hn)).2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2.1 (outsAt6 c n (Nat.lt_of_succ_lt hn)).2.2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2.1 (outsAt6 c n (Nat.lt_of_succ_lt hn)).2.2)
      else
        (out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2.1 (outsAt6 c n (Nat.lt_of_succ_lt hn)).2.2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2.1 (outsAt6 c n (Nat.lt_of_succ_lt hn)).2.2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2.1 (outsAt6 c n (Nat.lt_of_succ_lt hn)).2.2)

theorem outsAt6_A (c : Dev nD) (t : Fin cfg6.N) (h0 : t.val % 16 = 0) (h1 : ¬t.val % 16 = 15) :
    outsAt6 V c t.val t.isLt = (out6_A_2 c (grid6.coords t) (ms6_0 t) (hs6_0 t) (ms6_1 t) (hs6_1 t) (ms6_2 t) (hs6_2 t) scM6_0 (Memref.isWhole_whole _) scM6_1 (Memref.isWhole_whole _) ((hcond6_0 t).mpr h0) (fun h => h1 ((hcond6_1 t).mp h)) (iblk6 V c 0 t) (iblk6 V c 1 t), sout6_A_0 c (grid6.coords t) (ms6_0 t) (hs6_0 t) (ms6_1 t) (hs6_1 t) (ms6_2 t) (hs6_2 t) scM6_0 (Memref.isWhole_whole _) scM6_1 (Memref.isWhole_whole _) ((hcond6_0 t).mpr h0) (fun h => h1 ((hcond6_1 t).mp h)) (iblk6 V c 0 t) (iblk6 V c 1 t), sout6_A_1 c (grid6.coords t) (ms6_0 t) (hs6_0 t) (ms6_1 t) (hs6_1 t) (ms6_2 t) (hs6_2 t) scM6_0 (Memref.isWhole_whole _) scM6_1 (Memref.isWhole_whole _) ((hcond6_0 t).mpr h0) (fun h => h1 ((hcond6_1 t).mp h)) (iblk6 V c 0 t) (iblk6 V c 1 t)) := by
  obtain ⟨n, hn⟩ := t
  cases n with
  | zero => exact rfl
  | succ n => exact (dif_pos h0).trans ((dif_neg h1).trans rfl)

theorem outsAt6_B (c : Dev nD) (t : Fin cfg6.N) (h0 : ¬t.val % 16 = 0) (h1 : ¬t.val % 16 = 15) :
    outsAt6 V c t.val t.isLt = (out6_B_2 c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2.1 (outsAt6 V c (t.val - 1) (Nat.lt_of_le_of_lt (Nat.sub_le _ _) t.isLt)).2.2, sout6_B_0 c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2.1 (outsAt6 V c (t.val - 1) (Nat.lt_of_le_of_lt (Nat.sub_le _ _) t.isLt)).2.2, sout6_B_1 c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 16 = 0) (h1 : t.val % 16 = 15) :
    outsAt6 V c t.val t.isLt = (out6_C_2 c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2.1 (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2.1 (outsAt6 V c (t.val - 1) (Nat.lt_of_le_of_lt (Nat.sub_le _ _) t.isLt)).2.2, sout6_C_1 c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant by position -/

/-- The scoped buffers that are neither staged by a window of this call nor one of its two scratch buffers. -/
abbrev rest6 (c : Dev nD) : sProp 𝕄 :=
  Pipeline.scopedRestBut (Ix := Unit) (Name := ℕ) (U := UR sig nD τ) (Lvl := ℕ) (Val := Elt F) spec6 c [cc6_scratch0, cc6_scratch1]

/-- Before the first point every scoped buffer is at anything; after point `n` the two scratch buffers hold what that point left. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.1) ∗ owns (c : Thread nD τ) scM6_1 fullShare ((outsAt6 V c n hn).2.2)) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2.1) ∗ owns (c : Thread nD τ) scM6_1 fullShare ((outsAt6 V c n hn).2.2)) ∗ rest6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.1) ∗ owns (c : Thread nD τ) scM6_1 fullShare ((outsAt6 V c (n - 1) (by omega)).2.2)) ∗ rest6 c) ∗ (∃ r, prngReg c r)) := by
  cases n with
  | zero => exact absurd rfl hz
  | succ n => rfl

/-- The class's invariant with the two scratch buffers named, each at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

/-! ## The proof data -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point: the closed forms of the two conditions say which case the point is in; the invariant hands the
    body the two scratch buffers at what the point before left (at anything before the first point), and takes them back at
    this point's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 64 := lt_of_lt_of_eq t.isLt (show cfg6.N = 64 from N_6)
  by_cases h0 : t.val % 16 = 0
  · by_cases h1 : t.val % 16 = 15
    · exfalso; omega
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [Dat.leavesExact_idle (dat6 V c) 2 t (idleAt6_2_A t ((hcond6_0 t).mpr h0) (fun h => h1 ((hcond6_1 t).mp h))) (noFlush6_2_A t ((hcond6_0 t).mpr h0) (fun h => h1 ((hcond6_1 t).mp h)))]
      rw [outsAt6_A V c t h0 h1]
      unfold sout6_A_0 sout6_A_1; (try dsimp only)
      by_cases hz : t.val = 0
      · rw [PhiS6_castSucc V c t, PhiS6_zero V c _ _ hz, PhiA6_eq]
        iintro ⟨⟨⟨⟨HS0, HS1⟩, Hb⟩, Hg⟩, Ho, ⟨%d0, H0⟩, ⟨%d1, H1⟩, ⟨%d2, H2⟩⟩
        iapply ((kernelRun6_A c (grid6.coords t) _ _ _ _ _ _ _ _ _ _ ((hcond6_0 t).mpr h0) (fun h => h1 ((hcond6_1 t).mp h)) (iblk6 V c 0 t) (iblk6 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover6_A_0 c _ _ _ _ _ _ _ _ _ _ _ _ _ _ _)
              · unfold owns; iexists _; isplitr
                swap; · iexact HS1
                ipureintro; exact View.read_writes_of_cover _ _ _ _ _ (scover6_A_1 c _ _ _ _ _ _ _ _ _ _ _ _ _ _ _)
            iexact Hb
          iexact Hg
        isplitl [Ho]; · iexact Ho
        isplitl [H0]; · iexact H0
        isplitl [H1]; · iexact H1
        iexists _; iexact H2
      · rw [PhiS6_castSucc V c t, PhiS6_pos V c _ _ hz]
        iintro ⟨⟨⟨⟨HS0, HS1⟩, Hb⟩, Hg⟩, Ho, ⟨%d0, H0⟩, ⟨%d1, H1⟩, ⟨%d2, H2⟩⟩
        iapply ((kernelRun6_A c (grid6.coords t) _ _ _ _ _ _ _ _ _ _ ((hcond6_0 t).mpr h0) (fun h => h1 ((hcond6_1 t).mp h)) (iblk6 V c 0 t) (iblk6 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover6_A_0 c _ _ _ _ _ _ _ _ _ _ _ _ _ _ _)
              · unfold owns; iexists _; isplitr
                swap; · iexact HS1
                ipureintro; exact View.read_writes_of_cover _ _ _ _ _ (scover6_A_1 c _ _ _ _ _ _ _ _ _ _ _ _ _ _ _)
            iexact Hb
          iexact Hg
        isplitl [Ho]; · iexact Ho
        isplitl [H0]; · iexact H0
        isplitl [H1]; · iexact H1
        iexists _; iexact H2
  · by_cases h1 : t.val % 16 = 15
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2_C t (fun h => h0 ((hcond6_0 t).mp h)) ((hcond6_1 t).mpr h1)], after6_2]
      rw [outsAt6_C V c t h0 h1]
      unfold out6_C_2 sout6_C_0 sout6_C_1; (try dsimp only)
      by_cases hz : t.val = 0
      · exfalso; omega
      · rw [PhiS6_castSucc V c t, PhiS6_pos V c _ _ hz]
        iintro ⟨⟨⟨⟨HS0, HS1⟩, Hb⟩, Hg⟩, Ho, ⟨%d0, H0⟩, ⟨%d1, H1⟩, ⟨%d2, H2⟩⟩
        iapply ((kernelRun6_C c (grid6.coords t) _ _ _ _ _ _ _ _ _ _ (fun h => h0 ((hcond6_0 t).mp h)) ((hcond6_1 t).mpr h1) (iblk6 V c 0 t) (iblk6 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover6_C_0 c _ _ _ _ _ _ _ _ _ _ _ _ _ _ _ _ _)
              · unfold owns; iexists _; isplitr
                swap; · iexact HS1
                ipureintro; exact View.read_writes_of_cover _ _ _ _ _ (scover6_C_1 c _ _ _ _ _ _ _ _ _ _ _ _ _ _ _ _ _)
            iexact Hb
          iexact Hg
        isplitl [Ho]; · iexact Ho
        isplitl [H0]; · iexact H0
        isplitl [H1]; · iexact H1
        unfold owns; iexists _; isplitr
        swap; · iexact H2
        ipureintro; exact View.read_writes_of_cover _ _ _ _ _ (cover6_C_2 c _ _ _ _ _ _ _ _ _ _ _ _ _ _ _ _ _)
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [Dat.leavesExact_idle (dat6 V c) 2 t (idleAt6_2_B t (fun h => h0 ((hcond6_0 t).mp h)) (fun h => h1 ((hcond6_1 t).mp h))) (noFlush6_2_B t (fun h => h0 ((hcond6_0 t).mp h)) (fun h => h1 ((hcond6_1 t).mp h)))]
      rw [outsAt6_B V c t h0 h1]
      unfold sout6_B_0 sout6_B_1; (try dsimp only)
      by_cases hz : t.val = 0
      · exfalso; omega
      · rw [PhiS6_castSucc V c t, PhiS6_pos V c _ _ hz]
        iintro ⟨⟨⟨⟨HS0, HS1⟩, Hb⟩, Hg⟩, Ho, ⟨%d0, H0⟩, ⟨%d1, H1⟩, ⟨%d2, H2⟩⟩
        iapply ((kernelRun6_B c (grid6.coords t) _ _ _ _ _ _ _ _ _ _ (fun h => h0 ((hcond6_0 t).mp h)) (fun h => h1 ((hcond6_1 t).mp h)) (iblk6 V c 0 t) (iblk6 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover6_B_0 c _ _ _ _ _ _ _ _ _ _ _ _ _ _ _ _ _)
              · unfold owns; iexists _; isplitr
                swap; · iexact HS1
                ipureintro; exact View.read_writes_of_cover _ _ _ _ _ (scover6_B_1 c _ _ _ _ _ _ _ _ _ _ _ _ _ _ _ _ _)
            iexact Hb
          iexact Hg
        isplitl [Ho]; · iexact Ho
        isplitl [H0]; · iexact H0
        isplitl [H1]; · iexact H1
        iexists _; iexact H2

theorem body_obligation6 (c : Dev nD) : BodyObligation (dat6 (F := F) V c) (defs₀ (F := F)) Variants.none () Set.univ := fun t => by
  rw [bigSep_W6, bigSep_W6]
  exact sound_body6 V c t

/-! ## The invariant at the two ends -/

theorem Phi6_zero (c : Dev nD) : (dat6 V c).Φ 0 = Pipeline.ΦA spec6 c := rfl

/-- After any point but the first the invariant gives the class's back: what the scratch buffers hold is forgotten. -/
theorem Phi6_out (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hb⟩, Hg⟩
  isplitl [HS0 HS1 Hb]
  · isplitl [HS0 HS1]
    · isplitl [HS0]
      · iexists _; iexact HS0
      · iexists _; iexact HS1
    iexact Hb
  iexact Hg

theorem hout6 (c : Dev nD) : (dat6 V c).Φ (Fin.last cfg6.N) ⊢ Pipeline.ΦA spec6 c :=
  Phi6_out V c _ (by rw [Fin.val_last]; have : cfg6.N = 64 := N_6; omega)

end Cert.KernelIdeal.Gen

end
-- ==== Proof.KI.R7Runs.lean ====
/-
  Custom call 7 accumulates a row block of attn @ fc over the inner grid axis k (16 steps of 512 source rows) in two
  scratch buffers: a [512,512] accumulator and a [512,1] column of row sums. Both are cleared at k = 0, added to at
  every k, and at k = 15 the output block is the accumulator divided by (row sums + ε). This module fixes what the
  three control cases of that body are stated over: the two branch conditions in closed form over the sixteen grid
  points (t = 4·i + k), where the output window is idle, and the memrefs the body is called with.
-/
import proofs.«145590_j23742579212572_2_alg».proof.Proof.Gen.KernelIdeal.Launch
import proofs.«145590_j23742579212572_2_alg».proof.Proof.Gen.KernelIdeal.Skeleton
import proofs.«145590_j23742579212572_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The attn block: its staging buffer holds its block at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The whole fc array, fetched once: its staging buffer holds it at every point (the index never moves). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The two branch conditions over the grid -/

/-- "k = 0": the accumulators are cleared. -/
abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 16 = 0 :=
  (by decide +kernel : ∀ t : Fin grid7.N, cond7_0 (grid7.coords t) ↔ t.val % 16 = 0)

/-- "k = 15": the output block is written. -/
abbrev cond7_1 (i : grid7.Coords) : Prop := k7_cond2 i = 1#1
theorem hcond7_1 : ∀ t : Fin cfg7.N, cond7_1 (grid7.coords t) ↔ t.val % 16 = 15 :=
  (by decide +kernel : ∀ t : Fin grid7.N, cond7_1 (grid7.coords t) ↔ t.val % 16 = 15)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
/-- At k = 0 the output window is idle and not written back. -/
theorem idleAt7_2_A : ∀ t : Fin cfg7.N, cond7_0 (grid7.coords t) → ¬cond7_1 (grid7.coords t) → cfg7.idle 2 (grid7.coords t) = true := by decide +kernel
theorem noFlush7_2_A : ∀ t : Fin cfg7.N, cond7_0 (grid7.coords t) → ¬cond7_1 (grid7.coords t) → (cfg7.win 2).flush t = false := by decide +kernel
/-- At k = 1 … 14 likewise. -/
theorem idleAt7_2_B : ∀ t : Fin cfg7.N, ¬cond7_0 (grid7.coords t) → ¬cond7_1 (grid7.coords t) → cfg7.idle 2 (grid7.coords t) = true := by decide +kernel
theorem noFlush7_2_B : ∀ t : Fin cfg7.N, ¬cond7_0 (grid7.coords t) → ¬cond7_1 (grid7.coords t) → (cfg7.win 2).flush t = false := by decide +kernel
/-- At k = 15 it is live. -/
theorem liveAt7_2_C : ∀ t : Fin cfg7.N, ¬cond7_0 (grid7.coords t) → cond7_1 (grid7.coords t) → cfg7.idle 2 (grid7.coords t) = false := by decide +kernel

/-! ## The memrefs the body is called with -/

/-- One staging buffer of the output window, through which its contents are stated. -/
abbrev VO7_2 : View sig .tc .vmem S512x512 .f32 := (Memref.whole cc7_stg2_0 : Memref sig .tc .vmem S512x512 .f32).view
abbrev ms7_0 (t : Fin cfg7.N) : Memref sig .tc .vmem S512x512 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S8192x512 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S512x512 .f32 := win7_2.stage (cfg7.slots t 2)
abbrev hs7_2 (t : Fin cfg7.N) : (ms7_2 t).IsWhole := hstage7_2 ((cfg7.slots t 2).cast nbuf7_2)
/-- The accumulator and the column of row sums: whole scoped buffers of the kernel's own. -/
abbrev scM7_0 : Memref sig .tc .vmem S512x512 .f32 := Memref.whole cc7_scratch0
abbrev scM7_1 : Memref sig .tc .vmem S512x1 .f32 := Memref.whole cc7_scratch1
abbrev VS7_0 : View sig .tc .vmem S512x512 .f32 := scM7_0.view
abbrev VS7_1 : View sig .tc .vmem S512x1 .f32 := scM7_1.view

end Cert.KernelIdeal.Gen

end
-- ==== Proof.KI.R7RunB.lean ====
/-
  Custom call 7 at k = 1 … 14: neither branch is taken. The accumulator and the row sums come in at what the point before left, are added to, and go out; the output buffer is untouched.
-/
import proofs.«145590_j23742579212572_2_alg».proof.Proof.KI.R7Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun7_B (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i)
    (x0 : Vec F S512x512 .f32) (x1 : Vec F S8192x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc7__collect_direct_kernel i arg2 harg2 arg3 harg3 arg4 harg4 arg5 harg5 arg6 harg6) K } := by
  refine ⟨[], ?_, ?_, fun xi2 E K => ?run⟩
  case run =>
    simp only [cc7__collect_direct_kernel_eq_skeleton]; unfold cc7__collect_direct_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R7RunA.lean ====
/-
  Custom call 7 at k = 0: the accumulator and the row sums are cleared first (whatever they held), then added to; the output buffer is untouched.
-/
import proofs.«145590_j23742579212572_2_alg».proof.Proof.KI.R7RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun7_A (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i)
    (x0 : Vec F S512x512 .f32) (x1 : Vec F S8192x512 .f32) :
    Σ' (L2 : List (View.Piece (Elt F) S512x512 .f32)) (LS0 : List (View.Piece (Elt F) S512x512 .f32)), { LS1 : List (View.Piece (Elt F) S512x1 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc7__collect_direct_kernel i arg2 harg2 arg3 harg3 arg4 harg4 arg5 harg5 arg6 harg6) K } := by
  refine ⟨[], ?_, ?_, fun xi2 E K => ?run⟩
  case run =>
    simp only [cc7__collect_direct_kernel_eq_skeleton]; unfold cc7__collect_direct_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R7RunC.lean ====
/-
  Custom call 7 at k = 15: the accumulators are added to a last time and the output block is stored: the accumulator divided by (row sums + ε).
-/
import proofs.«145590_j23742579212572_2_alg».proof.Proof.KI.R7RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole memrefs: the pieces each buffer it stores into ends with are found by the run. -/
noncomputable def kernelRun7_C (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) :
    Σ' (L2 : List (View.Piece (Elt F) S512x512 .f32)) (LS0 : List (View.Piece (Elt F) S512x512 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc7__collect_direct_kernel i arg2 harg2 arg3 harg3 arg4 harg4 arg5 harg5 arg6 harg6) K } := by
  refine ⟨?_, ?_, ?_, fun E K => ?run⟩
  case run =>
    simp only [cc7__collect_direct_kernel_eq_skeleton]; unfold cc7__collect_direct_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Gen

end
-- ==== Proof.KI.R7.lean ====
/-
  Custom call 7 as proof data for the pipeline: what the output buffer, the accumulator and the column of row sums hold
  after each of the 64 grid points (t = 16·i + k), by recursion on the point — at k = 0 from cleared scratch, at
  k = 1 … 15 from what the point before left —, the invariant that carries the two scratch buffers at those contents
  between points, and the body obligation: at every point the body runs from the invariant before it to the one after it.
-/
import proofs.«145590_j23742579212572_2_alg».proof.Proof.KI.R7RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What this case leaves in the output buffer (nothing is stored: a placeholder nothing consults, the window being idle and not written back here). -/
def out7_A_2 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i)
    (x0 : Vec F S512x512 .f32) (x1 : Vec F S8192x512 .f32) : Vec F S512x512 .f32 :=
  VO7_2.read (Elt F) (VO7_2.writes (Elt F) VO7_2.junk (kernelRun7_A c i arg2 harg2 arg3 harg3 arg4 harg4 arg5 harg5 arg6 harg6 hc0 hc1 x0 x1).1)

/-- The stores into the accumulator cover it. -/
theorem scover7_A_0 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i)
    (x0 : Vec F S512x512 .f32) (x1 : Vec F S8192x512 .f32) (y : S512x512.Idx) :
    ∃ pc ∈ (kernelRun7_A c i arg2 harg2 arg3 harg3 arg4 harg4 arg5 harg5 arg6 harg6 hc0 hc1 x0 x1).2.1, y ∈ pc.1.set :=
  View.cover_of_tiledL (kernelRun7_A c i arg2 harg2 arg3 harg3 arg4 harg4 arg5 harg5 arg6 harg6 hc0 hc1 x0 x1).2.1 S512x512.size (by sl_kernel_rfl) y

/-- What this case leaves in the accumulator. -/
def sout7_A_0 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i)
    (x0 : Vec F S512x512 .f32) (x1 : Vec F S8192x512 .f32) : Vec F S512x512 .f32 :=
  VS7_0.read (Elt F) (VS7_0.writes (Elt F) VS7_0.junk (kernelRun7_A c i arg2 harg2 arg3 harg3 arg4 harg4 arg5 harg5 arg6 harg6 hc0 hc1 x0 x1).2.1)

/-- The stores into the column of row sums cover it. -/
theorem scover7_A_1 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i)
    (x0 : Vec F S512x512 .f32) (x1 : Vec F S8192x512 .f32) (y : S512x1.Idx) :
    ∃ pc ∈ (kernelRun7_A c i arg2 harg2 arg3 harg3 arg4 harg4 arg5 harg5 arg6 harg6 hc0 hc1 x0 x1).2.2.1, y ∈ pc.1.set :=
  View.cover_of_tiledL (kernelRun7_A c i arg2 harg2 arg3 harg3 arg4 harg4 arg5 harg5 arg6 harg6 hc0 hc1 x0 x1).2.2.1 S512x1.size (by sl_kernel_rfl) y

/-- What this case leaves in the column of row sums. -/
def sout7_A_1 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i)
    (x0 : Vec F S512x512 .f32) (x1 : Vec F S8192x512 .f32) : Vec F S512x1 .f32 :=
  VS7_1.read (Elt F) (VS7_1.writes (Elt F) VS7_1.junk (kernelRun7_A c i arg2 harg2 arg3 harg3 arg4 harg4 arg5 harg5 arg6 harg6 hc0 hc1 x0 x1).2.2.1)

/-- What this case leaves in the output buffer (nothing is stored: a placeholder nothing consults, the window being idle and not written back here). -/
def out7_B_2 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i)
    (x0 : Vec F S512x512 .f32) (x1 : Vec F S8192x512 .f32) (xs0 : Vec F S512x512 .f32) (xs1 : Vec F S512x1 .f32) : Vec F S512x512 .f32 :=
  VO7_2.read (Elt F) (VO7_2.writes (Elt F) VO7_2.junk (kernelRun7_B c i arg2 harg2 arg3 harg3 arg4 harg4 arg5 harg5 arg6 harg6 hc0 hc1 x0 x1 xs0 xs1).1)

/-- The stores into the accumulator cover it. -/
theorem scover7_B_0 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i)
    (x0 : Vec F S512x512 .f32) (x1 : Vec F S8192x512 .f32) (xs0 : Vec F S512x512 .f32) (xs1 : Vec F S512x1 .f32) (y : S512x512.Idx) :
    ∃ pc ∈ (kernelRun7_B c i arg2 harg2 arg3 harg3 arg4 harg4 arg5 harg5 arg6 harg6 hc0 hc1 x0 x1 xs0 xs1).2.1, y ∈ pc.1.set :=
  View.cover_of_tiledL (kernelRun7_B c i arg2 harg2 arg3 harg3 arg4 harg4 arg5 harg5 arg6 harg6 hc0 hc1 x0 x1 xs0 xs1).2.1 S512x512.size (by sl_kernel_rfl) y

/-- What this case leaves in the accumulator. -/
def sout7_B_0 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i)
    (x0 : Vec F S512x512 .f32) (x1 : Vec F S8192x512 .f32) (xs0 : Vec F S512x512 .f32) (xs1 : Vec F S512x1 .f32) : Vec F S512x512 .f32 :=
  VS7_0.read (Elt F) (VS7_0.writes (Elt F) VS7_0.junk (kernelRun7_B c i arg2 harg2 arg3 harg3 arg4 harg4 arg5 harg5 arg6 harg6 hc0 hc1 x0 x1 xs0 xs1).2.1)

/-- The stores into the column of row sums cover it. -/
theorem scover7_B_1 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i)
    (x0 : Vec F S512x512 .f32) (x1 : Vec F S8192x512 .f32) (xs0 : Vec F S512x512 .f32) (xs1 : Vec F S512x1 .f32) (y : S512x1.Idx) :
    ∃ pc ∈ (kernelRun7_B c i arg2 harg2 arg3 harg3 arg4 harg4 arg5 harg5 arg6 harg6 hc0 hc1 x0 x1 xs0 xs1).2.2.1, y ∈ pc.1.set :=
  View.cover_of_tiledL (kernelRun7_B c i arg2 harg2 arg3 harg3 arg4 harg4 arg5 harg5 arg6 harg6 hc0 hc1 x0 x1 xs0 xs1).2.2.1 S512x1.size (by sl_kernel_rfl) y

/-- What this case leaves in the column of row sums. -/
def sout7_B_1 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i)
    (x0 : Vec F S512x512 .f32) (x1 : Vec F S8192x512 .f32) (xs0 : Vec F S512x512 .f32) (xs1 : Vec F S512x1 .f32) : Vec F S512x1 .f32 :=
  VS7_1.read (Elt F) (VS7_1.writes (Elt F) VS7_1.junk (kernelRun7_B c i arg2 harg2 arg3 harg3 arg4 harg4 arg5 harg5 arg6 harg6 hc0 hc1 x0 x1 xs0 xs1).2.2.1)

/-- At k = 15 the one store into the output buffer covers it. -/
theorem cover7_C_2 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) (y : S512x512.Idx) :
    ∃ pc ∈ (kernelRun7_C c i arg2 harg2 arg3 harg3 arg4 harg4 arg5 harg5 arg6 harg6 hc0 hc1 x0 x1 xs0 xs1).1, y ∈ pc.1.set :=
  View.cover_of_tiledL (kernelRun7_C c i arg2 harg2 arg3 harg3 arg4 harg4 arg5 harg5 arg6 harg6 hc0 hc1 x0 x1 xs0 xs1).1 S512x512.size (by sl_kernel_rfl) y

/-- What this case leaves in the output buffer: the accumulator over (row sums + ε). -/
def out7_C_2 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) : Vec F S512x512 .f32 :=
  VO7_2.read (Elt F) (VO7_2.writes (Elt F) VO7_2.junk (kernelRun7_C c i arg2 harg2 arg3 harg3 arg4 harg4 arg5 harg5 arg6 harg6 hc0 hc1 x0 x1 xs0 xs1).1)

/-- The stores into the accumulator cover it. -/
theorem scover7_C_0 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) (y : S512x512.Idx) :
    ∃ pc ∈ (kernelRun7_C c i arg2 harg2 arg3 harg3 arg4 harg4 arg5 harg5 arg6 harg6 hc0 hc1 x0 x1 xs0 xs1).2.1, y ∈ pc.1.set :=
  View.cover_of_tiledL (kernelRun7_C c i arg2 harg2 arg3 harg3 arg4 harg4 arg5 harg5 arg6 harg6 hc0 hc1 x0 x1 xs0 xs1).2.1 S512x512.size (by sl_kernel_rfl) y

/-- What this case leaves in the accumulator. -/
def sout7_C_0 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) : Vec F S512x512 .f32 :=
  VS7_0.read (Elt F) (VS7_0.writes (Elt F) VS7_0.junk (kernelRun7_C c i arg2 harg2 arg3 harg3 arg4 harg4 arg5 harg5 arg6 harg6 hc0 hc1 x0 x1 xs0 xs1).2.1)

/-- The stores into the column of row sums cover it. -/
theorem scover7_C_1 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) (y : S512x1.Idx) :
    ∃ pc ∈ (kernelRun7_C c i arg2 harg2 arg3 harg3 arg4 harg4 arg5 harg5 arg6 harg6 hc0 hc1 x0 x1 xs0 xs1).2.2.1, y ∈ pc.1.set :=
  View.cover_of_tiledL (kernelRun7_C c i arg2 harg2 arg3 harg3 arg4 harg4 arg5 harg5 arg6 harg6 hc0 hc1 x0 x1 xs0 xs1).2.2.1 S512x1.size (by sl_kernel_rfl) y

/-- What this case leaves in the column of row sums. -/
def sout7_C_1 (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i)
    (x0 : Vec F S512x512 .f32) (x1 : Vec F S8192x512 .f32) (xs0 : Vec F S512x512 .f32) (xs1 : Vec F S512x1 .f32) : Vec F S512x1 .f32 :=
  VS7_1.read (Elt F) (VS7_1.writes (Elt F) VS7_1.junk (kernelRun7_C c i arg2 harg2 arg3 harg3 arg4 harg4 arg5 harg5 arg6 harg6 hc0 hc1 x0 x1 xs0 xs1).2.2.1)

/-! ## The accumulation -/

/-- What the output buffer, the accumulator and the row sums hold after the body at position `n`. -/
def outsAt7 (c : Dev nD) : (n : ℕ) → n < cfg7.N → Vec F S512x512 .f32 × Vec F S512x512 .f32 × Vec F S512x1 .f32
  | 0, hn => (out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩))
  | n + 1, hn =>
    if h0 : (n + 1) % 16 = 0 then
      if h1 : (n + 1) % 16 = 15 then
        False.elim (by omega)
      else
        (out7_A_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩), sout7_A_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩))
    else
      if h1 : (n + 1) % 16 = 15 then
        (out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.1 (outsAt7 c n (Nat.lt_of_succ_lt hn)).2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.1 (outsAt7 c n (Nat.lt_of_succ_lt hn)).2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (outsAt7 c n (Nat.lt_of_succ_lt hn)).2.1 (outsAt7 c n (Nat.lt_of_succ_lt hn)).2.2)
      else
        (out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.1 (outsAt7 c n (Nat.lt_of_succ_lt hn)).2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.1 (outsAt7 c n (Nat.lt_of_succ_lt hn)).2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (outsAt7 c n (Nat.lt_of_succ_lt hn)).2.1 (outsAt7 c n (Nat.lt_of_succ_lt hn)).2.2)

theorem outsAt7_A (c : Dev nD) (t : Fin cfg7.N) (h0 : t.val % 16 = 0) (h1 : ¬t.val % 16 = 15) :
    outsAt7 V c t.val t.isLt = (out7_A_2 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t) (iblk7 V c 1 t), sout7_A_0 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t) (iblk7 V c 1 t), sout7_A_1 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t) (iblk7 V c 1 t)) := by
  obtain ⟨n, hn⟩ := t
  cases n with
  | zero => exact rfl
  | succ n => exact (dif_pos h0).trans ((dif_neg h1).trans rfl)

theorem outsAt7_B (c : Dev nD) (t : Fin cfg7.N) (h0 : ¬t.val % 16 = 0) (h1 : ¬t.val % 16 = 15) :
    outsAt7 V c t.val t.isLt = (out7_B_2 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2, sout7_B_0 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2, sout7_B_1 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 16 = 0) (h1 : t.val % 16 = 15) :
    outsAt7 V c t.val t.isLt = (out7_C_2 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2, sout7_C_0 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2, sout7_C_1 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant by position -/

/-- The scoped buffers that are neither staged by a window of this call nor one of its two scratch buffers. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- Before the first point every scoped buffer is at anything; after point `n` the two scratch buffers hold what that point left. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.1) ∗ owns (c : Thread nD τ) scM7_1 fullShare ((outsAt7 V c n hn).2.2)) ∗ rest7 c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare ((outsAt7 V c n hn).2.1) ∗ owns (c : Thread nD τ) scM7_1 fullShare ((outsAt7 V c n hn).2.2)) ∗ rest7 c) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.1) ∗ owns (c : Thread nD τ) scM7_1 fullShare ((outsAt7 V c (n - 1) (by omega)).2.2)) ∗ rest7 c) ∗ (∃ r, prngReg c r)) := by
  cases n with
  | zero => exact absurd rfl hz
  | succ n => rfl

/-- The class's invariant with the two scratch buffers named, each at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d)) ∗ rest7 c) ∗ (∃ r, prngReg c r)) := by
  unfold Pipeline.ΦA; rw [scopedRest7_split]; simp only [scM7_0, scM7_1, owns_whole]; try rfl

/-! ## The proof data -/

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point: the closed forms of the two conditions say which case the point is in; the invariant hands the
    body the two scratch buffers at what the point before left (at anything before the first point), and takes them back at
    this point's contents. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 64 := lt_of_lt_of_eq t.isLt (show cfg7.N = 64 from N_7)
  by_cases h0 : t.val % 16 = 0
  · by_cases h1 : t.val % 16 = 15
    · exfalso; omega
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [Dat.leavesExact_idle (dat7 V c) 2 t (idleAt7_2_A t ((hcond7_0 t).mpr h0) (fun h => h1 ((hcond7_1 t).mp h))) (noFlush7_2_A t ((hcond7_0 t).mpr h0) (fun h => h1 ((hcond7_1 t).mp h)))]
      rw [outsAt7_A V c t h0 h1]
      unfold sout7_A_0 sout7_A_1; (try dsimp only)
      by_cases hz : t.val = 0
      · rw [PhiS7_castSucc V c t, PhiS7_zero V c _ _ hz, PhiA7_eq]
        iintro ⟨⟨⟨⟨HS0, HS1⟩, Hb⟩, Hg⟩, Ho, ⟨%d0, H0⟩, ⟨%d1, H1⟩, ⟨%d2, H2⟩⟩
        iapply ((kernelRun7_A c (grid7.coords t) _ _ _ _ _ _ _ _ _ _ ((hcond7_0 t).mpr h0) (fun h => h1 ((hcond7_1 t).mp h)) (iblk7 V c 0 t) (iblk7 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover7_A_0 c _ _ _ _ _ _ _ _ _ _ _ _ _ _ _)
              · unfold owns; iexists _; isplitr
                swap; · iexact HS1
                ipureintro; exact View.read_writes_of_cover _ _ _ _ _ (scover7_A_1 c _ _ _ _ _ _ _ _ _ _ _ _ _ _ _)
            iexact Hb
          iexact Hg
        isplitl [Ho]; · iexact Ho
        isplitl [H0]; · iexact H0
        isplitl [H1]; · iexact H1
        iexists _; iexact H2
      · rw [PhiS7_castSucc V c t, PhiS7_pos V c _ _ hz]
        iintro ⟨⟨⟨⟨HS0, HS1⟩, Hb⟩, Hg⟩, Ho, ⟨%d0, H0⟩, ⟨%d1, H1⟩, ⟨%d2, H2⟩⟩
        iapply ((kernelRun7_A c (grid7.coords t) _ _ _ _ _ _ _ _ _ _ ((hcond7_0 t).mpr h0) (fun h => h1 ((hcond7_1 t).mp h)) (iblk7 V c 0 t) (iblk7 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover7_A_0 c _ _ _ _ _ _ _ _ _ _ _ _ _ _ _)
              · unfold owns; iexists _; isplitr
                swap; · iexact HS1
                ipureintro; exact View.read_writes_of_cover _ _ _ _ _ (scover7_A_1 c _ _ _ _ _ _ _ _ _ _ _ _ _ _ _)
            iexact Hb
          iexact Hg
        isplitl [Ho]; · iexact Ho
        isplitl [H0]; · iexact H0
        isplitl [H1]; · iexact H1
        iexists _; iexact H2
  · by_cases h1 : t.val % 16 = 15
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [show (dat7 V c).leavesExact 2 t = owns (c : Thread nD τ) (ms7_2 t) fullShare ((dat7 V c).after 2 t) from by
        unfold Dat.leavesExact; rw [liveAt7_2_C t (fun h => h0 ((hcond7_0 t).mp h)) ((hcond7_1 t).mpr h1)], after7_2]
      rw [outsAt7_C V c t h0 h1]
      unfold out7_C_2 sout7_C_0 sout7_C_1; (try dsimp only)
      by_cases hz : t.val = 0
      · exfalso; omega
      · rw [PhiS7_castSucc V c t, PhiS7_pos V c _ _ hz]
        iintro ⟨⟨⟨⟨HS0, HS1⟩, Hb⟩, Hg⟩, Ho, ⟨%d0, H0⟩, ⟨%d1, H1⟩, ⟨%d2, H2⟩⟩
        iapply ((kernelRun7_C c (grid7.coords t) _ _ _ _ _ _ _ _ _ _ (fun h => h0 ((hcond7_0 t).mp h)) ((hcond7_1 t).mpr h1) (iblk7 V c 0 t) (iblk7 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover7_C_0 c _ _ _ _ _ _ _ _ _ _ _ _ _ _ _ _ _)
              · unfold owns; iexists _; isplitr
                swap; · iexact HS1
                ipureintro; exact View.read_writes_of_cover _ _ _ _ _ (scover7_C_1 c _ _ _ _ _ _ _ _ _ _ _ _ _ _ _ _ _)
            iexact Hb
          iexact Hg
        isplitl [Ho]; · iexact Ho
        isplitl [H0]; · iexact H0
        isplitl [H1]; · iexact H1
        unfold owns; iexists _; isplitr
        swap; · iexact H2
        ipureintro; exact View.read_writes_of_cover _ _ _ _ _ (cover7_C_2 c _ _ _ _ _ _ _ _ _ _ _ _ _ _ _ _ _)
    · rw [show (dat7 V c).leavesExact 0 t = owns (c : Thread nD τ) (ms7_0 t) fullShare ((dat7 V c).after 0 t) from by
        unfold Dat.leavesExact; rw [liveAt7_0 t], after7_0]
      rw [show (dat7 V c).leavesExact 1 t = owns (c : Thread nD τ) (ms7_1 t) fullShare ((dat7 V c).after 1 t) from by
        unfold Dat.leavesExact; rw [liveAt7_1 t], after7_1]
      rw [Dat.leavesExact_idle (dat7 V c) 2 t (idleAt7_2_B t (fun h => h0 ((hcond7_0 t).mp h)) (fun h => h1 ((hcond7_1 t).mp h))) (noFlush7_2_B t (fun h => h0 ((hcond7_0 t).mp h)) (fun h => h1 ((hcond7_1 t).mp h)))]
      rw [outsAt7_B V c t h0 h1]
      unfold sout7_B_0 sout7_B_1; (try dsimp only)
      by_cases hz : t.val = 0
      · exfalso; omega
      · rw [PhiS7_castSucc V c t, PhiS7_pos V c _ _ hz]
        iintro ⟨⟨⟨⟨HS0, HS1⟩, Hb⟩, Hg⟩, Ho, ⟨%d0, H0⟩, ⟨%d1, H1⟩, ⟨%d2, H2⟩⟩
        iapply ((kernelRun7_B c (grid7.coords t) _ _ _ _ _ _ _ _ _ _ (fun h => h0 ((hcond7_0 t).mp h)) (fun h => h1 ((hcond7_1 t).mp h)) (iblk7 V c 0 t) (iblk7 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover7_B_0 c _ _ _ _ _ _ _ _ _ _ _ _ _ _ _ _ _)
              · unfold owns; iexists _; isplitr
                swap; · iexact HS1
                ipureintro; exact View.read_writes_of_cover _ _ _ _ _ (scover7_B_1 c _ _ _ _ _ _ _ _ _ _ _ _ _ _ _ _ _)
            iexact Hb
          iexact Hg
        isplitl [Ho]; · iexact Ho
        isplitl [H0]; · iexact H0
        isplitl [H1]; · iexact H1
        iexists _; iexact H2

theorem body_obligation7 (c : Dev nD) : BodyObligation (dat7 (F := F) V c) (defs₀ (F := F)) Variants.none () Set.univ := fun t => by
  rw [bigSep_W7, bigSep_W7]
  exact sound_body7 V c t

/-! ## The invariant at the two ends -/

theorem Phi7_zero (c : Dev nD) : (dat7 V c).Φ 0 = Pipeline.ΦA spec7 c := rfl

/-- After any point but the first the invariant gives the class's back: what the scratch buffers hold is forgotten. -/
theorem Phi7_out (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hb⟩, Hg⟩
  isplitl [HS0 HS1 Hb]
  · isplitl [HS0 HS1]
    · isplitl [HS0]
      · iexists _; iexact HS0
      · iexists _; iexact HS1
    iexact Hb
  iexact Hg

theorem hout7 (c : Dev nD) : (dat7 V c).Φ (Fin.last cfg7.N) ⊢ Pipeline.ΦA spec7 c :=
  Phi7_out V c _ (by rw [Fin.val_last]; have : cfg7.N = 64 := N_7; omega)

end Cert.KernelIdeal.Gen

end
-- ==== Proof.KI.R8Runs.lean ====
-- scratch/rename_region.js proof/Proof/KI/R3Runs.lean 8 64
/- Region 8 (the transposed collect: acc += raw^T-block · fc-block over the inner grid axis k, row sums of the
   raw block along axis 0 beside it, the quotient acc / (rs + ε) written under k = 3): what the three control cases'
   runs share. The branch conditions decided over the 16 × 4 grid (t = 4·i + k), where the result window is idle,
   the staging and scratch memrefs, and the region invariant with both accumulators split out of the scoped rest. -/
import proofs.«145590_j23742579212572_2_alg».proof.Proof.Gen.KernelIdeal.Launch
import proofs.«145590_j23742579212572_2_alg».proof.Proof.Gen.KernelIdeal.Skeleton
import proofs.«145590_j23742579212572_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The raw block (window 0) sits in its current staging buffer at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The whole of fc (window 1), fetched once, sits in its staging buffer at every point: its block index never moves. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

end Region8

/-! ## The body's two branch conditions -/

/-- "k = 0": the accumulators are reset. -/
abbrev cond8_0 (i : grid8.Coords) : Prop := (Scalar.cmpi .ne (Scalar.extui (Scalar.cmpi .eq (BitVec.ofNat 32 (i 1).val) 0#32)) 0#32) = 1#1
/-- It holds exactly at the points t ≡ 0 (mod 4). -/
theorem hcond8_0 : ∀ t : Fin cfg8.N, cond8_0 (grid8.coords t) ↔ t.val % 4 = 0 :=
  (by decide +kernel : ∀ t : Fin grid8.N, cond8_0 (grid8.coords t) ↔ t.val % 4 = 0)

/-- "k = 3": the quotient is written. -/
abbrev cond8_1 (i : grid8.Coords) : Prop := k8_cond2 i = 1#1
/-- It holds exactly at the points t ≡ 3 (mod 4). -/
theorem hcond8_1 : ∀ t : Fin cfg8.N, cond8_1 (grid8.coords t) ↔ t.val % 4 = 3 :=
  (by decide +kernel : ∀ t : Fin grid8.N, cond8_1 (grid8.coords t) ↔ t.val % 4 = 3)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
/-- k = 0: nothing is stored into the result block, and it is not written back. -/
theorem idleAt8_2_A : ∀ t : Fin cfg8.N, cond8_0 (grid8.coords t) → ¬cond8_1 (grid8.coords t) → cfg8.idle 2 (grid8.coords t) = true := by decide +kernel
theorem noFlush8_2_A : ∀ t : Fin cfg8.N, cond8_0 (grid8.coords t) → ¬cond8_1 (grid8.coords t) → (cfg8.win 2).flush t = false := by decide +kernel
/-- k = 1, 2: the same. -/
theorem idleAt8_2_B : ∀ t : Fin cfg8.N, ¬cond8_0 (grid8.coords t) → ¬cond8_1 (grid8.coords t) → cfg8.idle 2 (grid8.coords t) = true := by decide +kernel
theorem noFlush8_2_B : ∀ t : Fin cfg8.N, ¬cond8_0 (grid8.coords t) → ¬cond8_1 (grid8.coords t) → (cfg8.win 2).flush t = false := by decide +kernel
/-- k = 3: the result block is stored, the window live. -/
theorem liveAt8_2_C : ∀ t : Fin cfg8.N, ¬cond8_0 (grid8.coords t) → cond8_1 (grid8.coords t) → cfg8.idle 2 (grid8.coords t) = false := by decide +kernel

/-! ## The memrefs the body is called with -/

/-- One staging buffer of the result window, through which its contents are stated. -/
abbrev VO8_2 : View sig .tc .vmem S512x512 .f32 := (Memref.whole cc8_stg2_0 : Memref sig .tc .vmem S512x512 .f32).view
abbrev ms8_0 (t : Fin cfg8.N) : Memref sig .tc .vmem S512x512 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2048x512 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S512x512 .f32 := win8_2.stage (cfg8.slots t 2)
abbrev hs8_2 (t : Fin cfg8.N) : (ms8_2 t).IsWhole := hstage8_2 ((cfg8.slots t 2).cast nbuf8_2)
/-- The two accumulators: the partial product and the partial row sums. -/
abbrev scM8_0 : Memref sig .tc .vmem S512x512 .f32 := Memref.whole cc8_scratch0
abbrev scM8_1 : Memref sig .tc .vmem S1x512 .f32 := Memref.whole cc8_scratch1
abbrev VS8_0 : View sig .tc .vmem S512x512 .f32 := scM8_0.view
abbrev VS8_1 : View sig .tc .vmem S1x512 .f32 := scM8_1.view

/-- What is left of the scoped rest once both accumulators are taken out. -/
abbrev rest8 (c : Dev nD) : sProp 𝕄 :=
  Pipeline.scopedRestBut (Ix := Unit) (Name := ℕ) (U := UR sig nD τ) (Lvl := ℕ) (Val := Elt F) spec8 c [cc8_scratch0, cc8_scratch1]

/-- The region invariant with both accumulators owned as memrefs at some contents, the remainder unopened. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 (F := F) c) ∗ (∃ r, prngReg c r)) := by
  unfold Pipeline.ΦA; rw [scopedRest8_split]; simp only [scM8_0, scM8_1, owns_whole]; try rfl

end Cert.KernelIdeal.Gen

end
-- ==== Proof.KI.R8RunB.lean ====
-- scratch/rename_region.js proof/Proof/KI/R3RunB.lean 8 64
/- Region 8 at k = 1, 2: neither branch is taken. The partial product and the partial row sums come in at what the
   point before left, the block's contribution is added to each, and they go out; the result buffer is untouched. -/
import proofs.«145590_j23742579212572_2_alg».proof.Proof.KI.R8Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 1, 2 on whole memrefs: the pieces each accumulator ends with are what the run finds. -/
noncomputable def kernelRun8_B (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i)
    (x0 : Vec F S512x512 .f32) (x1 : Vec F S2048x512 .f32) (xs0 : Vec F S512x512 .f32) (xs1 : Vec F S1x512 .f32) :
    Σ' (L2 : List (View.Piece (Elt F) S512x512 .f32)) (LS0 : List (View.Piece (Elt F) S512x512 .f32)), { LS1 : List (View.Piece (Elt F) S1x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc8__collect_transposed_kernel i arg2 harg2 arg3 harg3 arg4 harg4 arg5 harg5 arg6 harg6) K } := by
  refine ⟨[], ?_, ?_, fun xi2 E K => ?run⟩
  case run =>
    simp only [cc8__collect_transposed_kernel_eq_skeleton]; unfold cc8__collect_transposed_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R8RunA.lean ====
-- scratch/rename_region.js proof/Proof/KI/R3RunA.lean 8 64
/- Region 8 at k = 0: the first branch is taken. Both accumulators are reset to zero (whatever they held), then the
   block's contribution is added to each; the result buffer is untouched. -/
import proofs.«145590_j23742579212572_2_alg».proof.Proof.KI.R8RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 0 on whole memrefs: the pieces each accumulator ends with are what the run finds. -/
noncomputable def kernelRun8_A (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i)
    (x0 : Vec F S512x512 .f32) (x1 : Vec F S2048x512 .f32) :
    Σ' (L2 : List (View.Piece (Elt F) S512x512 .f32)) (LS0 : List (View.Piece (Elt F) S512x512 .f32)), { LS1 : List (View.Piece (Elt F) S1x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc8__collect_transposed_kernel i arg2 harg2 arg3 harg3 arg4 harg4 arg5 harg5 arg6 harg6) K } := by
  refine ⟨[], ?_, ?_, fun xi2 E K => ?run⟩
  case run =>
    simp only [cc8__collect_transposed_kernel_eq_skeleton]; unfold cc8__collect_transposed_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R8RunC.lean ====
-- scratch/rename_region.js proof/Proof/KI/R3RunC.lean 8 64
/- Region 8 at k = 3: the last branch is taken. The block's contribution is added to both accumulators, and the
   result block is stored: the finished product divided by (finished row sums + ε), whatever the buffer held. -/
import proofs.«145590_j23742579212572_2_alg».proof.Proof.KI.R8RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 3 on whole memrefs: the pieces the result buffer and each accumulator end with are what the run finds. -/
noncomputable def kernelRun8_C (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) :
    Σ' (L2 : List (View.Piece (Elt F) S512x512 .f32)) (LS0 : List (View.Piece (Elt F) S512x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc8__collect_transposed_kernel i arg2 harg2 arg3 harg3 arg4 harg4 arg5 harg5 arg6 harg6) K } := by
  refine ⟨?_, ?_, ?_, fun E K => ?run⟩
  case run =>
    simp only [cc8__collect_transposed_kernel_eq_skeleton]; unfold cc8__collect_transposed_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Gen

end
-- ==== Proof.KI.R8.lean ====
-- scratch/rename_region.js proof/Proof/KI/R3.lean 8 64
/- Region 8, the rest: what each case leaves in the result buffer and in the two accumulators (read back off the
   stores the runs found), the accumulation point by point over the grid, the invariant by position, the proof data,
   and the body obligation. -/
import proofs.«145590_j23742579212572_2_alg».proof.Proof.KI.R8RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At k = 0 nothing is stored into the result buffer; this value stands for "untouched" and is never read. -/
def out8_A_2 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i)
    (x0 : Vec F S512x512 .f32) (x1 : Vec F S2048x512 .f32) : Vec F S512x512 .f32 :=
  VO8_2.read (Elt F) (VO8_2.writes (Elt F) VO8_2.junk (kernelRun8_A c i arg2 harg2 arg3 harg3 arg4 harg4 arg5 harg5 arg6 harg6 hc0 hc1 x0 x1).1)

/-- At k = 0 the stores into the partial product cover it. -/
theorem scover8_A_0 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i)
    (x0 : Vec F S512x512 .f32) (x1 : Vec F S2048x512 .f32) (y : S512x512.Idx) :
    ∃ pc ∈ (kernelRun8_A c i arg2 harg2 arg3 harg3 arg4 harg4 arg5 harg5 arg6 harg6 hc0 hc1 x0 x1).2.1, y ∈ pc.1.set :=
  View.cover_of_tiledL (kernelRun8_A c i arg2 harg2 arg3 harg3 arg4 harg4 arg5 harg5 arg6 harg6 hc0 hc1 x0 x1).2.1 S512x512.size (by sl_kernel_rfl) y

/-- The partial product after the body at k = 0. -/
def sout8_A_0 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i)
    (x0 : Vec F S512x512 .f32) (x1 : Vec F S2048x512 .f32) : Vec F S512x512 .f32 :=
  VS8_0.read (Elt F) (VS8_0.writes (Elt F) VS8_0.junk (kernelRun8_A c i arg2 harg2 arg3 harg3 arg4 harg4 arg5 harg5 arg6 harg6 hc0 hc1 x0 x1).2.1)

/-- At k = 0 the stores into the partial row sums cover them. -/
theorem scover8_A_1 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i)
    (x0 : Vec F S512x512 .f32) (x1 : Vec F S2048x512 .f32) (y : S1x512.Idx) :
    ∃ pc ∈ (kernelRun8_A c i arg2 harg2 arg3 harg3 arg4 harg4 arg5 harg5 arg6 harg6 hc0 hc1 x0 x1).2.2.1, y ∈ pc.1.set :=
  View.cover_of_tiledL (kernelRun8_A c i arg2 harg2 arg3 harg3 arg4 harg4 arg5 harg5 arg6 harg6 hc0 hc1 x0 x1).2.2.1 S1x512.size (by sl_kernel_rfl) y

/-- The partial row sums after the body at k = 0. -/
def sout8_A_1 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i)
    (x0 : Vec F S512x512 .f32) (x1 : Vec F S2048x512 .f32) : Vec F S1x512 .f32 :=
  VS8_1.read (Elt F) (VS8_1.writes (Elt F) VS8_1.junk (kernelRun8_A c i arg2 harg2 arg3 harg3 arg4 harg4 arg5 harg5 arg6 harg6 hc0 hc1 x0 x1).2.2.1)

/-- At k = 1, 2 nothing is stored into the result buffer; this value stands for "untouched" and is never read. -/
def out8_B_2 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i)
    (x0 : Vec F S512x512 .f32) (x1 : Vec F S2048x512 .f32) (xs0 : Vec F S512x512 .f32) (xs1 : Vec F S1x512 .f32) : Vec F S512x512 .f32 :=
  VO8_2.read (Elt F) (VO8_2.writes (Elt F) VO8_2.junk (kernelRun8_B c i arg2 harg2 arg3 harg3 arg4 harg4 arg5 harg5 arg6 harg6 hc0 hc1 x0 x1 xs0 xs1).1)

/-- At k = 1, 2 the stores into the partial product cover it. -/
theorem scover8_B_0 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i)
    (x0 : Vec F S512x512 .f32) (x1 : Vec F S2048x512 .f32) (xs0 : Vec F S512x512 .f32) (xs1 : Vec F S1x512 .f32) (y : S512x512.Idx) :
    ∃ pc ∈ (kernelRun8_B c i arg2 harg2 arg3 harg3 arg4 harg4 arg5 harg5 arg6 harg6 hc0 hc1 x0 x1 xs0 xs1).2.1, y ∈ pc.1.set :=
  View.cover_of_tiledL (kernelRun8_B c i arg2 harg2 arg3 harg3 arg4 harg4 arg5 harg5 arg6 harg6 hc0 hc1 x0 x1 xs0 xs1).2.1 S512x512.size (by sl_kernel_rfl) y

/-- The partial product after the body at k = 1, 2. -/
def sout8_B_0 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i)
    (x0 : Vec F S512x512 .f32) (x1 : Vec F S2048x512 .f32) (xs0 : Vec F S512x512 .f32) (xs1 : Vec F S1x512 .f32) : Vec F S512x512 .f32 :=
  VS8_0.read (Elt F) (VS8_0.writes (Elt F) VS8_0.junk (kernelRun8_B c i arg2 harg2 arg3 harg3 arg4 harg4 arg5 harg5 arg6 harg6 hc0 hc1 x0 x1 xs0 xs1).2.1)

/-- At k = 1, 2 the stores into the partial row sums cover them. -/
theorem scover8_B_1 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i)
    (x0 : Vec F S512x512 .f32) (x1 : Vec F S2048x512 .f32) (xs0 : Vec F S512x512 .f32) (xs1 : Vec F S1x512 .f32) (y : S1x512.Idx) :
    ∃ pc ∈ (kernelRun8_B c i arg2 harg2 arg3 harg3 arg4 harg4 arg5 harg5 arg6 harg6 hc0 hc1 x0 x1 xs0 xs1).2.2.1, y ∈ pc.1.set :=
  View.cover_of_tiledL (kernelRun8_B c i arg2 harg2 arg3 harg3 arg4 harg4 arg5 harg5 arg6 harg6 hc0 hc1 x0 x1 xs0 xs1).2.2.1 S1x512.size (by sl_kernel_rfl) y

/-- The partial row sums after the body at k = 1, 2. -/
def sout8_B_1 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i)
    (x0 : Vec F S512x512 .f32) (x1 : Vec F S2048x512 .f32) (xs0 : Vec F S512x512 .f32) (xs1 : Vec F S1x512 .f32) : Vec F S1x512 .f32 :=
  VS8_1.read (Elt F) (VS8_1.writes (Elt F) VS8_1.junk (kernelRun8_B c i arg2 harg2 arg3 harg3 arg4 harg4 arg5 harg5 arg6 harg6 hc0 hc1 x0 x1 xs0 xs1).2.2.1)

/-- At k = 3 the one store into the result buffer covers it. -/
theorem cover8_C_2 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) (y : S512x512.Idx) :
    ∃ pc ∈ (kernelRun8_C c i arg2 harg2 arg3 harg3 arg4 harg4 arg5 harg5 arg6 harg6 hc0 hc1 x0 x1 xs0 xs1).1, y ∈ pc.1.set :=
  View.cover_of_tiledL (kernelRun8_C c i arg2 harg2 arg3 harg3 arg4 harg4 arg5 harg5 arg6 harg6 hc0 hc1 x0 x1 xs0 xs1).1 S512x512.size (by sl_kernel_rfl) y

/-- What the result buffer holds after the body at k = 3: the quotient, read back off its store. -/
def out8_C_2 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) : Vec F S512x512 .f32 :=
  VO8_2.read (Elt F) (VO8_2.writes (Elt F) VO8_2.junk (kernelRun8_C c i arg2 harg2 arg3 harg3 arg4 harg4 arg5 harg5 arg6 harg6 hc0 hc1 x0 x1 xs0 xs1).1)

/-- At k = 3 the stores into the partial product cover it. -/
theorem scover8_C_0 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) (y : S512x512.Idx) :
    ∃ pc ∈ (kernelRun8_C c i arg2 harg2 arg3 harg3 arg4 harg4 arg5 harg5 arg6 harg6 hc0 hc1 x0 x1 xs0 xs1).2.1, y ∈ pc.1.set :=
  View.cover_of_tiledL (kernelRun8_C c i arg2 harg2 arg3 harg3 arg4 harg4 arg5 harg5 arg6 harg6 hc0 hc1 x0 x1 xs0 xs1).2.1 S512x512.size (by sl_kernel_rfl) y

/-- The partial product after the body at k = 3. -/
def sout8_C_0 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) : Vec F S512x512 .f32 :=
  VS8_0.read (Elt F) (VS8_0.writes (Elt F) VS8_0.junk (kernelRun8_C c i arg2 harg2 arg3 harg3 arg4 harg4 arg5 harg5 arg6 harg6 hc0 hc1 x0 x1 xs0 xs1).2.1)

/-- At k = 3 the stores into the partial row sums cover them. -/
theorem scover8_C_1 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) (y : S1x512.Idx) :
    ∃ pc ∈ (kernelRun8_C c i arg2 harg2 arg3 harg3 arg4 harg4 arg5 harg5 arg6 harg6 hc0 hc1 x0 x1 xs0 xs1).2.2.1, y ∈ pc.1.set :=
  View.cover_of_tiledL (kernelRun8_C c i arg2 harg2 arg3 harg3 arg4 harg4 arg5 harg5 arg6 harg6 hc0 hc1 x0 x1 xs0 xs1).2.2.1 S1x512.size (by sl_kernel_rfl) y

/-- The partial row sums after the body at k = 3. -/
def sout8_C_1 (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i)
    (x0 : Vec F S512x512 .f32) (x1 : Vec F S2048x512 .f32) (xs0 : Vec F S512x512 .f32) (xs1 : Vec F S1x512 .f32) : Vec F S1x512 .f32 :=
  VS8_1.read (Elt F) (VS8_1.writes (Elt F) VS8_1.junk (kernelRun8_C c i arg2 harg2 arg3 harg3 arg4 harg4 arg5 harg5 arg6 harg6 hc0 hc1 x0 x1 xs0 xs1).2.2.1)

section Region8
variable (V : (c : Dev nD) → (b : Ref sig .tc) → Buf (Elt F) ((c : Thread nD τ).loc b))

/-- One point at k = 0: (result buffer, partial product, partial row sums) after the body there. -/
def step8_A (c : Dev nD) (t : Fin cfg8.N) (h0 : t.val % 4 = 0) (h1 : ¬t.val % 4 = 3) :
    Vec F S512x512 .f32 × Vec F S512x512 .f32 × Vec F S1x512 .f32 :=
  (out8_A_2 c (grid8.coords t) (ms8_0 t) (hs8_0 t) (ms8_1 t) (hs8_1 t) (ms8_2 t) (hs8_2 t) scM8_0 (Memref.isWhole_whole _) scM8_1 (Memref.isWhole_whole _) ((hcond8_0 t).mpr h0) (fun h => h1 ((hcond8_1 t).mp h)) (iblk8 V c 0 t) (iblk8 V c 1 t), sout8_A_0 c (grid8.coords t) (ms8_0 t) (hs8_0 t) (ms8_1 t) (hs8_1 t) (ms8_2 t) (hs8_2 t) scM8_0 (Memref.isWhole_whole _) scM8_1 (Memref.isWhole_whole _) ((hcond8_0 t).mpr h0) (fun h => h1 ((hcond8_1 t).mp h)) (iblk8 V c 0 t) (iblk8 V c 1 t), sout8_A_1 c (grid8.coords t) (ms8_0 t) (hs8_0 t) (ms8_1 t) (hs8_1 t) (ms8_2 t) (hs8_2 t) scM8_0 (Memref.isWhole_whole _) scM8_1 (Memref.isWhole_whole _) ((hcond8_0 t).mpr h0) (fun h => h1 ((hcond8_1 t).mp h)) (iblk8 V c 0 t) (iblk8 V c 1 t))

/-- One point at k = 1, 2: (result buffer, partial product, partial row sums) after the body there, from what the accumulators held before. -/
def step8_B (c : Dev nD) (t : Fin cfg8.N) (h0 : ¬t.val % 4 = 0) (h1 : ¬t.val % 4 = 3) (xs0 : Vec F S512x512 .f32) (xs1 : Vec F S1x512 .f32) :
    Vec F S512x512 .f32 × Vec F S512x512 .f32 × Vec F S1x512 .f32 :=
  (out8_B_2 c (grid8.coords t) (ms8_0 t) (hs8_0 t) (ms8_1 t) (hs8_1 t) (ms8_2 t) (hs8_2 t) scM8_0 (Memref.isWhole_whole _) scM8_1 (Memref.isWhole_whole _) (fun h => h0 ((hcond8_0 t).mp h)) (fun h => h1 ((hcond8_1 t).mp h)) (iblk8 V c 0 t) (iblk8 V c 1 t) xs0 xs1, sout8_B_0 c (grid8.coords t) (ms8_0 t) (hs8_0 t) (ms8_1 t) (hs8_1 t) (ms8_2 t) (hs8_2 t) scM8_0 (Memref.isWhole_whole _) scM8_1 (Memref.isWhole_whole _) (fun h => h0 ((hcond8_0 t).mp h)) (fun h => h1 ((hcond8_1 t).mp h)) (iblk8 V c 0 t) (iblk8 V c 1 t) xs0 xs1, sout8_B_1 c (grid8.coords t) (ms8_0 t) (hs8_0 t) (ms8_1 t) (hs8_1 t) (ms8_2 t) (hs8_2 t) scM8_0 (Memref.isWhole_whole _) scM8_1 (Memref.isWhole_whole _) (fun h => h0 ((hcond8_0 t).mp h)) (fun h => h1 ((hcond8_1 t).mp h)) (iblk8 V c 0 t) (iblk8 V c 1 t) xs0 xs1)

/-- One point at k = 3: (result buffer, partial product, partial row sums) after the body there, from what the accumulators held before. -/
def step8_C (c : Dev nD) (t : Fin cfg8.N) (h0 : ¬t.val % 4 = 0) (h1 : t.val % 4 = 3) (xs0 : Vec F S512x512 .f32) (xs1 : Vec F S1x512 .f32) :
    Vec F S512x512 .f32 × Vec F S512x512 .f32 × Vec F S1x512 .f32 :=
  (out8_C_2 c (grid8.coords t) (ms8_0 t) (hs8_0 t) (ms8_1 t) (hs8_1 t) (ms8_2 t) (hs8_2 t) scM8_0 (Memref.isWhole_whole _) scM8_1 (Memref.isWhole_whole _) (fun h => h0 ((hcond8_0 t).mp h)) ((hcond8_1 t).mpr h1) (iblk8 V c 0 t) (iblk8 V c 1 t) xs0 xs1, sout8_C_0 c (grid8.coords t) (ms8_0 t) (hs8_0 t) (ms8_1 t) (hs8_1 t) (ms8_2 t) (hs8_2 t) scM8_0 (Memref.isWhole_whole _) scM8_1 (Memref.isWhole_whole _) (fun h => h0 ((hcond8_0 t).mp h)) ((hcond8_1 t).mpr h1) (iblk8 V c 0 t) (iblk8 V c 1 t) xs0 xs1, sout8_C_1 c (grid8.coords t) (ms8_0 t) (hs8_0 t) (ms8_1 t) (hs8_1 t) (ms8_2 t) (hs8_2 t) scM8_0 (Memref.isWhole_whole _) scM8_1 (Memref.isWhole_whole _) (fun h => h0 ((hcond8_0 t).mp h)) ((hcond8_1 t).mpr h1) (iblk8 V c 0 t) (iblk8 V c 1 t) xs0 xs1)

/-! ## What the result buffer and both accumulators hold after each point -/

/-- THE ACCUMULATION, point by point along t = 4·i + k: at k = 0 both accumulators restart from zero plus the block's
    contribution; at k = 1, 2 the contribution is added to what the point before left; at k = 3 likewise, and the
    result buffer takes the quotient. -/
def outsAt8 (c : Dev nD) : (n : ℕ) → n < cfg8.N → Vec F S512x512 .f32 × Vec F S512x512 .f32 × Vec F S1x512 .f32
  | 0, hn => step8_A V c ⟨0, hn⟩ (Nat.zero_mod _) (show ¬(0 % 4 = 3) from by decide)
  | n + 1, hn =>
    if h0 : (n + 1) % 4 = 0 then
      if h1 : (n + 1) % 4 = 3 then
        False.elim (by omega)
      else
        step8_A V c ⟨n + 1, hn⟩ h0 h1
    else
      if h1 : (n + 1) % 4 = 3 then
        step8_C V c ⟨n + 1, hn⟩ h0 h1 (outsAt8 c n (Nat.lt_of_succ_lt hn)).2.1 (outsAt8 c n (Nat.lt_of_succ_lt hn)).2.2
      else
        step8_B V c ⟨n + 1, hn⟩ h0 h1 (outsAt8 c n (Nat.lt_of_succ_lt hn)).2.1 (outsAt8 c n (Nat.lt_of_succ_lt hn)).2.2

/-- `outsAt8` at a point with k = 0. -/
theorem outsAt8_A (c : Dev nD) (t : Fin cfg8.N) (h0 : t.val % 4 = 0) (h1 : ¬t.val % 4 = 3) :
    outsAt8 V c t.val t.isLt = step8_A V c t h0 h1 := by
  obtain ⟨n, hn⟩ := t
  cases n with
  | zero => exact rfl
  | succ n => exact (dif_pos h0).trans ((dif_neg h1).trans rfl)

/-- `outsAt8` at a point with k = 1, 2: over what the point before left. -/
theorem outsAt8_B (c : Dev nD) (t : Fin cfg8.N) (h0 : ¬t.val % 4 = 0) (h1 : ¬t.val % 4 = 3) :
    outsAt8 V c t.val t.isLt = step8_B V c t h0 h1 (outsAt8 V c (t.val - 1) (Nat.lt_of_le_of_lt (Nat.sub_le _ _) t.isLt)).2.1 (outsAt8 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

/-- `outsAt8` at a point with k = 3: over what the point before left. -/
theorem outsAt8_C (c : Dev nD) (t : Fin cfg8.N) (h0 : ¬t.val % 4 = 0) (h1 : t.val % 4 = 3) :
    outsAt8 V c t.val t.isLt = step8_C V c t h0 h1 (outsAt8 V c (t.val - 1) (Nat.lt_of_le_of_lt (Nat.sub_le _ _) t.isLt)).2.1 (outsAt8 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant, by position -/

/-- Before the first point: everything scoped at anything. After point n: the partial product and the partial row
    sums at what that point left, the rest of the scoped buffers unopened, the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.1) ∗ owns (c : Thread nD τ) scM8_1 fullShare ((outsAt8 V c n hn).2.2)) ∗ rest8 (F := F) c) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare ((outsAt8 V c n hn).2.1) ∗ owns (c : Thread nD τ) scM8_1 fullShare ((outsAt8 V c n hn).2.2)) ∗ rest8 (F := F) c) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.1) ∗ owns (c : Thread nD τ) scM8_1 fullShare ((outsAt8 V c (n - 1) (by omega)).2.2)) ∗ rest8 (F := F) c) ∗ (∃ r, prngReg c r)) := by
  cases n with
  | zero => exact absurd rfl hz
  | succ n => rfl

/-! ## The pipeline's proof data -/

/-- The arrays as the region finds them; after the body at point t the two inputs' buffers at their blocks and the
    result buffer at `outsAt8`'s first component; the invariant by position; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- Before the first point the invariant is the launch's. -/
theorem Phi8_zero (c : Dev nD) : (dat8 V c).Φ 0 = Pipeline.ΦA spec8 c := rfl

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at a point with k = 0: the accumulators are handed over at anything (at the first point from the
    launch's invariant, later from what the previous row of the grid left) and come back at this point's contents;
    the result buffer goes back as found. -/
theorem sound_body8_A (c : Dev nD) (t : Fin cfg8.N) (h0 : t.val % 4 = 0) (h1 : ¬t.val % 4 = 3) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 64 := lt_of_lt_of_eq t.isLt (show cfg8.N = 64 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [Dat.leavesExact_idle (dat8 V c) 2 t (idleAt8_2_A t ((hcond8_0 t).mpr h0) (fun h => h1 ((hcond8_1 t).mp h))) (noFlush8_2_A t ((hcond8_0 t).mpr h0) (fun h => h1 ((hcond8_1 t).mp h)))]
  rw [outsAt8_A V c t h0 h1]
  unfold step8_A sout8_A_0 sout8_A_1; (try dsimp only)
  by_cases hz : t.val = 0
  · rw [PhiS8_castSucc V c t, PhiS8_zero V c _ _ hz, PhiA8_eq]
    iintro ⟨⟨⟨⟨HS0, HS1⟩, Hr⟩, Hg⟩, Ho, ⟨%d0, H0⟩, ⟨%d1, H1⟩, ⟨%d2, H2⟩⟩
    iapply ((kernelRun8_A c (grid8.coords t) _ _ _ _ _ _ _ _ _ _ ((hcond8_0 t).mpr h0) (fun h => h1 ((hcond8_1 t).mp h)) (iblk8 V c 0 t) (iblk8 V c 1 t)).2.2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover8_A_0 c _ _ _ _ _ _ _ _ _ _ _ _ _ _ _)
          · unfold owns; iexists _; isplitr
            swap; · iexact HS1
            ipureintro; exact View.read_writes_of_cover _ _ _ _ _ (scover8_A_1 c _ _ _ _ _ _ _ _ _ _ _ _ _ _ _)
        · iexact Hr
      · iexact Hg
    isplitl [Ho]; · iexact Ho
    isplitl [H0]; · iexact H0
    isplitl [H1]; · iexact H1
    iexists _; iexact H2
  · rw [PhiS8_castSucc V c t, PhiS8_pos V c _ _ hz]
    iintro ⟨⟨⟨⟨HS0, HS1⟩, Hr⟩, Hg⟩, Ho, ⟨%d0, H0⟩, ⟨%d1, H1⟩, ⟨%d2, H2⟩⟩
    iapply ((kernelRun8_A c (grid8.coords t) _ _ _ _ _ _ _ _ _ _ ((hcond8_0 t).mpr h0) (fun h => h1 ((hcond8_1 t).mp h)) (iblk8 V c 0 t) (iblk8 V c 1 t)).2.2.2 _ Set.univ _)
    isplitl [H0]; · iexact H0
    isplitl [H1]; · iexact H1
    isplitl [H2]; · iexact H2
    isplitl [HS0]; · iexists _; iexact HS0
    isplitl [HS1]; · iexists _; iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover8_A_0 c _ _ _ _ _ _ _ _ _ _ _ _ _ _ _)
          · unfold owns; iexists _; isplitr
            swap; · iexact HS1
            ipureintro; exact View.read_writes_of_cover _ _ _ _ _ (scover8_A_1 c _ _ _ _ _ _ _ _ _ _ _ _ _ _ _)
        · iexact Hr
      · iexact Hg
    isplitl [Ho]; · iexact Ho
    isplitl [H0]; · iexact H0
    isplitl [H1]; · iexact H1
    iexists _; iexact H2

set_option maxHeartbeats 4800000 in
/-- The body at a point with k = 1, 2: the accumulators come in at what the point before left and go out at this
    point's contents; the result buffer goes back as found. -/
theorem sound_body8_B (c : Dev nD) (t : Fin cfg8.N) (h0 : ¬t.val % 4 = 0) (h1 : ¬t.val % 4 = 3) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 64 := lt_of_lt_of_eq t.isLt (show cfg8.N = 64 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [Dat.leavesExact_idle (dat8 V c) 2 t (idleAt8_2_B t (fun h => h0 ((hcond8_0 t).mp h)) (fun h => h1 ((hcond8_1 t).mp h))) (noFlush8_2_B t (fun h => h0 ((hcond8_0 t).mp h)) (fun h => h1 ((hcond8_1 t).mp h)))]
  rw [outsAt8_B V c t h0 h1]
  unfold step8_B sout8_B_0 sout8_B_1; (try dsimp only)
  have hz : t.val ≠ 0 := fun e => h0 (by rw [e])
  rw [PhiS8_castSucc V c t, PhiS8_pos V c _ _ hz]
  iintro ⟨⟨⟨⟨HS0, HS1⟩, Hr⟩, Hg⟩, Ho, ⟨%d0, H0⟩, ⟨%d1, H1⟩, ⟨%d2, H2⟩⟩
  iapply ((kernelRun8_B c (grid8.coords t) _ _ _ _ _ _ _ _ _ _ (fun h => h0 ((hcond8_0 t).mp h)) (fun h => h1 ((hcond8_1 t).mp h)) (iblk8 V c 0 t) (iblk8 V c 1 t) _ _).2.2.2 _ Set.univ _)
  isplitl [H0]; · iexact H0
  isplitl [H1]; · iexact H1
  isplitl [H2]; · iexact H2
  isplitl [HS0]; · iexact HS0
  isplitl [HS1]; · iexact HS1
  iintro ⟨H0, H1, H2, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover8_B_0 c _ _ _ _ _ _ _ _ _ _ _ _ _ _ _ _ _)
        · unfold owns; iexists _; isplitr
          swap; · iexact HS1
          ipureintro; exact View.read_writes_of_cover _ _ _ _ _ (scover8_B_1 c _ _ _ _ _ _ _ _ _ _ _ _ _ _ _ _ _)
      · iexact Hr
    · iexact Hg
  isplitl [Ho]; · iexact Ho
  isplitl [H0]; · iexact H0
  isplitl [H1]; · iexact H1
  iexists _; iexact H2

set_option maxHeartbeats 4800000 in
/-- The body at a point with k = 3: as before for the accumulators; the result buffer, handed over at anything, comes
    back at the quotient. -/
theorem sound_body8_C (c : Dev nD) (t : Fin cfg8.N) (h0 : ¬t.val % 4 = 0) (h1 : t.val % 4 = 3) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 64 := lt_of_lt_of_eq t.isLt (show cfg8.N = 64 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2_C t (fun h => h0 ((hcond8_0 t).mp h)) ((hcond8_1 t).mpr h1)], after8_2]
  rw [outsAt8_C V c t h0 h1]
  unfold step8_C out8_C_2 sout8_C_0 sout8_C_1; (try dsimp only)
  have hz : t.val ≠ 0 := fun e => h0 (by rw [e])
  rw [PhiS8_castSucc V c t, PhiS8_pos V c _ _ hz]
  iintro ⟨⟨⟨⟨HS0, HS1⟩, Hr⟩, Hg⟩, Ho, ⟨%d0, H0⟩, ⟨%d1, H1⟩, ⟨%d2, H2⟩⟩
  iapply ((kernelRun8_C c (grid8.coords t) _ _ _ _ _ _ _ _ _ _ (fun h => h0 ((hcond8_0 t).mp h)) ((hcond8_1 t).mpr h1) (iblk8 V c 0 t) (iblk8 V c 1 t) _ _).2.2.2 Set.univ _)
  isplitl [H0]; · iexact H0
  isplitl [H1]; · iexact H1
  isplitl [H2]; · iexists _; iexact H2
  isplitl [HS0]; · iexact HS0
  isplitl [HS1]; · iexact HS1
  iintro ⟨H0, H1, ⟨%e2, H2⟩, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover8_C_0 c _ _ _ _ _ _ _ _ _ _ _ _ _ _ _ _ _)
        · unfold owns; iexists _; isplitr
          swap; · iexact HS1
          ipureintro; exact View.read_writes_of_cover _ _ _ _ _ (scover8_C_1 c _ _ _ _ _ _ _ _ _ _ _ _ _ _ _ _ _)
      · iexact Hr
    · iexact Hg
  isplitl [Ho]; · iexact Ho
  isplitl [H0]; · iexact H0
  isplitl [H1]; · iexact H1
  unfold owns; iexists _; isplitr
  swap; · iexact H2
  ipureintro; exact View.read_writes_of_cover _ _ _ _ _ (cover8_C_2 c _ _ _ _ _ _ _ _ _ _ _ _ _ _ _ _ _)

/-- The body at any point: the position's residue mod 4 says which of the three cases it is in. -/
theorem sound_body8 (c : Dev nD) (t : Fin cfg8.N) :
    bodyPre8 V c t ⊢ wp frame (wpE (defs₀ (F := F)) Variants.none c none) Set.univ (bodyAt8 t) (fun _ => bodyPost8 V c t) := by
  by_cases h0 : t.val % 4 = 0
  · exact sound_body8_A V c t h0 (by omega)
  · by_cases h1 : t.val % 4 = 3
    · exact sound_body8_C V c t h0 h1
    · exact sound_body8_B V c t h0 h1

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- After any point the invariant gives the launch's back: what the accumulators hold is forgotten. -/
theorem Phi8_out (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout8 (c : Dev nD) : (dat8 V c).Φ (Fin.last cfg8.N) ⊢ Pipeline.ΦA spec8 c :=
  Phi8_out V c _ (by rw [Fin.val_last]; have : cfg8.N = 64 := N_8; omega)

end Region8

end Cert.KernelIdeal.Gen

end
-- ==== Proof.KI.R9Runs.lean ====
-- scratch/rename_region.js proof/Proof/KI/R3Runs.lean 9 64
/- Region 9 (the transposed collect: acc += raw^T-block · fc-block over the inner grid axis k, row sums of the
   raw block along axis 0 beside it, the quotient acc / (rs + ε) written under k = 3): what the three control cases'
   runs share. The branch conditions decided over the 16 × 4 grid (t = 4·i + k), where the result window is idle,
   the staging and scratch memrefs, and the region invariant with both accumulators split out of the scoped rest. -/
import proofs.«145590_j23742579212572_2_alg».proof.Proof.Gen.KernelIdeal.Launch
import proofs.«145590_j23742579212572_2_alg».proof.Proof.Gen.KernelIdeal.Skeleton
import proofs.«145590_j23742579212572_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9
variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The raw block (window 0) sits in its current staging buffer at every point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The whole of fc (window 1), fetched once, sits in its staging buffer at every point: its block index never moves. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

end Region9

/-! ## The body's two branch conditions -/

/-- "k = 0": the accumulators are reset. -/
abbrev cond9_0 (i : grid9.Coords) : Prop := (Scalar.cmpi .ne (Scalar.extui (Scalar.cmpi .eq (BitVec.ofNat 32 (i 1).val) 0#32)) 0#32) = 1#1
/-- It holds exactly at the points t ≡ 0 (mod 4). -/
theorem hcond9_0 : ∀ t : Fin cfg9.N, cond9_0 (grid9.coords t) ↔ t.val % 4 = 0 :=
  (by decide +kernel : ∀ t : Fin grid9.N, cond9_0 (grid9.coords t) ↔ t.val % 4 = 0)

/-- "k = 3": the quotient is written. -/
abbrev cond9_1 (i : grid9.Coords) : Prop := k9_cond2 i = 1#1
/-- It holds exactly at the points t ≡ 3 (mod 4). -/
theorem hcond9_1 : ∀ t : Fin cfg9.N, cond9_1 (grid9.coords t) ↔ t.val % 4 = 3 :=
  (by decide +kernel : ∀ t : Fin grid9.N, cond9_1 (grid9.coords t) ↔ t.val % 4 = 3)

/-! ## Where the windows are idle -/

theorem liveAt9_0 : ∀ t : Fin cfg9.N, cfg9.idle 0 (grid9.coords t) = false := by decide +kernel
theorem liveAt9_1 : ∀ t : Fin cfg9.N, cfg9.idle 1 (grid9.coords t) = false := by decide +kernel
/-- k = 0: nothing is stored into the result block, and it is not written back. -/
theorem idleAt9_2_A : ∀ t : Fin cfg9.N, cond9_0 (grid9.coords t) → ¬cond9_1 (grid9.coords t) → cfg9.idle 2 (grid9.coords t) = true := by decide +kernel
theorem noFlush9_2_A : ∀ t : Fin cfg9.N, cond9_0 (grid9.coords t) → ¬cond9_1 (grid9.coords t) → (cfg9.win 2).flush t = false := by decide +kernel
/-- k = 1, 2: the same. -/
theorem idleAt9_2_B : ∀ t : Fin cfg9.N, ¬cond9_0 (grid9.coords t) → ¬cond9_1 (grid9.coords t) → cfg9.idle 2 (grid9.coords t) = true := by decide +kernel
theorem noFlush9_2_B : ∀ t : Fin cfg9.N, ¬cond9_0 (grid9.coords t) → ¬cond9_1 (grid9.coords t) → (cfg9.win 2).flush t = false := by decide +kernel
/-- k = 3: the result block is stored, the window live. -/
theorem liveAt9_2_C : ∀ t : Fin cfg9.N, ¬cond9_0 (grid9.coords t) → cond9_1 (grid9.coords t) → cfg9.idle 2 (grid9.coords t) = false := by decide +kernel

/-! ## The memrefs the body is called with -/

/-- One staging buffer of the result window, through which its contents are stated. -/
abbrev VO9_2 : View sig .tc .vmem S512x512 .f32 := (Memref.whole cc9_stg2_0 : Memref sig .tc .vmem S512x512 .f32).view
abbrev ms9_0 (t : Fin cfg9.N) : Memref sig .tc .vmem S512x512 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2048x512 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S512x512 .f32 := win9_2.stage (cfg9.slots t 2)
abbrev hs9_2 (t : Fin cfg9.N) : (ms9_2 t).IsWhole := hstage9_2 ((cfg9.slots t 2).cast nbuf9_2)
/-- The two accumulators: the partial product and the partial row sums. -/
abbrev scM9_0 : Memref sig .tc .vmem S512x512 .f32 := Memref.whole cc9_scratch0
abbrev scM9_1 : Memref sig .tc .vmem S1x512 .f32 := Memref.whole cc9_scratch1
abbrev VS9_0 : View sig .tc .vmem S512x512 .f32 := scM9_0.view
abbrev VS9_1 : View sig .tc .vmem S1x512 .f32 := scM9_1.view

/-- What is left of the scoped rest once both accumulators are taken out. -/
abbrev rest9 (c : Dev nD) : sProp 𝕄 :=
  Pipeline.scopedRestBut (Ix := Unit) (Name := ℕ) (U := UR sig nD τ) (Lvl := ℕ) (Val := Elt F) spec9 c [cc9_scratch0, cc9_scratch1]

/-- The region invariant with both accumulators owned as memrefs at some contents, the remainder unopened. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d)) ∗ rest9 (F := F) c) ∗ (∃ r, prngReg c r)) := by
  unfold Pipeline.ΦA; rw [scopedRest9_split]; simp only [scM9_0, scM9_1, owns_whole]; try rfl

end Cert.KernelIdeal.Gen

end
-- ==== Proof.KI.R9RunB.lean ====
-- scratch/rename_region.js proof/Proof/KI/R3RunB.lean 9 64
/- Region 9 at k = 1, 2: neither branch is taken. The partial product and the partial row sums come in at what the
   point before left, the block's contribution is added to each, and they go out; the result buffer is untouched. -/
import proofs.«145590_j23742579212572_2_alg».proof.Proof.KI.R9Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 1, 2 on whole memrefs: the pieces each accumulator ends with are what the run finds. -/
noncomputable def kernelRun9_B (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i)
    (x0 : Vec F S512x512 .f32) (x1 : Vec F S2048x512 .f32) (xs0 : Vec F S512x512 .f32) (xs1 : Vec F S1x512 .f32) :
    Σ' (L2 : List (View.Piece (Elt F) S512x512 .f32)) (LS0 : List (View.Piece (Elt F) S512x512 .f32)), { LS1 : List (View.Piece (Elt F) S1x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc9__collect_transposed_kernel i arg2 harg2 arg3 harg3 arg4 harg4 arg5 harg5 arg6 harg6) K } := by
  refine ⟨[], ?_, ?_, fun xi2 E K => ?run⟩
  case run =>
    simp only [cc9__collect_transposed_kernel_eq_skeleton]; unfold cc9__collect_transposed_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R9RunA.lean ====
-- scratch/rename_region.js proof/Proof/KI/R3RunA.lean 9 64
/- Region 9 at k = 0: the first branch is taken. Both accumulators are reset to zero (whatever they held), then the
   block's contribution is added to each; the result buffer is untouched. -/
import proofs.«145590_j23742579212572_2_alg».proof.Proof.KI.R9RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 0 on whole memrefs: the pieces each accumulator ends with are what the run finds. -/
noncomputable def kernelRun9_A (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i)
    (x0 : Vec F S512x512 .f32) (x1 : Vec F S2048x512 .f32) :
    Σ' (L2 : List (View.Piece (Elt F) S512x512 .f32)) (LS0 : List (View.Piece (Elt F) S512x512 .f32)), { LS1 : List (View.Piece (Elt F) S1x512 .f32) //
      ∀ (xi2 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc9__collect_transposed_kernel i arg2 harg2 arg3 harg3 arg4 harg4 arg5 harg5 arg6 harg6) K } := by
  refine ⟨[], ?_, ?_, fun xi2 E K => ?run⟩
  case run =>
    simp only [cc9__collect_transposed_kernel_eq_skeleton]; unfold cc9__collect_transposed_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Gen

end
-- ==== Proof.KI.R9RunC.lean ====
-- scratch/rename_region.js proof/Proof/KI/R3RunC.lean 9 64
/- Region 9 at k = 3: the last branch is taken. The block's contribution is added to both accumulators, and the
   result block is stored: the finished product divided by (finished row sums + ε), whatever the buffer held. -/
import proofs.«145590_j23742579212572_2_alg».proof.Proof.KI.R9RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at k = 3 on whole memrefs: the pieces the result buffer and each accumulator end with are what the run finds. -/
noncomputable def kernelRun9_C (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) :
    Σ' (L2 : List (View.Piece (Elt F) S512x512 .f32)) (LS0 : List (View.Piece (Elt F) S512x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc9__collect_transposed_kernel i arg2 harg2 arg3 harg3 arg4 harg4 arg5 harg5 arg6 harg6) K } := by
  refine ⟨?_, ?_, ?_, fun E K => ?run⟩
  case run =>
    simp only [cc9__collect_transposed_kernel_eq_skeleton]; unfold cc9__collect_transposed_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Gen

end
-- ==== Proof.KI.R9.lean ====
-- scratch/rename_region.js proof/Proof/KI/R3.lean 9 64
/- Region 9, the rest: what each case leaves in the result buffer and in the two accumulators (read back off the
   stores the runs found), the accumulation point by point over the grid, the invariant by position, the proof data,
   and the body obligation. -/
import proofs.«145590_j23742579212572_2_alg».proof.Proof.KI.R9RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At k = 0 nothing is stored into the result buffer; this value stands for "untouched" and is never read. -/
def out9_A_2 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i)
    (x0 : Vec F S512x512 .f32) (x1 : Vec F S2048x512 .f32) : Vec F S512x512 .f32 :=
  VO9_2.read (Elt F) (VO9_2.writes (Elt F) VO9_2.junk (kernelRun9_A c i arg2 harg2 arg3 harg3 arg4 harg4 arg5 harg5 arg6 harg6 hc0 hc1 x0 x1).1)

/-- At k = 0 the stores into the partial product cover it. -/
theorem scover9_A_0 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i)
    (x0 : Vec F S512x512 .f32) (x1 : Vec F S2048x512 .f32) (y : S512x512.Idx) :
    ∃ pc ∈ (kernelRun9_A c i arg2 harg2 arg3 harg3 arg4 harg4 arg5 harg5 arg6 harg6 hc0 hc1 x0 x1).2.1, y ∈ pc.1.set :=
  View.cover_of_tiledL (kernelRun9_A c i arg2 harg2 arg3 harg3 arg4 harg4 arg5 harg5 arg6 harg6 hc0 hc1 x0 x1).2.1 S512x512.size (by sl_kernel_rfl) y

/-- The partial product after the body at k = 0. -/
def sout9_A_0 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i)
    (x0 : Vec F S512x512 .f32) (x1 : Vec F S2048x512 .f32) : Vec F S512x512 .f32 :=
  VS9_0.read (Elt F) (VS9_0.writes (Elt F) VS9_0.junk (kernelRun9_A c i arg2 harg2 arg3 harg3 arg4 harg4 arg5 harg5 arg6 harg6 hc0 hc1 x0 x1).2.1)

/-- At k = 0 the stores into the partial row sums cover them. -/
theorem scover9_A_1 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i)
    (x0 : Vec F S512x512 .f32) (x1 : Vec F S2048x512 .f32) (y : S1x512.Idx) :
    ∃ pc ∈ (kernelRun9_A c i arg2 harg2 arg3 harg3 arg4 harg4 arg5 harg5 arg6 harg6 hc0 hc1 x0 x1).2.2.1, y ∈ pc.1.set :=
  View.cover_of_tiledL (kernelRun9_A c i arg2 harg2 arg3 harg3 arg4 harg4 arg5 harg5 arg6 harg6 hc0 hc1 x0 x1).2.2.1 S1x512.size (by sl_kernel_rfl) y

/-- The partial row sums after the body at k = 0. -/
def sout9_A_1 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i)
    (x0 : Vec F S512x512 .f32) (x1 : Vec F S2048x512 .f32) : Vec F S1x512 .f32 :=
  VS9_1.read (Elt F) (VS9_1.writes (Elt F) VS9_1.junk (kernelRun9_A c i arg2 harg2 arg3 harg3 arg4 harg4 arg5 harg5 arg6 harg6 hc0 hc1 x0 x1).2.2.1)

/-- At k = 1, 2 nothing is stored into the result buffer; this value stands for "untouched" and is never read. -/
def out9_B_2 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i)
    (x0 : Vec F S512x512 .f32) (x1 : Vec F S2048x512 .f32) (xs0 : Vec F S512x512 .f32) (xs1 : Vec F S1x512 .f32) : Vec F S512x512 .f32 :=
  VO9_2.read (Elt F) (VO9_2.writes (Elt F) VO9_2.junk (kernelRun9_B c i arg2 harg2 arg3 harg3 arg4 harg4 arg5 harg5 arg6 harg6 hc0 hc1 x0 x1 xs0 xs1).1)

/-- At k = 1, 2 the stores into the partial product cover it. -/
theorem scover9_B_0 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i)
    (x0 : Vec F S512x512 .f32) (x1 : Vec F S2048x512 .f32) (xs0 : Vec F S512x512 .f32) (xs1 : Vec F S1x512 .f32) (y : S512x512.Idx) :
    ∃ pc ∈ (kernelRun9_B c i arg2 harg2 arg3 harg3 arg4 harg4 arg5 harg5 arg6 harg6 hc0 hc1 x0 x1 xs0 xs1).2.1, y ∈ pc.1.set :=
  View.cover_of_tiledL (kernelRun9_B c i arg2 harg2 arg3 harg3 arg4 harg4 arg5 harg5 arg6 harg6 hc0 hc1 x0 x1 xs0 xs1).2.1 S512x512.size (by sl_kernel_rfl) y

/-- The partial product after the body at k = 1, 2. -/
def sout9_B_0 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i)
    (x0 : Vec F S512x512 .f32) (x1 : Vec F S2048x512 .f32) (xs0 : Vec F S512x512 .f32) (xs1 : Vec F S1x512 .f32) : Vec F S512x512 .f32 :=
  VS9_0.read (Elt F) (VS9_0.writes (Elt F) VS9_0.junk (kernelRun9_B c i arg2 harg2 arg3 harg3 arg4 harg4 arg5 harg5 arg6 harg6 hc0 hc1 x0 x1 xs0 xs1).2.1)

/-- At k = 1, 2 the stores into the partial row sums cover them. -/
theorem scover9_B_1 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i)
    (x0 : Vec F S512x512 .f32) (x1 : Vec F S2048x512 .f32) (xs0 : Vec F S512x512 .f32) (xs1 : Vec F S1x512 .f32) (y : S1x512.Idx) :
    ∃ pc ∈ (kernelRun9_B c i arg2 harg2 arg3 harg3 arg4 harg4 arg5 harg5 arg6 harg6 hc0 hc1 x0 x1 xs0 xs1).2.2.1, y ∈ pc.1.set :=
  View.cover_of_tiledL (kernelRun9_B c i arg2 harg2 arg3 harg3 arg4 harg4 arg5 harg5 arg6 harg6 hc0 hc1 x0 x1 xs0 xs1).2.2.1 S1x512.size (by sl_kernel_rfl) y

/-- The partial row sums after the body at k = 1, 2. -/
def sout9_B_1 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i)
    (x0 : Vec F S512x512 .f32) (x1 : Vec F S2048x512 .f32) (xs0 : Vec F S512x512 .f32) (xs1 : Vec F S1x512 .f32) : Vec F S1x512 .f32 :=
  VS9_1.read (Elt F) (VS9_1.writes (Elt F) VS9_1.junk (kernelRun9_B c i arg2 harg2 arg3 harg3 arg4 harg4 arg5 harg5 arg6 harg6 hc0 hc1 x0 x1 xs0 xs1).2.2.1)

/-- At k = 3 the one store into the result buffer covers it. -/
theorem cover9_C_2 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) (y : S512x512.Idx) :
    ∃ pc ∈ (kernelRun9_C c i arg2 harg2 arg3 harg3 arg4 harg4 arg5 harg5 arg6 harg6 hc0 hc1 x0 x1 xs0 xs1).1, y ∈ pc.1.set :=
  View.cover_of_tiledL (kernelRun9_C c i arg2 harg2 arg3 harg3 arg4 harg4 arg5 harg5 arg6 harg6 hc0 hc1 x0 x1 xs0 xs1).1 S512x512.size (by sl_kernel_rfl) y

/-- What the result buffer holds after the body at k = 3: the quotient, read back off its store. -/
def out9_C_2 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) : Vec F S512x512 .f32 :=
  VO9_2.read (Elt F) (VO9_2.writes (Elt F) VO9_2.junk (kernelRun9_C c i arg2 harg2 arg3 harg3 arg4 harg4 arg5 harg5 arg6 harg6 hc0 hc1 x0 x1 xs0 xs1).1)

/-- At k = 3 the stores into the partial product cover it. -/
theorem scover9_C_0 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) (y : S512x512.Idx) :
    ∃ pc ∈ (kernelRun9_C c i arg2 harg2 arg3 harg3 arg4 harg4 arg5 harg5 arg6 harg6 hc0 hc1 x0 x1 xs0 xs1).2.1, y ∈ pc.1.set :=
  View.cover_of_tiledL (kernelRun9_C c i arg2 harg2 arg3 harg3 arg4 harg4 arg5 harg5 arg6 harg6 hc0 hc1 x0 x1 xs0 xs1).2.1 S512x512.size (by sl_kernel_rfl) y

/-- The partial product after the body at k = 3. -/
def sout9_C_0 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) : Vec F S512x512 .f32 :=
  VS9_0.read (Elt F) (VS9_0.writes (Elt F) VS9_0.junk (kernelRun9_C c i arg2 harg2 arg3 harg3 arg4 harg4 arg5 harg5 arg6 harg6 hc0 hc1 x0 x1 xs0 xs1).2.1)

/-- At k = 3 the stores into the partial row sums cover them. -/
theorem scover9_C_1 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) (y : S1x512.Idx) :
    ∃ pc ∈ (kernelRun9_C c i arg2 harg2 arg3 harg3 arg4 harg4 arg5 harg5 arg6 harg6 hc0 hc1 x0 x1 xs0 xs1).2.2.1, y ∈ pc.1.set :=
  View.cover_of_tiledL (kernelRun9_C c i arg2 harg2 arg3 harg3 arg4 harg4 arg5 harg5 arg6 harg6 hc0 hc1 x0 x1 xs0 xs1).2.2.1 S1x512.size (by sl_kernel_rfl) y

/-- The partial row sums after the body at k = 3. -/
def sout9_C_1 (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i)
    (x0 : Vec F S512x512 .f32) (x1 : Vec F S2048x512 .f32) (xs0 : Vec F S512x512 .f32) (xs1 : Vec F S1x512 .f32) : Vec F S1x512 .f32 :=
  VS9_1.read (Elt F) (VS9_1.writes (Elt F) VS9_1.junk (kernelRun9_C c i arg2 harg2 arg3 harg3 arg4 harg4 arg5 harg5 arg6 harg6 hc0 hc1 x0 x1 xs0 xs1).2.2.1)

section Region9
variable (V : (c : Dev nD) → (b : Ref sig .tc) → Buf (Elt F) ((c : Thread nD τ).loc b))

/-- One point at k = 0: (result buffer, partial product, partial row sums) after the body there. -/
def step9_A (c : Dev nD) (t : Fin cfg9.N) (h0 : t.val % 4 = 0) (h1 : ¬t.val % 4 = 3) :
    Vec F S512x512 .f32 × Vec F S512x512 .f32 × Vec F S1x512 .f32 :=
  (out9_A_2 c (grid9.coords t) (ms9_0 t) (hs9_0 t) (ms9_1 t) (hs9_1 t) (ms9_2 t) (hs9_2 t) scM9_0 (Memref.isWhole_whole _) scM9_1 (Memref.isWhole_whole _) ((hcond9_0 t).mpr h0) (fun h => h1 ((hcond9_1 t).mp h)) (iblk9 V c 0 t) (iblk9 V c 1 t), sout9_A_0 c (grid9.coords t) (ms9_0 t) (hs9_0 t) (ms9_1 t) (hs9_1 t) (ms9_2 t) (hs9_2 t) scM9_0 (Memref.isWhole_whole _) scM9_1 (Memref.isWhole_whole _) ((hcond9_0 t).mpr h0) (fun h => h1 ((hcond9_1 t).mp h)) (iblk9 V c 0 t) (iblk9 V c 1 t), sout9_A_1 c (grid9.coords t) (ms9_0 t) (hs9_0 t) (ms9_1 t) (hs9_1 t) (ms9_2 t) (hs9_2 t) scM9_0 (Memref.isWhole_whole _) scM9_1 (Memref.isWhole_whole _) ((hcond9_0 t).mpr h0) (fun h => h1 ((hcond9_1 t).mp h)) (iblk9 V c 0 t) (iblk9 V c 1 t))

/-- One point at k = 1, 2: (result buffer, partial product, partial row sums) after the body there, from what the accumulators held before. -/
def step9_B (c : Dev nD) (t : Fin cfg9.N) (h0 : ¬t.val % 4 = 0) (h1 : ¬t.val % 4 = 3) (xs0 : Vec F S512x512 .f32) (xs1 : Vec F S1x512 .f32) :
    Vec F S512x512 .f32 × Vec F S512x512 .f32 × Vec F S1x512 .f32 :=
  (out9_B_2 c (grid9.coords t) (ms9_0 t) (hs9_0 t) (ms9_1 t) (hs9_1 t) (ms9_2 t) (hs9_2 t) scM9_0 (Memref.isWhole_whole _) scM9_1 (Memref.isWhole_whole _) (fun h => h0 ((hcond9_0 t).mp h)) (fun h => h1 ((hcond9_1 t).mp h)) (iblk9 V c 0 t) (iblk9 V c 1 t) xs0 xs1, sout9_B_0 c (grid9.coords t) (ms9_0 t) (hs9_0 t) (ms9_1 t) (hs9_1 t) (ms9_2 t) (hs9_2 t) scM9_0 (Memref.isWhole_whole _) scM9_1 (Memref.isWhole_whole _) (fun h => h0 ((hcond9_0 t).mp h)) (fun h => h1 ((hcond9_1 t).mp h)) (iblk9 V c 0 t) (iblk9 V c 1 t) xs0 xs1, sout9_B_1 c (grid9.coords t) (ms9_0 t) (hs9_0 t) (ms9_1 t) (hs9_1 t) (ms9_2 t) (hs9_2 t) scM9_0 (Memref.isWhole_whole _) scM9_1 (Memref.isWhole_whole _) (fun h => h0 ((hcond9_0 t).mp h)) (fun h => h1 ((hcond9_1 t).mp h)) (iblk9 V c 0 t) (iblk9 V c 1 t) xs0 xs1)

/-- One point at k = 3: (result buffer, partial product, partial row sums) after the body there, from what the accumulators held before. -/
def step9_C (c : Dev nD) (t : Fin cfg9.N) (h0 : ¬t.val % 4 = 0) (h1 : t.val % 4 = 3) (xs0 : Vec F S512x512 .f32) (xs1 : Vec F S1x512 .f32) :
    Vec F S512x512 .f32 × Vec F S512x512 .f32 × Vec F S1x512 .f32 :=
  (out9_C_2 c (grid9.coords t) (ms9_0 t) (hs9_0 t) (ms9_1 t) (hs9_1 t) (ms9_2 t) (hs9_2 t) scM9_0 (Memref.isWhole_whole _) scM9_1 (Memref.isWhole_whole _) (fun h => h0 ((hcond9_0 t).mp h)) ((hcond9_1 t).mpr h1) (iblk9 V c 0 t) (iblk9 V c 1 t) xs0 xs1, sout9_C_0 c (grid9.coords t) (ms9_0 t) (hs9_0 t) (ms9_1 t) (hs9_1 t) (ms9_2 t) (hs9_2 t) scM9_0 (Memref.isWhole_whole _) scM9_1 (Memref.isWhole_whole _) (fun h => h0 ((hcond9_0 t).mp h)) ((hcond9_1 t).mpr h1) (iblk9 V c 0 t) (iblk9 V c 1 t) xs0 xs1, sout9_C_1 c (grid9.coords t) (ms9_0 t) (hs9_0 t) (ms9_1 t) (hs9_1 t) (ms9_2 t) (hs9_2 t) scM9_0 (Memref.isWhole_whole _) scM9_1 (Memref.isWhole_whole _) (fun h => h0 ((hcond9_0 t).mp h)) ((hcond9_1 t).mpr h1) (iblk9 V c 0 t) (iblk9 V c 1 t) xs0 xs1)

/-! ## What the result buffer and both accumulators hold after each point -/

/-- THE ACCUMULATION, point by point along t = 4·i + k: at k = 0 both accumulators restart from zero plus the block's
    contribution; at k = 1, 2 the contribution is added to what the point before left; at k = 3 likewise, and the
    result buffer takes the quotient. -/
def outsAt9 (c : Dev nD) : (n : ℕ) → n < cfg9.N → Vec F S512x512 .f32 × Vec F S512x512 .f32 × Vec F S1x512 .f32
  | 0, hn => step9_A V c ⟨0, hn⟩ (Nat.zero_mod _) (show ¬(0 % 4 = 3) from by decide)
  | n + 1, hn =>
    if h0 : (n + 1) % 4 = 0 then
      if h1 : (n + 1) % 4 = 3 then
        False.elim (by omega)
      else
        step9_A V c ⟨n + 1, hn⟩ h0 h1
    else
      if h1 : (n + 1) % 4 = 3 then
        step9_C V c ⟨n + 1, hn⟩ h0 h1 (outsAt9 c n (Nat.lt_of_succ_lt hn)).2.1 (outsAt9 c n (Nat.lt_of_succ_lt hn)).2.2
      else
        step9_B V c ⟨n + 1, hn⟩ h0 h1 (outsAt9 c n (Nat.lt_of_succ_lt hn)).2.1 (outsAt9 c n (Nat.lt_of_succ_lt hn)).2.2

/-- `outsAt9` at a point with k = 0. -/
theorem outsAt9_A (c : Dev nD) (t : Fin cfg9.N) (h0 : t.val % 4 = 0) (h1 : ¬t.val % 4 = 3) :
    outsAt9 V c t.val t.isLt = step9_A V c t h0 h1 := by
  obtain ⟨n, hn⟩ := t
  cases n with
  | zero => exact rfl
  | succ n => exact (dif_pos h0).trans ((dif_neg h1).trans rfl)

/-- `outsAt9` at a point with k = 1, 2: over what the point before left. -/
theorem outsAt9_B (c : Dev nD) (t : Fin cfg9.N) (h0 : ¬t.val % 4 = 0) (h1 : ¬t.val % 4 = 3) :
    outsAt9 V c t.val t.isLt = step9_B V c t h0 h1 (outsAt9 V c (t.val - 1) (Nat.lt_of_le_of_lt (Nat.sub_le _ _) t.isLt)).2.1 (outsAt9 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

/-- `outsAt9` at a point with k = 3: over what the point before left. -/
theorem outsAt9_C (c : Dev nD) (t : Fin cfg9.N) (h0 : ¬t.val % 4 = 0) (h1 : t.val % 4 = 3) :
    outsAt9 V c t.val t.isLt = step9_C V c t h0 h1 (outsAt9 V c (t.val - 1) (Nat.lt_of_le_of_lt (Nat.sub_le _ _) t.isLt)).2.1 (outsAt9 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant, by position -/

/-- Before the first point: everything scoped at anything. After point n: the partial product and the partial row
    sums at what that point left, the rest of the scoped buffers unopened, the generator register at some state. -/
def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2.1) ∗ owns (c : Thread nD τ) scM9_1 fullShare ((outsAt9 V c n hn).2.2)) ∗ rest9 (F := F) c) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare ((outsAt9 V c n hn).2.1) ∗ owns (c : Thread nD τ) scM9_1 fullShare ((outsAt9 V c n hn).2.2)) ∗ rest9 (F := F) c) ∗ (∃ r, prngReg c r)) := rfl

theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2.1) ∗ owns (c : Thread nD τ) scM9_1 fullShare ((outsAt9 V c (n - 1) (by omega)).2.2)) ∗ rest9 (F := F) c) ∗ (∃ r, prngReg c r)) := by
  cases n with
  | zero => exact absurd rfl hz
  | succ n => rfl

/-! ## The pipeline's proof data -/

/-- The arrays as the region finds them; after the body at point t the two inputs' buffers at their blocks and the
    result buffer at `outsAt9`'s first component; the invariant by position; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- Before the first point the invariant is the launch's. -/
theorem Phi9_zero (c : Dev nD) : (dat9 V c).Φ 0 = Pipeline.ΦA spec9 c := rfl

/-! ## The body obligation, at a generic point -/

/-- What the body is called with at point t, the windows one by one, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t)

set_option maxHeartbeats 4800000 in
/-- The body at a point with k = 0: the accumulators are handed over at anything (at the first point from the
    launch's invariant, later from what the previous row of the grid left) and come back at this point's contents;
    the result buffer goes back as found. -/
theorem sound_body9_A (c : Dev nD) (t : Fin cfg9.N) (h0 : t.val % 4 = 0) (h1 : ¬t.val % 4 = 3) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  have hN : t.val < 64 := lt_of_lt_of_eq t.isLt (show cfg9.N = 64 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [Dat.leavesExact_idle (dat9 V c) 2 t (idleAt9_2_A t ((hcond9_0 t).mpr h0) (fun h => h1 ((hcond9_1 t).mp h))) (noFlush9_2_A t ((hcond9_0 t).mpr h0) (fun h => h1 ((hcond9_1 t).mp h)))]
  rw [outsAt9_A V c t h0 h1]
  unfold step9_A sout9_A_0 sout9_A_1; (try dsimp only)
  by_cases hz : t.val = 0
  · rw [PhiS9_castSucc V c t, PhiS9_zero V c _ _ hz, PhiA9_eq]
    iintro ⟨⟨⟨⟨HS0, HS1⟩, Hr⟩, Hg⟩, Ho, ⟨%d0, H0⟩, ⟨%d1, H1⟩, ⟨%d2, H2⟩⟩
    iapply ((kernelRun9_A c (grid9.coords t) _ _ _ _ _ _ _ _ _ _ ((hcond9_0 t).mpr h0) (fun h => h1 ((hcond9_1 t).mp h)) (iblk9 V c 0 t) (iblk9 V c 1 t)).2.2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover9_A_0 c _ _ _ _ _ _ _ _ _ _ _ _ _ _ _)
          · unfold owns; iexists _; isplitr
            swap; · iexact HS1
            ipureintro; exact View.read_writes_of_cover _ _ _ _ _ (scover9_A_1 c _ _ _ _ _ _ _ _ _ _ _ _ _ _ _)
        · iexact Hr
      · iexact Hg
    isplitl [Ho]; · iexact Ho
    isplitl [H0]; · iexact H0
    isplitl [H1]; · iexact H1
    iexists _; iexact H2
  · rw [PhiS9_castSucc V c t, PhiS9_pos V c _ _ hz]
    iintro ⟨⟨⟨⟨HS0, HS1⟩, Hr⟩, Hg⟩, Ho, ⟨%d0, H0⟩, ⟨%d1, H1⟩, ⟨%d2, H2⟩⟩
    iapply ((kernelRun9_A c (grid9.coords t) _ _ _ _ _ _ _ _ _ _ ((hcond9_0 t).mpr h0) (fun h => h1 ((hcond9_1 t).mp h)) (iblk9 V c 0 t) (iblk9 V c 1 t)).2.2.2 _ Set.univ _)
    isplitl [H0]; · iexact H0
    isplitl [H1]; · iexact H1
    isplitl [H2]; · iexact H2
    isplitl [HS0]; · iexists _; iexact HS0
    isplitl [HS1]; · iexists _; iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover9_A_0 c _ _ _ _ _ _ _ _ _ _ _ _ _ _ _)
          · unfold owns; iexists _; isplitr
            swap; · iexact HS1
            ipureintro; exact View.read_writes_of_cover _ _ _ _ _ (scover9_A_1 c _ _ _ _ _ _ _ _ _ _ _ _ _ _ _)
        · iexact Hr
      · iexact Hg
    isplitl [Ho]; · iexact Ho
    isplitl [H0]; · iexact H0
    isplitl [H1]; · iexact H1
    iexists _; iexact H2

set_option maxHeartbeats 4800000 in
/-- The body at a point with k = 1, 2: the accumulators come in at what the point before left and go out at this
    point's contents; the result buffer goes back as found. -/
theorem sound_body9_B (c : Dev nD) (t : Fin cfg9.N) (h0 : ¬t.val % 4 = 0) (h1 : ¬t.val % 4 = 3) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  have hN : t.val < 64 := lt_of_lt_of_eq t.isLt (show cfg9.N = 64 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [Dat.leavesExact_idle (dat9 V c) 2 t (idleAt9_2_B t (fun h => h0 ((hcond9_0 t).mp h)) (fun h => h1 ((hcond9_1 t).mp h))) (noFlush9_2_B t (fun h => h0 ((hcond9_0 t).mp h)) (fun h => h1 ((hcond9_1 t).mp h)))]
  rw [outsAt9_B V c t h0 h1]
  unfold step9_B sout9_B_0 sout9_B_1; (try dsimp only)
  have hz : t.val ≠ 0 := fun e => h0 (by rw [e])
  rw [PhiS9_castSucc V c t, PhiS9_pos V c _ _ hz]
  iintro ⟨⟨⟨⟨HS0, HS1⟩, Hr⟩, Hg⟩, Ho, ⟨%d0, H0⟩, ⟨%d1, H1⟩, ⟨%d2, H2⟩⟩
  iapply ((kernelRun9_B c (grid9.coords t) _ _ _ _ _ _ _ _ _ _ (fun h => h0 ((hcond9_0 t).mp h)) (fun h => h1 ((hcond9_1 t).mp h)) (iblk9 V c 0 t) (iblk9 V c 1 t) _ _).2.2.2 _ Set.univ _)
  isplitl [H0]; · iexact H0
  isplitl [H1]; · iexact H1
  isplitl [H2]; · iexact H2
  isplitl [HS0]; · iexact HS0
  isplitl [HS1]; · iexact HS1
  iintro ⟨H0, H1, H2, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover9_B_0 c _ _ _ _ _ _ _ _ _ _ _ _ _ _ _ _ _)
        · unfold owns; iexists _; isplitr
          swap; · iexact HS1
          ipureintro; exact View.read_writes_of_cover _ _ _ _ _ (scover9_B_1 c _ _ _ _ _ _ _ _ _ _ _ _ _ _ _ _ _)
      · iexact Hr
    · iexact Hg
  isplitl [Ho]; · iexact Ho
  isplitl [H0]; · iexact H0
  isplitl [H1]; · iexact H1
  iexists _; iexact H2

set_option maxHeartbeats 4800000 in
/-- The body at a point with k = 3: as before for the accumulators; the result buffer, handed over at anything, comes
    back at the quotient. -/
theorem sound_body9_C (c : Dev nD) (t : Fin cfg9.N) (h0 : ¬t.val % 4 = 0) (h1 : t.val % 4 = 3) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  have hN : t.val < 64 := lt_of_lt_of_eq t.isLt (show cfg9.N = 64 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2_C t (fun h => h0 ((hcond9_0 t).mp h)) ((hcond9_1 t).mpr h1)], after9_2]
  rw [outsAt9_C V c t h0 h1]
  unfold step9_C out9_C_2 sout9_C_0 sout9_C_1; (try dsimp only)
  have hz : t.val ≠ 0 := fun e => h0 (by rw [e])
  rw [PhiS9_castSucc V c t, PhiS9_pos V c _ _ hz]
  iintro ⟨⟨⟨⟨HS0, HS1⟩, Hr⟩, Hg⟩, Ho, ⟨%d0, H0⟩, ⟨%d1, H1⟩, ⟨%d2, H2⟩⟩
  iapply ((kernelRun9_C c (grid9.coords t) _ _ _ _ _ _ _ _ _ _ (fun h => h0 ((hcond9_0 t).mp h)) ((hcond9_1 t).mpr h1) (iblk9 V c 0 t) (iblk9 V c 1 t) _ _).2.2.2 Set.univ _)
  isplitl [H0]; · iexact H0
  isplitl [H1]; · iexact H1
  isplitl [H2]; · iexists _; iexact H2
  isplitl [HS0]; · iexact HS0
  isplitl [HS1]; · iexact HS1
  iintro ⟨H0, H1, ⟨%e2, H2⟩, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover9_C_0 c _ _ _ _ _ _ _ _ _ _ _ _ _ _ _ _ _)
        · unfold owns; iexists _; isplitr
          swap; · iexact HS1
          ipureintro; exact View.read_writes_of_cover _ _ _ _ _ (scover9_C_1 c _ _ _ _ _ _ _ _ _ _ _ _ _ _ _ _ _)
      · iexact Hr
    · iexact Hg
  isplitl [Ho]; · iexact Ho
  isplitl [H0]; · iexact H0
  isplitl [H1]; · iexact H1
  unfold owns; iexists _; isplitr
  swap; · iexact H2
  ipureintro; exact View.read_writes_of_cover _ _ _ _ _ (cover9_C_2 c _ _ _ _ _ _ _ _ _ _ _ _ _ _ _ _ _)

/-- The body at any point: the position's residue mod 4 says which of the three cases it is in. -/
theorem sound_body9 (c : Dev nD) (t : Fin cfg9.N) :
    bodyPre9 V c t ⊢ wp frame (wpE (defs₀ (F := F)) Variants.none c none) Set.univ (bodyAt9 t) (fun _ => bodyPost9 V c t) := by
  by_cases h0 : t.val % 4 = 0
  · exact sound_body9_A V c t h0 (by omega)
  · by_cases h1 : t.val % 4 = 3
    · exact sound_body9_C V c t h0 h1
    · exact sound_body9_B V c t h0 h1

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- After any point the invariant gives the launch's back: what the accumulators hold is forgotten. -/
theorem Phi9_out (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout9 (c : Dev nD) : (dat9 V c).Φ (Fin.last cfg9.N) ⊢ Pipeline.ΦA spec9 c :=
  Phi9_out V c _ (by rw [Fin.val_last]; have : cfg9.N = 64 := N_9; omega)

end Region9

end Cert.KernelIdeal.Gen

end
-- ==== Proof.KI.Run.lean ====
import proofs.«145590_j23742579212572_2_alg».proof.Proof.Gen.KernelIdeal.Launch
import proofs.«145590_j23742579212572_2_alg».proof.Proof.Gen.KernelIdeal.Skeleton
import proofs.«145590_j23742579212572_2_alg».proof.Proof.Gen.KernelIdeal.Points
import proofs.«145590_j23742579212572_2_alg».proof.Proof.Gen.KernelIdeal.Regions
import proofs.«145590_j23742579212572_2_alg».proof.Proof.KI.Lin
import proofs.«145590_j23742579212572_2_alg».proof.Proof.KI.R3
import proofs.«145590_j23742579212572_2_alg».proof.Proof.KI.R4
import proofs.«145590_j23742579212572_2_alg».proof.Proof.KI.R5
import proofs.«145590_j23742579212572_2_alg».proof.Proof.KI.R6
import proofs.«145590_j23742579212572_2_alg».proof.Proof.KI.R7
import proofs.«145590_j23742579212572_2_alg».proof.Proof.KI.R8
import proofs.«145590_j23742579212572_2_alg».proof.Proof.KI.R9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: sixteen items from the launch to the return

@main is six stretches of host operations and ten kernel regions. This module names what every unscoped buffer of a
core holds at each of the seventeen boundaries between items (`W0` at launch … `W16` at the return): a host stretch
takes the contents to what its operations compute from them; a region leaves each of its arrays at what its pipeline's
write-backs fold to and every other buffer as it was. From that: every region's proof data at its entry contents, each
region as a segment between two boundaries, @main as the list of the sixteen segments, and the run — every weakly fair
execution from any memory with zero counters terminates without fault and ends with every unscoped buffer at `W16`;
in particular the twelve argument arrays, which nothing writes, end as launched. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => m (c, b)

/-- After the host stretch `hostOps0` (item 0). -/
abbrev W1 : Dev nD → Valuation τ sig (Elt F) := fun c => StableHlo.after hostOps0 (W0 m c)
/-- The stretch leaves every buffer it does not write as it was. -/
theorem W1_keep (c : Dev nD) (r : Ref sig .tc) (h : r ∉ hostOps0_W) :
    W1 m c (Proc.devRef .tc r) = W0 m c (Proc.devRef .tc r) :=
  StableHlo.after_of_writes_sub hostOps0 _ hostOps0_writes h

/-- Boundary 1 read at the TensorCore's references (what a region's proof data take). -/
abbrev Vt1 : (c : Dev nD) → (b : Ref sig .tc) → Buf (Elt F) ((c : Thread nD τ).loc b) := fun c b => W1 m c b
/-- At region 0's exit (item 1): its arrays at what the pipeline leaves (the inputs as entered, the result's
    write-backs folded), every other buffer as entered. -/
def W2 (c : Dev nD) : Valuation τ sig (Elt F) :=
  Pipeline.withArrays spec0 c (W1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- Boundary 2 read at the TensorCore's references (what a region's proof data take). -/
abbrev Vt2 : (c : Dev nD) → (b : Ref sig .tc) → Buf (Elt F) ((c : Thread nD τ).loc b) := fun c b => W2 m c b
/-- At region 0's exit each of its arrays holds what the pipeline leaves and every other buffer what it held at entry. -/
theorem hF0 (c : Dev nD) (w : Fin cfg0.W) : (dat0 (Vt1 m) c).arrAt w cfg0.N = Vt2 m c (Pipeline.arrRef spec0 w) :=
  (W2_arr m c w).symm
theorem hrest0 (c : Dev nD) : ∀ b, b ∉ Finset.univ.image (Pipeline.arrRef spec0) → Vt2 m c b = Vt1 m c b :=
  fun b hb => W2_of_ne m c b fun w e => hb (Finset.mem_image.mpr ⟨w, Finset.mem_univ _, e⟩)
/-- Every window of region 0 other than the result's is an input. -/
theorem inputs0 : ∀ w : Fin cfg0.W, Pipeline.arrRef spec0 w ≠ main_v5 → (cfg0.win w).isOut = false := by decide
/-- Region 0 changes `main_v5` only: an input's array is folded over no write-back, any other buffer is not its. -/
theorem W2_keep (c : Dev nD) (b : Ref sig .tc) (hb : b ≠ main_v5) :
    W2 m c (Proc.devRef .tc b) = W1 m c (Proc.devRef .tc b) := by
  by_cases h : ∀ w, Pipeline.arrRef spec0 w ≠ b
  · exact W2_of_ne m c b h
  · obtain ⟨w, rfl⟩ : ∃ w, Pipeline.arrRef spec0 w = b := by
      by_contra hne; exact h fun w e => hne ⟨w, e⟩
    exact (W2_arr m c w).trans (((dat0 (Vt1 m) c).arrAt_in w (inputs0 w hb) _).trans (A_eq0 (Vt1 m) c w))

/-- After the host stretch `hostOps1` (item 2). -/
abbrev W3 : Dev nD → Valuation τ sig (Elt F) := fun c => StableHlo.after hostOps1 (W2 m c)
/-- The stretch leaves every buffer it does not write as it was. -/
theorem W3_keep (c : Dev nD) (r : Ref sig .tc) (h : r ∉ hostOps1_W) :
    W3 m c (Proc.devRef .tc r) = W2 m c (Proc.devRef .tc r) :=
  StableHlo.after_of_writes_sub hostOps1 _ hostOps1_writes h

/-- Boundary 3 read at the TensorCore's references (what a region's proof data take). -/
abbrev Vt3 : (c : Dev nD) → (b : Ref sig .tc) → Buf (Elt F) ((c : Thread nD τ).loc b) := fun c b => W3 m c b
/-- At region 1's exit (item 3): its arrays at what the pipeline leaves (the inputs as entered, the result's
    write-backs folded), every other buffer as entered. -/
def W4 (c : Dev nD) : Valuation τ sig (Elt F) :=
  Pipeline.withArrays spec1 c (W3 m c) fun w => (dat1 (Vt3 m) c).arrAt w cfg1.N
theorem W4_arr (c : Dev nD) (w : Fin cfg1.W) :
    W4 m c (Proc.devRef .tc (Pipeline.arrRef spec1 w)) = (dat1 (Vt3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- Boundary 4 read at the TensorCore's references (what a region's proof data take). -/
abbrev Vt4 : (c : Dev nD) → (b : Ref sig .tc) → Buf (Elt F) ((c : Thread nD τ).loc b) := fun c b => W4 m c b
/-- At region 1's exit each of its arrays holds what the pipeline leaves and every other buffer what it held at entry. -/
theorem hF1 (c : Dev nD) (w : Fin cfg1.W) : (dat1 (Vt3 m) c).arrAt w cfg1.N = Vt4 m c (Pipeline.arrRef spec1 w) :=
  (W4_arr m c w).symm
theorem hrest1 (c : Dev nD) : ∀ b, b ∉ Finset.univ.image (Pipeline.arrRef spec1) → Vt4 m c b = Vt3 m c b :=
  fun b hb => W4_of_ne m c b fun w e => hb (Finset.mem_image.mpr ⟨w, Finset.mem_univ _, e⟩)
/-- Every window of region 1 other than the result's is an input. -/
theorem inputs1 : ∀ w : Fin cfg1.W, Pipeline.arrRef spec1 w ≠ main_v7 → (cfg1.win w).isOut = false := by decide
/-- Region 1 changes `main_v7` only: an input's array is folded over no write-back, any other buffer is not its. -/
theorem W4_keep (c : Dev nD) (b : Ref sig .tc) (hb : b ≠ main_v7) :
    W4 m c (Proc.devRef .tc b) = W3 m c (Proc.devRef .tc b) := by
  by_cases h : ∀ w, Pipeline.arrRef spec1 w ≠ b
  · exact W4_of_ne m c b h
  · obtain ⟨w, rfl⟩ : ∃ w, Pipeline.arrRef spec1 w = b := by
      by_contra hne; exact h fun w e => hne ⟨w, e⟩
    exact (W4_arr m c w).trans (((dat1 (Vt3 m) c).arrAt_in w (inputs1 w hb) _).trans (A_eq1 (Vt3 m) c w))

/-- After the host stretch `hostOps2` (item 4). -/
abbrev W5 : Dev nD → Valuation τ sig (Elt F) := fun c => StableHlo.after hostOps2 (W4 m c)
/-- The stretch leaves every buffer it does not write as it was. -/
theorem W5_keep (c : Dev nD) (r : Ref sig .tc) (h : r ∉ hostOps2_W) :
    W5 m c (Proc.devRef .tc r) = W4 m c (Proc.devRef .tc r) :=
  StableHlo.after_of_writes_sub hostOps2 _ hostOps2_writes h

/-- Boundary 5 read at the TensorCore's references (what a region's proof data take). -/
abbrev Vt5 : (c : Dev nD) → (b : Ref sig .tc) → Buf (Elt F) ((c : Thread nD τ).loc b) := fun c b => W5 m c b
/-- At region 2's exit (item 5): its arrays at what the pipeline leaves (the inputs as entered, the result's
    write-backs folded), every other buffer as entered. -/
def W6 (c : Dev nD) : Valuation τ sig (Elt F) :=
  Pipeline.withArrays spec2 c (W5 m c) fun w => (dat2 (Vt5 m) c).arrAt w cfg2.N
theorem W6_arr (c : Dev nD) (w : Fin cfg2.W) :
    W6 m c (Proc.devRef .tc (Pipeline.arrRef spec2 w)) = (dat2 (Vt5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- Boundary 6 read at the TensorCore's references (what a region's proof data take). -/
abbrev Vt6 : (c : Dev nD) → (b : Ref sig .tc) → Buf (Elt F) ((c : Thread nD τ).loc b) := fun c b => W6 m c b
/-- At region 2's exit each of its arrays holds what the pipeline leaves and every other buffer what it held at entry. -/
theorem hF2 (c : Dev nD) (w : Fin cfg2.W) : (dat2 (Vt5 m) c).arrAt w cfg2.N = Vt6 m c (Pipeline.arrRef spec2 w) :=
  (W6_arr m c w).symm
theorem hrest2 (c : Dev nD) : ∀ b, b ∉ Finset.univ.image (Pipeline.arrRef spec2) → Vt6 m c b = Vt5 m c b :=
  fun b hb => W6_of_ne m c b fun w e => hb (Finset.mem_image.mpr ⟨w, Finset.mem_univ _, e⟩)
/-- Every window of region 2 other than the result's is an input. -/
theorem inputs2 : ∀ w : Fin cfg2.W, Pipeline.arrRef spec2 w ≠ main_v9 → (cfg2.win w).isOut = false := by decide
/-- Region 2 changes `main_v9` only: an input's array is folded over no write-back, any other buffer is not its. -/
theorem W6_keep (c : Dev nD) (b : Ref sig .tc) (hb : b ≠ main_v9) :
    W6 m c (Proc.devRef .tc b) = W5 m c (Proc.devRef .tc b) := by
  by_cases h : ∀ w, Pipeline.arrRef spec2 w ≠ b
  · exact W6_of_ne m c b h
  · obtain ⟨w, rfl⟩ : ∃ w, Pipeline.arrRef spec2 w = b := by
      by_contra hne; exact h fun w e => hne ⟨w, e⟩
    exact (W6_arr m c w).trans (((dat2 (Vt5 m) c).arrAt_in w (inputs2 w hb) _).trans (A_eq2 (Vt5 m) c w))
/-- At region 3's exit (item 6): its arrays at what the pipeline leaves (the inputs as entered, the result's
    write-backs folded), every other buffer as entered. -/
def W7 (c : Dev nD) : Valuation τ sig (Elt F) :=
  Pipeline.withArrays spec3 c (W6 m c) fun w => (dat3 (Vt6 m) c).arrAt w cfg3.N
theorem W7_arr (c : Dev nD) (w : Fin cfg3.W) :
    W7 m c (Proc.devRef .tc (Pipeline.arrRef spec3 w)) = (dat3 (Vt6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- Boundary 7 read at the TensorCore's references (what a region's proof data take). -/
abbrev Vt7 : (c : Dev nD) → (b : Ref sig .tc) → Buf (Elt F) ((c : Thread nD τ).loc b) := fun c b => W7 m c b
/-- At region 3's exit each of its arrays holds what the pipeline leaves and every other buffer what it held at entry. -/
theorem hF3 (c : Dev nD) (w : Fin cfg3.W) : (dat3 (Vt6 m) c).arrAt w cfg3.N = Vt7 m c (Pipeline.arrRef spec3 w) :=
  (W7_arr m c w).symm
theorem hrest3 (c : Dev nD) : ∀ b, b ∉ Finset.univ.image (Pipeline.arrRef spec3) → Vt7 m c b = Vt6 m c b :=
  fun b hb => W7_of_ne m c b fun w e => hb (Finset.mem_image.mpr ⟨w, Finset.mem_univ _, e⟩)
/-- Every window of region 3 other than the result's is an input. -/
theorem inputs3 : ∀ w : Fin cfg3.W, Pipeline.arrRef spec3 w ≠ main_v10 → (cfg3.win w).isOut = false := by decide
/-- Region 3 changes `main_v10` only: an input's array is folded over no write-back, any other buffer is not its. -/
theorem W7_keep (c : Dev nD) (b : Ref sig .tc) (hb : b ≠ main_v10) :
    W7 m c (Proc.devRef .tc b) = W6 m c (Proc.devRef .tc b) := by
  by_cases h : ∀ w, Pipeline.arrRef spec3 w ≠ b
  · exact W7_of_ne m c b h
  · obtain ⟨w, rfl⟩ : ∃ w, Pipeline.arrRef spec3 w = b := by
      by_contra hne; exact h fun w e => hne ⟨w, e⟩
    exact (W7_arr m c w).trans (((dat3 (Vt6 m) c).arrAt_in w (inputs3 w hb) _).trans (A_eq3 (Vt6 m) c w))

/-- After the host stretch `hostOps4` (item 7). -/
abbrev W8 : Dev nD → Valuation τ sig (Elt F) := fun c => StableHlo.after hostOps4 (W7 m c)
/-- The stretch leaves every buffer it does not write as it was. -/
theorem W8_keep (c : Dev nD) (r : Ref sig .tc) (h : r ∉ hostOps4_W) :
    W8 m c (Proc.devRef .tc r) = W7 m c (Proc.devRef .tc r) :=
  StableHlo.after_of_writes_sub hostOps4 _ hostOps4_writes h

/-- Boundary 8 read at the TensorCore's references (what a region's proof data take). -/
abbrev Vt8 : (c : Dev nD) → (b : Ref sig .tc) → Buf (Elt F) ((c : Thread nD τ).loc b) := fun c b => W8 m c b
/-- At region 4's exit (item 8): its arrays at what the pipeline leaves (the inputs as entered, the result's
    write-backs folded), every other buffer as entered. -/
def W9 (c : Dev nD) : Valuation τ sig (Elt F) :=
  Pipeline.withArrays spec4 c (W8 m c) fun w => (dat4 (Vt8 m) c).arrAt w cfg4.N
theorem W9_arr (c : Dev nD) (w : Fin cfg4.W) :
    W9 m c (Proc.devRef .tc (Pipeline.arrRef spec4 w)) = (dat4 (Vt8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
/-- Boundary 9 read at the TensorCore's references (what a region's proof data take). -/
abbrev Vt9 : (c : Dev nD) → (b : Ref sig .tc) → Buf (Elt F) ((c : Thread nD τ).loc b) := fun c b => W9 m c b
/-- At region 4's exit each of its arrays holds what the pipeline leaves and every other buffer what it held at entry. -/
theorem hF4 (c : Dev nD) (w : Fin cfg4.W) : (dat4 (Vt8 m) c).arrAt w cfg4.N = Vt9 m c (Pipeline.arrRef spec4 w) :=
  (W9_arr m c w).symm
theorem hrest4 (c : Dev nD) : ∀ b, b ∉ Finset.univ.image (Pipeline.arrRef spec4) → Vt9 m c b = Vt8 m c b :=
  fun b hb => W9_of_ne m c b fun w e => hb (Finset.mem_image.mpr ⟨w, Finset.mem_univ _, e⟩)
/-- Every window of region 4 other than the result's is an input. -/
theorem inputs4 : ∀ w : Fin cfg4.W, Pipeline.arrRef spec4 w ≠ main_v12 → (cfg4.win w).isOut = false := by decide
/-- Region 4 changes `main_v12` only: an input's array is folded over no write-back, any other buffer is not its. -/
theorem W9_keep (c : Dev nD) (b : Ref sig .tc) (hb : b ≠ main_v12) :
    W9 m c (Proc.devRef .tc b) = W8 m c (Proc.devRef .tc b) := by
  by_cases h : ∀ w, Pipeline.arrRef spec4 w ≠ b
  · exact W9_of_ne m c b h
  · obtain ⟨w, rfl⟩ : ∃ w, Pipeline.arrRef spec4 w = b := by
      by_contra hne; exact h fun w e => hne ⟨w, e⟩
    exact (W9_arr m c w).trans (((dat4 (Vt8 m) c).arrAt_in w (inputs4 w hb) _).trans (A_eq4 (Vt8 m) c w))
/-- At region 5's exit (item 9): its arrays at what the pipeline leaves (the inputs as entered, the result's
    write-backs folded), every other buffer as entered. -/
def W10 (c : Dev nD) : Valuation τ sig (Elt F) :=
  Pipeline.withArrays spec5 c (W9 m c) fun w => (dat5 (Vt9 m) c).arrAt w cfg5.N
theorem W10_arr (c : Dev nD) (w : Fin cfg5.W) :
    W10 m c (Proc.devRef .tc (Pipeline.arrRef spec5 w)) = (dat5 (Vt9 m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
/-- Boundary 10 read at the TensorCore's references (what a region's proof data take). -/
abbrev Vt10 : (c : Dev nD) → (b : Ref sig .tc) → Buf (Elt F) ((c : Thread nD τ).loc b) := fun c b => W10 m c b
/-- At region 5's exit each of its arrays holds what the pipeline leaves and every other buffer what it held at entry. -/
theorem hF5 (c : Dev nD) (w : Fin cfg5.W) : (dat5 (Vt9 m) c).arrAt w cfg5.N = Vt10 m c (Pipeline.arrRef spec5 w) :=
  (W10_arr m c w).symm
theorem hrest5 (c : Dev nD) : ∀ b, b ∉ Finset.univ.image (Pipeline.arrRef spec5) → Vt10 m c b = Vt9 m c b :=
  fun b hb => W10_of_ne m c b fun w e => hb (Finset.mem_image.mpr ⟨w, Finset.mem_univ _, e⟩)
/-- Every window of region 5 other than the result's is an input. -/
theorem inputs5 : ∀ w : Fin cfg5.W, Pipeline.arrRef spec5 w ≠ main_v13 → (cfg5.win w).isOut = false := by decide
/-- Region 5 changes `main_v13` only: an input's array is folded over no write-back, any other buffer is not its. -/
theorem W10_keep (c : Dev nD) (b : Ref sig .tc) (hb : b ≠ main_v13) :
    W10 m c (Proc.devRef .tc b) = W9 m c (Proc.devRef .tc b) := by
  by_cases h : ∀ w, Pipeline.arrRef spec5 w ≠ b
  · exact W10_of_ne m c b h
  · obtain ⟨w, rfl⟩ : ∃ w, Pipeline.arrRef spec5 w = b := by
      by_contra hne; exact h fun w e => hne ⟨w, e⟩
    exact (W10_arr m c w).trans (((dat5 (Vt9 m) c).arrAt_in w (inputs5 w hb) _).trans (A_eq5 (Vt9 m) c w))
/-- At region 6's exit (item 10): its arrays at what the pipeline leaves (the inputs as entered, the result's
    write-backs folded), every other buffer as entered. -/
def W11 (c : Dev nD) : Valuation τ sig (Elt F) :=
  Pipeline.withArrays spec6 c (W10 m c) fun w => (dat6 (Vt10 m) c).arrAt w cfg6.N
theorem W11_arr (c : Dev nD) (w : Fin cfg6.W) :
    W11 m c (Proc.devRef .tc (Pipeline.arrRef spec6 w)) = (dat6 (Vt10 m) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m c (Proc.devRef .tc b) = W10 m c (Proc.devRef .tc b) := by
  unfold W11; exact Pipeline.withArrays_of_ne spec6 c _ _ b hb
/-- Boundary 11 read at the TensorCore's references (what a region's proof data take). -/
abbrev Vt11 : (c : Dev nD) → (b : Ref sig .tc) → Buf (Elt F) ((c : Thread nD τ).loc b) := fun c b => W11 m c b
/-- At region 6's exit each of its arrays holds what the pipeline leaves and every other buffer what it held at entry. -/
theorem hF6 (c : Dev nD) (w : Fin cfg6.W) : (dat6 (Vt10 m) c).arrAt w cfg6.N = Vt11 m c (Pipeline.arrRef spec6 w) :=
  (W11_arr m c w).symm
theorem hrest6 (c : Dev nD) : ∀ b, b ∉ Finset.univ.image (Pipeline.arrRef spec6) → Vt11 m c b = Vt10 m c b :=
  fun b hb => W11_of_ne m c b fun w e => hb (Finset.mem_image.mpr ⟨w, Finset.mem_univ _, e⟩)
/-- Every window of region 6 other than the result's is an input. -/
theorem inputs6 : ∀ w : Fin cfg6.W, Pipeline.arrRef spec6 w ≠ main_v14 → (cfg6.win w).isOut = false := by decide
/-- Region 6 changes `main_v14` only: an input's array is folded over no write-back, any other buffer is not its. -/
theorem W11_keep (c : Dev nD) (b : Ref sig .tc) (hb : b ≠ main_v14) :
    W11 m c (Proc.devRef .tc b) = W10 m c (Proc.devRef .tc b) := by
  by_cases h : ∀ w, Pipeline.arrRef spec6 w ≠ b
  · exact W11_of_ne m c b h
  · obtain ⟨w, rfl⟩ : ∃ w, Pipeline.arrRef spec6 w = b := by
      by_contra hne; exact h fun w e => hne ⟨w, e⟩
    exact (W11_arr m c w).trans (((dat6 (Vt10 m) c).arrAt_in w (inputs6 w hb) _).trans (A_eq6 (Vt10 m) c w))
/-- At region 7's exit (item 11): its arrays at what the pipeline leaves (the inputs as entered, the result's
    write-backs folded), every other buffer as entered. -/
def W12 (c : Dev nD) : Valuation τ sig (Elt F) :=
  Pipeline.withArrays spec7 c (W11 m c) fun w => (dat7 (Vt11 m) c).arrAt w cfg7.N
theorem W12_arr (c : Dev nD) (w : Fin cfg7.W) :
    W12 m c (Proc.devRef .tc (Pipeline.arrRef spec7 w)) = (dat7 (Vt11 m) c).arrAt w cfg7.N := by
  unfold W12; exact Pipeline.withArrays_arr spec7 launch7.win.arr_inj c _ _ w
theorem W12_of_ne (c : Dev nD) (b : Ref sig .tc) (hb : ∀ w, Pipeline.arrRef spec7 w ≠ b) :
    W12 m c (Proc.devRef .tc b) = W11 m c (Proc.devRef .tc b) := by
  unfold W12; exact Pipeline.withArrays_of_ne spec7 c _ _ b hb
/-- Boundary 12 read at the TensorCore's references (what a region's proof data take). -/
abbrev Vt12 : (c : Dev nD) → (b : Ref sig .tc) → Buf (Elt F) ((c : Thread nD τ).loc b) := fun c b => W12 m c b
/-- At region 7's exit each of its arrays holds what the pipeline leaves and every other buffer what it held at entry. -/
theorem hF7 (c : Dev nD) (w : Fin cfg7.W) : (dat7 (Vt11 m) c).arrAt w cfg7.N = Vt12 m c (Pipeline.arrRef spec7 w) :=
  (W12_arr m c w).symm
theorem hrest7 (c : Dev nD) : ∀ b, b ∉ Finset.univ.image (Pipeline.arrRef spec7) → Vt12 m c b = Vt11 m c b :=
  fun b hb => W12_of_ne m c b fun w e => hb (Finset.mem_image.mpr ⟨w, Finset.mem_univ _, e⟩)
/-- Every window of region 7 other than the result's is an input. -/
theorem inputs7 : ∀ w : Fin cfg7.W, Pipeline.arrRef spec7 w ≠ main_v15 → (cfg7.win w).isOut = false := by decide
/-- Region 7 changes `main_v15` only: an input's array is folded over no write-back, any other buffer is not its. -/
theorem W12_keep (c : Dev nD) (b : Ref sig .tc) (hb : b ≠ main_v15) :
    W12 m c (Proc.devRef .tc b) = W11 m c (Proc.devRef .tc b) := by
  by_cases h : ∀ w, Pipeline.arrRef spec7 w ≠ b
  · exact W12_of_ne m c b h
  · obtain ⟨w, rfl⟩ : ∃ w, Pipeline.arrRef spec7 w = b := by
      by_contra hne; exact h fun w e => hne ⟨w, e⟩
    exact (W12_arr m c w).trans (((dat7 (Vt11 m) c).arrAt_in w (inputs7 w hb) _).trans (A_eq7 (Vt11 m) c w))

/-- After the host stretch `hostOps8` (item 12). -/
abbrev W13 : Dev nD → Valuation τ sig (Elt F) := fun c => StableHlo.after hostOps8 (W12 m c)
/-- The stretch leaves every buffer it does not write as it was. -/
theorem W13_keep (c : Dev nD) (r : Ref sig .tc) (h : r ∉ hostOps8_W) :
    W13 m c (Proc.devRef .tc r) = W12 m c (Proc.devRef .tc r) :=
  StableHlo.after_of_writes_sub hostOps8 _ hostOps8_writes h

/-- Boundary 13 read at the TensorCore's references (what a region's proof data take). -/
abbrev Vt13 : (c : Dev nD) → (b : Ref sig .tc) → Buf (Elt F) ((c : Thread nD τ).loc b) := fun c b => W13 m c b
/-- At region 8's exit (item 13): its arrays at what the pipeline leaves (the inputs as entered, the result's
    write-backs folded), every other buffer as entered. -/
def W14 (c : Dev nD) : Valuation τ sig (Elt F) :=
  Pipeline.withArrays spec8 c (W13 m c) fun w => (dat8 (Vt13 m) c).arrAt w cfg8.N
theorem W14_arr (c : Dev nD) (w : Fin cfg8.W) :
    W14 m c (Proc.devRef .tc (Pipeline.arrRef spec8 w)) = (dat8 (Vt13 m) c).arrAt w cfg8.N := by
  unfold W14; exact Pipeline.withArrays_arr spec8 launch8.win.arr_inj c _ _ w
theorem W14_of_ne (c : Dev nD) (b : Ref sig .tc) (hb : ∀ w, Pipeline.arrRef spec8 w ≠ b) :
    W14 m c (Proc.devRef .tc b) = W13 m c (Proc.devRef .tc b) := by
  unfold W14; exact Pipeline.withArrays_of_ne spec8 c _ _ b hb
/-- Boundary 14 read at the TensorCore's references (what a region's proof data take). -/
abbrev Vt14 : (c : Dev nD) → (b : Ref sig .tc) → Buf (Elt F) ((c : Thread nD τ).loc b) := fun c b => W14 m c b
/-- At region 8's exit each of its arrays holds what the pipeline leaves and every other buffer what it held at entry. -/
theorem hF8 (c : Dev nD) (w : Fin cfg8.W) : (dat8 (Vt13 m) c).arrAt w cfg8.N = Vt14 m c (Pipeline.arrRef spec8 w) :=
  (W14_arr m c w).symm
theorem hrest8 (c : Dev nD) : ∀ b, b ∉ Finset.univ.image (Pipeline.arrRef spec8) → Vt14 m c b = Vt13 m c b :=
  fun b hb => W14_of_ne m c b fun w e => hb (Finset.mem_image.mpr ⟨w, Finset.mem_univ _, e⟩)
/-- Every window of region 8 other than the result's is an input. -/
theorem inputs8 : ∀ w : Fin cfg8.W, Pipeline.arrRef spec8 w ≠ main_v22 → (cfg8.win w).isOut = false := by decide
/-- Region 8 changes `main_v22` only: an input's array is folded over no write-back, any other buffer is not its. -/
theorem W14_keep (c : Dev nD) (b : Ref sig .tc) (hb : b ≠ main_v22) :
    W14 m c (Proc.devRef .tc b) = W13 m c (Proc.devRef .tc b) := by
  by_cases h : ∀ w, Pipeline.arrRef spec8 w ≠ b
  · exact W14_of_ne m c b h
  · obtain ⟨w, rfl⟩ : ∃ w, Pipeline.arrRef spec8 w = b := by
      by_contra hne; exact h fun w e => hne ⟨w, e⟩
    exact (W14_arr m c w).trans (((dat8 (Vt13 m) c).arrAt_in w (inputs8 w hb) _).trans (A_eq8 (Vt13 m) c w))
/-- At region 9's exit (item 14): its arrays at what the pipeline leaves (the inputs as entered, the result's
    write-backs folded), every other buffer as entered. -/
def W15 (c : Dev nD) : Valuation τ sig (Elt F) :=
  Pipeline.withArrays spec9 c (W14 m c) fun w => (dat9 (Vt14 m) c).arrAt w cfg9.N
theorem W15_arr (c : Dev nD) (w : Fin cfg9.W) :
    W15 m c (Proc.devRef .tc (Pipeline.arrRef spec9 w)) = (dat9 (Vt14 m) c).arrAt w cfg9.N := by
  unfold W15; exact Pipeline.withArrays_arr spec9 launch9.win.arr_inj c _ _ w
theorem W15_of_ne (c : Dev nD) (b : Ref sig .tc) (hb : ∀ w, Pipeline.arrRef spec9 w ≠ b) :
    W15 m c (Proc.devRef .tc b) = W14 m c (Proc.devRef .tc b) := by
  unfold W15; exact Pipeline.withArrays_of_ne spec9 c _ _ b hb
/-- Boundary 15 read at the TensorCore's references (what a region's proof data take). -/
abbrev Vt15 : (c : Dev nD) → (b : Ref sig .tc) → Buf (Elt F) ((c : Thread nD τ).loc b) := fun c b => W15 m c b
/-- At region 9's exit each of its arrays holds what the pipeline leaves and every other buffer what it held at entry. -/
theorem hF9 (c : Dev nD) (w : Fin cfg9.W) : (dat9 (Vt14 m) c).arrAt w cfg9.N = Vt15 m c (Pipeline.arrRef spec9 w) :=
  (W15_arr m c w).symm
theorem hrest9 (c : Dev nD) : ∀ b, b ∉ Finset.univ.image (Pipeline.arrRef spec9) → Vt15 m c b = Vt14 m c b :=
  fun b hb => W15_of_ne m c b fun w e => hb (Finset.mem_image.mpr ⟨w, Finset.mem_univ _, e⟩)
/-- Every window of region 9 other than the result's is an input. -/
theorem inputs9 : ∀ w : Fin cfg9.W, Pipeline.arrRef spec9 w ≠ main_v23 → (cfg9.win w).isOut = false := by decide
/-- Region 9 changes `main_v23` only: an input's array is folded over no write-back, any other buffer is not its. -/
theorem W15_keep (c : Dev nD) (b : Ref sig .tc) (hb : b ≠ main_v23) :
    W15 m c (Proc.devRef .tc b) = W14 m c (Proc.devRef .tc b) := by
  by_cases h : ∀ w, Pipeline.arrRef spec9 w ≠ b
  · exact W15_of_ne m c b h
  · obtain ⟨w, rfl⟩ : ∃ w, Pipeline.arrRef spec9 w = b := by
      by_contra hne; exact h fun w e => hne ⟨w, e⟩
    exact (W15_arr m c w).trans (((dat9 (Vt14 m) c).arrAt_in w (inputs9 w hb) _).trans (A_eq9 (Vt14 m) c w))

/-- After the host stretch `hostOps10` (item 15). -/
abbrev W16 : Dev nD → Valuation τ sig (Elt F) := fun c => StableHlo.after hostOps10 (W15 m c)
/-- The stretch leaves every buffer it does not write as it was. -/
theorem W16_keep (c : Dev nD) (r : Ref sig .tc) (h : r ∉ hostOps10_W) :
    W16 m c (Proc.devRef .tc r) = W15 m c (Proc.devRef .tc r) :=
  StableHlo.after_of_writes_sub hostOps10 _ hostOps10_writes h

/-! ### The arguments end as launched: no host operation writes one and no region has one as its result -/

theorem W16_main_arg0 (c : Dev nD) : W16 m c (Proc.devRef .tc main_arg0) = m ((c : Thread nD τ).loc main_arg0) :=
  (W16_keep m c main_arg0 (by decide)).trans <| (W15_keep m c main_arg0 (by decide)).trans <| (W14_keep m c main_arg0 (by decide)).trans <| (W13_keep m c main_arg0 (by decide)).trans <| (W12_keep m c main_arg0 (by decide)).trans <| (W11_keep m c main_arg0 (by decide)).trans <| (W10_keep m c main_arg0 (by decide)).trans <| (W9_keep m c main_arg0 (by decide)).trans <| (W8_keep m c main_arg0 (by decide)).trans <| (W7_keep m c main_arg0 (by decide)).trans <| (W6_keep m c main_arg0 (by decide)).trans <| (W5_keep m c main_arg0 (by decide)).trans <| (W4_keep m c main_arg0 (by decide)).trans <| (W3_keep m c main_arg0 (by decide)).trans <| (W2_keep m c main_arg0 (by decide)).trans <| (W1_keep m c main_arg0 (by decide)).trans <| rfl

theorem W16_main_arg1 (c : Dev nD) : W16 m c (Proc.devRef .tc main_arg1) = m ((c : Thread nD τ).loc main_arg1) :=
  (W16_keep m c main_arg1 (by decide)).trans <| (W15_keep m c main_arg1 (by decide)).trans <| (W14_keep m c main_arg1 (by decide)).trans <| (W13_keep m c main_arg1 (by decide)).trans <| (W12_keep m c main_arg1 (by decide)).trans <| (W11_keep m c main_arg1 (by decide)).trans <| (W10_keep m c main_arg1 (by decide)).trans <| (W9_keep m c main_arg1 (by decide)).trans <| (W8_keep m c main_arg1 (by decide)).trans <| (W7_keep m c main_arg1 (by decide)).trans <| (W6_keep m c main_arg1 (by decide)).trans <| (W5_keep m c main_arg1 (by decide)).trans <| (W4_keep m c main_arg1 (by decide)).trans <| (W3_keep m c main_arg1 (by decide)).trans <| (W2_keep m c main_arg1 (by decide)).trans <| (W1_keep m c main_arg1 (by decide)).trans <| rfl

theorem W16_main_arg2 (c : Dev nD) : W16 m c (Proc.devRef .tc main_arg2) = m ((c : Thread nD τ).loc main_arg2) :=
  (W16_keep m c main_arg2 (by decide)).trans <| (W15_keep m c main_arg2 (by decide)).trans <| (W14_keep m c main_arg2 (by decide)).trans <| (W13_keep m c main_arg2 (by decide)).trans <| (W12_keep m c main_arg2 (by decide)).trans <| (W11_keep m c main_arg2 (by decide)).trans <| (W10_keep m c main_arg2 (by decide)).trans <| (W9_keep m c main_arg2 (by decide)).trans <| (W8_keep m c main_arg2 (by decide)).trans <| (W7_keep m c main_arg2 (by decide)).trans <| (W6_keep m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide)).trans <| rfl

theorem W16_main_arg3 (c : Dev nD) : W16 m c (Proc.devRef .tc main_arg3) = m ((c : Thread nD τ).loc main_arg3) :=
  (W16_keep m c main_arg3 (by decide)).trans <| (W15_keep m c main_arg3 (by decide)).trans <| (W14_keep m c main_arg3 (by decide)).trans <| (W13_keep m c main_arg3 (by decide)).trans <| (W12_keep m c main_arg3 (by decide)).trans <| (W11_keep m c main_arg3 (by decide)).trans <| (W10_keep m c main_arg3 (by decide)).trans <| (W9_keep m c main_arg3 (by decide)).trans <| (W8_keep m c main_arg3 (by decide)).trans <| (W7_keep m c main_arg3 (by decide)).trans <| (W6_keep m c main_arg3 (by decide)).trans <| (W5_keep m c main_arg3 (by decide)).trans <| (W4_keep m c main_arg3 (by decide)).trans <| (W3_keep m c main_arg3 (by decide)).trans <| (W2_keep m c main_arg3 (by decide)).trans <| (W1_keep m c main_arg3 (by decide)).trans <| rfl

theorem W16_main_arg4 (c : Dev nD) : W16 m c (Proc.devRef .tc main_arg4) = m ((c : Thread nD τ).loc main_arg4) :=
  (W16_keep m c main_arg4 (by decide)).trans <| (W15_keep m c main_arg4 (by decide)).trans <| (W14_keep m c main_arg4 (by decide)).trans <| (W13_keep m c main_arg4 (by decide)).trans <| (W12_keep m c main_arg4 (by decide)).trans <| (W11_keep m c main_arg4 (by decide)).trans <| (W10_keep m c main_arg4 (by decide)).trans <| (W9_keep m c main_arg4 (by decide)).trans <| (W8_keep m c main_arg4 (by decide)).trans <| (W7_keep m c main_arg4 (by decide)).trans <| (W6_keep m c main_arg4 (by decide)).trans <| (W5_keep m c main_arg4 (by decide)).trans <| (W4_keep m c main_arg4 (by decide)).trans <| (W3_keep m c main_arg4 (by decide)).trans <| (W2_keep m c main_arg4 (by decide)).trans <| (W1_keep m c main_arg4 (by decide)).trans <| rfl

theorem W16_main_arg5 (c : Dev nD) : W16 m c (Proc.devRef .tc main_arg5) = m ((c : Thread nD τ).loc main_arg5) :=
  (W16_keep m c main_arg5 (by decide)).trans <| (W15_keep m c main_arg5 (by decide)).trans <| (W14_keep m c main_arg5 (by decide)).trans <| (W13_keep m c main_arg5 (by decide)).trans <| (W12_keep m c main_arg5 (by decide)).trans <| (W11_keep m c main_arg5 (by decide)).trans <| (W10_keep m c main_arg5 (by decide)).trans <| (W9_keep m c main_arg5 (by decide)).trans <| (W8_keep m c main_arg5 (by decide)).trans <| (W7_keep m c main_arg5 (by decide)).trans <| (W6_keep m c main_arg5 (by decide)).trans <| (W5_keep m c main_arg5 (by decide)).trans <| (W4_keep m c main_arg5 (by decide)).trans <| (W3_keep m c main_arg5 (by decide)).trans <| (W2_keep m c main_arg5 (by decide)).trans <| (W1_keep m c main_arg5 (by decide)).trans <| rfl

theorem W16_main_arg6 (c : Dev nD) : W16 m c (Proc.devRef .tc main_arg6) = m ((c : Thread nD τ).loc main_arg6) :=
  (W16_keep m c main_arg6 (by decide)).trans <| (W15_keep m c main_arg6 (by decide)).trans <| (W14_keep m c main_arg6 (by decide)).trans <| (W13_keep m c main_arg6 (by decide)).trans <| (W12_keep m c main_arg6 (by decide)).trans <| (W11_keep m c main_arg6 (by decide)).trans <| (W10_keep m c main_arg6 (by decide)).trans <| (W9_keep m c main_arg6 (by decide)).trans <| (W8_keep m c main_arg6 (by decide)).trans <| (W7_keep m c main_arg6 (by decide)).trans <| (W6_keep m c main_arg6 (by decide)).trans <| (W5_keep m c main_arg6 (by decide)).trans <| (W4_keep m c main_arg6 (by decide)).trans <| (W3_keep m c main_arg6 (by decide)).trans <| (W2_keep m c main_arg6 (by decide)).trans <| (W1_keep m c main_arg6 (by decide)).trans <| rfl

theorem W16_main_arg7 (c : Dev nD) : W16 m c (Proc.devRef .tc main_arg7) = m ((c : Thread nD τ).loc main_arg7) :=
  (W16_keep m c main_arg7 (by decide)).trans <| (W15_keep m c main_arg7 (by decide)).trans <| (W14_keep m c main_arg7 (by decide)).trans <| (W13_keep m c main_arg7 (by decide)).trans <| (W12_keep m c main_arg7 (by decide)).trans <| (W11_keep m c main_arg7 (by decide)).trans <| (W10_keep m c main_arg7 (by decide)).trans <| (W9_keep m c main_arg7 (by decide)).trans <| (W8_keep m c main_arg7 (by decide)).trans <| (W7_keep m c main_arg7 (by decide)).trans <| (W6_keep m c main_arg7 (by decide)).trans <| (W5_keep m c main_arg7 (by decide)).trans <| (W4_keep m c main_arg7 (by decide)).trans <| (W3_keep m c main_arg7 (by decide)).trans <| (W2_keep m c main_arg7 (by decide)).trans <| (W1_keep m c main_arg7 (by decide)).trans <| rfl

theorem W16_main_arg8 (c : Dev nD) : W16 m c (Proc.devRef .tc main_arg8) = m ((c : Thread nD τ).loc main_arg8) :=
  (W16_keep m c main_arg8 (by decide)).trans <| (W15_keep m c main_arg8 (by decide)).trans <| (W14_keep m c main_arg8 (by decide)).trans <| (W13_keep m c main_arg8 (by decide)).trans <| (W12_keep m c main_arg8 (by decide)).trans <| (W11_keep m c main_arg8 (by decide)).trans <| (W10_keep m c main_arg8 (by decide)).trans <| (W9_keep m c main_arg8 (by decide)).trans <| (W8_keep m c main_arg8 (by decide)).trans <| (W7_keep m c main_arg8 (by decide)).trans <| (W6_keep m c main_arg8 (by decide)).trans <| (W5_keep m c main_arg8 (by decide)).trans <| (W4_keep m c main_arg8 (by decide)).trans <| (W3_keep m c main_arg8 (by decide)).trans <| (W2_keep m c main_arg8 (by decide)).trans <| (W1_keep m c main_arg8 (by decide)).trans <| rfl

theorem W16_main_arg9 (c : Dev nD) : W16 m c (Proc.devRef .tc main_arg9) = m ((c : Thread nD τ).loc main_arg9) :=
  (W16_keep m c main_arg9 (by decide)).trans <| (W15_keep m c main_arg9 (by decide)).trans <| (W14_keep m c main_arg9 (by decide)).trans <| (W13_keep m c main_arg9 (by decide)).trans <| (W12_keep m c main_arg9 (by decide)).trans <| (W11_keep m c main_arg9 (by decide)).trans <| (W10_keep m c main_arg9 (by decide)).trans <| (W9_keep m c main_arg9 (by decide)).trans <| (W8_keep m c main_arg9 (by decide)).trans <| (W7_keep m c main_arg9 (by decide)).trans <| (W6_keep m c main_arg9 (by decide)).trans <| (W5_keep m c main_arg9 (by decide)).trans <| (W4_keep m c main_arg9 (by decide)).trans <| (W3_keep m c main_arg9 (by decide)).trans <| (W2_keep m c main_arg9 (by decide)).trans <| (W1_keep m c main_arg9 (by decide)).trans <| rfl

theorem W16_main_arg10 (c : Dev nD) : W16 m c (Proc.devRef .tc main_arg10) = m ((c : Thread nD τ).loc main_arg10) :=
  (W16_keep m c main_arg10 (by decide)).trans <| (W15_keep m c main_arg10 (by decide)).trans <| (W14_keep m c main_arg10 (by decide)).trans <| (W13_keep m c main_arg10 (by decide)).trans <| (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)).trans <| rfl

theorem W16_main_arg11 (c : Dev nD) : W16 m c (Proc.devRef .tc main_arg11) = m ((c : Thread nD τ).loc main_arg11) :=
  (W16_keep m c main_arg11 (by decide)).trans <| (W15_keep m c main_arg11 (by decide)).trans <| (W14_keep m c main_arg11 (by decide)).trans <| (W13_keep m c main_arg11 (by decide)).trans <| (W12_keep m c main_arg11 (by decide)).trans <| (W11_keep m c main_arg11 (by decide)).trans <| (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)).trans <| rfl

/-! ## The proof data family and the thread state -/

/-- Every pipeline's proof data, each at its region's entry contents — a literal `match`, so that the pinned
    configuration at a numeral reduces to the printed one. -/
def pdats : (p : Fin 10) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt3 m) c
  | ⟨2, _⟩ => fun c => dat2 (Vt5 m) c
  | ⟨3, _⟩ => fun c => dat3 (Vt6 m) c
  | ⟨4, _⟩ => fun c => dat4 (Vt8 m) c
  | ⟨5, _⟩ => fun c => dat5 (Vt9 m) c
  | ⟨6, _⟩ => fun c => dat6 (Vt10 m) c
  | ⟨7, _⟩ => fun c => dat7 (Vt11 m) c
  | ⟨8, _⟩ => fun c => dat8 (Vt13 m) c
  | ⟨9, _⟩ => fun c => dat9 (Vt14 m) c
/-- No alternative bodies. -/
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every segment: the core's generator register at some state and its debts,
    at nothing. -/
abbrev ride (c : Dev nD) : sProp 𝕄 := iprop((∃ r, prngReg c r) ∗ ∃ W, owes (c : Thread nD τ) (0 : CellTallies nD τ sig Unit) W)
/-- A host stretch as a segment over the unscoped references from the contents `W`, `ride` riding along: its exit
    state is those references at what the operations compute from `W` — the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev lastState (c : Dev nD) : sProp 𝕄 := iprop(StableHlo.held (c : Thread nD τ) (Pipeline.ucRefs τ sig) (W16 m c) ∗ ∃ r, prngReg c r)

/-! ## The regions as segments -/

-- a library lemma stated over the pinned configuration unifies with the printed one only when unification may unfold
-- plain definitions in a metavariable's type
set_option backward.isDefEq.respectTransparency.types false in
/-- Region 0 (custom_call 0) over the thread state: entered from every unscoped buffer at `W1`, left at `W2`. Its arrays
    are split out of the unscoped buffers and put back at the exit contents; the generator register goes into the
    region's invariant and comes back; nothing is owed; the kernel has no semaphore of its own. -/
def reg0 : Pipeline.RegionSeg (pcfgs (F := F)) adm (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ noPairs noLevel 0 fun _ _ => rfl
  pre c := iprop(StableHlo.held (c : Thread nD τ) (Pipeline.ucRefs τ sig) (W1 m c) ∗ ride c)
  post c := iprop(StableHlo.held (c : Thread nD τ) (Pipeline.ucRefs τ sig) (W2 m c) ∗ ride c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 (custom_call 1) over the thread state: entered from every unscoped buffer at `W3`, left at `W4`. Its arrays
    are split out of the unscoped buffers and put back at the exit contents; the generator register goes into the
    region's invariant and comes back; nothing is owed; the kernel has no semaphore of its own. -/
def reg1 : Pipeline.RegionSeg (pcfgs (F := F)) adm (pdats m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (Vt3 m) c).loose
  hwaits := Pipeline.hwaits_of_owed_zero _ _ _ _ noPairs noLevel 1 fun _ _ => rfl
  pre c := iprop(StableHlo.held (c : Thread nD τ) (Pipeline.ucRefs τ sig) (W3 m c) ∗ ride c)
  post c := iprop(StableHlo.held (c : Thread nD τ) (Pipeline.ucRefs τ sig) (W4 m c) ∗ ride c)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt3 m c) (Vt4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 (custom_call 2) over the thread state: entered from every unscoped buffer at `W5`, left at `W6`. Its arrays
    are split out of the unscoped buffers and put back at the exit contents; the generator register goes into the
    region's invariant and comes back; nothing is owed; the kernel has no semaphore of its own. -/
def reg2 : Pipeline.RegionSeg (pcfgs (F := F)) adm (pdats m) () defs₀ noVariants noPairs noLevel 2 where
  win := launch2.win.to₀
  block_pos := launch2.block_pos
  stage_whole := launch2.stage_whole
  K := PEmpty
  osem k := k.elim
  ho := Pipeline.OwnSemFacts.none _
  hbody c := (body_obligation2 (Vt5 m) c).loose
  hwaits := Pipeline.hwaits_of_owed_zero _ _ _ _ noPairs noLevel 2 fun _ _ => rfl
  pre c := iprop(StableHlo.held (c : Thread nD τ) (Pipeline.ucRefs τ sig) (W5 m c) ∗ ride c)
  post c := iprop(StableHlo.held (c : Thread nD τ) (Pipeline.ucRefs τ sig) (W6 m c) ∗ ride c)
  X c := iprop(∃ r, prngReg c r)
  Y c := iprop(∃ r, prngReg c r)
  Z c := Pipeline.unscopedRest (Ix := Unit) (Name := ℕ) (U := UR sig nD τ) (Lvl := ℕ) spec2 c (Vt5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt5 m c) (Vt6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 (custom_call 3) over the thread state: entered from every unscoped buffer at `W6`, left at `W7`. Its arrays
    are split out of the unscoped buffers and put back at the exit contents; the generator register goes into the
    region's invariant and comes back; nothing is owed; the kernel has no semaphore of its own. -/
def reg3 : Pipeline.RegionSeg (pcfgs (F := F)) adm (pdats m) () defs₀ noVariants noPairs noLevel 3 where
  win := launch3.win.to₀
  block_pos := launch3.block_pos
  stage_whole := launch3.stage_whole
  K := PEmpty
  osem k := k.elim
  ho := Pipeline.OwnSemFacts.none _
  hbody c := (body_obligation3 (Vt6 m) c).loose
  hwaits := Pipeline.hwaits_of_owed_zero _ _ _ _ noPairs noLevel 3 fun _ _ => rfl
  pre c := iprop(StableHlo.held (c : Thread nD τ) (Pipeline.ucRefs τ sig) (W6 m c) ∗ ride c)
  post c := iprop(StableHlo.held (c : Thread nD τ) (Pipeline.ucRefs τ sig) (W7 m c) ∗ ride c)
  X c := iprop(∃ r, prngReg c r)
  Y c := iprop(∃ r, prngReg c r)
  Z c := Pipeline.unscopedRest (Ix := Unit) (Name := ℕ) (U := UR sig nD τ) (Lvl := ℕ) spec3 c (Vt6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vt6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3_zero (Vt6 m) c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from hout3 (Vt6 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vt6 m c) (Vt7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 (custom_call 4) over the thread state: entered from every unscoped buffer at `W8`, left at `W9`. Its arrays
    are split out of the unscoped buffers and put back at the exit contents; the generator register goes into the
    region's invariant and comes back; nothing is owed; the kernel has no semaphore of its own. -/
def reg4 : Pipeline.RegionSeg (pcfgs (F := F)) adm (pdats m) () defs₀ noVariants noPairs noLevel 4 where
  win := launch4.win.to₀
  block_pos := launch4.block_pos
  stage_whole := launch4.stage_whole
  K := PEmpty
  osem k := k.elim
  ho := Pipeline.OwnSemFacts.none _
  hbody c := (body_obligation4 (Vt8 m) c).loose
  hwaits := Pipeline.hwaits_of_owed_zero _ _ _ _ noPairs noLevel 4 fun _ _ => rfl
  pre c := iprop(StableHlo.held (c : Thread nD τ) (Pipeline.ucRefs τ sig) (W8 m c) ∗ ride c)
  post c := iprop(StableHlo.held (c : Thread nD τ) (Pipeline.ucRefs τ sig) (W9 m c) ∗ ride c)
  X c := iprop(∃ r, prngReg c r)
  Y c := iprop(∃ r, prngReg c r)
  Z c := Pipeline.unscopedRest (Ix := Unit) (Name := ℕ) (U := UR sig nD τ) (Lvl := ℕ) spec4 c (Vt8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vt8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from Phi4_zero (Vt8 m) c]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from hout4 (Vt8 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vt8 m c) (Vt9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 5 (custom_call 5) over the thread state: entered from every unscoped buffer at `W9`, left at `W10`. Its arrays
    are split out of the unscoped buffers and put back at the exit contents; the generator register goes into the
    region's invariant and comes back; nothing is owed; the kernel has no semaphore of its own. -/
def reg5 : Pipeline.RegionSeg (pcfgs (F := F)) adm (pdats m) () defs₀ noVariants noPairs noLevel 5 where
  win := launch5.win.to₀
  block_pos := launch5.block_pos
  stage_whole := launch5.stage_whole
  K := PEmpty
  osem k := k.elim
  ho := Pipeline.OwnSemFacts.none _
  hbody c := (body_obligation5 (Vt9 m) c).loose
  hwaits := Pipeline.hwaits_of_owed_zero _ _ _ _ noPairs noLevel 5 fun _ _ => rfl
  pre c := iprop(StableHlo.held (c : Thread nD τ) (Pipeline.ucRefs τ sig) (W9 m c) ∗ ride c)
  post c := iprop(StableHlo.held (c : Thread nD τ) (Pipeline.ucRefs τ sig) (W10 m c) ∗ ride c)
  X c := iprop(∃ r, prngReg c r)
  Y c := iprop(∃ r, prngReg c r)
  Z c := Pipeline.unscopedRest (Ix := Unit) (Name := ℕ) (U := UR sig nD τ) (Lvl := ℕ) spec5 c (Vt9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vt9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from Phi5_zero (Vt9 m) c]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from hout5 (Vt9 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vt9 m c) (Vt10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 6 (custom_call 6) over the thread state: entered from every unscoped buffer at `W10`, left at `W11`. Its arrays
    are split out of the unscoped buffers and put back at the exit contents; the generator register goes into the
    region's invariant and comes back; nothing is owed; the kernel has no semaphore of its own. -/
def reg6 : Pipeline.RegionSeg (pcfgs (F := F)) adm (pdats m) () defs₀ noVariants noPairs noLevel 6 where
  win := launch6.win.to₀
  block_pos := launch6.block_pos
  stage_whole := launch6.stage_whole
  K := PEmpty
  osem k := k.elim
  ho := Pipeline.OwnSemFacts.none _
  hbody c := (body_obligation6 (Vt10 m) c).loose
  hwaits := Pipeline.hwaits_of_owed_zero _ _ _ _ noPairs noLevel 6 fun _ _ => rfl
  pre c := iprop(StableHlo.held (c : Thread nD τ) (Pipeline.ucRefs τ sig) (W10 m c) ∗ ride c)
  post c := iprop(StableHlo.held (c : Thread nD τ) (Pipeline.ucRefs τ sig) (W11 m c) ∗ ride c)
  X c := iprop(∃ r, prngReg c r)
  Y c := iprop(∃ r, prngReg c r)
  Z c := Pipeline.unscopedRest (Ix := Unit) (Name := ℕ) (U := UR sig nD τ) (Lvl := ℕ) spec6 c (Vt10 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vt10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from Phi6_zero (Vt10 m) c]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from hout6 (Vt10 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vt10 m c) (Vt11 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 7 (custom_call 7) over the thread state: entered from every unscoped buffer at `W11`, left at `W12`. Its arrays
    are split out of the unscoped buffers and put back at the exit contents; the generator register goes into the
    region's invariant and comes back; nothing is owed; the kernel has no semaphore of its own. -/
def reg7 : Pipeline.RegionSeg (pcfgs (F := F)) adm (pdats m) () defs₀ noVariants noPairs noLevel 7 where
  win := launch7.win.to₀
  block_pos := launch7.block_pos
  stage_whole := launch7.stage_whole
  K := PEmpty
  osem k := k.elim
  ho := Pipeline.OwnSemFacts.none _
  hbody c := (body_obligation7 (Vt11 m) c).loose
  hwaits := Pipeline.hwaits_of_owed_zero _ _ _ _ noPairs noLevel 7 fun _ _ => rfl
  pre c := iprop(StableHlo.held (c : Thread nD τ) (Pipeline.ucRefs τ sig) (W11 m c) ∗ ride c)
  post c := iprop(StableHlo.held (c : Thread nD τ) (Pipeline.ucRefs τ sig) (W12 m c) ∗ ride c)
  X c := iprop(∃ r, prngReg c r)
  Y c := iprop(∃ r, prngReg c r)
  Z c := Pipeline.unscopedRest (Ix := Unit) (Name := ℕ) (U := UR sig nD τ) (Lvl := ℕ) spec7 c (Vt11 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vt11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from Phi7_zero (Vt11 m) c]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from hout7 (Vt11 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vt11 m c) (Vt12 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 8 (custom_call 8) over the thread state: entered from every unscoped buffer at `W13`, left at `W14`. Its arrays
    are split out of the unscoped buffers and put back at the exit contents; the generator register goes into the
    region's invariant and comes back; nothing is owed; the kernel has no semaphore of its own. -/
def reg8 : Pipeline.RegionSeg (pcfgs (F := F)) adm (pdats m) () defs₀ noVariants noPairs noLevel 8 where
  win := launch8.win.to₀
  block_pos := launch8.block_pos
  stage_whole := launch8.stage_whole
  K := PEmpty
  osem k := k.elim
  ho := Pipeline.OwnSemFacts.none _
  hbody c := (body_obligation8 (Vt13 m) c).loose
  hwaits := Pipeline.hwaits_of_owed_zero _ _ _ _ noPairs noLevel 8 fun _ _ => rfl
  pre c := iprop(StableHlo.held (c : Thread nD τ) (Pipeline.ucRefs τ sig) (W13 m c) ∗ ride c)
  post c := iprop(StableHlo.held (c : Thread nD τ) (Pipeline.ucRefs τ sig) (W14 m c) ∗ ride c)
  X c := iprop(∃ r, prngReg c r)
  Y c := iprop(∃ r, prngReg c r)
  Z c := Pipeline.unscopedRest (Ix := Unit) (Name := ℕ) (U := UR sig nD τ) (Lvl := ℕ) spec8 c (Vt13 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vt13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from Phi8_zero (Vt13 m) c]; unfold Pipeline.ΦA
    iintro ⟨Hp, -, Hr⟩
    isplitl [Hr]; · iexact Hr
    iexact Hp
  hout c := by
    rw [Pipeline.ownSems0_none]
    refine (show (pdats m 8 c).Φ (Fin.last _) ⊢ Pipeline.ΦA spec8 c from hout8 (Vt13 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vt13 m c) (Vt14 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 9 (custom_call 9) over the thread state: entered from every unscoped buffer at `W14`, left at `W15`. Its arrays
    are split out of the unscoped buffers and put back at the exit contents; the generator register goes into the
    region's invariant and comes back; nothing is owed; the kernel has no semaphore of its own. -/
def reg9 : Pipeline.RegionSeg (pcfgs (F := F)) adm (pdats m) () defs₀ noVariants noPairs noLevel 9 where
  win := launch9.win.to₀
  block_pos := launch9.block_pos
  stage_whole := launch9.stage_whole
  K := PEmpty
  osem k := k.elim
  ho := Pipeline.OwnSemFacts.none _
  hbody c := (body_obligation9 (Vt14 m) c).loose
  hwaits := Pipeline.hwaits_of_owed_zero _ _ _ _ noPairs noLevel 9 fun _ _ => rfl
  pre c := iprop(StableHlo.held (c : Thread nD τ) (Pipeline.ucRefs τ sig) (W14 m c) ∗ ride c)
  post c := iprop(StableHlo.held (c : Thread nD τ) (Pipeline.ucRefs τ sig) (W15 m c) ∗ ride c)
  X c := iprop(∃ r, prngReg c r)
  Y c := iprop(∃ r, prngReg c r)
  Z c := Pipeline.unscopedRest (Ix := Unit) (Name := ℕ) (U := UR sig nD τ) (Lvl := ℕ) spec9 c (Vt14 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vt14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from Phi9_zero (Vt14 m) c]; unfold Pipeline.ΦA
    iintro ⟨Hp, -, Hr⟩
    isplitl [Hr]; · iexact Hr
    iexact Hp
  hout c := by
    rw [Pipeline.ownSems0_none]
    refine (show (pdats m 9 c).Φ (Fin.last _) ⊢ Pipeline.ΦA spec9 c from hout9 (Vt14 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vt14 m c) (Vt15 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 16 segments in order: a host segment per stretch from its boundary's contents, a region per pallas_call. -/
abbrev runSegs : List (Pipeline.Seg (pcfgs (F := F)) adm (pdats m) () defs₀ noVariants noPairs noLevel) :=
  [
    .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m),
    .host (hseg hostOps4 hostOps4_sub hostOps4_fresh (W7 m)),
    .region (reg4 m),
    .region (reg5 m),
    .region (reg6 m),
    .region (reg7 m),
    .host (hseg hostOps8 hostOps8_sub hostOps8_fresh (W12 m)),
    .region (reg8 m),
    .region (reg9 m),
    .host (hseg hostOps10 hostOps10_sub hostOps10_fresh (W15 m)) ]
/-- @main IS the run of the segments: the chain of its items, then the segments' run against that chain by
    definitional unfolding. -/
theorem main_run (c : Dev nD) : main (F := F) c = Pipeline.Seg.run (runSegs m) := (main_chain c).trans (by chain_rfl)

-- the launch theorem's implicit arguments are found by unifying its conclusion with this statement, which takes
-- unfolding plain definitions in a metavariable's type
set_option backward.isDefEq.respectTransparency.types false in
/-- THE RUN: at the compiled mesh, from any memory with zero counters, every weakly fair execution of @main on the
    TensorCores terminates, nothing faulting, and every final state has every unscoped buffer of every core at the
    last boundary's contents `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m c b) :=
  Pipeline.θ_run_regions_kit (pcfgs (F := F)) adm (pdats m) () cellOf_inj emb₁ defs₀ noVariants noPairs noLevel m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ ride c)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W16 m c) ∗ ride c)
          ⊢ iprop(lastState m c ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

/-- THE FRAME: every execution terminates without fault and every argument array ends as launched — read off the run:
    an argument is an unscoped buffer, and the last boundary's contents at it are the launch's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (W16_main_arg0 m c),
    (h c _ (mem_uc main_arg1 (by decide))).trans (W16_main_arg1 m c),
    (h c _ (mem_uc main_arg2 (by decide))).trans (W16_main_arg2 m c),
    (h c _ (mem_uc main_arg3 (by decide))).trans (W16_main_arg3 m c),
    (h c _ (mem_uc main_arg4 (by decide))).trans (W16_main_arg4 m c),
    (h c _ (mem_uc main_arg5 (by decide))).trans (W16_main_arg5 m c),
    (h c _ (mem_uc main_arg6 (by decide))).trans (W16_main_arg6 m c),
    (h c _ (mem_uc main_arg7 (by decide))).trans (W16_main_arg7 m c),
    (h c _ (mem_uc main_arg8 (by decide))).trans (W16_main_arg8 m c),
    (h c _ (mem_uc main_arg9 (by decide))).trans (W16_main_arg9 m c),
    (h c _ (mem_uc main_arg10 (by decide))).trans (W16_main_arg10 m c),
    (h c _ (mem_uc main_arg11 (by decide))).trans (W16_main_arg11 m c)⟩) (run_all m ρ)

end Cert.KernelIdeal.Gen

end
-- ==== Proof.Spec.lean ====
/-
  The specification of the three updated feature arrays, as functions on the extended reals.

  One collection step takes source rows `src`, a weight matrix `W`, a bias `b` and an attention matrix `attn`:
    fc s d      = max (∑ k, src s k · W d k + b d) 0                       (a linear layer followed by relu)
    collect t d = (∑ s, attn t s · fc s d) / ((∑ s, attn t s) + eps)       (attention-weighted mean of the fc rows)
  with `eps` the single-precision word nearest 1e-7, kept as its word and never evaluated, and the quotient the
  ideal instance's division. The attribute rows receive one collection (from the objects, through the transposed
  object-attribute map), the object rows the mean of four (attributes, objects, relations in the subject role,
  relations in the object role), the relation rows the mean of two (objects, through the transposed subject-role
  and object-role maps). Every array is a function on a literal index type; indices are built from coordinates.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The guard added to every attention row sum: the single-precision word nearest 1e-7. -/
def eps : EReal := Ideal.ofBits .f32 0x33D6BF95#32
/-- The divisor of the object update's mean of four collections: the word of 4.0. -/
def four : EReal := Ideal.ofBits .f32 0x40800000#32
/-- The divisor of the relation update's mean of two collections: the word of 2.0. -/
def two : EReal := Ideal.ofBits .f32 0x40000000#32

/-- Row `s`, column `d` of relu (src · Wᵀ + b). -/
def fcAt {N : Nat} (src : (⟨2, ![N, 512]⟩ : Shape).Idx → EReal) (W : (⟨2, ![512, 512]⟩ : Shape).Idx → EReal)
    (b : (⟨1, ![512]⟩ : Shape).Idx → EReal) (s : Fin N) (d : Fin 512) : EReal :=
  max ((∑ k : Fin 512, src (ix2 s k) * W (ix2 d k)) + b (ix1 d)) 0

/-- Row `t`, column `d` of (attn · fc) with every row divided by its attention row sum plus `eps`. -/
def collectAt {Nt Ns : Nat} (attn : Fin Nt → Fin Ns → EReal) (fc : Fin Ns → Fin 512 → EReal) (t : Fin Nt) (d : Fin 512) : EReal :=
  Ideal.div (∑ s : Fin Ns, attn t s * fc s d) ((∑ s : Fin Ns, attn t s) + eps)

section Results

variable (featObj featAtt : (⟨2, ![2048, 512]⟩ : Shape).Idx → EReal) (featRel : (⟨2, ![8192, 512]⟩ : Shape).Idx → EReal)
  (mapObjAtt mapObjObj : (⟨2, ![2048, 2048]⟩ : Shape).Idx → EReal) (mapObjRel : (⟨3, ![2048, 8192, 2]⟩ : Shape).Idx → EReal)
  (W0 : (⟨2, ![512, 512]⟩ : Shape).Idx → EReal) (b0 : (⟨1, ![512]⟩ : Shape).Idx → EReal)
  (W1 : (⟨2, ![512, 512]⟩ : Shape).Idx → EReal) (b1 : (⟨1, ![512]⟩ : Shape).Idx → EReal)
  (W2 : (⟨2, ![512, 512]⟩ : Shape).Idx → EReal) (b2 : (⟨1, ![512]⟩ : Shape).Idx → EReal)

/-- The updated attribute features: the attribute row plus the collection of the objects' fc rows (unit 0) through the
    transposed object-attribute map. -/
def attAt (a : Fin 2048) (d : Fin 512) : EReal :=
  featAtt (ix2 a d) + collectAt (fun t s => mapObjAtt (ix2 s t)) (fcAt featObj W0 b0) a d

/-- The updated object features: the object row plus a quarter of the sum of four collections — from the attributes
    (unit 1, object-attribute map), from the objects (unit 0, object-object map), and from the relations (unit 2) in the
    subject role and in the object role (the two slices of the object-relation map along its last axis). -/
def objAt (o : Fin 2048) (d : Fin 512) : EReal :=
  featObj (ix2 o d) + Ideal.div
    (collectAt (fun t s => mapObjAtt (ix2 t s)) (fcAt featAtt W1 b1) o d
      + collectAt (fun t s => mapObjObj (ix2 t s)) (fcAt featObj W0 b0) o d
      + collectAt (fun t s => mapObjRel (ix3 t s 0)) (fcAt featRel W2 b2) o d
      + collectAt (fun t s => mapObjRel (ix3 t s 1)) (fcAt featRel W2 b2) o d) four

/-- The updated relation features: the relation row plus half of the sum of two collections of the objects' fc rows
    (unit 0), through the transposed subject-role and object-role slices of the object-relation map. -/
def relAt (r : Fin 8192) (d : Fin 512) : EReal :=
  featRel (ix2 r d) + Ideal.div
    (collectAt (fun t s => mapObjRel (ix3 s t 0)) (fcAt featObj W0 b0) r d
      + collectAt (fun t s => mapObjRel (ix3 s t 1)) (fcAt featObj W0 b0) r d) two

end Results

end Cert.Spec

end
-- ==== Proof.KI.Pay.lean ====
/-
  The kernels' pure payloads read at one element, on the extended reals.

  Three kinds of kernel body. The linear layer's stored block is, at row r and column d,
  max (∑ k, x r k · w d k + b d) 0. A collection step keeps two accumulators between grid points: the block of
  weighted sums acc and the attention row sums rs; at every point acc gains the product of the attention block with the
  current 512 fc rows and rs gains the attention block's row sums, and at the last point the output block is
  acc / (rs + eps). In the direct orientation the attention block is read as (target, source); in the transposed one as
  (source, target), so that its contraction and its row sums run along the first axis and the row sums are kept as a row.
  Each reading below pushes the index through the elementwise operations and uses one small fact per layout operation,
  contraction or reduction; a contraction into the zero block is the bare sum, and the zero word denotes 0.
-/
import proofs.«145590_j23742579212572_2_alg».proof.Proof.Gen.KernelIdeal.Skeleton
import proofs.«145590_j23742579212572_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.SL.Sem Idealize.ShloMosaic.ValueIdx

variable {α : Type}

/-! ## Three layout operations at an index -/

/-- A vector `[a]` recast as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three contractions and the two reductions at an index -/

/-- Rows against rows: both operands contract their second axis. -/
theorem matmul_rows_rows_at (x y : FVec Ideal S512x512 .f32) (r d : Fin 512) :
    matmul dot_S512x512_S512x512_S512x512_1_1_0_0_n_n (some .fp32) x y (constant (F := Ideal) S512x512 .f32 0x00000000#32) (ix2 r d)
      = ∑ k : Fin 512, x (ix2 r k) * y (ix2 d k) := by
  simp only [matmul]
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have hl : ∀ q : dot_S512x512_S512x512_S512x512_1_1_0_0_n_n.contr.Idx, (dot_S512x512_S512x512_S512x512_1_1_0_0_n_n.lhsIdx (ix2 r d) q 0).val = r.val := fun q => by
    unfold DotDims.lhsIdx
    rw [dif_neg (show ¬(0 : Fin S512x512.rank) ∈ dot_S512x512_S512x512_S512x512_1_1_0_0_n_n.lhsBatch by decide),
      dif_pos (show (0 : Fin S512x512.rank) ∈ dot_S512x512_S512x512_S512x512_1_1_0_0_n_n.lhsNonContracting by decide)]
    rfl
  have hr : ∀ q : dot_S512x512_S512x512_S512x512_1_1_0_0_n_n.contr.Idx, (dot_S512x512_S512x512_S512x512_1_1_0_0_n_n.rhsIdx (ix2 r d) q 0).val = d.val := fun q => by
    unfold DotDims.rhsIdx
    rw [dif_neg (show ¬(0 : Fin S512x512.rank) ∈ dot_S512x512_S512x512_S512x512_1_1_0_0_n_n.rhsBatch by decide),
      dif_pos (show (0 : Fin S512x512.rank) ∈ dot_S512x512_S512x512_S512x512_1_1_0_0_n_n.rhsNonContracting by decide)]
    rfl
  have el : dot_S512x512_S512x512_S512x512_1_1_0_0_n_n.lhsIdx (ix2 r d) ((contrEquiv1 dot_S512x512_S512x512_S512x512_1_1_0_0_n_n 512 rfl rfl).symm k) = ix2 r k :=
    funext fun a => Fin.ext (by
      match a with
      | ⟨0, _⟩ => exact hl _
      | ⟨1, _⟩ => exact (dot_S512x512_S512x512_S512x512_1_1_0_0_n_n.lhsIdx_val_of_single rfl _ _).trans hk)
  have er : dot_S512x512_S512x512_S512x512_1_1_0_0_n_n.rhsIdx (ix2 r d) ((contrEquiv1 dot_S512x512_S512x512_S512x512_1_1_0_0_n_n 512 rfl rfl).symm k) = ix2 d k :=
    funext fun a => Fin.ext (by
      match a with
      | ⟨0, _⟩ => exact hr _
      | ⟨1, _⟩ => exact (dot_S512x512_S512x512_S512x512_1_1_0_0_n_n.rhsIdx_val_of_single rfl _ _).trans hk)
  rw [el, er]

/-- Rows against columns: the plain matrix product. -/
theorem matmul_rows_cols_at (x y : FVec Ideal S512x512 .f32) (r d : Fin 512) :
    matmul dot_S512x512_S512x512_S512x512_1_0_0_1_n_n (some .fp32) x y (constant (F := Ideal) S512x512 .f32 0x00000000#32) (ix2 r d)
      = ∑ k : Fin 512, x (ix2 r k) * y (ix2 k d) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have hl : ∀ q : dot_S512x512_S512x512_S512x512_1_0_0_1_n_n.contr.Idx, (dot_S512x512_S512x512_S512x512_1_0_0_1_n_n.lhsIdx (ix2 r d) q 0).val = r.val := fun q => by
    unfold DotDims.lhsIdx
    rw [dif_neg (show ¬(0 : Fin S512x512.rank) ∈ dot_S512x512_S512x512_S512x512_1_0_0_1_n_n.lhsBatch by decide),
      dif_pos (show (0 : Fin S512x512.rank) ∈ dot_S512x512_S512x512_S512x512_1_0_0_1_n_n.lhsNonContracting by decide)]
    rfl
  have hr : ∀ q : dot_S512x512_S512x512_S512x512_1_0_0_1_n_n.contr.Idx, (dot_S512x512_S512x512_S512x512_1_0_0_1_n_n.rhsIdx (ix2 r d) q 1).val = d.val := fun q => by
    unfold DotDims.rhsIdx
    rw [dif_neg (show ¬(1 : Fin S512x512.rank) ∈ dot_S512x512_S512x512_S512x512_1_0_0_1_n_n.rhsBatch by decide),
      dif_pos (show (1 : Fin S512x512.rank) ∈ dot_S512x512_S512x512_S512x512_1_0_0_1_n_n.rhsNonContracting by decide)]
    rfl
  have el : dot_S512x512_S512x512_S512x512_1_0_0_1_n_n.lhsIdx (ix2 r d) ((contrEquiv1 dot_S512x512_S512x512_S512x512_1_0_0_1_n_n 512 rfl rfl).symm k) = ix2 r k :=
    funext fun a => Fin.ext (by
      match a with
      | ⟨0, _⟩ => exact hl _
      | ⟨1, _⟩ => exact (dot_S512x512_S512x512_S512x512_1_0_0_1_n_n.lhsIdx_val_of_single rfl _ _).trans hk)
  have er : dot_S512x512_S512x512_S512x512_1_0_0_1_n_n.rhsIdx (ix2 r d) ((contrEquiv1 dot_S512x512_S512x512_S512x512_1_0_0_1_n_n 512 rfl rfl).symm k) = ix2 k d :=
    funext fun a => Fin.ext (by
      match a with
      | ⟨1, _⟩ => exact hr _
      | ⟨0, _⟩ => exact (dot_S512x512_S512x512_S512x512_1_0_0_1_n_n.rhsIdx_val_of_single rfl _ _).trans hk)
  rw [el, er]

/-- Columns against columns: both operands contract their first axis. -/
theorem matmul_cols_cols_at (x y : FVec Ideal S512x512 .f32) (r d : Fin 512) :
    matmul dot_S512x512_S512x512_S512x512_0_0_1_1_n_n (some .fp32) x y (constant (F := Ideal) S512x512 .f32 0x00000000#32) (ix2 r d)
      = ∑ k : Fin 512, x (ix2 k r) * y (ix2 k d) := by
  simp only [matmul]
  rw [Ideal.matmul_constant_zero_apply, ← Equiv.sum_comp (contrEquiv1 dot_S512x512_S512x512_S512x512_0_0_1_1_n_n 512 rfl rfl).symm]
  refine Finset.sum_congr rfl fun k _ => ?_
  have hk := contrEquiv1_symm_val dot_S512x512_S512x512_S512x512_0_0_1_1_n_n 512 rfl rfl k
  have hl : ∀ q : dot_S512x512_S512x512_S512x512_0_0_1_1_n_n.contr.Idx, (dot_S512x512_S512x512_S512x512_0_0_1_1_n_n.lhsIdx (ix2 r d) q 1).val = r.val := fun q => by
    unfold DotDims.lhsIdx
    rw [dif_neg (show ¬(1 : Fin S512x512.rank) ∈ dot_S512x512_S512x512_S512x512_0_0_1_1_n_n.lhsBatch by decide),
      dif_pos (show (1 : Fin S512x512.rank) ∈ dot_S512x512_S512x512_S512x512_0_0_1_1_n_n.lhsNonContracting by decide)]
    rfl
  have hr : ∀ q : dot_S512x512_S512x512_S512x512_0_0_1_1_n_n.contr.Idx, (dot_S512x512_S512x512_S512x512_0_0_1_1_n_n.rhsIdx (ix2 r d) q 1).val = d.val := fun q => by
    unfold DotDims.rhsIdx
    rw [dif_neg (show ¬(1 : Fin S512x512.rank) ∈ dot_S512x512_S512x512_S512x512_0_0_1_1_n_n.rhsBatch by decide),
      dif_pos (show (1 : Fin S512x512.rank) ∈ dot_S512x512_S512x512_S512x512_0_0_1_1_n_n.rhsNonContracting by decide)]
    rfl
  have el : dot_S512x512_S512x512_S512x512_0_0_1_1_n_n.lhsIdx (ix2 r d) ((contrEquiv1 dot_S512x512_S512x512_S512x512_0_0_1_1_n_n 512 rfl rfl).symm k) = ix2 k r :=
    funext fun a => Fin.ext (by
      match a with
      | ⟨1, _⟩ => exact hl _
      | ⟨0, _⟩ => exact (dot_S512x512_S512x512_S512x512_0_0_1_1_n_n.lhsIdx_val_of_single rfl _ _).trans hk)
  have er : dot_S512x512_S512x512_S512x512_0_0_1_1_n_n.rhsIdx (ix2 r d) ((contrEquiv1 dot_S512x512_S512x512_S512x512_0_0_1_1_n_n 512 rfl rfl).symm k) = ix2 k d :=
    funext fun a => Fin.ext (by
      match a with
      | ⟨1, _⟩ => exact hr _
      | ⟨0, _⟩ => exact (dot_S512x512_S512x512_S512x512_0_0_1_1_n_n.rhsIdx_val_of_single rfl _ _).trans hk)
  rw [el, er]

/-- The sum along the second axis, at row `r`. -/
theorem sum_axis1_at (a : FVec Ideal S512x512 .f32) (hφ : FKind.Formats .f32)
    (hacc : (0x00000000#32 : BitVec 32) = FKind.add.neutral .f32 hφ) (r : Fin 512) :
    multiReduction .add [1] S512 a 0x00000000#32 reduces_S512x512_S512_2 hφ hacc (ix1 r) = ∑ j : Fin 512, a (ix2 r j) := by
  refine (Ideal.multiReduction_add_single a 0x00000000#32 reduces_S512x512_S512_2 hφ hacc (ix1 r)).trans ?_
  refine Finset.sum_congr rfl fun j _ => congrArg a ?_
  funext b; refine Fin.ext ?_
  match b with
  | ⟨0, _⟩ => rfl
  | ⟨1, _⟩ => rfl

/-- The sum along the first axis, at column `r`. -/
theorem sum_axis0_at (a : FVec Ideal S512x512 .f32) (hφ : FKind.Formats .f32)
    (hacc : (0x00000000#32 : BitVec 32) = FKind.add.neutral .f32 hφ) (r : Fin 512) :
    multiReduction .add [0] S512 a 0x00000000#32 reduces_S512x512_S512 hφ hacc (ix1 r) = ∑ j : Fin 512, a (ix2 j r) := by
  refine (Ideal.multiReduction_add_single a 0x00000000#32 reduces_S512x512_S512 hφ hacc (ix1 r)).trans ?_
  refine Finset.sum_congr rfl fun j _ => congrArg a ?_
  funext b; refine Fin.ext ?_
  match b with
  | ⟨0, _⟩ => rfl
  | ⟨1, _⟩ => rfl

/-! ## The three linear layers -/

/-- The linear layer's stored block at row `r`, column `d`. -/
theorem k0_pay1_at (x w : Vec Ideal S512x512 .f32) (b : Vec Ideal S1x512 .f32) (r d : Fin 512) :
    k0_pay1 (F := Ideal) x w b (ix2 r d) = max ((∑ k : Fin 512, x (ix2 r k) * w (ix2 d k)) + b (ix2 0 d)) 0 := by
  unfold k0_pay1
  rw [shapeCast_self]
  refine (maximumf_apply _ _ _).trans (congrArg₂ max ?_ Ideal.ofBits_zero_f32)
  exact (addf_apply _ _ _).trans (congrArg₂ (· + ·) (matmul_rows_rows_at x w r d) (broadcastTo_1b_ab_apply b _ r d))

/-- The linear layer's stored block at row `r`, column `d`. -/
theorem k1_pay1_at (x w : Vec Ideal S512x512 .f32) (b : Vec Ideal S1x512 .f32) (r d : Fin 512) :
    k1_pay1 (F := Ideal) x w b (ix2 r d) = max ((∑ k : Fin 512, x (ix2 r k) * w (ix2 d k)) + b (ix2 0 d)) 0 := by
  unfold k1_pay1
  rw [shapeCast_self]
  refine (maximumf_apply _ _ _).trans (congrArg₂ max ?_ Ideal.ofBits_zero_f32)
  exact (addf_apply _ _ _).trans (congrArg₂ (· + ·) (matmul_rows_rows_at x w r d) (broadcastTo_1b_ab_apply b _ r d))

/-- The linear layer's stored block at row `r`, column `d`. -/
theorem k2_pay1_at (x w : Vec Ideal S512x512 .f32) (b : Vec Ideal S1x512 .f32) (r d : Fin 512) :
    k2_pay1 (F := Ideal) x w b (ix2 r d) = max ((∑ k : Fin 512, x (ix2 r k) * w (ix2 d k)) + b (ix2 0 d)) 0 := by
  unfold k2_pay1
  rw [shapeCast_self]
  refine (maximumf_apply _ _ _).trans (congrArg₂ max ?_ Ideal.ofBits_zero_f32)
  exact (addf_apply _ _ _).trans (congrArg₂ (· + ·) (matmul_rows_rows_at x w r d) (broadcastTo_1b_ab_apply b _ r d))

/-! ## The collection steps in the direct orientation -/

/-- The accumulator block starts at zero. -/
theorem k4_pay1_at (r d : Fin 512) : k4_pay1 (F := Ideal) (ix2 r d) = 0 := by
  unfold k4_pay1
  rw [shapeCast_self]
  exact Ideal.ofBits_zero_f32

/-- The column of row sums starts at zero. -/
theorem k4_pay2_at (r : Fin 512) : k4_pay2 (F := Ideal) (ix2 r 0) = 0 := by
  unfold k4_pay2
  rw [shapeCast_self]
  exact Ideal.ofBits_zero_f32

/-- One step of the accumulator: it gains the attention block times the current fc rows. -/
theorem k4_pay3_at (a f acc : Vec Ideal S512x512 .f32) (r d : Fin 512) :
    k4_pay3 (F := Ideal) a f acc (ix2 r d) = acc (ix2 r d) + ∑ j : Fin 512, a (ix2 r j) * f (ix2 j d) := by
  unfold k4_pay3
  rw [shapeCast_self, shapeCast_self]
  exact (addf_apply _ _ _).trans (congrArg (acc (ix2 r d) + ·) (matmul_rows_cols_at a f r d))

/-- One step of the row sums: the column gains the attention block's row sums. -/
theorem k4_pay4_at (a : Vec Ideal S512x512 .f32) (rs : Vec Ideal S512x1 .f32) (r : Fin 512) :
    k4_pay4 (F := Ideal) a rs (ix2 r 0) = rs (ix2 r 0) + ∑ j : Fin 512, a (ix2 r j) := by
  unfold k4_pay4
  rw [shapeCast_self]
  refine (addf_apply _ _ _).trans (congrArg (rs (ix2 r 0) + ·) ?_)
  exact (shapeCast_a_a1_apply _ _ r 0).trans (sum_axis1_at a _ _ r)

/-- The output block: the accumulator divided by the guarded row sums. -/
theorem k4_pay5_at (acc : Vec Ideal S512x512 .f32) (rs : Vec Ideal S512x1 .f32) (r d : Fin 512) :
    k4_pay5 (F := Ideal) acc rs (ix2 r d) = Ideal.div (acc (ix2 r d)) (rs (ix2 r 0) + Cert.Spec.eps) := by
  unfold k4_pay5
  refine (divf_apply _ _ _).trans (congrArg (Ideal.div (acc (ix2 r d))) ?_)
  exact (broadcastTo_a1_ab_apply _ _ r d).trans rfl

/-- The accumulator block starts at zero. -/
theorem k5_pay1_at (r d : Fin 512) : k5_pay1 (F := Ideal) (ix2 r d) = 0 := by
  unfold k5_pay1
  rw [shapeCast_self]
  exact Ideal.ofBits_zero_f32

/-- The column of row sums starts at zero. -/
theorem k5_pay2_at (r : Fin 512) : k5_pay2 (F := Ideal) (ix2 r 0) = 0 := by
  unfold k5_pay2
  rw [shapeCast_self]
  exact Ideal.ofBits_zero_f32

/-- One step of the accumulator: it gains the attention block times the current fc rows. -/
theorem k5_pay3_at (a f acc : Vec Ideal S512x512 .f32) (r d : Fin 512) :
    k5_pay3 (F := Ideal) a f acc (ix2 r d) = acc (ix2 r d) + ∑ j : Fin 512, a (ix2 r j) * f (ix2 j d) := by
  unfold k5_pay3
  rw [shapeCast_self, shapeCast_self]
  exact (addf_apply _ _ _).trans (congrArg (acc (ix2 r d) + ·) (matmul_rows_cols_at a f r d))

/-- One step of the row sums: the column gains the attention block's row sums. -/
theorem k5_pay4_at (a : Vec Ideal S512x512 .f32) (rs : Vec Ideal S512x1 .f32) (r : Fin 512) :
    k5_pay4 (F := Ideal) a rs (ix2 r 0) = rs (ix2 r 0) + ∑ j : Fin 512, a (ix2 r j) := by
  unfold k5_pay4
  rw [shapeCast_self]
  refine (addf_apply _ _ _).trans (congrArg (rs (ix2 r 0) + ·) ?_)
  exact (shapeCast_a_a1_apply _ _ r 0).trans (sum_axis1_at a _ _ r)

/-- The output block: the accumulator divided by the guarded row sums. -/
theorem k5_pay5_at (acc : Vec Ideal S512x512 .f32) (rs : Vec Ideal S512x1 .f32) (r d : Fin 512) :
    k5_pay5 (F := Ideal) acc rs (ix2 r d) = Ideal.div (acc (ix2 r d)) (rs (ix2 r 0) + Cert.Spec.eps) := by
  unfold k5_pay5
  refine (divf_apply _ _ _).trans (congrArg (Ideal.div (acc (ix2 r d))) ?_)
  exact (broadcastTo_a1_ab_apply _ _ r d).trans rfl

/-- The accumulator block starts at zero. -/
theorem k6_pay1_at (r d : Fin 512) : k6_pay1 (F := Ideal) (ix2 r d) = 0 := by
  unfold k6_pay1
  rw [shapeCast_self]
  exact Ideal.ofBits_zero_f32

/-- The column of row sums starts at zero. -/
theorem k6_pay2_at (r : Fin 512) : k6_pay2 (F := Ideal) (ix2 r 0) = 0 := by
  unfold k6_pay2
  rw [shapeCast_self]
  exact Ideal.ofBits_zero_f32

/-- One step of the accumulator: it gains the attention block times the current fc rows. -/
theorem k6_pay4_at (a f acc : Vec Ideal S512x512 .f32) (r d : Fin 512) :
    k6_pay4 (F := Ideal) a f acc (ix2 r d) = acc (ix2 r d) + ∑ j : Fin 512, a (ix2 r j) * f (ix2 j d) := by
  unfold k6_pay4 k6_pay3
  rw [shapeCast_self, shapeCast_self, shapeCast_self]
  exact (addf_apply _ _ _).trans (congrArg (acc (ix2 r d) + ·) (matmul_rows_cols_at a f r d))

/-- One step of the row sums: the column gains the attention block's row sums. -/
theorem k6_pay5_at (a : Vec Ideal S512x512 .f32) (rs : Vec Ideal S512x1 .f32) (r : Fin 512) :
    k6_pay5 (F := Ideal) a rs (ix2 r 0) = rs (ix2 r 0) + ∑ j : Fin 512, a (ix2 r j) := by
  unfold k6_pay5 k6_pay3
  rw [shapeCast_self, shapeCast_self]
  refine (addf_apply _ _ _).trans (congrArg (rs (ix2 r 0) + ·) ?_)
  exact (shapeCast_a_a1_apply _ _ r 0).trans (sum_axis1_at a _ _ r)

/-- The output block: the accumulator divided by the guarded row sums. -/
theorem k6_pay6_at (acc : Vec Ideal S512x512 .f32) (rs : Vec Ideal S512x1 .f32) (r d : Fin 512) :
    k6_pay6 (F := Ideal) acc rs (ix2 r d) = Ideal.div (acc (ix2 r d)) (rs (ix2 r 0) + Cert.Spec.eps) := by
  unfold k6_pay6
  refine (divf_apply _ _ _).trans (congrArg (Ideal.div (acc (ix2 r d))) ?_)
  exact (broadcastTo_a1_ab_apply _ _ r d).trans rfl

/-- The accumulator block starts at zero. -/
theorem k7_pay1_at (r d : Fin 512) : k7_pay1 (F := Ideal) (ix2 r d) = 0 := by
  unfold k7_pay1
  rw [shapeCast_self]
  exact Ideal.ofBits_zero_f32

/-- The column of row sums starts at zero. -/
theorem k7_pay2_at (r : Fin 512) : k7_pay2 (F := Ideal) (ix2 r 0) = 0 := by
  unfold k7_pay2
  rw [shapeCast_self]
  exact Ideal.ofBits_zero_f32

/-- One step of the accumulator: it gains the attention block times the current fc rows. -/
theorem k7_pay4_at (a f acc : Vec Ideal S512x512 .f32) (r d : Fin 512) :
    k7_pay4 (F := Ideal) a f acc (ix2 r d) = acc (ix2 r d) + ∑ j : Fin 512, a (ix2 r j) * f (ix2 j d) := by
  unfold k7_pay4 k7_pay3
  rw [shapeCast_self, shapeCast_self, shapeCast_self]
  exact (addf_apply _ _ _).trans (congrArg (acc (ix2 r d) + ·) (matmul_rows_cols_at a f r d))

/-- One step of the row sums: the column gains the attention block's row sums. -/
theorem k7_pay5_at (a : Vec Ideal S512x512 .f32) (rs : Vec Ideal S512x1 .f32) (r : Fin 512) :
    k7_pay5 (F := Ideal) a rs (ix2 r 0) = rs (ix2 r 0) + ∑ j : Fin 512, a (ix2 r j) := by
  unfold k7_pay5 k7_pay3
  rw [shapeCast_self, shapeCast_self]
  refine (addf_apply _ _ _).trans (congrArg (rs (ix2 r 0) + ·) ?_)
  exact (shapeCast_a_a1_apply _ _ r 0).trans (sum_axis1_at a _ _ r)

/-- The output block: the accumulator divided by the guarded row sums. -/
theorem k7_pay6_at (acc : Vec Ideal S512x512 .f32) (rs : Vec Ideal S512x1 .f32) (r d : Fin 512) :
    k7_pay6 (F := Ideal) acc rs (ix2 r d) = Ideal.div (acc (ix2 r d)) (rs (ix2 r 0) + Cert.Spec.eps) := by
  unfold k7_pay6
  refine (divf_apply _ _ _).trans (congrArg (Ideal.div (acc (ix2 r d))) ?_)
  exact (broadcastTo_a1_ab_apply _ _ r d).trans rfl

/-! ## The collection steps in the transposed orientation -/

/-- The accumulator block starts at zero. -/
theorem k3_pay1_at (r d : Fin 512) : k3_pay1 (F := Ideal) (ix2 r d) = 0 := by
  unfold k3_pay1
  rw [shapeCast_self]
  exact Ideal.ofBits_zero_f32

/-- The row of column sums starts at zero. -/
theorem k3_pay2_at (r : Fin 512) : k3_pay2 (F := Ideal) (ix2 0 r) = 0 := by
  unfold k3_pay2
  rw [shapeCast_self]
  exact Ideal.ofBits_zero_f32

/-- One step of the accumulator: it gains the transposed attention block times the current fc rows. -/
theorem k3_pay3_at (raw f acc : Vec Ideal S512x512 .f32) (r d : Fin 512) :
    k3_pay3 (F := Ideal) raw f acc (ix2 r d) = acc (ix2 r d) + ∑ j : Fin 512, raw (ix2 j r) * f (ix2 j d) := by
  unfold k3_pay3
  rw [shapeCast_self, shapeCast_self]
  exact (addf_apply _ _ _).trans (congrArg (acc (ix2 r d) + ·) (matmul_cols_cols_at raw f r d))

/-- One step of the sums: the row gains the raw block's column sums. -/
theorem k3_pay4_at (raw : Vec Ideal S512x512 .f32) (rs : Vec Ideal S1x512 .f32) (r : Fin 512) :
    k3_pay4 (F := Ideal) raw rs (ix2 0 r) = rs (ix2 0 r) + ∑ j : Fin 512, raw (ix2 j r) := by
  unfold k3_pay4
  rw [shapeCast_self]
  refine (addf_apply _ _ _).trans (congrArg (rs (ix2 0 r) + ·) ?_)
  exact (shapeCast_a_1a_apply _ _ 0 r).trans (sum_axis0_at raw _ _ r)

/-- The output block: the accumulator divided by the guarded sums, the row of sums read as a column. -/
theorem k3_pay5_at (rs : Vec Ideal S1x512 .f32) (acc : Vec Ideal S512x512 .f32) (r d : Fin 512) :
    k3_pay5 (F := Ideal) rs acc (ix2 r d) = Ideal.div (acc (ix2 r d)) (rs (ix2 0 r) + Cert.Spec.eps) := by
  unfold k3_pay5
  refine (divf_apply _ _ _).trans (congrArg (Ideal.div (acc (ix2 r d))) ?_)
  refine (broadcastTo_a1_ab_apply _ _ r d).trans ?_
  exact (addf_apply _ _ _).trans (congrArg (· + Cert.Spec.eps) (transpose_ix2_apply rs _ r 0))

/-- The accumulator block starts at zero. -/
theorem k8_pay1_at (r d : Fin 512) : k8_pay1 (F := Ideal) (ix2 r d) = 0 := by
  unfold k8_pay1
  rw [shapeCast_self]
  exact Ideal.ofBits_zero_f32

/-- The row of column sums starts at zero. -/
theorem k8_pay2_at (r : Fin 512) : k8_pay2 (F := Ideal) (ix2 0 r) = 0 := by
  unfold k8_pay2
  rw [shapeCast_self]
  exact Ideal.ofBits_zero_f32

/-- One step of the accumulator: it gains the transposed attention block times the current fc rows. -/
theorem k8_pay4_at (raw f acc : Vec Ideal S512x512 .f32) (r d : Fin 512) :
    k8_pay4 (F := Ideal) raw f acc (ix2 r d) = acc (ix2 r d) + ∑ j : Fin 512, raw (ix2 j r) * f (ix2 j d) := by
  unfold k8_pay4 k8_pay3
  rw [shapeCast_self, shapeCast_self, shapeCast_self]
  exact (addf_apply _ _ _).trans (congrArg (acc (ix2 r d) + ·) (matmul_cols_cols_at raw f r d))

/-- One step of the sums: the row gains the raw block's column sums. -/
theorem k8_pay5_at (raw : Vec Ideal S512x512 .f32) (rs : Vec Ideal S1x512 .f32) (r : Fin 512) :
    k8_pay5 (F := Ideal) raw rs (ix2 0 r) = rs (ix2 0 r) + ∑ j : Fin 512, raw (ix2 j r) := by
  unfold k8_pay5 k8_pay3
  rw [shapeCast_self, shapeCast_self]
  refine (addf_apply _ _ _).trans (congrArg (rs (ix2 0 r) + ·) ?_)
  exact (shapeCast_a_1a_apply _ _ 0 r).trans (sum_axis0_at raw _ _ r)

/-- The output block: the accumulator divided by the guarded sums, the row of sums read as a column. -/
theorem k8_pay6_at (rs : Vec Ideal S1x512 .f32) (acc : Vec Ideal S512x512 .f32) (r d : Fin 512) :
    k8_pay6 (F := Ideal) rs acc (ix2 r d) = Ideal.div (acc (ix2 r d)) (rs (ix2 0 r) + Cert.Spec.eps) := by
  unfold k8_pay6
  refine (divf_apply _ _ _).trans (congrArg (Ideal.div (acc (ix2 r d))) ?_)
  refine (broadcastTo_a1_ab_apply _ _ r d).trans ?_
  exact (addf_apply _ _ _).trans (congrArg (· + Cert.Spec.eps) (transpose_ix2_apply rs _ r 0))

/-- The accumulator block starts at zero. -/
theorem k9_pay1_at (r d : Fin 512) : k9_pay1 (F := Ideal) (ix2 r d) = 0 := by
  unfold k9_pay1
  rw [shapeCast_self]
  exact Ideal.ofBits_zero_f32

/-- The row of column sums starts at zero. -/
theorem k9_pay2_at (r : Fin 512) : k9_pay2 (F := Ideal) (ix2 0 r) = 0 := by
  unfold k9_pay2
  rw [shapeCast_self]
  exact Ideal.ofBits_zero_f32

/-- One step of the accumulator: it gains the transposed attention block times the current fc rows. -/
theorem k9_pay4_at (raw f acc : Vec Ideal S512x512 .f32) (r d : Fin 512) :
    k9_pay4 (F := Ideal) raw f acc (ix2 r d) = acc (ix2 r d) + ∑ j : Fin 512, raw (ix2 j r) * f (ix2 j d) := by
  unfold k9_pay4 k9_pay3
  rw [shapeCast_self, shapeCast_self, shapeCast_self]
  exact (addf_apply _ _ _).trans (congrArg (acc (ix2 r d) + ·) (matmul_cols_cols_at raw f r d))

/-- One step of the sums: the row gains the raw block's column sums. -/
theorem k9_pay5_at (raw : Vec Ideal S512x512 .f32) (rs : Vec Ideal S1x512 .f32) (r : Fin 512) :
    k9_pay5 (F := Ideal) raw rs (ix2 0 r) = rs (ix2 0 r) + ∑ j : Fin 512, raw (ix2 j r) := by
  unfold k9_pay5 k9_pay3
  rw [shapeCast_self, shapeCast_self]
  refine (addf_apply _ _ _).trans (congrArg (rs (ix2 0 r) + ·) ?_)
  exact (shapeCast_a_1a_apply _ _ 0 r).trans (sum_axis0_at raw _ _ r)

/-- The output block: the accumulator divided by the guarded sums, the row of sums read as a column. -/
theorem k9_pay6_at (rs : Vec Ideal S1x512 .f32) (acc : Vec Ideal S512x512 .f32) (r d : Fin 512) :
    k9_pay6 (F := Ideal) rs acc (ix2 r d) = Ideal.div (acc (ix2 r d)) (rs (ix2 0 r) + Cert.Spec.eps) := by
  unfold k9_pay6
  refine (divf_apply _ _ _).trans (congrArg (Ideal.div (acc (ix2 r d))) ?_)
  refine (broadcastTo_a1_ab_apply _ _ r d).trans ?_
  exact (addf_apply _ _ _).trans (congrArg (· + Cert.Spec.eps) (transpose_ix2_apply rs _ r 0))

/-! ## The attention block recast to its own shape is itself (regions whose body names that cast) -/

/-- The cast of the attention block to its own shape is the block. -/
theorem k6_pay3_eq {F : FTy → Type} [FloatOps F] (a : Vec F S512x512 .f32) : k6_pay3 (F := F) a = a := by
  unfold k6_pay3
  exact shapeCast_self a _

/-- The cast of the attention block to its own shape is the block. -/
theorem k7_pay3_eq {F : FTy → Type} [FloatOps F] (a : Vec F S512x512 .f32) : k7_pay3 (F := F) a = a := by
  unfold k7_pay3
  exact shapeCast_self a _

/-- The cast of the attention block to its own shape is the block. -/
theorem k8_pay3_eq {F : FTy → Type} [FloatOps F] (a : Vec F S512x512 .f32) : k8_pay3 (F := F) a = a := by
  unfold k8_pay3
  exact shapeCast_self a _

/-- The cast of the attention block to its own shape is the block. -/
theorem k9_pay3_eq {F : FTy → Type} [FloatOps F] (a : Vec F S512x512 .f32) : k9_pay3 (F := F) a = a := by
  unfold k9_pay3
  exact shapeCast_self a _

end Cert.KernelIdeal.Pay

end
-- ==== Proof.KI.ValLin.lean ====
/-
  What the three linear regions leave in their result arrays, at the exact instance: region K's result array is, index
  by index, max (∑ k, src s k · W d k + b d) 0 of the arrays the region finds. A point of the grid writes back one block
  of 512 rows computed from the source block at the same block row, the whole weight and the bias row; the blocks of the
  grid's points tile the array (row s belongs to point s / 512), so the array ends holding that function everywhere.
-/
import proofs.«145590_j23742579212572_2_alg».proof.Proof.KI.Lin
import proofs.«145590_j23742579212572_2_alg».proof.Proof.KI.Pay
import proofs.«145590_j23742579212572_2_alg».proof.Proof.Spec
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

-- the TensorCore's buffer contents when a region is entered
variable (V : (c : Dev nD) → (b : Ref sig .tc) → Buf (Elt Ideal) ((c : Thread nD τ).loc b))

/-- The zero offset of a whole-block access. -/
theorem hz : (![0, 0] : Fin 2 → Nat) = fun _ => 0 := funext fun a => by fin_cases a <;> rfl

/-! ## Region 0: the fc rows of the objects -/

/-- The result block of one point at row `r`, column `d`, from the three blocks the point reads. -/
theorem out0_3_at (x0 x1 : Vec Ideal S512x512 .f32) (x2 : Vec Ideal S1x512 .f32) (r d : Fin 512) :
    out0_3 x0 x1 x2 (ix2 r d) = max ((∑ k : Fin 512, x0 (ix2 r k) * x1 (ix2 d k)) + x2 (ix2 0 d)) 0 := by
  unfold out0_3
  rw [View.canon_unit_zero hz]
  simp only [View.ld_unit_zero (S := S512x512) hz, View.ld_unit_zero (S := S1x512) hz]
  exact Pay.k0_pay1_at x0 x1 x2 r d

/-- The printed index maps over the grid: the source and result windows are at block row `t`, the weight and the bias
    do not move. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A point is one of the grid's 4. -/
theorem lt0 (t : Fin cfg0.N) : t.val < 4 := by
  have h := t.isLt
  have e : cfg0.N = 4 := N_0
  omega

/-- Row `r` of the source block of point `t` is row `512 t + r` of the source array. -/
theorem iblk0_0_at (c : Dev nD) (t : Fin cfg0.N) (r k : Fin 512) :
    iblk0 V c 0 t (ix2 r k) = V c (Pipeline.arrRef spec0 0) (ix2 (⟨t.val * 512 + r.val, by have := lt0 t; omega⟩ : Fin 2048) k) := by
  show V c (Pipeline.arrRef spec0 0) (((cfg0.win 0).blk t).view.emb (ix2 r k)) = _
  refine congrArg (V c (Pipeline.arrRef spec0 0)) ?_
  obtain ⟨e0, e1, -⟩ := idx0 t
  funext a; apply Fin.ext
  match a with
  | ⟨0, _⟩ => show win0_0.index t (0 : Fin 2) * 512 + 1 * r.val = t.val * 512 + r.val; omega
  | ⟨1, _⟩ => show win0_0.index t (1 : Fin 2) * 512 + 1 * k.val = k.val; omega

/-- The weight block of every point is the weight array. -/
theorem iblk0_1_at (c : Dev nD) (t : Fin cfg0.N) (d k : Fin 512) :
    iblk0 V c 1 t (ix2 d k) = V c (Pipeline.arrRef spec0 1) (ix2 d k) := by
  show V c (Pipeline.arrRef spec0 1) (((cfg0.win 1).blk t).view.emb (ix2 d k)) = _
  refine congrArg (V c (Pipeline.arrRef spec0 1)) ?_
  obtain ⟨-, -, e2, e3, -⟩ := idx0 t
  funext a; apply Fin.ext
  match a with
  | ⟨0, _⟩ => show win0_1.index t (0 : Fin 2) * 512 + 1 * d.val = d.val; omega
  | ⟨1, _⟩ => show win0_1.index t (1 : Fin 2) * 512 + 1 * k.val = k.val; omega

/-- The bias block of every point is the bias row. -/
theorem iblk0_2_at (c : Dev nD) (t : Fin cfg0.N) (d : Fin 512) :
    iblk0 V c 2 t (ix2 0 d) = V c (Pipeline.arrRef spec0 2) (ix2 (0 : Fin 1) d) := by
  show V c (Pipeline.arrRef spec0 2) (((cfg0.win 2).blk t).view.emb (ix2 (0 : Fin 1) d)) = _
  refine congrArg (V c (Pipeline.arrRef spec0 2)) ?_
  obtain ⟨-, -, -, -, e4, e5, -⟩ := idx0 t
  funext a; apply Fin.ext
  match a with
  | ⟨0, _⟩ => show win0_2.index t (0 : Fin 2) * 1 + 1 * 0 = 0; omega
  | ⟨1, _⟩ => show win0_2.index t (1 : Fin 2) * 512 + 1 * d.val = d.val; omega

/-- The fc rows of the whole source array, index by index. -/
def fc0 (c : Dev nD) : S2048x512.Idx → EReal := fun y =>
  Cert.Spec.fcAt (N := 2048) (V c (Pipeline.arrRef spec0 0)) (V c (Pipeline.arrRef spec0 1))
    (fun e => V c (Pipeline.arrRef spec0 2) (ix2 (0 : Fin 1) (e 0))) (y 0) (y 1)

/-- What point `t` writes back is block `t` of the fc rows. -/
theorem flushed0_eq (c : Dev nD) (t : Fin cfg0.N) :
    (dat0 V c).flushed 3 t = ((cfg0.win 3).blk t).view.read (Elt Ideal) (fc0 V c) := by
  show (cfg0.win 3).cut (grid0.coords t) ((dat0 V c).after 3 t) = _
  rw [after0_3]
  funext j
  obtain ⟨r, d, rfl⟩ : ∃ (r d : Fin 512), j = ix2 r d := ⟨j 0, j 1, eq_ix2 j⟩
  show out0_3 (iblk0 V c 0 t) (iblk0 V c 1 t) (iblk0 V c 2 t) (ix2 r d) = fc0 V c (((cfg0.win 3).blk t).view.emb (ix2 r d))
  have he : ((cfg0.win 3).blk t).view.emb (ix2 r d) = ix2 (⟨t.val * 512 + r.val, by have := lt0 t; omega⟩ : Fin 2048) d := by
    obtain ⟨-, -, -, -, -, -, e6, e7⟩ := idx0 t
    funext a; apply Fin.ext
    match a with
    | ⟨0, _⟩ => show win0_3.index t (0 : Fin 2) * 512 + 1 * r.val = t.val * 512 + r.val; omega
    | ⟨1, _⟩ => show win0_3.index t (1 : Fin 2) * 512 + 1 * d.val = d.val; omega
  refine (out0_3_at _ _ _ r d).trans ((congrArg₂ (max : EReal → EReal → EReal) (congrArg₂ (fun (x y : EReal) => x + y) (Finset.sum_congr rfl fun k _ =>
    congrArg₂ (fun (x y : EReal) => x * y) (iblk0_0_at V c t r k) (iblk0_1_at V c t d k)) (iblk0_2_at V c t d)) rfl).trans
    (congrArg (fc0 V c) he).symm)

/-- An index of the result array is in point `t`'s block iff its row is in the block's 512 rows. -/
theorem mem_blk0 (t : Fin cfg0.N) (i : S2048x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v5).slice (win0_3.rect t)).set ↔ _
  rw [View.set_slice_whole, Rect.mem_set_unit]
  exact Iff.rfl

/-- THE RESULT ARRAY after the region: the fc rows of the source array. -/
theorem final0 (c : Dev nD) : (dat0 V c).arrAt 3 cfg0.N = fc0 V c := by
  refine (dat0 V c).arrAt_eq_of_cover 3 (fc0 V c) (fun t _ => flushed0_eq V c t) fun i => ?_
  have hi0 : (i 0).val < 2048 := (i 0).isLt
  have hi1 : (i 1).val < 512 := (i 1).isLt
  have hN : cfg0.N = 4 := N_0
  refine ⟨⟨(i 0).val / 512, by omega⟩, flush0_3 _, ?_⟩
  rw [mem_blk0]
  obtain ⟨-, -, -, -, -, -, e6, e7⟩ := idx0 ⟨(i 0).val / 512, by omega⟩
  intro a
  match a with
  | ⟨0, _⟩ =>
    show win0_3.index ⟨(i 0).val / 512, _⟩ (0 : Fin 2) * 512 ≤ (i 0).val ∧ (i 0).val < win0_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, _⟩ (1 : Fin 2) * 512 ≤ (i 1).val ∧ (i 1).val < win0_3.index ⟨(i 0).val / 512, _⟩ (1 : Fin 2) * 512 + 512
    rw [e7]; omega

/-! ## Region 1: the fc rows of the attributes -/

/-- The result block of one point at row `r`, column `d`, from the three blocks the point reads. -/
theorem out1_3_at (x0 x1 : Vec Ideal S512x512 .f32) (x2 : Vec Ideal S1x512 .f32) (r d : Fin 512) :
    out1_3 x0 x1 x2 (ix2 r d) = max ((∑ k : Fin 512, x0 (ix2 r k) * x1 (ix2 d k)) + x2 (ix2 0 d)) 0 := by
  unfold out1_3
  rw [View.canon_unit_zero hz]
  simp only [View.ld_unit_zero (S := S512x512) hz, View.ld_unit_zero (S := S1x512) hz]
  exact Pay.k1_pay1_at x0 x1 x2 r d

/-- The printed index maps over the grid: the source and result windows are at block row `t`, the weight and the bias
    do not move. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A point is one of the grid's 4. -/
theorem lt1 (t : Fin cfg1.N) : t.val < 4 := by
  have h := t.isLt
  have e : cfg1.N = 4 := N_1
  omega

/-- Row `r` of the source block of point `t` is row `512 t + r` of the source array. -/
theorem iblk1_0_at (c : Dev nD) (t : Fin cfg1.N) (r k : Fin 512) :
    iblk1 V c 0 t (ix2 r k) = V c (Pipeline.arrRef spec1 0) (ix2 (⟨t.val * 512 + r.val, by have := lt1 t; omega⟩ : Fin 2048) k) := by
  show V c (Pipeline.arrRef spec1 0) (((cfg1.win 0).blk t).view.emb (ix2 r k)) = _
  refine congrArg (V c (Pipeline.arrRef spec1 0)) ?_
  obtain ⟨e0, e1, -⟩ := idx1 t
  funext a; apply Fin.ext
  match a with
  | ⟨0, _⟩ => show win1_0.index t (0 : Fin 2) * 512 + 1 * r.val = t.val * 512 + r.val; omega
  | ⟨1, _⟩ => show win1_0.index t (1 : Fin 2) * 512 + 1 * k.val = k.val; omega

/-- The weight block of every point is the weight array. -/
theorem iblk1_1_at (c : Dev nD) (t : Fin cfg1.N) (d k : Fin 512) :
    iblk1 V c 1 t (ix2 d k) = V c (Pipeline.arrRef spec1 1) (ix2 d k) := by
  show V c (Pipeline.arrRef spec1 1) (((cfg1.win 1).blk t).view.emb (ix2 d k)) = _
  refine congrArg (V c (Pipeline.arrRef spec1 1)) ?_
  obtain ⟨-, -, e2, e3, -⟩ := idx1 t
  funext a; apply Fin.ext
  match a with
  | ⟨0, _⟩ => show win1_1.index t (0 : Fin 2) * 512 + 1 * d.val = d.val; omega
  | ⟨1, _⟩ => show win1_1.index t (1 : Fin 2) * 512 + 1 * k.val = k.val; omega

/-- The bias block of every point is the bias row. -/
theorem iblk1_2_at (c : Dev nD) (t : Fin cfg1.N) (d : Fin 512) :
    iblk1 V c 2 t (ix2 0 d) = V c (Pipeline.arrRef spec1 2) (ix2 (0 : Fin 1) d) := by
  show V c (Pipeline.arrRef spec1 2) (((cfg1.win 2).blk t).view.emb (ix2 (0 : Fin 1) d)) = _
  refine congrArg (V c (Pipeline.arrRef spec1 2)) ?_
  obtain ⟨-, -, -, -, e4, e5, -⟩ := idx1 t
  funext a; apply Fin.ext
  match a with
  | ⟨0, _⟩ => show win1_2.index t (0 : Fin 2) * 1 + 1 * 0 = 0; omega
  | ⟨1, _⟩ => show win1_2.index t (1 : Fin 2) * 512 + 1 * d.val = d.val; omega

/-- The fc rows of the whole source array, index by index. -/
def fc1 (c : Dev nD) : S2048x512.Idx → EReal := fun y =>
  Cert.Spec.fcAt (N := 2048) (V c (Pipeline.arrRef spec1 0)) (V c (Pipeline.arrRef spec1 1))
    (fun e => V c (Pipeline.arrRef spec1 2) (ix2 (0 : Fin 1) (e 0))) (y 0) (y 1)

/-- What point `t` writes back is block `t` of the fc rows. -/
theorem flushed1_eq (c : Dev nD) (t : Fin cfg1.N) :
    (dat1 V c).flushed 3 t = ((cfg1.win 3).blk t).view.read (Elt Ideal) (fc1 V c) := by
  show (cfg1.win 3).cut (grid1.coords t) ((dat1 V c).after 3 t) = _
  rw [after1_3]
  funext j
  obtain ⟨r, d, rfl⟩ : ∃ (r d : Fin 512), j = ix2 r d := ⟨j 0, j 1, eq_ix2 j⟩
  show out1_3 (iblk1 V c 0 t) (iblk1 V c 1 t) (iblk1 V c 2 t) (ix2 r d) = fc1 V c (((cfg1.win 3).blk t).view.emb (ix2 r d))
  have he : ((cfg1.win 3).blk t).view.emb (ix2 r d) = ix2 (⟨t.val * 512 + r.val, by have := lt1 t; omega⟩ : Fin 2048) d := by
    obtain ⟨-, -, -, -, -, -, e6, e7⟩ := idx1 t
    funext a; apply Fin.ext
    match a with
    | ⟨0, _⟩ => show win1_3.index t (0 : Fin 2) * 512 + 1 * r.val = t.val * 512 + r.val; omega
    | ⟨1, _⟩ => show win1_3.index t (1 : Fin 2) * 512 + 1 * d.val = d.val; omega
  refine (out1_3_at _ _ _ r d).trans ((congrArg₂ (max : EReal → EReal → EReal) (congrArg₂ (fun (x y : EReal) => x + y) (Finset.sum_congr rfl fun k _ =>
    congrArg₂ (fun (x y : EReal) => x * y) (iblk1_0_at V c t r k) (iblk1_1_at V c t d k)) (iblk1_2_at V c t d)) rfl).trans
    (congrArg (fc1 V c) he).symm)

/-- An index of the result array is in point `t`'s block iff its row is in the block's 512 rows. -/
theorem mem_blk1 (t : Fin cfg1.N) (i : S2048x512.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v7).slice (win1_3.rect t)).set ↔ _
  rw [View.set_slice_whole, Rect.mem_set_unit]
  exact Iff.rfl

/-- THE RESULT ARRAY after the region: the fc rows of the source array. -/
theorem final1 (c : Dev nD) : (dat1 V c).arrAt 3 cfg1.N = fc1 V c := by
  refine (dat1 V c).arrAt_eq_of_cover 3 (fc1 V c) (fun t _ => flushed1_eq V c t) fun i => ?_
  have hi0 : (i 0).val < 2048 := (i 0).isLt
  have hi1 : (i 1).val < 512 := (i 1).isLt
  have hN : cfg1.N = 4 := N_1
  refine ⟨⟨(i 0).val / 512, by omega⟩, flush1_3 _, ?_⟩
  rw [mem_blk1]
  obtain ⟨-, -, -, -, -, -, e6, e7⟩ := idx1 ⟨(i 0).val / 512, by omega⟩
  intro a
  match a with
  | ⟨0, _⟩ =>
    show win1_3.index ⟨(i 0).val / 512, _⟩ (0 : Fin 2) * 512 ≤ (i 0).val ∧ (i 0).val < win1_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win1_3.index ⟨(i 0).val / 512, _⟩ (1 : Fin 2) * 512 ≤ (i 1).val ∧ (i 1).val < win1_3.index ⟨(i 0).val / 512, _⟩ (1 : Fin 2) * 512 + 512
    rw [e7]; omega

/-! ## Region 2: the fc rows of the relations -/

/-- The result block of one point at row `r`, column `d`, from the three blocks the point reads. -/
theorem out2_3_at (x0 x1 : Vec Ideal S512x512 .f32) (x2 : Vec Ideal S1x512 .f32) (r d : Fin 512) :
    out2_3 x0 x1 x2 (ix2 r d) = max ((∑ k : Fin 512, x0 (ix2 r k) * x1 (ix2 d k)) + x2 (ix2 0 d)) 0 := by
  unfold out2_3
  rw [View.canon_unit_zero hz]
  simp only [View.ld_unit_zero (S := S512x512) hz, View.ld_unit_zero (S := S1x512) hz]
  exact Pay.k2_pay1_at x0 x1 x2 r d

/-- The printed index maps over the grid: the source and result windows are at block row `t`, the weight and the bias
    do not move. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A point is one of the grid's 16. -/
theorem lt2 (t : Fin cfg2.N) : t.val < 16 := by
  have h := t.isLt
  have e : cfg2.N = 16 := N_2
  omega

/-- Row `r` of the source block of point `t` is row `512 t + r` of the source array. -/
theorem iblk2_0_at (c : Dev nD) (t : Fin cfg2.N) (r k : Fin 512) :
    iblk2 V c 0 t (ix2 r k) = V c (Pipeline.arrRef spec2 0) (ix2 (⟨t.val * 512 + r.val, by have := lt2 t; omega⟩ : Fin 8192) k) := by
  show V c (Pipeline.arrRef spec2 0) (((cfg2.win 0).blk t).view.emb (ix2 r k)) = _
  refine congrArg (V c (Pipeline.arrRef spec2 0)) ?_
  obtain ⟨e0, e1, -⟩ := idx2 t
  funext a; apply Fin.ext
  match a with
  | ⟨0, _⟩ => show win2_0.index t (0 : Fin 2) * 512 + 1 * r.val = t.val * 512 + r.val; omega
  | ⟨1, _⟩ => show win2_0.index t (1 : Fin 2) * 512 + 1 * k.val = k.val; omega

/-- The weight block of every point is the weight array. -/
theorem iblk2_1_at (c : Dev nD) (t : Fin cfg2.N) (d k : Fin 512) :
    iblk2 V c 1 t (ix2 d k) = V c (Pipeline.arrRef spec2 1) (ix2 d k) := by
  show V c (Pipeline.arrRef spec2 1) (((cfg2.win 1).blk t).view.emb (ix2 d k)) = _
  refine congrArg (V c (Pipeline.arrRef spec2 1)) ?_
  obtain ⟨-, -, e2, e3, -⟩ := idx2 t
  funext a; apply Fin.ext
  match a with
  | ⟨0, _⟩ => show win2_1.index t (0 : Fin 2) * 512 + 1 * d.val = d.val; omega
  | ⟨1, _⟩ => show win2_1.index t (1 : Fin 2) * 512 + 1 * k.val = k.val; omega

/-- The bias block of every point is the bias row. -/
theorem iblk2_2_at (c : Dev nD) (t : Fin cfg2.N) (d : Fin 512) :
    iblk2 V c 2 t (ix2 0 d) = V c (Pipeline.arrRef spec2 2) (ix2 (0 : Fin 1) d) := by
  show V c (Pipeline.arrRef spec2 2) (((cfg2.win 2).blk t).view.emb (ix2 (0 : Fin 1) d)) = _
  refine congrArg (V c (Pipeline.arrRef spec2 2)) ?_
  obtain ⟨-, -, -, -, e4, e5, -⟩ := idx2 t
  funext a; apply Fin.ext
  match a with
  | ⟨0, _⟩ => show win2_2.index t (0 : Fin 2) * 1 + 1 * 0 = 0; omega
  | ⟨1, _⟩ => show win2_2.index t (1 : Fin 2) * 512 + 1 * d.val = d.val; omega

/-- The fc rows of the whole source array, index by index. -/
def fc2 (c : Dev nD) : S8192x512.Idx → EReal := fun y =>
  Cert.Spec.fcAt (N := 8192) (V c (Pipeline.arrRef spec2 0)) (V c (Pipeline.arrRef spec2 1))
    (fun e => V c (Pipeline.arrRef spec2 2) (ix2 (0 : Fin 1) (e 0))) (y 0) (y 1)

/-- What point `t` writes back is block `t` of the fc rows. -/
theorem flushed2_eq (c : Dev nD) (t : Fin cfg2.N) :
    (dat2 V c).flushed 3 t = ((cfg2.win 3).blk t).view.read (Elt Ideal) (fc2 V c) := by
  show (cfg2.win 3).cut (grid2.coords t) ((dat2 V c).after 3 t) = _
  rw [after2_3]
  funext j
  obtain ⟨r, d, rfl⟩ : ∃ (r d : Fin 512), j = ix2 r d := ⟨j 0, j 1, eq_ix2 j⟩
  show out2_3 (iblk2 V c 0 t) (iblk2 V c 1 t) (iblk2 V c 2 t) (ix2 r d) = fc2 V c (((cfg2.win 3).blk t).view.emb (ix2 r d))
  have he : ((cfg2.win 3).blk t).view.emb (ix2 r d) = ix2 (⟨t.val * 512 + r.val, by have := lt2 t; omega⟩ : Fin 8192) d := by
    obtain ⟨-, -, -, -, -, -, e6, e7⟩ := idx2 t
    funext a; apply Fin.ext
    match a with
    | ⟨0, _⟩ => show win2_3.index t (0 : Fin 2) * 512 + 1 * r.val = t.val * 512 + r.val; omega
    | ⟨1, _⟩ => show win2_3.index t (1 : Fin 2) * 512 + 1 * d.val = d.val; omega
  refine (out2_3_at _ _ _ r d).trans ((congrArg₂ (max : EReal → EReal → EReal) (congrArg₂ (fun (x y : EReal) => x + y) (Finset.sum_congr rfl fun k _ =>
    congrArg₂ (fun (x y : EReal) => x * y) (iblk2_0_at V c t r k) (iblk2_1_at V c t d k)) (iblk2_2_at V c t d)) rfl).trans
    (congrArg (fc2 V c) he).symm)

/-- An index of the result array is in point `t`'s block iff its row is in the block's 512 rows. -/
theorem mem_blk2 (t : Fin cfg2.N) (i : S8192x512.Idx) :
    i ∈ ((cfg2.win 3).blk t).view.set ↔ ∀ a : Fin 2, win2_3.index t a * S512x512.size a ≤ (i a).val ∧ (i a).val < win2_3.index t a * S512x512.size a + S512x512.size a := by
  show i ∈ ((View.whole main_v9).slice (win2_3.rect t)).set ↔ _
  rw [View.set_slice_whole, Rect.mem_set_unit]
  exact Iff.rfl

/-- THE RESULT ARRAY after the region: the fc rows of the source array. -/
theorem final2 (c : Dev nD) : (dat2 V c).arrAt 3 cfg2.N = fc2 V c := by
  refine (dat2 V c).arrAt_eq_of_cover 3 (fc2 V c) (fun t _ => flushed2_eq V c t) fun i => ?_
  have hi0 : (i 0).val < 8192 := (i 0).isLt
  have hi1 : (i 1).val < 512 := (i 1).isLt
  have hN : cfg2.N = 16 := N_2
  refine ⟨⟨(i 0).val / 512, by omega⟩, flush2_3 _, ?_⟩
  rw [mem_blk2]
  obtain ⟨-, -, -, -, -, -, e6, e7⟩ := idx2 ⟨(i 0).val / 512, by omega⟩
  intro a
  match a with
  | ⟨0, _⟩ =>
    show win2_3.index ⟨(i 0).val / 512, _⟩ (0 : Fin 2) * 512 ≤ (i 0).val ∧ (i 0).val < win2_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win2_3.index ⟨(i 0).val / 512, _⟩ (1 : Fin 2) * 512 ≤ (i 1).val ∧ (i 1).val < win2_3.index ⟨(i 0).val / 512, _⟩ (1 : Fin 2) * 512 + 512
    rw [e7]; omega

end Cert.KernelIdeal.Val

end
-- ==== Proof.KI.V3a.lean ====
/- Region 3, what each control case leaves, as values: the partial product after a step is "acc + raw_block^T · fc_rows"
   of the step's loads, the partial row sums "rs + sums of raw_block along axis 0", both from zero at k = 0 and from what
   came in otherwise; at k = 3 the result block is "acc / (rs^T + ε)" of the two just stored. The fc rows of step k
   are the 512-row slice of the whole fc array at row offset 512·k. -/
import proofs.«145590_j23742579212572_2_alg».proof.Proof.KI.R3
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

/-- The 512 fc rows the step at grid coordinates `i` loads. -/
abbrev fcRect3 (i : grid3.Coords) : Rect S2048x512 := Rect.unit (s := S2048x512) (k3_off1 i) S512x512.size (k3_off1_inb i)

theorem sout3_B_0_eq (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i) (x0 : Vec F S512x512 .f32) (x1 : Vec F S2048x512 .f32) (xs0 : Vec F S512x512 .f32) (xs1 : Vec F S1x512 .f32) :
    sout3_B_0 c i arg2 harg2 arg3 harg3 arg4 harg4 arg5 harg5 arg6 harg6 hc0 hc1 x0 x1 xs0 xs1 = k3_pay3 x0 (View.ld x1 (fcRect3 i)) xs0 := by
  unfold sout3_B_0
  rw [View.read_writes_eq_canon _ _ _ (scover3_B_0 c i arg2 harg2 arg3 harg3 arg4 harg4 arg5 harg5 arg6 harg6 hc0 hc1 x0 x1 xs0 xs1)]
  unfold kernelRun3_B
  dsimp only
  rw [View.canon_unit_zero hz3]
  simp only [View.readAt_eq_ld, harg2.read_unread, harg3.read_unread, harg5.read_unread, harg6.read_unread, View.ld_unit_zero (S := S512x512) hz3, View.ld_unit_zero (S := S1x512) hz3]
  try rfl

theorem sout3_B_1_eq (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : ¬cond3_1 i) (x0 : Vec F S512x512 .f32) (x1 : Vec F S2048x512 .f32) (xs0 : Vec F S512x512 .f32) (xs1 : Vec F S1x512 .f32) :
    sout3_B_1 c i arg2 harg2 arg3 harg3 arg4 harg4 arg5 harg5 arg6 harg6 hc0 hc1 x0 x1 xs0 xs1 = k3_pay4 x0 xs1 := by
  unfold sout3_B_1
  rw [View.read_writes_eq_canon _ _ _ (scover3_B_1 c i arg2 harg2 arg3 harg3 arg4 harg4 arg5 harg5 arg6 harg6 hc0 hc1 x0 x1 xs0 xs1)]
  unfold kernelRun3_B
  dsimp only
  rw [View.canon_unit_zero hz3]
  simp only [View.readAt_eq_ld, harg2.read_unread, harg3.read_unread, harg5.read_unread, harg6.read_unread, View.ld_unit_zero (S := S512x512) hz3, View.ld_unit_zero (S := S1x512) hz3]
  try rfl

theorem sout3_C_0_eq (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i) (x0 : Vec F S512x512 .f32) (x1 : Vec F S2048x512 .f32) (xs0 : Vec F S512x512 .f32) (xs1 : Vec F S1x512 .f32) :
    sout3_C_0 c i arg2 harg2 arg3 harg3 arg4 harg4 arg5 harg5 arg6 harg6 hc0 hc1 x0 x1 xs0 xs1 = k3_pay3 x0 (View.ld x1 (fcRect3 i)) xs0 := by
  unfold sout3_C_0
  rw [View.read_writes_eq_canon _ _ _ (scover3_C_0 c i arg2 harg2 arg3 harg3 arg4 harg4 arg5 harg5 arg6 harg6 hc0 hc1 x0 x1 xs0 xs1)]
  unfold kernelRun3_C
  dsimp only
  sl_unfold_words
  rw [View.canon_unit_zero hz3]
  simp only [View.readAt_eq_ld, harg2.read_unread, harg3.read_unread, harg5.read_unread, harg6.read_unread, View.ld_unit_zero (S := S512x512) hz3, View.ld_unit_zero (S := S1x512) hz3]
  try rfl

theorem sout3_C_1_eq (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i) (x0 : Vec F S512x512 .f32) (x1 : Vec F S2048x512 .f32) (xs0 : Vec F S512x512 .f32) (xs1 : Vec F S1x512 .f32) :
    sout3_C_1 c i arg2 harg2 arg3 harg3 arg4 harg4 arg5 harg5 arg6 harg6 hc0 hc1 x0 x1 xs0 xs1 = k3_pay4 x0 xs1 := by
  unfold sout3_C_1
  rw [View.read_writes_eq_canon _ _ _ (scover3_C_1 c i arg2 harg2 arg3 harg3 arg4 harg4 arg5 harg5 arg6 harg6 hc0 hc1 x0 x1 xs0 xs1)]
  unfold kernelRun3_C
  dsimp only
  sl_unfold_words
  rw [View.canon_unit_zero hz3]
  simp only [View.readAt_eq_ld, harg2.read_unread, harg3.read_unread, harg5.read_unread, harg6.read_unread, View.ld_unit_zero (S := S512x512) hz3, View.ld_unit_zero (S := S1x512) hz3]
  try rfl

theorem out3_C_2_eq (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond3_0 i) (hc1 : cond3_1 i) (x0 : Vec F S512x512 .f32) (x1 : Vec F S2048x512 .f32) (xs0 : Vec F S512x512 .f32) (xs1 : Vec F S1x512 .f32) :
    out3_C_2 c i arg2 harg2 arg3 harg3 arg4 harg4 arg5 harg5 arg6 harg6 hc0 hc1 x0 x1 xs0 xs1 = k3_pay5 (k3_pay4 x0 xs1) (k3_pay3 x0 (View.ld x1 (fcRect3 i)) xs0) := by
  unfold out3_C_2
  rw [View.read_writes_eq_canon _ _ _ (cover3_C_2 c i arg2 harg2 arg3 harg3 arg4 harg4 arg5 harg5 arg6 harg6 hc0 hc1 x0 x1 xs0 xs1)]
  unfold kernelRun3_C
  dsimp only
  sl_unfold_words
  rw [View.canon_unit_zero hz3]
  simp only [View.readCov_unit_zero (S := S512x512) _ hz3, View.readCov_unit_zero (S := S1x512) _ hz3]
  simp only [View.readAt_eq_ld, harg2.read_unread, harg3.read_unread, harg5.read_unread, harg6.read_unread, View.ld_unit_zero (S := S512x512) hz3, View.ld_unit_zero (S := S1x512) hz3]
  try rfl

theorem sout3_A_0_eq (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i) (x0 : Vec F S512x512 .f32) (x1 : Vec F S2048x512 .f32) :
    sout3_A_0 c i arg2 harg2 arg3 harg3 arg4 harg4 arg5 harg5 arg6 harg6 hc0 hc1 x0 x1 = k3_pay3 x0 (View.ld x1 (fcRect3 i)) (k3_pay1 (F := F)) := by
  unfold sout3_A_0
  rw [View.read_writes_eq_canon _ _ _ (scover3_A_0 c i arg2 harg2 arg3 harg3 arg4 harg4 arg5 harg5 arg6 harg6 hc0 hc1 x0 x1)]
  unfold kernelRun3_A
  dsimp only
  sl_unfold_words
  rw [View.canon_cons_unit_zero (S := S512x512) hz3, View.readCov_unit_zero (S := S512x512) _ hz3]
  simp only [View.readAt_eq_ld, harg2.read_unread, harg3.read_unread, harg5.read_unread, harg6.read_unread, View.ld_unit_zero (S := S512x512) hz3, View.ld_unit_zero (S := S1x512) hz3]
  try rfl

theorem sout3_A_1_eq (c : Dev nD) (i : grid3.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond3_0 i) (hc1 : ¬cond3_1 i) (x0 : Vec F S512x512 .f32) (x1 : Vec F S2048x512 .f32) :
    sout3_A_1 c i arg2 harg2 arg3 harg3 arg4 harg4 arg5 harg5 arg6 harg6 hc0 hc1 x0 x1 = k3_pay4 x0 (k3_pay2 (F := F)) := by
  unfold sout3_A_1
  rw [View.read_writes_eq_canon _ _ _ (scover3_A_1 c i arg2 harg2 arg3 harg3 arg4 harg4 arg5 harg5 arg6 harg6 hc0 hc1 x0 x1)]
  unfold kernelRun3_A
  dsimp only
  sl_unfold_words
  rw [View.canon_cons_unit_zero (S := S1x512) hz3, View.readCov_unit_zero (S := S1x512) _ hz3]
  simp only [View.readAt_eq_ld, harg2.read_unread, harg3.read_unread, harg5.read_unread, harg6.read_unread, View.ld_unit_zero (S := S512x512) hz3, View.ld_unit_zero (S := S1x512) hz3]
  try rfl

end Cert.KernelIdeal.Gen

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.KI.V3b.lean ====
/- Region 3, its result array: row t, column d ends at (∑ s, raw s t · fc s d) / ((∑ s, raw s t) + ε) over ALL source
   rows s: the raw array enters transposed. The kernel reaches the two sums in four steps of 512 source rows: within
   result row block i, step k adds ∑ j<512 raw (512·k + j) (512·i + r) · fc (512·k + j) d to the partial product and
   ∑ j<512 raw (512·k + j) (512·i + r) to the partial sums, both restarted at k = 0; at k = 3 both hold the whole sums
   (a sum over 4·512 indices is the sum of its four blocks), and that step writes the block of the result back. -/
import proofs.«145590_j23742579212572_2_alg».proof.Proof.KI.V3a
import proofs.«145590_j23742579212572_2_alg».proof.Proof.KI.Pay
import proofs.«145590_j23742579212572_2_alg».proof.Proof.LibBlockSums
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay
open scoped BigOperators

variable (V : (c : Dev nD) → (b : Ref sig .tc) → Buf (Elt Ideal) ((c : Thread nD τ).loc b))

/-! ## The grid: which blocks a point reads and writes -/

theorem t3_lt (t : Fin cfg3.N) : t.val < 16 := lt_of_lt_of_eq t.isLt (show cfg3.N = 16 from N_3)

/-- Point t = 4·i + k reads raw block (k, i), the whole fc array, fc rows from 512·k, and holds result block (i, 0). -/
theorem idx3 : ∀ t : Fin cfg3.N,
    win3_0.index t (0 : Fin 2) = t.val % 4 ∧ win3_0.index t (1 : Fin 2) = t.val / 4
    ∧ win3_1.index t (0 : Fin 2) = 0 ∧ win3_1.index t (1 : Fin 2) = 0
    ∧ win3_2.index t (0 : Fin 2) = t.val / 4 ∧ win3_2.index t (1 : Fin 2) = 0
    ∧ k3_off1 (grid3.coords t) (0 : Fin 2) = 512 * (t.val % 4) ∧ k3_off1 (grid3.coords t) (1 : Fin 2) = 0 :=
  (by decide +kernel : ∀ t : Fin grid3.N, _)

/-- The raw array and the fc array as the region finds them. -/
abbrev A3 (c : Dev nD) : S2048x2048.Idx → Elt Ideal .f32 := V c (Pipeline.arrRef spec3 0)
abbrev Fc3 (c : Dev nD) : S2048x512.Idx → Elt Ideal .f32 := V c (Pipeline.arrRef spec3 1)

/-- Result row r of the row block of point t (a COLUMN of the raw array), and source row j of its step (a ROW of it). -/
def rowIx3 (t : Fin cfg3.N) (r : Fin 512) : Fin 2048 := ⟨512 * (t.val / 4) + r.val, by have := t3_lt t; have := r.isLt; omega⟩
def srcIx3 (t : Fin cfg3.N) (j : Fin 512) : Fin 2048 := ⟨512 * (t.val % 4) + j.val, by have := j.isLt; omega⟩

/-- The raw block and the fc rows of the step at position n. -/
abbrev rb3 (c : Dev nD) (n : ℕ) (h : n < cfg3.N) : Vec Ideal S512x512 .f32 := iblk3 V c 0 ⟨n, h⟩
abbrev fr3 (c : Dev nD) (n : ℕ) (h : n < cfg3.N) : Vec Ideal S512x512 .f32 :=
  View.ld (iblk3 V c 1 ⟨n, h⟩ : Vec Ideal S2048x512 .f32) (fcRect3 (grid3.coords ⟨n, h⟩))

/-- The raw block of the point at position n, at (j, r): source row first. -/
theorem rblk3_at (c : Dev nD) (n : ℕ) (h : n < cfg3.N) (j r : Fin 512) :
    rb3 V c n h (ix2 j r) = A3 V c (ix2 (srcIx3 ⟨n, h⟩ j) (rowIx3 ⟨n, h⟩ r)) := by
  have e0 : win3_0.index ⟨n, h⟩ (0 : Fin 2) = n % 4 := (idx3 ⟨n, h⟩).1
  have e1 : win3_0.index ⟨n, h⟩ (1 : Fin 2) = n / 4 := (idx3 ⟨n, h⟩).2.1
  show (iblk3 V c 0 ⟨n, h⟩ : Vec Ideal S512x512 .f32) (ix2 j r) = _
  unfold iblk3
  rw [View.read_apply]
  show V c (Pipeline.arrRef spec3 0) _ = V c (Pipeline.arrRef spec3 0) _
  refine congrArg _ ?_
  funext a; apply Fin.ext
  match a with
  | ⟨0, _⟩ => show win3_0.index ⟨n, h⟩ (0 : Fin 2) * 512 + 1 * j.val = 512 * (n % 4) + j.val; rw [e0]; omega
  | ⟨1, _⟩ => show win3_0.index ⟨n, h⟩ (1 : Fin 2) * 512 + 1 * r.val = 512 * (n / 4) + r.val; rw [e1]; omega

/-- The fc rows the step of point t loads, at (j, d): rows from 512·k of the whole fc array. -/
theorem fcrows3_at (c : Dev nD) (n : ℕ) (h : n < cfg3.N) (j d : Fin 512) :
    fr3 V c n h (ix2 j d) = Fc3 V c (ix2 (srcIx3 ⟨n, h⟩ j) d) := by
  have e2 : win3_1.index ⟨n, h⟩ (0 : Fin 2) = 0 := (idx3 ⟨n, h⟩).2.2.1
  have e3 : win3_1.index ⟨n, h⟩ (1 : Fin 2) = 0 := (idx3 ⟨n, h⟩).2.2.2.1
  have e6 : k3_off1 (grid3.coords ⟨n, h⟩) (0 : Fin 2) = 512 * (n % 4) := (idx3 ⟨n, h⟩).2.2.2.2.2.2.1
  have e7 : k3_off1 (grid3.coords ⟨n, h⟩) (1 : Fin 2) = 0 := (idx3 ⟨n, h⟩).2.2.2.2.2.2.2
  show View.ld (iblk3 V c 1 ⟨n, h⟩ : Vec Ideal S2048x512 .f32) (fcRect3 (grid3.coords ⟨n, h⟩)) (ix2 j d) = _
  unfold iblk3
  show (((cfg3.win 1).blk ⟨n, h⟩).view.read (Elt Ideal) (V c (Pipeline.arrRef spec3 1))) ((fcRect3 (grid3.coords ⟨n, h⟩)).idx (ix2 j d)) = _
  rw [View.read_apply]
  show V c (Pipeline.arrRef spec3 1) _ = V c (Pipeline.arrRef spec3 1) _
  refine congrArg _ ?_
  funext a; apply Fin.ext
  match a with
  | ⟨0, _⟩ => show win3_1.index ⟨n, h⟩ (0 : Fin 2) * 2048 + 1 * (k3_off1 (grid3.coords ⟨n, h⟩) (0 : Fin 2) + 1 * j.val) = 512 * (n % 4) + j.val; rw [e2, e6]; omega
  | ⟨1, _⟩ => show win3_1.index ⟨n, h⟩ (1 : Fin 2) * 512 + 1 * (k3_off1 (grid3.coords ⟨n, h⟩) (1 : Fin 2) + 1 * d.val) = d.val; rw [e3, e7]; omega

/-! ## The two accumulators, point by point -/

/-- At k = 0 the partial product is the step's product added to zero. -/
theorem acc3_reset (c : Dev nD) (n : ℕ) (h : n < cfg3.N) (h0 : n % 4 = 0) :
    (outsAt3 V c n h).2.1 = k3_pay3 (rb3 V c n h) (fr3 V c n h) (k3_pay1 (F := Ideal)) := by
  have e := outsAt3_A V c ⟨n, h⟩ h0 (by dsimp only; omega)
  rw [(e : outsAt3 V c n h = _)]; unfold step3_A
  rw [sout3_A_0_eq] <;> try rfl

/-- At every other k it is the step's product added to what the point before left. -/
theorem acc3_step (c : Dev nD) (n : ℕ) (h : n + 1 < cfg3.N) (hne : ¬(n + 1) % 4 = 0) :
    (outsAt3 V c (n + 1) h).2.1 = k3_pay3 (rb3 V c (n + 1) h) (fr3 V c (n + 1) h) (outsAt3 V c n (Nat.lt_of_succ_lt h)).2.1 := by
  by_cases h1 : (n + 1) % 4 = 3
  · have e := outsAt3_C V c ⟨n + 1, h⟩ hne h1
    rw [(e : outsAt3 V c (n + 1) h = _)]; unfold step3_C
    rw [sout3_C_0_eq] <;> try rfl
  · have e := outsAt3_B V c ⟨n + 1, h⟩ hne h1
    rw [(e : outsAt3 V c (n + 1) h = _)]; unfold step3_B
    rw [sout3_B_0_eq] <;> try rfl

/-- The same for the row of partial sums. -/
theorem rs3_reset (c : Dev nD) (n : ℕ) (h : n < cfg3.N) (h0 : n % 4 = 0) :
    (outsAt3 V c n h).2.2 = k3_pay4 (rb3 V c n h) (k3_pay2 (F := Ideal)) := by
  have e := outsAt3_A V c ⟨n, h⟩ h0 (by dsimp only; omega)
  rw [(e : outsAt3 V c n h = _)]; unfold step3_A
  rw [sout3_A_1_eq] <;> try rfl

theorem rs3_step (c : Dev nD) (n : ℕ) (h : n + 1 < cfg3.N) (hne : ¬(n + 1) % 4 = 0) :
    (outsAt3 V c (n + 1) h).2.2 = k3_pay4 (rb3 V c (n + 1) h) (outsAt3 V c n (Nat.lt_of_succ_lt h)).2.2 := by
  by_cases h1 : (n + 1) % 4 = 3
  · have e := outsAt3_C V c ⟨n + 1, h⟩ hne h1
    rw [(e : outsAt3 V c (n + 1) h = _)]; unfold step3_C
    rw [sout3_C_1_eq] <;> try rfl
  · have e := outsAt3_B V c ⟨n + 1, h⟩ hne h1
    rw [(e : outsAt3 V c (n + 1) h = _)]; unfold step3_B
    rw [sout3_B_1_eq] <;> try rfl

/-- At k = 3 the result block is the partial product over the guarded partial sums, both as that point leaves them. -/
theorem out3_last (c : Dev nD) (t : Fin cfg3.N) (h0 : ¬t.val % 4 = 0) (h3 : t.val % 4 = 3) :
    (outsAt3 V c t.val t.isLt).1 = k3_pay5 (outsAt3 V c t.val t.isLt).2.2 (outsAt3 V c t.val t.isLt).2.1 := by
  rw [outsAt3_C V c t h0 h3]; unfold step3_C
  rw [out3_C_2_eq, sout3_C_0_eq, sout3_C_1_eq]

/-- The addend of the step at position n, at an element of the block: the 512 products, and the 512 raw entries. -/
def M3 (c : Dev nD) (n : ℕ) (i : S512x512.Idx) : EReal :=
  if h : n < cfg3.N then ∑ j : Fin 512, rb3 V c n h (ix2 (n0 := 512) (n1 := 512) j (i 0)) * fr3 V c n h (ix2 (n0 := 512) (n1 := 512) j (i 1)) else 0
def Rs3 (c : Dev nD) (n : ℕ) (i : S1x512.Idx) : EReal :=
  if h : n < cfg3.N then ∑ j : Fin 512, rb3 V c n h (ix2 (n0 := 512) (n1 := 512) j (i 1)) else 0

/-- After the step at k the partial product holds the sum of the addends of steps 0 … k of its row block. -/
theorem acc3_sum (c : Dev nD) (t : Fin cfg3.N) (r d : Fin 512) :
    (outsAt3 V c t.val t.isLt).2.1 (ix2 r d) = ∑ s ∈ Finset.range (t.val % 4 + 1), M3 V c (4 * (t.val / 4) + s) (ix2 r d) := by
  have h' : 4 * (t.val / 4) + t.val % 4 < cfg3.N := by rw [Nat.div_add_mod]; exact t.isLt
  have e := Pipeline.eq_accAt_of_mod (fun n h => (outsAt3 V c n h).2.1) 4
    (fun n h => k3_pay3 (rb3 V c n h) (fr3 V c n h) (k3_pay1 (F := Ideal)))
    (fun n h acc => k3_pay3 (rb3 V c n h) (fr3 V c n h) acc)
    (fun n h h0 => acc3_reset V c n h h0) (fun n h hne => acc3_step V c n h hne) (by decide) t.val t.isLt h'
  rw [e]
  have key := Pipeline.accAt_add_apply (N := cfg3.N)
    (fun n h => k3_pay3 (rb3 V c n h) (fr3 V c n h) (k3_pay1 (F := Ideal)))
    (fun n h acc => k3_pay3 (rb3 V c n h) (fr3 V c n h) acc)
    (fun _ => (0 : EReal)) (M3 V c) (4 * (t.val / 4)) 3
    (fun h i => by
      obtain ⟨r, d, rfl⟩ : ∃ (r d : Fin 512), i = ix2 r d := ⟨i 0, i 1, eq_ix2 i⟩
      rw [k3_pay3_at, k3_pay1_at]; simp only [M3, dif_pos h])
    (fun n h acc i _ _ => by
      obtain ⟨r, d, rfl⟩ : ∃ (r d : Fin 512), i = ix2 r d := ⟨i 0, i 1, eq_ix2 i⟩
      rw [k3_pay3_at]; simp only [M3, dif_pos h])
    (t.val % 4) (by omega) h' (ix2 r d)
  rw [key, zero_add]

theorem rs3_sum (c : Dev nD) (t : Fin cfg3.N) (r : Fin 512) :
    (outsAt3 V c t.val t.isLt).2.2 (ix2 0 r) = ∑ s ∈ Finset.range (t.val % 4 + 1), Rs3 V c (4 * (t.val / 4) + s) (ix2 0 r) := by
  have h' : 4 * (t.val / 4) + t.val % 4 < cfg3.N := by rw [Nat.div_add_mod]; exact t.isLt
  have e := Pipeline.eq_accAt_of_mod (fun n h => (outsAt3 V c n h).2.2) 4
    (fun n h => k3_pay4 (rb3 V c n h) (k3_pay2 (F := Ideal)))
    (fun n h rs => k3_pay4 (rb3 V c n h) rs)
    (fun n h h0 => rs3_reset V c n h h0) (fun n h hne => rs3_step V c n h hne) (by decide) t.val t.isLt h'
  rw [e]
  have key := Pipeline.accAt_add_apply (N := cfg3.N)
    (fun n h => k3_pay4 (rb3 V c n h) (k3_pay2 (F := Ideal)))
    (fun n h rs => k3_pay4 (rb3 V c n h) rs)
    (fun _ => (0 : EReal)) (Rs3 V c) (4 * (t.val / 4)) 3
    (fun h i => by
      obtain ⟨z, r, rfl⟩ : ∃ (z : Fin 1) (r : Fin 512), i = ix2 z r := ⟨i 0, i 1, eq_ix2 i⟩
      obtain rfl : z = 0 := Subsingleton.elim _ _
      rw [k3_pay4_at, k3_pay2_at]; simp only [Rs3, dif_pos h])
    (fun n h rs i _ _ => by
      obtain ⟨z, r, rfl⟩ : ∃ (z : Fin 1) (r : Fin 512), i = ix2 z r := ⟨i 0, i 1, eq_ix2 i⟩
      obtain rfl : z = 0 := Subsingleton.elim _ _
      rw [k3_pay4_at]; simp only [Rs3, dif_pos h])
    (t.val % 4) (by omega) h' (ix2 0 r)
  rw [key, zero_add]

/-! ## The whole sums at the last step -/

/-- The addend of step s of row block q, at (r, d), in the arrays: source rows 512·s … 512·s + 511. -/
theorem M3_at (c : Dev nD) (q : ℕ) (hq : q < 4) (s : Fin 4) (r d : Fin 512) :
    M3 V c (4 * q + s.val) (ix2 r d)
      = ∑ j : Fin 512, A3 V c (ix2 (⟨s.val * 512 + j.val, Cert.BlockSums.blk_lt s j⟩ : Fin (4 * 512)) (⟨512 * q + r.val, by have := r.isLt; omega⟩ : Fin 2048))
          * Fc3 V c (ix2 (⟨s.val * 512 + j.val, Cert.BlockSums.blk_lt s j⟩ : Fin (4 * 512)) d) := by
  have hs := s.isLt
  have h : 4 * q + s.val < cfg3.N := by rw [show cfg3.N = 16 from N_3]; omega
  simp only [M3, dif_pos h]
  show ∑ j : Fin 512, rb3 V c (4 * q + s.val) h (ix2 j r) * fr3 V c (4 * q + s.val) h (ix2 j d) = _
  refine Finset.sum_congr rfl fun j _ => ?_
  rw [rblk3_at, fcrows3_at]
  have e1 : rowIx3 ⟨4 * q + s.val, h⟩ r = (⟨512 * q + r.val, by have := r.isLt; omega⟩ : Fin 2048) := Fin.ext (by show 512 * ((4 * q + s.val) / 4) + r.val = 512 * q + r.val; omega)
  have e2 : srcIx3 ⟨4 * q + s.val, h⟩ j = (⟨s.val * 512 + j.val, Cert.BlockSums.blk_lt s j⟩ : Fin (4 * 512)) := Fin.ext (by show 512 * ((4 * q + s.val) % 4) + j.val = s.val * 512 + j.val; omega)
  rw [e1, e2]

theorem Rs3_at (c : Dev nD) (q : ℕ) (hq : q < 4) (s : Fin 4) (r : Fin 512) :
    Rs3 V c (4 * q + s.val) (ix2 0 r)
      = ∑ j : Fin 512, A3 V c (ix2 (⟨s.val * 512 + j.val, Cert.BlockSums.blk_lt s j⟩ : Fin (4 * 512)) (⟨512 * q + r.val, by have := r.isLt; omega⟩ : Fin 2048)) := by
  have hs := s.isLt
  have h : 4 * q + s.val < cfg3.N := by rw [show cfg3.N = 16 from N_3]; omega
  simp only [Rs3, dif_pos h]
  show ∑ j : Fin 512, rb3 V c (4 * q + s.val) h (ix2 j r) = _
  refine Finset.sum_congr rfl fun j _ => ?_
  rw [rblk3_at]
  have e1 : rowIx3 ⟨4 * q + s.val, h⟩ r = (⟨512 * q + r.val, by have := r.isLt; omega⟩ : Fin 2048) := Fin.ext (by show 512 * ((4 * q + s.val) / 4) + r.val = 512 * q + r.val; omega)
  have e2 : srcIx3 ⟨4 * q + s.val, h⟩ j = (⟨s.val * 512 + j.val, Cert.BlockSums.blk_lt s j⟩ : Fin (4 * 512)) := Fin.ext (by show 512 * ((4 * q + s.val) % 4) + j.val = s.val * 512 + j.val; omega)
  rw [e1, e2]

/-- At the last step of a row block the partial product holds the sum over ALL source rows. -/
theorem acc3_full (c : Dev nD) (t : Fin cfg3.N) (h3 : t.val % 4 = 3) (r d : Fin 512) :
    (outsAt3 V c t.val t.isLt).2.1 (ix2 r d) = ∑ s : Fin (2048), A3 V c (ix2 s (rowIx3 t r)) * Fc3 V c (ix2 s d) := by
  have hN := t3_lt t
  rw [acc3_sum, h3, Finset.sum_range]
  rw [show (∑ s : Fin (2048), A3 V c (ix2 s (rowIx3 t r)) * Fc3 V c (ix2 s d))
        = ∑ s : Fin (4 * 512), A3 V c (ix2 s (rowIx3 t r)) * Fc3 V c (ix2 s d) from rfl,
    Cert.BlockSums.sum_blocks 4 512]
  refine Finset.sum_congr rfl fun s _ => ?_
  rw [M3_at V c (t.val / 4) (by omega) s r d]
  rfl

theorem rs3_full (c : Dev nD) (t : Fin cfg3.N) (h3 : t.val % 4 = 3) (r : Fin 512) :
    (outsAt3 V c t.val t.isLt).2.2 (ix2 0 r) = ∑ s : Fin (2048), A3 V c (ix2 s (rowIx3 t r)) := by
  have hN := t3_lt t
  rw [rs3_sum, h3, Finset.sum_range]
  rw [show (∑ s : Fin (2048), A3 V c (ix2 s (rowIx3 t r)))
        = ∑ s : Fin (4 * 512), A3 V c (ix2 s (rowIx3 t r)) from rfl,
    Cert.BlockSums.sum_blocks 4 512]
  refine Finset.sum_congr rfl fun s _ => ?_
  rw [Rs3_at V c (t.val / 4) (by omega) s r]
  rfl

/-! ## The result array -/

/-- Row t, column d of the result: the collection over all source rows through the TRANSPOSED raw array, normalized
    by the guarded sum of the raw array's column t. -/
def G3 (c : Dev nD) : S2048x512.Idx → Elt Ideal .f32 := fun y =>
  Cert.Spec.collectAt (fun t s => A3 V c (ix2 s t)) (fun s d => Fc3 V c (ix2 s d)) (y 0) (y 1)

/-- What the last step of a row block leaves in the result buffer, at (r, d). -/
theorem out3_at (c : Dev nD) (t : Fin cfg3.N) (h3 : t.val % 4 = 3) (r d : Fin 512) :
    (outsAt3 V c t.val t.isLt).1 (ix2 r d) = G3 V c (ix2 (rowIx3 t r) d) := by
  rw [out3_last V c t (by omega) h3, k3_pay5_at, acc3_full V c t h3, rs3_full V c t h3]
  rfl

/-- Where the block of point t sits in the result array. -/
theorem emb3_2 (t : Fin cfg3.N) (r d : Fin 512) :
    ((cfg3.win 2).blk t).view.emb (ix2 r d) = ix2 (rowIx3 t r) d := by
  obtain ⟨-, -, -, -, e4, e5, -⟩ := idx3 t
  funext a; apply Fin.ext
  match a with
  | ⟨0, _⟩ => show win3_2.index t (0 : Fin 2) * 512 + 1 * r.val = 512 * (t.val / 4) + r.val; rw [e4]; omega
  | ⟨1, _⟩ => show win3_2.index t (1 : Fin 2) * 512 + 1 * d.val = d.val; rw [e5]; omega

/-- What a write-back writes is its block of the result. -/
theorem flushed3_eq (c : Dev nD) (t : Fin cfg3.N) (hf : (cfg3.win 2).flush t = true) :
    (dat3 V c).flushed 2 t = ((cfg3.win 2).blk t).view.read (Elt Ideal) (G3 V c) := by
  have h3 : t.val % 4 = 3 := (flush3_2 t).mp hf
  show (cfg3.win 2).cut (grid3.coords t) ((dat3 V c).after 2 t) = _
  rw [after3_2]
  funext y
  obtain ⟨r, d, rfl⟩ : ∃ (r d : Fin 512), y = ix2 r d := ⟨y 0, y 1, eq_ix2 y⟩
  rw [View.read_apply, emb3_2]
  exact out3_at V c t h3 r d

theorem mem_blk3 (t : Fin cfg3.N) (i : S2048x512.Idx) :
    i ∈ ((cfg3.win 2).blk t).view.set ↔ ∀ a : Fin 2, win3_2.index t a * S512x512.size a ≤ (i a).val ∧ (i a).val < win3_2.index t a * S512x512.size a + S512x512.size a := by
  show i ∈ ((View.whole (Pipeline.arrRef spec3 2)).slice (win3_2.rect t)).set ↔ _
  rw [View.set_slice_whole, Rect.mem_set_unit]
  exact Iff.rfl

/-- THE RESULT ARRAY of region 3. -/
theorem final3 (c : Dev nD) : (dat3 (F := Ideal) V c).arrAt 2 cfg3.N = G3 V c :=
  (dat3 V c).arrAt_eq_of_cover 2 (G3 V c) (fun t hf => flushed3_eq V c t hf) fun i => by
    have hi0 : (i 0).val < 2048 := (i 0).isLt
    have hi1 : (i 1).val < 512 := (i 1).isLt
    have hN : 4 * ((i 0).val / 512) + 3 < cfg3.N := by rw [show cfg3.N = 16 from N_3]; omega
    refine ⟨⟨4 * ((i 0).val / 512) + 3, hN⟩, (flush3_2 _).mpr (by show (4 * ((i 0).val / 512) + 3) % 4 = 3; omega), ?_⟩
    rw [mem_blk3]
    obtain ⟨-, -, -, -, e4, e5, -⟩ := idx3 ⟨4 * ((i 0).val / 512) + 3, hN⟩
    intro a
    match a with
    | ⟨0, _⟩ => show win3_2.index _ (0 : Fin 2) * 512 ≤ (i 0).val ∧ (i 0).val < win3_2.index _ (0 : Fin 2) * 512 + 512; rw [e4]; show (4 * ((i 0).val / 512) + 3) / 4 * 512 ≤ _ ∧ _ < (4 * ((i 0).val / 512) + 3) / 4 * 512 + 512; omega
    | ⟨1, _⟩ => show win3_2.index _ (1 : Fin 2) * 512 ≤ (i 1).val ∧ (i 1).val < win3_2.index _ (1 : Fin 2) * 512 + 512; rw [e5]; omega

end Cert.KernelIdeal.Gen

end
-- ==== Proof.KI.V4a.lean ====
/-
  Custom call 4, what each control case leaves, as values: the accumulator after a step is the payload
  "acc + attn_block · fc_rows" of the step's loads, the column of row sums "rs + row sums of attn_block", both from the
  cleared scratch at k = 0 and from what came in otherwise; at the last k the output block is "acc / (rs + ε)" of the
  two just stored. The fc rows of step k are the 512-row slice of the whole fc array at row offset 512·k.
-/
import proofs.«145590_j23742579212572_2_alg».proof.Proof.KI.R4
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0] : Fin 2 → Nat) = fun _ => 0 := funext fun a => by fin_cases a <;> rfl

/-- The 512 fc rows the step at grid coordinates `i` loads. -/
abbrev fcRect4 (i : grid4.Coords) : Rect S2048x512 := Rect.unit (s := S2048x512) (k4_off1 i) S512x512.size (k4_off1_inb i)

theorem sout4_B_0_eq (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i) (x0 : Vec F S512x512 .f32) (x1 : Vec F S2048x512 .f32) (xs0 : Vec F S512x512 .f32) (xs1 : Vec F S512x1 .f32) :
    sout4_B_0 c i arg2 harg2 arg3 harg3 arg4 harg4 arg5 harg5 arg6 harg6 hc0 hc1 x0 x1 xs0 xs1 = k4_pay3 x0 (View.ld x1 (fcRect4 i)) xs0 := by
  unfold sout4_B_0
  rw [View.read_writes_eq_canon _ _ _ (scover4_B_0 c i arg2 harg2 arg3 harg3 arg4 harg4 arg5 harg5 arg6 harg6 hc0 hc1 x0 x1 xs0 xs1)]
  unfold kernelRun4_B
  dsimp only
  rw [View.canon_unit_zero hz4]
  simp only [View.readAt_eq_ld, harg2.read_unread, harg3.read_unread, harg5.read_unread, harg6.read_unread, View.ld_unit_zero (S := S512x512) hz4, View.ld_unit_zero (S := S512x1) hz4]
  try rfl

theorem sout4_B_1_eq (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : ¬cond4_1 i) (x0 : Vec F S512x512 .f32) (x1 : Vec F S2048x512 .f32) (xs0 : Vec F S512x512 .f32) (xs1 : Vec F S512x1 .f32) :
    sout4_B_1 c i arg2 harg2 arg3 harg3 arg4 harg4 arg5 harg5 arg6 harg6 hc0 hc1 x0 x1 xs0 xs1 = k4_pay4 x0 xs1 := by
  unfold sout4_B_1
  rw [View.read_writes_eq_canon _ _ _ (scover4_B_1 c i arg2 harg2 arg3 harg3 arg4 harg4 arg5 harg5 arg6 harg6 hc0 hc1 x0 x1 xs0 xs1)]
  unfold kernelRun4_B
  dsimp only
  rw [View.canon_unit_zero hz4]
  simp only [View.readAt_eq_ld, harg2.read_unread, harg3.read_unread, harg5.read_unread, harg6.read_unread, View.ld_unit_zero (S := S512x512) hz4, View.ld_unit_zero (S := S512x1) hz4]
  try rfl

theorem sout4_C_0_eq (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i) (x0 : Vec F S512x512 .f32) (x1 : Vec F S2048x512 .f32) (xs0 : Vec F S512x512 .f32) (xs1 : Vec F S512x1 .f32) :
    sout4_C_0 c i arg2 harg2 arg3 harg3 arg4 harg4 arg5 harg5 arg6 harg6 hc0 hc1 x0 x1 xs0 xs1 = k4_pay3 x0 (View.ld x1 (fcRect4 i)) xs0 := by
  unfold sout4_C_0
  rw [View.read_writes_eq_canon _ _ _ (scover4_C_0 c i arg2 harg2 arg3 harg3 arg4 harg4 arg5 harg5 arg6 harg6 hc0 hc1 x0 x1 xs0 xs1)]
  unfold kernelRun4_C
  dsimp only
  sl_unfold_words
  rw [View.canon_unit_zero hz4]
  simp only [View.readAt_eq_ld, harg2.read_unread, harg3.read_unread, harg5.read_unread, harg6.read_unread, View.ld_unit_zero (S := S512x512) hz4, View.ld_unit_zero (S := S512x1) hz4]
  try rfl

theorem sout4_C_1_eq (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i) (x0 : Vec F S512x512 .f32) (x1 : Vec F S2048x512 .f32) (xs0 : Vec F S512x512 .f32) (xs1 : Vec F S512x1 .f32) :
    sout4_C_1 c i arg2 harg2 arg3 harg3 arg4 harg4 arg5 harg5 arg6 harg6 hc0 hc1 x0 x1 xs0 xs1 = k4_pay4 x0 xs1 := by
  unfold sout4_C_1
  rw [View.read_writes_eq_canon _ _ _ (scover4_C_1 c i arg2 harg2 arg3 harg3 arg4 harg4 arg5 harg5 arg6 harg6 hc0 hc1 x0 x1 xs0 xs1)]
  unfold kernelRun4_C
  dsimp only
  sl_unfold_words
  rw [View.canon_unit_zero hz4]
  simp only [View.readAt_eq_ld, harg2.read_unread, harg3.read_unread, harg5.read_unread, harg6.read_unread, View.ld_unit_zero (S := S512x512) hz4, View.ld_unit_zero (S := S512x1) hz4]
  try rfl

theorem out4_C_2_eq (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond4_0 i) (hc1 : cond4_1 i) (x0 : Vec F S512x512 .f32) (x1 : Vec F S2048x512 .f32) (xs0 : Vec F S512x512 .f32) (xs1 : Vec F S512x1 .f32) :
    out4_C_2 c i arg2 harg2 arg3 harg3 arg4 harg4 arg5 harg5 arg6 harg6 hc0 hc1 x0 x1 xs0 xs1 = k4_pay5 (k4_pay3 x0 (View.ld x1 (fcRect4 i)) xs0) (k4_pay4 x0 xs1) := by
  unfold out4_C_2
  rw [View.read_writes_eq_canon _ _ _ (cover4_C_2 c i arg2 harg2 arg3 harg3 arg4 harg4 arg5 harg5 arg6 harg6 hc0 hc1 x0 x1 xs0 xs1)]
  unfold kernelRun4_C
  dsimp only
  sl_unfold_words
  rw [View.canon_unit_zero hz4]
  simp only [View.readCov_unit_zero (S := S512x512) _ hz4, View.readCov_unit_zero (S := S512x1) _ hz4]
  simp only [View.readAt_eq_ld, harg2.read_unread, harg3.read_unread, harg5.read_unread, harg6.read_unread, View.ld_unit_zero (S := S512x512) hz4, View.ld_unit_zero (S := S512x1) hz4]
  try rfl

theorem sout4_A_0_eq (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i) (x0 : Vec F S512x512 .f32) (x1 : Vec F S2048x512 .f32) :
    sout4_A_0 c i arg2 harg2 arg3 harg3 arg4 harg4 arg5 harg5 arg6 harg6 hc0 hc1 x0 x1 = k4_pay3 x0 (View.ld x1 (fcRect4 i)) (k4_pay1 (F := F)) := by
  unfold sout4_A_0
  rw [View.read_writes_eq_canon _ _ _ (scover4_A_0 c i arg2 harg2 arg3 harg3 arg4 harg4 arg5 harg5 arg6 harg6 hc0 hc1 x0 x1)]
  unfold kernelRun4_A
  dsimp only
  sl_unfold_words
  rw [View.canon_cons_unit_zero (S := S512x512) hz4, View.readCov_unit_zero (S := S512x512) _ hz4]
  simp only [View.readAt_eq_ld, harg2.read_unread, harg3.read_unread, harg5.read_unread, harg6.read_unread, View.ld_unit_zero (S := S512x512) hz4, View.ld_unit_zero (S := S512x1) hz4]
  try rfl

theorem sout4_A_1_eq (c : Dev nD) (i : grid4.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond4_0 i) (hc1 : ¬cond4_1 i) (x0 : Vec F S512x512 .f32) (x1 : Vec F S2048x512 .f32) :
    sout4_A_1 c i arg2 harg2 arg3 harg3 arg4 harg4 arg5 harg5 arg6 harg6 hc0 hc1 x0 x1 = k4_pay4 x0 (k4_pay2 (F := F)) := by
  unfold sout4_A_1
  rw [View.read_writes_eq_canon _ _ _ (scover4_A_1 c i arg2 harg2 arg3 harg3 arg4 harg4 arg5 harg5 arg6 harg6 hc0 hc1 x0 x1)]
  unfold kernelRun4_A
  dsimp only
  sl_unfold_words
  rw [View.canon_cons_unit_zero (S := S512x1) hz4, View.readCov_unit_zero (S := S512x1) _ hz4]
  simp only [View.readAt_eq_ld, harg2.read_unread, harg3.read_unread, harg5.read_unread, harg6.read_unread, View.ld_unit_zero (S := S512x512) hz4, View.ld_unit_zero (S := S512x1) hz4]
  try rfl

end Cert.KernelIdeal.Gen

end
-- ==== Proof.KI.V4b.lean ====
/-
  Custom call 4, its result array: row t, column d ends at (∑ s, attn t s · fc s d) / ((∑ s, attn t s) + ε) over ALL source
  rows s. The kernel reaches the two sums in four steps of 512 source rows: within output row block i, step k adds
  ∑ j<512 attn (512·i + r) (512·k + j) · fc (512·k + j) d to the accumulator and ∑ j<512 attn (512·i + r) (512·k + j) to
  the row sums, both cleared at k = 0; at k = 3 both hold the whole sums (a sum over 4·512 indices is the sum of its four
  blocks), and that step writes the block of the result back.
-/
import proofs.«145590_j23742579212572_2_alg».proof.Proof.KI.V4a
import proofs.«145590_j23742579212572_2_alg».proof.Proof.KI.Pay
import proofs.«145590_j23742579212572_2_alg».proof.Proof.LibBlockSums
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay
open scoped BigOperators

variable (V : (c : Dev nD) → (b : Ref sig .tc) → Buf (Elt Ideal) ((c : Thread nD τ).loc b))

/-! ## The grid: which blocks a point reads and writes -/

theorem t4_lt (t : Fin cfg4.N) : t.val < 16 := lt_of_lt_of_eq t.isLt (show cfg4.N = 16 from N_4)

/-- Point t = 4·i + k reads attn block (i, k), the whole fc array, fc rows from 512·k, and holds result block (i, 0). -/
theorem idx4 : ∀ t : Fin cfg4.N,
    win4_0.index t (0 : Fin 2) = t.val / 4 ∧ win4_0.index t (1 : Fin 2) = t.val % 4
    ∧ win4_1.index t (0 : Fin 2) = 0 ∧ win4_1.index t (1 : Fin 2) = 0
    ∧ win4_2.index t (0 : Fin 2) = t.val / 4 ∧ win4_2.index t (1 : Fin 2) = 0
    ∧ k4_off1 (grid4.coords t) (0 : Fin 2) = 512 * (t.val % 4) ∧ k4_off1 (grid4.coords t) (1 : Fin 2) = 0 :=
  (by decide +kernel : ∀ t : Fin grid4.N, _)

/-- The attention array and the fc array as the region finds them. -/
abbrev A4 (c : Dev nD) : S2048x2048.Idx → Elt Ideal .f32 := V c (Pipeline.arrRef spec4 0)
abbrev Fc4 (c : Dev nD) : S2048x512.Idx → Elt Ideal .f32 := V c (Pipeline.arrRef spec4 1)

/-- Row r of the row block of point t, and source row j of its step, in the arrays. -/
def rowIx4 (t : Fin cfg4.N) (r : Fin 512) : Fin 2048 := ⟨512 * (t.val / 4) + r.val, by have := t4_lt t; have := r.isLt; omega⟩
def srcIx4 (t : Fin cfg4.N) (j : Fin 512) : Fin (2048) := ⟨512 * (t.val % 4) + j.val, by have := j.isLt; omega⟩

/-- The attention block and the fc rows of the step at position n. -/
abbrev ab4 (c : Dev nD) (n : ℕ) (h : n < cfg4.N) : Vec Ideal S512x512 .f32 := iblk4 V c 0 ⟨n, h⟩
abbrev fr4 (c : Dev nD) (n : ℕ) (h : n < cfg4.N) : Vec Ideal S512x512 .f32 :=
  View.ld (iblk4 V c 1 ⟨n, h⟩ : Vec Ideal S2048x512 .f32) (fcRect4 (grid4.coords ⟨n, h⟩))

/-- The attention block of the point at position n, at (r, j). -/
theorem ablk4_at (c : Dev nD) (n : ℕ) (h : n < cfg4.N) (r j : Fin 512) :
    ab4 V c n h (ix2 r j) = A4 V c (ix2 (rowIx4 ⟨n, h⟩ r) (srcIx4 ⟨n, h⟩ j)) := by
  have e0 : win4_0.index ⟨n, h⟩ (0 : Fin 2) = n / 4 := (idx4 ⟨n, h⟩).1
  have e1 : win4_0.index ⟨n, h⟩ (1 : Fin 2) = n % 4 := (idx4 ⟨n, h⟩).2.1
  show (iblk4 V c 0 ⟨n, h⟩ : Vec Ideal S512x512 .f32) (ix2 r j) = _
  unfold iblk4
  rw [View.read_apply]
  show V c (Pipeline.arrRef spec4 0) _ = V c (Pipeline.arrRef spec4 0) _
  refine congrArg _ ?_
  funext a; apply Fin.ext
  match a with
  | ⟨0, _⟩ => show win4_0.index ⟨n, h⟩ (0 : Fin 2) * 512 + 1 * r.val = 512 * (n / 4) + r.val; rw [e0]; omega
  | ⟨1, _⟩ => show win4_0.index ⟨n, h⟩ (1 : Fin 2) * 512 + 1 * j.val = 512 * (n % 4) + j.val; rw [e1]; omega

/-- The fc rows the step of point t loads, at (j, d): rows from 512·k of the whole fc array. -/
theorem fcrows4_at (c : Dev nD) (n : ℕ) (h : n < cfg4.N) (j d : Fin 512) :
    fr4 V c n h (ix2 j d) = Fc4 V c (ix2 (srcIx4 ⟨n, h⟩ j) d) := by
  have e2 : win4_1.index ⟨n, h⟩ (0 : Fin 2) = 0 := (idx4 ⟨n, h⟩).2.2.1
  have e3 : win4_1.index ⟨n, h⟩ (1 : Fin 2) = 0 := (idx4 ⟨n, h⟩).2.2.2.1
  have e6 : k4_off1 (grid4.coords ⟨n, h⟩) (0 : Fin 2) = 512 * (n % 4) := (idx4 ⟨n, h⟩).2.2.2.2.2.2.1
  have e7 : k4_off1 (grid4.coords ⟨n, h⟩) (1 : Fin 2) = 0 := (idx4 ⟨n, h⟩).2.2.2.2.2.2.2
  show View.ld (iblk4 V c 1 ⟨n, h⟩ : Vec Ideal S2048x512 .f32) (fcRect4 (grid4.coords ⟨n, h⟩)) (ix2 j d) = _
  unfold iblk4
  show (((cfg4.win 1).blk ⟨n, h⟩).view.read (Elt Ideal) (V c (Pipeline.arrRef spec4 1))) ((fcRect4 (grid4.coords ⟨n, h⟩)).idx (ix2 j d)) = _
  rw [View.read_apply]
  show V c (Pipeline.arrRef spec4 1) _ = V c (Pipeline.arrRef spec4 1) _
  refine congrArg _ ?_
  funext a; apply Fin.ext
  match a with
  | ⟨0, _⟩ => show win4_1.index ⟨n, h⟩ (0 : Fin 2) * 2048 + 1 * (k4_off1 (grid4.coords ⟨n, h⟩) (0 : Fin 2) + 1 * j.val) = 512 * (n % 4) + j.val; rw [e2, e6]; omega
  | ⟨1, _⟩ => show win4_1.index ⟨n, h⟩ (1 : Fin 2) * 512 + 1 * (k4_off1 (grid4.coords ⟨n, h⟩) (1 : Fin 2) + 1 * d.val) = d.val; rw [e3, e7]; omega

/-! ## The two accumulators, point by point -/

/-- At k = 0 the accumulator is the step's product added to the cleared block. -/
theorem acc4_reset (c : Dev nD) (n : ℕ) (h : n < cfg4.N) (h0 : n % 4 = 0) :
    (outsAt4 V c n h).2.1 = k4_pay3 (ab4 V c n h) (fr4 V c n h) (k4_pay1 (F := Ideal)) := by
  have e := outsAt4_A V c ⟨n, h⟩ h0 (by dsimp only; omega)
  rw [(e : outsAt4 V c n h = _), sout4_A_0_eq] <;> try rfl

/-- At every other k it is the step's product added to what the point before left. -/
theorem acc4_step (c : Dev nD) (n : ℕ) (h : n + 1 < cfg4.N) (hne : ¬(n + 1) % 4 = 0) :
    (outsAt4 V c (n + 1) h).2.1 = k4_pay3 (ab4 V c (n + 1) h) (fr4 V c (n + 1) h) (outsAt4 V c n (Nat.lt_of_succ_lt h)).2.1 := by
  by_cases h1 : (n + 1) % 4 = 3
  · have e := outsAt4_C V c ⟨n + 1, h⟩ hne h1
    rw [(e : outsAt4 V c (n + 1) h = _), sout4_C_0_eq] <;> try rfl
  · have e := outsAt4_B V c ⟨n + 1, h⟩ hne h1
    rw [(e : outsAt4 V c (n + 1) h = _), sout4_B_0_eq] <;> try rfl

/-- The same for the column of row sums. -/
theorem rs4_reset (c : Dev nD) (n : ℕ) (h : n < cfg4.N) (h0 : n % 4 = 0) :
    (outsAt4 V c n h).2.2 = k4_pay4 (ab4 V c n h) (k4_pay2 (F := Ideal)) := by
  have e := outsAt4_A V c ⟨n, h⟩ h0 (by dsimp only; omega)
  rw [(e : outsAt4 V c n h = _), sout4_A_1_eq] <;> try rfl

theorem rs4_step (c : Dev nD) (n : ℕ) (h : n + 1 < cfg4.N) (hne : ¬(n + 1) % 4 = 0) :
    (outsAt4 V c (n + 1) h).2.2 = k4_pay4 (ab4 V c (n + 1) h) (outsAt4 V c n (Nat.lt_of_succ_lt h)).2.2 := by
  by_cases h1 : (n + 1) % 4 = 3
  · have e := outsAt4_C V c ⟨n + 1, h⟩ hne h1
    rw [(e : outsAt4 V c (n + 1) h = _), sout4_C_1_eq] <;> try rfl
  · have e := outsAt4_B V c ⟨n + 1, h⟩ hne h1
    rw [(e : outsAt4 V c (n + 1) h = _), sout4_B_1_eq] <;> try rfl

/-- At k = 3 the output block is the accumulator over the guarded row sums, both as that point leaves them. -/
theorem out4_last (c : Dev nD) (t : Fin cfg4.N) (h0 : ¬t.val % 4 = 0) (h3 : t.val % 4 = 3) :
    (outsAt4 V c t.val t.isLt).1 = k4_pay5 (outsAt4 V c t.val t.isLt).2.1 (outsAt4 V c t.val t.isLt).2.2 := by
  rw [outsAt4_C V c t h0 h3]
  rw [out4_C_2_eq, sout4_C_0_eq, sout4_C_1_eq]

/-- The addend of the step at position n, at an element of the block: the 512 products, and the 512 attention entries. -/
def M4 (c : Dev nD) (n : ℕ) (i : S512x512.Idx) : EReal :=
  if h : n < cfg4.N then ∑ j : Fin 512, ab4 V c n h (ix2 (n0 := 512) (n1 := 512) (i 0) j) * fr4 V c n h (ix2 (n0 := 512) (n1 := 512) j (i 1)) else 0
def R4 (c : Dev nD) (n : ℕ) (i : S512x1.Idx) : EReal :=
  if h : n < cfg4.N then ∑ j : Fin 512, ab4 V c n h (ix2 (n0 := 512) (n1 := 512) (i 0) j) else 0

/-- After the step at k the accumulator holds the sum of the addends of steps 0 … k of its row block. -/
theorem acc4_sum (c : Dev nD) (t : Fin cfg4.N) (r d : Fin 512) :
    (outsAt4 V c t.val t.isLt).2.1 (ix2 r d) = ∑ s ∈ Finset.range (t.val % 4 + 1), M4 V c (4 * (t.val / 4) + s) (ix2 r d) := by
  have h' : 4 * (t.val / 4) + t.val % 4 < cfg4.N := by rw [Nat.div_add_mod]; exact t.isLt
  have e := Pipeline.eq_accAt_of_mod (fun n h => (outsAt4 V c n h).2.1) 4
    (fun n h => k4_pay3 (ab4 V c n h) (fr4 V c n h) (k4_pay1 (F := Ideal)))
    (fun n h acc => k4_pay3 (ab4 V c n h) (fr4 V c n h) acc)
    (fun n h h0 => acc4_reset V c n h h0) (fun n h hne => acc4_step V c n h hne) (by decide) t.val t.isLt h'
  rw [e]
  have key := Pipeline.accAt_add_apply (N := cfg4.N)
    (fun n h => k4_pay3 (ab4 V c n h) (fr4 V c n h) (k4_pay1 (F := Ideal)))
    (fun n h acc => k4_pay3 (ab4 V c n h) (fr4 V c n h) acc)
    (fun _ => (0 : EReal)) (M4 V c) (4 * (t.val / 4)) 3
    (fun h i => by
      obtain ⟨r, d, rfl⟩ : ∃ (r d : Fin 512), i = ix2 r d := ⟨i 0, i 1, eq_ix2 i⟩
      rw [k4_pay3_at, k4_pay1_at]; simp only [M4, dif_pos h])
    (fun n h acc i _ _ => by
      obtain ⟨r, d, rfl⟩ : ∃ (r d : Fin 512), i = ix2 r d := ⟨i 0, i 1, eq_ix2 i⟩
      rw [k4_pay3_at]; simp only [M4, dif_pos h])
    (t.val % 4) (by omega) h' (ix2 r d)
  rw [key, zero_add]

theorem rs4_sum (c : Dev nD) (t : Fin cfg4.N) (r : Fin 512) :
    (outsAt4 V c t.val t.isLt).2.2 (ix2 r 0) = ∑ s ∈ Finset.range (t.val % 4 + 1), R4 V c (4 * (t.val / 4) + s) (ix2 r 0) := by
  have h' : 4 * (t.val / 4) + t.val % 4 < cfg4.N := by rw [Nat.div_add_mod]; exact t.isLt
  have e := Pipeline.eq_accAt_of_mod (fun n h => (outsAt4 V c n h).2.2) 4
    (fun n h => k4_pay4 (ab4 V c n h) (k4_pay2 (F := Ideal)))
    (fun n h rs => k4_pay4 (ab4 V c n h) rs)
    (fun n h h0 => rs4_reset V c n h h0) (fun n h hne => rs4_step V c n h hne) (by decide) t.val t.isLt h'
  rw [e]
  have key := Pipeline.accAt_add_apply (N := cfg4.N)
    (fun n h => k4_pay4 (ab4 V c n h) (k4_pay2 (F := Ideal)))
    (fun n h rs => k4_pay4 (ab4 V c n h) rs)
    (fun _ => (0 : EReal)) (R4 V c) (4 * (t.val / 4)) 3
    (fun h i => by
      obtain ⟨r, z, rfl⟩ : ∃ (r : Fin 512) (z : Fin 1), i = ix2 r z := ⟨i 0, i 1, eq_ix2 i⟩
      obtain rfl : z = 0 := Subsingleton.elim _ _
      rw [k4_pay4_at, k4_pay2_at]; simp only [R4, dif_pos h])
    (fun n h rs i _ _ => by
      obtain ⟨r, z, rfl⟩ : ∃ (r : Fin 512) (z : Fin 1), i = ix2 r z := ⟨i 0, i 1, eq_ix2 i⟩
      obtain rfl : z = 0 := Subsingleton.elim _ _
      rw [k4_pay4_at]; simp only [R4, dif_pos h])
    (t.val % 4) (by omega) h' (ix2 r 0)
  rw [key, zero_add]

/-! ## The whole sums at the last step -/

/-- The addend of step s of row block q, at (r, d), in the arrays: source rows 512·s … 512·s + 511. -/
theorem M4_at (c : Dev nD) (q : ℕ) (hq : q < 4) (s : Fin 4) (r d : Fin 512) :
    M4 V c (4 * q + s.val) (ix2 r d)
      = ∑ j : Fin 512, A4 V c (ix2 (⟨512 * q + r.val, by have := r.isLt; omega⟩ : Fin 2048) (⟨s.val * 512 + j.val, Cert.BlockSums.blk_lt s j⟩ : Fin (4 * 512)))
          * Fc4 V c (ix2 (⟨s.val * 512 + j.val, Cert.BlockSums.blk_lt s j⟩ : Fin (4 * 512)) d) := by
  have hs := s.isLt
  have h : 4 * q + s.val < cfg4.N := by rw [show cfg4.N = 16 from N_4]; omega
  simp only [M4, dif_pos h]
  show ∑ j : Fin 512, ab4 V c (4 * q + s.val) h (ix2 r j) * fr4 V c (4 * q + s.val) h (ix2 j d) = _
  refine Finset.sum_congr rfl fun j _ => ?_
  rw [ablk4_at, fcrows4_at]
  have e1 : rowIx4 ⟨4 * q + s.val, h⟩ r = (⟨512 * q + r.val, by have := r.isLt; omega⟩ : Fin 2048) := Fin.ext (by show 512 * ((4 * q + s.val) / 4) + r.val = 512 * q + r.val; omega)
  have e2 : srcIx4 ⟨4 * q + s.val, h⟩ j = (⟨s.val * 512 + j.val, Cert.BlockSums.blk_lt s j⟩ : Fin (4 * 512)) := Fin.ext (by show 512 * ((4 * q + s.val) % 4) + j.val = s.val * 512 + j.val; omega)
  rw [e1, e2]

theorem R4_at (c : Dev nD) (q : ℕ) (hq : q < 4) (s : Fin 4) (r : Fin 512) :
    R4 V c (4 * q + s.val) (ix2 r 0)
      = ∑ j : Fin 512, A4 V c (ix2 (⟨512 * q + r.val, by have := r.isLt; omega⟩ : Fin 2048) (⟨s.val * 512 + j.val, Cert.BlockSums.blk_lt s j⟩ : Fin (4 * 512))) := by
  have hs := s.isLt
  have h : 4 * q + s.val < cfg4.N := by rw [show cfg4.N = 16 from N_4]; omega
  simp only [R4, dif_pos h]
  show ∑ j : Fin 512, ab4 V c (4 * q + s.val) h (ix2 r j) = _
  refine Finset.sum_congr rfl fun j _ => ?_
  rw [ablk4_at]
  have e1 : rowIx4 ⟨4 * q + s.val, h⟩ r = (⟨512 * q + r.val, by have := r.isLt; omega⟩ : Fin 2048) := Fin.ext (by show 512 * ((4 * q + s.val) / 4) + r.val = 512 * q + r.val; omega)
  have e2 : srcIx4 ⟨4 * q + s.val, h⟩ j = (⟨s.val * 512 + j.val, Cert.BlockSums.blk_lt s j⟩ : Fin (4 * 512)) := Fin.ext (by show 512 * ((4 * q + s.val) % 4) + j.val = s.val * 512 + j.val; omega)
  rw [e1, e2]

/-- At the last step of a row block the accumulator holds the sum over ALL source rows. -/
theorem acc4_full (c : Dev nD) (t : Fin cfg4.N) (h3 : t.val % 4 = 3) (r d : Fin 512) :
    (outsAt4 V c t.val t.isLt).2.1 (ix2 r d) = ∑ s : Fin (2048), A4 V c (ix2 (rowIx4 t r) s) * Fc4 V c (ix2 s d) := by
  have hN := t4_lt t
  rw [acc4_sum, h3, Finset.sum_range]
  rw [show (∑ s : Fin (2048), A4 V c (ix2 (rowIx4 t r) s) * Fc4 V c (ix2 s d))
        = ∑ s : Fin (4 * 512), A4 V c (ix2 (rowIx4 t r) s) * Fc4 V c (ix2 s d) from rfl,
    Cert.BlockSums.sum_blocks 4 512]
  refine Finset.sum_congr rfl fun s _ => ?_
  rw [M4_at V c (t.val / 4) (by omega) s r d]
  rfl

theorem rs4_full (c : Dev nD) (t : Fin cfg4.N) (h3 : t.val % 4 = 3) (r : Fin 512) :
    (outsAt4 V c t.val t.isLt).2.2 (ix2 r 0) = ∑ s : Fin (2048), A4 V c (ix2 (rowIx4 t r) s) := by
  have hN := t4_lt t
  rw [rs4_sum, h3, Finset.sum_range]
  rw [show (∑ s : Fin (2048), A4 V c (ix2 (rowIx4 t r) s))
        = ∑ s : Fin (4 * 512), A4 V c (ix2 (rowIx4 t r) s) from rfl,
    Cert.BlockSums.sum_blocks 4 512]
  refine Finset.sum_congr rfl fun s _ => ?_
  rw [R4_at V c (t.val / 4) (by omega) s r]
  rfl

/-! ## The result array -/

/-- Row t, column d of the result: the collected row over all source rows, normalized by the guarded row sum. -/
def G4 (c : Dev nD) : S2048x512.Idx → Elt Ideal .f32 := fun y =>
  Cert.Spec.collectAt (fun t s => A4 V c (ix2 t s)) (fun s d => Fc4 V c (ix2 s d)) (y 0) (y 1)

/-- What the last step of a row block leaves in the output buffer, at (r, d). -/
theorem out4_at (c : Dev nD) (t : Fin cfg4.N) (h3 : t.val % 4 = 3) (r d : Fin 512) :
    (outsAt4 V c t.val t.isLt).1 (ix2 r d) = G4 V c (ix2 (rowIx4 t r) d) := by
  rw [out4_last V c t (by omega) h3, k4_pay5_at, acc4_full V c t h3, rs4_full V c t h3]
  rfl

/-- Where the block of point t sits in the result array. -/
theorem emb4_2 (t : Fin cfg4.N) (r d : Fin 512) :
    ((cfg4.win 2).blk t).view.emb (ix2 r d) = ix2 (rowIx4 t r) d := by
  obtain ⟨-, -, -, -, e4, e5, -⟩ := idx4 t
  funext a; apply Fin.ext
  match a with
  | ⟨0, _⟩ => show win4_2.index t (0 : Fin 2) * 512 + 1 * r.val = 512 * (t.val / 4) + r.val; rw [e4]; omega
  | ⟨1, _⟩ => show win4_2.index t (1 : Fin 2) * 512 + 1 * d.val = d.val; rw [e5]; omega

/-- What a write-back writes is its block of the result. -/
theorem flushed4_eq (c : Dev nD) (t : Fin cfg4.N) (hf : (cfg4.win 2).flush t = true) :
    (dat4 V c).flushed 2 t = ((cfg4.win 2).blk t).view.read (Elt Ideal) (G4 V c) := by
  have h3 : t.val % 4 = 3 := (flush4_2 t).mp hf
  show (cfg4.win 2).cut (grid4.coords t) ((dat4 V c).after 2 t) = _
  rw [after4_2]
  funext y
  obtain ⟨r, d, rfl⟩ : ∃ (r d : Fin 512), y = ix2 r d := ⟨y 0, y 1, eq_ix2 y⟩
  rw [View.read_apply, emb4_2]
  exact out4_at V c t h3 r d

theorem mem_blk4 (t : Fin cfg4.N) (i : S2048x512.Idx) :
    i ∈ ((cfg4.win 2).blk t).view.set ↔ ∀ a : Fin 2, win4_2.index t a * S512x512.size a ≤ (i a).val ∧ (i a).val < win4_2.index t a * S512x512.size a + S512x512.size a := by
  show i ∈ ((View.whole (Pipeline.arrRef spec4 2)).slice (win4_2.rect t)).set ↔ _
  rw [View.set_slice_whole, Rect.mem_set_unit]
  exact Iff.rfl

/-- THE RESULT ARRAY of custom call 4. -/
theorem final4 (c : Dev nD) : (dat4 (F := Ideal) V c).arrAt 2 cfg4.N = G4 V c :=
  (dat4 V c).arrAt_eq_of_cover 2 (G4 V c) (fun t hf => flushed4_eq V c t hf) fun i => by
    have hi0 : (i 0).val < 2048 := (i 0).isLt
    have hi1 : (i 1).val < 512 := (i 1).isLt
    have hN : 4 * ((i 0).val / 512) + 3 < cfg4.N := by rw [show cfg4.N = 16 from N_4]; omega
    refine ⟨⟨4 * ((i 0).val / 512) + 3, hN⟩, (flush4_2 _).mpr (by show (4 * ((i 0).val / 512) + 3) % 4 = 3; omega), ?_⟩
    rw [mem_blk4]
    obtain ⟨-, -, -, -, e4, e5, -⟩ := idx4 ⟨4 * ((i 0).val / 512) + 3, hN⟩
    intro a
    match a with
    | ⟨0, _⟩ => show win4_2.index _ (0 : Fin 2) * 512 ≤ (i 0).val ∧ (i 0).val < win4_2.index _ (0 : Fin 2) * 512 + 512; rw [e4]; show (4 * ((i 0).val / 512) + 3) / 4 * 512 ≤ _ ∧ _ < (4 * ((i 0).val / 512) + 3) / 4 * 512 + 512; omega
    | ⟨1, _⟩ => show win4_2.index _ (1 : Fin 2) * 512 ≤ (i 1).val ∧ (i 1).val < win4_2.index _ (1 : Fin 2) * 512 + 512; rw [e5]; omega

end Cert.KernelIdeal.Gen

end
-- ==== Proof.KI.V5a.lean ====
/-
  Custom call 5, what each control case leaves, as values: the accumulator after a step is the payload
  "acc + attn_block · fc_rows" of the step's loads, the column of row sums "rs + row sums of attn_block", both from the
  cleared scratch at k = 0 and from what came in otherwise; at the last k the output block is "acc / (rs + ε)" of the
  two just stored. The fc rows of step k are the 512-row slice of the whole fc array at row offset 512·k.
-/
import proofs.«145590_j23742579212572_2_alg».proof.Proof.KI.R5
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz5 : (![0, 0] : Fin 2 → Nat) = fun _ => 0 := funext fun a => by fin_cases a <;> rfl

/-- The 512 fc rows the step at grid coordinates `i` loads. -/
abbrev fcRect5 (i : grid5.Coords) : Rect S2048x512 := Rect.unit (s := S2048x512) (k5_off1 i) S512x512.size (k5_off1_inb i)

theorem sout5_B_0_eq (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i) (x0 : Vec F S512x512 .f32) (x1 : Vec F S2048x512 .f32) (xs0 : Vec F S512x512 .f32) (xs1 : Vec F S512x1 .f32) :
    sout5_B_0 c i arg2 harg2 arg3 harg3 arg4 harg4 arg5 harg5 arg6 harg6 hc0 hc1 x0 x1 xs0 xs1 = k5_pay3 x0 (View.ld x1 (fcRect5 i)) xs0 := by
  unfold sout5_B_0
  rw [View.read_writes_eq_canon _ _ _ (scover5_B_0 c i arg2 harg2 arg3 harg3 arg4 harg4 arg5 harg5 arg6 harg6 hc0 hc1 x0 x1 xs0 xs1)]
  unfold kernelRun5_B
  dsimp only
  rw [View.canon_unit_zero hz5]
  simp only [View.readAt_eq_ld, harg2.read_unread, harg3.read_unread, harg5.read_unread, harg6.read_unread, View.ld_unit_zero (S := S512x512) hz5, View.ld_unit_zero (S := S512x1) hz5]
  try rfl

theorem sout5_B_1_eq (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : ¬cond5_1 i) (x0 : Vec F S512x512 .f32) (x1 : Vec F S2048x512 .f32) (xs0 : Vec F S512x512 .f32) (xs1 : Vec F S512x1 .f32) :
    sout5_B_1 c i arg2 harg2 arg3 harg3 arg4 harg4 arg5 harg5 arg6 harg6 hc0 hc1 x0 x1 xs0 xs1 = k5_pay4 x0 xs1 := by
  unfold sout5_B_1
  rw [View.read_writes_eq_canon _ _ _ (scover5_B_1 c i arg2 harg2 arg3 harg3 arg4 harg4 arg5 harg5 arg6 harg6 hc0 hc1 x0 x1 xs0 xs1)]
  unfold kernelRun5_B
  dsimp only
  rw [View.canon_unit_zero hz5]
  simp only [View.readAt_eq_ld, harg2.read_unread, harg3.read_unread, harg5.read_unread, harg6.read_unread, View.ld_unit_zero (S := S512x512) hz5, View.ld_unit_zero (S := S512x1) hz5]
  try rfl

theorem sout5_C_0_eq (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i) (x0 : Vec F S512x512 .f32) (x1 : Vec F S2048x512 .f32) (xs0 : Vec F S512x512 .f32) (xs1 : Vec F S512x1 .f32) :
    sout5_C_0 c i arg2 harg2 arg3 harg3 arg4 harg4 arg5 harg5 arg6 harg6 hc0 hc1 x0 x1 xs0 xs1 = k5_pay3 x0 (View.ld x1 (fcRect5 i)) xs0 := by
  unfold sout5_C_0
  rw [View.read_writes_eq_canon _ _ _ (scover5_C_0 c i arg2 harg2 arg3 harg3 arg4 harg4 arg5 harg5 arg6 harg6 hc0 hc1 x0 x1 xs0 xs1)]
  unfold kernelRun5_C
  dsimp only
  sl_unfold_words
  rw [View.canon_unit_zero hz5]
  simp only [View.readAt_eq_ld, harg2.read_unread, harg3.read_unread, harg5.read_unread, harg6.read_unread, View.ld_unit_zero (S := S512x512) hz5, View.ld_unit_zero (S := S512x1) hz5]
  try rfl

theorem sout5_C_1_eq (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i) (x0 : Vec F S512x512 .f32) (x1 : Vec F S2048x512 .f32) (xs0 : Vec F S512x512 .f32) (xs1 : Vec F S512x1 .f32) :
    sout5_C_1 c i arg2 harg2 arg3 harg3 arg4 harg4 arg5 harg5 arg6 harg6 hc0 hc1 x0 x1 xs0 xs1 = k5_pay4 x0 xs1 := by
  unfold sout5_C_1
  rw [View.read_writes_eq_canon _ _ _ (scover5_C_1 c i arg2 harg2 arg3 harg3 arg4 harg4 arg5 harg5 arg6 harg6 hc0 hc1 x0 x1 xs0 xs1)]
  unfold kernelRun5_C
  dsimp only
  sl_unfold_words
  rw [View.canon_unit_zero hz5]
  simp only [View.readAt_eq_ld, harg2.read_unread, harg3.read_unread, harg5.read_unread, harg6.read_unread, View.ld_unit_zero (S := S512x512) hz5, View.ld_unit_zero (S := S512x1) hz5]
  try rfl

theorem out5_C_2_eq (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond5_0 i) (hc1 : cond5_1 i) (x0 : Vec F S512x512 .f32) (x1 : Vec F S2048x512 .f32) (xs0 : Vec F S512x512 .f32) (xs1 : Vec F S512x1 .f32) :
    out5_C_2 c i arg2 harg2 arg3 harg3 arg4 harg4 arg5 harg5 arg6 harg6 hc0 hc1 x0 x1 xs0 xs1 = k5_pay5 (k5_pay3 x0 (View.ld x1 (fcRect5 i)) xs0) (k5_pay4 x0 xs1) := by
  unfold out5_C_2
  rw [View.read_writes_eq_canon _ _ _ (cover5_C_2 c i arg2 harg2 arg3 harg3 arg4 harg4 arg5 harg5 arg6 harg6 hc0 hc1 x0 x1 xs0 xs1)]
  unfold kernelRun5_C
  dsimp only
  sl_unfold_words
  rw [View.canon_unit_zero hz5]
  simp only [View.readCov_unit_zero (S := S512x512) _ hz5, View.readCov_unit_zero (S := S512x1) _ hz5]
  simp only [View.readAt_eq_ld, harg2.read_unread, harg3.read_unread, harg5.read_unread, harg6.read_unread, View.ld_unit_zero (S := S512x512) hz5, View.ld_unit_zero (S := S512x1) hz5]
  try rfl

theorem sout5_A_0_eq (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i) (x0 : Vec F S512x512 .f32) (x1 : Vec F S2048x512 .f32) :
    sout5_A_0 c i arg2 harg2 arg3 harg3 arg4 harg4 arg5 harg5 arg6 harg6 hc0 hc1 x0 x1 = k5_pay3 x0 (View.ld x1 (fcRect5 i)) (k5_pay1 (F := F)) := by
  unfold sout5_A_0
  rw [View.read_writes_eq_canon _ _ _ (scover5_A_0 c i arg2 harg2 arg3 harg3 arg4 harg4 arg5 harg5 arg6 harg6 hc0 hc1 x0 x1)]
  unfold kernelRun5_A
  dsimp only
  sl_unfold_words
  rw [View.canon_cons_unit_zero (S := S512x512) hz5, View.readCov_unit_zero (S := S512x512) _ hz5]
  simp only [View.readAt_eq_ld, harg2.read_unread, harg3.read_unread, harg5.read_unread, harg6.read_unread, View.ld_unit_zero (S := S512x512) hz5, View.ld_unit_zero (S := S512x1) hz5]
  try rfl

theorem sout5_A_1_eq (c : Dev nD) (i : grid5.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond5_0 i) (hc1 : ¬cond5_1 i) (x0 : Vec F S512x512 .f32) (x1 : Vec F S2048x512 .f32) :
    sout5_A_1 c i arg2 harg2 arg3 harg3 arg4 harg4 arg5 harg5 arg6 harg6 hc0 hc1 x0 x1 = k5_pay4 x0 (k5_pay2 (F := F)) := by
  unfold sout5_A_1
  rw [View.read_writes_eq_canon _ _ _ (scover5_A_1 c i arg2 harg2 arg3 harg3 arg4 harg4 arg5 harg5 arg6 harg6 hc0 hc1 x0 x1)]
  unfold kernelRun5_A
  dsimp only
  sl_unfold_words
  rw [View.canon_cons_unit_zero (S := S512x1) hz5, View.readCov_unit_zero (S := S512x1) _ hz5]
  simp only [View.readAt_eq_ld, harg2.read_unread, harg3.read_unread, harg5.read_unread, harg6.read_unread, View.ld_unit_zero (S := S512x512) hz5, View.ld_unit_zero (S := S512x1) hz5]
  try rfl

end Cert.KernelIdeal.Gen

end
-- ==== Proof.KI.V5b.lean ====
/-
  Custom call 5, its result array: row t, column d ends at (∑ s, attn t s · fc s d) / ((∑ s, attn t s) + ε) over ALL source
  rows s. The kernel reaches the two sums in 4 steps of 512 source rows: within output row block i, step k adds
  ∑ j<512 attn (512·i + r) (512·k + j) · fc (512·k + j) d to the accumulator and ∑ j<512 attn (512·i + r) (512·k + j) to
  the row sums, both cleared at k = 0; at k = 3 both hold the whole sums (a sum over 4·512 indices is the sum of its four
  blocks), and that step writes the block of the result back.
-/
import proofs.«145590_j23742579212572_2_alg».proof.Proof.KI.V5a
import proofs.«145590_j23742579212572_2_alg».proof.Proof.KI.Pay
import proofs.«145590_j23742579212572_2_alg».proof.Proof.LibBlockSums
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay
open scoped BigOperators

variable (V : (c : Dev nD) → (b : Ref sig .tc) → Buf (Elt Ideal) ((c : Thread nD τ).loc b))

/-! ## The grid: which blocks a point reads and writes -/

theorem t5_lt (t : Fin cfg5.N) : t.val < 16 := lt_of_lt_of_eq t.isLt (show cfg5.N = 16 from N_5)

/-- Point t = 4·i + k reads attn block (i, k), the whole fc array, fc rows from 512·k, and holds result block (i, 0). -/
theorem idx5 : ∀ t : Fin cfg5.N,
    win5_0.index t (0 : Fin 2) = t.val / 4 ∧ win5_0.index t (1 : Fin 2) = t.val % 4
    ∧ win5_1.index t (0 : Fin 2) = 0 ∧ win5_1.index t (1 : Fin 2) = 0
    ∧ win5_2.index t (0 : Fin 2) = t.val / 4 ∧ win5_2.index t (1 : Fin 2) = 0
    ∧ k5_off1 (grid5.coords t) (0 : Fin 2) = 512 * (t.val % 4) ∧ k5_off1 (grid5.coords t) (1 : Fin 2) = 0 :=
  (by decide +kernel : ∀ t : Fin grid5.N, _)

/-- The attention array and the fc array as the region finds them. -/
abbrev A5 (c : Dev nD) : S2048x2048.Idx → Elt Ideal .f32 := V c (Pipeline.arrRef spec5 0)
abbrev Fc5 (c : Dev nD) : S2048x512.Idx → Elt Ideal .f32 := V c (Pipeline.arrRef spec5 1)

/-- Row r of the row block of point t, and source row j of its step, in the arrays. -/
def rowIx5 (t : Fin cfg5.N) (r : Fin 512) : Fin 2048 := ⟨512 * (t.val / 4) + r.val, by have := t5_lt t; have := r.isLt; omega⟩
def srcIx5 (t : Fin cfg5.N) (j : Fin 512) : Fin (2048) := ⟨512 * (t.val % 4) + j.val, by have := j.isLt; omega⟩

/-- The attention block and the fc rows of the step at position n. -/
abbrev ab5 (c : Dev nD) (n : ℕ) (h : n < cfg5.N) : Vec Ideal S512x512 .f32 := iblk5 V c 0 ⟨n, h⟩
abbrev fr5 (c : Dev nD) (n : ℕ) (h : n < cfg5.N) : Vec Ideal S512x512 .f32 :=
  View.ld (iblk5 V c 1 ⟨n, h⟩ : Vec Ideal S2048x512 .f32) (fcRect5 (grid5.coords ⟨n, h⟩))

/-- The attention block of the point at position n, at (r, j). -/
theorem ablk5_at (c : Dev nD) (n : ℕ) (h : n < cfg5.N) (r j : Fin 512) :
    ab5 V c n h (ix2 r j) = A5 V c (ix2 (rowIx5 ⟨n, h⟩ r) (srcIx5 ⟨n, h⟩ j)) := by
  have e0 : win5_0.index ⟨n, h⟩ (0 : Fin 2) = n / 4 := (idx5 ⟨n, h⟩).1
  have e1 : win5_0.index ⟨n, h⟩ (1 : Fin 2) = n % 4 := (idx5 ⟨n, h⟩).2.1
  show (iblk5 V c 0 ⟨n, h⟩ : Vec Ideal S512x512 .f32) (ix2 r j) = _
  unfold iblk5
  rw [View.read_apply]
  show V c (Pipeline.arrRef spec5 0) _ = V c (Pipeline.arrRef spec5 0) _
  refine congrArg _ ?_
  funext a; apply Fin.ext
  match a with
  | ⟨0, _⟩ => show win5_0.index ⟨n, h⟩ (0 : Fin 2) * 512 + 1 * r.val = 512 * (n / 4) + r.val; rw [e0]; omega
  | ⟨1, _⟩ => show win5_0.index ⟨n, h⟩ (1 : Fin 2) * 512 + 1 * j.val = 512 * (n % 4) + j.val; rw [e1]; omega

/-- The fc rows the step of point t loads, at (j, d): rows from 512·k of the whole fc array. -/
theorem fcrows5_at (c : Dev nD) (n : ℕ) (h : n < cfg5.N) (j d : Fin 512) :
    fr5 V c n h (ix2 j d) = Fc5 V c (ix2 (srcIx5 ⟨n, h⟩ j) d) := by
  have e2 : win5_1.index ⟨n, h⟩ (0 : Fin 2) = 0 := (idx5 ⟨n, h⟩).2.2.1
  have e3 : win5_1.index ⟨n, h⟩ (1 : Fin 2) = 0 := (idx5 ⟨n, h⟩).2.2.2.1
  have e6 : k5_off1 (grid5.coords ⟨n, h⟩) (0 : Fin 2) = 512 * (n % 4) := (idx5 ⟨n, h⟩).2.2.2.2.2.2.1
  have e7 : k5_off1 (grid5.coords ⟨n, h⟩) (1 : Fin 2) = 0 := (idx5 ⟨n, h⟩).2.2.2.2.2.2.2
  show View.ld (iblk5 V c 1 ⟨n, h⟩ : Vec Ideal S2048x512 .f32) (fcRect5 (grid5.coords ⟨n, h⟩)) (ix2 j d) = _
  unfold iblk5
  show (((cfg5.win 1).blk ⟨n, h⟩).view.read (Elt Ideal) (V c (Pipeline.arrRef spec5 1))) ((fcRect5 (grid5.coords ⟨n, h⟩)).idx (ix2 j d)) = _
  rw [View.read_apply]
  show V c (Pipeline.arrRef spec5 1) _ = V c (Pipeline.arrRef spec5 1) _
  refine congrArg _ ?_
  funext a; apply Fin.ext
  match a with
  | ⟨0, _⟩ => show win5_1.index ⟨n, h⟩ (0 : Fin 2) * 2048 + 1 * (k5_off1 (grid5.coords ⟨n, h⟩) (0 : Fin 2) + 1 * j.val) = 512 * (n % 4) + j.val; rw [e2, e6]; omega
  | ⟨1, _⟩ => show win5_1.index ⟨n, h⟩ (1 : Fin 2) * 512 + 1 * (k5_off1 (grid5.coords ⟨n, h⟩) (1 : Fin 2) + 1 * d.val) = d.val; rw [e3, e7]; omega

/-! ## The two accumulators, point by point -/

/-- At k = 0 the accumulator is the step's product added to the cleared block. -/
theorem acc5_reset (c : Dev nD) (n : ℕ) (h : n < cfg5.N) (h0 : n % 4 = 0) :
    (outsAt5 V c n h).2.1 = k5_pay3 (ab5 V c n h) (fr5 V c n h) (k5_pay1 (F := Ideal)) := by
  have e := outsAt5_A V c ⟨n, h⟩ h0 (by dsimp only; omega)
  rw [(e : outsAt5 V c n h = _), sout5_A_0_eq] <;> try rfl

/-- At every other k it is the step's product added to what the point before left. -/
theorem acc5_step (c : Dev nD) (n : ℕ) (h : n + 1 < cfg5.N) (hne : ¬(n + 1) % 4 = 0) :
    (outsAt5 V c (n + 1) h).2.1 = k5_pay3 (ab5 V c (n + 1) h) (fr5 V c (n + 1) h) (outsAt5 V c n (Nat.lt_of_succ_lt h)).2.1 := by
  by_cases h1 : (n + 1) % 4 = 3
  · have e := outsAt5_C V c ⟨n + 1, h⟩ hne h1
    rw [(e : outsAt5 V c (n + 1) h = _), sout5_C_0_eq] <;> try rfl
  · have e := outsAt5_B V c ⟨n + 1, h⟩ hne h1
    rw [(e : outsAt5 V c (n + 1) h = _), sout5_B_0_eq] <;> try rfl

/-- The same for the column of row sums. -/
theorem rs5_reset (c : Dev nD) (n : ℕ) (h : n < cfg5.N) (h0 : n % 4 = 0) :
    (outsAt5 V c n h).2.2 = k5_pay4 (ab5 V c n h) (k5_pay2 (F := Ideal)) := by
  have e := outsAt5_A V c ⟨n, h⟩ h0 (by dsimp only; omega)
  rw [(e : outsAt5 V c n h = _), sout5_A_1_eq] <;> try rfl

theorem rs5_step (c : Dev nD) (n : ℕ) (h : n + 1 < cfg5.N) (hne : ¬(n + 1) % 4 = 0) :
    (outsAt5 V c (n + 1) h).2.2 = k5_pay4 (ab5 V c (n + 1) h) (outsAt5 V c n (Nat.lt_of_succ_lt h)).2.2 := by
  by_cases h1 : (n + 1) % 4 = 3
  · have e := outsAt5_C V c ⟨n + 1, h⟩ hne h1
    rw [(e : outsAt5 V c (n + 1) h = _), sout5_C_1_eq] <;> try rfl
  · have e := outsAt5_B V c ⟨n + 1, h⟩ hne h1
    rw [(e : outsAt5 V c (n + 1) h = _), sout5_B_1_eq] <;> try rfl

/-- At k = 3 the output block is the accumulator over the guarded row sums, both as that point leaves them. -/
theorem out5_last (c : Dev nD) (t : Fin cfg5.N) (h0 : ¬t.val % 4 = 0) (h3 : t.val % 4 = 3) :
    (outsAt5 V c t.val t.isLt).1 = k5_pay5 (outsAt5 V c t.val t.isLt).2.1 (outsAt5 V c t.val t.isLt).2.2 := by
  rw [outsAt5_C V c t h0 h3]
  rw [out5_C_2_eq, sout5_C_0_eq, sout5_C_1_eq]

/-- The addend of the step at position n, at an element of the block: the 512 products, and the 512 attention entries. -/
def M5 (c : Dev nD) (n : ℕ) (i : S512x512.Idx) : EReal :=
  if h : n < cfg5.N then ∑ j : Fin 512, ab5 V c n h (ix2 (n0 := 512) (n1 := 512) (i 0) j) * fr5 V c n h (ix2 (n0 := 512) (n1 := 512) j (i 1)) else 0
def R5 (c : Dev nD) (n : ℕ) (i : S512x1.Idx) : EReal :=
  if h : n < cfg5.N then ∑ j : Fin 512, ab5 V c n h (ix2 (n0 := 512) (n1 := 512) (i 0) j) else 0

/-- After the step at k the accumulator holds the sum of the addends of steps 0 … k of its row block. -/
theorem acc5_sum (c : Dev nD) (t : Fin cfg5.N) (r d : Fin 512) :
    (outsAt5 V c t.val t.isLt).2.1 (ix2 r d) = ∑ s ∈ Finset.range (t.val % 4 + 1), M5 V c (4 * (t.val / 4) + s) (ix2 r d) := by
  have h' : 4 * (t.val / 4) + t.val % 4 < cfg5.N := by rw [Nat.div_add_mod]; exact t.isLt
  have e := Pipeline.eq_accAt_of_mod (fun n h => (outsAt5 V c n h).2.1) 4
    (fun n h => k5_pay3 (ab5 V c n h) (fr5 V c n h) (k5_pay1 (F := Ideal)))
    (fun n h acc => k5_pay3 (ab5 V c n h) (fr5 V c n h) acc)
    (fun n h h0 => acc5_reset V c n h h0) (fun n h hne => acc5_step V c n h hne) (by decide) t.val t.isLt h'
  rw [e]
  have key := Pipeline.accAt_add_apply (N := cfg5.N)
    (fun n h => k5_pay3 (ab5 V c n h) (fr5 V c n h) (k5_pay1 (F := Ideal)))
    (fun n h acc => k5_pay3 (ab5 V c n h) (fr5 V c n h) acc)
    (fun _ => (0 : EReal)) (M5 V c) (4 * (t.val / 4)) 3
    (fun h i => by
      obtain ⟨r, d, rfl⟩ : ∃ (r d : Fin 512), i = ix2 r d := ⟨i 0, i 1, eq_ix2 i⟩
      rw [k5_pay3_at, k5_pay1_at]; simp only [M5, dif_pos h])
    (fun n h acc i _ _ => by
      obtain ⟨r, d, rfl⟩ : ∃ (r d : Fin 512), i = ix2 r d := ⟨i 0, i 1, eq_ix2 i⟩
      rw [k5_pay3_at]; simp only [M5, dif_pos h])
    (t.val % 4) (by omega) h' (ix2 r d)
  rw [key, zero_add]

theorem rs5_sum (c : Dev nD) (t : Fin cfg5.N) (r : Fin 512) :
    (outsAt5 V c t.val t.isLt).2.2 (ix2 r 0) = ∑ s ∈ Finset.range (t.val % 4 + 1), R5 V c (4 * (t.val / 4) + s) (ix2 r 0) := by
  have h' : 4 * (t.val / 4) + t.val % 4 < cfg5.N := by rw [Nat.div_add_mod]; exact t.isLt
  have e := Pipeline.eq_accAt_of_mod (fun n h => (outsAt5 V c n h).2.2) 4
    (fun n h => k5_pay4 (ab5 V c n h) (k5_pay2 (F := Ideal)))
    (fun n h rs => k5_pay4 (ab5 V c n h) rs)
    (fun n h h0 => rs5_reset V c n h h0) (fun n h hne => rs5_step V c n h hne) (by decide) t.val t.isLt h'
  rw [e]
  have key := Pipeline.accAt_add_apply (N := cfg5.N)
    (fun n h => k5_pay4 (ab5 V c n h) (k5_pay2 (F := Ideal)))
    (fun n h rs => k5_pay4 (ab5 V c n h) rs)
    (fun _ => (0 : EReal)) (R5 V c) (4 * (t.val / 4)) 3
    (fun h i => by
      obtain ⟨r, z, rfl⟩ : ∃ (r : Fin 512) (z : Fin 1), i = ix2 r z := ⟨i 0, i 1, eq_ix2 i⟩
      obtain rfl : z = 0 := Subsingleton.elim _ _
      rw [k5_pay4_at, k5_pay2_at]; simp only [R5, dif_pos h])
    (fun n h rs i _ _ => by
      obtain ⟨r, z, rfl⟩ : ∃ (r : Fin 512) (z : Fin 1), i = ix2 r z := ⟨i 0, i 1, eq_ix2 i⟩
      obtain rfl : z = 0 := Subsingleton.elim _ _
      rw [k5_pay4_at]; simp only [R5, dif_pos h])
    (t.val % 4) (by omega) h' (ix2 r 0)
  rw [key, zero_add]

/-! ## The whole sums at the last step -/

/-- The addend of step s of row block q, at (r, d), in the arrays: source rows 512·s … 512·s + 511. -/
theorem M5_at (c : Dev nD) (q : ℕ) (hq : q < 4) (s : Fin 4) (r d : Fin 512) :
    M5 V c (4 * q + s.val) (ix2 r d)
      = ∑ j : Fin 512, A5 V c (ix2 (⟨512 * q + r.val, by have := r.isLt; omega⟩ : Fin 2048) (⟨s.val * 512 + j.val, Cert.BlockSums.blk_lt s j⟩ : Fin (4 * 512)))
          * Fc5 V c (ix2 (⟨s.val * 512 + j.val, Cert.BlockSums.blk_lt s j⟩ : Fin (4 * 512)) d) := by
  have hs := s.isLt
  have h : 4 * q + s.val < cfg5.N := by rw [show cfg5.N = 16 from N_5]; omega
  simp only [M5, dif_pos h]
  show ∑ j : Fin 512, ab5 V c (4 * q + s.val) h (ix2 r j) * fr5 V c (4 * q + s.val) h (ix2 j d) = _
  refine Finset.sum_congr rfl fun j _ => ?_
  rw [ablk5_at, fcrows5_at]
  have e1 : rowIx5 ⟨4 * q + s.val, h⟩ r = (⟨512 * q + r.val, by have := r.isLt; omega⟩ : Fin 2048) := Fin.ext (by show 512 * ((4 * q + s.val) / 4) + r.val = 512 * q + r.val; omega)
  have e2 : srcIx5 ⟨4 * q + s.val, h⟩ j = (⟨s.val * 512 + j.val, Cert.BlockSums.blk_lt s j⟩ : Fin (4 * 512)) := Fin.ext (by show 512 * ((4 * q + s.val) % 4) + j.val = s.val * 512 + j.val; omega)
  rw [e1, e2]

theorem R5_at (c : Dev nD) (q : ℕ) (hq : q < 4) (s : Fin 4) (r : Fin 512) :
    R5 V c (4 * q + s.val) (ix2 r 0)
      = ∑ j : Fin 512, A5 V c (ix2 (⟨512 * q + r.val, by have := r.isLt; omega⟩ : Fin 2048) (⟨s.val * 512 + j.val, Cert.BlockSums.blk_lt s j⟩ : Fin (4 * 512))) := by
  have hs := s.isLt
  have h : 4 * q + s.val < cfg5.N := by rw [show cfg5.N = 16 from N_5]; omega
  simp only [R5, dif_pos h]
  show ∑ j : Fin 512, ab5 V c (4 * q + s.val) h (ix2 r j) = _
  refine Finset.sum_congr rfl fun j _ => ?_
  rw [ablk5_at]
  have e1 : rowIx5 ⟨4 * q + s.val, h⟩ r = (⟨512 * q + r.val, by have := r.isLt; omega⟩ : Fin 2048) := Fin.ext (by show 512 * ((4 * q + s.val) / 4) + r.val = 512 * q + r.val; omega)
  have e2 : srcIx5 ⟨4 * q + s.val, h⟩ j = (⟨s.val * 512 + j.val, Cert.BlockSums.blk_lt s j⟩ : Fin (4 * 512)) := Fin.ext (by show 512 * ((4 * q + s.val) % 4) + j.val = s.val * 512 + j.val; omega)
  rw [e1, e2]

/-- At the last step of a row block the accumulator holds the sum over ALL source rows. -/
theorem acc5_full (c : Dev nD) (t : Fin cfg5.N) (h3 : t.val % 4 = 3) (r d : Fin 512) :
    (outsAt5 V c t.val t.isLt).2.1 (ix2 r d) = ∑ s : Fin (2048), A5 V c (ix2 (rowIx5 t r) s) * Fc5 V c (ix2 s d) := by
  have hN := t5_lt t
  rw [acc5_sum, h3, Finset.sum_range]
  rw [show (∑ s : Fin (2048), A5 V c (ix2 (rowIx5 t r) s) * Fc5 V c (ix2 s d))
        = ∑ s : Fin (4 * 512), A5 V c (ix2 (rowIx5 t r) s) * Fc5 V c (ix2 s d) from rfl,
    Cert.BlockSums.sum_blocks 4 512]
  refine Finset.sum_congr rfl fun s _ => ?_
  rw [M5_at V c (t.val / 4) (by omega) s r d]
  rfl

theorem rs5_full (c : Dev nD) (t : Fin cfg5.N) (h3 : t.val % 4 = 3) (r : Fin 512) :
    (outsAt5 V c t.val t.isLt).2.2 (ix2 r 0) = ∑ s : Fin (2048), A5 V c (ix2 (rowIx5 t r) s) := by
  have hN := t5_lt t
  rw [rs5_sum, h3, Finset.sum_range]
  rw [show (∑ s : Fin (2048), A5 V c (ix2 (rowIx5 t r) s))
        = ∑ s : Fin (4 * 512), A5 V c (ix2 (rowIx5 t r) s) from rfl,
    Cert.BlockSums.sum_blocks 4 512]
  refine Finset.sum_congr rfl fun s _ => ?_
  rw [R5_at V c (t.val / 4) (by omega) s r]
  rfl

/-! ## The result array -/

/-- Row t, column d of the result: the collected row over all source rows, normalized by the guarded row sum. -/
def G5 (c : Dev nD) : S2048x512.Idx → Elt Ideal .f32 := fun y =>
  Cert.Spec.collectAt (fun t s => A5 V c (ix2 t s)) (fun s d => Fc5 V c (ix2 s d)) (y 0) (y 1)

/-- What the last step of a row block leaves in the output buffer, at (r, d). -/
theorem out5_at (c : Dev nD) (t : Fin cfg5.N) (h3 : t.val % 4 = 3) (r d : Fin 512) :
    (outsAt5 V c t.val t.isLt).1 (ix2 r d) = G5 V c (ix2 (rowIx5 t r) d) := by
  rw [out5_last V c t (by omega) h3, k5_pay5_at, acc5_full V c t h3, rs5_full V c t h3]
  rfl

/-- Where the block of point t sits in the result array. -/
theorem emb5_2 (t : Fin cfg5.N) (r d : Fin 512) :
    ((cfg5.win 2).blk t).view.emb (ix2 r d) = ix2 (rowIx5 t r) d := by
  obtain ⟨-, -, -, -, eRow, eCol, -⟩ := idx5 t
  funext a; apply Fin.ext
  match a with
  | ⟨0, _⟩ => show win5_2.index t (0 : Fin 2) * 512 + 1 * r.val = 512 * (t.val / 4) + r.val; rw [eRow]; omega
  | ⟨1, _⟩ => show win5_2.index t (1 : Fin 2) * 512 + 1 * d.val = d.val; rw [eCol]; omega

/-- What a write-back writes is its block of the result. -/
theorem flushed5_eq (c : Dev nD) (t : Fin cfg5.N) (hf : (cfg5.win 2).flush t = true) :
    (dat5 V c).flushed 2 t = ((cfg5.win 2).blk t).view.read (Elt Ideal) (G5 V c) := by
  have h3 : t.val % 4 = 3 := (flush5_2 t).mp hf
  show (cfg5.win 2).cut (grid5.coords t) ((dat5 V c).after 2 t) = _
  rw [after5_2]
  funext y
  obtain ⟨r, d, rfl⟩ : ∃ (r d : Fin 512), y = ix2 r d := ⟨y 0, y 1, eq_ix2 y⟩
  rw [View.read_apply, emb5_2]
  exact out5_at V c t h3 r d

theorem mem_blk5 (t : Fin cfg5.N) (i : S2048x512.Idx) :
    i ∈ ((cfg5.win 2).blk t).view.set ↔ ∀ a : Fin 2, win5_2.index t a * S512x512.size a ≤ (i a).val ∧ (i a).val < win5_2.index t a * S512x512.size a + S512x512.size a := by
  show i ∈ ((View.whole (Pipeline.arrRef spec5 2)).slice (win5_2.rect t)).set ↔ _
  rw [View.set_slice_whole, Rect.mem_set_unit]
  exact Iff.rfl

/-- THE RESULT ARRAY of custom call 5. -/
theorem final5 (c : Dev nD) : (dat5 (F := Ideal) V c).arrAt 2 cfg5.N = G5 V c :=
  (dat5 V c).arrAt_eq_of_cover 2 (G5 V c) (fun t hf => flushed5_eq V c t hf) fun i => by
    have hi0 : (i 0).val < 2048 := (i 0).isLt
    have hi1 : (i 1).val < 512 := (i 1).isLt
    have hN : 4 * ((i 0).val / 512) + 3 < cfg5.N := by rw [show cfg5.N = 16 from N_5]; omega
    refine ⟨⟨4 * ((i 0).val / 512) + 3, hN⟩, (flush5_2 _).mpr (by show (4 * ((i 0).val / 512) + 3) % 4 = 3; omega), ?_⟩
    rw [mem_blk5]
    obtain ⟨-, -, -, -, eRow, eCol, -⟩ := idx5 ⟨4 * ((i 0).val / 512) + 3, hN⟩
    intro a
    match a with
    | ⟨0, _⟩ => show win5_2.index _ (0 : Fin 2) * 512 ≤ (i 0).val ∧ (i 0).val < win5_2.index _ (0 : Fin 2) * 512 + 512; rw [eRow]; show (4 * ((i 0).val / 512) + 3) / 4 * 512 ≤ _ ∧ _ < (4 * ((i 0).val / 512) + 3) / 4 * 512 + 512; omega
    | ⟨1, _⟩ => show win5_2.index _ (1 : Fin 2) * 512 ≤ (i 1).val ∧ (i 1).val < win5_2.index _ (1 : Fin 2) * 512 + 512; rw [eCol]; omega

end Cert.KernelIdeal.Gen

end
-- ==== Proof.KI.V6a.lean ====
/-
  Custom call 6, what each control case leaves, as values: the accumulator after a step is the payload
  "acc + attn_block · fc_rows" of the step's loads, the column of row sums "rs + row sums of attn_block", both from the
  cleared scratch at k = 0 and from what came in otherwise; at the last k the output block is "acc / (rs + ε)" of the
  two just stored. The fc rows of step k are the 512-row slice of the whole fc array at row offset 512·k.
-/
import proofs.«145590_j23742579212572_2_alg».proof.Proof.KI.R6
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz6 : (![0, 0] : Fin 2 → Nat) = fun _ => 0 := funext fun a => by fin_cases a <;> rfl

/-- The 512 fc rows the step at grid coordinates `i` loads. -/
abbrev fcRect6 (i : grid6.Coords) : Rect S8192x512 := Rect.unit (s := S8192x512) (k6_off1 i) S512x512.size (k6_off1_inb i)

theorem sout6_B_0_eq (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i) (x0 : Vec F S512x512 .f32) (x1 : Vec F S8192x512 .f32) (xs0 : Vec F S512x512 .f32) (xs1 : Vec F S512x1 .f32) :
    sout6_B_0 c i arg2 harg2 arg3 harg3 arg4 harg4 arg5 harg5 arg6 harg6 hc0 hc1 x0 x1 xs0 xs1 = k6_pay4 x0 (View.ld x1 (fcRect6 i)) xs0 := by
  unfold sout6_B_0
  rw [View.read_writes_eq_canon _ _ _ (scover6_B_0 c i arg2 harg2 arg3 harg3 arg4 harg4 arg5 harg5 arg6 harg6 hc0 hc1 x0 x1 xs0 xs1)]
  unfold kernelRun6_B
  dsimp only
  rw [View.canon_unit_zero hz6]
  simp only [View.readAt_eq_ld, harg2.read_unread, harg3.read_unread, harg5.read_unread, harg6.read_unread, View.ld_unit_zero (S := S512x512) hz6, View.ld_unit_zero (S := S512x1) hz6]
  try rfl

theorem sout6_B_1_eq (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : ¬cond6_1 i) (x0 : Vec F S512x512 .f32) (x1 : Vec F S8192x512 .f32) (xs0 : Vec F S512x512 .f32) (xs1 : Vec F S512x1 .f32) :
    sout6_B_1 c i arg2 harg2 arg3 harg3 arg4 harg4 arg5 harg5 arg6 harg6 hc0 hc1 x0 x1 xs0 xs1 = k6_pay5 x0 xs1 := by
  unfold sout6_B_1
  rw [View.read_writes_eq_canon _ _ _ (scover6_B_1 c i arg2 harg2 arg3 harg3 arg4 harg4 arg5 harg5 arg6 harg6 hc0 hc1 x0 x1 xs0 xs1)]
  unfold kernelRun6_B
  dsimp only
  rw [View.canon_unit_zero hz6]
  simp only [View.readAt_eq_ld, harg2.read_unread, harg3.read_unread, harg5.read_unread, harg6.read_unread, View.ld_unit_zero (S := S512x512) hz6, View.ld_unit_zero (S := S512x1) hz6]
  try rfl

theorem sout6_C_0_eq (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i) (x0 : Vec F S512x512 .f32) (x1 : Vec F S8192x512 .f32) (xs0 : Vec F S512x512 .f32) (xs1 : Vec F S512x1 .f32) :
    sout6_C_0 c i arg2 harg2 arg3 harg3 arg4 harg4 arg5 harg5 arg6 harg6 hc0 hc1 x0 x1 xs0 xs1 = k6_pay4 x0 (View.ld x1 (fcRect6 i)) xs0 := by
  unfold sout6_C_0
  rw [View.read_writes_eq_canon _ _ _ (scover6_C_0 c i arg2 harg2 arg3 harg3 arg4 harg4 arg5 harg5 arg6 harg6 hc0 hc1 x0 x1 xs0 xs1)]
  unfold kernelRun6_C
  dsimp only
  sl_unfold_words
  rw [View.canon_unit_zero hz6]
  simp only [View.readAt_eq_ld, harg2.read_unread, harg3.read_unread, harg5.read_unread, harg6.read_unread, View.ld_unit_zero (S := S512x512) hz6, View.ld_unit_zero (S := S512x1) hz6]
  try rfl

theorem sout6_C_1_eq (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i) (x0 : Vec F S512x512 .f32) (x1 : Vec F S8192x512 .f32) (xs0 : Vec F S512x512 .f32) (xs1 : Vec F S512x1 .f32) :
    sout6_C_1 c i arg2 harg2 arg3 harg3 arg4 harg4 arg5 harg5 arg6 harg6 hc0 hc1 x0 x1 xs0 xs1 = k6_pay5 x0 xs1 := by
  unfold sout6_C_1
  rw [View.read_writes_eq_canon _ _ _ (scover6_C_1 c i arg2 harg2 arg3 harg3 arg4 harg4 arg5 harg5 arg6 harg6 hc0 hc1 x0 x1 xs0 xs1)]
  unfold kernelRun6_C
  dsimp only
  sl_unfold_words
  rw [View.canon_unit_zero hz6]
  simp only [View.readAt_eq_ld, harg2.read_unread, harg3.read_unread, harg5.read_unread, harg6.read_unread, View.ld_unit_zero (S := S512x512) hz6, View.ld_unit_zero (S := S512x1) hz6]
  try rfl

theorem out6_C_2_eq (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond6_0 i) (hc1 : cond6_1 i) (x0 : Vec F S512x512 .f32) (x1 : Vec F S8192x512 .f32) (xs0 : Vec F S512x512 .f32) (xs1 : Vec F S512x1 .f32) :
    out6_C_2 c i arg2 harg2 arg3 harg3 arg4 harg4 arg5 harg5 arg6 harg6 hc0 hc1 x0 x1 xs0 xs1 = k6_pay6 (k6_pay4 x0 (View.ld x1 (fcRect6 i)) xs0) (k6_pay5 x0 xs1) := by
  unfold out6_C_2
  rw [View.read_writes_eq_canon _ _ _ (cover6_C_2 c i arg2 harg2 arg3 harg3 arg4 harg4 arg5 harg5 arg6 harg6 hc0 hc1 x0 x1 xs0 xs1)]
  unfold kernelRun6_C
  dsimp only
  sl_unfold_words
  rw [View.canon_unit_zero hz6]
  simp only [View.readCov_unit_zero (S := S512x512) _ hz6, View.readCov_unit_zero (S := S512x1) _ hz6]
  simp only [View.readAt_eq_ld, harg2.read_unread, harg3.read_unread, harg5.read_unread, harg6.read_unread, View.ld_unit_zero (S := S512x512) hz6, View.ld_unit_zero (S := S512x1) hz6]
  try rfl

theorem sout6_A_0_eq (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i) (x0 : Vec F S512x512 .f32) (x1 : Vec F S8192x512 .f32) :
    sout6_A_0 c i arg2 harg2 arg3 harg3 arg4 harg4 arg5 harg5 arg6 harg6 hc0 hc1 x0 x1 = k6_pay4 x0 (View.ld x1 (fcRect6 i)) (k6_pay1 (F := F)) := by
  unfold sout6_A_0
  rw [View.read_writes_eq_canon _ _ _ (scover6_A_0 c i arg2 harg2 arg3 harg3 arg4 harg4 arg5 harg5 arg6 harg6 hc0 hc1 x0 x1)]
  unfold kernelRun6_A
  dsimp only
  sl_unfold_words
  rw [View.canon_cons_unit_zero (S := S512x512) hz6, View.readCov_unit_zero (S := S512x512) _ hz6]
  simp only [View.readAt_eq_ld, harg2.read_unread, harg3.read_unread, harg5.read_unread, harg6.read_unread, View.ld_unit_zero (S := S512x512) hz6, View.ld_unit_zero (S := S512x1) hz6]
  try rfl

theorem sout6_A_1_eq (c : Dev nD) (i : grid6.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond6_0 i) (hc1 : ¬cond6_1 i) (x0 : Vec F S512x512 .f32) (x1 : Vec F S8192x512 .f32) :
    sout6_A_1 c i arg2 harg2 arg3 harg3 arg4 harg4 arg5 harg5 arg6 harg6 hc0 hc1 x0 x1 = k6_pay5 x0 (k6_pay2 (F := F)) := by
  unfold sout6_A_1
  rw [View.read_writes_eq_canon _ _ _ (scover6_A_1 c i arg2 harg2 arg3 harg3 arg4 harg4 arg5 harg5 arg6 harg6 hc0 hc1 x0 x1)]
  unfold kernelRun6_A
  dsimp only
  sl_unfold_words
  rw [View.canon_cons_unit_zero (S := S512x1) hz6, View.readCov_unit_zero (S := S512x1) _ hz6]
  simp only [View.readAt_eq_ld, harg2.read_unread, harg3.read_unread, harg5.read_unread, harg6.read_unread, View.ld_unit_zero (S := S512x512) hz6, View.ld_unit_zero (S := S512x1) hz6]
  try rfl

end Cert.KernelIdeal.Gen

end
-- ==== Proof.KI.V6b.lean ====
/-
  Custom call 6, its result array: row t, column d ends at (∑ s, attn t s · fc s d) / ((∑ s, attn t s) + ε) over ALL source
  rows s. The kernel reaches the two sums in 16 steps of 512 source rows: within output row block i, step k adds
  ∑ j<512 attn (512·i + r) (512·k + j) · fc (512·k + j) d to the accumulator and ∑ j<512 attn (512·i + r) (512·k + j) to
  the row sums, both cleared at k = 0; at k = 15 both hold the whole sums (a sum over 16·512 indices is the sum of its sixteen
  blocks), and that step writes the block of the result back.
-/
import proofs.«145590_j23742579212572_2_alg».proof.Proof.KI.V6a
import proofs.«145590_j23742579212572_2_alg».proof.Proof.KI.Pay
import proofs.«145590_j23742579212572_2_alg».proof.Proof.LibBlockSums
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay
open scoped BigOperators

variable (V : (c : Dev nD) → (b : Ref sig .tc) → Buf (Elt Ideal) ((c : Thread nD τ).loc b))

/-! ## The grid: which blocks a point reads and writes -/

theorem t6_lt (t : Fin cfg6.N) : t.val < 64 := lt_of_lt_of_eq t.isLt (show cfg6.N = 64 from N_6)

/-- Point t = 16·i + k reads attn block (i, k), the whole fc array, fc rows from 512·k, and holds result block (i, 0). -/
theorem idx6 : ∀ t : Fin cfg6.N,
    win6_0.index t (0 : Fin 2) = t.val / 16 ∧ win6_0.index t (1 : Fin 2) = t.val % 16
    ∧ win6_1.index t (0 : Fin 2) = 0 ∧ win6_1.index t (1 : Fin 2) = 0
    ∧ win6_2.index t (0 : Fin 2) = t.val / 16 ∧ win6_2.index t (1 : Fin 2) = 0
    ∧ k6_off1 (grid6.coords t) (0 : Fin 2) = 512 * (t.val % 16) ∧ k6_off1 (grid6.coords t) (1 : Fin 2) = 0 :=
  (by decide +kernel : ∀ t : Fin grid6.N, _)

/-- The attention array and the fc array as the region finds them. -/
abbrev A6 (c : Dev nD) : S2048x8192.Idx → Elt Ideal .f32 := V c (Pipeline.arrRef spec6 0)
abbrev Fc6 (c : Dev nD) : S8192x512.Idx → Elt Ideal .f32 := V c (Pipeline.arrRef spec6 1)

/-- Row r of the row block of point t, and source row j of its step, in the arrays. -/
def rowIx6 (t : Fin cfg6.N) (r : Fin 512) : Fin 2048 := ⟨512 * (t.val / 16) + r.val, by have := t6_lt t; have := r.isLt; omega⟩
def srcIx6 (t : Fin cfg6.N) (j : Fin 512) : Fin (8192) := ⟨512 * (t.val % 16) + j.val, by have := j.isLt; omega⟩

/-- The attention block and the fc rows of the step at position n. -/
abbrev ab6 (c : Dev nD) (n : ℕ) (h : n < cfg6.N) : Vec Ideal S512x512 .f32 := iblk6 V c 0 ⟨n, h⟩
abbrev fr6 (c : Dev nD) (n : ℕ) (h : n < cfg6.N) : Vec Ideal S512x512 .f32 :=
  View.ld (iblk6 V c 1 ⟨n, h⟩ : Vec Ideal S8192x512 .f32) (fcRect6 (grid6.coords ⟨n, h⟩))

/-- The attention block of the point at position n, at (r, j). -/
theorem ablk6_at (c : Dev nD) (n : ℕ) (h : n < cfg6.N) (r j : Fin 512) :
    ab6 V c n h (ix2 r j) = A6 V c (ix2 (rowIx6 ⟨n, h⟩ r) (srcIx6 ⟨n, h⟩ j)) := by
  have e0 : win6_0.index ⟨n, h⟩ (0 : Fin 2) = n / 16 := (idx6 ⟨n, h⟩).1
  have e1 : win6_0.index ⟨n, h⟩ (1 : Fin 2) = n % 16 := (idx6 ⟨n, h⟩).2.1
  show (iblk6 V c 0 ⟨n, h⟩ : Vec Ideal S512x512 .f32) (ix2 r j) = _
  unfold iblk6
  rw [View.read_apply]
  show V c (Pipeline.arrRef spec6 0) _ = V c (Pipeline.arrRef spec6 0) _
  refine congrArg _ ?_
  funext a; apply Fin.ext
  match a with
  | ⟨0, _⟩ => show win6_0.index ⟨n, h⟩ (0 : Fin 2) * 512 + 1 * r.val = 512 * (n / 16) + r.val; rw [e0]; omega
  | ⟨1, _⟩ => show win6_0.index ⟨n, h⟩ (1 : Fin 2) * 512 + 1 * j.val = 512 * (n % 16) + j.val; rw [e1]; omega

/-- The fc rows the step of point t loads, at (j, d): rows from 512·k of the whole fc array. -/
theorem fcrows6_at (c : Dev nD) (n : ℕ) (h : n < cfg6.N) (j d : Fin 512) :
    fr6 V c n h (ix2 j d) = Fc6 V c (ix2 (srcIx6 ⟨n, h⟩ j) d) := by
  have e2 : win6_1.index ⟨n, h⟩ (0 : Fin 2) = 0 := (idx6 ⟨n, h⟩).2.2.1
  have e3 : win6_1.index ⟨n, h⟩ (1 : Fin 2) = 0 := (idx6 ⟨n, h⟩).2.2.2.1
  have e6 : k6_off1 (grid6.coords ⟨n, h⟩) (0 : Fin 2) = 512 * (n % 16) := (idx6 ⟨n, h⟩).2.2.2.2.2.2.1
  have e7 : k6_off1 (grid6.coords ⟨n, h⟩) (1 : Fin 2) = 0 := (idx6 ⟨n, h⟩).2.2.2.2.2.2.2
  show View.ld (iblk6 V c 1 ⟨n, h⟩ : Vec Ideal S8192x512 .f32) (fcRect6 (grid6.coords ⟨n, h⟩)) (ix2 j d) = _
  unfold iblk6
  show (((cfg6.win 1).blk ⟨n, h⟩).view.read (Elt Ideal) (V c (Pipeline.arrRef spec6 1))) ((fcRect6 (grid6.coords ⟨n, h⟩)).idx (ix2 j d)) = _
  rw [View.read_apply]
  show V c (Pipeline.arrRef spec6 1) _ = V c (Pipeline.arrRef spec6 1) _
  refine congrArg _ ?_
  funext a; apply Fin.ext
  match a with
  | ⟨0, _⟩ => show win6_1.index ⟨n, h⟩ (0 : Fin 2) * 8192 + 1 * (k6_off1 (grid6.coords ⟨n, h⟩) (0 : Fin 2) + 1 * j.val) = 512 * (n % 16) + j.val; rw [e2, e6]; omega
  | ⟨1, _⟩ => show win6_1.index ⟨n, h⟩ (1 : Fin 2) * 512 + 1 * (k6_off1 (grid6.coords ⟨n, h⟩) (1 : Fin 2) + 1 * d.val) = d.val; rw [e3, e7]; omega

/-! ## The two accumulators, point by point -/

/-- At k = 0 the accumulator is the step's product added to the cleared block. -/
theorem acc6_reset (c : Dev nD) (n : ℕ) (h : n < cfg6.N) (h0 : n % 16 = 0) :
    (outsAt6 V c n h).2.1 = k6_pay4 (ab6 V c n h) (fr6 V c n h) (k6_pay1 (F := Ideal)) := by
  have e := outsAt6_A V c ⟨n, h⟩ h0 (by dsimp only; omega)
  rw [(e : outsAt6 V c n h = _), sout6_A_0_eq] <;> try rfl

/-- At every other k it is the step's product added to what the point before left. -/
theorem acc6_step (c : Dev nD) (n : ℕ) (h : n + 1 < cfg6.N) (hne : ¬(n + 1) % 16 = 0) :
    (outsAt6 V c (n + 1) h).2.1 = k6_pay4 (ab6 V c (n + 1) h) (fr6 V c (n + 1) h) (outsAt6 V c n (Nat.lt_of_succ_lt h)).2.1 := by
  by_cases h1 : (n + 1) % 16 = 15
  · have e := outsAt6_C V c ⟨n + 1, h⟩ hne h1
    rw [(e : outsAt6 V c (n + 1) h = _), sout6_C_0_eq] <;> try rfl
  · have e := outsAt6_B V c ⟨n + 1, h⟩ hne h1
    rw [(e : outsAt6 V c (n + 1) h = _), sout6_B_0_eq] <;> try rfl

/-- The same for the column of row sums. -/
theorem rs6_reset (c : Dev nD) (n : ℕ) (h : n < cfg6.N) (h0 : n % 16 = 0) :
    (outsAt6 V c n h).2.2 = k6_pay5 (ab6 V c n h) (k6_pay2 (F := Ideal)) := by
  have e := outsAt6_A V c ⟨n, h⟩ h0 (by dsimp only; omega)
  rw [(e : outsAt6 V c n h = _), sout6_A_1_eq] <;> try rfl

theorem rs6_step (c : Dev nD) (n : ℕ) (h : n + 1 < cfg6.N) (hne : ¬(n + 1) % 16 = 0) :
    (outsAt6 V c (n + 1) h).2.2 = k6_pay5 (ab6 V c (n + 1) h) (outsAt6 V c n (Nat.lt_of_succ_lt h)).2.2 := by
  by_cases h1 : (n + 1) % 16 = 15
  · have e := outsAt6_C V c ⟨n + 1, h⟩ hne h1
    rw [(e : outsAt6 V c (n + 1) h = _), sout6_C_1_eq] <;> try rfl
  · have e := outsAt6_B V c ⟨n + 1, h⟩ hne h1
    rw [(e : outsAt6 V c (n + 1) h = _), sout6_B_1_eq] <;> try rfl

/-- At k = 15 the output block is the accumulator over the guarded row sums, both as that point leaves them. -/
theorem out6_last (c : Dev nD) (t : Fin cfg6.N) (h0 : ¬t.val % 16 = 0) (h3 : t.val % 16 = 15) :
    (outsAt6 V c t.val t.isLt).1 = k6_pay6 (outsAt6 V c t.val t.isLt).2.1 (outsAt6 V c t.val t.isLt).2.2 := by
  rw [outsAt6_C V c t h0 h3]
  rw [out6_C_2_eq, sout6_C_0_eq, sout6_C_1_eq]

/-- The addend of the step at position n, at an element of the block: the 512 products, and the 512 attention entries. -/
def M6 (c : Dev nD) (n : ℕ) (i : S512x512.Idx) : EReal :=
  if h : n < cfg6.N then ∑ j : Fin 512, ab6 V c n h (ix2 (n0 := 512) (n1 := 512) (i 0) j) * fr6 V c n h (ix2 (n0 := 512) (n1 := 512) j (i 1)) else 0
def R6 (c : Dev nD) (n : ℕ) (i : S512x1.Idx) : EReal :=
  if h : n < cfg6.N then ∑ j : Fin 512, ab6 V c n h (ix2 (n0 := 512) (n1 := 512) (i 0) j) else 0

/-- After the step at k the accumulator holds the sum of the addends of steps 0 … k of its row block. -/
theorem acc6_sum (c : Dev nD) (t : Fin cfg6.N) (r d : Fin 512) :
    (outsAt6 V c t.val t.isLt).2.1 (ix2 r d) = ∑ s ∈ Finset.range (t.val % 16 + 1), M6 V c (16 * (t.val / 16) + s) (ix2 r d) := by
  have h' : 16 * (t.val / 16) + t.val % 16 < cfg6.N := by rw [Nat.div_add_mod]; exact t.isLt
  have e := Pipeline.eq_accAt_of_mod (fun n h => (outsAt6 V c n h).2.1) 16
    (fun n h => k6_pay4 (ab6 V c n h) (fr6 V c n h) (k6_pay1 (F := Ideal)))
    (fun n h acc => k6_pay4 (ab6 V c n h) (fr6 V c n h) acc)
    (fun n h h0 => acc6_reset V c n h h0) (fun n h hne => acc6_step V c n h hne) (by decide) t.val t.isLt h'
  rw [e]
  have key := Pipeline.accAt_add_apply (N := cfg6.N)
    (fun n h => k6_pay4 (ab6 V c n h) (fr6 V c n h) (k6_pay1 (F := Ideal)))
    (fun n h acc => k6_pay4 (ab6 V c n h) (fr6 V c n h) acc)
    (fun _ => (0 : EReal)) (M6 V c) (16 * (t.val / 16)) 15
    (fun h i => by
      obtain ⟨r, d, rfl⟩ : ∃ (r d : Fin 512), i = ix2 r d := ⟨i 0, i 1, eq_ix2 i⟩
      rw [k6_pay4_at, k6_pay1_at]; simp only [M6, dif_pos h])
    (fun n h acc i _ _ => by
      obtain ⟨r, d, rfl⟩ : ∃ (r d : Fin 512), i = ix2 r d := ⟨i 0, i 1, eq_ix2 i⟩
      rw [k6_pay4_at]; simp only [M6, dif_pos h])
    (t.val % 16) (by omega) h' (ix2 r d)
  rw [key, zero_add]

theorem rs6_sum (c : Dev nD) (t : Fin cfg6.N) (r : Fin 512) :
    (outsAt6 V c t.val t.isLt).2.2 (ix2 r 0) = ∑ s ∈ Finset.range (t.val % 16 + 1), R6 V c (16 * (t.val / 16) + s) (ix2 r 0) := by
  have h' : 16 * (t.val / 16) + t.val % 16 < cfg6.N := by rw [Nat.div_add_mod]; exact t.isLt
  have e := Pipeline.eq_accAt_of_mod (fun n h => (outsAt6 V c n h).2.2) 16
    (fun n h => k6_pay5 (ab6 V c n h) (k6_pay2 (F := Ideal)))
    (fun n h rs => k6_pay5 (ab6 V c n h) rs)
    (fun n h h0 => rs6_reset V c n h h0) (fun n h hne => rs6_step V c n h hne) (by decide) t.val t.isLt h'
  rw [e]
  have key := Pipeline.accAt_add_apply (N := cfg6.N)
    (fun n h => k6_pay5 (ab6 V c n h) (k6_pay2 (F := Ideal)))
    (fun n h rs => k6_pay5 (ab6 V c n h) rs)
    (fun _ => (0 : EReal)) (R6 V c) (16 * (t.val / 16)) 15
    (fun h i => by
      obtain ⟨r, z, rfl⟩ : ∃ (r : Fin 512) (z : Fin 1), i = ix2 r z := ⟨i 0, i 1, eq_ix2 i⟩
      obtain rfl : z = 0 := Subsingleton.elim _ _
      rw [k6_pay5_at, k6_pay2_at]; simp only [R6, dif_pos h])
    (fun n h rs i _ _ => by
      obtain ⟨r, z, rfl⟩ : ∃ (r : Fin 512) (z : Fin 1), i = ix2 r z := ⟨i 0, i 1, eq_ix2 i⟩
      obtain rfl : z = 0 := Subsingleton.elim _ _
      rw [k6_pay5_at]; simp only [R6, dif_pos h])
    (t.val % 16) (by omega) h' (ix2 r 0)
  rw [key, zero_add]

/-! ## The whole sums at the last step -/

/-- The addend of step s of row block q, at (r, d), in the arrays: source rows 512·s … 512·s + 511. -/
theorem M6_at (c : Dev nD) (q : ℕ) (hq : q < 4) (s : Fin 16) (r d : Fin 512) :
    M6 V c (16 * q + s.val) (ix2 r d)
      = ∑ j : Fin 512, A6 V c (ix2 (⟨512 * q + r.val, by have := r.isLt; omega⟩ : Fin 2048) (⟨s.val * 512 + j.val, Cert.BlockSums.blk_lt s j⟩ : Fin (16 * 512)))
          * Fc6 V c (ix2 (⟨s.val * 512 + j.val, Cert.BlockSums.blk_lt s j⟩ : Fin (16 * 512)) d) := by
  have hs := s.isLt
  have h : 16 * q + s.val < cfg6.N := by rw [show cfg6.N = 64 from N_6]; omega
  simp only [M6, dif_pos h]
  show ∑ j : Fin 512, ab6 V c (16 * q + s.val) h (ix2 r j) * fr6 V c (16 * q + s.val) h (ix2 j d) = _
  refine Finset.sum_congr rfl fun j _ => ?_
  rw [ablk6_at, fcrows6_at]
  have e1 : rowIx6 ⟨16 * q + s.val, h⟩ r = (⟨512 * q + r.val, by have := r.isLt; omega⟩ : Fin 2048) := Fin.ext (by show 512 * ((16 * q + s.val) / 16) + r.val = 512 * q + r.val; omega)
  have e2 : srcIx6 ⟨16 * q + s.val, h⟩ j = (⟨s.val * 512 + j.val, Cert.BlockSums.blk_lt s j⟩ : Fin (16 * 512)) := Fin.ext (by show 512 * ((16 * q + s.val) % 16) + j.val = s.val * 512 + j.val; omega)
  rw [e1, e2]

theorem R6_at (c : Dev nD) (q : ℕ) (hq : q < 4) (s : Fin 16) (r : Fin 512) :
    R6 V c (16 * q + s.val) (ix2 r 0)
      = ∑ j : Fin 512, A6 V c (ix2 (⟨512 * q + r.val, by have := r.isLt; omega⟩ : Fin 2048) (⟨s.val * 512 + j.val, Cert.BlockSums.blk_lt s j⟩ : Fin (16 * 512))) := by
  have hs := s.isLt
  have h : 16 * q + s.val < cfg6.N := by rw [show cfg6.N = 64 from N_6]; omega
  simp only [R6, dif_pos h]
  show ∑ j : Fin 512, ab6 V c (16 * q + s.val) h (ix2 r j) = _
  refine Finset.sum_congr rfl fun j _ => ?_
  rw [ablk6_at]
  have e1 : rowIx6 ⟨16 * q + s.val, h⟩ r = (⟨512 * q + r.val, by have := r.isLt; omega⟩ : Fin 2048) := Fin.ext (by show 512 * ((16 * q + s.val) / 16) + r.val = 512 * q + r.val; omega)
  have e2 : srcIx6 ⟨16 * q + s.val, h⟩ j = (⟨s.val * 512 + j.val, Cert.BlockSums.blk_lt s j⟩ : Fin (16 * 512)) := Fin.ext (by show 512 * ((16 * q + s.val) % 16) + j.val = s.val * 512 + j.val; omega)
  rw [e1, e2]

/-- At the last step of a row block the accumulator holds the sum over ALL source rows. -/
theorem acc6_full (c : Dev nD) (t : Fin cfg6.N) (h3 : t.val % 16 = 15) (r d : Fin 512) :
    (outsAt6 V c t.val t.isLt).2.1 (ix2 r d) = ∑ s : Fin (8192), A6 V c (ix2 (rowIx6 t r) s) * Fc6 V c (ix2 s d) := by
  have hN := t6_lt t
  rw [acc6_sum, h3, Finset.sum_range]
  rw [show (∑ s : Fin (8192), A6 V c (ix2 (rowIx6 t r) s) * Fc6 V c (ix2 s d))
        = ∑ s : Fin (16 * 512), A6 V c (ix2 (rowIx6 t r) s) * Fc6 V c (ix2 s d) from rfl,
    Cert.BlockSums.sum_blocks 16 512]
  refine Finset.sum_congr rfl fun s _ => ?_
  rw [M6_at V c (t.val / 16) (by omega) s r d]
  rfl

theorem rs6_full (c : Dev nD) (t : Fin cfg6.N) (h3 : t.val % 16 = 15) (r : Fin 512) :
    (outsAt6 V c t.val t.isLt).2.2 (ix2 r 0) = ∑ s : Fin (8192), A6 V c (ix2 (rowIx6 t r) s) := by
  have hN := t6_lt t
  rw [rs6_sum, h3, Finset.sum_range]
  rw [show (∑ s : Fin (8192), A6 V c (ix2 (rowIx6 t r) s))
        = ∑ s : Fin (16 * 512), A6 V c (ix2 (rowIx6 t r) s) from rfl,
    Cert.BlockSums.sum_blocks 16 512]
  refine Finset.sum_congr rfl fun s _ => ?_
  rw [R6_at V c (t.val / 16) (by omega) s r]
  rfl

/-! ## The result array -/

/-- Row t, column d of the result: the collected row over all source rows, normalized by the guarded row sum. -/
def G6 (c : Dev nD) : S2048x512.Idx → Elt Ideal .f32 := fun y =>
  Cert.Spec.collectAt (fun t s => A6 V c (ix2 t s)) (fun s d => Fc6 V c (ix2 s d)) (y 0) (y 1)

/-- What the last step of a row block leaves in the output buffer, at (r, d). -/
theorem out6_at (c : Dev nD) (t : Fin cfg6.N) (h3 : t.val % 16 = 15) (r d : Fin 512) :
    (outsAt6 V c t.val t.isLt).1 (ix2 r d) = G6 V c (ix2 (rowIx6 t r) d) := by
  rw [out6_last V c t (by omega) h3, k6_pay6_at, acc6_full V c t h3, rs6_full V c t h3]
  rfl

/-- Where the block of point t sits in the result array. -/
theorem emb6_2 (t : Fin cfg6.N) (r d : Fin 512) :
    ((cfg6.win 2).blk t).view.emb (ix2 r d) = ix2 (rowIx6 t r) d := by
  obtain ⟨-, -, -, -, eRow, eCol, -⟩ := idx6 t
  funext a; apply Fin.ext
  match a with
  | ⟨0, _⟩ => show win6_2.index t (0 : Fin 2) * 512 + 1 * r.val = 512 * (t.val / 16) + r.val; rw [eRow]; omega
  | ⟨1, _⟩ => show win6_2.index t (1 : Fin 2) * 512 + 1 * d.val = d.val; rw [eCol]; omega

/-- What a write-back writes is its block of the result. -/
theorem flushed6_eq (c : Dev nD) (t : Fin cfg6.N) (hf : (cfg6.win 2).flush t = true) :
    (dat6 V c).flushed 2 t = ((cfg6.win 2).blk t).view.read (Elt Ideal) (G6 V c) := by
  have h3 : t.val % 16 = 15 := (flush6_2 t).mp hf
  show (cfg6.win 2).cut (grid6.coords t) ((dat6 V c).after 2 t) = _
  rw [after6_2]
  funext y
  obtain ⟨r, d, rfl⟩ : ∃ (r d : Fin 512), y = ix2 r d := ⟨y 0, y 1, eq_ix2 y⟩
  rw [View.read_apply, emb6_2]
  exact out6_at V c t h3 r d

theorem mem_blk6 (t : Fin cfg6.N) (i : S2048x512.Idx) :
    i ∈ ((cfg6.win 2).blk t).view.set ↔ ∀ a : Fin 2, win6_2.index t a * S512x512.size a ≤ (i a).val ∧ (i a).val < win6_2.index t a * S512x512.size a + S512x512.size a := by
  show i ∈ ((View.whole (Pipeline.arrRef spec6 2)).slice (win6_2.rect t)).set ↔ _
  rw [View.set_slice_whole, Rect.mem_set_unit]
  exact Iff.rfl

/-- THE RESULT ARRAY of custom call 6. -/
theorem final6 (c : Dev nD) : (dat6 (F := Ideal) V c).arrAt 2 cfg6.N = G6 V c :=
  (dat6 V c).arrAt_eq_of_cover 2 (G6 V c) (fun t hf => flushed6_eq V c t hf) fun i => by
    have hi0 : (i 0).val < 2048 := (i 0).isLt
    have hi1 : (i 1).val < 512 := (i 1).isLt
    have hN : 16 * ((i 0).val / 512) + 15 < cfg6.N := by rw [show cfg6.N = 64 from N_6]; omega
    refine ⟨⟨16 * ((i 0).val / 512) + 15, hN⟩, (flush6_2 _).mpr (by show (16 * ((i 0).val / 512) + 15) % 16 = 15; omega), ?_⟩
    rw [mem_blk6]
    obtain ⟨-, -, -, -, eRow, eCol, -⟩ := idx6 ⟨16 * ((i 0).val / 512) + 15, hN⟩
    intro a
    match a with
    | ⟨0, _⟩ => show win6_2.index _ (0 : Fin 2) * 512 ≤ (i 0).val ∧ (i 0).val < win6_2.index _ (0 : Fin 2) * 512 + 512; rw [eRow]; show (16 * ((i 0).val / 512) + 15) / 16 * 512 ≤ _ ∧ _ < (16 * ((i 0).val / 512) + 15) / 16 * 512 + 512; omega
    | ⟨1, _⟩ => show win6_2.index _ (1 : Fin 2) * 512 ≤ (i 1).val ∧ (i 1).val < win6_2.index _ (1 : Fin 2) * 512 + 512; rw [eCol]; omega

end Cert.KernelIdeal.Gen

end
-- ==== Proof.KI.V7a.lean ====
/-
  Custom call 7, what each control case leaves, as values: the accumulator after a step is the payload
  "acc + attn_block · fc_rows" of the step's loads, the column of row sums "rs + row sums of attn_block", both from the
  cleared scratch at k = 0 and from what came in otherwise; at the last k the output block is "acc / (rs + ε)" of the
  two just stored. The fc rows of step k are the 512-row slice of the whole fc array at row offset 512·k.
-/
import proofs.«145590_j23742579212572_2_alg».proof.Proof.KI.R7
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz7 : (![0, 0] : Fin 2 → Nat) = fun _ => 0 := funext fun a => by fin_cases a <;> rfl

/-- The 512 fc rows the step at grid coordinates `i` loads. -/
abbrev fcRect7 (i : grid7.Coords) : Rect S8192x512 := Rect.unit (s := S8192x512) (k7_off1 i) S512x512.size (k7_off1_inb i)

theorem sout7_B_0_eq (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i) (x0 : Vec F S512x512 .f32) (x1 : Vec F S8192x512 .f32) (xs0 : Vec F S512x512 .f32) (xs1 : Vec F S512x1 .f32) :
    sout7_B_0 c i arg2 harg2 arg3 harg3 arg4 harg4 arg5 harg5 arg6 harg6 hc0 hc1 x0 x1 xs0 xs1 = k7_pay4 x0 (View.ld x1 (fcRect7 i)) xs0 := by
  unfold sout7_B_0
  rw [View.read_writes_eq_canon _ _ _ (scover7_B_0 c i arg2 harg2 arg3 harg3 arg4 harg4 arg5 harg5 arg6 harg6 hc0 hc1 x0 x1 xs0 xs1)]
  unfold kernelRun7_B
  dsimp only
  rw [View.canon_unit_zero hz7]
  simp only [View.readAt_eq_ld, harg2.read_unread, harg3.read_unread, harg5.read_unread, harg6.read_unread, View.ld_unit_zero (S := S512x512) hz7, View.ld_unit_zero (S := S512x1) hz7]
  try rfl

theorem sout7_B_1_eq (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : ¬cond7_1 i) (x0 : Vec F S512x512 .f32) (x1 : Vec F S8192x512 .f32) (xs0 : Vec F S512x512 .f32) (xs1 : Vec F S512x1 .f32) :
    sout7_B_1 c i arg2 harg2 arg3 harg3 arg4 harg4 arg5 harg5 arg6 harg6 hc0 hc1 x0 x1 xs0 xs1 = k7_pay5 x0 xs1 := by
  unfold sout7_B_1
  rw [View.read_writes_eq_canon _ _ _ (scover7_B_1 c i arg2 harg2 arg3 harg3 arg4 harg4 arg5 harg5 arg6 harg6 hc0 hc1 x0 x1 xs0 xs1)]
  unfold kernelRun7_B
  dsimp only
  rw [View.canon_unit_zero hz7]
  simp only [View.readAt_eq_ld, harg2.read_unread, harg3.read_unread, harg5.read_unread, harg6.read_unread, View.ld_unit_zero (S := S512x512) hz7, View.ld_unit_zero (S := S512x1) hz7]
  try rfl

theorem sout7_C_0_eq (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i) (x0 : Vec F S512x512 .f32) (x1 : Vec F S8192x512 .f32) (xs0 : Vec F S512x512 .f32) (xs1 : Vec F S512x1 .f32) :
    sout7_C_0 c i arg2 harg2 arg3 harg3 arg4 harg4 arg5 harg5 arg6 harg6 hc0 hc1 x0 x1 xs0 xs1 = k7_pay4 x0 (View.ld x1 (fcRect7 i)) xs0 := by
  unfold sout7_C_0
  rw [View.read_writes_eq_canon _ _ _ (scover7_C_0 c i arg2 harg2 arg3 harg3 arg4 harg4 arg5 harg5 arg6 harg6 hc0 hc1 x0 x1 xs0 xs1)]
  unfold kernelRun7_C
  dsimp only
  sl_unfold_words
  rw [View.canon_unit_zero hz7]
  simp only [View.readAt_eq_ld, harg2.read_unread, harg3.read_unread, harg5.read_unread, harg6.read_unread, View.ld_unit_zero (S := S512x512) hz7, View.ld_unit_zero (S := S512x1) hz7]
  try rfl

theorem sout7_C_1_eq (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i) (x0 : Vec F S512x512 .f32) (x1 : Vec F S8192x512 .f32) (xs0 : Vec F S512x512 .f32) (xs1 : Vec F S512x1 .f32) :
    sout7_C_1 c i arg2 harg2 arg3 harg3 arg4 harg4 arg5 harg5 arg6 harg6 hc0 hc1 x0 x1 xs0 xs1 = k7_pay5 x0 xs1 := by
  unfold sout7_C_1
  rw [View.read_writes_eq_canon _ _ _ (scover7_C_1 c i arg2 harg2 arg3 harg3 arg4 harg4 arg5 harg5 arg6 harg6 hc0 hc1 x0 x1 xs0 xs1)]
  unfold kernelRun7_C
  dsimp only
  sl_unfold_words
  rw [View.canon_unit_zero hz7]
  simp only [View.readAt_eq_ld, harg2.read_unread, harg3.read_unread, harg5.read_unread, harg6.read_unread, View.ld_unit_zero (S := S512x512) hz7, View.ld_unit_zero (S := S512x1) hz7]
  try rfl

theorem out7_C_2_eq (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : ¬cond7_0 i) (hc1 : cond7_1 i) (x0 : Vec F S512x512 .f32) (x1 : Vec F S8192x512 .f32) (xs0 : Vec F S512x512 .f32) (xs1 : Vec F S512x1 .f32) :
    out7_C_2 c i arg2 harg2 arg3 harg3 arg4 harg4 arg5 harg5 arg6 harg6 hc0 hc1 x0 x1 xs0 xs1 = k7_pay6 (k7_pay4 x0 (View.ld x1 (fcRect7 i)) xs0) (k7_pay5 x0 xs1) := by
  unfold out7_C_2
  rw [View.read_writes_eq_canon _ _ _ (cover7_C_2 c i arg2 harg2 arg3 harg3 arg4 harg4 arg5 harg5 arg6 harg6 hc0 hc1 x0 x1 xs0 xs1)]
  unfold kernelRun7_C
  dsimp only
  sl_unfold_words
  rw [View.canon_unit_zero hz7]
  simp only [View.readCov_unit_zero (S := S512x512) _ hz7, View.readCov_unit_zero (S := S512x1) _ hz7]
  simp only [View.readAt_eq_ld, harg2.read_unread, harg3.read_unread, harg5.read_unread, harg6.read_unread, View.ld_unit_zero (S := S512x512) hz7, View.ld_unit_zero (S := S512x1) hz7]
  try rfl

theorem sout7_A_0_eq (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i) (x0 : Vec F S512x512 .f32) (x1 : Vec F S8192x512 .f32) :
    sout7_A_0 c i arg2 harg2 arg3 harg3 arg4 harg4 arg5 harg5 arg6 harg6 hc0 hc1 x0 x1 = k7_pay4 x0 (View.ld x1 (fcRect7 i)) (k7_pay1 (F := F)) := by
  unfold sout7_A_0
  rw [View.read_writes_eq_canon _ _ _ (scover7_A_0 c i arg2 harg2 arg3 harg3 arg4 harg4 arg5 harg5 arg6 harg6 hc0 hc1 x0 x1)]
  unfold kernelRun7_A
  dsimp only
  sl_unfold_words
  rw [View.canon_cons_unit_zero (S := S512x512) hz7, View.readCov_unit_zero (S := S512x512) _ hz7]
  simp only [View.readAt_eq_ld, harg2.read_unread, harg3.read_unread, harg5.read_unread, harg6.read_unread, View.ld_unit_zero (S := S512x512) hz7, View.ld_unit_zero (S := S512x1) hz7]
  try rfl

theorem sout7_A_1_eq (c : Dev nD) (i : grid7.Coords) (arg2 : Memref sig .tc .vmem S512x512 .f32) (harg2 : arg2.IsWhole) (arg3 : Memref sig .tc .vmem S8192x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1 .f32) (harg6 : arg6.IsWhole) (hc0 : cond7_0 i) (hc1 : ¬cond7_1 i) (x0 : Vec F S512x512 .f32) (x1 : Vec F S8192x512 .f32) :
    sout7_A_1 c i arg2 harg2 arg3 harg3 arg4 harg4 arg5 harg5 arg6 harg6 hc0 hc1 x0 x1 = k7_pay5 x0 (k7_pay2 (F := F)) := by
  unfold sout7_A_1
  rw [View.read_writes_eq_canon _ _ _ (scover7_A_1 c i arg2 harg2 arg3 harg3 arg4 harg4 arg5 harg5 arg6 harg6 hc0 hc1 x0 x1)]
  unfold kernelRun7_A
  dsimp only
  sl_unfold_words
  rw [View.canon_cons_unit_zero (S := S512x1) hz7, View.readCov_unit_zero (S := S512x1) _ hz7]
  simp only [View.readAt_eq_ld, harg2.read_unread, harg3.read_unread, harg5.read_unread, harg6.read_unread, View.ld_unit_zero (S := S512x512) hz7, View.ld_unit_zero (S := S512x1) hz7]
  try rfl

end Cert.KernelIdeal.Gen

end
-- ==== Proof.KI.V7b.lean ====
/-
  Custom call 7, its result array: row t, column d ends at (∑ s, attn t s · fc s d) / ((∑ s, attn t s) + ε) over ALL source
  rows s. The kernel reaches the two sums in 16 steps of 512 source rows: within output row block i, step k adds
  ∑ j<512 attn (512·i + r) (512·k + j) · fc (512·k + j) d to the accumulator and ∑ j<512 attn (512·i + r) (512·k + j) to
  the row sums, both cleared at k = 0; at k = 15 both hold the whole sums (a sum over 16·512 indices is the sum of its sixteen
  blocks), and that step writes the block of the result back.
-/
import proofs.«145590_j23742579212572_2_alg».proof.Proof.KI.V7a
import proofs.«145590_j23742579212572_2_alg».proof.Proof.KI.Pay
import proofs.«145590_j23742579212572_2_alg».proof.Proof.LibBlockSums
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay
open scoped BigOperators

variable (V : (c : Dev nD) → (b : Ref sig .tc) → Buf (Elt Ideal) ((c : Thread nD τ).loc b))

/-! ## The grid: which blocks a point reads and writes -/

theorem t7_lt (t : Fin cfg7.N) : t.val < 64 := lt_of_lt_of_eq t.isLt (show cfg7.N = 64 from N_7)

/-- Point t = 16·i + k reads attn block (i, k), the whole fc array, fc rows from 512·k, and holds result block (i, 0). -/
theorem idx7 : ∀ t : Fin cfg7.N,
    win7_0.index t (0 : Fin 2) = t.val / 16 ∧ win7_0.index t (1 : Fin 2) = t.val % 16
    ∧ win7_1.index t (0 : Fin 2) = 0 ∧ win7_1.index t (1 : Fin 2) = 0
    ∧ win7_2.index t (0 : Fin 2) = t.val / 16 ∧ win7_2.index t (1 : Fin 2) = 0
    ∧ k7_off1 (grid7.coords t) (0 : Fin 2) = 512 * (t.val % 16) ∧ k7_off1 (grid7.coords t) (1 : Fin 2) = 0 :=
  (by decide +kernel : ∀ t : Fin grid7.N, _)

/-- The attention array and the fc array as the region finds them. -/
abbrev A7 (c : Dev nD) : S2048x8192.Idx → Elt Ideal .f32 := V c (Pipeline.arrRef spec7 0)
abbrev Fc7 (c : Dev nD) : S8192x512.Idx → Elt Ideal .f32 := V c (Pipeline.arrRef spec7 1)

/-- Row r of the row block of point t, and source row j of its step, in the arrays. -/
def rowIx7 (t : Fin cfg7.N) (r : Fin 512) : Fin 2048 := ⟨512 * (t.val / 16) + r.val, by have := t7_lt t; have := r.isLt; omega⟩
def srcIx7 (t : Fin cfg7.N) (j : Fin 512) : Fin (8192) := ⟨512 * (t.val % 16) + j.val, by have := j.isLt; omega⟩

/-- The attention block and the fc rows of the step at position n. -/
abbrev ab7 (c : Dev nD) (n : ℕ) (h : n < cfg7.N) : Vec Ideal S512x512 .f32 := iblk7 V c 0 ⟨n, h⟩
abbrev fr7 (c : Dev nD) (n : ℕ) (h : n < cfg7.N) : Vec Ideal S512x512 .f32 :=
  View.ld (iblk7 V c 1 ⟨n, h⟩ : Vec Ideal S8192x512 .f32) (fcRect7 (grid7.coords ⟨n, h⟩))

/-- The attention block of the point at position n, at (r, j). -/
theorem ablk7_at (c : Dev nD) (n : ℕ) (h : n < cfg7.N) (r j : Fin 512) :
    ab7 V c n h (ix2 r j) = A7 V c (ix2 (rowIx7 ⟨n, h⟩ r) (srcIx7 ⟨n, h⟩ j)) := by
  have e0 : win7_0.index ⟨n, h⟩ (0 : Fin 2) = n / 16 := (idx7 ⟨n, h⟩).1
  have e1 : win7_0.index ⟨n, h⟩ (1 : Fin 2) = n % 16 := (idx7 ⟨n, h⟩).2.1
  show (iblk7 V c 0 ⟨n, h⟩ : Vec Ideal S512x512 .f32) (ix2 r j) = _
  unfold iblk7
  rw [View.read_apply]
  show V c (Pipeline.arrRef spec7 0) _ = V c (Pipeline.arrRef spec7 0) _
  refine congrArg _ ?_
  funext a; apply Fin.ext
  match a with
  | ⟨0, _⟩ => show win7_0.index ⟨n, h⟩ (0 : Fin 2) * 512 + 1 * r.val = 512 * (n / 16) + r.val; rw [e0]; omega
  | ⟨1, _⟩ => show win7_0.index ⟨n, h⟩ (1 : Fin 2) * 512 + 1 * j.val = 512 * (n % 16) + j.val; rw [e1]; omega

/-- The fc rows the step of point t loads, at (j, d): rows from 512·k of the whole fc array. -/
theorem fcrows7_at (c : Dev nD) (n : ℕ) (h : n < cfg7.N) (j d : Fin 512) :
    fr7 V c n h (ix2 j d) = Fc7 V c (ix2 (srcIx7 ⟨n, h⟩ j) d) := by
  have e2 : win7_1.index ⟨n, h⟩ (0 : Fin 2) = 0 := (idx7 ⟨n, h⟩).2.2.1
  have e3 : win7_1.index ⟨n, h⟩ (1 : Fin 2) = 0 := (idx7 ⟨n, h⟩).2.2.2.1
  have e6 : k7_off1 (grid7.coords ⟨n, h⟩) (0 : Fin 2) = 512 * (n % 16) := (idx7 ⟨n, h⟩).2.2.2.2.2.2.1
  have e7 : k7_off1 (grid7.coords ⟨n, h⟩) (1 : Fin 2) = 0 := (idx7 ⟨n, h⟩).2.2.2.2.2.2.2
  show View.ld (iblk7 V c 1 ⟨n, h⟩ : Vec Ideal S8192x512 .f32) (fcRect7 (grid7.coords ⟨n, h⟩)) (ix2 j d) = _
  unfold iblk7
  show (((cfg7.win 1).blk ⟨n, h⟩).view.read (Elt Ideal) (V c (Pipeline.arrRef spec7 1))) ((fcRect7 (grid7.coords ⟨n, h⟩)).idx (ix2 j d)) = _
  rw [View.read_apply]
  show V c (Pipeline.arrRef spec7 1) _ = V c (Pipeline.arrRef spec7 1) _
  refine congrArg _ ?_
  funext a; apply Fin.ext
  match a with
  | ⟨0, _⟩ => show win7_1.index ⟨n, h⟩ (0 : Fin 2) * 8192 + 1 * (k7_off1 (grid7.coords ⟨n, h⟩) (0 : Fin 2) + 1 * j.val) = 512 * (n % 16) + j.val; rw [e2, e6]; omega
  | ⟨1, _⟩ => show win7_1.index ⟨n, h⟩ (1 : Fin 2) * 512 + 1 * (k7_off1 (grid7.coords ⟨n, h⟩) (1 : Fin 2) + 1 * d.val) = d.val; rw [e3, e7]; omega

/-! ## The two accumulators, point by point -/

/-- At k = 0 the accumulator is the step's product added to the cleared block. -/
theorem acc7_reset (c : Dev nD) (n : ℕ) (h : n < cfg7.N) (h0 : n % 16 = 0) :
    (outsAt7 V c n h).2.1 = k7_pay4 (ab7 V c n h) (fr7 V c n h) (k7_pay1 (F := Ideal)) := by
  have e := outsAt7_A V c ⟨n, h⟩ h0 (by dsimp only; omega)
  rw [(e : outsAt7 V c n h = _), sout7_A_0_eq] <;> try rfl

/-- At every other k it is the step's product added to what the point before left. -/
theorem acc7_step (c : Dev nD) (n : ℕ) (h : n + 1 < cfg7.N) (hne : ¬(n + 1) % 16 = 0) :
    (outsAt7 V c (n + 1) h).2.1 = k7_pay4 (ab7 V c (n + 1) h) (fr7 V c (n + 1) h) (outsAt7 V c n (Nat.lt_of_succ_lt h)).2.1 := by
  by_cases h1 : (n + 1) % 16 = 15
  · have e := outsAt7_C V c ⟨n + 1, h⟩ hne h1
    rw [(e : outsAt7 V c (n + 1) h = _), sout7_C_0_eq] <;> try rfl
  · have e := outsAt7_B V c ⟨n + 1, h⟩ hne h1
    rw [(e : outsAt7 V c (n + 1) h = _), sout7_B_0_eq] <;> try rfl

/-- The same for the column of row sums. -/
theorem rs7_reset (c : Dev nD) (n : ℕ) (h : n < cfg7.N) (h0 : n % 16 = 0) :
    (outsAt7 V c n h).2.2 = k7_pay5 (ab7 V c n h) (k7_pay2 (F := Ideal)) := by
  have e := outsAt7_A V c ⟨n, h⟩ h0 (by dsimp only; omega)
  rw [(e : outsAt7 V c n h = _), sout7_A_1_eq] <;> try rfl

theorem rs7_step (c : Dev nD) (n : ℕ) (h : n + 1 < cfg7.N) (hne : ¬(n + 1) % 16 = 0) :
    (outsAt7 V c (n + 1) h).2.2 = k7_pay5 (ab7 V c (n + 1) h) (outsAt7 V c n (Nat.lt_of_succ_lt h)).2.2 := by
  by_cases h1 : (n + 1) % 16 = 15
  · have e := outsAt7_C V c ⟨n + 1, h⟩ hne h1
    rw [(e : outsAt7 V c (n + 1) h = _), sout7_C_1_eq] <;> try rfl
  · have e := outsAt7_B V c ⟨n + 1, h⟩ hne h1
    rw [(e : outsAt7 V c (n + 1) h = _), sout7_B_1_eq] <;> try rfl

/-- At k = 15 the output block is the accumulator over the guarded row sums, both as that point leaves them. -/
theorem out7_last (c : Dev nD) (t : Fin cfg7.N) (h0 : ¬t.val % 16 = 0) (h3 : t.val % 16 = 15) :
    (outsAt7 V c t.val t.isLt).1 = k7_pay6 (outsAt7 V c t.val t.isLt).2.1 (outsAt7 V c t.val t.isLt).2.2 := by
  rw [outsAt7_C V c t h0 h3]
  rw [out7_C_2_eq, sout7_C_0_eq, sout7_C_1_eq]

/-- The addend of the step at position n, at an element of the block: the 512 products, and the 512 attention entries. -/
def M7 (c : Dev nD) (n : ℕ) (i : S512x512.Idx) : EReal :=
  if h : n < cfg7.N then ∑ j : Fin 512, ab7 V c n h (ix2 (n0 := 512) (n1 := 512) (i 0) j) * fr7 V c n h (ix2 (n0 := 512) (n1 := 512) j (i 1)) else 0
def R7 (c : Dev nD) (n : ℕ) (i : S512x1.Idx) : EReal :=
  if h : n < cfg7.N then ∑ j : Fin 512, ab7 V c n h (ix2 (n0 := 512) (n1 := 512) (i 0) j) else 0

/-- After the step at k the accumulator holds the sum of the addends of steps 0 … k of its row block. -/
theorem acc7_sum (c : Dev nD) (t : Fin cfg7.N) (r d : Fin 512) :
    (outsAt7 V c t.val t.isLt).2.1 (ix2 r d) = ∑ s ∈ Finset.range (t.val % 16 + 1), M7 V c (16 * (t.val / 16) + s) (ix2 r d) := by
  have h' : 16 * (t.val / 16) + t.val % 16 < cfg7.N := by rw [Nat.div_add_mod]; exact t.isLt
  have e := Pipeline.eq_accAt_of_mod (fun n h => (outsAt7 V c n h).2.1) 16
    (fun n h => k7_pay4 (ab7 V c n h) (fr7 V c n h) (k7_pay1 (F := Ideal)))
    (fun n h acc => k7_pay4 (ab7 V c n h) (fr7 V c n h) acc)
    (fun n h h0 => acc7_reset V c n h h0) (fun n h hne => acc7_step V c n h hne) (by decide) t.val t.isLt h'
  rw [e]
  have key := Pipeline.accAt_add_apply (N := cfg7.N)
    (fun n h => k7_pay4 (ab7 V c n h) (fr7 V c n h) (k7_pay1 (F := Ideal)))
    (fun n h acc => k7_pay4 (ab7 V c n h) (fr7 V c n h) acc)
    (fun _ => (0 : EReal)) (M7 V c) (16 * (t.val / 16)) 15
    (fun h i => by
      obtain ⟨r, d, rfl⟩ : ∃ (r d : Fin 512), i = ix2 r d := ⟨i 0, i 1, eq_ix2 i⟩
      rw [k7_pay4_at, k7_pay1_at]; simp only [M7, dif_pos h])
    (fun n h acc i _ _ => by
      obtain ⟨r, d, rfl⟩ : ∃ (r d : Fin 512), i = ix2 r d := ⟨i 0, i 1, eq_ix2 i⟩
      rw [k7_pay4_at]; simp only [M7, dif_pos h])
    (t.val % 16) (by omega) h' (ix2 r d)
  rw [key, zero_add]

theorem rs7_sum (c : Dev nD) (t : Fin cfg7.N) (r : Fin 512) :
    (outsAt7 V c t.val t.isLt).2.2 (ix2 r 0) = ∑ s ∈ Finset.range (t.val % 16 + 1), R7 V c (16 * (t.val / 16) + s) (ix2 r 0) := by
  have h' : 16 * (t.val / 16) + t.val % 16 < cfg7.N := by rw [Nat.div_add_mod]; exact t.isLt
  have e := Pipeline.eq_accAt_of_mod (fun n h => (outsAt7 V c n h).2.2) 16
    (fun n h => k7_pay5 (ab7 V c n h) (k7_pay2 (F := Ideal)))
    (fun n h rs => k7_pay5 (ab7 V c n h) rs)
    (fun n h h0 => rs7_reset V c n h h0) (fun n h hne => rs7_step V c n h hne) (by decide) t.val t.isLt h'
  rw [e]
  have key := Pipeline.accAt_add_apply (N := cfg7.N)
    (fun n h => k7_pay5 (ab7 V c n h) (k7_pay2 (F := Ideal)))
    (fun n h rs => k7_pay5 (ab7 V c n h) rs)
    (fun _ => (0 : EReal)) (R7 V c) (16 * (t.val / 16)) 15
    (fun h i => by
      obtain ⟨r, z, rfl⟩ : ∃ (r : Fin 512) (z : Fin 1), i = ix2 r z := ⟨i 0, i 1, eq_ix2 i⟩
      obtain rfl : z = 0 := Subsingleton.elim _ _
      rw [k7_pay5_at, k7_pay2_at]; simp only [R7, dif_pos h])
    (fun n h rs i _ _ => by
      obtain ⟨r, z, rfl⟩ : ∃ (r : Fin 512) (z : Fin 1), i = ix2 r z := ⟨i 0, i 1, eq_ix2 i⟩
      obtain rfl : z = 0 := Subsingleton.elim _ _
      rw [k7_pay5_at]; simp only [R7, dif_pos h])
    (t.val % 16) (by omega) h' (ix2 r 0)
  rw [key, zero_add]

/-! ## The whole sums at the last step -/

/-- The addend of step s of row block q, at (r, d), in the arrays: source rows 512·s … 512·s + 511. -/
theorem M7_at (c : Dev nD) (q : ℕ) (hq : q < 4) (s : Fin 16) (r d : Fin 512) :
    M7 V c (16 * q + s.val) (ix2 r d)
      = ∑ j : Fin 512, A7 V c (ix2 (⟨512 * q + r.val, by have := r.isLt; omega⟩ : Fin 2048) (⟨s.val * 512 + j.val, Cert.BlockSums.blk_lt s j⟩ : Fin (16 * 512)))
          * Fc7 V c (ix2 (⟨s.val * 512 + j.val, Cert.BlockSums.blk_lt s j⟩ : Fin (16 * 512)) d) := by
  have hs := s.isLt
  have h : 16 * q + s.val < cfg7.N := by rw [show cfg7.N = 64 from N_7]; omega
  simp only [M7, dif_pos h]
  show ∑ j : Fin 512, ab7 V c (16 * q + s.val) h (ix2 r j) * fr7 V c (16 * q + s.val) h (ix2 j d) = _
  refine Finset.sum_congr rfl fun j _ => ?_
  rw [ablk7_at, fcrows7_at]
  have e1 : rowIx7 ⟨16 * q + s.val, h⟩ r = (⟨512 * q + r.val, by have := r.isLt; omega⟩ : Fin 2048) := Fin.ext (by show 512 * ((16 * q + s.val) / 16) + r.val = 512 * q + r.val; omega)
  have e2 : srcIx7 ⟨16 * q + s.val, h⟩ j = (⟨s.val * 512 + j.val, Cert.BlockSums.blk_lt s j⟩ : Fin (16 * 512)) := Fin.ext (by show 512 * ((16 * q + s.val) % 16) + j.val = s.val * 512 + j.val; omega)
  rw [e1, e2]

theorem R7_at (c : Dev nD) (q : ℕ) (hq : q < 4) (s : Fin 16) (r : Fin 512) :
    R7 V c (16 * q + s.val) (ix2 r 0)
      = ∑ j : Fin 512, A7 V c (ix2 (⟨512 * q + r.val, by have := r.isLt; omega⟩ : Fin 2048) (⟨s.val * 512 + j.val, Cert.BlockSums.blk_lt s j⟩ : Fin (16 * 512))) := by
  have hs := s.isLt
  have h : 16 * q + s.val < cfg7.N := by rw [show cfg7.N = 64 from N_7]; omega
  simp only [R7, dif_pos h]
  show ∑ j : Fin 512, ab7 V c (16 * q + s.val) h (ix2 r j) = _
  refine Finset.sum_congr rfl fun j _ => ?_
  rw [ablk7_at]
  have e1 : rowIx7 ⟨16 * q + s.val, h⟩ r = (⟨512 * q + r.val, by have := r.isLt; omega⟩ : Fin 2048) := Fin.ext (by show 512 * ((16 * q + s.val) / 16) + r.val = 512 * q + r.val; omega)
  have e2 : srcIx7 ⟨16 * q + s.val, h⟩ j = (⟨s.val * 512 + j.val, Cert.BlockSums.blk_lt s j⟩ : Fin (16 * 512)) := Fin.ext (by show 512 * ((16 * q + s.val) % 16) + j.val = s.val * 512 + j.val; omega)
  rw [e1, e2]

/-- At the last step of a row block the accumulator holds the sum over ALL source rows. -/
theorem acc7_full (c : Dev nD) (t : Fin cfg7.N) (h3 : t.val % 16 = 15) (r d : Fin 512) :
    (outsAt7 V c t.val t.isLt).2.1 (ix2 r d) = ∑ s : Fin (8192), A7 V c (ix2 (rowIx7 t r) s) * Fc7 V c (ix2 s d) := by
  have hN := t7_lt t
  rw [acc7_sum, h3, Finset.sum_range]
  rw [show (∑ s : Fin (8192), A7 V c (ix2 (rowIx7 t r) s) * Fc7 V c (ix2 s d))
        = ∑ s : Fin (16 * 512), A7 V c (ix2 (rowIx7 t r) s) * Fc7 V c (ix2 s d) from rfl,
    Cert.BlockSums.sum_blocks 16 512]
  refine Finset.sum_congr rfl fun s _ => ?_
  rw [M7_at V c (t.val / 16) (by omega) s r d]
  rfl

theorem rs7_full (c : Dev nD) (t : Fin cfg7.N) (h3 : t.val % 16 = 15) (r : Fin 512) :
    (outsAt7 V c t.val t.isLt).2.2 (ix2 r 0) = ∑ s : Fin (8192), A7 V c (ix2 (rowIx7 t r) s) := by
  have hN := t7_lt t
  rw [rs7_sum, h3, Finset.sum_range]
  rw [show (∑ s : Fin (8192), A7 V c (ix2 (rowIx7 t r) s))
        = ∑ s : Fin (16 * 512), A7 V c (ix2 (rowIx7 t r) s) from rfl,
    Cert.BlockSums.sum_blocks 16 512]
  refine Finset.sum_congr rfl fun s _ => ?_
  rw [R7_at V c (t.val / 16) (by omega) s r]
  rfl

/-! ## The result array -/

/-- Row t, column d of the result: the collected row over all source rows, normalized by the guarded row sum. -/
def G7 (c : Dev nD) : S2048x512.Idx → Elt Ideal .f32 := fun y =>
  Cert.Spec.collectAt (fun t s => A7 V c (ix2 t s)) (fun s d => Fc7 V c (ix2 s d)) (y 0) (y 1)

/-- What the last step of a row block leaves in the output buffer, at (r, d). -/
theorem out7_at (c : Dev nD) (t : Fin cfg7.N) (h3 : t.val % 16 = 15) (r d : Fin 512) :
    (outsAt7 V c t.val t.isLt).1 (ix2 r d) = G7 V c (ix2 (rowIx7 t r) d) := by
  rw [out7_last V c t (by omega) h3, k7_pay6_at, acc7_full V c t h3, rs7_full V c t h3]
  rfl

/-- Where the block of point t sits in the result array. -/
theorem emb7_2 (t : Fin cfg7.N) (r d : Fin 512) :
    ((cfg7.win 2).blk t).view.emb (ix2 r d) = ix2 (rowIx7 t r) d := by
  obtain ⟨-, -, -, -, eRow, eCol, -⟩ := idx7 t
  funext a; apply Fin.ext
  match a with
  | ⟨0, _⟩ => show win7_2.index t (0 : Fin 2) * 512 + 1 * r.val = 512 * (t.val / 16) + r.val; rw [eRow]; omega
  | ⟨1, _⟩ => show win7_2.index t (1 : Fin 2) * 512 + 1 * d.val = d.val; rw [eCol]; omega

/-- What a write-back writes is its block of the result. -/
theorem flushed7_eq (c : Dev nD) (t : Fin cfg7.N) (hf : (cfg7.win 2).flush t = true) :
    (dat7 V c).flushed 2 t = ((cfg7.win 2).blk t).view.read (Elt Ideal) (G7 V c) := by
  have h3 : t.val % 16 = 15 := (flush7_2 t).mp hf
  show (cfg7.win 2).cut (grid7.coords t) ((dat7 V c).after 2 t) = _
  rw [after7_2]
  funext y
  obtain ⟨r, d, rfl⟩ : ∃ (r d : Fin 512), y = ix2 r d := ⟨y 0, y 1, eq_ix2 y⟩
  rw [View.read_apply, emb7_2]
  exact out7_at V c t h3 r d

theorem mem_blk7 (t : Fin cfg7.N) (i : S2048x512.Idx) :
    i ∈ ((cfg7.win 2).blk t).view.set ↔ ∀ a : Fin 2, win7_2.index t a * S512x512.size a ≤ (i a).val ∧ (i a).val < win7_2.index t a * S512x512.size a + S512x512.size a := by
  show i ∈ ((View.whole (Pipeline.arrRef spec7 2)).slice (win7_2.rect t)).set ↔ _
  rw [View.set_slice_whole, Rect.mem_set_unit]
  exact Iff.rfl

/-- THE RESULT ARRAY of custom call 7. -/
theorem final7 (c : Dev nD) : (dat7 (F := Ideal) V c).arrAt 2 cfg7.N = G7 V c :=
  (dat7 V c).arrAt_eq_of_cover 2 (G7 V c) (fun t hf => flushed7_eq V c t hf) fun i => by
    have hi0 : (i 0).val < 2048 := (i 0).isLt
    have hi1 : (i 1).val < 512 := (i 1).isLt
    have hN : 16 * ((i 0).val / 512) + 15 < cfg7.N := by rw [show cfg7.N = 64 from N_7]; omega
    refine ⟨⟨16 * ((i 0).val / 512) + 15, hN⟩, (flush7_2 _).mpr (by show (16 * ((i 0).val / 512) + 15) % 16 = 15; omega), ?_⟩
    rw [mem_blk7]
    obtain ⟨-, -, -, -, eRow, eCol, -⟩ := idx7 ⟨16 * ((i 0).val / 512) + 15, hN⟩
    intro a
    match a with
    | ⟨0, _⟩ => show win7_2.index _ (0 : Fin 2) * 512 ≤ (i 0).val ∧ (i 0).val < win7_2.index _ (0 : Fin 2) * 512 + 512; rw [eRow]; show (16 * ((i 0).val / 512) + 15) / 16 * 512 ≤ _ ∧ _ < (16 * ((i 0).val / 512) + 15) / 16 * 512 + 512; omega
    | ⟨1, _⟩ => show win7_2.index _ (1 : Fin 2) * 512 ≤ (i 1).val ∧ (i 1).val < win7_2.index _ (1 : Fin 2) * 512 + 512; rw [eCol]; omega

end Cert.KernelIdeal.Gen

end
-- ==== Proof.KI.V8a.lean ====
-- scratch/rename_region.js proof/Proof/KI/V3a.lean 8 64 shiftpay
/- Region 8, what each control case leaves, as values: the partial product after a step is "acc + raw_block^T · fc_rows"
   of the step's loads, the partial row sums "rs + sums of raw_block along axis 0", both from zero at k = 0 and from what
   came in otherwise; at k = 3 the result block is "acc / (rs^T + ε)" of the two just stored. The fc rows of step k
   are the 512-row slice of the whole fc array at row offset 512·k. -/
import proofs.«145590_j23742579212572_2_alg».proof.Proof.KI.R8
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz8 : (![0, 0] : Fin 2 → Nat) = fun _ => 0 := funext fun a => by fin_cases a <;> rfl

/-- The 512 fc rows the step at grid coordinates `i` loads. -/
abbrev fcRect8 (i : grid8.Coords) : Rect S2048x512 := Rect.unit (s := S2048x512) (k8_off1 i) S512x512.size (k8_off1_inb i)

theorem sout8_B_0_eq (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i) (x0 : Vec F S512x512 .f32) (x1 : Vec F S2048x512 .f32) (xs0 : Vec F S512x512 .f32) (xs1 : Vec F S1x512 .f32) :
    sout8_B_0 c i arg2 harg2 arg3 harg3 arg4 harg4 arg5 harg5 arg6 harg6 hc0 hc1 x0 x1 xs0 xs1 = k8_pay4 x0 (View.ld x1 (fcRect8 i)) xs0 := by
  unfold sout8_B_0
  rw [View.read_writes_eq_canon _ _ _ (scover8_B_0 c i arg2 harg2 arg3 harg3 arg4 harg4 arg5 harg5 arg6 harg6 hc0 hc1 x0 x1 xs0 xs1)]
  unfold kernelRun8_B
  dsimp only
  rw [View.canon_unit_zero hz8]
  simp only [View.readAt_eq_ld, harg2.read_unread, harg3.read_unread, harg5.read_unread, harg6.read_unread, View.ld_unit_zero (S := S512x512) hz8, View.ld_unit_zero (S := S1x512) hz8]
  try rfl

theorem sout8_B_1_eq (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : ¬cond8_1 i) (x0 : Vec F S512x512 .f32) (x1 : Vec F S2048x512 .f32) (xs0 : Vec F S512x512 .f32) (xs1 : Vec F S1x512 .f32) :
    sout8_B_1 c i arg2 harg2 arg3 harg3 arg4 harg4 arg5 harg5 arg6 harg6 hc0 hc1 x0 x1 xs0 xs1 = k8_pay5 x0 xs1 := by
  unfold sout8_B_1
  rw [View.read_writes_eq_canon _ _ _ (scover8_B_1 c i arg2 harg2 arg3 harg3 arg4 harg4 arg5 harg5 arg6 harg6 hc0 hc1 x0 x1 xs0 xs1)]
  unfold kernelRun8_B
  dsimp only
  rw [View.canon_unit_zero hz8]
  simp only [View.readAt_eq_ld, harg2.read_unread, harg3.read_unread, harg5.read_unread, harg6.read_unread, View.ld_unit_zero (S := S512x512) hz8, View.ld_unit_zero (S := S1x512) hz8]
  try rfl

theorem sout8_C_0_eq (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i) (x0 : Vec F S512x512 .f32) (x1 : Vec F S2048x512 .f32) (xs0 : Vec F S512x512 .f32) (xs1 : Vec F S1x512 .f32) :
    sout8_C_0 c i arg2 harg2 arg3 harg3 arg4 harg4 arg5 harg5 arg6 harg6 hc0 hc1 x0 x1 xs0 xs1 = k8_pay4 x0 (View.ld x1 (fcRect8 i)) xs0 := by
  unfold sout8_C_0
  rw [View.read_writes_eq_canon _ _ _ (scover8_C_0 c i arg2 harg2 arg3 harg3 arg4 harg4 arg5 harg5 arg6 harg6 hc0 hc1 x0 x1 xs0 xs1)]
  unfold kernelRun8_C
  dsimp only
  sl_unfold_words
  rw [View.canon_unit_zero hz8]
  simp only [View.readAt_eq_ld, harg2.read_unread, harg3.read_unread, harg5.read_unread, harg6.read_unread, View.ld_unit_zero (S := S512x512) hz8, View.ld_unit_zero (S := S1x512) hz8]
  try rfl

theorem sout8_C_1_eq (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i) (x0 : Vec F S512x512 .f32) (x1 : Vec F S2048x512 .f32) (xs0 : Vec F S512x512 .f32) (xs1 : Vec F S1x512 .f32) :
    sout8_C_1 c i arg2 harg2 arg3 harg3 arg4 harg4 arg5 harg5 arg6 harg6 hc0 hc1 x0 x1 xs0 xs1 = k8_pay5 x0 xs1 := by
  unfold sout8_C_1
  rw [View.read_writes_eq_canon _ _ _ (scover8_C_1 c i arg2 harg2 arg3 harg3 arg4 harg4 arg5 harg5 arg6 harg6 hc0 hc1 x0 x1 xs0 xs1)]
  unfold kernelRun8_C
  dsimp only
  sl_unfold_words
  rw [View.canon_unit_zero hz8]
  simp only [View.readAt_eq_ld, harg2.read_unread, harg3.read_unread, harg5.read_unread, harg6.read_unread, View.ld_unit_zero (S := S512x512) hz8, View.ld_unit_zero (S := S1x512) hz8]
  try rfl

theorem out8_C_2_eq (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond8_0 i) (hc1 : cond8_1 i) (x0 : Vec F S512x512 .f32) (x1 : Vec F S2048x512 .f32) (xs0 : Vec F S512x512 .f32) (xs1 : Vec F S1x512 .f32) :
    out8_C_2 c i arg2 harg2 arg3 harg3 arg4 harg4 arg5 harg5 arg6 harg6 hc0 hc1 x0 x1 xs0 xs1 = k8_pay6 (k8_pay5 x0 xs1) (k8_pay4 x0 (View.ld x1 (fcRect8 i)) xs0) := by
  unfold out8_C_2
  rw [View.read_writes_eq_canon _ _ _ (cover8_C_2 c i arg2 harg2 arg3 harg3 arg4 harg4 arg5 harg5 arg6 harg6 hc0 hc1 x0 x1 xs0 xs1)]
  unfold kernelRun8_C
  dsimp only
  sl_unfold_words
  rw [View.canon_unit_zero hz8]
  simp only [View.readCov_unit_zero (S := S512x512) _ hz8, View.readCov_unit_zero (S := S1x512) _ hz8]
  simp only [View.readAt_eq_ld, harg2.read_unread, harg3.read_unread, harg5.read_unread, harg6.read_unread, View.ld_unit_zero (S := S512x512) hz8, View.ld_unit_zero (S := S1x512) hz8]
  try rfl

theorem sout8_A_0_eq (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i) (x0 : Vec F S512x512 .f32) (x1 : Vec F S2048x512 .f32) :
    sout8_A_0 c i arg2 harg2 arg3 harg3 arg4 harg4 arg5 harg5 arg6 harg6 hc0 hc1 x0 x1 = k8_pay4 x0 (View.ld x1 (fcRect8 i)) (k8_pay1 (F := F)) := by
  unfold sout8_A_0
  rw [View.read_writes_eq_canon _ _ _ (scover8_A_0 c i arg2 harg2 arg3 harg3 arg4 harg4 arg5 harg5 arg6 harg6 hc0 hc1 x0 x1)]
  unfold kernelRun8_A
  dsimp only
  sl_unfold_words
  rw [View.canon_cons_unit_zero (S := S512x512) hz8, View.readCov_unit_zero (S := S512x512) _ hz8]
  simp only [View.readAt_eq_ld, harg2.read_unread, harg3.read_unread, harg5.read_unread, harg6.read_unread, View.ld_unit_zero (S := S512x512) hz8, View.ld_unit_zero (S := S1x512) hz8]
  try rfl

theorem sout8_A_1_eq (c : Dev nD) (i : grid8.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond8_0 i) (hc1 : ¬cond8_1 i) (x0 : Vec F S512x512 .f32) (x1 : Vec F S2048x512 .f32) :
    sout8_A_1 c i arg2 harg2 arg3 harg3 arg4 harg4 arg5 harg5 arg6 harg6 hc0 hc1 x0 x1 = k8_pay5 x0 (k8_pay2 (F := F)) := by
  unfold sout8_A_1
  rw [View.read_writes_eq_canon _ _ _ (scover8_A_1 c i arg2 harg2 arg3 harg3 arg4 harg4 arg5 harg5 arg6 harg6 hc0 hc1 x0 x1)]
  unfold kernelRun8_A
  dsimp only
  sl_unfold_words
  rw [View.canon_cons_unit_zero (S := S1x512) hz8, View.readCov_unit_zero (S := S1x512) _ hz8]
  simp only [View.readAt_eq_ld, harg2.read_unread, harg3.read_unread, harg5.read_unread, harg6.read_unread, View.ld_unit_zero (S := S512x512) hz8, View.ld_unit_zero (S := S1x512) hz8]
  try rfl

end Cert.KernelIdeal.Gen

end
-- ==== Proof.KI.V8b.lean ====
-- scratch/rename_region.js proof/Proof/KI/V3b.lean 8 64 shiftpay 8192
/- Region 8, its result array: row t, column d ends at (∑ s, raw s t · fc s d) / ((∑ s, raw s t) + ε) over ALL source
   rows s: the raw array enters transposed. The kernel reaches the two sums in four steps of 512 source rows: within
   result row block i, step k adds ∑ j<512 raw (512·k + j) (512·i + r) · fc (512·k + j) d to the partial product and
   ∑ j<512 raw (512·k + j) (512·i + r) to the partial sums, both restarted at k = 0; at k = 3 both hold the whole sums
   (a sum over 4·512 indices is the sum of its four blocks), and that step writes the block of the result back. -/
import proofs.«145590_j23742579212572_2_alg».proof.Proof.KI.V8a
import proofs.«145590_j23742579212572_2_alg».proof.Proof.KI.Pay
import proofs.«145590_j23742579212572_2_alg».proof.Proof.LibBlockSums
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay
open scoped BigOperators

variable (V : (c : Dev nD) → (b : Ref sig .tc) → Buf (Elt Ideal) ((c : Thread nD τ).loc b))

/-! ## The grid: which blocks a point reads and writes -/

theorem t8_lt (t : Fin cfg8.N) : t.val < 64 := lt_of_lt_of_eq t.isLt (show cfg8.N = 64 from N_8)

/-- Point t = 4·i + k reads raw block (k, i), the whole fc array, fc rows from 512·k, and holds result block (i, 0). -/
theorem idx8 : ∀ t : Fin cfg8.N,
    win8_0.index t (0 : Fin 2) = t.val % 4 ∧ win8_0.index t (1 : Fin 2) = t.val / 4
    ∧ win8_1.index t (0 : Fin 2) = 0 ∧ win8_1.index t (1 : Fin 2) = 0
    ∧ win8_2.index t (0 : Fin 2) = t.val / 4 ∧ win8_2.index t (1 : Fin 2) = 0
    ∧ k8_off1 (grid8.coords t) (0 : Fin 2) = 512 * (t.val % 4) ∧ k8_off1 (grid8.coords t) (1 : Fin 2) = 0 :=
  (by decide +kernel : ∀ t : Fin grid8.N, _)

/-- The raw array and the fc array as the region finds them. -/
abbrev A8 (c : Dev nD) : S2048x8192.Idx → Elt Ideal .f32 := V c (Pipeline.arrRef spec8 0)
abbrev Fc8 (c : Dev nD) : S2048x512.Idx → Elt Ideal .f32 := V c (Pipeline.arrRef spec8 1)

/-- Result row r of the row block of point t (a COLUMN of the raw array), and source row j of its step (a ROW of it). -/
def rowIx8 (t : Fin cfg8.N) (r : Fin 512) : Fin 8192 := ⟨512 * (t.val / 4) + r.val, by have := t8_lt t; have := r.isLt; omega⟩
def srcIx8 (t : Fin cfg8.N) (j : Fin 512) : Fin 2048 := ⟨512 * (t.val % 4) + j.val, by have := j.isLt; omega⟩

/-- The raw block and the fc rows of the step at position n. -/
abbrev rb8 (c : Dev nD) (n : ℕ) (h : n < cfg8.N) : Vec Ideal S512x512 .f32 := iblk8 V c 0 ⟨n, h⟩
abbrev fr8 (c : Dev nD) (n : ℕ) (h : n < cfg8.N) : Vec Ideal S512x512 .f32 :=
  View.ld (iblk8 V c 1 ⟨n, h⟩ : Vec Ideal S2048x512 .f32) (fcRect8 (grid8.coords ⟨n, h⟩))

/-- The raw block of the point at position n, at (j, r): source row first. -/
theorem rblk8_at (c : Dev nD) (n : ℕ) (h : n < cfg8.N) (j r : Fin 512) :
    rb8 V c n h (ix2 j r) = A8 V c (ix2 (srcIx8 ⟨n, h⟩ j) (rowIx8 ⟨n, h⟩ r)) := by
  have e0 : win8_0.index ⟨n, h⟩ (0 : Fin 2) = n % 4 := (idx8 ⟨n, h⟩).1
  have e1 : win8_0.index ⟨n, h⟩ (1 : Fin 2) = n / 4 := (idx8 ⟨n, h⟩).2.1
  show (iblk8 V c 0 ⟨n, h⟩ : Vec Ideal S512x512 .f32) (ix2 j r) = _
  unfold iblk8
  rw [View.read_apply]
  show V c (Pipeline.arrRef spec8 0) _ = V c (Pipeline.arrRef spec8 0) _
  refine congrArg _ ?_
  funext a; apply Fin.ext
  match a with
  | ⟨0, _⟩ => show win8_0.index ⟨n, h⟩ (0 : Fin 2) * 512 + 1 * j.val = 512 * (n % 4) + j.val; rw [e0]; omega
  | ⟨1, _⟩ => show win8_0.index ⟨n, h⟩ (1 : Fin 2) * 512 + 1 * r.val = 512 * (n / 4) + r.val; rw [e1]; omega

/-- The fc rows the step of point t loads, at (j, d): rows from 512·k of the whole fc array. -/
theorem fcrows8_at (c : Dev nD) (n : ℕ) (h : n < cfg8.N) (j d : Fin 512) :
    fr8 V c n h (ix2 j d) = Fc8 V c (ix2 (srcIx8 ⟨n, h⟩ j) d) := by
  have e2 : win8_1.index ⟨n, h⟩ (0 : Fin 2) = 0 := (idx8 ⟨n, h⟩).2.2.1
  have e3 : win8_1.index ⟨n, h⟩ (1 : Fin 2) = 0 := (idx8 ⟨n, h⟩).2.2.2.1
  have e6 : k8_off1 (grid8.coords ⟨n, h⟩) (0 : Fin 2) = 512 * (n % 4) := (idx8 ⟨n, h⟩).2.2.2.2.2.2.1
  have e7 : k8_off1 (grid8.coords ⟨n, h⟩) (1 : Fin 2) = 0 := (idx8 ⟨n, h⟩).2.2.2.2.2.2.2
  show View.ld (iblk8 V c 1 ⟨n, h⟩ : Vec Ideal S2048x512 .f32) (fcRect8 (grid8.coords ⟨n, h⟩)) (ix2 j d) = _
  unfold iblk8
  show (((cfg8.win 1).blk ⟨n, h⟩).view.read (Elt Ideal) (V c (Pipeline.arrRef spec8 1))) ((fcRect8 (grid8.coords ⟨n, h⟩)).idx (ix2 j d)) = _
  rw [View.read_apply]
  show V c (Pipeline.arrRef spec8 1) _ = V c (Pipeline.arrRef spec8 1) _
  refine congrArg _ ?_
  funext a; apply Fin.ext
  match a with
  | ⟨0, _⟩ => show win8_1.index ⟨n, h⟩ (0 : Fin 2) * 2048 + 1 * (k8_off1 (grid8.coords ⟨n, h⟩) (0 : Fin 2) + 1 * j.val) = 512 * (n % 4) + j.val; rw [e2, e6]; omega
  | ⟨1, _⟩ => show win8_1.index ⟨n, h⟩ (1 : Fin 2) * 512 + 1 * (k8_off1 (grid8.coords ⟨n, h⟩) (1 : Fin 2) + 1 * d.val) = d.val; rw [e3, e7]; omega

/-! ## The two accumulators, point by point -/

/-- At k = 0 the partial product is the step's product added to zero. -/
theorem acc8_reset (c : Dev nD) (n : ℕ) (h : n < cfg8.N) (h0 : n % 4 = 0) :
    (outsAt8 V c n h).2.1 = k8_pay4 (rb8 V c n h) (fr8 V c n h) (k8_pay1 (F := Ideal)) := by
  have e := outsAt8_A V c ⟨n, h⟩ h0 (by dsimp only; omega)
  rw [(e : outsAt8 V c n h = _)]; unfold step8_A
  rw [sout8_A_0_eq] <;> try rfl

/-- At every other k it is the step's product added to what the point before left. -/
theorem acc8_step (c : Dev nD) (n : ℕ) (h : n + 1 < cfg8.N) (hne : ¬(n + 1) % 4 = 0) :
    (outsAt8 V c (n + 1) h).2.1 = k8_pay4 (rb8 V c (n + 1) h) (fr8 V c (n + 1) h) (outsAt8 V c n (Nat.lt_of_succ_lt h)).2.1 := by
  by_cases h1 : (n + 1) % 4 = 3
  · have e := outsAt8_C V c ⟨n + 1, h⟩ hne h1
    rw [(e : outsAt8 V c (n + 1) h = _)]; unfold step8_C
    rw [sout8_C_0_eq] <;> try rfl
  · have e := outsAt8_B V c ⟨n + 1, h⟩ hne h1
    rw [(e : outsAt8 V c (n + 1) h = _)]; unfold step8_B
    rw [sout8_B_0_eq] <;> try rfl

/-- The same for the row of partial sums. -/
theorem rs8_reset (c : Dev nD) (n : ℕ) (h : n < cfg8.N) (h0 : n % 4 = 0) :
    (outsAt8 V c n h).2.2 = k8_pay5 (rb8 V c n h) (k8_pay2 (F := Ideal)) := by
  have e := outsAt8_A V c ⟨n, h⟩ h0 (by dsimp only; omega)
  rw [(e : outsAt8 V c n h = _)]; unfold step8_A
  rw [sout8_A_1_eq] <;> try rfl

theorem rs8_step (c : Dev nD) (n : ℕ) (h : n + 1 < cfg8.N) (hne : ¬(n + 1) % 4 = 0) :
    (outsAt8 V c (n + 1) h).2.2 = k8_pay5 (rb8 V c (n + 1) h) (outsAt8 V c n (Nat.lt_of_succ_lt h)).2.2 := by
  by_cases h1 : (n + 1) % 4 = 3
  · have e := outsAt8_C V c ⟨n + 1, h⟩ hne h1
    rw [(e : outsAt8 V c (n + 1) h = _)]; unfold step8_C
    rw [sout8_C_1_eq] <;> try rfl
  · have e := outsAt8_B V c ⟨n + 1, h⟩ hne h1
    rw [(e : outsAt8 V c (n + 1) h = _)]; unfold step8_B
    rw [sout8_B_1_eq] <;> try rfl

/-- At k = 3 the result block is the partial product over the guarded partial sums, both as that point leaves them. -/
theorem out8_last (c : Dev nD) (t : Fin cfg8.N) (h0 : ¬t.val % 4 = 0) (h3 : t.val % 4 = 3) :
    (outsAt8 V c t.val t.isLt).1 = k8_pay6 (outsAt8 V c t.val t.isLt).2.2 (outsAt8 V c t.val t.isLt).2.1 := by
  rw [outsAt8_C V c t h0 h3]; unfold step8_C
  rw [out8_C_2_eq, sout8_C_0_eq, sout8_C_1_eq]

/-- The addend of the step at position n, at an element of the block: the 512 products, and the 512 raw entries. -/
def M8 (c : Dev nD) (n : ℕ) (i : S512x512.Idx) : EReal :=
  if h : n < cfg8.N then ∑ j : Fin 512, rb8 V c n h (ix2 (n0 := 512) (n1 := 512) j (i 0)) * fr8 V c n h (ix2 (n0 := 512) (n1 := 512) j (i 1)) else 0
def Rs8 (c : Dev nD) (n : ℕ) (i : S1x512.Idx) : EReal :=
  if h : n < cfg8.N then ∑ j : Fin 512, rb8 V c n h (ix2 (n0 := 512) (n1 := 512) j (i 1)) else 0

/-- After the step at k the partial product holds the sum of the addends of steps 0 … k of its row block. -/
theorem acc8_sum (c : Dev nD) (t : Fin cfg8.N) (r d : Fin 512) :
    (outsAt8 V c t.val t.isLt).2.1 (ix2 r d) = ∑ s ∈ Finset.range (t.val % 4 + 1), M8 V c (4 * (t.val / 4) + s) (ix2 r d) := by
  have h' : 4 * (t.val / 4) + t.val % 4 < cfg8.N := by rw [Nat.div_add_mod]; exact t.isLt
  have e := Pipeline.eq_accAt_of_mod (fun n h => (outsAt8 V c n h).2.1) 4
    (fun n h => k8_pay4 (rb8 V c n h) (fr8 V c n h) (k8_pay1 (F := Ideal)))
    (fun n h acc => k8_pay4 (rb8 V c n h) (fr8 V c n h) acc)
    (fun n h h0 => acc8_reset V c n h h0) (fun n h hne => acc8_step V c n h hne) (by decide) t.val t.isLt h'
  rw [e]
  have key := Pipeline.accAt_add_apply (N := cfg8.N)
    (fun n h => k8_pay4 (rb8 V c n h) (fr8 V c n h) (k8_pay1 (F := Ideal)))
    (fun n h acc => k8_pay4 (rb8 V c n h) (fr8 V c n h) acc)
    (fun _ => (0 : EReal)) (M8 V c) (4 * (t.val / 4)) 3
    (fun h i => by
      obtain ⟨r, d, rfl⟩ : ∃ (r d : Fin 512), i = ix2 r d := ⟨i 0, i 1, eq_ix2 i⟩
      rw [k8_pay4_at, k8_pay1_at]; simp only [M8, dif_pos h])
    (fun n h acc i _ _ => by
      obtain ⟨r, d, rfl⟩ : ∃ (r d : Fin 512), i = ix2 r d := ⟨i 0, i 1, eq_ix2 i⟩
      rw [k8_pay4_at]; simp only [M8, dif_pos h])
    (t.val % 4) (by omega) h' (ix2 r d)
  rw [key, zero_add]

theorem rs8_sum (c : Dev nD) (t : Fin cfg8.N) (r : Fin 512) :
    (outsAt8 V c t.val t.isLt).2.2 (ix2 0 r) = ∑ s ∈ Finset.range (t.val % 4 + 1), Rs8 V c (4 * (t.val / 4) + s) (ix2 0 r) := by
  have h' : 4 * (t.val / 4) + t.val % 4 < cfg8.N := by rw [Nat.div_add_mod]; exact t.isLt
  have e := Pipeline.eq_accAt_of_mod (fun n h => (outsAt8 V c n h).2.2) 4
    (fun n h => k8_pay5 (rb8 V c n h) (k8_pay2 (F := Ideal)))
    (fun n h rs => k8_pay5 (rb8 V c n h) rs)
    (fun n h h0 => rs8_reset V c n h h0) (fun n h hne => rs8_step V c n h hne) (by decide) t.val t.isLt h'
  rw [e]
  have key := Pipeline.accAt_add_apply (N := cfg8.N)
    (fun n h => k8_pay5 (rb8 V c n h) (k8_pay2 (F := Ideal)))
    (fun n h rs => k8_pay5 (rb8 V c n h) rs)
    (fun _ => (0 : EReal)) (Rs8 V c) (4 * (t.val / 4)) 3
    (fun h i => by
      obtain ⟨z, r, rfl⟩ : ∃ (z : Fin 1) (r : Fin 512), i = ix2 z r := ⟨i 0, i 1, eq_ix2 i⟩
      obtain rfl : z = 0 := Subsingleton.elim _ _
      rw [k8_pay5_at, k8_pay2_at]; simp only [Rs8, dif_pos h])
    (fun n h rs i _ _ => by
      obtain ⟨z, r, rfl⟩ : ∃ (z : Fin 1) (r : Fin 512), i = ix2 z r := ⟨i 0, i 1, eq_ix2 i⟩
      obtain rfl : z = 0 := Subsingleton.elim _ _
      rw [k8_pay5_at]; simp only [Rs8, dif_pos h])
    (t.val % 4) (by omega) h' (ix2 0 r)
  rw [key, zero_add]

/-! ## The whole sums at the last step -/

/-- The addend of step s of row block q, at (r, d), in the arrays: source rows 512·s … 512·s + 511. -/
theorem M8_at (c : Dev nD) (q : ℕ) (hq : q < 16) (s : Fin 4) (r d : Fin 512) :
    M8 V c (4 * q + s.val) (ix2 r d)
      = ∑ j : Fin 512, A8 V c (ix2 (⟨s.val * 512 + j.val, Cert.BlockSums.blk_lt s j⟩ : Fin (4 * 512)) (⟨512 * q + r.val, by have := r.isLt; omega⟩ : Fin 8192))
          * Fc8 V c (ix2 (⟨s.val * 512 + j.val, Cert.BlockSums.blk_lt s j⟩ : Fin (4 * 512)) d) := by
  have hs := s.isLt
  have h : 4 * q + s.val < cfg8.N := by rw [show cfg8.N = 64 from N_8]; omega
  simp only [M8, dif_pos h]
  show ∑ j : Fin 512, rb8 V c (4 * q + s.val) h (ix2 j r) * fr8 V c (4 * q + s.val) h (ix2 j d) = _
  refine Finset.sum_congr rfl fun j _ => ?_
  rw [rblk8_at, fcrows8_at]
  have e1 : rowIx8 ⟨4 * q + s.val, h⟩ r = (⟨512 * q + r.val, by have := r.isLt; omega⟩ : Fin 8192) := Fin.ext (by show 512 * ((4 * q + s.val) / 4) + r.val = 512 * q + r.val; omega)
  have e2 : srcIx8 ⟨4 * q + s.val, h⟩ j = (⟨s.val * 512 + j.val, Cert.BlockSums.blk_lt s j⟩ : Fin (4 * 512)) := Fin.ext (by show 512 * ((4 * q + s.val) % 4) + j.val = s.val * 512 + j.val; omega)
  rw [e1, e2]

theorem Rs8_at (c : Dev nD) (q : ℕ) (hq : q < 16) (s : Fin 4) (r : Fin 512) :
    Rs8 V c (4 * q + s.val) (ix2 0 r)
      = ∑ j : Fin 512, A8 V c (ix2 (⟨s.val * 512 + j.val, Cert.BlockSums.blk_lt s j⟩ : Fin (4 * 512)) (⟨512 * q + r.val, by have := r.isLt; omega⟩ : Fin 8192)) := by
  have hs := s.isLt
  have h : 4 * q + s.val < cfg8.N := by rw [show cfg8.N = 64 from N_8]; omega
  simp only [Rs8, dif_pos h]
  show ∑ j : Fin 512, rb8 V c (4 * q + s.val) h (ix2 j r) = _
  refine Finset.sum_congr rfl fun j _ => ?_
  rw [rblk8_at]
  have e1 : rowIx8 ⟨4 * q + s.val, h⟩ r = (⟨512 * q + r.val, by have := r.isLt; omega⟩ : Fin 8192) := Fin.ext (by show 512 * ((4 * q + s.val) / 4) + r.val = 512 * q + r.val; omega)
  have e2 : srcIx8 ⟨4 * q + s.val, h⟩ j = (⟨s.val * 512 + j.val, Cert.BlockSums.blk_lt s j⟩ : Fin (4 * 512)) := Fin.ext (by show 512 * ((4 * q + s.val) % 4) + j.val = s.val * 512 + j.val; omega)
  rw [e1, e2]

/-- At the last step of a row block the partial product holds the sum over ALL source rows. -/
theorem acc8_full (c : Dev nD) (t : Fin cfg8.N) (h3 : t.val % 4 = 3) (r d : Fin 512) :
    (outsAt8 V c t.val t.isLt).2.1 (ix2 r d) = ∑ s : Fin (2048), A8 V c (ix2 s (rowIx8 t r)) * Fc8 V c (ix2 s d) := by
  have hN := t8_lt t
  rw [acc8_sum, h3, Finset.sum_range]
  rw [show (∑ s : Fin (2048), A8 V c (ix2 s (rowIx8 t r)) * Fc8 V c (ix2 s d))
        = ∑ s : Fin (4 * 512), A8 V c (ix2 s (rowIx8 t r)) * Fc8 V c (ix2 s d) from rfl,
    Cert.BlockSums.sum_blocks 4 512]
  refine Finset.sum_congr rfl fun s _ => ?_
  rw [M8_at V c (t.val / 4) (by omega) s r d]
  rfl

theorem rs8_full (c : Dev nD) (t : Fin cfg8.N) (h3 : t.val % 4 = 3) (r : Fin 512) :
    (outsAt8 V c t.val t.isLt).2.2 (ix2 0 r) = ∑ s : Fin (2048), A8 V c (ix2 s (rowIx8 t r)) := by
  have hN := t8_lt t
  rw [rs8_sum, h3, Finset.sum_range]
  rw [show (∑ s : Fin (2048), A8 V c (ix2 s (rowIx8 t r)))
        = ∑ s : Fin (4 * 512), A8 V c (ix2 s (rowIx8 t r)) from rfl,
    Cert.BlockSums.sum_blocks 4 512]
  refine Finset.sum_congr rfl fun s _ => ?_
  rw [Rs8_at V c (t.val / 4) (by omega) s r]
  rfl

/-! ## The result array -/

/-- Row t, column d of the result: the collection over all source rows through the TRANSPOSED raw array, normalized
    by the guarded sum of the raw array's column t. -/
def G8 (c : Dev nD) : S8192x512.Idx → Elt Ideal .f32 := fun y =>
  Cert.Spec.collectAt (fun t s => A8 V c (ix2 s t)) (fun s d => Fc8 V c (ix2 s d)) (y 0) (y 1)

/-- What the last step of a row block leaves in the result buffer, at (r, d). -/
theorem out8_at (c : Dev nD) (t : Fin cfg8.N) (h3 : t.val % 4 = 3) (r d : Fin 512) :
    (outsAt8 V c t.val t.isLt).1 (ix2 r d) = G8 V c (ix2 (rowIx8 t r) d) := by
  rw [out8_last V c t (by omega) h3, k8_pay6_at, acc8_full V c t h3, rs8_full V c t h3]
  rfl

/-- Where the block of point t sits in the result array. -/
theorem emb8_2 (t : Fin cfg8.N) (r d : Fin 512) :
    ((cfg8.win 2).blk t).view.emb (ix2 r d) = ix2 (rowIx8 t r) d := by
  obtain ⟨-, -, -, -, e4, e5, -⟩ := idx8 t
  funext a; apply Fin.ext
  match a with
  | ⟨0, _⟩ => show win8_2.index t (0 : Fin 2) * 512 + 1 * r.val = 512 * (t.val / 4) + r.val; rw [e4]; omega
  | ⟨1, _⟩ => show win8_2.index t (1 : Fin 2) * 512 + 1 * d.val = d.val; rw [e5]; omega

/-- What a write-back writes is its block of the result. -/
theorem flushed8_eq (c : Dev nD) (t : Fin cfg8.N) (hf : (cfg8.win 2).flush t = true) :
    (dat8 V c).flushed 2 t = ((cfg8.win 2).blk t).view.read (Elt Ideal) (G8 V c) := by
  have h3 : t.val % 4 = 3 := (flush8_2 t).mp hf
  show (cfg8.win 2).cut (grid8.coords t) ((dat8 V c).after 2 t) = _
  rw [after8_2]
  funext y
  obtain ⟨r, d, rfl⟩ : ∃ (r d : Fin 512), y = ix2 r d := ⟨y 0, y 1, eq_ix2 y⟩
  rw [View.read_apply, emb8_2]
  exact out8_at V c t h3 r d

theorem mem_blk8 (t : Fin cfg8.N) (i : S8192x512.Idx) :
    i ∈ ((cfg8.win 2).blk t).view.set ↔ ∀ a : Fin 2, win8_2.index t a * S512x512.size a ≤ (i a).val ∧ (i a).val < win8_2.index t a * S512x512.size a + S512x512.size a := by
  show i ∈ ((View.whole (Pipeline.arrRef spec8 2)).slice (win8_2.rect t)).set ↔ _
  rw [View.set_slice_whole, Rect.mem_set_unit]
  exact Iff.rfl

/-- THE RESULT ARRAY of region 8. -/
theorem final8 (c : Dev nD) : (dat8 (F := Ideal) V c).arrAt 2 cfg8.N = G8 V c :=
  (dat8 V c).arrAt_eq_of_cover 2 (G8 V c) (fun t hf => flushed8_eq V c t hf) fun i => by
    have hi0 : (i 0).val < 8192 := (i 0).isLt
    have hi1 : (i 1).val < 512 := (i 1).isLt
    have hN : 4 * ((i 0).val / 512) + 3 < cfg8.N := by rw [show cfg8.N = 64 from N_8]; omega
    refine ⟨⟨4 * ((i 0).val / 512) + 3, hN⟩, (flush8_2 _).mpr (by show (4 * ((i 0).val / 512) + 3) % 4 = 3; omega), ?_⟩
    rw [mem_blk8]
    obtain ⟨-, -, -, -, e4, e5, -⟩ := idx8 ⟨4 * ((i 0).val / 512) + 3, hN⟩
    intro a
    match a with
    | ⟨0, _⟩ => show win8_2.index _ (0 : Fin 2) * 512 ≤ (i 0).val ∧ (i 0).val < win8_2.index _ (0 : Fin 2) * 512 + 512; rw [e4]; show (4 * ((i 0).val / 512) + 3) / 4 * 512 ≤ _ ∧ _ < (4 * ((i 0).val / 512) + 3) / 4 * 512 + 512; omega
    | ⟨1, _⟩ => show win8_2.index _ (1 : Fin 2) * 512 ≤ (i 1).val ∧ (i 1).val < win8_2.index _ (1 : Fin 2) * 512 + 512; rw [e5]; omega

end Cert.KernelIdeal.Gen

end
-- ==== Proof.KI.V9a.lean ====
-- scratch/rename_region.js proof/Proof/KI/V3a.lean 9 64 shiftpay
/- Region 9, what each control case leaves, as values: the partial product after a step is "acc + raw_block^T · fc_rows"
   of the step's loads, the partial row sums "rs + sums of raw_block along axis 0", both from zero at k = 0 and from what
   came in otherwise; at k = 3 the result block is "acc / (rs^T + ε)" of the two just stored. The fc rows of step k
   are the 512-row slice of the whole fc array at row offset 512·k. -/
import proofs.«145590_j23742579212572_2_alg».proof.Proof.KI.R9
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz9 : (![0, 0] : Fin 2 → Nat) = fun _ => 0 := funext fun a => by fin_cases a <;> rfl

/-- The 512 fc rows the step at grid coordinates `i` loads. -/
abbrev fcRect9 (i : grid9.Coords) : Rect S2048x512 := Rect.unit (s := S2048x512) (k9_off1 i) S512x512.size (k9_off1_inb i)

theorem sout9_B_0_eq (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i) (x0 : Vec F S512x512 .f32) (x1 : Vec F S2048x512 .f32) (xs0 : Vec F S512x512 .f32) (xs1 : Vec F S1x512 .f32) :
    sout9_B_0 c i arg2 harg2 arg3 harg3 arg4 harg4 arg5 harg5 arg6 harg6 hc0 hc1 x0 x1 xs0 xs1 = k9_pay4 x0 (View.ld x1 (fcRect9 i)) xs0 := by
  unfold sout9_B_0
  rw [View.read_writes_eq_canon _ _ _ (scover9_B_0 c i arg2 harg2 arg3 harg3 arg4 harg4 arg5 harg5 arg6 harg6 hc0 hc1 x0 x1 xs0 xs1)]
  unfold kernelRun9_B
  dsimp only
  rw [View.canon_unit_zero hz9]
  simp only [View.readAt_eq_ld, harg2.read_unread, harg3.read_unread, harg5.read_unread, harg6.read_unread, View.ld_unit_zero (S := S512x512) hz9, View.ld_unit_zero (S := S1x512) hz9]
  try rfl

theorem sout9_B_1_eq (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : ¬cond9_1 i) (x0 : Vec F S512x512 .f32) (x1 : Vec F S2048x512 .f32) (xs0 : Vec F S512x512 .f32) (xs1 : Vec F S1x512 .f32) :
    sout9_B_1 c i arg2 harg2 arg3 harg3 arg4 harg4 arg5 harg5 arg6 harg6 hc0 hc1 x0 x1 xs0 xs1 = k9_pay5 x0 xs1 := by
  unfold sout9_B_1
  rw [View.read_writes_eq_canon _ _ _ (scover9_B_1 c i arg2 harg2 arg3 harg3 arg4 harg4 arg5 harg5 arg6 harg6 hc0 hc1 x0 x1 xs0 xs1)]
  unfold kernelRun9_B
  dsimp only
  rw [View.canon_unit_zero hz9]
  simp only [View.readAt_eq_ld, harg2.read_unread, harg3.read_unread, harg5.read_unread, harg6.read_unread, View.ld_unit_zero (S := S512x512) hz9, View.ld_unit_zero (S := S1x512) hz9]
  try rfl

theorem sout9_C_0_eq (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i) (x0 : Vec F S512x512 .f32) (x1 : Vec F S2048x512 .f32) (xs0 : Vec F S512x512 .f32) (xs1 : Vec F S1x512 .f32) :
    sout9_C_0 c i arg2 harg2 arg3 harg3 arg4 harg4 arg5 harg5 arg6 harg6 hc0 hc1 x0 x1 xs0 xs1 = k9_pay4 x0 (View.ld x1 (fcRect9 i)) xs0 := by
  unfold sout9_C_0
  rw [View.read_writes_eq_canon _ _ _ (scover9_C_0 c i arg2 harg2 arg3 harg3 arg4 harg4 arg5 harg5 arg6 harg6 hc0 hc1 x0 x1 xs0 xs1)]
  unfold kernelRun9_C
  dsimp only
  sl_unfold_words
  rw [View.canon_unit_zero hz9]
  simp only [View.readAt_eq_ld, harg2.read_unread, harg3.read_unread, harg5.read_unread, harg6.read_unread, View.ld_unit_zero (S := S512x512) hz9, View.ld_unit_zero (S := S1x512) hz9]
  try rfl

theorem sout9_C_1_eq (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i) (x0 : Vec F S512x512 .f32) (x1 : Vec F S2048x512 .f32) (xs0 : Vec F S512x512 .f32) (xs1 : Vec F S1x512 .f32) :
    sout9_C_1 c i arg2 harg2 arg3 harg3 arg4 harg4 arg5 harg5 arg6 harg6 hc0 hc1 x0 x1 xs0 xs1 = k9_pay5 x0 xs1 := by
  unfold sout9_C_1
  rw [View.read_writes_eq_canon _ _ _ (scover9_C_1 c i arg2 harg2 arg3 harg3 arg4 harg4 arg5 harg5 arg6 harg6 hc0 hc1 x0 x1 xs0 xs1)]
  unfold kernelRun9_C
  dsimp only
  sl_unfold_words
  rw [View.canon_unit_zero hz9]
  simp only [View.readAt_eq_ld, harg2.read_unread, harg3.read_unread, harg5.read_unread, harg6.read_unread, View.ld_unit_zero (S := S512x512) hz9, View.ld_unit_zero (S := S1x512) hz9]
  try rfl

theorem out9_C_2_eq (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : ¬cond9_0 i) (hc1 : cond9_1 i) (x0 : Vec F S512x512 .f32) (x1 : Vec F S2048x512 .f32) (xs0 : Vec F S512x512 .f32) (xs1 : Vec F S1x512 .f32) :
    out9_C_2 c i arg2 harg2 arg3 harg3 arg4 harg4 arg5 harg5 arg6 harg6 hc0 hc1 x0 x1 xs0 xs1 = k9_pay6 (k9_pay5 x0 xs1) (k9_pay4 x0 (View.ld x1 (fcRect9 i)) xs0) := by
  unfold out9_C_2
  rw [View.read_writes_eq_canon _ _ _ (cover9_C_2 c i arg2 harg2 arg3 harg3 arg4 harg4 arg5 harg5 arg6 harg6 hc0 hc1 x0 x1 xs0 xs1)]
  unfold kernelRun9_C
  dsimp only
  sl_unfold_words
  rw [View.canon_unit_zero hz9]
  simp only [View.readCov_unit_zero (S := S512x512) _ hz9, View.readCov_unit_zero (S := S1x512) _ hz9]
  simp only [View.readAt_eq_ld, harg2.read_unread, harg3.read_unread, harg5.read_unread, harg6.read_unread, View.ld_unit_zero (S := S512x512) hz9, View.ld_unit_zero (S := S1x512) hz9]
  try rfl

theorem sout9_A_0_eq (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i) (x0 : Vec F S512x512 .f32) (x1 : Vec F S2048x512 .f32) :
    sout9_A_0 c i arg2 harg2 arg3 harg3 arg4 harg4 arg5 harg5 arg6 harg6 hc0 hc1 x0 x1 = k9_pay4 x0 (View.ld x1 (fcRect9 i)) (k9_pay1 (F := F)) := by
  unfold sout9_A_0
  rw [View.read_writes_eq_canon _ _ _ (scover9_A_0 c i arg2 harg2 arg3 harg3 arg4 harg4 arg5 harg5 arg6 harg6 hc0 hc1 x0 x1)]
  unfold kernelRun9_A
  dsimp only
  sl_unfold_words
  rw [View.canon_cons_unit_zero (S := S512x512) hz9, View.readCov_unit_zero (S := S512x512) _ hz9]
  simp only [View.readAt_eq_ld, harg2.read_unread, harg3.read_unread, harg5.read_unread, harg6.read_unread, View.ld_unit_zero (S := S512x512) hz9, View.ld_unit_zero (S := S1x512) hz9]
  try rfl

theorem sout9_A_1_eq (c : Dev nD) (i : grid9.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (hc0 : cond9_0 i) (hc1 : ¬cond9_1 i) (x0 : Vec F S512x512 .f32) (x1 : Vec F S2048x512 .f32) :
    sout9_A_1 c i arg2 harg2 arg3 harg3 arg4 harg4 arg5 harg5 arg6 harg6 hc0 hc1 x0 x1 = k9_pay5 x0 (k9_pay2 (F := F)) := by
  unfold sout9_A_1
  rw [View.read_writes_eq_canon _ _ _ (scover9_A_1 c i arg2 harg2 arg3 harg3 arg4 harg4 arg5 harg5 arg6 harg6 hc0 hc1 x0 x1)]
  unfold kernelRun9_A
  dsimp only
  sl_unfold_words
  rw [View.canon_cons_unit_zero (S := S1x512) hz9, View.readCov_unit_zero (S := S1x512) _ hz9]
  simp only [View.readAt_eq_ld, harg2.read_unread, harg3.read_unread, harg5.read_unread, harg6.read_unread, View.ld_unit_zero (S := S512x512) hz9, View.ld_unit_zero (S := S1x512) hz9]
  try rfl

end Cert.KernelIdeal.Gen

end
-- ==== Proof.KI.V9b.lean ====
-- scratch/rename_region.js proof/Proof/KI/V3b.lean 9 64 shiftpay 8192
/- Region 9, its result array: row t, column d ends at (∑ s, raw s t · fc s d) / ((∑ s, raw s t) + ε) over ALL source
   rows s: the raw array enters transposed. The kernel reaches the two sums in four steps of 512 source rows: within
   result row block i, step k adds ∑ j<512 raw (512·k + j) (512·i + r) · fc (512·k + j) d to the partial product and
   ∑ j<512 raw (512·k + j) (512·i + r) to the partial sums, both restarted at k = 0; at k = 3 both hold the whole sums
   (a sum over 4·512 indices is the sum of its four blocks), and that step writes the block of the result back. -/
import proofs.«145590_j23742579212572_2_alg».proof.Proof.KI.V9a
import proofs.«145590_j23742579212572_2_alg».proof.Proof.KI.Pay
import proofs.«145590_j23742579212572_2_alg».proof.Proof.LibBlockSums
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay
open scoped BigOperators

variable (V : (c : Dev nD) → (b : Ref sig .tc) → Buf (Elt Ideal) ((c : Thread nD τ).loc b))

/-! ## The grid: which blocks a point reads and writes -/

theorem t9_lt (t : Fin cfg9.N) : t.val < 64 := lt_of_lt_of_eq t.isLt (show cfg9.N = 64 from N_9)

/-- Point t = 4·i + k reads raw block (k, i), the whole fc array, fc rows from 512·k, and holds result block (i, 0). -/
theorem idx9 : ∀ t : Fin cfg9.N,
    win9_0.index t (0 : Fin 2) = t.val % 4 ∧ win9_0.index t (1 : Fin 2) = t.val / 4
    ∧ win9_1.index t (0 : Fin 2) = 0 ∧ win9_1.index t (1 : Fin 2) = 0
    ∧ win9_2.index t (0 : Fin 2) = t.val / 4 ∧ win9_2.index t (1 : Fin 2) = 0
    ∧ k9_off1 (grid9.coords t) (0 : Fin 2) = 512 * (t.val % 4) ∧ k9_off1 (grid9.coords t) (1 : Fin 2) = 0 :=
  (by decide +kernel : ∀ t : Fin grid9.N, _)

/-- The raw array and the fc array as the region finds them. -/
abbrev A9 (c : Dev nD) : S2048x8192.Idx → Elt Ideal .f32 := V c (Pipeline.arrRef spec9 0)
abbrev Fc9 (c : Dev nD) : S2048x512.Idx → Elt Ideal .f32 := V c (Pipeline.arrRef spec9 1)

/-- Result row r of the row block of point t (a COLUMN of the raw array), and source row j of its step (a ROW of it). -/
def rowIx9 (t : Fin cfg9.N) (r : Fin 512) : Fin 8192 := ⟨512 * (t.val / 4) + r.val, by have := t9_lt t; have := r.isLt; omega⟩
def srcIx9 (t : Fin cfg9.N) (j : Fin 512) : Fin 2048 := ⟨512 * (t.val % 4) + j.val, by have := j.isLt; omega⟩

/-- The raw block and the fc rows of the step at position n. -/
abbrev rb9 (c : Dev nD) (n : ℕ) (h : n < cfg9.N) : Vec Ideal S512x512 .f32 := iblk9 V c 0 ⟨n, h⟩
abbrev fr9 (c : Dev nD) (n : ℕ) (h : n < cfg9.N) : Vec Ideal S512x512 .f32 :=
  View.ld (iblk9 V c 1 ⟨n, h⟩ : Vec Ideal S2048x512 .f32) (fcRect9 (grid9.coords ⟨n, h⟩))

/-- The raw block of the point at position n, at (j, r): source row first. -/
theorem rblk9_at (c : Dev nD) (n : ℕ) (h : n < cfg9.N) (j r : Fin 512) :
    rb9 V c n h (ix2 j r) = A9 V c (ix2 (srcIx9 ⟨n, h⟩ j) (rowIx9 ⟨n, h⟩ r)) := by
  have e0 : win9_0.index ⟨n, h⟩ (0 : Fin 2) = n % 4 := (idx9 ⟨n, h⟩).1
  have e1 : win9_0.index ⟨n, h⟩ (1 : Fin 2) = n / 4 := (idx9 ⟨n, h⟩).2.1
  show (iblk9 V c 0 ⟨n, h⟩ : Vec Ideal S512x512 .f32) (ix2 j r) = _
  unfold iblk9
  rw [View.read_apply]
  show V c (Pipeline.arrRef spec9 0) _ = V c (Pipeline.arrRef spec9 0) _
  refine congrArg _ ?_
  funext a; apply Fin.ext
  match a with
  | ⟨0, _⟩ => show win9_0.index ⟨n, h⟩ (0 : Fin 2) * 512 + 1 * j.val = 512 * (n % 4) + j.val; rw [e0]; omega
  | ⟨1, _⟩ => show win9_0.index ⟨n, h⟩ (1 : Fin 2) * 512 + 1 * r.val = 512 * (n / 4) + r.val; rw [e1]; omega

/-- The fc rows the step of point t loads, at (j, d): rows from 512·k of the whole fc array. -/
theorem fcrows9_at (c : Dev nD) (n : ℕ) (h : n < cfg9.N) (j d : Fin 512) :
    fr9 V c n h (ix2 j d) = Fc9 V c (ix2 (srcIx9 ⟨n, h⟩ j) d) := by
  have e2 : win9_1.index ⟨n, h⟩ (0 : Fin 2) = 0 := (idx9 ⟨n, h⟩).2.2.1
  have e3 : win9_1.index ⟨n, h⟩ (1 : Fin 2) = 0 := (idx9 ⟨n, h⟩).2.2.2.1
  have e6 : k9_off1 (grid9.coords ⟨n, h⟩) (0 : Fin 2) = 512 * (n % 4) := (idx9 ⟨n, h⟩).2.2.2.2.2.2.1
  have e7 : k9_off1 (grid9.coords ⟨n, h⟩) (1 : Fin 2) = 0 := (idx9 ⟨n, h⟩).2.2.2.2.2.2.2
  show View.ld (iblk9 V c 1 ⟨n, h⟩ : Vec Ideal S2048x512 .f32) (fcRect9 (grid9.coords ⟨n, h⟩)) (ix2 j d) = _
  unfold iblk9
  show (((cfg9.win 1).blk ⟨n, h⟩).view.read (Elt Ideal) (V c (Pipeline.arrRef spec9 1))) ((fcRect9 (grid9.coords ⟨n, h⟩)).idx (ix2 j d)) = _
  rw [View.read_apply]
  show V c (Pipeline.arrRef spec9 1) _ = V c (Pipeline.arrRef spec9 1) _
  refine congrArg _ ?_
  funext a; apply Fin.ext
  match a with
  | ⟨0, _⟩ => show win9_1.index ⟨n, h⟩ (0 : Fin 2) * 2048 + 1 * (k9_off1 (grid9.coords ⟨n, h⟩) (0 : Fin 2) + 1 * j.val) = 512 * (n % 4) + j.val; rw [e2, e6]; omega
  | ⟨1, _⟩ => show win9_1.index ⟨n, h⟩ (1 : Fin 2) * 512 + 1 * (k9_off1 (grid9.coords ⟨n, h⟩) (1 : Fin 2) + 1 * d.val) = d.val; rw [e3, e7]; omega

/-! ## The two accumulators, point by point -/

/-- At k = 0 the partial product is the step's product added to zero. -/
theorem acc9_reset (c : Dev nD) (n : ℕ) (h : n < cfg9.N) (h0 : n % 4 = 0) :
    (outsAt9 V c n h).2.1 = k9_pay4 (rb9 V c n h) (fr9 V c n h) (k9_pay1 (F := Ideal)) := by
  have e := outsAt9_A V c ⟨n, h⟩ h0 (by dsimp only; omega)
  rw [(e : outsAt9 V c n h = _)]; unfold step9_A
  rw [sout9_A_0_eq] <;> try rfl

/-- At every other k it is the step's product added to what the point before left. -/
theorem acc9_step (c : Dev nD) (n : ℕ) (h : n + 1 < cfg9.N) (hne : ¬(n + 1) % 4 = 0) :
    (outsAt9 V c (n + 1) h).2.1 = k9_pay4 (rb9 V c (n + 1) h) (fr9 V c (n + 1) h) (outsAt9 V c n (Nat.lt_of_succ_lt h)).2.1 := by
  by_cases h1 : (n + 1) % 4 = 3
  · have e := outsAt9_C V c ⟨n + 1, h⟩ hne h1
    rw [(e : outsAt9 V c (n + 1) h = _)]; unfold step9_C
    rw [sout9_C_0_eq] <;> try rfl
  · have e := outsAt9_B V c ⟨n + 1, h⟩ hne h1
    rw [(e : outsAt9 V c (n + 1) h = _)]; unfold step9_B
    rw [sout9_B_0_eq] <;> try rfl

/-- The same for the row of partial sums. -/
theorem rs9_reset (c : Dev nD) (n : ℕ) (h : n < cfg9.N) (h0 : n % 4 = 0) :
    (outsAt9 V c n h).2.2 = k9_pay5 (rb9 V c n h) (k9_pay2 (F := Ideal)) := by
  have e := outsAt9_A V c ⟨n, h⟩ h0 (by dsimp only; omega)
  rw [(e : outsAt9 V c n h = _)]; unfold step9_A
  rw [sout9_A_1_eq] <;> try rfl

theorem rs9_step (c : Dev nD) (n : ℕ) (h : n + 1 < cfg9.N) (hne : ¬(n + 1) % 4 = 0) :
    (outsAt9 V c (n + 1) h).2.2 = k9_pay5 (rb9 V c (n + 1) h) (outsAt9 V c n (Nat.lt_of_succ_lt h)).2.2 := by
  by_cases h1 : (n + 1) % 4 = 3
  · have e := outsAt9_C V c ⟨n + 1, h⟩ hne h1
    rw [(e : outsAt9 V c (n + 1) h = _)]; unfold step9_C
    rw [sout9_C_1_eq] <;> try rfl
  · have e := outsAt9_B V c ⟨n + 1, h⟩ hne h1
    rw [(e : outsAt9 V c (n + 1) h = _)]; unfold step9_B
    rw [sout9_B_1_eq] <;> try rfl

/-- At k = 3 the result block is the partial product over the guarded partial sums, both as that point leaves them. -/
theorem out9_last (c : Dev nD) (t : Fin cfg9.N) (h0 : ¬t.val % 4 = 0) (h3 : t.val % 4 = 3) :
    (outsAt9 V c t.val t.isLt).1 = k9_pay6 (outsAt9 V c t.val t.isLt).2.2 (outsAt9 V c t.val t.isLt).2.1 := by
  rw [outsAt9_C V c t h0 h3]; unfold step9_C
  rw [out9_C_2_eq, sout9_C_0_eq, sout9_C_1_eq]

/-- The addend of the step at position n, at an element of the block: the 512 products, and the 512 raw entries. -/
def M9 (c : Dev nD) (n : ℕ) (i : S512x512.Idx) : EReal :=
  if h : n < cfg9.N then ∑ j : Fin 512, rb9 V c n h (ix2 (n0 := 512) (n1 := 512) j (i 0)) * fr9 V c n h (ix2 (n0 := 512) (n1 := 512) j (i 1)) else 0
def Rs9 (c : Dev nD) (n : ℕ) (i : S1x512.Idx) : EReal :=
  if h : n < cfg9.N then ∑ j : Fin 512, rb9 V c n h (ix2 (n0 := 512) (n1 := 512) j (i 1)) else 0

/-- After the step at k the partial product holds the sum of the addends of steps 0 … k of its row block. -/
theorem acc9_sum (c : Dev nD) (t : Fin cfg9.N) (r d : Fin 512) :
    (outsAt9 V c t.val t.isLt).2.1 (ix2 r d) = ∑ s ∈ Finset.range (t.val % 4 + 1), M9 V c (4 * (t.val / 4) + s) (ix2 r d) := by
  have h' : 4 * (t.val / 4) + t.val % 4 < cfg9.N := by rw [Nat.div_add_mod]; exact t.isLt
  have e := Pipeline.eq_accAt_of_mod (fun n h => (outsAt9 V c n h).2.1) 4
    (fun n h => k9_pay4 (rb9 V c n h) (fr9 V c n h) (k9_pay1 (F := Ideal)))
    (fun n h acc => k9_pay4 (rb9 V c n h) (fr9 V c n h) acc)
    (fun n h h0 => acc9_reset V c n h h0) (fun n h hne => acc9_step V c n h hne) (by decide) t.val t.isLt h'
  rw [e]
  have key := Pipeline.accAt_add_apply (N := cfg9.N)
    (fun n h => k9_pay4 (rb9 V c n h) (fr9 V c n h) (k9_pay1 (F := Ideal)))
    (fun n h acc => k9_pay4 (rb9 V c n h) (fr9 V c n h) acc)
    (fun _ => (0 : EReal)) (M9 V c) (4 * (t.val / 4)) 3
    (fun h i => by
      obtain ⟨r, d, rfl⟩ : ∃ (r d : Fin 512), i = ix2 r d := ⟨i 0, i 1, eq_ix2 i⟩
      rw [k9_pay4_at, k9_pay1_at]; simp only [M9, dif_pos h])
    (fun n h acc i _ _ => by
      obtain ⟨r, d, rfl⟩ : ∃ (r d : Fin 512), i = ix2 r d := ⟨i 0, i 1, eq_ix2 i⟩
      rw [k9_pay4_at]; simp only [M9, dif_pos h])
    (t.val % 4) (by omega) h' (ix2 r d)
  rw [key, zero_add]

theorem rs9_sum (c : Dev nD) (t : Fin cfg9.N) (r : Fin 512) :
    (outsAt9 V c t.val t.isLt).2.2 (ix2 0 r) = ∑ s ∈ Finset.range (t.val % 4 + 1), Rs9 V c (4 * (t.val / 4) + s) (ix2 0 r) := by
  have h' : 4 * (t.val / 4) + t.val % 4 < cfg9.N := by rw [Nat.div_add_mod]; exact t.isLt
  have e := Pipeline.eq_accAt_of_mod (fun n h => (outsAt9 V c n h).2.2) 4
    (fun n h => k9_pay5 (rb9 V c n h) (k9_pay2 (F := Ideal)))
    (fun n h rs => k9_pay5 (rb9 V c n h) rs)
    (fun n h h0 => rs9_reset V c n h h0) (fun n h hne => rs9_step V c n h hne) (by decide) t.val t.isLt h'
  rw [e]
  have key := Pipeline.accAt_add_apply (N := cfg9.N)
    (fun n h => k9_pay5 (rb9 V c n h) (k9_pay2 (F := Ideal)))
    (fun n h rs => k9_pay5 (rb9 V c n h) rs)
    (fun _ => (0 : EReal)) (Rs9 V c) (4 * (t.val / 4)) 3
    (fun h i => by
      obtain ⟨z, r, rfl⟩ : ∃ (z : Fin 1) (r : Fin 512), i = ix2 z r := ⟨i 0, i 1, eq_ix2 i⟩
      obtain rfl : z = 0 := Subsingleton.elim _ _
      rw [k9_pay5_at, k9_pay2_at]; simp only [Rs9, dif_pos h])
    (fun n h rs i _ _ => by
      obtain ⟨z, r, rfl⟩ : ∃ (z : Fin 1) (r : Fin 512), i = ix2 z r := ⟨i 0, i 1, eq_ix2 i⟩
      obtain rfl : z = 0 := Subsingleton.elim _ _
      rw [k9_pay5_at]; simp only [Rs9, dif_pos h])
    (t.val % 4) (by omega) h' (ix2 0 r)
  rw [key, zero_add]

/-! ## The whole sums at the last step -/

/-- The addend of step s of row block q, at (r, d), in the arrays: source rows 512·s … 512·s + 511. -/
theorem M9_at (c : Dev nD) (q : ℕ) (hq : q < 16) (s : Fin 4) (r d : Fin 512) :
    M9 V c (4 * q + s.val) (ix2 r d)
      = ∑ j : Fin 512, A9 V c (ix2 (⟨s.val * 512 + j.val, Cert.BlockSums.blk_lt s j⟩ : Fin (4 * 512)) (⟨512 * q + r.val, by have := r.isLt; omega⟩ : Fin 8192))
          * Fc9 V c (ix2 (⟨s.val * 512 + j.val, Cert.BlockSums.blk_lt s j⟩ : Fin (4 * 512)) d) := by
  have hs := s.isLt
  have h : 4 * q + s.val < cfg9.N := by rw [show cfg9.N = 64 from N_9]; omega
  simp only [M9, dif_pos h]
  show ∑ j : Fin 512, rb9 V c (4 * q + s.val) h (ix2 j r) * fr9 V c (4 * q + s.val) h (ix2 j d) = _
  refine Finset.sum_congr rfl fun j _ => ?_
  rw [rblk9_at, fcrows9_at]
  have e1 : rowIx9 ⟨4 * q + s.val, h⟩ r = (⟨512 * q + r.val, by have := r.isLt; omega⟩ : Fin 8192) := Fin.ext (by show 512 * ((4 * q + s.val) / 4) + r.val = 512 * q + r.val; omega)
  have e2 : srcIx9 ⟨4 * q + s.val, h⟩ j = (⟨s.val * 512 + j.val, Cert.BlockSums.blk_lt s j⟩ : Fin (4 * 512)) := Fin.ext (by show 512 * ((4 * q + s.val) % 4) + j.val = s.val * 512 + j.val; omega)
  rw [e1, e2]

theorem Rs9_at (c : Dev nD) (q : ℕ) (hq : q < 16) (s : Fin 4) (r : Fin 512) :
    Rs9 V c (4 * q + s.val) (ix2 0 r)
      = ∑ j : Fin 512, A9 V c (ix2 (⟨s.val * 512 + j.val, Cert.BlockSums.blk_lt s j⟩ : Fin (4 * 512)) (⟨512 * q + r.val, by have := r.isLt; omega⟩ : Fin 8192)) := by
  have hs := s.isLt
  have h : 4 * q + s.val < cfg9.N := by rw [show cfg9.N = 64 from N_9]; omega
  simp only [Rs9, dif_pos h]
  show ∑ j : Fin 512, rb9 V c (4 * q + s.val) h (ix2 j r) = _
  refine Finset.sum_congr rfl fun j _ => ?_
  rw [rblk9_at]
  have e1 : rowIx9 ⟨4 * q + s.val, h⟩ r = (⟨512 * q + r.val, by have := r.isLt; omega⟩ : Fin 8192) := Fin.ext (by show 512 * ((4 * q + s.val) / 4) + r.val = 512 * q + r.val; omega)
  have e2 : srcIx9 ⟨4 * q + s.val, h⟩ j = (⟨s.val * 512 + j.val, Cert.BlockSums.blk_lt s j⟩ : Fin (4 * 512)) := Fin.ext (by show 512 * ((4 * q + s.val) % 4) + j.val = s.val * 512 + j.val; omega)
  rw [e1, e2]

/-- At the last step of a row block the partial product holds the sum over ALL source rows. -/
theorem acc9_full (c : Dev nD) (t : Fin cfg9.N) (h3 : t.val % 4 = 3) (r d : Fin 512) :
    (outsAt9 V c t.val t.isLt).2.1 (ix2 r d) = ∑ s : Fin (2048), A9 V c (ix2 s (rowIx9 t r)) * Fc9 V c (ix2 s d) := by
  have hN := t9_lt t
  rw [acc9_sum, h3, Finset.sum_range]
  rw [show (∑ s : Fin (2048), A9 V c (ix2 s (rowIx9 t r)) * Fc9 V c (ix2 s d))
        = ∑ s : Fin (4 * 512), A9 V c (ix2 s (rowIx9 t r)) * Fc9 V c (ix2 s d) from rfl,
    Cert.BlockSums.sum_blocks 4 512]
  refine Finset.sum_congr rfl fun s _ => ?_
  rw [M9_at V c (t.val / 4) (by omega) s r d]
  rfl

theorem rs9_full (c : Dev nD) (t : Fin cfg9.N) (h3 : t.val % 4 = 3) (r : Fin 512) :
    (outsAt9 V c t.val t.isLt).2.2 (ix2 0 r) = ∑ s : Fin (2048), A9 V c (ix2 s (rowIx9 t r)) := by
  have hN := t9_lt t
  rw [rs9_sum, h3, Finset.sum_range]
  rw [show (∑ s : Fin (2048), A9 V c (ix2 s (rowIx9 t r)))
        = ∑ s : Fin (4 * 512), A9 V c (ix2 s (rowIx9 t r)) from rfl,
    Cert.BlockSums.sum_blocks 4 512]
  refine Finset.sum_congr rfl fun s _ => ?_
  rw [Rs9_at V c (t.val / 4) (by omega) s r]
  rfl

/-! ## The result array -/

/-- Row t, column d of the result: the collection over all source rows through the TRANSPOSED raw array, normalized
    by the guarded sum of the raw array's column t. -/
def G9 (c : Dev nD) : S8192x512.Idx → Elt Ideal .f32 := fun y =>
  Cert.Spec.collectAt (fun t s => A9 V c (ix2 s t)) (fun s d => Fc9 V c (ix2 s d)) (y 0) (y 1)

/-- What the last step of a row block leaves in the result buffer, at (r, d). -/
theorem out9_at (c : Dev nD) (t : Fin cfg9.N) (h3 : t.val % 4 = 3) (r d : Fin 512) :
    (outsAt9 V c t.val t.isLt).1 (ix2 r d) = G9 V c (ix2 (rowIx9 t r) d) := by
  rw [out9_last V c t (by omega) h3, k9_pay6_at, acc9_full V c t h3, rs9_full V c t h3]
  rfl

/-- Where the block of point t sits in the result array. -/
theorem emb9_2 (t : Fin cfg9.N) (r d : Fin 512) :
    ((cfg9.win 2).blk t).view.emb (ix2 r d) = ix2 (rowIx9 t r) d := by
  obtain ⟨-, -, -, -, e4, e5, -⟩ := idx9 t
  funext a; apply Fin.ext
  match a with
  | ⟨0, _⟩ => show win9_2.index t (0 : Fin 2) * 512 + 1 * r.val = 512 * (t.val / 4) + r.val; rw [e4]; omega
  | ⟨1, _⟩ => show win9_2.index t (1 : Fin 2) * 512 + 1 * d.val = d.val; rw [e5]; omega

/-- What a write-back writes is its block of the result. -/
theorem flushed9_eq (c : Dev nD) (t : Fin cfg9.N) (hf : (cfg9.win 2).flush t = true) :
    (dat9 V c).flushed 2 t = ((cfg9.win 2).blk t).view.read (Elt Ideal) (G9 V c) := by
  have h3 : t.val % 4 = 3 := (flush9_2 t).mp hf
  show (cfg9.win 2).cut (grid9.coords t) ((dat9 V c).after 2 t) = _
  rw [after9_2]
  funext y
  obtain ⟨r, d, rfl⟩ : ∃ (r d : Fin 512), y = ix2 r d := ⟨y 0, y 1, eq_ix2 y⟩
  rw [View.read_apply, emb9_2]
  exact out9_at V c t h3 r d

theorem mem_blk9 (t : Fin cfg9.N) (i : S8192x512.Idx) :
    i ∈ ((cfg9.win 2).blk t).view.set ↔ ∀ a : Fin 2, win9_2.index t a * S512x512.size a ≤ (i a).val ∧ (i a).val < win9_2.index t a * S512x512.size a + S512x512.size a := by
  show i ∈ ((View.whole (Pipeline.arrRef spec9 2)).slice (win9_2.rect t)).set ↔ _
  rw [View.set_slice_whole, Rect.mem_set_unit]
  exact Iff.rfl

/-- THE RESULT ARRAY of region 9. -/
theorem final9 (c : Dev nD) : (dat9 (F := Ideal) V c).arrAt 2 cfg9.N = G9 V c :=
  (dat9 V c).arrAt_eq_of_cover 2 (G9 V c) (fun t hf => flushed9_eq V c t hf) fun i => by
    have hi0 : (i 0).val < 8192 := (i 0).isLt
    have hi1 : (i 1).val < 512 := (i 1).isLt
    have hN : 4 * ((i 0).val / 512) + 3 < cfg9.N := by rw [show cfg9.N = 64 from N_9]; omega
    refine ⟨⟨4 * ((i 0).val / 512) + 3, hN⟩, (flush9_2 _).mpr (by show (4 * ((i 0).val / 512) + 3) % 4 = 3; omega), ?_⟩
    rw [mem_blk9]
    obtain ⟨-, -, -, -, e4, e5, -⟩ := idx9 ⟨4 * ((i 0).val / 512) + 3, hN⟩
    intro a
    match a with
    | ⟨0, _⟩ => show win9_2.index _ (0 : Fin 2) * 512 ≤ (i 0).val ∧ (i 0).val < win9_2.index _ (0 : Fin 2) * 512 + 512; rw [e4]; show (4 * ((i 0).val / 512) + 3) / 4 * 512 ≤ _ ∧ _ < (4 * ((i 0).val / 512) + 3) / 4 * 512 + 512; omega
    | ⟨1, _⟩ => show win9_2.index _ (1 : Fin 2) * 512 ≤ (i 1).val ∧ (i 1).val < win9_2.index _ (1 : Fin 2) * 512 + 512; rw [e5]; omega

end Cert.KernelIdeal.Gen

end
-- ==== Proof.KI.ValTop.lean ====
import proofs.«145590_j23742579212572_2_alg».proof.Proof.KI.Run
import proofs.«145590_j23742579212572_2_alg».proof.Proof.Spec
import proofs.«145590_j23742579212572_2_alg».proof.Proof.KI.ValLin
import proofs.«145590_j23742579212572_2_alg».proof.Proof.KI.V3b
import proofs.«145590_j23742579212572_2_alg».proof.Proof.KI.V4b
import proofs.«145590_j23742579212572_2_alg».proof.Proof.KI.V5b
import proofs.«145590_j23742579212572_2_alg».proof.Proof.KI.V6b
import proofs.«145590_j23742579212572_2_alg».proof.Proof.KI.V7b
import proofs.«145590_j23742579212572_2_alg».proof.Proof.KI.V8b
import proofs.«145590_j23742579212572_2_alg».proof.Proof.KI.V9b
import Idealize.ShloMosaic.Lib.ValueLayout
import Idealize.ShloMosaic.Lib.Pipeline.Value

/-! # The three results at the return, as the specification of the launch arrays

The run ends with every unscoped buffer at the last boundary's contents. This module reads those contents at the three
result buffers. Each is written by a host stretch from the regions' results: the attribute features add the attribute
rows to one collection; the object features add the object rows to a quarter of the sum of four collections; the
relation features add the relation rows to half of the sum of two. Each collection's result is the pipeline's final
array, a closed function of the region's entry arrays; each entry array is walked back, through the items that leave it
alone, to the item that wrote it — a launch argument, a linear-plus-relu region's result, or the first host stretch's
reshaped bias row or role slice of the object-relation map. Composed, the readings are the specification's formulas
term for term. -/

set_option maxRecDepth 16384

noncomputable section

namespace Cert.KernelIdeal.Gen

open Idealize.ShloMosaic Idealize.ShloMosaic.TcCoe Idealize.ShloMosaic.Tactic
open Idealize.SL Idealize.SL.Sem
open Idealize.ShloMosaic.StableHlo Idealize.ShloMosaic.ValueIdx
open Idealize.ShloMosaic.Pipeline (Dat)

variable (m : (ℓ : Loc nD τ sig) → Buf (Elt Ideal) ℓ)

/-! ## Small facts about the specification's index functions -/

theorem fcAt_fun_congr {N : Nat} {src src' : (⟨2, ![N, 512]⟩ : Shape).Idx → EReal} {W W' : (⟨2, ![512, 512]⟩ : Shape).Idx → EReal}
    {b b' : (⟨1, ![512]⟩ : Shape).Idx → EReal} (hs : src = src') (hW : W = W') (hb : b = b') :
    (fun y : (⟨2, ![N, 512]⟩ : Shape).Idx => Spec.fcAt src W b (y 0) (y 1)) = fun y => Spec.fcAt src' W' b' (y 0) (y 1) := by
  subst hs; subst hW; subst hb; rfl

theorem collectAt_fun_congr {Nt Ns : Nat} {attn attn' : Fin Nt → Fin Ns → EReal} {fc fc' : Fin Ns → Fin 512 → EReal}
    (ha : attn = attn') (hf : fc = fc') :
    (fun y : (⟨2, ![Nt, 512]⟩ : Shape).Idx => Spec.collectAt attn fc (y 0) (y 1)) = fun y => Spec.collectAt attn' fc' (y 0) (y 1) := by
  subst ha; subst hf; rfl

/-- A bias vector viewed as a one-row matrix and read back along the row is the vector. -/
theorem row_back {x : (⟨1, ![512]⟩ : Shape).Idx → EReal} {v : (⟨2, ![1, 512]⟩ : Shape).Idx → EReal}
    (h : v = fun i => x (ix1 (i 1))) : (fun e : (⟨1, ![512]⟩ : Shape).Idx => v (ix2 0 (e 0))) = x := by
  subst h; funext e; exact congrArg x (eq_ix1 e).symm

/-! ## The launch arguments at the boundaries where something reads them -/

theorem W1_arg0 (c : Dev nD) : W1 m c (Proc.devRef .tc main_arg0) = m ((c : Thread nD τ).loc main_arg0) :=
  ((W1_keep m c main_arg0 (by decide))).trans rfl

theorem W1_arg6 (c : Dev nD) : W1 m c (Proc.devRef .tc main_arg6) = m ((c : Thread nD τ).loc main_arg6) :=
  ((W1_keep m c main_arg6 (by decide))).trans rfl

theorem W3_arg1 (c : Dev nD) : W3 m c (Proc.devRef .tc main_arg1) = m ((c : Thread nD τ).loc main_arg1) :=
  ((W3_keep m c main_arg1 (by decide)).trans ((W2_keep m c main_arg1 (by decide)).trans ((W1_keep m c main_arg1 (by decide))))).trans rfl

theorem W3_arg8 (c : Dev nD) : W3 m c (Proc.devRef .tc main_arg8) = m ((c : Thread nD τ).loc main_arg8) :=
  ((W3_keep m c main_arg8 (by decide)).trans ((W2_keep m c main_arg8 (by decide)).trans ((W1_keep m c main_arg8 (by decide))))).trans rfl

theorem W5_arg2 (c : Dev nD) : W5 m c (Proc.devRef .tc main_arg2) = m ((c : Thread nD τ).loc main_arg2) :=
  ((W5_keep m c main_arg2 (by decide)).trans ((W4_keep m c main_arg2 (by decide)).trans ((W3_keep m c main_arg2 (by decide)).trans ((W2_keep m c main_arg2 (by decide)).trans ((W1_keep m c main_arg2 (by decide))))))).trans rfl

theorem W5_arg10 (c : Dev nD) : W5 m c (Proc.devRef .tc main_arg10) = m ((c : Thread nD τ).loc main_arg10) :=
  ((W5_keep m c main_arg10 (by decide)).trans ((W4_keep m c main_arg10 (by decide)).trans ((W3_keep m c main_arg10 (by decide)).trans ((W2_keep m c main_arg10 (by decide)).trans ((W1_keep m c main_arg10 (by decide))))))).trans rfl

theorem W6_arg3 (c : Dev nD) : W6 m c (Proc.devRef .tc main_arg3) = m ((c : Thread nD τ).loc main_arg3) :=
  ((W6_keep m c main_arg3 (by decide)).trans ((W5_keep m c main_arg3 (by decide)).trans ((W4_keep m c main_arg3 (by decide)).trans ((W3_keep m c main_arg3 (by decide)).trans ((W2_keep m c main_arg3 (by decide)).trans ((W1_keep m c main_arg3 (by decide)))))))).trans rfl

theorem W8_arg3 (c : Dev nD) : W8 m c (Proc.devRef .tc main_arg3) = m ((c : Thread nD τ).loc main_arg3) :=
  ((W8_keep m c main_arg3 (by decide)).trans ((W7_keep m c main_arg3 (by decide)).trans ((W6_keep m c main_arg3 (by decide)).trans ((W5_keep m c main_arg3 (by decide)).trans ((W4_keep m c main_arg3 (by decide)).trans ((W3_keep m c main_arg3 (by decide)).trans ((W2_keep m c main_arg3 (by decide)).trans ((W1_keep m c main_arg3 (by decide)))))))))).trans rfl

theorem W9_arg4 (c : Dev nD) : W9 m c (Proc.devRef .tc main_arg4) = m ((c : Thread nD τ).loc main_arg4) :=
  ((W9_keep m c main_arg4 (by decide)).trans ((W8_keep m c main_arg4 (by decide)).trans ((W7_keep m c main_arg4 (by decide)).trans ((W6_keep m c main_arg4 (by decide)).trans ((W5_keep m c main_arg4 (by decide)).trans ((W4_keep m c main_arg4 (by decide)).trans ((W3_keep m c main_arg4 (by decide)).trans ((W2_keep m c main_arg4 (by decide)).trans ((W1_keep m c main_arg4 (by decide))))))))))).trans rfl

theorem W7_arg1 (c : Dev nD) : W7 m c (Proc.devRef .tc main_arg1) = m ((c : Thread nD τ).loc main_arg1) :=
  ((W7_keep m c main_arg1 (by decide)).trans ((W6_keep m c main_arg1 (by decide)).trans ((W5_keep m c main_arg1 (by decide)).trans ((W4_keep m c main_arg1 (by decide)).trans ((W3_keep m c main_arg1 (by decide)).trans ((W2_keep m c main_arg1 (by decide)).trans ((W1_keep m c main_arg1 (by decide))))))))).trans rfl

theorem W12_arg0 (c : Dev nD) : W12 m c (Proc.devRef .tc main_arg0) = m ((c : Thread nD τ).loc main_arg0) :=
  ((W12_keep m c main_arg0 (by decide)).trans ((W11_keep m c main_arg0 (by decide)).trans ((W10_keep m c main_arg0 (by decide)).trans ((W9_keep m c main_arg0 (by decide)).trans ((W8_keep m c main_arg0 (by decide)).trans ((W7_keep m c main_arg0 (by decide)).trans ((W6_keep m c main_arg0 (by decide)).trans ((W5_keep m c main_arg0 (by decide)).trans ((W4_keep m c main_arg0 (by decide)).trans ((W3_keep m c main_arg0 (by decide)).trans ((W2_keep m c main_arg0 (by decide)).trans ((W1_keep m c main_arg0 (by decide)))))))))))))).trans rfl

theorem W15_arg2 (c : Dev nD) : W15 m c (Proc.devRef .tc main_arg2) = m ((c : Thread nD τ).loc main_arg2) :=
  ((W15_keep m c main_arg2 (by decide)).trans ((W14_keep m c main_arg2 (by decide)).trans ((W13_keep m c main_arg2 (by decide)).trans ((W12_keep m c main_arg2 (by decide)).trans ((W11_keep m c main_arg2 (by decide)).trans ((W10_keep m c main_arg2 (by decide)).trans ((W9_keep m c main_arg2 (by decide)).trans ((W8_keep m c main_arg2 (by decide)).trans ((W7_keep m c main_arg2 (by decide)).trans ((W6_keep m c main_arg2 (by decide)).trans ((W5_keep m c main_arg2 (by decide)).trans ((W4_keep m c main_arg2 (by decide)).trans ((W3_keep m c main_arg2 (by decide)).trans ((W2_keep m c main_arg2 (by decide)).trans ((W1_keep m c main_arg2 (by decide))))))))))))))))).trans rfl

theorem W2_arg9 (c : Dev nD) : W2 m c (Proc.devRef .tc main_arg9) = m ((c : Thread nD τ).loc main_arg9) :=
  ((W2_keep m c main_arg9 (by decide)).trans ((W1_keep m c main_arg9 (by decide)))).trans rfl

theorem W4_arg11 (c : Dev nD) : W4 m c (Proc.devRef .tc main_arg11) = m ((c : Thread nD τ).loc main_arg11) :=
  ((W4_keep m c main_arg11 (by decide)).trans ((W3_keep m c main_arg11 (by decide)).trans ((W2_keep m c main_arg11 (by decide)).trans ((W1_keep m c main_arg11 (by decide)))))).trans rfl

/-! ## The first host stretch: the two role slices of the object-relation map, and the first bias as a row -/

/-- A vector of 512 reshaped to one row reads, at (u, d), the vector at d. -/
theorem row_of (x : (⟨1, ![512]⟩ : Shape).Idx → EReal) (h : (⟨1, ![512]⟩ : Shape).ShapeCasts ⟨2, ![1, 512]⟩) :
    shapeCast ⟨2, ![1, 512]⟩ x h = fun i => x (ix1 (i 1)) := by
  funext i
  obtain ⟨u, d, rfl⟩ : ∃ (u : Fin 1) (d : Fin 512), i = ix2 u d := ⟨i 0, i 1, eq_ix2 i⟩
  exact shapeCast_a_1a_apply x h u d

/-- Slicing the last axis of a [2048, 8192, 2] array at `r` and dropping the unit axis reads the array at (t, s, r):
    the row-major position t · 8192 + s of the pair splits back into t and s. -/
theorem role_slice (r : Fin 2) (x : (⟨3, ![2048, 8192, 2]⟩ : Shape).Idx → EReal)
    (hs : (⟨3, ![2048, 8192, 2]⟩ : Shape).Slices ![0, 0, r.val] ⟨3, ![2048, 8192, 1]⟩)
    (hc : (⟨3, ![2048, 8192, 1]⟩ : Shape).ShapeCasts ⟨2, ![2048, 8192]⟩) :
    shapeCast ⟨2, ![2048, 8192]⟩ (extractStridedSlice ⟨3, ![2048, 8192, 1]⟩ ![0, 0, r.val] x hs) hc
      = fun i => x (ix3 (i 0) (i 1) r) := by
  funext i
  obtain ⟨t, s, rfl⟩ : ∃ (t : Fin 2048) (s : Fin 8192), i = ix2 t s := ⟨i 0, i 1, eq_ix2 i⟩
  have ht := t.isLt; have hs' := s.isLt
  refine (shapeCast_apply _ hc (ix2 t s) (ix3 t s (0 : Fin 1)) ?_).trans ?_
  · rw [Shape.rowMajor_val_three, Shape.rowMajor_val_two]
    show (t.val * 8192 + s.val) * 1 + 0 = t.val * 8192 + s.val
    omega
  · exact extractStridedSlice_apply ![0, 0, r.val] x hs (ix3 t s (0 : Fin 1)) (ix3 t s r) (fun a => match a with
      | ⟨0, _⟩ => by show t.val = 0 + t.val; omega
      | ⟨1, _⟩ => by show s.val = 0 + s.val; omega
      | ⟨2, _⟩ => by show r.val = r.val + 0; omega)

theorem W1_v4 (c : Dev nD) : W1 m c (Proc.devRef .tc main_v4) = fun i => (m ((c : Thread nD τ).loc main_arg7)) (ix1 (i 1)) := by
  show StableHlo.after hostOps0 _ (Proc.devRef .tc main_v4) = _
  after_results
  exact row_of _ _

theorem W1_v1 (c : Dev nD) : W1 m c (Proc.devRef .tc main_v1) = fun i => (m ((c : Thread nD τ).loc main_arg5)) (ix3 (i 0) (i 1) 0) := by
  show StableHlo.after hostOps0 _ (Proc.devRef .tc main_v1) = _
  after_results
  exact role_slice 0 _ _ _

theorem W1_v3 (c : Dev nD) : W1 m c (Proc.devRef .tc main_v3) = fun i => (m ((c : Thread nD τ).loc main_arg5)) (ix3 (i 0) (i 1) 1) := by
  show StableHlo.after hostOps0 _ (Proc.devRef .tc main_v3) = _
  after_results
  exact role_slice 1 _ _ _

theorem W3_v6 (c : Dev nD) : W3 m c (Proc.devRef .tc main_v6) = fun i => (m ((c : Thread nD τ).loc main_arg9)) (ix1 (i 1)) := by
  show StableHlo.after hostOps1 _ (Proc.devRef .tc main_v6) = _
  after_results
  rw [W2_arg9 m c]
  exact row_of _ _

theorem W5_v8 (c : Dev nD) : W5 m c (Proc.devRef .tc main_v8) = fun i => (m ((c : Thread nD τ).loc main_arg11)) (ix1 (i 1)) := by
  show StableHlo.after hostOps2 _ (Proc.devRef .tc main_v8) = _
  after_results
  rw [W4_arg11 m c]
  exact row_of _ _

/-! ## Index functions of a collection's operands -/

/-- An array read at (t, s) through a function of its coordinates is that function. -/
theorem grid_of {a b : Nat} {v : (⟨2, ![a, b]⟩ : Shape).Idx → EReal} {g : Fin a → Fin b → EReal}
    (h : v = fun i => g (i 0) (i 1)) : (fun t s => v (ix2 t s)) = g := by subst h; rfl
/-- Read transposed, it is the function with its arguments exchanged. -/
theorem gridT_of {a b : Nat} {v : (⟨2, ![a, b]⟩ : Shape).Idx → EReal} {g : Fin a → Fin b → EReal}
    (h : v = fun i => g (i 0) (i 1)) : (fun (t : Fin b) (s : Fin a) => v (ix2 s t)) = fun t s => g s t := by subst h; rfl
theorem attn_congr {a b : Nat} {v v' : (⟨2, ![a, b]⟩ : Shape).Idx → EReal} (h : v = v') :
    (fun t s => v (ix2 t s)) = fun t s => v' (ix2 t s) := by subst h; rfl
theorem attnT_congr {a b : Nat} {v v' : (⟨2, ![a, b]⟩ : Shape).Idx → EReal} (h : v = v') :
    (fun (t : Fin b) (s : Fin a) => v (ix2 s t)) = fun t s => v' (ix2 s t) := by subst h; rfl

/-! ## The three linear-plus-relu results -/

theorem W2_v5 (c : Dev nD) : W2 m c (Proc.devRef .tc main_v5) = fun y => Spec.fcAt (m ((c : Thread nD τ).loc main_arg0)) (m ((c : Thread nD τ).loc main_arg6)) (m ((c : Thread nD τ).loc main_arg7)) (y 0) (y 1) :=
  (W2_arr m c 3).trans ((Val.final0 (Vt1 m) c).trans (fcAt_fun_congr (W1_arg0 m c) (W1_arg6 m c) (row_back (W1_v4 m c))))
theorem W4_v7 (c : Dev nD) : W4 m c (Proc.devRef .tc main_v7) = fun y => Spec.fcAt (m ((c : Thread nD τ).loc main_arg1)) (m ((c : Thread nD τ).loc main_arg8)) (m ((c : Thread nD τ).loc main_arg9)) (y 0) (y 1) :=
  (W4_arr m c 3).trans ((Val.final1 (Vt3 m) c).trans (fcAt_fun_congr (W3_arg1 m c) (W3_arg8 m c) (row_back (W3_v6 m c))))
theorem W6_v9 (c : Dev nD) : W6 m c (Proc.devRef .tc main_v9) = fun y => Spec.fcAt (m ((c : Thread nD τ).loc main_arg2)) (m ((c : Thread nD τ).loc main_arg10)) (m ((c : Thread nD τ).loc main_arg11)) (y 0) (y 1) :=
  (W6_arr m c 3).trans ((Val.final2 (Vt5 m) c).trans (fcAt_fun_congr (W5_arg2 m c) (W5_arg10 m c) (row_back (W5_v8 m c))))

/-! ## What each collection finds at its entry -/

theorem W6_v5_back (c : Dev nD) : W6 m c (Proc.devRef .tc main_v5) = W2 m c (Proc.devRef .tc main_v5) :=
  (W6_keep m c main_v5 (by decide)).trans ((W5_keep m c main_v5 (by decide)).trans ((W4_keep m c main_v5 (by decide)).trans ((W3_keep m c main_v5 (by decide)))))
theorem W8_v7_back (c : Dev nD) : W8 m c (Proc.devRef .tc main_v7) = W4 m c (Proc.devRef .tc main_v7) :=
  (W8_keep m c main_v7 (by decide)).trans ((W7_keep m c main_v7 (by decide)).trans ((W6_keep m c main_v7 (by decide)).trans ((W5_keep m c main_v7 (by decide)))))
theorem W9_v5_back (c : Dev nD) : W9 m c (Proc.devRef .tc main_v5) = W2 m c (Proc.devRef .tc main_v5) :=
  (W9_keep m c main_v5 (by decide)).trans ((W8_keep m c main_v5 (by decide)).trans ((W7_keep m c main_v5 (by decide)).trans ((W6_keep m c main_v5 (by decide)).trans ((W5_keep m c main_v5 (by decide)).trans ((W4_keep m c main_v5 (by decide)).trans ((W3_keep m c main_v5 (by decide))))))))
theorem W10_v1_back (c : Dev nD) : W10 m c (Proc.devRef .tc main_v1) = W1 m c (Proc.devRef .tc main_v1) :=
  (W10_keep m c main_v1 (by decide)).trans ((W9_keep m c main_v1 (by decide)).trans ((W8_keep m c main_v1 (by decide)).trans ((W7_keep m c main_v1 (by decide)).trans ((W6_keep m c main_v1 (by decide)).trans ((W5_keep m c main_v1 (by decide)).trans ((W4_keep m c main_v1 (by decide)).trans ((W3_keep m c main_v1 (by decide)).trans ((W2_keep m c main_v1 (by decide))))))))))
theorem W10_v9_back (c : Dev nD) : W10 m c (Proc.devRef .tc main_v9) = W6 m c (Proc.devRef .tc main_v9) :=
  (W10_keep m c main_v9 (by decide)).trans ((W9_keep m c main_v9 (by decide)).trans ((W8_keep m c main_v9 (by decide)).trans ((W7_keep m c main_v9 (by decide)))))
theorem W11_v3_back (c : Dev nD) : W11 m c (Proc.devRef .tc main_v3) = W1 m c (Proc.devRef .tc main_v3) :=
  (W11_keep m c main_v3 (by decide)).trans ((W10_keep m c main_v3 (by decide)).trans ((W9_keep m c main_v3 (by decide)).trans ((W8_keep m c main_v3 (by decide)).trans ((W7_keep m c main_v3 (by decide)).trans ((W6_keep m c main_v3 (by decide)).trans ((W5_keep m c main_v3 (by decide)).trans ((W4_keep m c main_v3 (by decide)).trans ((W3_keep m c main_v3 (by decide)).trans ((W2_keep m c main_v3 (by decide)))))))))))
theorem W11_v9_back (c : Dev nD) : W11 m c (Proc.devRef .tc main_v9) = W6 m c (Proc.devRef .tc main_v9) :=
  (W11_keep m c main_v9 (by decide)).trans ((W10_keep m c main_v9 (by decide)).trans ((W9_keep m c main_v9 (by decide)).trans ((W8_keep m c main_v9 (by decide)).trans ((W7_keep m c main_v9 (by decide))))))
theorem W13_v1_back (c : Dev nD) : W13 m c (Proc.devRef .tc main_v1) = W1 m c (Proc.devRef .tc main_v1) :=
  (W13_keep m c main_v1 (by decide)).trans ((W12_keep m c main_v1 (by decide)).trans ((W11_keep m c main_v1 (by decide)).trans ((W10_keep m c main_v1 (by decide)).trans ((W9_keep m c main_v1 (by decide)).trans ((W8_keep m c main_v1 (by decide)).trans ((W7_keep m c main_v1 (by decide)).trans ((W6_keep m c main_v1 (by decide)).trans ((W5_keep m c main_v1 (by decide)).trans ((W4_keep m c main_v1 (by decide)).trans ((W3_keep m c main_v1 (by decide)).trans ((W2_keep m c main_v1 (by decide)))))))))))))
theorem W13_v5_back (c : Dev nD) : W13 m c (Proc.devRef .tc main_v5) = W2 m c (Proc.devRef .tc main_v5) :=
  (W13_keep m c main_v5 (by decide)).trans ((W12_keep m c main_v5 (by decide)).trans ((W11_keep m c main_v5 (by decide)).trans ((W10_keep m c main_v5 (by decide)).trans ((W9_keep m c main_v5 (by decide)).trans ((W8_keep m c main_v5 (by decide)).trans ((W7_keep m c main_v5 (by decide)).trans ((W6_keep m c main_v5 (by decide)).trans ((W5_keep m c main_v5 (by decide)).trans ((W4_keep m c main_v5 (by decide)).trans ((W3_keep m c main_v5 (by decide))))))))))))
theorem W14_v3_back (c : Dev nD) : W14 m c (Proc.devRef .tc main_v3) = W1 m c (Proc.devRef .tc main_v3) :=
  (W14_keep m c main_v3 (by decide)).trans ((W13_keep m c main_v3 (by decide)).trans ((W12_keep m c main_v3 (by decide)).trans ((W11_keep m c main_v3 (by decide)).trans ((W10_keep m c main_v3 (by decide)).trans ((W9_keep m c main_v3 (by decide)).trans ((W8_keep m c main_v3 (by decide)).trans ((W7_keep m c main_v3 (by decide)).trans ((W6_keep m c main_v3 (by decide)).trans ((W5_keep m c main_v3 (by decide)).trans ((W4_keep m c main_v3 (by decide)).trans ((W3_keep m c main_v3 (by decide)).trans ((W2_keep m c main_v3 (by decide))))))))))))))
theorem W14_v5_back (c : Dev nD) : W14 m c (Proc.devRef .tc main_v5) = W2 m c (Proc.devRef .tc main_v5) :=
  (W14_keep m c main_v5 (by decide)).trans ((W13_keep m c main_v5 (by decide)).trans ((W12_keep m c main_v5 (by decide)).trans ((W11_keep m c main_v5 (by decide)).trans ((W10_keep m c main_v5 (by decide)).trans ((W9_keep m c main_v5 (by decide)).trans ((W8_keep m c main_v5 (by decide)).trans ((W7_keep m c main_v5 (by decide)).trans ((W6_keep m c main_v5 (by decide)).trans ((W5_keep m c main_v5 (by decide)).trans ((W4_keep m c main_v5 (by decide)).trans ((W3_keep m c main_v5 (by decide)))))))))))))

/-! ## The seven collections -/

theorem W7_v10 (c : Dev nD) : W7 m c (Proc.devRef .tc main_v10) = fun y => Spec.collectAt (fun t s => (m ((c : Thread nD τ).loc main_arg3)) (ix2 s t)) (Spec.fcAt (m ((c : Thread nD τ).loc main_arg0)) (m ((c : Thread nD τ).loc main_arg6)) (m ((c : Thread nD τ).loc main_arg7))) (y 0) (y 1) :=
  (W7_arr m c 2).trans ((final3 (Vt6 m) c).trans (collectAt_fun_congr (attnT_congr (W6_arg3 m c)) (grid_of ((W6_v5_back m c).trans (W2_v5 m c)))))
theorem W9_v12 (c : Dev nD) : W9 m c (Proc.devRef .tc main_v12) = fun y => Spec.collectAt (fun t s => (m ((c : Thread nD τ).loc main_arg3)) (ix2 t s)) (Spec.fcAt (m ((c : Thread nD τ).loc main_arg1)) (m ((c : Thread nD τ).loc main_arg8)) (m ((c : Thread nD τ).loc main_arg9))) (y 0) (y 1) :=
  (W9_arr m c 2).trans ((final4 (Vt8 m) c).trans (collectAt_fun_congr (attn_congr (W8_arg3 m c)) (grid_of ((W8_v7_back m c).trans (W4_v7 m c)))))
theorem W10_v13 (c : Dev nD) : W10 m c (Proc.devRef .tc main_v13) = fun y => Spec.collectAt (fun t s => (m ((c : Thread nD τ).loc main_arg4)) (ix2 t s)) (Spec.fcAt (m ((c : Thread nD τ).loc main_arg0)) (m ((c : Thread nD τ).loc main_arg6)) (m ((c : Thread nD τ).loc main_arg7))) (y 0) (y 1) :=
  (W10_arr m c 2).trans ((final5 (Vt9 m) c).trans (collectAt_fun_congr (attn_congr (W9_arg4 m c)) (grid_of ((W9_v5_back m c).trans (W2_v5 m c)))))
theorem W11_v14 (c : Dev nD) : W11 m c (Proc.devRef .tc main_v14) = fun y => Spec.collectAt (fun t s => (m ((c : Thread nD τ).loc main_arg5)) (ix3 t s 0)) (Spec.fcAt (m ((c : Thread nD τ).loc main_arg2)) (m ((c : Thread nD τ).loc main_arg10)) (m ((c : Thread nD τ).loc main_arg11))) (y 0) (y 1) :=
  (W11_arr m c 2).trans ((final6 (Vt10 m) c).trans (collectAt_fun_congr (grid_of ((W10_v1_back m c).trans (W1_v1 m c))) (grid_of ((W10_v9_back m c).trans (W6_v9 m c)))))
theorem W12_v15 (c : Dev nD) : W12 m c (Proc.devRef .tc main_v15) = fun y => Spec.collectAt (fun t s => (m ((c : Thread nD τ).loc main_arg5)) (ix3 t s 1)) (Spec.fcAt (m ((c : Thread nD τ).loc main_arg2)) (m ((c : Thread nD τ).loc main_arg10)) (m ((c : Thread nD τ).loc main_arg11))) (y 0) (y 1) :=
  (W12_arr m c 2).trans ((final7 (Vt11 m) c).trans (collectAt_fun_congr (grid_of ((W11_v3_back m c).trans (W1_v3 m c))) (grid_of ((W11_v9_back m c).trans (W6_v9 m c)))))
theorem W14_v22 (c : Dev nD) : W14 m c (Proc.devRef .tc main_v22) = fun y => Spec.collectAt (fun t s => (m ((c : Thread nD τ).loc main_arg5)) (ix3 s t 0)) (Spec.fcAt (m ((c : Thread nD τ).loc main_arg0)) (m ((c : Thread nD τ).loc main_arg6)) (m ((c : Thread nD τ).loc main_arg7))) (y 0) (y 1) :=
  (W14_arr m c 2).trans ((final8 (Vt13 m) c).trans (collectAt_fun_congr (gridT_of ((W13_v1_back m c).trans (W1_v1 m c))) (grid_of ((W13_v5_back m c).trans (W2_v5 m c)))))
theorem W15_v23 (c : Dev nD) : W15 m c (Proc.devRef .tc main_v23) = fun y => Spec.collectAt (fun t s => (m ((c : Thread nD τ).loc main_arg5)) (ix3 s t 1)) (Spec.fcAt (m ((c : Thread nD τ).loc main_arg0)) (m ((c : Thread nD τ).loc main_arg6)) (m ((c : Thread nD τ).loc main_arg7))) (y 0) (y 1) :=
  (W15_arr m c 2).trans ((final9 (Vt14 m) c).trans (collectAt_fun_congr (gridT_of ((W14_v3_back m c).trans (W1_v3 m c))) (grid_of ((W14_v5_back m c).trans (W2_v5 m c)))))

/-! ## The three results at the return -/

/-- The attribute features: the attribute rows plus the collection through the transposed object-attribute map. -/
theorem W16_att (c : Dev nD) : W16 m c (Proc.devRef .tc main_v11)
    = fun i => Spec.attAt (m ((c : Thread nD τ).loc main_arg0)) (m ((c : Thread nD τ).loc main_arg1)) (m ((c : Thread nD τ).loc main_arg3)) (m ((c : Thread nD τ).loc main_arg6)) (m ((c : Thread nD τ).loc main_arg7)) (i 0) (i 1) := by
  refine ((W16_keep m c main_v11 (by decide)).trans ((W15_keep m c main_v11 (by decide)).trans ((W14_keep m c main_v11 (by decide)).trans ((W13_keep m c main_v11 (by decide)).trans ((W12_keep m c main_v11 (by decide)).trans ((W11_keep m c main_v11 (by decide)).trans ((W10_keep m c main_v11 (by decide)).trans ((W9_keep m c main_v11 (by decide)))))))))).trans ?_
  show StableHlo.after hostOps4 _ (Proc.devRef .tc main_v11) = _
  after_results
  rw [W7_arg1 m c, W7_v10 m c]
  funext i
  obtain ⟨p, q, rfl⟩ : ∃ (p : Fin 2048) (q : Fin 512), i = ix2 p q := ⟨i 0, i 1, eq_ix2 i⟩
  rfl

theorem W12_v12_back (c : Dev nD) : W12 m c (Proc.devRef .tc main_v12) = W9 m c (Proc.devRef .tc main_v12) :=
  (W12_keep m c main_v12 (by decide)).trans ((W11_keep m c main_v12 (by decide)).trans ((W10_keep m c main_v12 (by decide))))
theorem W12_v13_back (c : Dev nD) : W12 m c (Proc.devRef .tc main_v13) = W10 m c (Proc.devRef .tc main_v13) :=
  (W12_keep m c main_v13 (by decide)).trans ((W11_keep m c main_v13 (by decide)))
theorem W12_v14_back (c : Dev nD) : W12 m c (Proc.devRef .tc main_v14) = W11 m c (Proc.devRef .tc main_v14) :=
  (W12_keep m c main_v14 (by decide))
theorem W15_v22_back (c : Dev nD) : W15 m c (Proc.devRef .tc main_v22) = W14 m c (Proc.devRef .tc main_v22) :=
  (W15_keep m c main_v22 (by decide))

/-- The object features: the object rows plus a quarter of the sum of the four collections. -/
theorem W16_obj (c : Dev nD) : W16 m c (Proc.devRef .tc main_v21)
    = fun i => Spec.objAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1) := by
  refine ((W16_keep m c main_v21 (by decide)).trans ((W15_keep m c main_v21 (by decide)).trans ((W14_keep m c main_v21 (by decide))))).trans ?_
  show StableHlo.after hostOps8 _ (Proc.devRef .tc main_v21) = _
  after_results
  rw [W12_arg0 m c, (W12_v12_back m c).trans (W9_v12 m c), (W12_v13_back m c).trans (W10_v13 m c),
    (W12_v14_back m c).trans (W11_v14 m c), W12_v15 m c]
  funext i
  obtain ⟨p, q, rfl⟩ : ∃ (p : Fin 2048) (q : Fin 512), i = ix2 p q := ⟨i 0, i 1, eq_ix2 i⟩
  rfl

/-- The relation features: the relation rows plus half of the sum of the two collections. -/
theorem W16_rel (c : Dev nD) : W16 m c (Proc.devRef .tc main_v27)
    = fun i => Spec.relAt (m ((c : Thread nD τ).loc main_arg0)) (m ((c : Thread nD τ).loc main_arg2)) (m ((c : Thread nD τ).loc main_arg5)) (m ((c : Thread nD τ).loc main_arg6)) (m ((c : Thread nD τ).loc main_arg7)) (i 0) (i 1) := by
  show StableHlo.after hostOps10 _ (Proc.devRef .tc main_v27) = _
  after_results
  rw [W15_arg2 m c, (W15_v22_back m c).trans (W14_v22 m c), W15_v23 m c]
  funext i
  obtain ⟨p, q, rfl⟩ : ∃ (p : Fin 8192) (q : Fin 512), i = ix2 p q := ⟨i 0, i 1, eq_ix2 i⟩
  rfl

/-! ## The run with its values -/

/-- Every weakly fair execution of @main from memory `m` with zero counters terminates without fault, and ends with the
    three result buffers at the specification of the launch arrays and the twelve arguments as launched. -/
theorem run_values (ρ : Dev nD → PrngReg) : θ_run defs (onTc (τ := τ) (main (F := Ideal))) ⟨m, fun _ => 0, ρ⟩ (fun r => ∀ c : Dev nD,
      r.2.mem ((c.tc : Thread nD τ).loc main_v21) = (fun i => Spec.objAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1))
      ∧ r.2.mem ((c.tc : Thread nD τ).loc main_v11) = (fun i => Spec.attAt (m ((c : Thread nD τ).loc main_arg0)) (m ((c : Thread nD τ).loc main_arg1)) (m ((c : Thread nD τ).loc main_arg3)) (m ((c : Thread nD τ).loc main_arg6)) (m ((c : Thread nD τ).loc main_arg7)) (i 0) (i 1))
      ∧ r.2.mem ((c.tc : Thread nD τ).loc main_v27) = (fun i => Spec.relAt (m ((c : Thread nD τ).loc main_arg0)) (m ((c : Thread nD τ).loc main_arg2)) (m ((c : Thread nD τ).loc main_arg5)) (m ((c : Thread nD τ).loc main_arg6)) (m ((c : Thread nD τ).loc main_arg7)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_v21 (by decide))).trans (W16_obj m c),
    (h c _ (mem_uc main_v11 (by decide))).trans (W16_att m c),
    (h c _ (mem_uc main_v27 (by decide))).trans (W16_rel m c),
    (h c _ (mem_uc main_arg0 (by decide))).trans (W16_main_arg0 m c),
    (h c _ (mem_uc main_arg1 (by decide))).trans (W16_main_arg1 m c),
    (h c _ (mem_uc main_arg2 (by decide))).trans (W16_main_arg2 m c),
    (h c _ (mem_uc main_arg3 (by decide))).trans (W16_main_arg3 m c),
    (h c _ (mem_uc main_arg4 (by decide))).trans (W16_main_arg4 m c),
    (h c _ (mem_uc main_arg5 (by decide))).trans (W16_main_arg5 m c),
    (h c _ (mem_uc main_arg6 (by decide))).trans (W16_main_arg6 m c),
    (h c _ (mem_uc main_arg7 (by decide))).trans (W16_main_arg7 m c),
    (h c _ (mem_uc main_arg8 (by decide))).trans (W16_main_arg8 m c),
    (h c _ (mem_uc main_arg9 (by decide))).trans (W16_main_arg9 m c),
    (h c _ (mem_uc main_arg10 (by decide))).trans (W16_main_arg10 m c),
    (h c _ (mem_uc main_arg11 (by decide))).trans (W16_main_arg11 m c)⟩) (run_all m ρ)

end Cert.KernelIdeal.Gen

end
-- ==== Proof.RefIsSpec.lean ====
/-
  The reference's three results are the specification: read at an index, each of the reference's host operations is an
  operation on one element of each operand (a contraction a finite sum, a row sum the initial zero plus a finite sum),
  and composing these readings along each collection gives `Spec.fcAt` and `Spec.collectAt` term for term. The only
  facts used beyond the readings are that the zero word denotes 0 (so the relu's floor is 0 and a row sum's initial
  value drops out) and the identification of each composed index function with the index built from coordinates.
-/
import proofs.«145590_j23742579212572_2_alg».proof.Proof.Spec
import proofs.«145590_j23742579212572_2_alg».proof.Proof.Gen.ReferenceIdeal.Read

noncomputable section

open scoped BigOperators

namespace Cert.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Two rank-one indices whose coordinate agrees by computation are equal. -/
macro "idx_coords1" : tactic =>
  `(tactic| (funext a; refine Fin.ext ?_; match a with | ⟨0, _⟩ => rfl))
/-- Two rank-two indices whose coordinates agree by computation are equal. -/
macro "idx_coords2" : tactic =>
  `(tactic| (funext a; refine Fin.ext ?_; match a with | ⟨0, _⟩ => rfl | ⟨1, _⟩ => rfl))
/-- Two rank-three indices whose coordinates agree by computation are equal. -/
macro "idx_coords3" : tactic =>
  `(tactic| (funext a; refine Fin.ext ?_; match a with | ⟨0, _⟩ => rfl | ⟨1, _⟩ => rfl | ⟨2, _⟩ => rfl))

/-! ## The attribute update: one collection of the objects' fc rows through the transposed object-attribute map -/

/-- The objects' fc rows of unit 0, as the reference computes them for the attribute update. -/
theorem fc_v6 (x0 : (⟨S2048x512, .f32⟩ : BufTy).Contents (Elt Ideal)) (x6 : (⟨S512x512, .f32⟩ : BufTy).Contents (Elt Ideal))
    (x7 : (⟨S512, .f32⟩ : BufTy).Contents (Elt Ideal)) (s : Fin 2048) (d : Fin 512) :
    val_main_v6 (F := Ideal) x0 x6 x7 (ix2 s d) = Spec.fcAt x0 x6 x7 s d := by
  rw [val_main_v6_apply, val_main_v5_apply, val_main_v2_apply, val_main_v4_apply, val_main_v3_apply,
    val_main_call0_v0_apply, val_main_call0_cst_apply]
  have e1 : ∀ k : Fin 512, lidx_main_v2 (ix2 s d) k = ix2 s k := fun k => by idx_coords2
  have e2 : ∀ k : Fin 512, idx_main_v1 (ridx_main_v2 (ix2 s d) k) = ix2 d k := fun k => by idx_coords2
  have e3 : idx_main_v3 (idx_main_v4 (ix2 s d)) = ix1 d := by idx_coords1
  simp only [val_main_v1_apply, e1, e2, e3, Ideal.maximumf_def, Ideal.addf_def, Ideal.ofBits_def, Ideal.ofBits_zero_f32]
  rfl

/-- The collection through the transposed object-attribute map. -/
theorem collect_v13 (x0 : (⟨S2048x512, .f32⟩ : BufTy).Contents (Elt Ideal)) (x3 : (⟨S2048x2048, .f32⟩ : BufTy).Contents (Elt Ideal))
    (x6 : (⟨S512x512, .f32⟩ : BufTy).Contents (Elt Ideal)) (x7 : (⟨S512, .f32⟩ : BufTy).Contents (Elt Ideal)) (t : Fin 2048) (d : Fin 512) :
    val_main_v13 (F := Ideal) x0 x3 x6 x7 (ix2 t d)
      = Spec.collectAt (fun t s => x3 (ix2 s t)) (Spec.fcAt x0 x6 x7) t d := by
  rw [val_main_v13_apply, val_main_v7_apply, val_main_v12_apply, val_main_v11_apply, val_main_v9_apply, val_main_v8_apply,
    val_main_v10_apply, val_main_cst_0_apply, val_main_cst_apply]
  have e1 : ∀ k : Fin 2048, idx_main_v0 (lidx_main_v7 (ix2 t d) k) = ix2 k t := fun k => by idx_coords2
  have e2 : ∀ k : Fin 2048, ridx_main_v7 (ix2 t d) k = ix2 k d := fun k => by idx_coords2
  have e3 : ∀ k : Fin 2048, idx_main_v0 (idx_main_v8 (idx_main_v9 (idx_main_v12 (ix2 t d))) k) = ix2 k t := fun k => by idx_coords2
  simp only [val_main_v0_apply, e1, e2, e3, fc_v6, Ideal.hostDivf_def, Ideal.addf_def, Ideal.ofBits_def, Ideal.ofBits_zero_f32,
    zero_add]
  rfl

/-- The reference's updated attribute features at row `a`, column `d`. -/
theorem att_at (x0 x1 : (⟨S2048x512, .f32⟩ : BufTy).Contents (Elt Ideal)) (x3 : (⟨S2048x2048, .f32⟩ : BufTy).Contents (Elt Ideal))
    (x6 : (⟨S512x512, .f32⟩ : BufTy).Contents (Elt Ideal)) (x7 : (⟨S512, .f32⟩ : BufTy).Contents (Elt Ideal)) (a : Fin 2048) (d : Fin 512) :
    val_main_v14 (F := Ideal) x0 x1 x3 x6 x7 (ix2 a d) = Spec.attAt x0 x1 x3 x6 x7 a d := by
  rw [val_main_v14_apply, collect_v13]
  rfl

/-- The reference's updated attribute features are the specification's. -/
theorem att_eq (x0 x1 : (⟨S2048x512, .f32⟩ : BufTy).Contents (Elt Ideal)) (x3 : (⟨S2048x2048, .f32⟩ : BufTy).Contents (Elt Ideal))
    (x6 : (⟨S512x512, .f32⟩ : BufTy).Contents (Elt Ideal)) (x7 : (⟨S512, .f32⟩ : BufTy).Contents (Elt Ideal)) :
    val_main_v14 (F := Ideal) x0 x1 x3 x6 x7 = fun i => Spec.attAt x0 x1 x3 x6 x7 (i 0) (i 1) := by
  funext i
  obtain ⟨p, q, rfl⟩ : ∃ (p : Fin 2048) (q : Fin 512), i = ix2 p q := ⟨i 0, i 1, eq_ix2 i⟩
  exact att_at x0 x1 x3 x6 x7 p q

/-! ## The two role slices of the object-relation map, read at an index

  Slicing the last axis at `r` and dropping the unit axis reads the map at (t, s, r): the row-major position
  t · 8192 + s of the flattened pair splits back into t and s. -/

/-- The subject-role slice at (t, s) is the map at (t, s, 0). -/
theorem role0_idx (t : Fin 2048) (s : Fin 8192) : idx_main_v41 (idx_main_v42 (ix2 t s)) = ix3 t s 0 := by
  funext a; refine Fin.ext ?_
  have ht := t.isLt; have hs := s.isLt
  match a with
  | ⟨0, _⟩ => show (t.val * 8192 + s.val) / 8192 = t.val; omega
  | ⟨1, _⟩ => show (t.val * 8192 + s.val) / 1 % 8192 = s.val; omega
  | ⟨2, _⟩ => rfl

/-- The object-role slice at (t, s) is the map at (t, s, 1). -/
theorem role1_idx (t : Fin 2048) (s : Fin 8192) : idx_main_v43 (idx_main_v44 (ix2 t s)) = ix3 t s 1 := by
  funext a; refine Fin.ext ?_
  have ht := t.isLt; have hs := s.isLt
  match a with
  | ⟨0, _⟩ => show (t.val * 8192 + s.val) / 8192 = t.val; omega
  | ⟨1, _⟩ => show (t.val * 8192 + s.val) / 1 % 8192 = s.val; omega
  | ⟨2, _⟩ => rfl

/-! ## The object update: the mean of four collections -/

/-- The attributes' fc rows of unit 1. -/
theorem fc_v20 (x1 : (⟨S2048x512, .f32⟩ : BufTy).Contents (Elt Ideal)) (x8 : (⟨S512x512, .f32⟩ : BufTy).Contents (Elt Ideal)) (x9 : (⟨S512, .f32⟩ : BufTy).Contents (Elt Ideal)) (s : Fin 2048) (d : Fin 512) :
    val_main_v20 (F := Ideal) x1 x8 x9 (ix2 s d) = Spec.fcAt x1 x8 x9 s d := by
  rw [val_main_v20_apply, val_main_v19_apply, val_main_v16_apply, val_main_v18_apply, val_main_v17_apply,
    val_main_call1_v0_apply, val_main_call1_cst_apply]
  have e1 : ∀ k : Fin 512, lidx_main_v16 (ix2 s d) k = ix2 s k := fun k => by idx_coords2
  have e2 : ∀ k : Fin 512, idx_main_v15 (ridx_main_v16 (ix2 s d) k) = ix2 d k := fun k => by idx_coords2
  have e3 : idx_main_v17 (idx_main_v18 (ix2 s d)) = ix1 d := by idx_coords1
  simp only [val_main_v15_apply, e1, e2, e3, Ideal.maximumf_def, Ideal.addf_def, Ideal.ofBits_def, Ideal.ofBits_zero_f32]
  rfl

/-- The collection from the attributes into the objects, through the object-attribute map. -/
theorem collect_v27 (x1 : (⟨S2048x512, .f32⟩ : BufTy).Contents (Elt Ideal)) (x3 : (⟨S2048x2048, .f32⟩ : BufTy).Contents (Elt Ideal)) (x8 : (⟨S512x512, .f32⟩ : BufTy).Contents (Elt Ideal)) (x9 : (⟨S512, .f32⟩ : BufTy).Contents (Elt Ideal)) (t : Fin 2048) (d : Fin 512) :
    val_main_v27 (F := Ideal) x1 x3 x8 x9 (ix2 t d)
      = Spec.collectAt (fun t s => x3 (ix2 t s)) (Spec.fcAt x1 x8 x9) t d := by
  rw [val_main_v27_apply, val_main_v21_apply, val_main_v26_apply, val_main_v25_apply, val_main_v23_apply, val_main_v22_apply,
    val_main_v24_apply, val_main_cst_2_apply, val_main_cst_1_apply]
  have e1 : ∀ k : Fin 2048, lidx_main_v21 (ix2 t d) k = ix2 t k := fun k => by idx_coords2
  have e2 : ∀ k : Fin 2048, ridx_main_v21 (ix2 t d) k = ix2 k d := fun k => by idx_coords2
  have e3 : ∀ k : Fin 2048, idx_main_v22 (idx_main_v23 (idx_main_v26 (ix2 t d))) k = ix2 t k := fun k => by idx_coords2
  simp only [e1, e2, e3, fc_v20, Ideal.hostDivf_def, Ideal.addf_def, Ideal.ofBits_def, Ideal.ofBits_zero_f32,
    zero_add]
  rfl

/-- The objects' fc rows of unit 0, as computed for the object-to-object collection. -/
theorem fc_v33 (x0 : (⟨S2048x512, .f32⟩ : BufTy).Contents (Elt Ideal)) (x6 : (⟨S512x512, .f32⟩ : BufTy).Contents (Elt Ideal)) (x7 : (⟨S512, .f32⟩ : BufTy).Contents (Elt Ideal)) (s : Fin 2048) (d : Fin 512) :
    val_main_v33 (F := Ideal) x0 x6 x7 (ix2 s d) = Spec.fcAt x0 x6 x7 s d := by
  rw [val_main_v33_apply, val_main_v32_apply, val_main_v29_apply, val_main_v31_apply, val_main_v30_apply,
    val_main_call2_v0_apply, val_main_call2_cst_apply]
  have e1 : ∀ k : Fin 512, lidx_main_v29 (ix2 s d) k = ix2 s k := fun k => by idx_coords2
  have e2 : ∀ k : Fin 512, idx_main_v28 (ridx_main_v29 (ix2 s d) k) = ix2 d k := fun k => by idx_coords2
  have e3 : idx_main_v30 (idx_main_v31 (ix2 s d)) = ix1 d := by idx_coords1
  simp only [val_main_v28_apply, e1, e2, e3, Ideal.maximumf_def, Ideal.addf_def, Ideal.ofBits_def, Ideal.ofBits_zero_f32]
  rfl

/-- The collection from the objects into the objects, through the object-object map. -/
theorem collect_v40 (x0 : (⟨S2048x512, .f32⟩ : BufTy).Contents (Elt Ideal)) (x4 : (⟨S2048x2048, .f32⟩ : BufTy).Contents (Elt Ideal)) (x6 : (⟨S512x512, .f32⟩ : BufTy).Contents (Elt Ideal)) (x7 : (⟨S512, .f32⟩ : BufTy).Contents (Elt Ideal)) (t : Fin 2048) (d : Fin 512) :
    val_main_v40 (F := Ideal) x0 x4 x6 x7 (ix2 t d)
      = Spec.collectAt (fun t s => x4 (ix2 t s)) (Spec.fcAt x0 x6 x7) t d := by
  rw [val_main_v40_apply, val_main_v34_apply, val_main_v39_apply, val_main_v38_apply, val_main_v36_apply, val_main_v35_apply,
    val_main_v37_apply, val_main_cst_4_apply, val_main_cst_3_apply]
  have e1 : ∀ k : Fin 2048, lidx_main_v34 (ix2 t d) k = ix2 t k := fun k => by idx_coords2
  have e2 : ∀ k : Fin 2048, ridx_main_v34 (ix2 t d) k = ix2 k d := fun k => by idx_coords2
  have e3 : ∀ k : Fin 2048, idx_main_v35 (idx_main_v36 (idx_main_v39 (ix2 t d))) k = ix2 t k := fun k => by idx_coords2
  simp only [e1, e2, e3, fc_v33, Ideal.hostDivf_def, Ideal.addf_def, Ideal.ofBits_def, Ideal.ofBits_zero_f32,
    zero_add]
  rfl

/-- The relations' fc rows of unit 2, as computed for the subject-role collection. -/
theorem fc_v50 (x2 : (⟨S8192x512, .f32⟩ : BufTy).Contents (Elt Ideal)) (x10 : (⟨S512x512, .f32⟩ : BufTy).Contents (Elt Ideal)) (x11 : (⟨S512, .f32⟩ : BufTy).Contents (Elt Ideal)) (s : Fin 8192) (d : Fin 512) :
    val_main_v50 (F := Ideal) x2 x10 x11 (ix2 s d) = Spec.fcAt x2 x10 x11 s d := by
  rw [val_main_v50_apply, val_main_v49_apply, val_main_v46_apply, val_main_v48_apply, val_main_v47_apply,
    val_main_call3_v0_apply, val_main_call3_cst_apply]
  have e1 : ∀ k : Fin 512, lidx_main_v46 (ix2 s d) k = ix2 s k := fun k => by idx_coords2
  have e2 : ∀ k : Fin 512, idx_main_v45 (ridx_main_v46 (ix2 s d) k) = ix2 d k := fun k => by idx_coords2
  have e3 : idx_main_v47 (idx_main_v48 (ix2 s d)) = ix1 d := by idx_coords1
  simp only [val_main_v45_apply, e1, e2, e3, Ideal.maximumf_def, Ideal.addf_def, Ideal.ofBits_def, Ideal.ofBits_zero_f32]
  rfl

/-- The collection from the relations into the objects, through the subject-role slice of the object-relation map. -/
theorem collect_v57 (x2 : (⟨S8192x512, .f32⟩ : BufTy).Contents (Elt Ideal)) (x5 : (⟨S2048x8192x2, .f32⟩ : BufTy).Contents (Elt Ideal)) (x10 : (⟨S512x512, .f32⟩ : BufTy).Contents (Elt Ideal)) (x11 : (⟨S512, .f32⟩ : BufTy).Contents (Elt Ideal)) (t : Fin 2048) (d : Fin 512) :
    val_main_v57 (F := Ideal) x2 x5 x10 x11 (ix2 t d)
      = Spec.collectAt (fun t s => x5 (ix3 t s 0)) (Spec.fcAt x2 x10 x11) t d := by
  rw [val_main_v57_apply, val_main_v51_apply, val_main_v56_apply, val_main_v55_apply, val_main_v53_apply, val_main_v52_apply,
    val_main_v54_apply, val_main_cst_6_apply, val_main_cst_5_apply]
  have e1 : ∀ k : Fin 8192, idx_main_v41 (idx_main_v42 (lidx_main_v51 (ix2 t d) k)) = ix3 t k 0 := fun k =>
    (congrArg (fun j => idx_main_v41 (idx_main_v42 j)) (show lidx_main_v51 (ix2 t d) k = ix2 t k by idx_coords2)).trans (role0_idx t k)
  have e2 : ∀ k : Fin 8192, ridx_main_v51 (ix2 t d) k = ix2 k d := fun k => by idx_coords2
  have e3 : ∀ k : Fin 8192, idx_main_v41 (idx_main_v42 (idx_main_v52 (idx_main_v53 (idx_main_v56 (ix2 t d))) k)) = ix3 t k 0 := fun k =>
    (congrArg (fun j => idx_main_v41 (idx_main_v42 j)) (show idx_main_v52 (idx_main_v53 (idx_main_v56 (ix2 t d))) k = ix2 t k by idx_coords2)).trans (role0_idx t k)
  simp only [val_main_v42_apply, val_main_v41_apply, e1, e2, e3, fc_v50, Ideal.hostDivf_def, Ideal.addf_def, Ideal.ofBits_def, Ideal.ofBits_zero_f32,
    zero_add]
  rfl

/-- The relations' fc rows of unit 2, as computed for the object-role collection. -/
theorem fc_v63 (x2 : (⟨S8192x512, .f32⟩ : BufTy).Contents (Elt Ideal)) (x10 : (⟨S512x512, .f32⟩ : BufTy).Contents (Elt Ideal)) (x11 : (⟨S512, .f32⟩ : BufTy).Contents (Elt Ideal)) (s : Fin 8192) (d : Fin 512) :
    val_main_v63 (F := Ideal) x2 x10 x11 (ix2 s d) = Spec.fcAt x2 x10 x11 s d := by
  rw [val_main_v63_apply, val_main_v62_apply, val_main_v59_apply, val_main_v61_apply, val_main_v60_apply,
    val_main_call4_v0_apply, val_main_call4_cst_apply]
  have e1 : ∀ k : Fin 512, lidx_main_v59 (ix2 s d) k = ix2 s k := fun k => by idx_coords2
  have e2 : ∀ k : Fin 512, idx_main_v58 (ridx_main_v59 (ix2 s d) k) = ix2 d k := fun k => by idx_coords2
  have e3 : idx_main_v60 (idx_main_v61 (ix2 s d)) = ix1 d := by idx_coords1
  simp only [val_main_v58_apply, e1, e2, e3, Ideal.maximumf_def, Ideal.addf_def, Ideal.ofBits_def, Ideal.ofBits_zero_f32]
  rfl

/-- The collection from the relations into the objects, through the object-role slice of the object-relation map. -/
theorem collect_v70 (x2 : (⟨S8192x512, .f32⟩ : BufTy).Contents (Elt Ideal)) (x5 : (⟨S2048x8192x2, .f32⟩ : BufTy).Contents (Elt Ideal)) (x10 : (⟨S512x512, .f32⟩ : BufTy).Contents (Elt Ideal)) (x11 : (⟨S512, .f32⟩ : BufTy).Contents (Elt Ideal)) (t : Fin 2048) (d : Fin 512) :
    val_main_v70 (F := Ideal) x2 x5 x10 x11 (ix2 t d)
      = Spec.collectAt (fun t s => x5 (ix3 t s 1)) (Spec.fcAt x2 x10 x11) t d := by
  rw [val_main_v70_apply, val_main_v64_apply, val_main_v69_apply, val_main_v68_apply, val_main_v66_apply, val_main_v65_apply,
    val_main_v67_apply, val_main_cst_8_apply, val_main_cst_7_apply]
  have e1 : ∀ k : Fin 8192, idx_main_v43 (idx_main_v44 (lidx_main_v64 (ix2 t d) k)) = ix3 t k 1 := fun k =>
    (congrArg (fun j => idx_main_v43 (idx_main_v44 j)) (show lidx_main_v64 (ix2 t d) k = ix2 t k by idx_coords2)).trans (role1_idx t k)
  have e2 : ∀ k : Fin 8192, ridx_main_v64 (ix2 t d) k = ix2 k d := fun k => by idx_coords2
  have e3 : ∀ k : Fin 8192, idx_main_v43 (idx_main_v44 (idx_main_v65 (idx_main_v66 (idx_main_v69 (ix2 t d))) k)) = ix3 t k 1 := fun k =>
    (congrArg (fun j => idx_main_v43 (idx_main_v44 j)) (show idx_main_v65 (idx_main_v66 (idx_main_v69 (ix2 t d))) k = ix2 t k by idx_coords2)).trans (role1_idx t k)
  simp only [val_main_v44_apply, val_main_v43_apply, e1, e2, e3, fc_v63, Ideal.hostDivf_def, Ideal.addf_def, Ideal.ofBits_def, Ideal.ofBits_zero_f32,
    zero_add]
  rfl

/-- The reference's updated object features at row `o`, column `d`. -/
theorem obj_at (x0 : (⟨S2048x512, .f32⟩ : BufTy).Contents (Elt Ideal)) (x1 : (⟨S2048x512, .f32⟩ : BufTy).Contents (Elt Ideal)) (x2 : (⟨S8192x512, .f32⟩ : BufTy).Contents (Elt Ideal)) (x3 : (⟨S2048x2048, .f32⟩ : BufTy).Contents (Elt Ideal)) (x4 : (⟨S2048x2048, .f32⟩ : BufTy).Contents (Elt Ideal)) (x5 : (⟨S2048x8192x2, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (o : Fin 2048) (d : Fin 512) :
    val_main_v76 (F := Ideal) x0 x1 x2 x3 x4 x5 x6 x7 x8 x9 x10 x11 (ix2 o d) = Spec.objAt x0 x1 x2 x3 x4 x5 x6 x7 x8 x9 x10 x11 o d := by
  rw [val_main_v76_apply, val_main_v75_apply, val_main_v73_apply, val_main_v72_apply, val_main_v71_apply, val_main_v74_apply,
    val_main_cst_9_apply, collect_v27, collect_v40, collect_v57, collect_v70]
  rfl

/-- The reference's updated object features are the specification's. -/
theorem obj_eq (x0 : (⟨S2048x512, .f32⟩ : BufTy).Contents (Elt Ideal)) (x1 : (⟨S2048x512, .f32⟩ : BufTy).Contents (Elt Ideal)) (x2 : (⟨S8192x512, .f32⟩ : BufTy).Contents (Elt Ideal)) (x3 : (⟨S2048x2048, .f32⟩ : BufTy).Contents (Elt Ideal)) (x4 : (⟨S2048x2048, .f32⟩ : BufTy).Contents (Elt Ideal)) (x5 : (⟨S2048x8192x2, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) :
    val_main_v76 (F := Ideal) x0 x1 x2 x3 x4 x5 x6 x7 x8 x9 x10 x11 = fun i => Spec.objAt x0 x1 x2 x3 x4 x5 x6 x7 x8 x9 x10 x11 (i 0) (i 1) := by
  funext i
  obtain ⟨p, q, rfl⟩ : ∃ (p : Fin 2048) (q : Fin 512), i = ix2 p q := ⟨i 0, i 1, eq_ix2 i⟩
  exact obj_at x0 x1 x2 x3 x4 x5 x6 x7 x8 x9 x10 x11 p q

/-! ## The relation update: the mean of two collections -/

/-- The objects' fc rows of unit 0, as computed for the relations' subject-role collection. -/
theorem fc_v83 (x0 : (⟨S2048x512, .f32⟩ : BufTy).Contents (Elt Ideal)) (x6 : (⟨S512x512, .f32⟩ : BufTy).Contents (Elt Ideal)) (x7 : (⟨S512, .f32⟩ : BufTy).Contents (Elt Ideal)) (s : Fin 2048) (d : Fin 512) :
    val_main_v83 (F := Ideal) x0 x6 x7 (ix2 s d) = Spec.fcAt x0 x6 x7 s d := by
  rw [val_main_v83_apply, val_main_v82_apply, val_main_v79_apply, val_main_v81_apply, val_main_v80_apply,
    val_main_call5_v0_apply, val_main_call5_cst_apply]
  have e1 : ∀ k : Fin 512, lidx_main_v79 (ix2 s d) k = ix2 s k := fun k => by idx_coords2
  have e2 : ∀ k : Fin 512, idx_main_v78 (ridx_main_v79 (ix2 s d) k) = ix2 d k := fun k => by idx_coords2
  have e3 : idx_main_v80 (idx_main_v81 (ix2 s d)) = ix1 d := by idx_coords1
  simp only [val_main_v78_apply, e1, e2, e3, Ideal.maximumf_def, Ideal.addf_def, Ideal.ofBits_def, Ideal.ofBits_zero_f32]
  rfl

/-- The collection from the objects into the relations, through the transposed subject-role slice of the object-relation map. -/
theorem collect_v90 (x0 : (⟨S2048x512, .f32⟩ : BufTy).Contents (Elt Ideal)) (x5 : (⟨S2048x8192x2, .f32⟩ : BufTy).Contents (Elt Ideal)) (x6 : (⟨S512x512, .f32⟩ : BufTy).Contents (Elt Ideal)) (x7 : (⟨S512, .f32⟩ : BufTy).Contents (Elt Ideal)) (t : Fin 8192) (d : Fin 512) :
    val_main_v90 (F := Ideal) x0 x5 x6 x7 (ix2 t d)
      = Spec.collectAt (fun t s => x5 (ix3 s t 0)) (Spec.fcAt x0 x6 x7) t d := by
  rw [val_main_v90_apply, val_main_v84_apply, val_main_v89_apply, val_main_v88_apply, val_main_v86_apply, val_main_v85_apply,
    val_main_v87_apply, val_main_cst_11_apply, val_main_cst_10_apply]
  have e1 : ∀ k : Fin 2048, idx_main_v41 (idx_main_v42 (idx_main_v77 (lidx_main_v84 (ix2 t d) k))) = ix3 k t 0 := fun k =>
    (congrArg (fun j => idx_main_v41 (idx_main_v42 j)) (show idx_main_v77 (lidx_main_v84 (ix2 t d) k) = ix2 k t by idx_coords2)).trans (role0_idx k t)
  have e2 : ∀ k : Fin 2048, ridx_main_v84 (ix2 t d) k = ix2 k d := fun k => by idx_coords2
  have e3 : ∀ k : Fin 2048, idx_main_v41 (idx_main_v42 (idx_main_v77 (idx_main_v85 (idx_main_v86 (idx_main_v89 (ix2 t d))) k))) = ix3 k t 0 := fun k =>
    (congrArg (fun j => idx_main_v41 (idx_main_v42 j)) (show idx_main_v77 (idx_main_v85 (idx_main_v86 (idx_main_v89 (ix2 t d))) k) = ix2 k t by idx_coords2)).trans (role0_idx k t)
  simp only [val_main_v77_apply, val_main_v42_apply, val_main_v41_apply, e1, e2, e3, fc_v83, Ideal.hostDivf_def, Ideal.addf_def, Ideal.ofBits_def, Ideal.ofBits_zero_f32,
    zero_add]
  rfl

/-- The objects' fc rows of unit 0, as computed for the relations' object-role collection. -/
theorem fc_v97 (x0 : (⟨S2048x512, .f32⟩ : BufTy).Contents (Elt Ideal)) (x6 : (⟨S512x512, .f32⟩ : BufTy).Contents (Elt Ideal)) (x7 : (⟨S512, .f32⟩ : BufTy).Contents (Elt Ideal)) (s : Fin 2048) (d : Fin 512) :
    val_main_v97 (F := Ideal) x0 x6 x7 (ix2 s d) = Spec.fcAt x0 x6 x7 s d := by
  rw [val_main_v97_apply, val_main_v96_apply, val_main_v93_apply, val_main_v95_apply, val_main_v94_apply,
    val_main_call6_v0_apply, val_main_call6_cst_apply]
  have e1 : ∀ k : Fin 512, lidx_main_v93 (ix2 s d) k = ix2 s k := fun k => by idx_coords2
  have e2 : ∀ k : Fin 512, idx_main_v92 (ridx_main_v93 (ix2 s d) k) = ix2 d k := fun k => by idx_coords2
  have e3 : idx_main_v94 (idx_main_v95 (ix2 s d)) = ix1 d := by idx_coords1
  simp only [val_main_v92_apply, e1, e2, e3, Ideal.maximumf_def, Ideal.addf_def, Ideal.ofBits_def, Ideal.ofBits_zero_f32]
  rfl

/-- The collection from the objects into the relations, through the transposed object-role slice of the object-relation map. -/
theorem collect_v104 (x0 : (⟨S2048x512, .f32⟩ : BufTy).Contents (Elt Ideal)) (x5 : (⟨S2048x8192x2, .f32⟩ : BufTy).Contents (Elt Ideal)) (x6 : (⟨S512x512, .f32⟩ : BufTy).Contents (Elt Ideal)) (x7 : (⟨S512, .f32⟩ : BufTy).Contents (Elt Ideal)) (t : Fin 8192) (d : Fin 512) :
    val_main_v104 (F := Ideal) x0 x5 x6 x7 (ix2 t d)
      = Spec.collectAt (fun t s => x5 (ix3 s t 1)) (Spec.fcAt x0 x6 x7) t d := by
  rw [val_main_v104_apply, val_main_v98_apply, val_main_v103_apply, val_main_v102_apply, val_main_v100_apply, val_main_v99_apply,
    val_main_v101_apply, val_main_cst_13_apply, val_main_cst_12_apply]
  have e1 : ∀ k : Fin 2048, idx_main_v43 (idx_main_v44 (idx_main_v91 (lidx_main_v98 (ix2 t d) k))) = ix3 k t 1 := fun k =>
    (congrArg (fun j => idx_main_v43 (idx_main_v44 j)) (show idx_main_v91 (lidx_main_v98 (ix2 t d) k) = ix2 k t by idx_coords2)).trans (role1_idx k t)
  have e2 : ∀ k : Fin 2048, ridx_main_v98 (ix2 t d) k = ix2 k d := fun k => by idx_coords2
  have e3 : ∀ k : Fin 2048, idx_main_v43 (idx_main_v44 (idx_main_v91 (idx_main_v99 (idx_main_v100 (idx_main_v103 (ix2 t d))) k))) = ix3 k t 1 := fun k =>
    (congrArg (fun j => idx_main_v43 (idx_main_v44 j)) (show idx_main_v91 (idx_main_v99 (idx_main_v100 (idx_main_v103 (ix2 t d))) k) = ix2 k t by idx_coords2)).trans (role1_idx k t)
  simp only [val_main_v91_apply, val_main_v44_apply, val_main_v43_apply, e1, e2, e3, fc_v97, Ideal.hostDivf_def, Ideal.addf_def, Ideal.ofBits_def, Ideal.ofBits_zero_f32,
    zero_add]
  rfl

/-- The reference's updated relation features at row `r`, column `d`. -/
theorem rel_at (x0 : (⟨S2048x512, .f32⟩ : BufTy).Contents (Elt Ideal)) (x2 : (⟨S8192x512, .f32⟩ : BufTy).Contents (Elt Ideal)) (x5 : (⟨S2048x8192x2, .f32⟩ : BufTy).Contents (Elt Ideal)) (x6 : (⟨S512x512, .f32⟩ : BufTy).Contents (Elt Ideal)) (x7 : (⟨S512, .f32⟩ : BufTy).Contents (Elt Ideal)) (r : Fin 8192) (d : Fin 512) :
    val_main_v108 (F := Ideal) x0 x2 x5 x6 x7 (ix2 r d) = Spec.relAt x0 x2 x5 x6 x7 r d := by
  rw [val_main_v108_apply, val_main_v107_apply, val_main_v105_apply, val_main_v106_apply, val_main_cst_14_apply,
    collect_v90, collect_v104]
  rfl

/-- The reference's updated relation features are the specification's. -/
theorem rel_eq (x0 : (⟨S2048x512, .f32⟩ : BufTy).Contents (Elt Ideal)) (x2 : (⟨S8192x512, .f32⟩ : BufTy).Contents (Elt Ideal)) (x5 : (⟨S2048x8192x2, .f32⟩ : BufTy).Contents (Elt Ideal)) (x6 : (⟨S512x512, .f32⟩ : BufTy).Contents (Elt Ideal)) (x7 : (⟨S512, .f32⟩ : BufTy).Contents (Elt Ideal)) :
    val_main_v108 (F := Ideal) x0 x2 x5 x6 x7 = fun i => Spec.relAt x0 x2 x5 x6 x7 (i 0) (i 1) := by
  funext i
  obtain ⟨p, q, rfl⟩ : ∃ (p : Fin 8192) (q : Fin 512), i = ix2 p q := ⟨i 0, i 1, eq_ix2 i⟩
  exact rel_at x0 x2 x5 x6 x7 p q

end Cert.RefSpec

end
-- ==== Proof.lean ====
/-
  The certificate's five claims, assembled.

  Both programs compute, for every collection, (attn · relu (src · Wᵀ + b)) / (rowsum attn + eps), and from these the
  three updated feature arrays: the attributes gain one collection, the objects the mean of four, the relations the
  mean of two. The kernel splits each contraction and each row sum into blocks of 512 accumulated over the inner grid
  axis; on the extended reals addition is associative and commutative, so the blocked sums are the whole sums and both
  programs end with the specification's arrays (Proof/Spec.lean) of the same arguments. The three frame claims are the
  programs' runs with the arguments unchanged; the ideal reading rewrote nothing, so its claim is trivial.
-/
import proofs.«145590_j23742579212572_2_alg».proof.Defs
import proofs.«145590_j23742579212572_2_alg».proof.Proof.Gen.Kernel
import proofs.«145590_j23742579212572_2_alg».proof.Proof.Gen.KernelIdeal
import proofs.«145590_j23742579212572_2_alg».proof.Proof.Gen.ReferenceIdeal
import proofs.«145590_j23742579212572_2_alg».proof.Proof.Gen.Pre_finite_inputs
import proofs.«145590_j23742579212572_2_alg».proof.Proof.K.Run
import proofs.«145590_j23742579212572_2_alg».proof.Proof.KI.Run
import proofs.«145590_j23742579212572_2_alg».proof.Proof.KI.ValTop
import proofs.«145590_j23742579212572_2_alg».proof.Proof.RefIsSpec

noncomputable section

namespace Cert.Proof

open Idealize.ShloMosaic Idealize.SL.Sem

/-- The kernel as printed runs and leaves its twelve argument arrays as it found them. -/
theorem frame_kernel : Cert.frame_Kernel := fun m ρ _ => Cert.Kernel.Gen.frame (F := Bits) m ρ

/-- So does the kernel read on the extended reals. -/
theorem frame_kernelIdeal : Cert.frame_KernelIdeal := fun m ρ _ => Cert.KernelIdeal.Gen.frame (F := Ideal) m ρ

/-- So does the reference: its run posts the three results and then the unchanged arguments. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal reading rewrote no operation of the kernel. -/
theorem preserves : Cert.preserves_Kernel_KernelIdeal := trivial

/-- On the extended reals both programs end with the specification's three arrays of the arguments: the kernel's run
    by the regions' closed forms, the reference's by reading its host operations at an index; the two memories agree
    on the arguments, so the arrays are the same. -/
theorem algebraic : Cert.algebraic_KernelIdeal_ReferenceIdeal := by
  intro m ρ m' ρ' _ hagree
  refine ⟨fun c i => Cert.Spec.objAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1),
    fun c i => Cert.Spec.attAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1),
    fun c i => Cert.Spec.relAt (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1),
    Cert.KernelIdeal.Gen.run_values m ρ, ?_⟩
  refine (θ_run Cert.ReferenceIdeal.defs _ _).mono (fun _ h c => ?_) (Cert.ReferenceIdeal.Value.run (F := Ideal) m' ρ')
  obtain ⟨h0, h1, h2, hargs⟩ := h c
  obtain ⟨e0, e1, e2, e3, e4, e5, e6, e7, e8, e9, e10, e11⟩ := hagree c
  refine ⟨?_, ?_, ?_, hargs⟩
  · rw [h0, Cert.ReferenceIdeal.Read.val_main_v76_eq, Cert.RefSpec.obj_eq, e0, e1, e2, e3, e4, e5, e6, e7, e8, e9, e10, e11]
    rfl
  · rw [h1, Cert.ReferenceIdeal.Read.val_main_v14_eq, Cert.RefSpec.att_eq, e0, e1, e3, e6, e7]
    rfl
  · rw [h2, Cert.ReferenceIdeal.Read.val_main_v108_eq, Cert.RefSpec.rel_eq, e0, e2, e5, e6, e7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
